-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x128 : Shape := ⟨2, ![8, 128]⟩
abbrev S8x2048x128 : Shape := ⟨3, ![8, 2048, 128]⟩
abbrev S8x2048x16 : Shape := ⟨3, ![8, 2048, 16]⟩
abbrev S8x2048 : Shape := ⟨2, ![8, 2048]⟩
abbrev S8x2 : Shape := ⟨2, ![8, 2]⟩
abbrev S8x2048x2 : Shape := ⟨3, ![8, 2048, 2]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2 : S_.BroadcastsInDim S8x2 (![] : Fin 0 → Fin S8x2.rank)
  reducesTo_S8x2_S_d0_1 : S8x2.ReducesTo [0, 1] S_
  bcast_S_S8x2048x2 : S_.BroadcastsInDim S8x2048x2 (![] : Fin 0 → Fin S8x2048x2.rank)
  reducesTo_S8x2048x2_S_d0_1_2 : S8x2048x2.ReducesTo [0, 1, 2] S_
  reducesTo_S_S_d : S_.ReducesTo [] S_
  bcast_S_S8x2048x16 : S_.BroadcastsInDim S8x2048x16 (![] : Fin 0 → Fin S8x2048x16.rank)
  reducesTo_S8x2048x16_S_d0_1_2 : S8x2048x16.ReducesTo [0, 1, 2] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : IVec S8x2048x16 32) (main_arg6 : FVec F S_ .f32) (main_arg7 : FVec F S_ .f32) (main_v13 : IVec S_ 1) (main_v16 : IVec S8x2048x2 1) : IVec S_ 1 :=
  let main_c_5 : IVec S_ 1 := constantI S_ 1 1#1
  let main_v17 : IVec S_ 1 := (fun x v => Host.reduce IntOp.andi x v reducesTo_S8x2048x2_S_d0_1_2 h_S_) main_v16 main_c_5
  let main_v18 : IVec S_ 1 := andi main_v13 main_v17
  let main_v19 : FVec F S_ .f32 := Host.absf main_arg6
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S_ .f32 := Host.absf main_arg7
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  let main_c_10 : IVec S_ 32 := constantI S_ 32 0#32
  let main_v27 : IVec S8x2048x16 32 := broadcastInDim S8x2048x16 ![] bcast_S_S8x2048x16 main_c_10
  let main_v28 : IVec S8x2048x16 1 := cmpi .sge main_arg2 main_v27
  let main_c_11 : IVec S_ 32 := constantI S_ 32 2047#32
  let main_v29 : IVec S8x2048x16 32 := broadcastInDim S8x2048x16 ![] bcast_S_S8x2048x16 main_c_11
  let main_v30 : IVec S8x2048x16 1 := cmpi .sle main_arg2 main_v29
  let main_v31 : IVec S8x2048x16 1 := andi main_v28 main_v30
  let main_c_12 : IVec S_ 1 := constantI S_ 1 1#1
  let main_v32 : IVec S_ 1 := (fun x v => Host.reduce IntOp.andi x v reducesTo_S8x2048x16_S_d0_1_2 h_S_) main_v31 main_c_12
  fn_part2 (F := F) main_v26 main_v32

def fn {F : FTy → Type} [FloatOps F] (main_arg0 : FVec F S8x128 .f32) (main_arg1 : FVec F S8x2048x128 .f32) (main_arg2 : IVec S8x2048x16 32) (main_arg3 : IVec S8x2048 1) (main_arg4 : FVec F S8x2 .f32) (main_arg5 : FVec F S8x2048x2 .f32) (main_arg6 : FVec F S_ .f32) (main_arg7 : FVec F S_ .f32) : IVec S_ 1 :=
  let main_v0 : FVec F S8x128 .f32 := Host.absf main_arg0
  let main_cst : FVec F S_ .f32 := constant S_ .f32 0x7F800000#32
  let main_v1 : FVec F S8x128 .f32 := broadcastInDim S8x128 ![] bcast_S_S8x128 main_cst
  let main_v2 : IVec S8x128 1 := cmpf .olt main_v0 main_v1
  let main_c : IVec S_ 1 := constantI S_ 1 1#1
  let main_v3 : IVec S_ 1 := (fun x v => Host.reduce IntOp.andi x v reducesTo_S8x128_S_d0_1 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2 .f32 := Host.absf main_arg4
  let main_cst_2 : FVec F S_ .f32 := constant S_ .f32 0x7F800000#32
  let main_v10 : FVec F S8x2 .f32 := broadcastInDim S8x2 ![] bcast_S_S8x2 main_cst_2
  let main_v11 : IVec S8x2 1 := cmpf .olt main_v9 main_v10
  let main_c_3 : IVec S_ 1 := constantI S_ 1 1#1
  let main_v12 : IVec S_ 1 := (fun x v => Host.reduce IntOp.andi x v reducesTo_S8x2_S_d0_1 h_S_) main_v11 main_c_3
  let main_v13 : IVec S_ 1 := andi main_v8 main_v12
  let main_v14 : FVec F S8x2048x2 .f32 := Host.absf main_arg5
  let main_cst_4 : FVec F S_ .f32 := constant S_ .f32 0x7F800000#32
  let main_v15 : FVec F S8x2048x2 .f32 := broadcastInDim S8x2048x2 ![] bcast_S_S8x2048x2 main_cst_4
  let main_v16 : IVec S8x2048x2 1 := cmpf .olt main_v14 main_v15
  fn_part1 (F := F) main_arg2 main_arg6 main_arg7 main_v13 main_v16
-- ==== Kernel.lean ====
abbrev S8x128 : Shape := ⟨2, ![8, 128]⟩
abbrev S8x2048x128 : Shape := ⟨3, ![8, 2048, 128]⟩
abbrev S8x2048x16 : Shape := ⟨3, ![8, 2048, 16]⟩
abbrev S8x2048 : Shape := ⟨2, ![8, 2048]⟩
abbrev S8x2 : Shape := ⟨2, ![8, 2]⟩
abbrev S8x2048x2 : Shape := ⟨3, ![8, 2048, 2]⟩
abbrev S_ : Shape := ⟨0, ![]⟩
abbrev S8x2048x4x32 : Shape := ⟨4, ![8, 2048, 4, 32]⟩
abbrev S8x4x32x2048 : Shape := ⟨4, ![8, 4, 32, 2048]⟩
abbrev S32x32x2048 : Shape := ⟨3, ![32, 32, 2048]⟩
abbrev S8x16x2048 : Shape := ⟨3, ![8, 16, 2048]⟩
abbrev S32x32x1 : Shape := ⟨3, ![32, 32, 1]⟩
abbrev S32x32x16 : Shape := ⟨3, ![32, 32, 16]⟩
abbrev S32x2048 : Shape := ⟨2, ![32, 2048]⟩
abbrev S16x2048 : Shape := ⟨2, ![16, 2048]⟩
abbrev S32x16 : Shape := ⟨2, ![32, 16]⟩
abbrev S2048 : Shape := ⟨1, ![2048]⟩
abbrev S1x32x2048 : Shape := ⟨3, ![1, 32, 2048]⟩
abbrev S1x16x2048 : Shape := ⟨3, ![1, 16, 2048]⟩
abbrev S1x32x16 : Shape := ⟨3, ![1, 32, 16]⟩
abbrev S16 : Shape := ⟨1, ![16]⟩
abbrev S1x16 : Shape := ⟨2, ![1, 16]⟩
abbrev S1x2048 : Shape := ⟨2, ![1, 2048]⟩
abbrev S8x4x2048 : Shape := ⟨3, ![8, 4, 2048]⟩
abbrev S2x8x2048 : Shape := ⟨3, ![2, 8, 2048]⟩
abbrev S2x8 : Shape := ⟨2, ![2, 8]⟩
abbrev S2x8x1 : Shape := ⟨3, ![2, 8, 1]⟩
abbrev S1 : Shape := ⟨1, ![1]⟩
abbrev S2 : Shape := ⟨1, ![2]⟩
abbrev S1x8x2048 : Shape := ⟨3, ![1, 8, 2048]⟩
abbrev S1x8x1 : Shape := ⟨3, ![1, 8, 1]⟩
abbrev S8x1 : Shape := ⟨2, ![8, 1]⟩
abbrev S8 : Shape := ⟨1, ![8]⟩

abbrev nBuf : Table → Nat
  | .hbm => 26
  | .local .tc .vmem => 6
  | .local .tc .smem => 1
  | .local .scVector .vmem => 5
  | _ => 0

abbrev bufTy : (tb : Table) → Fin (nBuf tb) → BufTy
  | .hbm, ⟨0, _⟩ => ⟨S8x128, .f32⟩
  | .hbm, ⟨1, _⟩ => ⟨S8x2048x128, .f32⟩
  | .hbm, ⟨2, _⟩ => ⟨S8x2048x16, .i32⟩
  | .hbm, ⟨3, _⟩ => ⟨S8x2048, .i1⟩
  | .hbm, ⟨4, _⟩ => ⟨S8x2, .f32⟩
  | .hbm, ⟨5, _⟩ => ⟨S8x2048x2, .f32⟩
  | .hbm, ⟨6, _⟩ => ⟨S_, .f32⟩
  | .hbm, ⟨7, _⟩ => ⟨S_, .f32⟩
  | .hbm, ⟨8, _⟩ => ⟨S8x2048x4x32, .f32⟩
  | .hbm, ⟨9, _⟩ => ⟨S8x4x32x2048, .f32⟩
  | .hbm, ⟨10, _⟩ => ⟨S32x32x2048, .f32⟩
  | .hbm, ⟨11, _⟩ => ⟨S8x16x2048, .i32⟩
  | .hbm, ⟨12, _⟩ => ⟨S32x32x1, .f32⟩
  | .hbm, ⟨13, _⟩ => ⟨S32x32x16, .f32⟩
  | .hbm, ⟨14, _⟩ => ⟨S32x2048, .f32⟩
  | .hbm, ⟨15, _⟩ => ⟨S32x2048, .f32⟩
  | .hbm, ⟨16, _⟩ => ⟨S8x4x2048, .f32⟩
  | .hbm, ⟨17, _⟩ => ⟨S8x4x2048, .f32⟩
  | .hbm, ⟨18, _⟩ => ⟨S2x8x2048, .f32⟩
  | .hbm, ⟨19, _⟩ => ⟨S2x8, .f32⟩
  | .hbm, ⟨20, _⟩ => ⟨S2x8x1, .f32⟩
  | .hbm, ⟨21, _⟩ => ⟨S8x2048, .f32⟩
  | .hbm, ⟨22, _⟩ => ⟨S1, .f32⟩
  | .hbm, ⟨23, _⟩ => ⟨S1, .f32⟩
  | .hbm, ⟨24, _⟩ => ⟨S2, .f32⟩
  | .hbm, ⟨25, _⟩ => ⟨S8x2048, .f32⟩
  | .local .tc .vmem, ⟨0, _⟩ => ⟨S8x4x2048, .f32⟩
  | .local .tc .vmem, ⟨1, _⟩ => ⟨S8x4x2048, .f32⟩
  | .local .tc .vmem, ⟨2, _⟩ => ⟨S2x8x2048, .f32⟩
  | .local .tc .vmem, ⟨3, _⟩ => ⟨S2x8x1, .f32⟩
  | .local .tc .vmem, ⟨4, _⟩ => ⟨S8x2048, .f32⟩
  | .local .tc .vmem, ⟨5, _⟩ => ⟨S8x2048, .f32⟩
  | .local .tc .smem, ⟨0, _⟩ => ⟨S2, .f32⟩
  | .local .scVector .vmem, ⟨0, _⟩ => ⟨S32x2048, .f32⟩
  | .local .scVector .vmem, ⟨1, _⟩ => ⟨S16x2048, .i32⟩
  | .local .scVector .vmem, ⟨2, _⟩ => ⟨S32x16, .f32⟩
  | .local .scVector .vmem, ⟨3, _⟩ => ⟨S2048, .f32⟩
  | .local .scVector .vmem, ⟨4, _⟩ => ⟨S2048, .f32⟩
  | _, _ => ⟨S8x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v2_scv : Ref sig .scVector := ⟨.hbm, 10, rfl⟩
abbrev main_v3_scv : Ref sig .scVector := ⟨.hbm, 11, rfl⟩
abbrev main_v5_scv : Ref sig .scVector := ⟨.hbm, 13, rfl⟩
abbrev main_v6_0_scv : Ref sig .scVector := ⟨.hbm, 14, rfl⟩
abbrev main_v6_1_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg6_0 : Ref sig .tc := ⟨.vmem, 5, rfl⟩
abbrev cc1_stg5_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r0 : BitVec 32 := 0#32
  let c0_i32_9_r0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_8_r1 : BitVec 32 := 0#32
  let c0_i32_9_r1 : BitVec 32 := 0#32
  ![v18.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r2 : BitVec 32 := 0#32
  let c0_i32_9_r2 : BitVec 32 := 0#32
  ![v1.toNat, 0, 0]
@[reducible] def k0_t1_loop : Scf.Loop 32 :=
  let c0_i32_5 : BitVec 32 := 0#32
  let c128_i32 : BitVec 32 := 128#32
  let v19 : BitVec 32 := Scalar.addi c0_i32_5 c128_i32
  let c1_i32_6 : BitVec 32 := 1#32
  ⟨c0_i32_5, v19, c1_i32_6⟩
def k0_off4 (k0_t1 : Fin k0_t1_loop.trips) : Fin 2 → Nat :=
  let c0_i32_8 : BitVec 32 := 0#32
  let v21 : Index := Scalar.indexCast c0_i32_8
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v22 : Index := Scalar.indexCast v20
  ![0, v22.toNat]
def k0_off5 (k0_t1 : Fin k0_t1_loop.trips) : Fin 2 → Nat :=
  let c1_i32_9 : BitVec 32 := 1#32
  let v24 : Index := Scalar.indexCast c1_i32_9
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v25 : Index := Scalar.indexCast v20
  ![1, v25.toNat]
def k0_off6 (k0_t1 : Fin k0_t1_loop.trips) : Fin 2 → Nat :=
  let c2_i32_10 : BitVec 32 := 2#32
  let v27 : Index := Scalar.indexCast c2_i32_10
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v28 : Index := Scalar.indexCast v20
  ![2, v28.toNat]
def k0_off7 (k0_t1 : Fin k0_t1_loop.trips) : Fin 2 → Nat :=
  let c3_i32 : BitVec 32 := 3#32
  let v30 : Index := Scalar.indexCast c3_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v31 : Index := Scalar.indexCast v20
  ![3, v31.toNat]
def k0_off8 (k0_t1 : Fin k0_t1_loop.trips) : Fin 2 → Nat :=
  let c4_i32_11 : BitVec 32 := 4#32
  let v33 : Index := Scalar.indexCast c4_i32_11
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v34 : Index := Scalar.indexCast v20
  ![4, v34.toNat]
def k0_off9 (k0_t1 : Fin k0_t1_loop.trips) : Fin 2 → Nat :=
  let c5_i32 : BitVec 32 := 5#32
  let v36 : Index := Scalar.indexCast c5_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v37 : Index := Scalar.indexCast v20
  ![5, v37.toNat]
def k0_off10 (k0_t1 : Fin k0_t1_loop.trips) : Fin 2 → Nat :=
  let c6_i32 : BitVec 32 := 6#32
  let v39 : Index := Scalar.indexCast c6_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v40 : Index := Scalar.indexCast v20
  ![6, v40.toNat]
def k0_off11 (k0_t1 : Fin k0_t1_loop.trips) : Fin 2 → Nat :=
  let c7_i32 : BitVec 32 := 7#32
  let v42 : Index := Scalar.indexCast c7_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v43 : Index := Scalar.indexCast v20
  ![7, v43.toNat]
def k0_off12 (k0_t1 : Fin k0_t1_loop.trips) : Fin 2 → Nat :=
  let c8_i32 : BitVec 32 := 8#32
  let v45 : Index := Scalar.indexCast c8_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v46 : Index := Scalar.indexCast v20
  ![8, v46.toNat]
def k0_off13 (k0_t1 : Fin k0_t1_loop.trips) : Fin 2 → Nat :=
  let c9_i32 : BitVec 32 := 9#32
  let v48 : Index := Scalar.indexCast c9_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v49 : Index := Scalar.indexCast v20
  ![9, v49.toNat]
def k0_off14 (k0_t1 : Fin k0_t1_loop.trips) : Fin 2 → Nat :=
  let c10_i32 : BitVec 32 := 10#32
  let v51 : Index := Scalar.indexCast c10_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v52 : Index := Scalar.indexCast v20
  ![10, v52.toNat]
def k0_off15 (k0_t1 : Fin k0_t1_loop.trips) : Fin 2 → Nat :=
  let c11_i32 : BitVec 32 := 11#32
  let v54 : Index := Scalar.indexCast c11_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v55 : Index := Scalar.indexCast v20
  ![11, v55.toNat]
def k0_off16 (k0_t1 : Fin k0_t1_loop.trips) : Fin 2 → Nat :=
  let c12_i32 : BitVec 32 := 12#32
  let v57 : Index := Scalar.indexCast c12_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v58 : Index := Scalar.indexCast v20
  ![12, v58.toNat]
def k0_off17 (k0_t1 : Fin k0_t1_loop.trips) : Fin 2 → Nat :=
  let c13_i32 : BitVec 32 := 13#32
  let v60 : Index := Scalar.indexCast c13_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v61 : Index := Scalar.indexCast v20
  ![13, v61.toNat]
def k0_off18 (k0_t1 : Fin k0_t1_loop.trips) : Fin 2 → Nat :=
  let c14_i32 : BitVec 32 := 14#32
  let v63 : Index := Scalar.indexCast c14_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v64 : Index := Scalar.indexCast v20
  ![14, v64.toNat]
def k0_off19 (k0_t1 : Fin k0_t1_loop.trips) : Fin 2 → Nat :=
  let c15_i32 : BitVec 32 := 15#32
  let v66 : Index := Scalar.indexCast c15_i32
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v67 : Index := Scalar.indexCast v20
  ![15, v67.toNat]

def k0_chk1 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) : Prop :=
  (∀ a x, ((![v71, v23] : Fin 2 → IVec S16 32) a x).toNat < S32x2048.size a) ∧
  (∀ a x, ((![v71, v26] : Fin 2 → IVec S16 32) a x).toNat < S32x2048.size a) ∧
  (∀ a x, ((![v71, v29] : Fin 2 → IVec S16 32) a x).toNat < S32x2048.size a) ∧
  (∀ a x, ((![v71, v32] : Fin 2 → IVec S16 32) a x).toNat < S32x2048.size a) ∧
  (∀ a x, ((![v71, v35] : Fin 2 → IVec S16 32) a x).toNat < S32x2048.size a) ∧
  (∀ a x, ((![v71, v38] : Fin 2 → IVec S16 32) a x).toNat < S32x2048.size a) ∧
  (∀ a x, ((![v71, v41] : Fin 2 → IVec S16 32) a x).toNat < S32x2048.size a) ∧
  (∀ a x, ((![v71, v44] : Fin 2 → IVec S16 32) a x).toNat < S32x2048.size a) ∧
  (∀ a x, ((![v71, v47] : Fin 2 → IVec S16 32) a x).toNat < S32x2048.size a) ∧
  (∀ a x, ((![v71, v50] : Fin 2 → IVec S16 32) a x).toNat < S32x2048.size a) ∧
  (∀ a x, ((![v71, v53] : Fin 2 → IVec S16 32) a x).toNat < S32x2048.size a) ∧
  (∀ a x, ((![v71, v56] : Fin 2 → IVec S16 32) a x).toNat < S32x2048.size a) ∧
  (∀ a x, ((![v71, v59] : Fin 2 → IVec S16 32) a x).toNat < S32x2048.size a) ∧
  (∀ a x, ((![v71, v62] : Fin 2 → IVec S16 32) a x).toNat < S32x2048.size a) ∧
  (∀ a x, ((![v71, v65] : Fin 2 → IVec S16 32) a x).toNat < S32x2048.size a) ∧
  (∀ a x, ((![v71, v68] : Fin 2 → IVec S16 32) a x).toNat < S32x2048.size a)
instance k0_chk1.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32), Decidable (k0_chk1 v23 v26 v29 v32 v35 v38 v41 v44 v47 v50 v53 v56 v59 v62 v65 v68 v71) := fun v23 v26 v29 v32 v35 v38 v41 v44 v47 v50 v53 v56 v59 v62 v65 v68 v71 => decidable_of_iff' _ (Iff.of_eq (k0_chk1.eq_1 v23 v26 v29 v32 v35 v38 v41 v44 v47 v50 v53 v56 v59 v62 v65 v68 v71))
theorem k0_idx1_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v23] : Fin 2 → IVec S16 32) a x).toNat < S32x2048.size a := fun v23 v26 v29 v32 v35 v38 v41 v44 v47 v50 v53 v56 v59 v62 v65 v68 v71 k0_hw1 => k0_hw1.1
theorem k0_idx2_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v26] : Fin 2 → IVec S16 32) a x).toNat < S32x2048.size a := fun v23 v26 v29 v32 v35 v38 v41 v44 v47 v50 v53 v56 v59 v62 v65 v68 v71 k0_hw1 => k0_hw1.2.1
theorem k0_idx3_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v29] : Fin 2 → IVec S16 32) a x).toNat < S32x2048.size a := fun v23 v26 v29 v32 v35 v38 v41 v44 v47 v50 v53 v56 v59 v62 v65 v68 v71 k0_hw1 => k0_hw1.2.2.1
theorem k0_idx4_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v32] : Fin 2 → IVec S16 32) a x).toNat < S32x2048.size a := fun v23 v26 v29 v32 v35 v38 v41 v44 v47 v50 v53 v56 v59 v62 v65 v68 v71 k0_hw1 => k0_hw1.2.2.2.1
theorem k0_idx5_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v35] : Fin 2 → IVec S16 32) a x).toNat < S32x2048.size a := fun v23 v26 v29 v32 v35 v38 v41 v44 v47 v50 v53 v56 v59 v62 v65 v68 v71 k0_hw1 => k0_hw1.2.2.2.2.1
theorem k0_idx6_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v38] : Fin 2 → IVec S16 32) a x).toNat < S32x2048.size a := fun v23 v26 v29 v32 v35 v38 v41 v44 v47 v50 v53 v56 v59 v62 v65 v68 v71 k0_hw1 => k0_hw1.2.2.2.2.2.1
theorem k0_idx7_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v41] : Fin 2 → IVec S16 32) a x).toNat < S32x2048.size a := fun v23 v26 v29 v32 v35 v38 v41 v44 v47 v50 v53 v56 v59 v62 v65 v68 v71 k0_hw1 => k0_hw1.2.2.2.2.2.2.1
theorem k0_idx8_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v44] : Fin 2 → IVec S16 32) a x).toNat < S32x2048.size a := fun v23 v26 v29 v32 v35 v38 v41 v44 v47 v50 v53 v56 v59 v62 v65 v68 v71 k0_hw1 => k0_hw1.2.2.2.2.2.2.2.1
theorem k0_idx9_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v47] : Fin 2 → IVec S16 32) a x).toNat < S32x2048.size a := fun v23 v26 v29 v32 v35 v38 v41 v44 v47 v50 v53 v56 v59 v62 v65 v68 v71 k0_hw1 => k0_hw1.2.2.2.2.2.2.2.2.1
theorem k0_idx10_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v50] : Fin 2 → IVec S16 32) a x).toNat < S32x2048.size a := fun v23 v26 v29 v32 v35 v38 v41 v44 v47 v50 v53 v56 v59 v62 v65 v68 v71 k0_hw1 => k0_hw1.2.2.2.2.2.2.2.2.2.1
theorem k0_idx11_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v53] : Fin 2 → IVec S16 32) a x).toNat < S32x2048.size a := fun v23 v26 v29 v32 v35 v38 v41 v44 v47 v50 v53 v56 v59 v62 v65 v68 v71 k0_hw1 => k0_hw1.2.2.2.2.2.2.2.2.2.2.1
theorem k0_idx12_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v56] : Fin 2 → IVec S16 32) a x).toNat < S32x2048.size a := fun v23 v26 v29 v32 v35 v38 v41 v44 v47 v50 v53 v56 v59 v62 v65 v68 v71 k0_hw1 => k0_hw1.2.2.2.2.2.2.2.2.2.2.2.1
theorem k0_idx13_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v59] : Fin 2 → IVec S16 32) a x).toNat < S32x2048.size a := fun v23 v26 v29 v32 v35 v38 v41 v44 v47 v50 v53 v56 v59 v62 v65 v68 v71 k0_hw1 => k0_hw1.2.2.2.2.2.2.2.2.2.2.2.2.1
theorem k0_idx14_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v62] : Fin 2 → IVec S16 32) a x).toNat < S32x2048.size a := fun v23 v26 v29 v32 v35 v38 v41 v44 v47 v50 v53 v56 v59 v62 v65 v68 v71 k0_hw1 => k0_hw1.2.2.2.2.2.2.2.2.2.2.2.2.2.1
theorem k0_idx15_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v65] : Fin 2 → IVec S16 32) a x).toNat < S32x2048.size a := fun v23 v26 v29 v32 v35 v38 v41 v44 v47 v50 v53 v56 v59 v62 v65 v68 v71 k0_hw1 => k0_hw1.2.2.2.2.2.2.2.2.2.2.2.2.2.2.1
theorem k0_idx16_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v71 : IVec S16 32) (k0_hw1 : k0_chk1 v23 v26 v29 v32 v35 v38 v41 v44 v47 v50 v53 v56 v59 v62 v65 v68 v71), ∀ a x, ((![v71, v68] : Fin 2 → IVec S16 32) a x).toNat < S32x2048.size a := fun v23 v26 v29 v32 v35 v38 v41 v44 v47 v50 v53 v56 v59 v62 v65 v68 v71 k0_hw1 => k0_hw1.2.2.2.2.2.2.2.2.2.2.2.2.2.2.2
def k0_off20 (k0_t1 : Fin k0_t1_loop.trips) : Fin 2 → Nat :=
  let c0_i32_14 : BitVec 32 := 0#32
  let v103 : Index := Scalar.indexCast c0_i32_14
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v104 : Index := Scalar.indexCast v20
  ![0, v104.toNat]

def k0_chk2 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) : Prop :=
  (∀ a x, ((![v112, v23] : Fin 2 → IVec S16 32) a x).toNat < S32x2048.size a) ∧
  (∀ a x, ((![v112, v26] : Fin 2 → IVec S16 32) a x).toNat < S32x2048.size a) ∧
  (∀ a x, ((![v112, v29] : Fin 2 → IVec S16 32) a x).toNat < S32x2048.size a) ∧
  (∀ a x, ((![v112, v32] : Fin 2 → IVec S16 32) a x).toNat < S32x2048.size a) ∧
  (∀ a x, ((![v112, v35] : Fin 2 → IVec S16 32) a x).toNat < S32x2048.size a) ∧
  (∀ a x, ((![v112, v38] : Fin 2 → IVec S16 32) a x).toNat < S32x2048.size a) ∧
  (∀ a x, ((![v112, v41] : Fin 2 → IVec S16 32) a x).toNat < S32x2048.size a) ∧
  (∀ a x, ((![v112, v44] : Fin 2 → IVec S16 32) a x).toNat < S32x2048.size a) ∧
  (∀ a x, ((![v112, v47] : Fin 2 → IVec S16 32) a x).toNat < S32x2048.size a) ∧
  (∀ a x, ((![v112, v50] : Fin 2 → IVec S16 32) a x).toNat < S32x2048.size a) ∧
  (∀ a x, ((![v112, v53] : Fin 2 → IVec S16 32) a x).toNat < S32x2048.size a) ∧
  (∀ a x, ((![v112, v56] : Fin 2 → IVec S16 32) a x).toNat < S32x2048.size a) ∧
  (∀ a x, ((![v112, v59] : Fin 2 → IVec S16 32) a x).toNat < S32x2048.size a) ∧
  (∀ a x, ((![v112, v62] : Fin 2 → IVec S16 32) a x).toNat < S32x2048.size a) ∧
  (∀ a x, ((![v112, v65] : Fin 2 → IVec S16 32) a x).toNat < S32x2048.size a) ∧
  (∀ a x, ((![v112, v68] : Fin 2 → IVec S16 32) a x).toNat < S32x2048.size a)
instance k0_chk2.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32), Decidable (k0_chk2 v23 v26 v29 v32 v35 v38 v41 v44 v47 v50 v53 v56 v59 v62 v65 v68 v112) := fun v23 v26 v29 v32 v35 v38 v41 v44 v47 v50 v53 v56 v59 v62 v65 v68 v112 => decidable_of_iff' _ (Iff.of_eq (k0_chk2.eq_1 v23 v26 v29 v32 v35 v38 v41 v44 v47 v50 v53 v56 v59 v62 v65 v68 v112))
theorem k0_idx17_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v23] : Fin 2 → IVec S16 32) a x).toNat < S32x2048.size a := fun v23 v26 v29 v32 v35 v38 v41 v44 v47 v50 v53 v56 v59 v62 v65 v68 v112 k0_hw2 => k0_hw2.1
theorem k0_idx18_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v26] : Fin 2 → IVec S16 32) a x).toNat < S32x2048.size a := fun v23 v26 v29 v32 v35 v38 v41 v44 v47 v50 v53 v56 v59 v62 v65 v68 v112 k0_hw2 => k0_hw2.2.1
theorem k0_idx19_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v29] : Fin 2 → IVec S16 32) a x).toNat < S32x2048.size a := fun v23 v26 v29 v32 v35 v38 v41 v44 v47 v50 v53 v56 v59 v62 v65 v68 v112 k0_hw2 => k0_hw2.2.2.1
theorem k0_idx20_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v32] : Fin 2 → IVec S16 32) a x).toNat < S32x2048.size a := fun v23 v26 v29 v32 v35 v38 v41 v44 v47 v50 v53 v56 v59 v62 v65 v68 v112 k0_hw2 => k0_hw2.2.2.2.1
theorem k0_idx21_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v35] : Fin 2 → IVec S16 32) a x).toNat < S32x2048.size a := fun v23 v26 v29 v32 v35 v38 v41 v44 v47 v50 v53 v56 v59 v62 v65 v68 v112 k0_hw2 => k0_hw2.2.2.2.2.1
theorem k0_idx22_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v38] : Fin 2 → IVec S16 32) a x).toNat < S32x2048.size a := fun v23 v26 v29 v32 v35 v38 v41 v44 v47 v50 v53 v56 v59 v62 v65 v68 v112 k0_hw2 => k0_hw2.2.2.2.2.2.1
theorem k0_idx23_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v41] : Fin 2 → IVec S16 32) a x).toNat < S32x2048.size a := fun v23 v26 v29 v32 v35 v38 v41 v44 v47 v50 v53 v56 v59 v62 v65 v68 v112 k0_hw2 => k0_hw2.2.2.2.2.2.2.1
theorem k0_idx24_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v44] : Fin 2 → IVec S16 32) a x).toNat < S32x2048.size a := fun v23 v26 v29 v32 v35 v38 v41 v44 v47 v50 v53 v56 v59 v62 v65 v68 v112 k0_hw2 => k0_hw2.2.2.2.2.2.2.2.1
theorem k0_idx25_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v47] : Fin 2 → IVec S16 32) a x).toNat < S32x2048.size a := fun v23 v26 v29 v32 v35 v38 v41 v44 v47 v50 v53 v56 v59 v62 v65 v68 v112 k0_hw2 => k0_hw2.2.2.2.2.2.2.2.2.1
theorem k0_idx26_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v50] : Fin 2 → IVec S16 32) a x).toNat < S32x2048.size a := fun v23 v26 v29 v32 v35 v38 v41 v44 v47 v50 v53 v56 v59 v62 v65 v68 v112 k0_hw2 => k0_hw2.2.2.2.2.2.2.2.2.2.1
theorem k0_idx27_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v53] : Fin 2 → IVec S16 32) a x).toNat < S32x2048.size a := fun v23 v26 v29 v32 v35 v38 v41 v44 v47 v50 v53 v56 v59 v62 v65 v68 v112 k0_hw2 => k0_hw2.2.2.2.2.2.2.2.2.2.2.1
theorem k0_idx28_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v56] : Fin 2 → IVec S16 32) a x).toNat < S32x2048.size a := fun v23 v26 v29 v32 v35 v38 v41 v44 v47 v50 v53 v56 v59 v62 v65 v68 v112 k0_hw2 => k0_hw2.2.2.2.2.2.2.2.2.2.2.2.1
theorem k0_idx29_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v59] : Fin 2 → IVec S16 32) a x).toNat < S32x2048.size a := fun v23 v26 v29 v32 v35 v38 v41 v44 v47 v50 v53 v56 v59 v62 v65 v68 v112 k0_hw2 => k0_hw2.2.2.2.2.2.2.2.2.2.2.2.2.1
theorem k0_idx30_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v62] : Fin 2 → IVec S16 32) a x).toNat < S32x2048.size a := fun v23 v26 v29 v32 v35 v38 v41 v44 v47 v50 v53 v56 v59 v62 v65 v68 v112 k0_hw2 => k0_hw2.2.2.2.2.2.2.2.2.2.2.2.2.2.1
theorem k0_idx31_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v65] : Fin 2 → IVec S16 32) a x).toNat < S32x2048.size a := fun v23 v26 v29 v32 v35 v38 v41 v44 v47 v50 v53 v56 v59 v62 v65 v68 v112 k0_hw2 => k0_hw2.2.2.2.2.2.2.2.2.2.2.2.2.2.2.1
theorem k0_idx32_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v112 : IVec S16 32) (k0_hw2 : k0_chk2 v23 v26 v29 v32 v35 v38 v41 v44 v47 v50 v53 v56 v59 v62 v65 v68 v112), ∀ a x, ((![v112, v68] : Fin 2 → IVec S16 32) a x).toNat < S32x2048.size a := fun v23 v26 v29 v32 v35 v38 v41 v44 v47 v50 v53 v56 v59 v62 v65 v68 v112 k0_hw2 => k0_hw2.2.2.2.2.2.2.2.2.2.2.2.2.2.2.2
def k0_off21 (k0_t1 : Fin k0_t1_loop.trips) : Fin 2 → Nat :=
  let c1_i32_17 : BitVec 32 := 1#32
  let v144 : Index := Scalar.indexCast c1_i32_17
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v145 : Index := Scalar.indexCast v20
  ![1, v145.toNat]

def k0_chk3 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) : Prop :=
  (∀ a x, ((![v153, v23] : Fin 2 → IVec S16 32) a x).toNat < S32x2048.size a) ∧
  (∀ a x, ((![v153, v26] : Fin 2 → IVec S16 32) a x).toNat < S32x2048.size a) ∧
  (∀ a x, ((![v153, v29] : Fin 2 → IVec S16 32) a x).toNat < S32x2048.size a) ∧
  (∀ a x, ((![v153, v32] : Fin 2 → IVec S16 32) a x).toNat < S32x2048.size a) ∧
  (∀ a x, ((![v153, v35] : Fin 2 → IVec S16 32) a x).toNat < S32x2048.size a) ∧
  (∀ a x, ((![v153, v38] : Fin 2 → IVec S16 32) a x).toNat < S32x2048.size a) ∧
  (∀ a x, ((![v153, v41] : Fin 2 → IVec S16 32) a x).toNat < S32x2048.size a) ∧
  (∀ a x, ((![v153, v44] : Fin 2 → IVec S16 32) a x).toNat < S32x2048.size a) ∧
  (∀ a x, ((![v153, v47] : Fin 2 → IVec S16 32) a x).toNat < S32x2048.size a) ∧
  (∀ a x, ((![v153, v50] : Fin 2 → IVec S16 32) a x).toNat < S32x2048.size a) ∧
  (∀ a x, ((![v153, v53] : Fin 2 → IVec S16 32) a x).toNat < S32x2048.size a) ∧
  (∀ a x, ((![v153, v56] : Fin 2 → IVec S16 32) a x).toNat < S32x2048.size a) ∧
  (∀ a x, ((![v153, v59] : Fin 2 → IVec S16 32) a x).toNat < S32x2048.size a) ∧
  (∀ a x, ((![v153, v62] : Fin 2 → IVec S16 32) a x).toNat < S32x2048.size a) ∧
  (∀ a x, ((![v153, v65] : Fin 2 → IVec S16 32) a x).toNat < S32x2048.size a) ∧
  (∀ a x, ((![v153, v68] : Fin 2 → IVec S16 32) a x).toNat < S32x2048.size a)
instance k0_chk3.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32), Decidable (k0_chk3 v23 v26 v29 v32 v35 v38 v41 v44 v47 v50 v53 v56 v59 v62 v65 v68 v153) := fun v23 v26 v29 v32 v35 v38 v41 v44 v47 v50 v53 v56 v59 v62 v65 v68 v153 => decidable_of_iff' _ (Iff.of_eq (k0_chk3.eq_1 v23 v26 v29 v32 v35 v38 v41 v44 v47 v50 v53 v56 v59 v62 v65 v68 v153))
theorem k0_idx33_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v23] : Fin 2 → IVec S16 32) a x).toNat < S32x2048.size a := fun v23 v26 v29 v32 v35 v38 v41 v44 v47 v50 v53 v56 v59 v62 v65 v68 v153 k0_hw3 => k0_hw3.1
theorem k0_idx34_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v26] : Fin 2 → IVec S16 32) a x).toNat < S32x2048.size a := fun v23 v26 v29 v32 v35 v38 v41 v44 v47 v50 v53 v56 v59 v62 v65 v68 v153 k0_hw3 => k0_hw3.2.1
theorem k0_idx35_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v29] : Fin 2 → IVec S16 32) a x).toNat < S32x2048.size a := fun v23 v26 v29 v32 v35 v38 v41 v44 v47 v50 v53 v56 v59 v62 v65 v68 v153 k0_hw3 => k0_hw3.2.2.1
theorem k0_idx36_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v32] : Fin 2 → IVec S16 32) a x).toNat < S32x2048.size a := fun v23 v26 v29 v32 v35 v38 v41 v44 v47 v50 v53 v56 v59 v62 v65 v68 v153 k0_hw3 => k0_hw3.2.2.2.1
theorem k0_idx37_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v35] : Fin 2 → IVec S16 32) a x).toNat < S32x2048.size a := fun v23 v26 v29 v32 v35 v38 v41 v44 v47 v50 v53 v56 v59 v62 v65 v68 v153 k0_hw3 => k0_hw3.2.2.2.2.1
theorem k0_idx38_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v38] : Fin 2 → IVec S16 32) a x).toNat < S32x2048.size a := fun v23 v26 v29 v32 v35 v38 v41 v44 v47 v50 v53 v56 v59 v62 v65 v68 v153 k0_hw3 => k0_hw3.2.2.2.2.2.1
theorem k0_idx39_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v41] : Fin 2 → IVec S16 32) a x).toNat < S32x2048.size a := fun v23 v26 v29 v32 v35 v38 v41 v44 v47 v50 v53 v56 v59 v62 v65 v68 v153 k0_hw3 => k0_hw3.2.2.2.2.2.2.1
theorem k0_idx40_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v44] : Fin 2 → IVec S16 32) a x).toNat < S32x2048.size a := fun v23 v26 v29 v32 v35 v38 v41 v44 v47 v50 v53 v56 v59 v62 v65 v68 v153 k0_hw3 => k0_hw3.2.2.2.2.2.2.2.1
theorem k0_idx41_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v47] : Fin 2 → IVec S16 32) a x).toNat < S32x2048.size a := fun v23 v26 v29 v32 v35 v38 v41 v44 v47 v50 v53 v56 v59 v62 v65 v68 v153 k0_hw3 => k0_hw3.2.2.2.2.2.2.2.2.1
theorem k0_idx42_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v50] : Fin 2 → IVec S16 32) a x).toNat < S32x2048.size a := fun v23 v26 v29 v32 v35 v38 v41 v44 v47 v50 v53 v56 v59 v62 v65 v68 v153 k0_hw3 => k0_hw3.2.2.2.2.2.2.2.2.2.1
theorem k0_idx43_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v53] : Fin 2 → IVec S16 32) a x).toNat < S32x2048.size a := fun v23 v26 v29 v32 v35 v38 v41 v44 v47 v50 v53 v56 v59 v62 v65 v68 v153 k0_hw3 => k0_hw3.2.2.2.2.2.2.2.2.2.2.1
theorem k0_idx44_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v56] : Fin 2 → IVec S16 32) a x).toNat < S32x2048.size a := fun v23 v26 v29 v32 v35 v38 v41 v44 v47 v50 v53 v56 v59 v62 v65 v68 v153 k0_hw3 => k0_hw3.2.2.2.2.2.2.2.2.2.2.2.1
theorem k0_idx45_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v59] : Fin 2 → IVec S16 32) a x).toNat < S32x2048.size a := fun v23 v26 v29 v32 v35 v38 v41 v44 v47 v50 v53 v56 v59 v62 v65 v68 v153 k0_hw3 => k0_hw3.2.2.2.2.2.2.2.2.2.2.2.2.1
theorem k0_idx46_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v62] : Fin 2 → IVec S16 32) a x).toNat < S32x2048.size a := fun v23 v26 v29 v32 v35 v38 v41 v44 v47 v50 v53 v56 v59 v62 v65 v68 v153 k0_hw3 => k0_hw3.2.2.2.2.2.2.2.2.2.2.2.2.2.1
theorem k0_idx47_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v65] : Fin 2 → IVec S16 32) a x).toNat < S32x2048.size a := fun v23 v26 v29 v32 v35 v38 v41 v44 v47 v50 v53 v56 v59 v62 v65 v68 v153 k0_hw3 => k0_hw3.2.2.2.2.2.2.2.2.2.2.2.2.2.2.1
theorem k0_idx48_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v153 : IVec S16 32) (k0_hw3 : k0_chk3 v23 v26 v29 v32 v35 v38 v41 v44 v47 v50 v53 v56 v59 v62 v65 v68 v153), ∀ a x, ((![v153, v68] : Fin 2 → IVec S16 32) a x).toNat < S32x2048.size a := fun v23 v26 v29 v32 v35 v38 v41 v44 v47 v50 v53 v56 v59 v62 v65 v68 v153 k0_hw3 => k0_hw3.2.2.2.2.2.2.2.2.2.2.2.2.2.2.2
def k0_off22 (k0_t1 : Fin k0_t1_loop.trips) : Fin 2 → Nat :=
  let c2_i32_21 : BitVec 32 := 2#32
  let v185 : Index := Scalar.indexCast c2_i32_21
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v186 : Index := Scalar.indexCast v20
  ![2, v186.toNat]

def k0_chk4 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) : Prop :=
  (∀ a x, ((![v194, v23] : Fin 2 → IVec S16 32) a x).toNat < S32x2048.size a) ∧
  (∀ a x, ((![v194, v26] : Fin 2 → IVec S16 32) a x).toNat < S32x2048.size a) ∧
  (∀ a x, ((![v194, v29] : Fin 2 → IVec S16 32) a x).toNat < S32x2048.size a) ∧
  (∀ a x, ((![v194, v32] : Fin 2 → IVec S16 32) a x).toNat < S32x2048.size a) ∧
  (∀ a x, ((![v194, v35] : Fin 2 → IVec S16 32) a x).toNat < S32x2048.size a) ∧
  (∀ a x, ((![v194, v38] : Fin 2 → IVec S16 32) a x).toNat < S32x2048.size a) ∧
  (∀ a x, ((![v194, v41] : Fin 2 → IVec S16 32) a x).toNat < S32x2048.size a) ∧
  (∀ a x, ((![v194, v44] : Fin 2 → IVec S16 32) a x).toNat < S32x2048.size a) ∧
  (∀ a x, ((![v194, v47] : Fin 2 → IVec S16 32) a x).toNat < S32x2048.size a) ∧
  (∀ a x, ((![v194, v50] : Fin 2 → IVec S16 32) a x).toNat < S32x2048.size a) ∧
  (∀ a x, ((![v194, v53] : Fin 2 → IVec S16 32) a x).toNat < S32x2048.size a) ∧
  (∀ a x, ((![v194, v56] : Fin 2 → IVec S16 32) a x).toNat < S32x2048.size a) ∧
  (∀ a x, ((![v194, v59] : Fin 2 → IVec S16 32) a x).toNat < S32x2048.size a) ∧
  (∀ a x, ((![v194, v62] : Fin 2 → IVec S16 32) a x).toNat < S32x2048.size a) ∧
  (∀ a x, ((![v194, v65] : Fin 2 → IVec S16 32) a x).toNat < S32x2048.size a) ∧
  (∀ a x, ((![v194, v68] : Fin 2 → IVec S16 32) a x).toNat < S32x2048.size a)
instance k0_chk4.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32), Decidable (k0_chk4 v23 v26 v29 v32 v35 v38 v41 v44 v47 v50 v53 v56 v59 v62 v65 v68 v194) := fun v23 v26 v29 v32 v35 v38 v41 v44 v47 v50 v53 v56 v59 v62 v65 v68 v194 => decidable_of_iff' _ (Iff.of_eq (k0_chk4.eq_1 v23 v26 v29 v32 v35 v38 v41 v44 v47 v50 v53 v56 v59 v62 v65 v68 v194))
theorem k0_idx49_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v23] : Fin 2 → IVec S16 32) a x).toNat < S32x2048.size a := fun v23 v26 v29 v32 v35 v38 v41 v44 v47 v50 v53 v56 v59 v62 v65 v68 v194 k0_hw4 => k0_hw4.1
theorem k0_idx50_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v26] : Fin 2 → IVec S16 32) a x).toNat < S32x2048.size a := fun v23 v26 v29 v32 v35 v38 v41 v44 v47 v50 v53 v56 v59 v62 v65 v68 v194 k0_hw4 => k0_hw4.2.1
theorem k0_idx51_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v29] : Fin 2 → IVec S16 32) a x).toNat < S32x2048.size a := fun v23 v26 v29 v32 v35 v38 v41 v44 v47 v50 v53 v56 v59 v62 v65 v68 v194 k0_hw4 => k0_hw4.2.2.1
theorem k0_idx52_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v32] : Fin 2 → IVec S16 32) a x).toNat < S32x2048.size a := fun v23 v26 v29 v32 v35 v38 v41 v44 v47 v50 v53 v56 v59 v62 v65 v68 v194 k0_hw4 => k0_hw4.2.2.2.1
theorem k0_idx53_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v35] : Fin 2 → IVec S16 32) a x).toNat < S32x2048.size a := fun v23 v26 v29 v32 v35 v38 v41 v44 v47 v50 v53 v56 v59 v62 v65 v68 v194 k0_hw4 => k0_hw4.2.2.2.2.1
theorem k0_idx54_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v38] : Fin 2 → IVec S16 32) a x).toNat < S32x2048.size a := fun v23 v26 v29 v32 v35 v38 v41 v44 v47 v50 v53 v56 v59 v62 v65 v68 v194 k0_hw4 => k0_hw4.2.2.2.2.2.1
theorem k0_idx55_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v41] : Fin 2 → IVec S16 32) a x).toNat < S32x2048.size a := fun v23 v26 v29 v32 v35 v38 v41 v44 v47 v50 v53 v56 v59 v62 v65 v68 v194 k0_hw4 => k0_hw4.2.2.2.2.2.2.1
theorem k0_idx56_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v44] : Fin 2 → IVec S16 32) a x).toNat < S32x2048.size a := fun v23 v26 v29 v32 v35 v38 v41 v44 v47 v50 v53 v56 v59 v62 v65 v68 v194 k0_hw4 => k0_hw4.2.2.2.2.2.2.2.1
theorem k0_idx57_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v47] : Fin 2 → IVec S16 32) a x).toNat < S32x2048.size a := fun v23 v26 v29 v32 v35 v38 v41 v44 v47 v50 v53 v56 v59 v62 v65 v68 v194 k0_hw4 => k0_hw4.2.2.2.2.2.2.2.2.1
theorem k0_idx58_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v50] : Fin 2 → IVec S16 32) a x).toNat < S32x2048.size a := fun v23 v26 v29 v32 v35 v38 v41 v44 v47 v50 v53 v56 v59 v62 v65 v68 v194 k0_hw4 => k0_hw4.2.2.2.2.2.2.2.2.2.1
theorem k0_idx59_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v53] : Fin 2 → IVec S16 32) a x).toNat < S32x2048.size a := fun v23 v26 v29 v32 v35 v38 v41 v44 v47 v50 v53 v56 v59 v62 v65 v68 v194 k0_hw4 => k0_hw4.2.2.2.2.2.2.2.2.2.2.1
theorem k0_idx60_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v56] : Fin 2 → IVec S16 32) a x).toNat < S32x2048.size a := fun v23 v26 v29 v32 v35 v38 v41 v44 v47 v50 v53 v56 v59 v62 v65 v68 v194 k0_hw4 => k0_hw4.2.2.2.2.2.2.2.2.2.2.2.1
theorem k0_idx61_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v59] : Fin 2 → IVec S16 32) a x).toNat < S32x2048.size a := fun v23 v26 v29 v32 v35 v38 v41 v44 v47 v50 v53 v56 v59 v62 v65 v68 v194 k0_hw4 => k0_hw4.2.2.2.2.2.2.2.2.2.2.2.2.1
theorem k0_idx62_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v62] : Fin 2 → IVec S16 32) a x).toNat < S32x2048.size a := fun v23 v26 v29 v32 v35 v38 v41 v44 v47 v50 v53 v56 v59 v62 v65 v68 v194 k0_hw4 => k0_hw4.2.2.2.2.2.2.2.2.2.2.2.2.2.1
theorem k0_idx63_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v65] : Fin 2 → IVec S16 32) a x).toNat < S32x2048.size a := fun v23 v26 v29 v32 v35 v38 v41 v44 v47 v50 v53 v56 v59 v62 v65 v68 v194 k0_hw4 => k0_hw4.2.2.2.2.2.2.2.2.2.2.2.2.2.2.1
theorem k0_idx64_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v194 : IVec S16 32) (k0_hw4 : k0_chk4 v23 v26 v29 v32 v35 v38 v41 v44 v47 v50 v53 v56 v59 v62 v65 v68 v194), ∀ a x, ((![v194, v68] : Fin 2 → IVec S16 32) a x).toNat < S32x2048.size a := fun v23 v26 v29 v32 v35 v38 v41 v44 v47 v50 v53 v56 v59 v62 v65 v68 v194 k0_hw4 => k0_hw4.2.2.2.2.2.2.2.2.2.2.2.2.2.2.2
def k0_off23 (k0_t1 : Fin k0_t1_loop.trips) : Fin 2 → Nat :=
  let c3_i32_25 : BitVec 32 := 3#32
  let v226 : Index := Scalar.indexCast c3_i32_25
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v227 : Index := Scalar.indexCast v20
  ![3, v227.toNat]

def k0_chk5 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) : Prop :=
  (∀ a x, ((![v235, v23] : Fin 2 → IVec S16 32) a x).toNat < S32x2048.size a) ∧
  (∀ a x, ((![v235, v26] : Fin 2 → IVec S16 32) a x).toNat < S32x2048.size a) ∧
  (∀ a x, ((![v235, v29] : Fin 2 → IVec S16 32) a x).toNat < S32x2048.size a) ∧
  (∀ a x, ((![v235, v32] : Fin 2 → IVec S16 32) a x).toNat < S32x2048.size a) ∧
  (∀ a x, ((![v235, v35] : Fin 2 → IVec S16 32) a x).toNat < S32x2048.size a) ∧
  (∀ a x, ((![v235, v38] : Fin 2 → IVec S16 32) a x).toNat < S32x2048.size a) ∧
  (∀ a x, ((![v235, v41] : Fin 2 → IVec S16 32) a x).toNat < S32x2048.size a) ∧
  (∀ a x, ((![v235, v44] : Fin 2 → IVec S16 32) a x).toNat < S32x2048.size a) ∧
  (∀ a x, ((![v235, v47] : Fin 2 → IVec S16 32) a x).toNat < S32x2048.size a) ∧
  (∀ a x, ((![v235, v50] : Fin 2 → IVec S16 32) a x).toNat < S32x2048.size a) ∧
  (∀ a x, ((![v235, v53] : Fin 2 → IVec S16 32) a x).toNat < S32x2048.size a) ∧
  (∀ a x, ((![v235, v56] : Fin 2 → IVec S16 32) a x).toNat < S32x2048.size a) ∧
  (∀ a x, ((![v235, v59] : Fin 2 → IVec S16 32) a x).toNat < S32x2048.size a) ∧
  (∀ a x, ((![v235, v62] : Fin 2 → IVec S16 32) a x).toNat < S32x2048.size a) ∧
  (∀ a x, ((![v235, v65] : Fin 2 → IVec S16 32) a x).toNat < S32x2048.size a) ∧
  (∀ a x, ((![v235, v68] : Fin 2 → IVec S16 32) a x).toNat < S32x2048.size a)
instance k0_chk5.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32), Decidable (k0_chk5 v23 v26 v29 v32 v35 v38 v41 v44 v47 v50 v53 v56 v59 v62 v65 v68 v235) := fun v23 v26 v29 v32 v35 v38 v41 v44 v47 v50 v53 v56 v59 v62 v65 v68 v235 => decidable_of_iff' _ (Iff.of_eq (k0_chk5.eq_1 v23 v26 v29 v32 v35 v38 v41 v44 v47 v50 v53 v56 v59 v62 v65 v68 v235))
theorem k0_idx65_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v23] : Fin 2 → IVec S16 32) a x).toNat < S32x2048.size a := fun v23 v26 v29 v32 v35 v38 v41 v44 v47 v50 v53 v56 v59 v62 v65 v68 v235 k0_hw5 => k0_hw5.1
theorem k0_idx66_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v26] : Fin 2 → IVec S16 32) a x).toNat < S32x2048.size a := fun v23 v26 v29 v32 v35 v38 v41 v44 v47 v50 v53 v56 v59 v62 v65 v68 v235 k0_hw5 => k0_hw5.2.1
theorem k0_idx67_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v29] : Fin 2 → IVec S16 32) a x).toNat < S32x2048.size a := fun v23 v26 v29 v32 v35 v38 v41 v44 v47 v50 v53 v56 v59 v62 v65 v68 v235 k0_hw5 => k0_hw5.2.2.1
theorem k0_idx68_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v32] : Fin 2 → IVec S16 32) a x).toNat < S32x2048.size a := fun v23 v26 v29 v32 v35 v38 v41 v44 v47 v50 v53 v56 v59 v62 v65 v68 v235 k0_hw5 => k0_hw5.2.2.2.1
theorem k0_idx69_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v35] : Fin 2 → IVec S16 32) a x).toNat < S32x2048.size a := fun v23 v26 v29 v32 v35 v38 v41 v44 v47 v50 v53 v56 v59 v62 v65 v68 v235 k0_hw5 => k0_hw5.2.2.2.2.1
theorem k0_idx70_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v38] : Fin 2 → IVec S16 32) a x).toNat < S32x2048.size a := fun v23 v26 v29 v32 v35 v38 v41 v44 v47 v50 v53 v56 v59 v62 v65 v68 v235 k0_hw5 => k0_hw5.2.2.2.2.2.1
theorem k0_idx71_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v41] : Fin 2 → IVec S16 32) a x).toNat < S32x2048.size a := fun v23 v26 v29 v32 v35 v38 v41 v44 v47 v50 v53 v56 v59 v62 v65 v68 v235 k0_hw5 => k0_hw5.2.2.2.2.2.2.1
theorem k0_idx72_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v44] : Fin 2 → IVec S16 32) a x).toNat < S32x2048.size a := fun v23 v26 v29 v32 v35 v38 v41 v44 v47 v50 v53 v56 v59 v62 v65 v68 v235 k0_hw5 => k0_hw5.2.2.2.2.2.2.2.1
theorem k0_idx73_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v47] : Fin 2 → IVec S16 32) a x).toNat < S32x2048.size a := fun v23 v26 v29 v32 v35 v38 v41 v44 v47 v50 v53 v56 v59 v62 v65 v68 v235 k0_hw5 => k0_hw5.2.2.2.2.2.2.2.2.1
theorem k0_idx74_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v50] : Fin 2 → IVec S16 32) a x).toNat < S32x2048.size a := fun v23 v26 v29 v32 v35 v38 v41 v44 v47 v50 v53 v56 v59 v62 v65 v68 v235 k0_hw5 => k0_hw5.2.2.2.2.2.2.2.2.2.1
theorem k0_idx75_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v53] : Fin 2 → IVec S16 32) a x).toNat < S32x2048.size a := fun v23 v26 v29 v32 v35 v38 v41 v44 v47 v50 v53 v56 v59 v62 v65 v68 v235 k0_hw5 => k0_hw5.2.2.2.2.2.2.2.2.2.2.1
theorem k0_idx76_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v56] : Fin 2 → IVec S16 32) a x).toNat < S32x2048.size a := fun v23 v26 v29 v32 v35 v38 v41 v44 v47 v50 v53 v56 v59 v62 v65 v68 v235 k0_hw5 => k0_hw5.2.2.2.2.2.2.2.2.2.2.2.1
theorem k0_idx77_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v59] : Fin 2 → IVec S16 32) a x).toNat < S32x2048.size a := fun v23 v26 v29 v32 v35 v38 v41 v44 v47 v50 v53 v56 v59 v62 v65 v68 v235 k0_hw5 => k0_hw5.2.2.2.2.2.2.2.2.2.2.2.2.1
theorem k0_idx78_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v62] : Fin 2 → IVec S16 32) a x).toNat < S32x2048.size a := fun v23 v26 v29 v32 v35 v38 v41 v44 v47 v50 v53 v56 v59 v62 v65 v68 v235 k0_hw5 => k0_hw5.2.2.2.2.2.2.2.2.2.2.2.2.2.1
theorem k0_idx79_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v65] : Fin 2 → IVec S16 32) a x).toNat < S32x2048.size a := fun v23 v26 v29 v32 v35 v38 v41 v44 v47 v50 v53 v56 v59 v62 v65 v68 v235 k0_hw5 => k0_hw5.2.2.2.2.2.2.2.2.2.2.2.2.2.2.1
theorem k0_idx80_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v235 : IVec S16 32) (k0_hw5 : k0_chk5 v23 v26 v29 v32 v35 v38 v41 v44 v47 v50 v53 v56 v59 v62 v65 v68 v235), ∀ a x, ((![v235, v68] : Fin 2 → IVec S16 32) a x).toNat < S32x2048.size a := fun v23 v26 v29 v32 v35 v38 v41 v44 v47 v50 v53 v56 v59 v62 v65 v68 v235 k0_hw5 => k0_hw5.2.2.2.2.2.2.2.2.2.2.2.2.2.2.2
def k0_off24 (k0_t1 : Fin k0_t1_loop.trips) : Fin 2 → Nat :=
  let c4_i32_29 : BitVec 32 := 4#32
  let v267 : Index := Scalar.indexCast c4_i32_29
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v268 : Index := Scalar.indexCast v20
  ![4, v268.toNat]

def k0_chk6 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) : Prop :=
  (∀ a x, ((![v276, v23] : Fin 2 → IVec S16 32) a x).toNat < S32x2048.size a) ∧
  (∀ a x, ((![v276, v26] : Fin 2 → IVec S16 32) a x).toNat < S32x2048.size a) ∧
  (∀ a x, ((![v276, v29] : Fin 2 → IVec S16 32) a x).toNat < S32x2048.size a) ∧
  (∀ a x, ((![v276, v32] : Fin 2 → IVec S16 32) a x).toNat < S32x2048.size a) ∧
  (∀ a x, ((![v276, v35] : Fin 2 → IVec S16 32) a x).toNat < S32x2048.size a) ∧
  (∀ a x, ((![v276, v38] : Fin 2 → IVec S16 32) a x).toNat < S32x2048.size a) ∧
  (∀ a x, ((![v276, v41] : Fin 2 → IVec S16 32) a x).toNat < S32x2048.size a) ∧
  (∀ a x, ((![v276, v44] : Fin 2 → IVec S16 32) a x).toNat < S32x2048.size a) ∧
  (∀ a x, ((![v276, v47] : Fin 2 → IVec S16 32) a x).toNat < S32x2048.size a) ∧
  (∀ a x, ((![v276, v50] : Fin 2 → IVec S16 32) a x).toNat < S32x2048.size a) ∧
  (∀ a x, ((![v276, v53] : Fin 2 → IVec S16 32) a x).toNat < S32x2048.size a) ∧
  (∀ a x, ((![v276, v56] : Fin 2 → IVec S16 32) a x).toNat < S32x2048.size a) ∧
  (∀ a x, ((![v276, v59] : Fin 2 → IVec S16 32) a x).toNat < S32x2048.size a) ∧
  (∀ a x, ((![v276, v62] : Fin 2 → IVec S16 32) a x).toNat < S32x2048.size a) ∧
  (∀ a x, ((![v276, v65] : Fin 2 → IVec S16 32) a x).toNat < S32x2048.size a) ∧
  (∀ a x, ((![v276, v68] : Fin 2 → IVec S16 32) a x).toNat < S32x2048.size a)
instance k0_chk6.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32), Decidable (k0_chk6 v23 v26 v29 v32 v35 v38 v41 v44 v47 v50 v53 v56 v59 v62 v65 v68 v276) := fun v23 v26 v29 v32 v35 v38 v41 v44 v47 v50 v53 v56 v59 v62 v65 v68 v276 => decidable_of_iff' _ (Iff.of_eq (k0_chk6.eq_1 v23 v26 v29 v32 v35 v38 v41 v44 v47 v50 v53 v56 v59 v62 v65 v68 v276))
theorem k0_idx81_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v23] : Fin 2 → IVec S16 32) a x).toNat < S32x2048.size a := fun v23 v26 v29 v32 v35 v38 v41 v44 v47 v50 v53 v56 v59 v62 v65 v68 v276 k0_hw6 => k0_hw6.1
theorem k0_idx82_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v26] : Fin 2 → IVec S16 32) a x).toNat < S32x2048.size a := fun v23 v26 v29 v32 v35 v38 v41 v44 v47 v50 v53 v56 v59 v62 v65 v68 v276 k0_hw6 => k0_hw6.2.1
theorem k0_idx83_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v29] : Fin 2 → IVec S16 32) a x).toNat < S32x2048.size a := fun v23 v26 v29 v32 v35 v38 v41 v44 v47 v50 v53 v56 v59 v62 v65 v68 v276 k0_hw6 => k0_hw6.2.2.1
theorem k0_idx84_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v32] : Fin 2 → IVec S16 32) a x).toNat < S32x2048.size a := fun v23 v26 v29 v32 v35 v38 v41 v44 v47 v50 v53 v56 v59 v62 v65 v68 v276 k0_hw6 => k0_hw6.2.2.2.1
theorem k0_idx85_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v35] : Fin 2 → IVec S16 32) a x).toNat < S32x2048.size a := fun v23 v26 v29 v32 v35 v38 v41 v44 v47 v50 v53 v56 v59 v62 v65 v68 v276 k0_hw6 => k0_hw6.2.2.2.2.1
theorem k0_idx86_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v38] : Fin 2 → IVec S16 32) a x).toNat < S32x2048.size a := fun v23 v26 v29 v32 v35 v38 v41 v44 v47 v50 v53 v56 v59 v62 v65 v68 v276 k0_hw6 => k0_hw6.2.2.2.2.2.1
theorem k0_idx87_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v41] : Fin 2 → IVec S16 32) a x).toNat < S32x2048.size a := fun v23 v26 v29 v32 v35 v38 v41 v44 v47 v50 v53 v56 v59 v62 v65 v68 v276 k0_hw6 => k0_hw6.2.2.2.2.2.2.1
theorem k0_idx88_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v44] : Fin 2 → IVec S16 32) a x).toNat < S32x2048.size a := fun v23 v26 v29 v32 v35 v38 v41 v44 v47 v50 v53 v56 v59 v62 v65 v68 v276 k0_hw6 => k0_hw6.2.2.2.2.2.2.2.1
theorem k0_idx89_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v47] : Fin 2 → IVec S16 32) a x).toNat < S32x2048.size a := fun v23 v26 v29 v32 v35 v38 v41 v44 v47 v50 v53 v56 v59 v62 v65 v68 v276 k0_hw6 => k0_hw6.2.2.2.2.2.2.2.2.1
theorem k0_idx90_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v50] : Fin 2 → IVec S16 32) a x).toNat < S32x2048.size a := fun v23 v26 v29 v32 v35 v38 v41 v44 v47 v50 v53 v56 v59 v62 v65 v68 v276 k0_hw6 => k0_hw6.2.2.2.2.2.2.2.2.2.1
theorem k0_idx91_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v53] : Fin 2 → IVec S16 32) a x).toNat < S32x2048.size a := fun v23 v26 v29 v32 v35 v38 v41 v44 v47 v50 v53 v56 v59 v62 v65 v68 v276 k0_hw6 => k0_hw6.2.2.2.2.2.2.2.2.2.2.1
theorem k0_idx92_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v56] : Fin 2 → IVec S16 32) a x).toNat < S32x2048.size a := fun v23 v26 v29 v32 v35 v38 v41 v44 v47 v50 v53 v56 v59 v62 v65 v68 v276 k0_hw6 => k0_hw6.2.2.2.2.2.2.2.2.2.2.2.1
theorem k0_idx93_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v59] : Fin 2 → IVec S16 32) a x).toNat < S32x2048.size a := fun v23 v26 v29 v32 v35 v38 v41 v44 v47 v50 v53 v56 v59 v62 v65 v68 v276 k0_hw6 => k0_hw6.2.2.2.2.2.2.2.2.2.2.2.2.1
theorem k0_idx94_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v62] : Fin 2 → IVec S16 32) a x).toNat < S32x2048.size a := fun v23 v26 v29 v32 v35 v38 v41 v44 v47 v50 v53 v56 v59 v62 v65 v68 v276 k0_hw6 => k0_hw6.2.2.2.2.2.2.2.2.2.2.2.2.2.1
theorem k0_idx95_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v65] : Fin 2 → IVec S16 32) a x).toNat < S32x2048.size a := fun v23 v26 v29 v32 v35 v38 v41 v44 v47 v50 v53 v56 v59 v62 v65 v68 v276 k0_hw6 => k0_hw6.2.2.2.2.2.2.2.2.2.2.2.2.2.2.1
theorem k0_idx96_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v276 : IVec S16 32) (k0_hw6 : k0_chk6 v23 v26 v29 v32 v35 v38 v41 v44 v47 v50 v53 v56 v59 v62 v65 v68 v276), ∀ a x, ((![v276, v68] : Fin 2 → IVec S16 32) a x).toNat < S32x2048.size a := fun v23 v26 v29 v32 v35 v38 v41 v44 v47 v50 v53 v56 v59 v62 v65 v68 v276 k0_hw6 => k0_hw6.2.2.2.2.2.2.2.2.2.2.2.2.2.2.2
def k0_off25 (k0_t1 : Fin k0_t1_loop.trips) : Fin 2 → Nat :=
  let c5_i32_33 : BitVec 32 := 5#32
  let v308 : Index := Scalar.indexCast c5_i32_33
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v309 : Index := Scalar.indexCast v20
  ![5, v309.toNat]

def k0_chk7 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) : Prop :=
  (∀ a x, ((![v317, v23] : Fin 2 → IVec S16 32) a x).toNat < S32x2048.size a) ∧
  (∀ a x, ((![v317, v26] : Fin 2 → IVec S16 32) a x).toNat < S32x2048.size a) ∧
  (∀ a x, ((![v317, v29] : Fin 2 → IVec S16 32) a x).toNat < S32x2048.size a) ∧
  (∀ a x, ((![v317, v32] : Fin 2 → IVec S16 32) a x).toNat < S32x2048.size a) ∧
  (∀ a x, ((![v317, v35] : Fin 2 → IVec S16 32) a x).toNat < S32x2048.size a) ∧
  (∀ a x, ((![v317, v38] : Fin 2 → IVec S16 32) a x).toNat < S32x2048.size a) ∧
  (∀ a x, ((![v317, v41] : Fin 2 → IVec S16 32) a x).toNat < S32x2048.size a) ∧
  (∀ a x, ((![v317, v44] : Fin 2 → IVec S16 32) a x).toNat < S32x2048.size a) ∧
  (∀ a x, ((![v317, v47] : Fin 2 → IVec S16 32) a x).toNat < S32x2048.size a) ∧
  (∀ a x, ((![v317, v50] : Fin 2 → IVec S16 32) a x).toNat < S32x2048.size a) ∧
  (∀ a x, ((![v317, v53] : Fin 2 → IVec S16 32) a x).toNat < S32x2048.size a) ∧
  (∀ a x, ((![v317, v56] : Fin 2 → IVec S16 32) a x).toNat < S32x2048.size a) ∧
  (∀ a x, ((![v317, v59] : Fin 2 → IVec S16 32) a x).toNat < S32x2048.size a) ∧
  (∀ a x, ((![v317, v62] : Fin 2 → IVec S16 32) a x).toNat < S32x2048.size a) ∧
  (∀ a x, ((![v317, v65] : Fin 2 → IVec S16 32) a x).toNat < S32x2048.size a) ∧
  (∀ a x, ((![v317, v68] : Fin 2 → IVec S16 32) a x).toNat < S32x2048.size a)
instance k0_chk7.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32), Decidable (k0_chk7 v23 v26 v29 v32 v35 v38 v41 v44 v47 v50 v53 v56 v59 v62 v65 v68 v317) := fun v23 v26 v29 v32 v35 v38 v41 v44 v47 v50 v53 v56 v59 v62 v65 v68 v317 => decidable_of_iff' _ (Iff.of_eq (k0_chk7.eq_1 v23 v26 v29 v32 v35 v38 v41 v44 v47 v50 v53 v56 v59 v62 v65 v68 v317))
theorem k0_idx97_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v23] : Fin 2 → IVec S16 32) a x).toNat < S32x2048.size a := fun v23 v26 v29 v32 v35 v38 v41 v44 v47 v50 v53 v56 v59 v62 v65 v68 v317 k0_hw7 => k0_hw7.1
theorem k0_idx98_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v26] : Fin 2 → IVec S16 32) a x).toNat < S32x2048.size a := fun v23 v26 v29 v32 v35 v38 v41 v44 v47 v50 v53 v56 v59 v62 v65 v68 v317 k0_hw7 => k0_hw7.2.1
theorem k0_idx99_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v29] : Fin 2 → IVec S16 32) a x).toNat < S32x2048.size a := fun v23 v26 v29 v32 v35 v38 v41 v44 v47 v50 v53 v56 v59 v62 v65 v68 v317 k0_hw7 => k0_hw7.2.2.1
theorem k0_idx100_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v32] : Fin 2 → IVec S16 32) a x).toNat < S32x2048.size a := fun v23 v26 v29 v32 v35 v38 v41 v44 v47 v50 v53 v56 v59 v62 v65 v68 v317 k0_hw7 => k0_hw7.2.2.2.1
theorem k0_idx101_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v35] : Fin 2 → IVec S16 32) a x).toNat < S32x2048.size a := fun v23 v26 v29 v32 v35 v38 v41 v44 v47 v50 v53 v56 v59 v62 v65 v68 v317 k0_hw7 => k0_hw7.2.2.2.2.1
theorem k0_idx102_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v38] : Fin 2 → IVec S16 32) a x).toNat < S32x2048.size a := fun v23 v26 v29 v32 v35 v38 v41 v44 v47 v50 v53 v56 v59 v62 v65 v68 v317 k0_hw7 => k0_hw7.2.2.2.2.2.1
theorem k0_idx103_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v41] : Fin 2 → IVec S16 32) a x).toNat < S32x2048.size a := fun v23 v26 v29 v32 v35 v38 v41 v44 v47 v50 v53 v56 v59 v62 v65 v68 v317 k0_hw7 => k0_hw7.2.2.2.2.2.2.1
theorem k0_idx104_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v44] : Fin 2 → IVec S16 32) a x).toNat < S32x2048.size a := fun v23 v26 v29 v32 v35 v38 v41 v44 v47 v50 v53 v56 v59 v62 v65 v68 v317 k0_hw7 => k0_hw7.2.2.2.2.2.2.2.1
theorem k0_idx105_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v47] : Fin 2 → IVec S16 32) a x).toNat < S32x2048.size a := fun v23 v26 v29 v32 v35 v38 v41 v44 v47 v50 v53 v56 v59 v62 v65 v68 v317 k0_hw7 => k0_hw7.2.2.2.2.2.2.2.2.1
theorem k0_idx106_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v50] : Fin 2 → IVec S16 32) a x).toNat < S32x2048.size a := fun v23 v26 v29 v32 v35 v38 v41 v44 v47 v50 v53 v56 v59 v62 v65 v68 v317 k0_hw7 => k0_hw7.2.2.2.2.2.2.2.2.2.1
theorem k0_idx107_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v53] : Fin 2 → IVec S16 32) a x).toNat < S32x2048.size a := fun v23 v26 v29 v32 v35 v38 v41 v44 v47 v50 v53 v56 v59 v62 v65 v68 v317 k0_hw7 => k0_hw7.2.2.2.2.2.2.2.2.2.2.1
theorem k0_idx108_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v56] : Fin 2 → IVec S16 32) a x).toNat < S32x2048.size a := fun v23 v26 v29 v32 v35 v38 v41 v44 v47 v50 v53 v56 v59 v62 v65 v68 v317 k0_hw7 => k0_hw7.2.2.2.2.2.2.2.2.2.2.2.1
theorem k0_idx109_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v59] : Fin 2 → IVec S16 32) a x).toNat < S32x2048.size a := fun v23 v26 v29 v32 v35 v38 v41 v44 v47 v50 v53 v56 v59 v62 v65 v68 v317 k0_hw7 => k0_hw7.2.2.2.2.2.2.2.2.2.2.2.2.1
theorem k0_idx110_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v62] : Fin 2 → IVec S16 32) a x).toNat < S32x2048.size a := fun v23 v26 v29 v32 v35 v38 v41 v44 v47 v50 v53 v56 v59 v62 v65 v68 v317 k0_hw7 => k0_hw7.2.2.2.2.2.2.2.2.2.2.2.2.2.1
theorem k0_idx111_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v65] : Fin 2 → IVec S16 32) a x).toNat < S32x2048.size a := fun v23 v26 v29 v32 v35 v38 v41 v44 v47 v50 v53 v56 v59 v62 v65 v68 v317 k0_hw7 => k0_hw7.2.2.2.2.2.2.2.2.2.2.2.2.2.2.1
theorem k0_idx112_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v317 : IVec S16 32) (k0_hw7 : k0_chk7 v23 v26 v29 v32 v35 v38 v41 v44 v47 v50 v53 v56 v59 v62 v65 v68 v317), ∀ a x, ((![v317, v68] : Fin 2 → IVec S16 32) a x).toNat < S32x2048.size a := fun v23 v26 v29 v32 v35 v38 v41 v44 v47 v50 v53 v56 v59 v62 v65 v68 v317 k0_hw7 => k0_hw7.2.2.2.2.2.2.2.2.2.2.2.2.2.2.2
def k0_off26 (k0_t1 : Fin k0_t1_loop.trips) : Fin 2 → Nat :=
  let c6_i32_37 : BitVec 32 := 6#32
  let v349 : Index := Scalar.indexCast c6_i32_37
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v350 : Index := Scalar.indexCast v20
  ![6, v350.toNat]

def k0_chk8 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) : Prop :=
  (∀ a x, ((![v358, v23] : Fin 2 → IVec S16 32) a x).toNat < S32x2048.size a) ∧
  (∀ a x, ((![v358, v26] : Fin 2 → IVec S16 32) a x).toNat < S32x2048.size a) ∧
  (∀ a x, ((![v358, v29] : Fin 2 → IVec S16 32) a x).toNat < S32x2048.size a) ∧
  (∀ a x, ((![v358, v32] : Fin 2 → IVec S16 32) a x).toNat < S32x2048.size a) ∧
  (∀ a x, ((![v358, v35] : Fin 2 → IVec S16 32) a x).toNat < S32x2048.size a) ∧
  (∀ a x, ((![v358, v38] : Fin 2 → IVec S16 32) a x).toNat < S32x2048.size a) ∧
  (∀ a x, ((![v358, v41] : Fin 2 → IVec S16 32) a x).toNat < S32x2048.size a) ∧
  (∀ a x, ((![v358, v44] : Fin 2 → IVec S16 32) a x).toNat < S32x2048.size a) ∧
  (∀ a x, ((![v358, v47] : Fin 2 → IVec S16 32) a x).toNat < S32x2048.size a) ∧
  (∀ a x, ((![v358, v50] : Fin 2 → IVec S16 32) a x).toNat < S32x2048.size a) ∧
  (∀ a x, ((![v358, v53] : Fin 2 → IVec S16 32) a x).toNat < S32x2048.size a) ∧
  (∀ a x, ((![v358, v56] : Fin 2 → IVec S16 32) a x).toNat < S32x2048.size a) ∧
  (∀ a x, ((![v358, v59] : Fin 2 → IVec S16 32) a x).toNat < S32x2048.size a) ∧
  (∀ a x, ((![v358, v62] : Fin 2 → IVec S16 32) a x).toNat < S32x2048.size a) ∧
  (∀ a x, ((![v358, v65] : Fin 2 → IVec S16 32) a x).toNat < S32x2048.size a) ∧
  (∀ a x, ((![v358, v68] : Fin 2 → IVec S16 32) a x).toNat < S32x2048.size a)
instance k0_chk8.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32), Decidable (k0_chk8 v23 v26 v29 v32 v35 v38 v41 v44 v47 v50 v53 v56 v59 v62 v65 v68 v358) := fun v23 v26 v29 v32 v35 v38 v41 v44 v47 v50 v53 v56 v59 v62 v65 v68 v358 => decidable_of_iff' _ (Iff.of_eq (k0_chk8.eq_1 v23 v26 v29 v32 v35 v38 v41 v44 v47 v50 v53 v56 v59 v62 v65 v68 v358))
theorem k0_idx113_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v23] : Fin 2 → IVec S16 32) a x).toNat < S32x2048.size a := fun v23 v26 v29 v32 v35 v38 v41 v44 v47 v50 v53 v56 v59 v62 v65 v68 v358 k0_hw8 => k0_hw8.1
theorem k0_idx114_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v26] : Fin 2 → IVec S16 32) a x).toNat < S32x2048.size a := fun v23 v26 v29 v32 v35 v38 v41 v44 v47 v50 v53 v56 v59 v62 v65 v68 v358 k0_hw8 => k0_hw8.2.1
theorem k0_idx115_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v29] : Fin 2 → IVec S16 32) a x).toNat < S32x2048.size a := fun v23 v26 v29 v32 v35 v38 v41 v44 v47 v50 v53 v56 v59 v62 v65 v68 v358 k0_hw8 => k0_hw8.2.2.1
theorem k0_idx116_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v32] : Fin 2 → IVec S16 32) a x).toNat < S32x2048.size a := fun v23 v26 v29 v32 v35 v38 v41 v44 v47 v50 v53 v56 v59 v62 v65 v68 v358 k0_hw8 => k0_hw8.2.2.2.1
theorem k0_idx117_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v35] : Fin 2 → IVec S16 32) a x).toNat < S32x2048.size a := fun v23 v26 v29 v32 v35 v38 v41 v44 v47 v50 v53 v56 v59 v62 v65 v68 v358 k0_hw8 => k0_hw8.2.2.2.2.1
theorem k0_idx118_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v38] : Fin 2 → IVec S16 32) a x).toNat < S32x2048.size a := fun v23 v26 v29 v32 v35 v38 v41 v44 v47 v50 v53 v56 v59 v62 v65 v68 v358 k0_hw8 => k0_hw8.2.2.2.2.2.1
theorem k0_idx119_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v41] : Fin 2 → IVec S16 32) a x).toNat < S32x2048.size a := fun v23 v26 v29 v32 v35 v38 v41 v44 v47 v50 v53 v56 v59 v62 v65 v68 v358 k0_hw8 => k0_hw8.2.2.2.2.2.2.1
theorem k0_idx120_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v44] : Fin 2 → IVec S16 32) a x).toNat < S32x2048.size a := fun v23 v26 v29 v32 v35 v38 v41 v44 v47 v50 v53 v56 v59 v62 v65 v68 v358 k0_hw8 => k0_hw8.2.2.2.2.2.2.2.1
theorem k0_idx121_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v47] : Fin 2 → IVec S16 32) a x).toNat < S32x2048.size a := fun v23 v26 v29 v32 v35 v38 v41 v44 v47 v50 v53 v56 v59 v62 v65 v68 v358 k0_hw8 => k0_hw8.2.2.2.2.2.2.2.2.1
theorem k0_idx122_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v50] : Fin 2 → IVec S16 32) a x).toNat < S32x2048.size a := fun v23 v26 v29 v32 v35 v38 v41 v44 v47 v50 v53 v56 v59 v62 v65 v68 v358 k0_hw8 => k0_hw8.2.2.2.2.2.2.2.2.2.1
theorem k0_idx123_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v53] : Fin 2 → IVec S16 32) a x).toNat < S32x2048.size a := fun v23 v26 v29 v32 v35 v38 v41 v44 v47 v50 v53 v56 v59 v62 v65 v68 v358 k0_hw8 => k0_hw8.2.2.2.2.2.2.2.2.2.2.1
theorem k0_idx124_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v56] : Fin 2 → IVec S16 32) a x).toNat < S32x2048.size a := fun v23 v26 v29 v32 v35 v38 v41 v44 v47 v50 v53 v56 v59 v62 v65 v68 v358 k0_hw8 => k0_hw8.2.2.2.2.2.2.2.2.2.2.2.1
theorem k0_idx125_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v59] : Fin 2 → IVec S16 32) a x).toNat < S32x2048.size a := fun v23 v26 v29 v32 v35 v38 v41 v44 v47 v50 v53 v56 v59 v62 v65 v68 v358 k0_hw8 => k0_hw8.2.2.2.2.2.2.2.2.2.2.2.2.1
theorem k0_idx126_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v62] : Fin 2 → IVec S16 32) a x).toNat < S32x2048.size a := fun v23 v26 v29 v32 v35 v38 v41 v44 v47 v50 v53 v56 v59 v62 v65 v68 v358 k0_hw8 => k0_hw8.2.2.2.2.2.2.2.2.2.2.2.2.2.1
theorem k0_idx127_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v65] : Fin 2 → IVec S16 32) a x).toNat < S32x2048.size a := fun v23 v26 v29 v32 v35 v38 v41 v44 v47 v50 v53 v56 v59 v62 v65 v68 v358 k0_hw8 => k0_hw8.2.2.2.2.2.2.2.2.2.2.2.2.2.2.1
theorem k0_idx128_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v358 : IVec S16 32) (k0_hw8 : k0_chk8 v23 v26 v29 v32 v35 v38 v41 v44 v47 v50 v53 v56 v59 v62 v65 v68 v358), ∀ a x, ((![v358, v68] : Fin 2 → IVec S16 32) a x).toNat < S32x2048.size a := fun v23 v26 v29 v32 v35 v38 v41 v44 v47 v50 v53 v56 v59 v62 v65 v68 v358 k0_hw8 => k0_hw8.2.2.2.2.2.2.2.2.2.2.2.2.2.2.2
def k0_off27 (k0_t1 : Fin k0_t1_loop.trips) : Fin 2 → Nat :=
  let c7_i32_41 : BitVec 32 := 7#32
  let v390 : Index := Scalar.indexCast c7_i32_41
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v391 : Index := Scalar.indexCast v20
  ![7, v391.toNat]

def k0_chk9 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) : Prop :=
  (∀ a x, ((![v399, v23] : Fin 2 → IVec S16 32) a x).toNat < S32x2048.size a) ∧
  (∀ a x, ((![v399, v26] : Fin 2 → IVec S16 32) a x).toNat < S32x2048.size a) ∧
  (∀ a x, ((![v399, v29] : Fin 2 → IVec S16 32) a x).toNat < S32x2048.size a) ∧
  (∀ a x, ((![v399, v32] : Fin 2 → IVec S16 32) a x).toNat < S32x2048.size a) ∧
  (∀ a x, ((![v399, v35] : Fin 2 → IVec S16 32) a x).toNat < S32x2048.size a) ∧
  (∀ a x, ((![v399, v38] : Fin 2 → IVec S16 32) a x).toNat < S32x2048.size a) ∧
  (∀ a x, ((![v399, v41] : Fin 2 → IVec S16 32) a x).toNat < S32x2048.size a) ∧
  (∀ a x, ((![v399, v44] : Fin 2 → IVec S16 32) a x).toNat < S32x2048.size a) ∧
  (∀ a x, ((![v399, v47] : Fin 2 → IVec S16 32) a x).toNat < S32x2048.size a) ∧
  (∀ a x, ((![v399, v50] : Fin 2 → IVec S16 32) a x).toNat < S32x2048.size a) ∧
  (∀ a x, ((![v399, v53] : Fin 2 → IVec S16 32) a x).toNat < S32x2048.size a) ∧
  (∀ a x, ((![v399, v56] : Fin 2 → IVec S16 32) a x).toNat < S32x2048.size a) ∧
  (∀ a x, ((![v399, v59] : Fin 2 → IVec S16 32) a x).toNat < S32x2048.size a) ∧
  (∀ a x, ((![v399, v62] : Fin 2 → IVec S16 32) a x).toNat < S32x2048.size a) ∧
  (∀ a x, ((![v399, v65] : Fin 2 → IVec S16 32) a x).toNat < S32x2048.size a) ∧
  (∀ a x, ((![v399, v68] : Fin 2 → IVec S16 32) a x).toNat < S32x2048.size a)
instance k0_chk9.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32), Decidable (k0_chk9 v23 v26 v29 v32 v35 v38 v41 v44 v47 v50 v53 v56 v59 v62 v65 v68 v399) := fun v23 v26 v29 v32 v35 v38 v41 v44 v47 v50 v53 v56 v59 v62 v65 v68 v399 => decidable_of_iff' _ (Iff.of_eq (k0_chk9.eq_1 v23 v26 v29 v32 v35 v38 v41 v44 v47 v50 v53 v56 v59 v62 v65 v68 v399))
theorem k0_idx129_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v23] : Fin 2 → IVec S16 32) a x).toNat < S32x2048.size a := fun v23 v26 v29 v32 v35 v38 v41 v44 v47 v50 v53 v56 v59 v62 v65 v68 v399 k0_hw9 => k0_hw9.1
theorem k0_idx130_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v26] : Fin 2 → IVec S16 32) a x).toNat < S32x2048.size a := fun v23 v26 v29 v32 v35 v38 v41 v44 v47 v50 v53 v56 v59 v62 v65 v68 v399 k0_hw9 => k0_hw9.2.1
theorem k0_idx131_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v29] : Fin 2 → IVec S16 32) a x).toNat < S32x2048.size a := fun v23 v26 v29 v32 v35 v38 v41 v44 v47 v50 v53 v56 v59 v62 v65 v68 v399 k0_hw9 => k0_hw9.2.2.1
theorem k0_idx132_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v32] : Fin 2 → IVec S16 32) a x).toNat < S32x2048.size a := fun v23 v26 v29 v32 v35 v38 v41 v44 v47 v50 v53 v56 v59 v62 v65 v68 v399 k0_hw9 => k0_hw9.2.2.2.1
theorem k0_idx133_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v35] : Fin 2 → IVec S16 32) a x).toNat < S32x2048.size a := fun v23 v26 v29 v32 v35 v38 v41 v44 v47 v50 v53 v56 v59 v62 v65 v68 v399 k0_hw9 => k0_hw9.2.2.2.2.1
theorem k0_idx134_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v38] : Fin 2 → IVec S16 32) a x).toNat < S32x2048.size a := fun v23 v26 v29 v32 v35 v38 v41 v44 v47 v50 v53 v56 v59 v62 v65 v68 v399 k0_hw9 => k0_hw9.2.2.2.2.2.1
theorem k0_idx135_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v41] : Fin 2 → IVec S16 32) a x).toNat < S32x2048.size a := fun v23 v26 v29 v32 v35 v38 v41 v44 v47 v50 v53 v56 v59 v62 v65 v68 v399 k0_hw9 => k0_hw9.2.2.2.2.2.2.1
theorem k0_idx136_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v44] : Fin 2 → IVec S16 32) a x).toNat < S32x2048.size a := fun v23 v26 v29 v32 v35 v38 v41 v44 v47 v50 v53 v56 v59 v62 v65 v68 v399 k0_hw9 => k0_hw9.2.2.2.2.2.2.2.1
theorem k0_idx137_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v47] : Fin 2 → IVec S16 32) a x).toNat < S32x2048.size a := fun v23 v26 v29 v32 v35 v38 v41 v44 v47 v50 v53 v56 v59 v62 v65 v68 v399 k0_hw9 => k0_hw9.2.2.2.2.2.2.2.2.1
theorem k0_idx138_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v50] : Fin 2 → IVec S16 32) a x).toNat < S32x2048.size a := fun v23 v26 v29 v32 v35 v38 v41 v44 v47 v50 v53 v56 v59 v62 v65 v68 v399 k0_hw9 => k0_hw9.2.2.2.2.2.2.2.2.2.1
theorem k0_idx139_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v53] : Fin 2 → IVec S16 32) a x).toNat < S32x2048.size a := fun v23 v26 v29 v32 v35 v38 v41 v44 v47 v50 v53 v56 v59 v62 v65 v68 v399 k0_hw9 => k0_hw9.2.2.2.2.2.2.2.2.2.2.1
theorem k0_idx140_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v56] : Fin 2 → IVec S16 32) a x).toNat < S32x2048.size a := fun v23 v26 v29 v32 v35 v38 v41 v44 v47 v50 v53 v56 v59 v62 v65 v68 v399 k0_hw9 => k0_hw9.2.2.2.2.2.2.2.2.2.2.2.1
theorem k0_idx141_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v59] : Fin 2 → IVec S16 32) a x).toNat < S32x2048.size a := fun v23 v26 v29 v32 v35 v38 v41 v44 v47 v50 v53 v56 v59 v62 v65 v68 v399 k0_hw9 => k0_hw9.2.2.2.2.2.2.2.2.2.2.2.2.1
theorem k0_idx142_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v62] : Fin 2 → IVec S16 32) a x).toNat < S32x2048.size a := fun v23 v26 v29 v32 v35 v38 v41 v44 v47 v50 v53 v56 v59 v62 v65 v68 v399 k0_hw9 => k0_hw9.2.2.2.2.2.2.2.2.2.2.2.2.2.1
theorem k0_idx143_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v65] : Fin 2 → IVec S16 32) a x).toNat < S32x2048.size a := fun v23 v26 v29 v32 v35 v38 v41 v44 v47 v50 v53 v56 v59 v62 v65 v68 v399 k0_hw9 => k0_hw9.2.2.2.2.2.2.2.2.2.2.2.2.2.2.1
theorem k0_idx144_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v399 : IVec S16 32) (k0_hw9 : k0_chk9 v23 v26 v29 v32 v35 v38 v41 v44 v47 v50 v53 v56 v59 v62 v65 v68 v399), ∀ a x, ((![v399, v68] : Fin 2 → IVec S16 32) a x).toNat < S32x2048.size a := fun v23 v26 v29 v32 v35 v38 v41 v44 v47 v50 v53 v56 v59 v62 v65 v68 v399 k0_hw9 => k0_hw9.2.2.2.2.2.2.2.2.2.2.2.2.2.2.2
def k0_off28 (k0_t1 : Fin k0_t1_loop.trips) : Fin 2 → Nat :=
  let c8_i32_45 : BitVec 32 := 8#32
  let v431 : Index := Scalar.indexCast c8_i32_45
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v432 : Index := Scalar.indexCast v20
  ![8, v432.toNat]

def k0_chk10 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) : Prop :=
  (∀ a x, ((![v440, v23] : Fin 2 → IVec S16 32) a x).toNat < S32x2048.size a) ∧
  (∀ a x, ((![v440, v26] : Fin 2 → IVec S16 32) a x).toNat < S32x2048.size a) ∧
  (∀ a x, ((![v440, v29] : Fin 2 → IVec S16 32) a x).toNat < S32x2048.size a) ∧
  (∀ a x, ((![v440, v32] : Fin 2 → IVec S16 32) a x).toNat < S32x2048.size a) ∧
  (∀ a x, ((![v440, v35] : Fin 2 → IVec S16 32) a x).toNat < S32x2048.size a) ∧
  (∀ a x, ((![v440, v38] : Fin 2 → IVec S16 32) a x).toNat < S32x2048.size a) ∧
  (∀ a x, ((![v440, v41] : Fin 2 → IVec S16 32) a x).toNat < S32x2048.size a) ∧
  (∀ a x, ((![v440, v44] : Fin 2 → IVec S16 32) a x).toNat < S32x2048.size a) ∧
  (∀ a x, ((![v440, v47] : Fin 2 → IVec S16 32) a x).toNat < S32x2048.size a) ∧
  (∀ a x, ((![v440, v50] : Fin 2 → IVec S16 32) a x).toNat < S32x2048.size a) ∧
  (∀ a x, ((![v440, v53] : Fin 2 → IVec S16 32) a x).toNat < S32x2048.size a) ∧
  (∀ a x, ((![v440, v56] : Fin 2 → IVec S16 32) a x).toNat < S32x2048.size a) ∧
  (∀ a x, ((![v440, v59] : Fin 2 → IVec S16 32) a x).toNat < S32x2048.size a) ∧
  (∀ a x, ((![v440, v62] : Fin 2 → IVec S16 32) a x).toNat < S32x2048.size a) ∧
  (∀ a x, ((![v440, v65] : Fin 2 → IVec S16 32) a x).toNat < S32x2048.size a) ∧
  (∀ a x, ((![v440, v68] : Fin 2 → IVec S16 32) a x).toNat < S32x2048.size a)
instance k0_chk10.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32), Decidable (k0_chk10 v23 v26 v29 v32 v35 v38 v41 v44 v47 v50 v53 v56 v59 v62 v65 v68 v440) := fun v23 v26 v29 v32 v35 v38 v41 v44 v47 v50 v53 v56 v59 v62 v65 v68 v440 => decidable_of_iff' _ (Iff.of_eq (k0_chk10.eq_1 v23 v26 v29 v32 v35 v38 v41 v44 v47 v50 v53 v56 v59 v62 v65 v68 v440))
theorem k0_idx145_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v23] : Fin 2 → IVec S16 32) a x).toNat < S32x2048.size a := fun v23 v26 v29 v32 v35 v38 v41 v44 v47 v50 v53 v56 v59 v62 v65 v68 v440 k0_hw10 => k0_hw10.1
theorem k0_idx146_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v26] : Fin 2 → IVec S16 32) a x).toNat < S32x2048.size a := fun v23 v26 v29 v32 v35 v38 v41 v44 v47 v50 v53 v56 v59 v62 v65 v68 v440 k0_hw10 => k0_hw10.2.1
theorem k0_idx147_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v29] : Fin 2 → IVec S16 32) a x).toNat < S32x2048.size a := fun v23 v26 v29 v32 v35 v38 v41 v44 v47 v50 v53 v56 v59 v62 v65 v68 v440 k0_hw10 => k0_hw10.2.2.1
theorem k0_idx148_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v32] : Fin 2 → IVec S16 32) a x).toNat < S32x2048.size a := fun v23 v26 v29 v32 v35 v38 v41 v44 v47 v50 v53 v56 v59 v62 v65 v68 v440 k0_hw10 => k0_hw10.2.2.2.1
theorem k0_idx149_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v35] : Fin 2 → IVec S16 32) a x).toNat < S32x2048.size a := fun v23 v26 v29 v32 v35 v38 v41 v44 v47 v50 v53 v56 v59 v62 v65 v68 v440 k0_hw10 => k0_hw10.2.2.2.2.1
theorem k0_idx150_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v38] : Fin 2 → IVec S16 32) a x).toNat < S32x2048.size a := fun v23 v26 v29 v32 v35 v38 v41 v44 v47 v50 v53 v56 v59 v62 v65 v68 v440 k0_hw10 => k0_hw10.2.2.2.2.2.1
theorem k0_idx151_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v41] : Fin 2 → IVec S16 32) a x).toNat < S32x2048.size a := fun v23 v26 v29 v32 v35 v38 v41 v44 v47 v50 v53 v56 v59 v62 v65 v68 v440 k0_hw10 => k0_hw10.2.2.2.2.2.2.1
theorem k0_idx152_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v44] : Fin 2 → IVec S16 32) a x).toNat < S32x2048.size a := fun v23 v26 v29 v32 v35 v38 v41 v44 v47 v50 v53 v56 v59 v62 v65 v68 v440 k0_hw10 => k0_hw10.2.2.2.2.2.2.2.1
theorem k0_idx153_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v47] : Fin 2 → IVec S16 32) a x).toNat < S32x2048.size a := fun v23 v26 v29 v32 v35 v38 v41 v44 v47 v50 v53 v56 v59 v62 v65 v68 v440 k0_hw10 => k0_hw10.2.2.2.2.2.2.2.2.1
theorem k0_idx154_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v50] : Fin 2 → IVec S16 32) a x).toNat < S32x2048.size a := fun v23 v26 v29 v32 v35 v38 v41 v44 v47 v50 v53 v56 v59 v62 v65 v68 v440 k0_hw10 => k0_hw10.2.2.2.2.2.2.2.2.2.1
theorem k0_idx155_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v53] : Fin 2 → IVec S16 32) a x).toNat < S32x2048.size a := fun v23 v26 v29 v32 v35 v38 v41 v44 v47 v50 v53 v56 v59 v62 v65 v68 v440 k0_hw10 => k0_hw10.2.2.2.2.2.2.2.2.2.2.1
theorem k0_idx156_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v56] : Fin 2 → IVec S16 32) a x).toNat < S32x2048.size a := fun v23 v26 v29 v32 v35 v38 v41 v44 v47 v50 v53 v56 v59 v62 v65 v68 v440 k0_hw10 => k0_hw10.2.2.2.2.2.2.2.2.2.2.2.1
theorem k0_idx157_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v59] : Fin 2 → IVec S16 32) a x).toNat < S32x2048.size a := fun v23 v26 v29 v32 v35 v38 v41 v44 v47 v50 v53 v56 v59 v62 v65 v68 v440 k0_hw10 => k0_hw10.2.2.2.2.2.2.2.2.2.2.2.2.1
theorem k0_idx158_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v62] : Fin 2 → IVec S16 32) a x).toNat < S32x2048.size a := fun v23 v26 v29 v32 v35 v38 v41 v44 v47 v50 v53 v56 v59 v62 v65 v68 v440 k0_hw10 => k0_hw10.2.2.2.2.2.2.2.2.2.2.2.2.2.1
theorem k0_idx159_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v65] : Fin 2 → IVec S16 32) a x).toNat < S32x2048.size a := fun v23 v26 v29 v32 v35 v38 v41 v44 v47 v50 v53 v56 v59 v62 v65 v68 v440 k0_hw10 => k0_hw10.2.2.2.2.2.2.2.2.2.2.2.2.2.2.1
theorem k0_idx160_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v440 : IVec S16 32) (k0_hw10 : k0_chk10 v23 v26 v29 v32 v35 v38 v41 v44 v47 v50 v53 v56 v59 v62 v65 v68 v440), ∀ a x, ((![v440, v68] : Fin 2 → IVec S16 32) a x).toNat < S32x2048.size a := fun v23 v26 v29 v32 v35 v38 v41 v44 v47 v50 v53 v56 v59 v62 v65 v68 v440 k0_hw10 => k0_hw10.2.2.2.2.2.2.2.2.2.2.2.2.2.2.2
def k0_off29 (k0_t1 : Fin k0_t1_loop.trips) : Fin 2 → Nat :=
  let c9_i32_49 : BitVec 32 := 9#32
  let v472 : Index := Scalar.indexCast c9_i32_49
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v473 : Index := Scalar.indexCast v20
  ![9, v473.toNat]

def k0_chk11 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) : Prop :=
  (∀ a x, ((![v481, v23] : Fin 2 → IVec S16 32) a x).toNat < S32x2048.size a) ∧
  (∀ a x, ((![v481, v26] : Fin 2 → IVec S16 32) a x).toNat < S32x2048.size a) ∧
  (∀ a x, ((![v481, v29] : Fin 2 → IVec S16 32) a x).toNat < S32x2048.size a) ∧
  (∀ a x, ((![v481, v32] : Fin 2 → IVec S16 32) a x).toNat < S32x2048.size a) ∧
  (∀ a x, ((![v481, v35] : Fin 2 → IVec S16 32) a x).toNat < S32x2048.size a) ∧
  (∀ a x, ((![v481, v38] : Fin 2 → IVec S16 32) a x).toNat < S32x2048.size a) ∧
  (∀ a x, ((![v481, v41] : Fin 2 → IVec S16 32) a x).toNat < S32x2048.size a) ∧
  (∀ a x, ((![v481, v44] : Fin 2 → IVec S16 32) a x).toNat < S32x2048.size a) ∧
  (∀ a x, ((![v481, v47] : Fin 2 → IVec S16 32) a x).toNat < S32x2048.size a) ∧
  (∀ a x, ((![v481, v50] : Fin 2 → IVec S16 32) a x).toNat < S32x2048.size a) ∧
  (∀ a x, ((![v481, v53] : Fin 2 → IVec S16 32) a x).toNat < S32x2048.size a) ∧
  (∀ a x, ((![v481, v56] : Fin 2 → IVec S16 32) a x).toNat < S32x2048.size a) ∧
  (∀ a x, ((![v481, v59] : Fin 2 → IVec S16 32) a x).toNat < S32x2048.size a) ∧
  (∀ a x, ((![v481, v62] : Fin 2 → IVec S16 32) a x).toNat < S32x2048.size a) ∧
  (∀ a x, ((![v481, v65] : Fin 2 → IVec S16 32) a x).toNat < S32x2048.size a) ∧
  (∀ a x, ((![v481, v68] : Fin 2 → IVec S16 32) a x).toNat < S32x2048.size a)
instance k0_chk11.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32), Decidable (k0_chk11 v23 v26 v29 v32 v35 v38 v41 v44 v47 v50 v53 v56 v59 v62 v65 v68 v481) := fun v23 v26 v29 v32 v35 v38 v41 v44 v47 v50 v53 v56 v59 v62 v65 v68 v481 => decidable_of_iff' _ (Iff.of_eq (k0_chk11.eq_1 v23 v26 v29 v32 v35 v38 v41 v44 v47 v50 v53 v56 v59 v62 v65 v68 v481))
theorem k0_idx161_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v23] : Fin 2 → IVec S16 32) a x).toNat < S32x2048.size a := fun v23 v26 v29 v32 v35 v38 v41 v44 v47 v50 v53 v56 v59 v62 v65 v68 v481 k0_hw11 => k0_hw11.1
theorem k0_idx162_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v26] : Fin 2 → IVec S16 32) a x).toNat < S32x2048.size a := fun v23 v26 v29 v32 v35 v38 v41 v44 v47 v50 v53 v56 v59 v62 v65 v68 v481 k0_hw11 => k0_hw11.2.1
theorem k0_idx163_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v29] : Fin 2 → IVec S16 32) a x).toNat < S32x2048.size a := fun v23 v26 v29 v32 v35 v38 v41 v44 v47 v50 v53 v56 v59 v62 v65 v68 v481 k0_hw11 => k0_hw11.2.2.1
theorem k0_idx164_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v32] : Fin 2 → IVec S16 32) a x).toNat < S32x2048.size a := fun v23 v26 v29 v32 v35 v38 v41 v44 v47 v50 v53 v56 v59 v62 v65 v68 v481 k0_hw11 => k0_hw11.2.2.2.1
theorem k0_idx165_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v35] : Fin 2 → IVec S16 32) a x).toNat < S32x2048.size a := fun v23 v26 v29 v32 v35 v38 v41 v44 v47 v50 v53 v56 v59 v62 v65 v68 v481 k0_hw11 => k0_hw11.2.2.2.2.1
theorem k0_idx166_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v38] : Fin 2 → IVec S16 32) a x).toNat < S32x2048.size a := fun v23 v26 v29 v32 v35 v38 v41 v44 v47 v50 v53 v56 v59 v62 v65 v68 v481 k0_hw11 => k0_hw11.2.2.2.2.2.1
theorem k0_idx167_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v41] : Fin 2 → IVec S16 32) a x).toNat < S32x2048.size a := fun v23 v26 v29 v32 v35 v38 v41 v44 v47 v50 v53 v56 v59 v62 v65 v68 v481 k0_hw11 => k0_hw11.2.2.2.2.2.2.1
theorem k0_idx168_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v44] : Fin 2 → IVec S16 32) a x).toNat < S32x2048.size a := fun v23 v26 v29 v32 v35 v38 v41 v44 v47 v50 v53 v56 v59 v62 v65 v68 v481 k0_hw11 => k0_hw11.2.2.2.2.2.2.2.1
theorem k0_idx169_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v47] : Fin 2 → IVec S16 32) a x).toNat < S32x2048.size a := fun v23 v26 v29 v32 v35 v38 v41 v44 v47 v50 v53 v56 v59 v62 v65 v68 v481 k0_hw11 => k0_hw11.2.2.2.2.2.2.2.2.1
theorem k0_idx170_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v50] : Fin 2 → IVec S16 32) a x).toNat < S32x2048.size a := fun v23 v26 v29 v32 v35 v38 v41 v44 v47 v50 v53 v56 v59 v62 v65 v68 v481 k0_hw11 => k0_hw11.2.2.2.2.2.2.2.2.2.1
theorem k0_idx171_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v53] : Fin 2 → IVec S16 32) a x).toNat < S32x2048.size a := fun v23 v26 v29 v32 v35 v38 v41 v44 v47 v50 v53 v56 v59 v62 v65 v68 v481 k0_hw11 => k0_hw11.2.2.2.2.2.2.2.2.2.2.1
theorem k0_idx172_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v56] : Fin 2 → IVec S16 32) a x).toNat < S32x2048.size a := fun v23 v26 v29 v32 v35 v38 v41 v44 v47 v50 v53 v56 v59 v62 v65 v68 v481 k0_hw11 => k0_hw11.2.2.2.2.2.2.2.2.2.2.2.1
theorem k0_idx173_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v59] : Fin 2 → IVec S16 32) a x).toNat < S32x2048.size a := fun v23 v26 v29 v32 v35 v38 v41 v44 v47 v50 v53 v56 v59 v62 v65 v68 v481 k0_hw11 => k0_hw11.2.2.2.2.2.2.2.2.2.2.2.2.1
theorem k0_idx174_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v62] : Fin 2 → IVec S16 32) a x).toNat < S32x2048.size a := fun v23 v26 v29 v32 v35 v38 v41 v44 v47 v50 v53 v56 v59 v62 v65 v68 v481 k0_hw11 => k0_hw11.2.2.2.2.2.2.2.2.2.2.2.2.2.1
theorem k0_idx175_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v65] : Fin 2 → IVec S16 32) a x).toNat < S32x2048.size a := fun v23 v26 v29 v32 v35 v38 v41 v44 v47 v50 v53 v56 v59 v62 v65 v68 v481 k0_hw11 => k0_hw11.2.2.2.2.2.2.2.2.2.2.2.2.2.2.1
theorem k0_idx176_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v481 : IVec S16 32) (k0_hw11 : k0_chk11 v23 v26 v29 v32 v35 v38 v41 v44 v47 v50 v53 v56 v59 v62 v65 v68 v481), ∀ a x, ((![v481, v68] : Fin 2 → IVec S16 32) a x).toNat < S32x2048.size a := fun v23 v26 v29 v32 v35 v38 v41 v44 v47 v50 v53 v56 v59 v62 v65 v68 v481 k0_hw11 => k0_hw11.2.2.2.2.2.2.2.2.2.2.2.2.2.2.2
def k0_off30 (k0_t1 : Fin k0_t1_loop.trips) : Fin 2 → Nat :=
  let c10_i32_53 : BitVec 32 := 10#32
  let v513 : Index := Scalar.indexCast c10_i32_53
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v514 : Index := Scalar.indexCast v20
  ![10, v514.toNat]

def k0_chk12 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) : Prop :=
  (∀ a x, ((![v522, v23] : Fin 2 → IVec S16 32) a x).toNat < S32x2048.size a) ∧
  (∀ a x, ((![v522, v26] : Fin 2 → IVec S16 32) a x).toNat < S32x2048.size a) ∧
  (∀ a x, ((![v522, v29] : Fin 2 → IVec S16 32) a x).toNat < S32x2048.size a) ∧
  (∀ a x, ((![v522, v32] : Fin 2 → IVec S16 32) a x).toNat < S32x2048.size a) ∧
  (∀ a x, ((![v522, v35] : Fin 2 → IVec S16 32) a x).toNat < S32x2048.size a) ∧
  (∀ a x, ((![v522, v38] : Fin 2 → IVec S16 32) a x).toNat < S32x2048.size a) ∧
  (∀ a x, ((![v522, v41] : Fin 2 → IVec S16 32) a x).toNat < S32x2048.size a) ∧
  (∀ a x, ((![v522, v44] : Fin 2 → IVec S16 32) a x).toNat < S32x2048.size a) ∧
  (∀ a x, ((![v522, v47] : Fin 2 → IVec S16 32) a x).toNat < S32x2048.size a) ∧
  (∀ a x, ((![v522, v50] : Fin 2 → IVec S16 32) a x).toNat < S32x2048.size a) ∧
  (∀ a x, ((![v522, v53] : Fin 2 → IVec S16 32) a x).toNat < S32x2048.size a) ∧
  (∀ a x, ((![v522, v56] : Fin 2 → IVec S16 32) a x).toNat < S32x2048.size a) ∧
  (∀ a x, ((![v522, v59] : Fin 2 → IVec S16 32) a x).toNat < S32x2048.size a) ∧
  (∀ a x, ((![v522, v62] : Fin 2 → IVec S16 32) a x).toNat < S32x2048.size a) ∧
  (∀ a x, ((![v522, v65] : Fin 2 → IVec S16 32) a x).toNat < S32x2048.size a) ∧
  (∀ a x, ((![v522, v68] : Fin 2 → IVec S16 32) a x).toNat < S32x2048.size a)
instance k0_chk12.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32), Decidable (k0_chk12 v23 v26 v29 v32 v35 v38 v41 v44 v47 v50 v53 v56 v59 v62 v65 v68 v522) := fun v23 v26 v29 v32 v35 v38 v41 v44 v47 v50 v53 v56 v59 v62 v65 v68 v522 => decidable_of_iff' _ (Iff.of_eq (k0_chk12.eq_1 v23 v26 v29 v32 v35 v38 v41 v44 v47 v50 v53 v56 v59 v62 v65 v68 v522))
theorem k0_idx177_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v23] : Fin 2 → IVec S16 32) a x).toNat < S32x2048.size a := fun v23 v26 v29 v32 v35 v38 v41 v44 v47 v50 v53 v56 v59 v62 v65 v68 v522 k0_hw12 => k0_hw12.1
theorem k0_idx178_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v26] : Fin 2 → IVec S16 32) a x).toNat < S32x2048.size a := fun v23 v26 v29 v32 v35 v38 v41 v44 v47 v50 v53 v56 v59 v62 v65 v68 v522 k0_hw12 => k0_hw12.2.1
theorem k0_idx179_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v29] : Fin 2 → IVec S16 32) a x).toNat < S32x2048.size a := fun v23 v26 v29 v32 v35 v38 v41 v44 v47 v50 v53 v56 v59 v62 v65 v68 v522 k0_hw12 => k0_hw12.2.2.1
theorem k0_idx180_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v32] : Fin 2 → IVec S16 32) a x).toNat < S32x2048.size a := fun v23 v26 v29 v32 v35 v38 v41 v44 v47 v50 v53 v56 v59 v62 v65 v68 v522 k0_hw12 => k0_hw12.2.2.2.1
theorem k0_idx181_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v35] : Fin 2 → IVec S16 32) a x).toNat < S32x2048.size a := fun v23 v26 v29 v32 v35 v38 v41 v44 v47 v50 v53 v56 v59 v62 v65 v68 v522 k0_hw12 => k0_hw12.2.2.2.2.1
theorem k0_idx182_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v38] : Fin 2 → IVec S16 32) a x).toNat < S32x2048.size a := fun v23 v26 v29 v32 v35 v38 v41 v44 v47 v50 v53 v56 v59 v62 v65 v68 v522 k0_hw12 => k0_hw12.2.2.2.2.2.1
theorem k0_idx183_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v41] : Fin 2 → IVec S16 32) a x).toNat < S32x2048.size a := fun v23 v26 v29 v32 v35 v38 v41 v44 v47 v50 v53 v56 v59 v62 v65 v68 v522 k0_hw12 => k0_hw12.2.2.2.2.2.2.1
theorem k0_idx184_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v44] : Fin 2 → IVec S16 32) a x).toNat < S32x2048.size a := fun v23 v26 v29 v32 v35 v38 v41 v44 v47 v50 v53 v56 v59 v62 v65 v68 v522 k0_hw12 => k0_hw12.2.2.2.2.2.2.2.1
theorem k0_idx185_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v47] : Fin 2 → IVec S16 32) a x).toNat < S32x2048.size a := fun v23 v26 v29 v32 v35 v38 v41 v44 v47 v50 v53 v56 v59 v62 v65 v68 v522 k0_hw12 => k0_hw12.2.2.2.2.2.2.2.2.1
theorem k0_idx186_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v50] : Fin 2 → IVec S16 32) a x).toNat < S32x2048.size a := fun v23 v26 v29 v32 v35 v38 v41 v44 v47 v50 v53 v56 v59 v62 v65 v68 v522 k0_hw12 => k0_hw12.2.2.2.2.2.2.2.2.2.1
theorem k0_idx187_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v53] : Fin 2 → IVec S16 32) a x).toNat < S32x2048.size a := fun v23 v26 v29 v32 v35 v38 v41 v44 v47 v50 v53 v56 v59 v62 v65 v68 v522 k0_hw12 => k0_hw12.2.2.2.2.2.2.2.2.2.2.1
theorem k0_idx188_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v56] : Fin 2 → IVec S16 32) a x).toNat < S32x2048.size a := fun v23 v26 v29 v32 v35 v38 v41 v44 v47 v50 v53 v56 v59 v62 v65 v68 v522 k0_hw12 => k0_hw12.2.2.2.2.2.2.2.2.2.2.2.1
theorem k0_idx189_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v59] : Fin 2 → IVec S16 32) a x).toNat < S32x2048.size a := fun v23 v26 v29 v32 v35 v38 v41 v44 v47 v50 v53 v56 v59 v62 v65 v68 v522 k0_hw12 => k0_hw12.2.2.2.2.2.2.2.2.2.2.2.2.1
theorem k0_idx190_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v62] : Fin 2 → IVec S16 32) a x).toNat < S32x2048.size a := fun v23 v26 v29 v32 v35 v38 v41 v44 v47 v50 v53 v56 v59 v62 v65 v68 v522 k0_hw12 => k0_hw12.2.2.2.2.2.2.2.2.2.2.2.2.2.1
theorem k0_idx191_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v65] : Fin 2 → IVec S16 32) a x).toNat < S32x2048.size a := fun v23 v26 v29 v32 v35 v38 v41 v44 v47 v50 v53 v56 v59 v62 v65 v68 v522 k0_hw12 => k0_hw12.2.2.2.2.2.2.2.2.2.2.2.2.2.2.1
theorem k0_idx192_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v522 : IVec S16 32) (k0_hw12 : k0_chk12 v23 v26 v29 v32 v35 v38 v41 v44 v47 v50 v53 v56 v59 v62 v65 v68 v522), ∀ a x, ((![v522, v68] : Fin 2 → IVec S16 32) a x).toNat < S32x2048.size a := fun v23 v26 v29 v32 v35 v38 v41 v44 v47 v50 v53 v56 v59 v62 v65 v68 v522 k0_hw12 => k0_hw12.2.2.2.2.2.2.2.2.2.2.2.2.2.2.2
def k0_off31 (k0_t1 : Fin k0_t1_loop.trips) : Fin 2 → Nat :=
  let c11_i32_57 : BitVec 32 := 11#32
  let v554 : Index := Scalar.indexCast c11_i32_57
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v555 : Index := Scalar.indexCast v20
  ![11, v555.toNat]

def k0_chk13 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) : Prop :=
  (∀ a x, ((![v563, v23] : Fin 2 → IVec S16 32) a x).toNat < S32x2048.size a) ∧
  (∀ a x, ((![v563, v26] : Fin 2 → IVec S16 32) a x).toNat < S32x2048.size a) ∧
  (∀ a x, ((![v563, v29] : Fin 2 → IVec S16 32) a x).toNat < S32x2048.size a) ∧
  (∀ a x, ((![v563, v32] : Fin 2 → IVec S16 32) a x).toNat < S32x2048.size a) ∧
  (∀ a x, ((![v563, v35] : Fin 2 → IVec S16 32) a x).toNat < S32x2048.size a) ∧
  (∀ a x, ((![v563, v38] : Fin 2 → IVec S16 32) a x).toNat < S32x2048.size a) ∧
  (∀ a x, ((![v563, v41] : Fin 2 → IVec S16 32) a x).toNat < S32x2048.size a) ∧
  (∀ a x, ((![v563, v44] : Fin 2 → IVec S16 32) a x).toNat < S32x2048.size a) ∧
  (∀ a x, ((![v563, v47] : Fin 2 → IVec S16 32) a x).toNat < S32x2048.size a) ∧
  (∀ a x, ((![v563, v50] : Fin 2 → IVec S16 32) a x).toNat < S32x2048.size a) ∧
  (∀ a x, ((![v563, v53] : Fin 2 → IVec S16 32) a x).toNat < S32x2048.size a) ∧
  (∀ a x, ((![v563, v56] : Fin 2 → IVec S16 32) a x).toNat < S32x2048.size a) ∧
  (∀ a x, ((![v563, v59] : Fin 2 → IVec S16 32) a x).toNat < S32x2048.size a) ∧
  (∀ a x, ((![v563, v62] : Fin 2 → IVec S16 32) a x).toNat < S32x2048.size a) ∧
  (∀ a x, ((![v563, v65] : Fin 2 → IVec S16 32) a x).toNat < S32x2048.size a) ∧
  (∀ a x, ((![v563, v68] : Fin 2 → IVec S16 32) a x).toNat < S32x2048.size a)
instance k0_chk13.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32), Decidable (k0_chk13 v23 v26 v29 v32 v35 v38 v41 v44 v47 v50 v53 v56 v59 v62 v65 v68 v563) := fun v23 v26 v29 v32 v35 v38 v41 v44 v47 v50 v53 v56 v59 v62 v65 v68 v563 => decidable_of_iff' _ (Iff.of_eq (k0_chk13.eq_1 v23 v26 v29 v32 v35 v38 v41 v44 v47 v50 v53 v56 v59 v62 v65 v68 v563))
theorem k0_idx193_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v23] : Fin 2 → IVec S16 32) a x).toNat < S32x2048.size a := fun v23 v26 v29 v32 v35 v38 v41 v44 v47 v50 v53 v56 v59 v62 v65 v68 v563 k0_hw13 => k0_hw13.1
theorem k0_idx194_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v26] : Fin 2 → IVec S16 32) a x).toNat < S32x2048.size a := fun v23 v26 v29 v32 v35 v38 v41 v44 v47 v50 v53 v56 v59 v62 v65 v68 v563 k0_hw13 => k0_hw13.2.1
theorem k0_idx195_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v29] : Fin 2 → IVec S16 32) a x).toNat < S32x2048.size a := fun v23 v26 v29 v32 v35 v38 v41 v44 v47 v50 v53 v56 v59 v62 v65 v68 v563 k0_hw13 => k0_hw13.2.2.1
theorem k0_idx196_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v32] : Fin 2 → IVec S16 32) a x).toNat < S32x2048.size a := fun v23 v26 v29 v32 v35 v38 v41 v44 v47 v50 v53 v56 v59 v62 v65 v68 v563 k0_hw13 => k0_hw13.2.2.2.1
theorem k0_idx197_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v35] : Fin 2 → IVec S16 32) a x).toNat < S32x2048.size a := fun v23 v26 v29 v32 v35 v38 v41 v44 v47 v50 v53 v56 v59 v62 v65 v68 v563 k0_hw13 => k0_hw13.2.2.2.2.1
theorem k0_idx198_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v38] : Fin 2 → IVec S16 32) a x).toNat < S32x2048.size a := fun v23 v26 v29 v32 v35 v38 v41 v44 v47 v50 v53 v56 v59 v62 v65 v68 v563 k0_hw13 => k0_hw13.2.2.2.2.2.1
theorem k0_idx199_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v41] : Fin 2 → IVec S16 32) a x).toNat < S32x2048.size a := fun v23 v26 v29 v32 v35 v38 v41 v44 v47 v50 v53 v56 v59 v62 v65 v68 v563 k0_hw13 => k0_hw13.2.2.2.2.2.2.1
theorem k0_idx200_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v44] : Fin 2 → IVec S16 32) a x).toNat < S32x2048.size a := fun v23 v26 v29 v32 v35 v38 v41 v44 v47 v50 v53 v56 v59 v62 v65 v68 v563 k0_hw13 => k0_hw13.2.2.2.2.2.2.2.1
theorem k0_idx201_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v47] : Fin 2 → IVec S16 32) a x).toNat < S32x2048.size a := fun v23 v26 v29 v32 v35 v38 v41 v44 v47 v50 v53 v56 v59 v62 v65 v68 v563 k0_hw13 => k0_hw13.2.2.2.2.2.2.2.2.1
theorem k0_idx202_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v50] : Fin 2 → IVec S16 32) a x).toNat < S32x2048.size a := fun v23 v26 v29 v32 v35 v38 v41 v44 v47 v50 v53 v56 v59 v62 v65 v68 v563 k0_hw13 => k0_hw13.2.2.2.2.2.2.2.2.2.1
theorem k0_idx203_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v53] : Fin 2 → IVec S16 32) a x).toNat < S32x2048.size a := fun v23 v26 v29 v32 v35 v38 v41 v44 v47 v50 v53 v56 v59 v62 v65 v68 v563 k0_hw13 => k0_hw13.2.2.2.2.2.2.2.2.2.2.1
theorem k0_idx204_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v56] : Fin 2 → IVec S16 32) a x).toNat < S32x2048.size a := fun v23 v26 v29 v32 v35 v38 v41 v44 v47 v50 v53 v56 v59 v62 v65 v68 v563 k0_hw13 => k0_hw13.2.2.2.2.2.2.2.2.2.2.2.1
theorem k0_idx205_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v59] : Fin 2 → IVec S16 32) a x).toNat < S32x2048.size a := fun v23 v26 v29 v32 v35 v38 v41 v44 v47 v50 v53 v56 v59 v62 v65 v68 v563 k0_hw13 => k0_hw13.2.2.2.2.2.2.2.2.2.2.2.2.1
theorem k0_idx206_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v62] : Fin 2 → IVec S16 32) a x).toNat < S32x2048.size a := fun v23 v26 v29 v32 v35 v38 v41 v44 v47 v50 v53 v56 v59 v62 v65 v68 v563 k0_hw13 => k0_hw13.2.2.2.2.2.2.2.2.2.2.2.2.2.1
theorem k0_idx207_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v65] : Fin 2 → IVec S16 32) a x).toNat < S32x2048.size a := fun v23 v26 v29 v32 v35 v38 v41 v44 v47 v50 v53 v56 v59 v62 v65 v68 v563 k0_hw13 => k0_hw13.2.2.2.2.2.2.2.2.2.2.2.2.2.2.1
theorem k0_idx208_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v563 : IVec S16 32) (k0_hw13 : k0_chk13 v23 v26 v29 v32 v35 v38 v41 v44 v47 v50 v53 v56 v59 v62 v65 v68 v563), ∀ a x, ((![v563, v68] : Fin 2 → IVec S16 32) a x).toNat < S32x2048.size a := fun v23 v26 v29 v32 v35 v38 v41 v44 v47 v50 v53 v56 v59 v62 v65 v68 v563 k0_hw13 => k0_hw13.2.2.2.2.2.2.2.2.2.2.2.2.2.2.2
def k0_off32 (k0_t1 : Fin k0_t1_loop.trips) : Fin 2 → Nat :=
  let c12_i32_61 : BitVec 32 := 12#32
  let v595 : Index := Scalar.indexCast c12_i32_61
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v596 : Index := Scalar.indexCast v20
  ![12, v596.toNat]

def k0_chk14 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) : Prop :=
  (∀ a x, ((![v604, v23] : Fin 2 → IVec S16 32) a x).toNat < S32x2048.size a) ∧
  (∀ a x, ((![v604, v26] : Fin 2 → IVec S16 32) a x).toNat < S32x2048.size a) ∧
  (∀ a x, ((![v604, v29] : Fin 2 → IVec S16 32) a x).toNat < S32x2048.size a) ∧
  (∀ a x, ((![v604, v32] : Fin 2 → IVec S16 32) a x).toNat < S32x2048.size a) ∧
  (∀ a x, ((![v604, v35] : Fin 2 → IVec S16 32) a x).toNat < S32x2048.size a) ∧
  (∀ a x, ((![v604, v38] : Fin 2 → IVec S16 32) a x).toNat < S32x2048.size a) ∧
  (∀ a x, ((![v604, v41] : Fin 2 → IVec S16 32) a x).toNat < S32x2048.size a) ∧
  (∀ a x, ((![v604, v44] : Fin 2 → IVec S16 32) a x).toNat < S32x2048.size a) ∧
  (∀ a x, ((![v604, v47] : Fin 2 → IVec S16 32) a x).toNat < S32x2048.size a) ∧
  (∀ a x, ((![v604, v50] : Fin 2 → IVec S16 32) a x).toNat < S32x2048.size a) ∧
  (∀ a x, ((![v604, v53] : Fin 2 → IVec S16 32) a x).toNat < S32x2048.size a) ∧
  (∀ a x, ((![v604, v56] : Fin 2 → IVec S16 32) a x).toNat < S32x2048.size a) ∧
  (∀ a x, ((![v604, v59] : Fin 2 → IVec S16 32) a x).toNat < S32x2048.size a) ∧
  (∀ a x, ((![v604, v62] : Fin 2 → IVec S16 32) a x).toNat < S32x2048.size a) ∧
  (∀ a x, ((![v604, v65] : Fin 2 → IVec S16 32) a x).toNat < S32x2048.size a) ∧
  (∀ a x, ((![v604, v68] : Fin 2 → IVec S16 32) a x).toNat < S32x2048.size a)
instance k0_chk14.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32), Decidable (k0_chk14 v23 v26 v29 v32 v35 v38 v41 v44 v47 v50 v53 v56 v59 v62 v65 v68 v604) := fun v23 v26 v29 v32 v35 v38 v41 v44 v47 v50 v53 v56 v59 v62 v65 v68 v604 => decidable_of_iff' _ (Iff.of_eq (k0_chk14.eq_1 v23 v26 v29 v32 v35 v38 v41 v44 v47 v50 v53 v56 v59 v62 v65 v68 v604))
theorem k0_idx209_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v23] : Fin 2 → IVec S16 32) a x).toNat < S32x2048.size a := fun v23 v26 v29 v32 v35 v38 v41 v44 v47 v50 v53 v56 v59 v62 v65 v68 v604 k0_hw14 => k0_hw14.1
theorem k0_idx210_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v26] : Fin 2 → IVec S16 32) a x).toNat < S32x2048.size a := fun v23 v26 v29 v32 v35 v38 v41 v44 v47 v50 v53 v56 v59 v62 v65 v68 v604 k0_hw14 => k0_hw14.2.1
theorem k0_idx211_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v29] : Fin 2 → IVec S16 32) a x).toNat < S32x2048.size a := fun v23 v26 v29 v32 v35 v38 v41 v44 v47 v50 v53 v56 v59 v62 v65 v68 v604 k0_hw14 => k0_hw14.2.2.1
theorem k0_idx212_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v32] : Fin 2 → IVec S16 32) a x).toNat < S32x2048.size a := fun v23 v26 v29 v32 v35 v38 v41 v44 v47 v50 v53 v56 v59 v62 v65 v68 v604 k0_hw14 => k0_hw14.2.2.2.1
theorem k0_idx213_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v35] : Fin 2 → IVec S16 32) a x).toNat < S32x2048.size a := fun v23 v26 v29 v32 v35 v38 v41 v44 v47 v50 v53 v56 v59 v62 v65 v68 v604 k0_hw14 => k0_hw14.2.2.2.2.1
theorem k0_idx214_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v38] : Fin 2 → IVec S16 32) a x).toNat < S32x2048.size a := fun v23 v26 v29 v32 v35 v38 v41 v44 v47 v50 v53 v56 v59 v62 v65 v68 v604 k0_hw14 => k0_hw14.2.2.2.2.2.1
theorem k0_idx215_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v41] : Fin 2 → IVec S16 32) a x).toNat < S32x2048.size a := fun v23 v26 v29 v32 v35 v38 v41 v44 v47 v50 v53 v56 v59 v62 v65 v68 v604 k0_hw14 => k0_hw14.2.2.2.2.2.2.1
theorem k0_idx216_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v44] : Fin 2 → IVec S16 32) a x).toNat < S32x2048.size a := fun v23 v26 v29 v32 v35 v38 v41 v44 v47 v50 v53 v56 v59 v62 v65 v68 v604 k0_hw14 => k0_hw14.2.2.2.2.2.2.2.1
theorem k0_idx217_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v47] : Fin 2 → IVec S16 32) a x).toNat < S32x2048.size a := fun v23 v26 v29 v32 v35 v38 v41 v44 v47 v50 v53 v56 v59 v62 v65 v68 v604 k0_hw14 => k0_hw14.2.2.2.2.2.2.2.2.1
theorem k0_idx218_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v50] : Fin 2 → IVec S16 32) a x).toNat < S32x2048.size a := fun v23 v26 v29 v32 v35 v38 v41 v44 v47 v50 v53 v56 v59 v62 v65 v68 v604 k0_hw14 => k0_hw14.2.2.2.2.2.2.2.2.2.1
theorem k0_idx219_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v53] : Fin 2 → IVec S16 32) a x).toNat < S32x2048.size a := fun v23 v26 v29 v32 v35 v38 v41 v44 v47 v50 v53 v56 v59 v62 v65 v68 v604 k0_hw14 => k0_hw14.2.2.2.2.2.2.2.2.2.2.1
theorem k0_idx220_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v56] : Fin 2 → IVec S16 32) a x).toNat < S32x2048.size a := fun v23 v26 v29 v32 v35 v38 v41 v44 v47 v50 v53 v56 v59 v62 v65 v68 v604 k0_hw14 => k0_hw14.2.2.2.2.2.2.2.2.2.2.2.1
theorem k0_idx221_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v59] : Fin 2 → IVec S16 32) a x).toNat < S32x2048.size a := fun v23 v26 v29 v32 v35 v38 v41 v44 v47 v50 v53 v56 v59 v62 v65 v68 v604 k0_hw14 => k0_hw14.2.2.2.2.2.2.2.2.2.2.2.2.1
theorem k0_idx222_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v62] : Fin 2 → IVec S16 32) a x).toNat < S32x2048.size a := fun v23 v26 v29 v32 v35 v38 v41 v44 v47 v50 v53 v56 v59 v62 v65 v68 v604 k0_hw14 => k0_hw14.2.2.2.2.2.2.2.2.2.2.2.2.2.1
theorem k0_idx223_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v65] : Fin 2 → IVec S16 32) a x).toNat < S32x2048.size a := fun v23 v26 v29 v32 v35 v38 v41 v44 v47 v50 v53 v56 v59 v62 v65 v68 v604 k0_hw14 => k0_hw14.2.2.2.2.2.2.2.2.2.2.2.2.2.2.1
theorem k0_idx224_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v604 : IVec S16 32) (k0_hw14 : k0_chk14 v23 v26 v29 v32 v35 v38 v41 v44 v47 v50 v53 v56 v59 v62 v65 v68 v604), ∀ a x, ((![v604, v68] : Fin 2 → IVec S16 32) a x).toNat < S32x2048.size a := fun v23 v26 v29 v32 v35 v38 v41 v44 v47 v50 v53 v56 v59 v62 v65 v68 v604 k0_hw14 => k0_hw14.2.2.2.2.2.2.2.2.2.2.2.2.2.2.2
def k0_off33 (k0_t1 : Fin k0_t1_loop.trips) : Fin 2 → Nat :=
  let c13_i32_65 : BitVec 32 := 13#32
  let v636 : Index := Scalar.indexCast c13_i32_65
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v637 : Index := Scalar.indexCast v20
  ![13, v637.toNat]

def k0_chk15 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) : Prop :=
  (∀ a x, ((![v645, v23] : Fin 2 → IVec S16 32) a x).toNat < S32x2048.size a) ∧
  (∀ a x, ((![v645, v26] : Fin 2 → IVec S16 32) a x).toNat < S32x2048.size a) ∧
  (∀ a x, ((![v645, v29] : Fin 2 → IVec S16 32) a x).toNat < S32x2048.size a) ∧
  (∀ a x, ((![v645, v32] : Fin 2 → IVec S16 32) a x).toNat < S32x2048.size a) ∧
  (∀ a x, ((![v645, v35] : Fin 2 → IVec S16 32) a x).toNat < S32x2048.size a) ∧
  (∀ a x, ((![v645, v38] : Fin 2 → IVec S16 32) a x).toNat < S32x2048.size a) ∧
  (∀ a x, ((![v645, v41] : Fin 2 → IVec S16 32) a x).toNat < S32x2048.size a) ∧
  (∀ a x, ((![v645, v44] : Fin 2 → IVec S16 32) a x).toNat < S32x2048.size a) ∧
  (∀ a x, ((![v645, v47] : Fin 2 → IVec S16 32) a x).toNat < S32x2048.size a) ∧
  (∀ a x, ((![v645, v50] : Fin 2 → IVec S16 32) a x).toNat < S32x2048.size a) ∧
  (∀ a x, ((![v645, v53] : Fin 2 → IVec S16 32) a x).toNat < S32x2048.size a) ∧
  (∀ a x, ((![v645, v56] : Fin 2 → IVec S16 32) a x).toNat < S32x2048.size a) ∧
  (∀ a x, ((![v645, v59] : Fin 2 → IVec S16 32) a x).toNat < S32x2048.size a) ∧
  (∀ a x, ((![v645, v62] : Fin 2 → IVec S16 32) a x).toNat < S32x2048.size a) ∧
  (∀ a x, ((![v645, v65] : Fin 2 → IVec S16 32) a x).toNat < S32x2048.size a) ∧
  (∀ a x, ((![v645, v68] : Fin 2 → IVec S16 32) a x).toNat < S32x2048.size a)
instance k0_chk15.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32), Decidable (k0_chk15 v23 v26 v29 v32 v35 v38 v41 v44 v47 v50 v53 v56 v59 v62 v65 v68 v645) := fun v23 v26 v29 v32 v35 v38 v41 v44 v47 v50 v53 v56 v59 v62 v65 v68 v645 => decidable_of_iff' _ (Iff.of_eq (k0_chk15.eq_1 v23 v26 v29 v32 v35 v38 v41 v44 v47 v50 v53 v56 v59 v62 v65 v68 v645))
theorem k0_idx225_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v23] : Fin 2 → IVec S16 32) a x).toNat < S32x2048.size a := fun v23 v26 v29 v32 v35 v38 v41 v44 v47 v50 v53 v56 v59 v62 v65 v68 v645 k0_hw15 => k0_hw15.1
theorem k0_idx226_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v26] : Fin 2 → IVec S16 32) a x).toNat < S32x2048.size a := fun v23 v26 v29 v32 v35 v38 v41 v44 v47 v50 v53 v56 v59 v62 v65 v68 v645 k0_hw15 => k0_hw15.2.1
theorem k0_idx227_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v29] : Fin 2 → IVec S16 32) a x).toNat < S32x2048.size a := fun v23 v26 v29 v32 v35 v38 v41 v44 v47 v50 v53 v56 v59 v62 v65 v68 v645 k0_hw15 => k0_hw15.2.2.1
theorem k0_idx228_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v32] : Fin 2 → IVec S16 32) a x).toNat < S32x2048.size a := fun v23 v26 v29 v32 v35 v38 v41 v44 v47 v50 v53 v56 v59 v62 v65 v68 v645 k0_hw15 => k0_hw15.2.2.2.1
theorem k0_idx229_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v35] : Fin 2 → IVec S16 32) a x).toNat < S32x2048.size a := fun v23 v26 v29 v32 v35 v38 v41 v44 v47 v50 v53 v56 v59 v62 v65 v68 v645 k0_hw15 => k0_hw15.2.2.2.2.1
theorem k0_idx230_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v38] : Fin 2 → IVec S16 32) a x).toNat < S32x2048.size a := fun v23 v26 v29 v32 v35 v38 v41 v44 v47 v50 v53 v56 v59 v62 v65 v68 v645 k0_hw15 => k0_hw15.2.2.2.2.2.1
theorem k0_idx231_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v41] : Fin 2 → IVec S16 32) a x).toNat < S32x2048.size a := fun v23 v26 v29 v32 v35 v38 v41 v44 v47 v50 v53 v56 v59 v62 v65 v68 v645 k0_hw15 => k0_hw15.2.2.2.2.2.2.1
theorem k0_idx232_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v44] : Fin 2 → IVec S16 32) a x).toNat < S32x2048.size a := fun v23 v26 v29 v32 v35 v38 v41 v44 v47 v50 v53 v56 v59 v62 v65 v68 v645 k0_hw15 => k0_hw15.2.2.2.2.2.2.2.1
theorem k0_idx233_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v47] : Fin 2 → IVec S16 32) a x).toNat < S32x2048.size a := fun v23 v26 v29 v32 v35 v38 v41 v44 v47 v50 v53 v56 v59 v62 v65 v68 v645 k0_hw15 => k0_hw15.2.2.2.2.2.2.2.2.1
theorem k0_idx234_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v50] : Fin 2 → IVec S16 32) a x).toNat < S32x2048.size a := fun v23 v26 v29 v32 v35 v38 v41 v44 v47 v50 v53 v56 v59 v62 v65 v68 v645 k0_hw15 => k0_hw15.2.2.2.2.2.2.2.2.2.1
theorem k0_idx235_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v53] : Fin 2 → IVec S16 32) a x).toNat < S32x2048.size a := fun v23 v26 v29 v32 v35 v38 v41 v44 v47 v50 v53 v56 v59 v62 v65 v68 v645 k0_hw15 => k0_hw15.2.2.2.2.2.2.2.2.2.2.1
theorem k0_idx236_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v56] : Fin 2 → IVec S16 32) a x).toNat < S32x2048.size a := fun v23 v26 v29 v32 v35 v38 v41 v44 v47 v50 v53 v56 v59 v62 v65 v68 v645 k0_hw15 => k0_hw15.2.2.2.2.2.2.2.2.2.2.2.1
theorem k0_idx237_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v59] : Fin 2 → IVec S16 32) a x).toNat < S32x2048.size a := fun v23 v26 v29 v32 v35 v38 v41 v44 v47 v50 v53 v56 v59 v62 v65 v68 v645 k0_hw15 => k0_hw15.2.2.2.2.2.2.2.2.2.2.2.2.1
theorem k0_idx238_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v62] : Fin 2 → IVec S16 32) a x).toNat < S32x2048.size a := fun v23 v26 v29 v32 v35 v38 v41 v44 v47 v50 v53 v56 v59 v62 v65 v68 v645 k0_hw15 => k0_hw15.2.2.2.2.2.2.2.2.2.2.2.2.2.1
theorem k0_idx239_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v65] : Fin 2 → IVec S16 32) a x).toNat < S32x2048.size a := fun v23 v26 v29 v32 v35 v38 v41 v44 v47 v50 v53 v56 v59 v62 v65 v68 v645 k0_hw15 => k0_hw15.2.2.2.2.2.2.2.2.2.2.2.2.2.2.1
theorem k0_idx240_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v645 : IVec S16 32) (k0_hw15 : k0_chk15 v23 v26 v29 v32 v35 v38 v41 v44 v47 v50 v53 v56 v59 v62 v65 v68 v645), ∀ a x, ((![v645, v68] : Fin 2 → IVec S16 32) a x).toNat < S32x2048.size a := fun v23 v26 v29 v32 v35 v38 v41 v44 v47 v50 v53 v56 v59 v62 v65 v68 v645 k0_hw15 => k0_hw15.2.2.2.2.2.2.2.2.2.2.2.2.2.2.2
def k0_off34 (k0_t1 : Fin k0_t1_loop.trips) : Fin 2 → Nat :=
  let c14_i32_69 : BitVec 32 := 14#32
  let v677 : Index := Scalar.indexCast c14_i32_69
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v678 : Index := Scalar.indexCast v20
  ![14, v678.toNat]

def k0_chk16 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) : Prop :=
  (∀ a x, ((![v686, v23] : Fin 2 → IVec S16 32) a x).toNat < S32x2048.size a) ∧
  (∀ a x, ((![v686, v26] : Fin 2 → IVec S16 32) a x).toNat < S32x2048.size a) ∧
  (∀ a x, ((![v686, v29] : Fin 2 → IVec S16 32) a x).toNat < S32x2048.size a) ∧
  (∀ a x, ((![v686, v32] : Fin 2 → IVec S16 32) a x).toNat < S32x2048.size a) ∧
  (∀ a x, ((![v686, v35] : Fin 2 → IVec S16 32) a x).toNat < S32x2048.size a) ∧
  (∀ a x, ((![v686, v38] : Fin 2 → IVec S16 32) a x).toNat < S32x2048.size a) ∧
  (∀ a x, ((![v686, v41] : Fin 2 → IVec S16 32) a x).toNat < S32x2048.size a) ∧
  (∀ a x, ((![v686, v44] : Fin 2 → IVec S16 32) a x).toNat < S32x2048.size a) ∧
  (∀ a x, ((![v686, v47] : Fin 2 → IVec S16 32) a x).toNat < S32x2048.size a) ∧
  (∀ a x, ((![v686, v50] : Fin 2 → IVec S16 32) a x).toNat < S32x2048.size a) ∧
  (∀ a x, ((![v686, v53] : Fin 2 → IVec S16 32) a x).toNat < S32x2048.size a) ∧
  (∀ a x, ((![v686, v56] : Fin 2 → IVec S16 32) a x).toNat < S32x2048.size a) ∧
  (∀ a x, ((![v686, v59] : Fin 2 → IVec S16 32) a x).toNat < S32x2048.size a) ∧
  (∀ a x, ((![v686, v62] : Fin 2 → IVec S16 32) a x).toNat < S32x2048.size a) ∧
  (∀ a x, ((![v686, v65] : Fin 2 → IVec S16 32) a x).toNat < S32x2048.size a) ∧
  (∀ a x, ((![v686, v68] : Fin 2 → IVec S16 32) a x).toNat < S32x2048.size a)
instance k0_chk16.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32), Decidable (k0_chk16 v23 v26 v29 v32 v35 v38 v41 v44 v47 v50 v53 v56 v59 v62 v65 v68 v686) := fun v23 v26 v29 v32 v35 v38 v41 v44 v47 v50 v53 v56 v59 v62 v65 v68 v686 => decidable_of_iff' _ (Iff.of_eq (k0_chk16.eq_1 v23 v26 v29 v32 v35 v38 v41 v44 v47 v50 v53 v56 v59 v62 v65 v68 v686))
theorem k0_idx241_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v23] : Fin 2 → IVec S16 32) a x).toNat < S32x2048.size a := fun v23 v26 v29 v32 v35 v38 v41 v44 v47 v50 v53 v56 v59 v62 v65 v68 v686 k0_hw16 => k0_hw16.1
theorem k0_idx242_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v26] : Fin 2 → IVec S16 32) a x).toNat < S32x2048.size a := fun v23 v26 v29 v32 v35 v38 v41 v44 v47 v50 v53 v56 v59 v62 v65 v68 v686 k0_hw16 => k0_hw16.2.1
theorem k0_idx243_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v29] : Fin 2 → IVec S16 32) a x).toNat < S32x2048.size a := fun v23 v26 v29 v32 v35 v38 v41 v44 v47 v50 v53 v56 v59 v62 v65 v68 v686 k0_hw16 => k0_hw16.2.2.1
theorem k0_idx244_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v32] : Fin 2 → IVec S16 32) a x).toNat < S32x2048.size a := fun v23 v26 v29 v32 v35 v38 v41 v44 v47 v50 v53 v56 v59 v62 v65 v68 v686 k0_hw16 => k0_hw16.2.2.2.1
theorem k0_idx245_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v35] : Fin 2 → IVec S16 32) a x).toNat < S32x2048.size a := fun v23 v26 v29 v32 v35 v38 v41 v44 v47 v50 v53 v56 v59 v62 v65 v68 v686 k0_hw16 => k0_hw16.2.2.2.2.1
theorem k0_idx246_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v38] : Fin 2 → IVec S16 32) a x).toNat < S32x2048.size a := fun v23 v26 v29 v32 v35 v38 v41 v44 v47 v50 v53 v56 v59 v62 v65 v68 v686 k0_hw16 => k0_hw16.2.2.2.2.2.1
theorem k0_idx247_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v41] : Fin 2 → IVec S16 32) a x).toNat < S32x2048.size a := fun v23 v26 v29 v32 v35 v38 v41 v44 v47 v50 v53 v56 v59 v62 v65 v68 v686 k0_hw16 => k0_hw16.2.2.2.2.2.2.1
theorem k0_idx248_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v44] : Fin 2 → IVec S16 32) a x).toNat < S32x2048.size a := fun v23 v26 v29 v32 v35 v38 v41 v44 v47 v50 v53 v56 v59 v62 v65 v68 v686 k0_hw16 => k0_hw16.2.2.2.2.2.2.2.1
theorem k0_idx249_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v47] : Fin 2 → IVec S16 32) a x).toNat < S32x2048.size a := fun v23 v26 v29 v32 v35 v38 v41 v44 v47 v50 v53 v56 v59 v62 v65 v68 v686 k0_hw16 => k0_hw16.2.2.2.2.2.2.2.2.1
theorem k0_idx250_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v50] : Fin 2 → IVec S16 32) a x).toNat < S32x2048.size a := fun v23 v26 v29 v32 v35 v38 v41 v44 v47 v50 v53 v56 v59 v62 v65 v68 v686 k0_hw16 => k0_hw16.2.2.2.2.2.2.2.2.2.1
theorem k0_idx251_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v53] : Fin 2 → IVec S16 32) a x).toNat < S32x2048.size a := fun v23 v26 v29 v32 v35 v38 v41 v44 v47 v50 v53 v56 v59 v62 v65 v68 v686 k0_hw16 => k0_hw16.2.2.2.2.2.2.2.2.2.2.1
theorem k0_idx252_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v56] : Fin 2 → IVec S16 32) a x).toNat < S32x2048.size a := fun v23 v26 v29 v32 v35 v38 v41 v44 v47 v50 v53 v56 v59 v62 v65 v68 v686 k0_hw16 => k0_hw16.2.2.2.2.2.2.2.2.2.2.2.1
theorem k0_idx253_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v59] : Fin 2 → IVec S16 32) a x).toNat < S32x2048.size a := fun v23 v26 v29 v32 v35 v38 v41 v44 v47 v50 v53 v56 v59 v62 v65 v68 v686 k0_hw16 => k0_hw16.2.2.2.2.2.2.2.2.2.2.2.2.1
theorem k0_idx254_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v62] : Fin 2 → IVec S16 32) a x).toNat < S32x2048.size a := fun v23 v26 v29 v32 v35 v38 v41 v44 v47 v50 v53 v56 v59 v62 v65 v68 v686 k0_hw16 => k0_hw16.2.2.2.2.2.2.2.2.2.2.2.2.2.1
theorem k0_idx255_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v65] : Fin 2 → IVec S16 32) a x).toNat < S32x2048.size a := fun v23 v26 v29 v32 v35 v38 v41 v44 v47 v50 v53 v56 v59 v62 v65 v68 v686 k0_hw16 => k0_hw16.2.2.2.2.2.2.2.2.2.2.2.2.2.2.1
theorem k0_idx256_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v686 : IVec S16 32) (k0_hw16 : k0_chk16 v23 v26 v29 v32 v35 v38 v41 v44 v47 v50 v53 v56 v59 v62 v65 v68 v686), ∀ a x, ((![v686, v68] : Fin 2 → IVec S16 32) a x).toNat < S32x2048.size a := fun v23 v26 v29 v32 v35 v38 v41 v44 v47 v50 v53 v56 v59 v62 v65 v68 v686 k0_hw16 => k0_hw16.2.2.2.2.2.2.2.2.2.2.2.2.2.2.2
def k0_off35 (k0_t1 : Fin k0_t1_loop.trips) : Fin 2 → Nat :=
  let c15_i32_73 : BitVec 32 := 15#32
  let v718 : Index := Scalar.indexCast c15_i32_73
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v719 : Index := Scalar.indexCast v20
  ![15, v719.toNat]

def k0_chk17 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) : Prop :=
  (∀ a x, ((![v727, v23] : Fin 2 → IVec S16 32) a x).toNat < S32x2048.size a) ∧
  (∀ a x, ((![v727, v26] : Fin 2 → IVec S16 32) a x).toNat < S32x2048.size a) ∧
  (∀ a x, ((![v727, v29] : Fin 2 → IVec S16 32) a x).toNat < S32x2048.size a) ∧
  (∀ a x, ((![v727, v32] : Fin 2 → IVec S16 32) a x).toNat < S32x2048.size a) ∧
  (∀ a x, ((![v727, v35] : Fin 2 → IVec S16 32) a x).toNat < S32x2048.size a) ∧
  (∀ a x, ((![v727, v38] : Fin 2 → IVec S16 32) a x).toNat < S32x2048.size a) ∧
  (∀ a x, ((![v727, v41] : Fin 2 → IVec S16 32) a x).toNat < S32x2048.size a) ∧
  (∀ a x, ((![v727, v44] : Fin 2 → IVec S16 32) a x).toNat < S32x2048.size a) ∧
  (∀ a x, ((![v727, v47] : Fin 2 → IVec S16 32) a x).toNat < S32x2048.size a) ∧
  (∀ a x, ((![v727, v50] : Fin 2 → IVec S16 32) a x).toNat < S32x2048.size a) ∧
  (∀ a x, ((![v727, v53] : Fin 2 → IVec S16 32) a x).toNat < S32x2048.size a) ∧
  (∀ a x, ((![v727, v56] : Fin 2 → IVec S16 32) a x).toNat < S32x2048.size a) ∧
  (∀ a x, ((![v727, v59] : Fin 2 → IVec S16 32) a x).toNat < S32x2048.size a) ∧
  (∀ a x, ((![v727, v62] : Fin 2 → IVec S16 32) a x).toNat < S32x2048.size a) ∧
  (∀ a x, ((![v727, v65] : Fin 2 → IVec S16 32) a x).toNat < S32x2048.size a) ∧
  (∀ a x, ((![v727, v68] : Fin 2 → IVec S16 32) a x).toNat < S32x2048.size a)
instance k0_chk17.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32), Decidable (k0_chk17 v23 v26 v29 v32 v35 v38 v41 v44 v47 v50 v53 v56 v59 v62 v65 v68 v727) := fun v23 v26 v29 v32 v35 v38 v41 v44 v47 v50 v53 v56 v59 v62 v65 v68 v727 => decidable_of_iff' _ (Iff.of_eq (k0_chk17.eq_1 v23 v26 v29 v32 v35 v38 v41 v44 v47 v50 v53 v56 v59 v62 v65 v68 v727))
theorem k0_idx257_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v23] : Fin 2 → IVec S16 32) a x).toNat < S32x2048.size a := fun v23 v26 v29 v32 v35 v38 v41 v44 v47 v50 v53 v56 v59 v62 v65 v68 v727 k0_hw17 => k0_hw17.1
theorem k0_idx258_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v26] : Fin 2 → IVec S16 32) a x).toNat < S32x2048.size a := fun v23 v26 v29 v32 v35 v38 v41 v44 v47 v50 v53 v56 v59 v62 v65 v68 v727 k0_hw17 => k0_hw17.2.1
theorem k0_idx259_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v29] : Fin 2 → IVec S16 32) a x).toNat < S32x2048.size a := fun v23 v26 v29 v32 v35 v38 v41 v44 v47 v50 v53 v56 v59 v62 v65 v68 v727 k0_hw17 => k0_hw17.2.2.1
theorem k0_idx260_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v32] : Fin 2 → IVec S16 32) a x).toNat < S32x2048.size a := fun v23 v26 v29 v32 v35 v38 v41 v44 v47 v50 v53 v56 v59 v62 v65 v68 v727 k0_hw17 => k0_hw17.2.2.2.1
theorem k0_idx261_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v35] : Fin 2 → IVec S16 32) a x).toNat < S32x2048.size a := fun v23 v26 v29 v32 v35 v38 v41 v44 v47 v50 v53 v56 v59 v62 v65 v68 v727 k0_hw17 => k0_hw17.2.2.2.2.1
theorem k0_idx262_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v38] : Fin 2 → IVec S16 32) a x).toNat < S32x2048.size a := fun v23 v26 v29 v32 v35 v38 v41 v44 v47 v50 v53 v56 v59 v62 v65 v68 v727 k0_hw17 => k0_hw17.2.2.2.2.2.1
theorem k0_idx263_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v41] : Fin 2 → IVec S16 32) a x).toNat < S32x2048.size a := fun v23 v26 v29 v32 v35 v38 v41 v44 v47 v50 v53 v56 v59 v62 v65 v68 v727 k0_hw17 => k0_hw17.2.2.2.2.2.2.1
theorem k0_idx264_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v44] : Fin 2 → IVec S16 32) a x).toNat < S32x2048.size a := fun v23 v26 v29 v32 v35 v38 v41 v44 v47 v50 v53 v56 v59 v62 v65 v68 v727 k0_hw17 => k0_hw17.2.2.2.2.2.2.2.1
theorem k0_idx265_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v47] : Fin 2 → IVec S16 32) a x).toNat < S32x2048.size a := fun v23 v26 v29 v32 v35 v38 v41 v44 v47 v50 v53 v56 v59 v62 v65 v68 v727 k0_hw17 => k0_hw17.2.2.2.2.2.2.2.2.1
theorem k0_idx266_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v50] : Fin 2 → IVec S16 32) a x).toNat < S32x2048.size a := fun v23 v26 v29 v32 v35 v38 v41 v44 v47 v50 v53 v56 v59 v62 v65 v68 v727 k0_hw17 => k0_hw17.2.2.2.2.2.2.2.2.2.1
theorem k0_idx267_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v53] : Fin 2 → IVec S16 32) a x).toNat < S32x2048.size a := fun v23 v26 v29 v32 v35 v38 v41 v44 v47 v50 v53 v56 v59 v62 v65 v68 v727 k0_hw17 => k0_hw17.2.2.2.2.2.2.2.2.2.2.1
theorem k0_idx268_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v56] : Fin 2 → IVec S16 32) a x).toNat < S32x2048.size a := fun v23 v26 v29 v32 v35 v38 v41 v44 v47 v50 v53 v56 v59 v62 v65 v68 v727 k0_hw17 => k0_hw17.2.2.2.2.2.2.2.2.2.2.2.1
theorem k0_idx269_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v59] : Fin 2 → IVec S16 32) a x).toNat < S32x2048.size a := fun v23 v26 v29 v32 v35 v38 v41 v44 v47 v50 v53 v56 v59 v62 v65 v68 v727 k0_hw17 => k0_hw17.2.2.2.2.2.2.2.2.2.2.2.2.1
theorem k0_idx270_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v62] : Fin 2 → IVec S16 32) a x).toNat < S32x2048.size a := fun v23 v26 v29 v32 v35 v38 v41 v44 v47 v50 v53 v56 v59 v62 v65 v68 v727 k0_hw17 => k0_hw17.2.2.2.2.2.2.2.2.2.2.2.2.2.1
theorem k0_idx271_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v65] : Fin 2 → IVec S16 32) a x).toNat < S32x2048.size a := fun v23 v26 v29 v32 v35 v38 v41 v44 v47 v50 v53 v56 v59 v62 v65 v68 v727 k0_hw17 => k0_hw17.2.2.2.2.2.2.2.2.2.2.2.2.2.2.1
theorem k0_idx272_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v727 : IVec S16 32) (k0_hw17 : k0_chk17 v23 v26 v29 v32 v35 v38 v41 v44 v47 v50 v53 v56 v59 v62 v65 v68 v727), ∀ a x, ((![v727, v68] : Fin 2 → IVec S16 32) a x).toNat < S32x2048.size a := fun v23 v26 v29 v32 v35 v38 v41 v44 v47 v50 v53 v56 v59 v62 v65 v68 v727 k0_hw17 => k0_hw17.2.2.2.2.2.2.2.2.2.2.2.2.2.2.2
def k0_off36 (k0_t1 : Fin k0_t1_loop.trips) : Fin 2 → Nat :=
  let c16_i32_77 : BitVec 32 := 16#32
  let v759 : Index := Scalar.indexCast c16_i32_77
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v760 : Index := Scalar.indexCast v20
  ![16, v760.toNat]

def k0_chk18 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) : Prop :=
  (∀ a x, ((![v768, v23] : Fin 2 → IVec S16 32) a x).toNat < S32x2048.size a) ∧
  (∀ a x, ((![v768, v26] : Fin 2 → IVec S16 32) a x).toNat < S32x2048.size a) ∧
  (∀ a x, ((![v768, v29] : Fin 2 → IVec S16 32) a x).toNat < S32x2048.size a) ∧
  (∀ a x, ((![v768, v32] : Fin 2 → IVec S16 32) a x).toNat < S32x2048.size a) ∧
  (∀ a x, ((![v768, v35] : Fin 2 → IVec S16 32) a x).toNat < S32x2048.size a) ∧
  (∀ a x, ((![v768, v38] : Fin 2 → IVec S16 32) a x).toNat < S32x2048.size a) ∧
  (∀ a x, ((![v768, v41] : Fin 2 → IVec S16 32) a x).toNat < S32x2048.size a) ∧
  (∀ a x, ((![v768, v44] : Fin 2 → IVec S16 32) a x).toNat < S32x2048.size a) ∧
  (∀ a x, ((![v768, v47] : Fin 2 → IVec S16 32) a x).toNat < S32x2048.size a) ∧
  (∀ a x, ((![v768, v50] : Fin 2 → IVec S16 32) a x).toNat < S32x2048.size a) ∧
  (∀ a x, ((![v768, v53] : Fin 2 → IVec S16 32) a x).toNat < S32x2048.size a) ∧
  (∀ a x, ((![v768, v56] : Fin 2 → IVec S16 32) a x).toNat < S32x2048.size a) ∧
  (∀ a x, ((![v768, v59] : Fin 2 → IVec S16 32) a x).toNat < S32x2048.size a) ∧
  (∀ a x, ((![v768, v62] : Fin 2 → IVec S16 32) a x).toNat < S32x2048.size a) ∧
  (∀ a x, ((![v768, v65] : Fin 2 → IVec S16 32) a x).toNat < S32x2048.size a) ∧
  (∀ a x, ((![v768, v68] : Fin 2 → IVec S16 32) a x).toNat < S32x2048.size a)
instance k0_chk18.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32), Decidable (k0_chk18 v23 v26 v29 v32 v35 v38 v41 v44 v47 v50 v53 v56 v59 v62 v65 v68 v768) := fun v23 v26 v29 v32 v35 v38 v41 v44 v47 v50 v53 v56 v59 v62 v65 v68 v768 => decidable_of_iff' _ (Iff.of_eq (k0_chk18.eq_1 v23 v26 v29 v32 v35 v38 v41 v44 v47 v50 v53 v56 v59 v62 v65 v68 v768))
theorem k0_idx273_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v23] : Fin 2 → IVec S16 32) a x).toNat < S32x2048.size a := fun v23 v26 v29 v32 v35 v38 v41 v44 v47 v50 v53 v56 v59 v62 v65 v68 v768 k0_hw18 => k0_hw18.1
theorem k0_idx274_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v26] : Fin 2 → IVec S16 32) a x).toNat < S32x2048.size a := fun v23 v26 v29 v32 v35 v38 v41 v44 v47 v50 v53 v56 v59 v62 v65 v68 v768 k0_hw18 => k0_hw18.2.1
theorem k0_idx275_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v29] : Fin 2 → IVec S16 32) a x).toNat < S32x2048.size a := fun v23 v26 v29 v32 v35 v38 v41 v44 v47 v50 v53 v56 v59 v62 v65 v68 v768 k0_hw18 => k0_hw18.2.2.1
theorem k0_idx276_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v32] : Fin 2 → IVec S16 32) a x).toNat < S32x2048.size a := fun v23 v26 v29 v32 v35 v38 v41 v44 v47 v50 v53 v56 v59 v62 v65 v68 v768 k0_hw18 => k0_hw18.2.2.2.1
theorem k0_idx277_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v35] : Fin 2 → IVec S16 32) a x).toNat < S32x2048.size a := fun v23 v26 v29 v32 v35 v38 v41 v44 v47 v50 v53 v56 v59 v62 v65 v68 v768 k0_hw18 => k0_hw18.2.2.2.2.1
theorem k0_idx278_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v38] : Fin 2 → IVec S16 32) a x).toNat < S32x2048.size a := fun v23 v26 v29 v32 v35 v38 v41 v44 v47 v50 v53 v56 v59 v62 v65 v68 v768 k0_hw18 => k0_hw18.2.2.2.2.2.1
theorem k0_idx279_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v41] : Fin 2 → IVec S16 32) a x).toNat < S32x2048.size a := fun v23 v26 v29 v32 v35 v38 v41 v44 v47 v50 v53 v56 v59 v62 v65 v68 v768 k0_hw18 => k0_hw18.2.2.2.2.2.2.1
theorem k0_idx280_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v44] : Fin 2 → IVec S16 32) a x).toNat < S32x2048.size a := fun v23 v26 v29 v32 v35 v38 v41 v44 v47 v50 v53 v56 v59 v62 v65 v68 v768 k0_hw18 => k0_hw18.2.2.2.2.2.2.2.1
theorem k0_idx281_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v47] : Fin 2 → IVec S16 32) a x).toNat < S32x2048.size a := fun v23 v26 v29 v32 v35 v38 v41 v44 v47 v50 v53 v56 v59 v62 v65 v68 v768 k0_hw18 => k0_hw18.2.2.2.2.2.2.2.2.1
theorem k0_idx282_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v50] : Fin 2 → IVec S16 32) a x).toNat < S32x2048.size a := fun v23 v26 v29 v32 v35 v38 v41 v44 v47 v50 v53 v56 v59 v62 v65 v68 v768 k0_hw18 => k0_hw18.2.2.2.2.2.2.2.2.2.1
theorem k0_idx283_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v53] : Fin 2 → IVec S16 32) a x).toNat < S32x2048.size a := fun v23 v26 v29 v32 v35 v38 v41 v44 v47 v50 v53 v56 v59 v62 v65 v68 v768 k0_hw18 => k0_hw18.2.2.2.2.2.2.2.2.2.2.1
theorem k0_idx284_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v56] : Fin 2 → IVec S16 32) a x).toNat < S32x2048.size a := fun v23 v26 v29 v32 v35 v38 v41 v44 v47 v50 v53 v56 v59 v62 v65 v68 v768 k0_hw18 => k0_hw18.2.2.2.2.2.2.2.2.2.2.2.1
theorem k0_idx285_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v59] : Fin 2 → IVec S16 32) a x).toNat < S32x2048.size a := fun v23 v26 v29 v32 v35 v38 v41 v44 v47 v50 v53 v56 v59 v62 v65 v68 v768 k0_hw18 => k0_hw18.2.2.2.2.2.2.2.2.2.2.2.2.1
theorem k0_idx286_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v62] : Fin 2 → IVec S16 32) a x).toNat < S32x2048.size a := fun v23 v26 v29 v32 v35 v38 v41 v44 v47 v50 v53 v56 v59 v62 v65 v68 v768 k0_hw18 => k0_hw18.2.2.2.2.2.2.2.2.2.2.2.2.2.1
theorem k0_idx287_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v65] : Fin 2 → IVec S16 32) a x).toNat < S32x2048.size a := fun v23 v26 v29 v32 v35 v38 v41 v44 v47 v50 v53 v56 v59 v62 v65 v68 v768 k0_hw18 => k0_hw18.2.2.2.2.2.2.2.2.2.2.2.2.2.2.1
theorem k0_idx288_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v768 : IVec S16 32) (k0_hw18 : k0_chk18 v23 v26 v29 v32 v35 v38 v41 v44 v47 v50 v53 v56 v59 v62 v65 v68 v768), ∀ a x, ((![v768, v68] : Fin 2 → IVec S16 32) a x).toNat < S32x2048.size a := fun v23 v26 v29 v32 v35 v38 v41 v44 v47 v50 v53 v56 v59 v62 v65 v68 v768 k0_hw18 => k0_hw18.2.2.2.2.2.2.2.2.2.2.2.2.2.2.2
def k0_off37 (k0_t1 : Fin k0_t1_loop.trips) : Fin 2 → Nat :=
  let c17_i32_80 : BitVec 32 := 17#32
  let v800 : Index := Scalar.indexCast c17_i32_80
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v801 : Index := Scalar.indexCast v20
  ![17, v801.toNat]

def k0_chk19 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) : Prop :=
  (∀ a x, ((![v809, v23] : Fin 2 → IVec S16 32) a x).toNat < S32x2048.size a) ∧
  (∀ a x, ((![v809, v26] : Fin 2 → IVec S16 32) a x).toNat < S32x2048.size a) ∧
  (∀ a x, ((![v809, v29] : Fin 2 → IVec S16 32) a x).toNat < S32x2048.size a) ∧
  (∀ a x, ((![v809, v32] : Fin 2 → IVec S16 32) a x).toNat < S32x2048.size a) ∧
  (∀ a x, ((![v809, v35] : Fin 2 → IVec S16 32) a x).toNat < S32x2048.size a) ∧
  (∀ a x, ((![v809, v38] : Fin 2 → IVec S16 32) a x).toNat < S32x2048.size a) ∧
  (∀ a x, ((![v809, v41] : Fin 2 → IVec S16 32) a x).toNat < S32x2048.size a) ∧
  (∀ a x, ((![v809, v44] : Fin 2 → IVec S16 32) a x).toNat < S32x2048.size a) ∧
  (∀ a x, ((![v809, v47] : Fin 2 → IVec S16 32) a x).toNat < S32x2048.size a) ∧
  (∀ a x, ((![v809, v50] : Fin 2 → IVec S16 32) a x).toNat < S32x2048.size a) ∧
  (∀ a x, ((![v809, v53] : Fin 2 → IVec S16 32) a x).toNat < S32x2048.size a) ∧
  (∀ a x, ((![v809, v56] : Fin 2 → IVec S16 32) a x).toNat < S32x2048.size a) ∧
  (∀ a x, ((![v809, v59] : Fin 2 → IVec S16 32) a x).toNat < S32x2048.size a) ∧
  (∀ a x, ((![v809, v62] : Fin 2 → IVec S16 32) a x).toNat < S32x2048.size a) ∧
  (∀ a x, ((![v809, v65] : Fin 2 → IVec S16 32) a x).toNat < S32x2048.size a) ∧
  (∀ a x, ((![v809, v68] : Fin 2 → IVec S16 32) a x).toNat < S32x2048.size a)
instance k0_chk19.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32), Decidable (k0_chk19 v23 v26 v29 v32 v35 v38 v41 v44 v47 v50 v53 v56 v59 v62 v65 v68 v809) := fun v23 v26 v29 v32 v35 v38 v41 v44 v47 v50 v53 v56 v59 v62 v65 v68 v809 => decidable_of_iff' _ (Iff.of_eq (k0_chk19.eq_1 v23 v26 v29 v32 v35 v38 v41 v44 v47 v50 v53 v56 v59 v62 v65 v68 v809))
theorem k0_idx289_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v23] : Fin 2 → IVec S16 32) a x).toNat < S32x2048.size a := fun v23 v26 v29 v32 v35 v38 v41 v44 v47 v50 v53 v56 v59 v62 v65 v68 v809 k0_hw19 => k0_hw19.1
theorem k0_idx290_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v26] : Fin 2 → IVec S16 32) a x).toNat < S32x2048.size a := fun v23 v26 v29 v32 v35 v38 v41 v44 v47 v50 v53 v56 v59 v62 v65 v68 v809 k0_hw19 => k0_hw19.2.1
theorem k0_idx291_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v29] : Fin 2 → IVec S16 32) a x).toNat < S32x2048.size a := fun v23 v26 v29 v32 v35 v38 v41 v44 v47 v50 v53 v56 v59 v62 v65 v68 v809 k0_hw19 => k0_hw19.2.2.1
theorem k0_idx292_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v32] : Fin 2 → IVec S16 32) a x).toNat < S32x2048.size a := fun v23 v26 v29 v32 v35 v38 v41 v44 v47 v50 v53 v56 v59 v62 v65 v68 v809 k0_hw19 => k0_hw19.2.2.2.1
theorem k0_idx293_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v35] : Fin 2 → IVec S16 32) a x).toNat < S32x2048.size a := fun v23 v26 v29 v32 v35 v38 v41 v44 v47 v50 v53 v56 v59 v62 v65 v68 v809 k0_hw19 => k0_hw19.2.2.2.2.1
theorem k0_idx294_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v38] : Fin 2 → IVec S16 32) a x).toNat < S32x2048.size a := fun v23 v26 v29 v32 v35 v38 v41 v44 v47 v50 v53 v56 v59 v62 v65 v68 v809 k0_hw19 => k0_hw19.2.2.2.2.2.1
theorem k0_idx295_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v41] : Fin 2 → IVec S16 32) a x).toNat < S32x2048.size a := fun v23 v26 v29 v32 v35 v38 v41 v44 v47 v50 v53 v56 v59 v62 v65 v68 v809 k0_hw19 => k0_hw19.2.2.2.2.2.2.1
theorem k0_idx296_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v44] : Fin 2 → IVec S16 32) a x).toNat < S32x2048.size a := fun v23 v26 v29 v32 v35 v38 v41 v44 v47 v50 v53 v56 v59 v62 v65 v68 v809 k0_hw19 => k0_hw19.2.2.2.2.2.2.2.1
theorem k0_idx297_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v47] : Fin 2 → IVec S16 32) a x).toNat < S32x2048.size a := fun v23 v26 v29 v32 v35 v38 v41 v44 v47 v50 v53 v56 v59 v62 v65 v68 v809 k0_hw19 => k0_hw19.2.2.2.2.2.2.2.2.1
theorem k0_idx298_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v50] : Fin 2 → IVec S16 32) a x).toNat < S32x2048.size a := fun v23 v26 v29 v32 v35 v38 v41 v44 v47 v50 v53 v56 v59 v62 v65 v68 v809 k0_hw19 => k0_hw19.2.2.2.2.2.2.2.2.2.1
theorem k0_idx299_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v53] : Fin 2 → IVec S16 32) a x).toNat < S32x2048.size a := fun v23 v26 v29 v32 v35 v38 v41 v44 v47 v50 v53 v56 v59 v62 v65 v68 v809 k0_hw19 => k0_hw19.2.2.2.2.2.2.2.2.2.2.1
theorem k0_idx300_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v56] : Fin 2 → IVec S16 32) a x).toNat < S32x2048.size a := fun v23 v26 v29 v32 v35 v38 v41 v44 v47 v50 v53 v56 v59 v62 v65 v68 v809 k0_hw19 => k0_hw19.2.2.2.2.2.2.2.2.2.2.2.1
theorem k0_idx301_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v59] : Fin 2 → IVec S16 32) a x).toNat < S32x2048.size a := fun v23 v26 v29 v32 v35 v38 v41 v44 v47 v50 v53 v56 v59 v62 v65 v68 v809 k0_hw19 => k0_hw19.2.2.2.2.2.2.2.2.2.2.2.2.1
theorem k0_idx302_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v62] : Fin 2 → IVec S16 32) a x).toNat < S32x2048.size a := fun v23 v26 v29 v32 v35 v38 v41 v44 v47 v50 v53 v56 v59 v62 v65 v68 v809 k0_hw19 => k0_hw19.2.2.2.2.2.2.2.2.2.2.2.2.2.1
theorem k0_idx303_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v65] : Fin 2 → IVec S16 32) a x).toNat < S32x2048.size a := fun v23 v26 v29 v32 v35 v38 v41 v44 v47 v50 v53 v56 v59 v62 v65 v68 v809 k0_hw19 => k0_hw19.2.2.2.2.2.2.2.2.2.2.2.2.2.2.1
theorem k0_idx304_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v809 : IVec S16 32) (k0_hw19 : k0_chk19 v23 v26 v29 v32 v35 v38 v41 v44 v47 v50 v53 v56 v59 v62 v65 v68 v809), ∀ a x, ((![v809, v68] : Fin 2 → IVec S16 32) a x).toNat < S32x2048.size a := fun v23 v26 v29 v32 v35 v38 v41 v44 v47 v50 v53 v56 v59 v62 v65 v68 v809 k0_hw19 => k0_hw19.2.2.2.2.2.2.2.2.2.2.2.2.2.2.2
def k0_off38 (k0_t1 : Fin k0_t1_loop.trips) : Fin 2 → Nat :=
  let c18_i32_83 : BitVec 32 := 18#32
  let v841 : Index := Scalar.indexCast c18_i32_83
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v842 : Index := Scalar.indexCast v20
  ![18, v842.toNat]

def k0_chk20 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) : Prop :=
  (∀ a x, ((![v850, v23] : Fin 2 → IVec S16 32) a x).toNat < S32x2048.size a) ∧
  (∀ a x, ((![v850, v26] : Fin 2 → IVec S16 32) a x).toNat < S32x2048.size a) ∧
  (∀ a x, ((![v850, v29] : Fin 2 → IVec S16 32) a x).toNat < S32x2048.size a) ∧
  (∀ a x, ((![v850, v32] : Fin 2 → IVec S16 32) a x).toNat < S32x2048.size a) ∧
  (∀ a x, ((![v850, v35] : Fin 2 → IVec S16 32) a x).toNat < S32x2048.size a) ∧
  (∀ a x, ((![v850, v38] : Fin 2 → IVec S16 32) a x).toNat < S32x2048.size a) ∧
  (∀ a x, ((![v850, v41] : Fin 2 → IVec S16 32) a x).toNat < S32x2048.size a) ∧
  (∀ a x, ((![v850, v44] : Fin 2 → IVec S16 32) a x).toNat < S32x2048.size a) ∧
  (∀ a x, ((![v850, v47] : Fin 2 → IVec S16 32) a x).toNat < S32x2048.size a) ∧
  (∀ a x, ((![v850, v50] : Fin 2 → IVec S16 32) a x).toNat < S32x2048.size a) ∧
  (∀ a x, ((![v850, v53] : Fin 2 → IVec S16 32) a x).toNat < S32x2048.size a) ∧
  (∀ a x, ((![v850, v56] : Fin 2 → IVec S16 32) a x).toNat < S32x2048.size a) ∧
  (∀ a x, ((![v850, v59] : Fin 2 → IVec S16 32) a x).toNat < S32x2048.size a) ∧
  (∀ a x, ((![v850, v62] : Fin 2 → IVec S16 32) a x).toNat < S32x2048.size a) ∧
  (∀ a x, ((![v850, v65] : Fin 2 → IVec S16 32) a x).toNat < S32x2048.size a) ∧
  (∀ a x, ((![v850, v68] : Fin 2 → IVec S16 32) a x).toNat < S32x2048.size a)
instance k0_chk20.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32), Decidable (k0_chk20 v23 v26 v29 v32 v35 v38 v41 v44 v47 v50 v53 v56 v59 v62 v65 v68 v850) := fun v23 v26 v29 v32 v35 v38 v41 v44 v47 v50 v53 v56 v59 v62 v65 v68 v850 => decidable_of_iff' _ (Iff.of_eq (k0_chk20.eq_1 v23 v26 v29 v32 v35 v38 v41 v44 v47 v50 v53 v56 v59 v62 v65 v68 v850))
theorem k0_idx305_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v23] : Fin 2 → IVec S16 32) a x).toNat < S32x2048.size a := fun v23 v26 v29 v32 v35 v38 v41 v44 v47 v50 v53 v56 v59 v62 v65 v68 v850 k0_hw20 => k0_hw20.1
theorem k0_idx306_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v26] : Fin 2 → IVec S16 32) a x).toNat < S32x2048.size a := fun v23 v26 v29 v32 v35 v38 v41 v44 v47 v50 v53 v56 v59 v62 v65 v68 v850 k0_hw20 => k0_hw20.2.1
theorem k0_idx307_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v29] : Fin 2 → IVec S16 32) a x).toNat < S32x2048.size a := fun v23 v26 v29 v32 v35 v38 v41 v44 v47 v50 v53 v56 v59 v62 v65 v68 v850 k0_hw20 => k0_hw20.2.2.1
theorem k0_idx308_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v32] : Fin 2 → IVec S16 32) a x).toNat < S32x2048.size a := fun v23 v26 v29 v32 v35 v38 v41 v44 v47 v50 v53 v56 v59 v62 v65 v68 v850 k0_hw20 => k0_hw20.2.2.2.1
theorem k0_idx309_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v35] : Fin 2 → IVec S16 32) a x).toNat < S32x2048.size a := fun v23 v26 v29 v32 v35 v38 v41 v44 v47 v50 v53 v56 v59 v62 v65 v68 v850 k0_hw20 => k0_hw20.2.2.2.2.1
theorem k0_idx310_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v38] : Fin 2 → IVec S16 32) a x).toNat < S32x2048.size a := fun v23 v26 v29 v32 v35 v38 v41 v44 v47 v50 v53 v56 v59 v62 v65 v68 v850 k0_hw20 => k0_hw20.2.2.2.2.2.1
theorem k0_idx311_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v41] : Fin 2 → IVec S16 32) a x).toNat < S32x2048.size a := fun v23 v26 v29 v32 v35 v38 v41 v44 v47 v50 v53 v56 v59 v62 v65 v68 v850 k0_hw20 => k0_hw20.2.2.2.2.2.2.1
theorem k0_idx312_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v44] : Fin 2 → IVec S16 32) a x).toNat < S32x2048.size a := fun v23 v26 v29 v32 v35 v38 v41 v44 v47 v50 v53 v56 v59 v62 v65 v68 v850 k0_hw20 => k0_hw20.2.2.2.2.2.2.2.1
theorem k0_idx313_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v47] : Fin 2 → IVec S16 32) a x).toNat < S32x2048.size a := fun v23 v26 v29 v32 v35 v38 v41 v44 v47 v50 v53 v56 v59 v62 v65 v68 v850 k0_hw20 => k0_hw20.2.2.2.2.2.2.2.2.1
theorem k0_idx314_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v50] : Fin 2 → IVec S16 32) a x).toNat < S32x2048.size a := fun v23 v26 v29 v32 v35 v38 v41 v44 v47 v50 v53 v56 v59 v62 v65 v68 v850 k0_hw20 => k0_hw20.2.2.2.2.2.2.2.2.2.1
theorem k0_idx315_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v53] : Fin 2 → IVec S16 32) a x).toNat < S32x2048.size a := fun v23 v26 v29 v32 v35 v38 v41 v44 v47 v50 v53 v56 v59 v62 v65 v68 v850 k0_hw20 => k0_hw20.2.2.2.2.2.2.2.2.2.2.1
theorem k0_idx316_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v56] : Fin 2 → IVec S16 32) a x).toNat < S32x2048.size a := fun v23 v26 v29 v32 v35 v38 v41 v44 v47 v50 v53 v56 v59 v62 v65 v68 v850 k0_hw20 => k0_hw20.2.2.2.2.2.2.2.2.2.2.2.1
theorem k0_idx317_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v59] : Fin 2 → IVec S16 32) a x).toNat < S32x2048.size a := fun v23 v26 v29 v32 v35 v38 v41 v44 v47 v50 v53 v56 v59 v62 v65 v68 v850 k0_hw20 => k0_hw20.2.2.2.2.2.2.2.2.2.2.2.2.1
theorem k0_idx318_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v62] : Fin 2 → IVec S16 32) a x).toNat < S32x2048.size a := fun v23 v26 v29 v32 v35 v38 v41 v44 v47 v50 v53 v56 v59 v62 v65 v68 v850 k0_hw20 => k0_hw20.2.2.2.2.2.2.2.2.2.2.2.2.2.1
theorem k0_idx319_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v65] : Fin 2 → IVec S16 32) a x).toNat < S32x2048.size a := fun v23 v26 v29 v32 v35 v38 v41 v44 v47 v50 v53 v56 v59 v62 v65 v68 v850 k0_hw20 => k0_hw20.2.2.2.2.2.2.2.2.2.2.2.2.2.2.1
theorem k0_idx320_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v850 : IVec S16 32) (k0_hw20 : k0_chk20 v23 v26 v29 v32 v35 v38 v41 v44 v47 v50 v53 v56 v59 v62 v65 v68 v850), ∀ a x, ((![v850, v68] : Fin 2 → IVec S16 32) a x).toNat < S32x2048.size a := fun v23 v26 v29 v32 v35 v38 v41 v44 v47 v50 v53 v56 v59 v62 v65 v68 v850 k0_hw20 => k0_hw20.2.2.2.2.2.2.2.2.2.2.2.2.2.2.2
def k0_off39 (k0_t1 : Fin k0_t1_loop.trips) : Fin 2 → Nat :=
  let c19_i32_86 : BitVec 32 := 19#32
  let v882 : Index := Scalar.indexCast c19_i32_86
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v883 : Index := Scalar.indexCast v20
  ![19, v883.toNat]

def k0_chk21 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) : Prop :=
  (∀ a x, ((![v891, v23] : Fin 2 → IVec S16 32) a x).toNat < S32x2048.size a) ∧
  (∀ a x, ((![v891, v26] : Fin 2 → IVec S16 32) a x).toNat < S32x2048.size a) ∧
  (∀ a x, ((![v891, v29] : Fin 2 → IVec S16 32) a x).toNat < S32x2048.size a) ∧
  (∀ a x, ((![v891, v32] : Fin 2 → IVec S16 32) a x).toNat < S32x2048.size a) ∧
  (∀ a x, ((![v891, v35] : Fin 2 → IVec S16 32) a x).toNat < S32x2048.size a) ∧
  (∀ a x, ((![v891, v38] : Fin 2 → IVec S16 32) a x).toNat < S32x2048.size a) ∧
  (∀ a x, ((![v891, v41] : Fin 2 → IVec S16 32) a x).toNat < S32x2048.size a) ∧
  (∀ a x, ((![v891, v44] : Fin 2 → IVec S16 32) a x).toNat < S32x2048.size a) ∧
  (∀ a x, ((![v891, v47] : Fin 2 → IVec S16 32) a x).toNat < S32x2048.size a) ∧
  (∀ a x, ((![v891, v50] : Fin 2 → IVec S16 32) a x).toNat < S32x2048.size a) ∧
  (∀ a x, ((![v891, v53] : Fin 2 → IVec S16 32) a x).toNat < S32x2048.size a) ∧
  (∀ a x, ((![v891, v56] : Fin 2 → IVec S16 32) a x).toNat < S32x2048.size a) ∧
  (∀ a x, ((![v891, v59] : Fin 2 → IVec S16 32) a x).toNat < S32x2048.size a) ∧
  (∀ a x, ((![v891, v62] : Fin 2 → IVec S16 32) a x).toNat < S32x2048.size a) ∧
  (∀ a x, ((![v891, v65] : Fin 2 → IVec S16 32) a x).toNat < S32x2048.size a) ∧
  (∀ a x, ((![v891, v68] : Fin 2 → IVec S16 32) a x).toNat < S32x2048.size a)
instance k0_chk21.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32), Decidable (k0_chk21 v23 v26 v29 v32 v35 v38 v41 v44 v47 v50 v53 v56 v59 v62 v65 v68 v891) := fun v23 v26 v29 v32 v35 v38 v41 v44 v47 v50 v53 v56 v59 v62 v65 v68 v891 => decidable_of_iff' _ (Iff.of_eq (k0_chk21.eq_1 v23 v26 v29 v32 v35 v38 v41 v44 v47 v50 v53 v56 v59 v62 v65 v68 v891))
theorem k0_idx321_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v23] : Fin 2 → IVec S16 32) a x).toNat < S32x2048.size a := fun v23 v26 v29 v32 v35 v38 v41 v44 v47 v50 v53 v56 v59 v62 v65 v68 v891 k0_hw21 => k0_hw21.1
theorem k0_idx322_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v26] : Fin 2 → IVec S16 32) a x).toNat < S32x2048.size a := fun v23 v26 v29 v32 v35 v38 v41 v44 v47 v50 v53 v56 v59 v62 v65 v68 v891 k0_hw21 => k0_hw21.2.1
theorem k0_idx323_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v29] : Fin 2 → IVec S16 32) a x).toNat < S32x2048.size a := fun v23 v26 v29 v32 v35 v38 v41 v44 v47 v50 v53 v56 v59 v62 v65 v68 v891 k0_hw21 => k0_hw21.2.2.1
theorem k0_idx324_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v32] : Fin 2 → IVec S16 32) a x).toNat < S32x2048.size a := fun v23 v26 v29 v32 v35 v38 v41 v44 v47 v50 v53 v56 v59 v62 v65 v68 v891 k0_hw21 => k0_hw21.2.2.2.1
theorem k0_idx325_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v35] : Fin 2 → IVec S16 32) a x).toNat < S32x2048.size a := fun v23 v26 v29 v32 v35 v38 v41 v44 v47 v50 v53 v56 v59 v62 v65 v68 v891 k0_hw21 => k0_hw21.2.2.2.2.1
theorem k0_idx326_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v38] : Fin 2 → IVec S16 32) a x).toNat < S32x2048.size a := fun v23 v26 v29 v32 v35 v38 v41 v44 v47 v50 v53 v56 v59 v62 v65 v68 v891 k0_hw21 => k0_hw21.2.2.2.2.2.1
theorem k0_idx327_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v41] : Fin 2 → IVec S16 32) a x).toNat < S32x2048.size a := fun v23 v26 v29 v32 v35 v38 v41 v44 v47 v50 v53 v56 v59 v62 v65 v68 v891 k0_hw21 => k0_hw21.2.2.2.2.2.2.1
theorem k0_idx328_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v44] : Fin 2 → IVec S16 32) a x).toNat < S32x2048.size a := fun v23 v26 v29 v32 v35 v38 v41 v44 v47 v50 v53 v56 v59 v62 v65 v68 v891 k0_hw21 => k0_hw21.2.2.2.2.2.2.2.1
theorem k0_idx329_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v47] : Fin 2 → IVec S16 32) a x).toNat < S32x2048.size a := fun v23 v26 v29 v32 v35 v38 v41 v44 v47 v50 v53 v56 v59 v62 v65 v68 v891 k0_hw21 => k0_hw21.2.2.2.2.2.2.2.2.1
theorem k0_idx330_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v50] : Fin 2 → IVec S16 32) a x).toNat < S32x2048.size a := fun v23 v26 v29 v32 v35 v38 v41 v44 v47 v50 v53 v56 v59 v62 v65 v68 v891 k0_hw21 => k0_hw21.2.2.2.2.2.2.2.2.2.1
theorem k0_idx331_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v53] : Fin 2 → IVec S16 32) a x).toNat < S32x2048.size a := fun v23 v26 v29 v32 v35 v38 v41 v44 v47 v50 v53 v56 v59 v62 v65 v68 v891 k0_hw21 => k0_hw21.2.2.2.2.2.2.2.2.2.2.1
theorem k0_idx332_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v56] : Fin 2 → IVec S16 32) a x).toNat < S32x2048.size a := fun v23 v26 v29 v32 v35 v38 v41 v44 v47 v50 v53 v56 v59 v62 v65 v68 v891 k0_hw21 => k0_hw21.2.2.2.2.2.2.2.2.2.2.2.1
theorem k0_idx333_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v59] : Fin 2 → IVec S16 32) a x).toNat < S32x2048.size a := fun v23 v26 v29 v32 v35 v38 v41 v44 v47 v50 v53 v56 v59 v62 v65 v68 v891 k0_hw21 => k0_hw21.2.2.2.2.2.2.2.2.2.2.2.2.1
theorem k0_idx334_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v62] : Fin 2 → IVec S16 32) a x).toNat < S32x2048.size a := fun v23 v26 v29 v32 v35 v38 v41 v44 v47 v50 v53 v56 v59 v62 v65 v68 v891 k0_hw21 => k0_hw21.2.2.2.2.2.2.2.2.2.2.2.2.2.1
theorem k0_idx335_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v65] : Fin 2 → IVec S16 32) a x).toNat < S32x2048.size a := fun v23 v26 v29 v32 v35 v38 v41 v44 v47 v50 v53 v56 v59 v62 v65 v68 v891 k0_hw21 => k0_hw21.2.2.2.2.2.2.2.2.2.2.2.2.2.2.1
theorem k0_idx336_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v891 : IVec S16 32) (k0_hw21 : k0_chk21 v23 v26 v29 v32 v35 v38 v41 v44 v47 v50 v53 v56 v59 v62 v65 v68 v891), ∀ a x, ((![v891, v68] : Fin 2 → IVec S16 32) a x).toNat < S32x2048.size a := fun v23 v26 v29 v32 v35 v38 v41 v44 v47 v50 v53 v56 v59 v62 v65 v68 v891 k0_hw21 => k0_hw21.2.2.2.2.2.2.2.2.2.2.2.2.2.2.2
def k0_off40 (k0_t1 : Fin k0_t1_loop.trips) : Fin 2 → Nat :=
  let c20_i32_89 : BitVec 32 := 20#32
  let v923 : Index := Scalar.indexCast c20_i32_89
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v924 : Index := Scalar.indexCast v20
  ![20, v924.toNat]

def k0_chk22 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) : Prop :=
  (∀ a x, ((![v932, v23] : Fin 2 → IVec S16 32) a x).toNat < S32x2048.size a) ∧
  (∀ a x, ((![v932, v26] : Fin 2 → IVec S16 32) a x).toNat < S32x2048.size a) ∧
  (∀ a x, ((![v932, v29] : Fin 2 → IVec S16 32) a x).toNat < S32x2048.size a) ∧
  (∀ a x, ((![v932, v32] : Fin 2 → IVec S16 32) a x).toNat < S32x2048.size a) ∧
  (∀ a x, ((![v932, v35] : Fin 2 → IVec S16 32) a x).toNat < S32x2048.size a) ∧
  (∀ a x, ((![v932, v38] : Fin 2 → IVec S16 32) a x).toNat < S32x2048.size a) ∧
  (∀ a x, ((![v932, v41] : Fin 2 → IVec S16 32) a x).toNat < S32x2048.size a) ∧
  (∀ a x, ((![v932, v44] : Fin 2 → IVec S16 32) a x).toNat < S32x2048.size a) ∧
  (∀ a x, ((![v932, v47] : Fin 2 → IVec S16 32) a x).toNat < S32x2048.size a) ∧
  (∀ a x, ((![v932, v50] : Fin 2 → IVec S16 32) a x).toNat < S32x2048.size a) ∧
  (∀ a x, ((![v932, v53] : Fin 2 → IVec S16 32) a x).toNat < S32x2048.size a) ∧
  (∀ a x, ((![v932, v56] : Fin 2 → IVec S16 32) a x).toNat < S32x2048.size a) ∧
  (∀ a x, ((![v932, v59] : Fin 2 → IVec S16 32) a x).toNat < S32x2048.size a) ∧
  (∀ a x, ((![v932, v62] : Fin 2 → IVec S16 32) a x).toNat < S32x2048.size a) ∧
  (∀ a x, ((![v932, v65] : Fin 2 → IVec S16 32) a x).toNat < S32x2048.size a) ∧
  (∀ a x, ((![v932, v68] : Fin 2 → IVec S16 32) a x).toNat < S32x2048.size a)
instance k0_chk22.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32), Decidable (k0_chk22 v23 v26 v29 v32 v35 v38 v41 v44 v47 v50 v53 v56 v59 v62 v65 v68 v932) := fun v23 v26 v29 v32 v35 v38 v41 v44 v47 v50 v53 v56 v59 v62 v65 v68 v932 => decidable_of_iff' _ (Iff.of_eq (k0_chk22.eq_1 v23 v26 v29 v32 v35 v38 v41 v44 v47 v50 v53 v56 v59 v62 v65 v68 v932))
theorem k0_idx337_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v23] : Fin 2 → IVec S16 32) a x).toNat < S32x2048.size a := fun v23 v26 v29 v32 v35 v38 v41 v44 v47 v50 v53 v56 v59 v62 v65 v68 v932 k0_hw22 => k0_hw22.1
theorem k0_idx338_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v26] : Fin 2 → IVec S16 32) a x).toNat < S32x2048.size a := fun v23 v26 v29 v32 v35 v38 v41 v44 v47 v50 v53 v56 v59 v62 v65 v68 v932 k0_hw22 => k0_hw22.2.1
theorem k0_idx339_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v29] : Fin 2 → IVec S16 32) a x).toNat < S32x2048.size a := fun v23 v26 v29 v32 v35 v38 v41 v44 v47 v50 v53 v56 v59 v62 v65 v68 v932 k0_hw22 => k0_hw22.2.2.1
theorem k0_idx340_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v32] : Fin 2 → IVec S16 32) a x).toNat < S32x2048.size a := fun v23 v26 v29 v32 v35 v38 v41 v44 v47 v50 v53 v56 v59 v62 v65 v68 v932 k0_hw22 => k0_hw22.2.2.2.1
theorem k0_idx341_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v35] : Fin 2 → IVec S16 32) a x).toNat < S32x2048.size a := fun v23 v26 v29 v32 v35 v38 v41 v44 v47 v50 v53 v56 v59 v62 v65 v68 v932 k0_hw22 => k0_hw22.2.2.2.2.1
theorem k0_idx342_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v38] : Fin 2 → IVec S16 32) a x).toNat < S32x2048.size a := fun v23 v26 v29 v32 v35 v38 v41 v44 v47 v50 v53 v56 v59 v62 v65 v68 v932 k0_hw22 => k0_hw22.2.2.2.2.2.1
theorem k0_idx343_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v41] : Fin 2 → IVec S16 32) a x).toNat < S32x2048.size a := fun v23 v26 v29 v32 v35 v38 v41 v44 v47 v50 v53 v56 v59 v62 v65 v68 v932 k0_hw22 => k0_hw22.2.2.2.2.2.2.1
theorem k0_idx344_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v44] : Fin 2 → IVec S16 32) a x).toNat < S32x2048.size a := fun v23 v26 v29 v32 v35 v38 v41 v44 v47 v50 v53 v56 v59 v62 v65 v68 v932 k0_hw22 => k0_hw22.2.2.2.2.2.2.2.1
theorem k0_idx345_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v47] : Fin 2 → IVec S16 32) a x).toNat < S32x2048.size a := fun v23 v26 v29 v32 v35 v38 v41 v44 v47 v50 v53 v56 v59 v62 v65 v68 v932 k0_hw22 => k0_hw22.2.2.2.2.2.2.2.2.1
theorem k0_idx346_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v50] : Fin 2 → IVec S16 32) a x).toNat < S32x2048.size a := fun v23 v26 v29 v32 v35 v38 v41 v44 v47 v50 v53 v56 v59 v62 v65 v68 v932 k0_hw22 => k0_hw22.2.2.2.2.2.2.2.2.2.1
theorem k0_idx347_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v53] : Fin 2 → IVec S16 32) a x).toNat < S32x2048.size a := fun v23 v26 v29 v32 v35 v38 v41 v44 v47 v50 v53 v56 v59 v62 v65 v68 v932 k0_hw22 => k0_hw22.2.2.2.2.2.2.2.2.2.2.1
theorem k0_idx348_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v56] : Fin 2 → IVec S16 32) a x).toNat < S32x2048.size a := fun v23 v26 v29 v32 v35 v38 v41 v44 v47 v50 v53 v56 v59 v62 v65 v68 v932 k0_hw22 => k0_hw22.2.2.2.2.2.2.2.2.2.2.2.1
theorem k0_idx349_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v59] : Fin 2 → IVec S16 32) a x).toNat < S32x2048.size a := fun v23 v26 v29 v32 v35 v38 v41 v44 v47 v50 v53 v56 v59 v62 v65 v68 v932 k0_hw22 => k0_hw22.2.2.2.2.2.2.2.2.2.2.2.2.1
theorem k0_idx350_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v62] : Fin 2 → IVec S16 32) a x).toNat < S32x2048.size a := fun v23 v26 v29 v32 v35 v38 v41 v44 v47 v50 v53 v56 v59 v62 v65 v68 v932 k0_hw22 => k0_hw22.2.2.2.2.2.2.2.2.2.2.2.2.2.1
theorem k0_idx351_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v65] : Fin 2 → IVec S16 32) a x).toNat < S32x2048.size a := fun v23 v26 v29 v32 v35 v38 v41 v44 v47 v50 v53 v56 v59 v62 v65 v68 v932 k0_hw22 => k0_hw22.2.2.2.2.2.2.2.2.2.2.2.2.2.2.1
theorem k0_idx352_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v932 : IVec S16 32) (k0_hw22 : k0_chk22 v23 v26 v29 v32 v35 v38 v41 v44 v47 v50 v53 v56 v59 v62 v65 v68 v932), ∀ a x, ((![v932, v68] : Fin 2 → IVec S16 32) a x).toNat < S32x2048.size a := fun v23 v26 v29 v32 v35 v38 v41 v44 v47 v50 v53 v56 v59 v62 v65 v68 v932 k0_hw22 => k0_hw22.2.2.2.2.2.2.2.2.2.2.2.2.2.2.2
def k0_off41 (k0_t1 : Fin k0_t1_loop.trips) : Fin 2 → Nat :=
  let c21_i32_92 : BitVec 32 := 21#32
  let v964 : Index := Scalar.indexCast c21_i32_92
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v965 : Index := Scalar.indexCast v20
  ![21, v965.toNat]

def k0_chk23 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) : Prop :=
  (∀ a x, ((![v973, v23] : Fin 2 → IVec S16 32) a x).toNat < S32x2048.size a) ∧
  (∀ a x, ((![v973, v26] : Fin 2 → IVec S16 32) a x).toNat < S32x2048.size a) ∧
  (∀ a x, ((![v973, v29] : Fin 2 → IVec S16 32) a x).toNat < S32x2048.size a) ∧
  (∀ a x, ((![v973, v32] : Fin 2 → IVec S16 32) a x).toNat < S32x2048.size a) ∧
  (∀ a x, ((![v973, v35] : Fin 2 → IVec S16 32) a x).toNat < S32x2048.size a) ∧
  (∀ a x, ((![v973, v38] : Fin 2 → IVec S16 32) a x).toNat < S32x2048.size a) ∧
  (∀ a x, ((![v973, v41] : Fin 2 → IVec S16 32) a x).toNat < S32x2048.size a) ∧
  (∀ a x, ((![v973, v44] : Fin 2 → IVec S16 32) a x).toNat < S32x2048.size a) ∧
  (∀ a x, ((![v973, v47] : Fin 2 → IVec S16 32) a x).toNat < S32x2048.size a) ∧
  (∀ a x, ((![v973, v50] : Fin 2 → IVec S16 32) a x).toNat < S32x2048.size a) ∧
  (∀ a x, ((![v973, v53] : Fin 2 → IVec S16 32) a x).toNat < S32x2048.size a) ∧
  (∀ a x, ((![v973, v56] : Fin 2 → IVec S16 32) a x).toNat < S32x2048.size a) ∧
  (∀ a x, ((![v973, v59] : Fin 2 → IVec S16 32) a x).toNat < S32x2048.size a) ∧
  (∀ a x, ((![v973, v62] : Fin 2 → IVec S16 32) a x).toNat < S32x2048.size a) ∧
  (∀ a x, ((![v973, v65] : Fin 2 → IVec S16 32) a x).toNat < S32x2048.size a) ∧
  (∀ a x, ((![v973, v68] : Fin 2 → IVec S16 32) a x).toNat < S32x2048.size a)
instance k0_chk23.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32), Decidable (k0_chk23 v23 v26 v29 v32 v35 v38 v41 v44 v47 v50 v53 v56 v59 v62 v65 v68 v973) := fun v23 v26 v29 v32 v35 v38 v41 v44 v47 v50 v53 v56 v59 v62 v65 v68 v973 => decidable_of_iff' _ (Iff.of_eq (k0_chk23.eq_1 v23 v26 v29 v32 v35 v38 v41 v44 v47 v50 v53 v56 v59 v62 v65 v68 v973))
theorem k0_idx353_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v23] : Fin 2 → IVec S16 32) a x).toNat < S32x2048.size a := fun v23 v26 v29 v32 v35 v38 v41 v44 v47 v50 v53 v56 v59 v62 v65 v68 v973 k0_hw23 => k0_hw23.1
theorem k0_idx354_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v26] : Fin 2 → IVec S16 32) a x).toNat < S32x2048.size a := fun v23 v26 v29 v32 v35 v38 v41 v44 v47 v50 v53 v56 v59 v62 v65 v68 v973 k0_hw23 => k0_hw23.2.1
theorem k0_idx355_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v29] : Fin 2 → IVec S16 32) a x).toNat < S32x2048.size a := fun v23 v26 v29 v32 v35 v38 v41 v44 v47 v50 v53 v56 v59 v62 v65 v68 v973 k0_hw23 => k0_hw23.2.2.1
theorem k0_idx356_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v32] : Fin 2 → IVec S16 32) a x).toNat < S32x2048.size a := fun v23 v26 v29 v32 v35 v38 v41 v44 v47 v50 v53 v56 v59 v62 v65 v68 v973 k0_hw23 => k0_hw23.2.2.2.1
theorem k0_idx357_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v35] : Fin 2 → IVec S16 32) a x).toNat < S32x2048.size a := fun v23 v26 v29 v32 v35 v38 v41 v44 v47 v50 v53 v56 v59 v62 v65 v68 v973 k0_hw23 => k0_hw23.2.2.2.2.1
theorem k0_idx358_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v38] : Fin 2 → IVec S16 32) a x).toNat < S32x2048.size a := fun v23 v26 v29 v32 v35 v38 v41 v44 v47 v50 v53 v56 v59 v62 v65 v68 v973 k0_hw23 => k0_hw23.2.2.2.2.2.1
theorem k0_idx359_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v41] : Fin 2 → IVec S16 32) a x).toNat < S32x2048.size a := fun v23 v26 v29 v32 v35 v38 v41 v44 v47 v50 v53 v56 v59 v62 v65 v68 v973 k0_hw23 => k0_hw23.2.2.2.2.2.2.1
theorem k0_idx360_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v44] : Fin 2 → IVec S16 32) a x).toNat < S32x2048.size a := fun v23 v26 v29 v32 v35 v38 v41 v44 v47 v50 v53 v56 v59 v62 v65 v68 v973 k0_hw23 => k0_hw23.2.2.2.2.2.2.2.1
theorem k0_idx361_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v47] : Fin 2 → IVec S16 32) a x).toNat < S32x2048.size a := fun v23 v26 v29 v32 v35 v38 v41 v44 v47 v50 v53 v56 v59 v62 v65 v68 v973 k0_hw23 => k0_hw23.2.2.2.2.2.2.2.2.1
theorem k0_idx362_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v50] : Fin 2 → IVec S16 32) a x).toNat < S32x2048.size a := fun v23 v26 v29 v32 v35 v38 v41 v44 v47 v50 v53 v56 v59 v62 v65 v68 v973 k0_hw23 => k0_hw23.2.2.2.2.2.2.2.2.2.1
theorem k0_idx363_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v53] : Fin 2 → IVec S16 32) a x).toNat < S32x2048.size a := fun v23 v26 v29 v32 v35 v38 v41 v44 v47 v50 v53 v56 v59 v62 v65 v68 v973 k0_hw23 => k0_hw23.2.2.2.2.2.2.2.2.2.2.1
theorem k0_idx364_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v56] : Fin 2 → IVec S16 32) a x).toNat < S32x2048.size a := fun v23 v26 v29 v32 v35 v38 v41 v44 v47 v50 v53 v56 v59 v62 v65 v68 v973 k0_hw23 => k0_hw23.2.2.2.2.2.2.2.2.2.2.2.1
theorem k0_idx365_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v59] : Fin 2 → IVec S16 32) a x).toNat < S32x2048.size a := fun v23 v26 v29 v32 v35 v38 v41 v44 v47 v50 v53 v56 v59 v62 v65 v68 v973 k0_hw23 => k0_hw23.2.2.2.2.2.2.2.2.2.2.2.2.1
theorem k0_idx366_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v62] : Fin 2 → IVec S16 32) a x).toNat < S32x2048.size a := fun v23 v26 v29 v32 v35 v38 v41 v44 v47 v50 v53 v56 v59 v62 v65 v68 v973 k0_hw23 => k0_hw23.2.2.2.2.2.2.2.2.2.2.2.2.2.1
theorem k0_idx367_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v65] : Fin 2 → IVec S16 32) a x).toNat < S32x2048.size a := fun v23 v26 v29 v32 v35 v38 v41 v44 v47 v50 v53 v56 v59 v62 v65 v68 v973 k0_hw23 => k0_hw23.2.2.2.2.2.2.2.2.2.2.2.2.2.2.1
theorem k0_idx368_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v973 : IVec S16 32) (k0_hw23 : k0_chk23 v23 v26 v29 v32 v35 v38 v41 v44 v47 v50 v53 v56 v59 v62 v65 v68 v973), ∀ a x, ((![v973, v68] : Fin 2 → IVec S16 32) a x).toNat < S32x2048.size a := fun v23 v26 v29 v32 v35 v38 v41 v44 v47 v50 v53 v56 v59 v62 v65 v68 v973 k0_hw23 => k0_hw23.2.2.2.2.2.2.2.2.2.2.2.2.2.2.2
def k0_off42 (k0_t1 : Fin k0_t1_loop.trips) : Fin 2 → Nat :=
  let c22_i32_95 : BitVec 32 := 22#32
  let v1005 : Index := Scalar.indexCast c22_i32_95
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1006 : Index := Scalar.indexCast v20
  ![22, v1006.toNat]

def k0_chk24 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) : Prop :=
  (∀ a x, ((![v1014, v23] : Fin 2 → IVec S16 32) a x).toNat < S32x2048.size a) ∧
  (∀ a x, ((![v1014, v26] : Fin 2 → IVec S16 32) a x).toNat < S32x2048.size a) ∧
  (∀ a x, ((![v1014, v29] : Fin 2 → IVec S16 32) a x).toNat < S32x2048.size a) ∧
  (∀ a x, ((![v1014, v32] : Fin 2 → IVec S16 32) a x).toNat < S32x2048.size a) ∧
  (∀ a x, ((![v1014, v35] : Fin 2 → IVec S16 32) a x).toNat < S32x2048.size a) ∧
  (∀ a x, ((![v1014, v38] : Fin 2 → IVec S16 32) a x).toNat < S32x2048.size a) ∧
  (∀ a x, ((![v1014, v41] : Fin 2 → IVec S16 32) a x).toNat < S32x2048.size a) ∧
  (∀ a x, ((![v1014, v44] : Fin 2 → IVec S16 32) a x).toNat < S32x2048.size a) ∧
  (∀ a x, ((![v1014, v47] : Fin 2 → IVec S16 32) a x).toNat < S32x2048.size a) ∧
  (∀ a x, ((![v1014, v50] : Fin 2 → IVec S16 32) a x).toNat < S32x2048.size a) ∧
  (∀ a x, ((![v1014, v53] : Fin 2 → IVec S16 32) a x).toNat < S32x2048.size a) ∧
  (∀ a x, ((![v1014, v56] : Fin 2 → IVec S16 32) a x).toNat < S32x2048.size a) ∧
  (∀ a x, ((![v1014, v59] : Fin 2 → IVec S16 32) a x).toNat < S32x2048.size a) ∧
  (∀ a x, ((![v1014, v62] : Fin 2 → IVec S16 32) a x).toNat < S32x2048.size a) ∧
  (∀ a x, ((![v1014, v65] : Fin 2 → IVec S16 32) a x).toNat < S32x2048.size a) ∧
  (∀ a x, ((![v1014, v68] : Fin 2 → IVec S16 32) a x).toNat < S32x2048.size a)
instance k0_chk24.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32), Decidable (k0_chk24 v23 v26 v29 v32 v35 v38 v41 v44 v47 v50 v53 v56 v59 v62 v65 v68 v1014) := fun v23 v26 v29 v32 v35 v38 v41 v44 v47 v50 v53 v56 v59 v62 v65 v68 v1014 => decidable_of_iff' _ (Iff.of_eq (k0_chk24.eq_1 v23 v26 v29 v32 v35 v38 v41 v44 v47 v50 v53 v56 v59 v62 v65 v68 v1014))
theorem k0_idx369_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v23] : Fin 2 → IVec S16 32) a x).toNat < S32x2048.size a := fun v23 v26 v29 v32 v35 v38 v41 v44 v47 v50 v53 v56 v59 v62 v65 v68 v1014 k0_hw24 => k0_hw24.1
theorem k0_idx370_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v26] : Fin 2 → IVec S16 32) a x).toNat < S32x2048.size a := fun v23 v26 v29 v32 v35 v38 v41 v44 v47 v50 v53 v56 v59 v62 v65 v68 v1014 k0_hw24 => k0_hw24.2.1
theorem k0_idx371_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v29] : Fin 2 → IVec S16 32) a x).toNat < S32x2048.size a := fun v23 v26 v29 v32 v35 v38 v41 v44 v47 v50 v53 v56 v59 v62 v65 v68 v1014 k0_hw24 => k0_hw24.2.2.1
theorem k0_idx372_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v32] : Fin 2 → IVec S16 32) a x).toNat < S32x2048.size a := fun v23 v26 v29 v32 v35 v38 v41 v44 v47 v50 v53 v56 v59 v62 v65 v68 v1014 k0_hw24 => k0_hw24.2.2.2.1
theorem k0_idx373_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v35] : Fin 2 → IVec S16 32) a x).toNat < S32x2048.size a := fun v23 v26 v29 v32 v35 v38 v41 v44 v47 v50 v53 v56 v59 v62 v65 v68 v1014 k0_hw24 => k0_hw24.2.2.2.2.1
theorem k0_idx374_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v38] : Fin 2 → IVec S16 32) a x).toNat < S32x2048.size a := fun v23 v26 v29 v32 v35 v38 v41 v44 v47 v50 v53 v56 v59 v62 v65 v68 v1014 k0_hw24 => k0_hw24.2.2.2.2.2.1
theorem k0_idx375_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v41] : Fin 2 → IVec S16 32) a x).toNat < S32x2048.size a := fun v23 v26 v29 v32 v35 v38 v41 v44 v47 v50 v53 v56 v59 v62 v65 v68 v1014 k0_hw24 => k0_hw24.2.2.2.2.2.2.1
theorem k0_idx376_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v44] : Fin 2 → IVec S16 32) a x).toNat < S32x2048.size a := fun v23 v26 v29 v32 v35 v38 v41 v44 v47 v50 v53 v56 v59 v62 v65 v68 v1014 k0_hw24 => k0_hw24.2.2.2.2.2.2.2.1
theorem k0_idx377_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v47] : Fin 2 → IVec S16 32) a x).toNat < S32x2048.size a := fun v23 v26 v29 v32 v35 v38 v41 v44 v47 v50 v53 v56 v59 v62 v65 v68 v1014 k0_hw24 => k0_hw24.2.2.2.2.2.2.2.2.1
theorem k0_idx378_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v50] : Fin 2 → IVec S16 32) a x).toNat < S32x2048.size a := fun v23 v26 v29 v32 v35 v38 v41 v44 v47 v50 v53 v56 v59 v62 v65 v68 v1014 k0_hw24 => k0_hw24.2.2.2.2.2.2.2.2.2.1
theorem k0_idx379_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v53] : Fin 2 → IVec S16 32) a x).toNat < S32x2048.size a := fun v23 v26 v29 v32 v35 v38 v41 v44 v47 v50 v53 v56 v59 v62 v65 v68 v1014 k0_hw24 => k0_hw24.2.2.2.2.2.2.2.2.2.2.1
theorem k0_idx380_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v56] : Fin 2 → IVec S16 32) a x).toNat < S32x2048.size a := fun v23 v26 v29 v32 v35 v38 v41 v44 v47 v50 v53 v56 v59 v62 v65 v68 v1014 k0_hw24 => k0_hw24.2.2.2.2.2.2.2.2.2.2.2.1
theorem k0_idx381_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v59] : Fin 2 → IVec S16 32) a x).toNat < S32x2048.size a := fun v23 v26 v29 v32 v35 v38 v41 v44 v47 v50 v53 v56 v59 v62 v65 v68 v1014 k0_hw24 => k0_hw24.2.2.2.2.2.2.2.2.2.2.2.2.1
theorem k0_idx382_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v62] : Fin 2 → IVec S16 32) a x).toNat < S32x2048.size a := fun v23 v26 v29 v32 v35 v38 v41 v44 v47 v50 v53 v56 v59 v62 v65 v68 v1014 k0_hw24 => k0_hw24.2.2.2.2.2.2.2.2.2.2.2.2.2.1
theorem k0_idx383_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v65] : Fin 2 → IVec S16 32) a x).toNat < S32x2048.size a := fun v23 v26 v29 v32 v35 v38 v41 v44 v47 v50 v53 v56 v59 v62 v65 v68 v1014 k0_hw24 => k0_hw24.2.2.2.2.2.2.2.2.2.2.2.2.2.2.1
theorem k0_idx384_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1014 : IVec S16 32) (k0_hw24 : k0_chk24 v23 v26 v29 v32 v35 v38 v41 v44 v47 v50 v53 v56 v59 v62 v65 v68 v1014), ∀ a x, ((![v1014, v68] : Fin 2 → IVec S16 32) a x).toNat < S32x2048.size a := fun v23 v26 v29 v32 v35 v38 v41 v44 v47 v50 v53 v56 v59 v62 v65 v68 v1014 k0_hw24 => k0_hw24.2.2.2.2.2.2.2.2.2.2.2.2.2.2.2
def k0_off43 (k0_t1 : Fin k0_t1_loop.trips) : Fin 2 → Nat :=
  let c23_i32_98 : BitVec 32 := 23#32
  let v1046 : Index := Scalar.indexCast c23_i32_98
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1047 : Index := Scalar.indexCast v20
  ![23, v1047.toNat]

def k0_chk25 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) : Prop :=
  (∀ a x, ((![v1055, v23] : Fin 2 → IVec S16 32) a x).toNat < S32x2048.size a) ∧
  (∀ a x, ((![v1055, v26] : Fin 2 → IVec S16 32) a x).toNat < S32x2048.size a) ∧
  (∀ a x, ((![v1055, v29] : Fin 2 → IVec S16 32) a x).toNat < S32x2048.size a) ∧
  (∀ a x, ((![v1055, v32] : Fin 2 → IVec S16 32) a x).toNat < S32x2048.size a) ∧
  (∀ a x, ((![v1055, v35] : Fin 2 → IVec S16 32) a x).toNat < S32x2048.size a) ∧
  (∀ a x, ((![v1055, v38] : Fin 2 → IVec S16 32) a x).toNat < S32x2048.size a) ∧
  (∀ a x, ((![v1055, v41] : Fin 2 → IVec S16 32) a x).toNat < S32x2048.size a) ∧
  (∀ a x, ((![v1055, v44] : Fin 2 → IVec S16 32) a x).toNat < S32x2048.size a) ∧
  (∀ a x, ((![v1055, v47] : Fin 2 → IVec S16 32) a x).toNat < S32x2048.size a) ∧
  (∀ a x, ((![v1055, v50] : Fin 2 → IVec S16 32) a x).toNat < S32x2048.size a) ∧
  (∀ a x, ((![v1055, v53] : Fin 2 → IVec S16 32) a x).toNat < S32x2048.size a) ∧
  (∀ a x, ((![v1055, v56] : Fin 2 → IVec S16 32) a x).toNat < S32x2048.size a) ∧
  (∀ a x, ((![v1055, v59] : Fin 2 → IVec S16 32) a x).toNat < S32x2048.size a) ∧
  (∀ a x, ((![v1055, v62] : Fin 2 → IVec S16 32) a x).toNat < S32x2048.size a) ∧
  (∀ a x, ((![v1055, v65] : Fin 2 → IVec S16 32) a x).toNat < S32x2048.size a) ∧
  (∀ a x, ((![v1055, v68] : Fin 2 → IVec S16 32) a x).toNat < S32x2048.size a)
instance k0_chk25.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32), Decidable (k0_chk25 v23 v26 v29 v32 v35 v38 v41 v44 v47 v50 v53 v56 v59 v62 v65 v68 v1055) := fun v23 v26 v29 v32 v35 v38 v41 v44 v47 v50 v53 v56 v59 v62 v65 v68 v1055 => decidable_of_iff' _ (Iff.of_eq (k0_chk25.eq_1 v23 v26 v29 v32 v35 v38 v41 v44 v47 v50 v53 v56 v59 v62 v65 v68 v1055))
theorem k0_idx385_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v23] : Fin 2 → IVec S16 32) a x).toNat < S32x2048.size a := fun v23 v26 v29 v32 v35 v38 v41 v44 v47 v50 v53 v56 v59 v62 v65 v68 v1055 k0_hw25 => k0_hw25.1
theorem k0_idx386_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v26] : Fin 2 → IVec S16 32) a x).toNat < S32x2048.size a := fun v23 v26 v29 v32 v35 v38 v41 v44 v47 v50 v53 v56 v59 v62 v65 v68 v1055 k0_hw25 => k0_hw25.2.1
theorem k0_idx387_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v29] : Fin 2 → IVec S16 32) a x).toNat < S32x2048.size a := fun v23 v26 v29 v32 v35 v38 v41 v44 v47 v50 v53 v56 v59 v62 v65 v68 v1055 k0_hw25 => k0_hw25.2.2.1
theorem k0_idx388_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v32] : Fin 2 → IVec S16 32) a x).toNat < S32x2048.size a := fun v23 v26 v29 v32 v35 v38 v41 v44 v47 v50 v53 v56 v59 v62 v65 v68 v1055 k0_hw25 => k0_hw25.2.2.2.1
theorem k0_idx389_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v35] : Fin 2 → IVec S16 32) a x).toNat < S32x2048.size a := fun v23 v26 v29 v32 v35 v38 v41 v44 v47 v50 v53 v56 v59 v62 v65 v68 v1055 k0_hw25 => k0_hw25.2.2.2.2.1
theorem k0_idx390_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v38] : Fin 2 → IVec S16 32) a x).toNat < S32x2048.size a := fun v23 v26 v29 v32 v35 v38 v41 v44 v47 v50 v53 v56 v59 v62 v65 v68 v1055 k0_hw25 => k0_hw25.2.2.2.2.2.1
theorem k0_idx391_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v41] : Fin 2 → IVec S16 32) a x).toNat < S32x2048.size a := fun v23 v26 v29 v32 v35 v38 v41 v44 v47 v50 v53 v56 v59 v62 v65 v68 v1055 k0_hw25 => k0_hw25.2.2.2.2.2.2.1
theorem k0_idx392_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v44] : Fin 2 → IVec S16 32) a x).toNat < S32x2048.size a := fun v23 v26 v29 v32 v35 v38 v41 v44 v47 v50 v53 v56 v59 v62 v65 v68 v1055 k0_hw25 => k0_hw25.2.2.2.2.2.2.2.1
theorem k0_idx393_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v47] : Fin 2 → IVec S16 32) a x).toNat < S32x2048.size a := fun v23 v26 v29 v32 v35 v38 v41 v44 v47 v50 v53 v56 v59 v62 v65 v68 v1055 k0_hw25 => k0_hw25.2.2.2.2.2.2.2.2.1
theorem k0_idx394_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v50] : Fin 2 → IVec S16 32) a x).toNat < S32x2048.size a := fun v23 v26 v29 v32 v35 v38 v41 v44 v47 v50 v53 v56 v59 v62 v65 v68 v1055 k0_hw25 => k0_hw25.2.2.2.2.2.2.2.2.2.1
theorem k0_idx395_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v53] : Fin 2 → IVec S16 32) a x).toNat < S32x2048.size a := fun v23 v26 v29 v32 v35 v38 v41 v44 v47 v50 v53 v56 v59 v62 v65 v68 v1055 k0_hw25 => k0_hw25.2.2.2.2.2.2.2.2.2.2.1
theorem k0_idx396_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v56] : Fin 2 → IVec S16 32) a x).toNat < S32x2048.size a := fun v23 v26 v29 v32 v35 v38 v41 v44 v47 v50 v53 v56 v59 v62 v65 v68 v1055 k0_hw25 => k0_hw25.2.2.2.2.2.2.2.2.2.2.2.1
theorem k0_idx397_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v59] : Fin 2 → IVec S16 32) a x).toNat < S32x2048.size a := fun v23 v26 v29 v32 v35 v38 v41 v44 v47 v50 v53 v56 v59 v62 v65 v68 v1055 k0_hw25 => k0_hw25.2.2.2.2.2.2.2.2.2.2.2.2.1
theorem k0_idx398_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v62] : Fin 2 → IVec S16 32) a x).toNat < S32x2048.size a := fun v23 v26 v29 v32 v35 v38 v41 v44 v47 v50 v53 v56 v59 v62 v65 v68 v1055 k0_hw25 => k0_hw25.2.2.2.2.2.2.2.2.2.2.2.2.2.1
theorem k0_idx399_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v65] : Fin 2 → IVec S16 32) a x).toNat < S32x2048.size a := fun v23 v26 v29 v32 v35 v38 v41 v44 v47 v50 v53 v56 v59 v62 v65 v68 v1055 k0_hw25 => k0_hw25.2.2.2.2.2.2.2.2.2.2.2.2.2.2.1
theorem k0_idx400_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1055 : IVec S16 32) (k0_hw25 : k0_chk25 v23 v26 v29 v32 v35 v38 v41 v44 v47 v50 v53 v56 v59 v62 v65 v68 v1055), ∀ a x, ((![v1055, v68] : Fin 2 → IVec S16 32) a x).toNat < S32x2048.size a := fun v23 v26 v29 v32 v35 v38 v41 v44 v47 v50 v53 v56 v59 v62 v65 v68 v1055 k0_hw25 => k0_hw25.2.2.2.2.2.2.2.2.2.2.2.2.2.2.2
def k0_off44 (k0_t1 : Fin k0_t1_loop.trips) : Fin 2 → Nat :=
  let c24_i32_101 : BitVec 32 := 24#32
  let v1087 : Index := Scalar.indexCast c24_i32_101
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1088 : Index := Scalar.indexCast v20
  ![24, v1088.toNat]

def k0_chk26 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) : Prop :=
  (∀ a x, ((![v1096, v23] : Fin 2 → IVec S16 32) a x).toNat < S32x2048.size a) ∧
  (∀ a x, ((![v1096, v26] : Fin 2 → IVec S16 32) a x).toNat < S32x2048.size a) ∧
  (∀ a x, ((![v1096, v29] : Fin 2 → IVec S16 32) a x).toNat < S32x2048.size a) ∧
  (∀ a x, ((![v1096, v32] : Fin 2 → IVec S16 32) a x).toNat < S32x2048.size a) ∧
  (∀ a x, ((![v1096, v35] : Fin 2 → IVec S16 32) a x).toNat < S32x2048.size a) ∧
  (∀ a x, ((![v1096, v38] : Fin 2 → IVec S16 32) a x).toNat < S32x2048.size a) ∧
  (∀ a x, ((![v1096, v41] : Fin 2 → IVec S16 32) a x).toNat < S32x2048.size a) ∧
  (∀ a x, ((![v1096, v44] : Fin 2 → IVec S16 32) a x).toNat < S32x2048.size a) ∧
  (∀ a x, ((![v1096, v47] : Fin 2 → IVec S16 32) a x).toNat < S32x2048.size a) ∧
  (∀ a x, ((![v1096, v50] : Fin 2 → IVec S16 32) a x).toNat < S32x2048.size a) ∧
  (∀ a x, ((![v1096, v53] : Fin 2 → IVec S16 32) a x).toNat < S32x2048.size a) ∧
  (∀ a x, ((![v1096, v56] : Fin 2 → IVec S16 32) a x).toNat < S32x2048.size a) ∧
  (∀ a x, ((![v1096, v59] : Fin 2 → IVec S16 32) a x).toNat < S32x2048.size a) ∧
  (∀ a x, ((![v1096, v62] : Fin 2 → IVec S16 32) a x).toNat < S32x2048.size a) ∧
  (∀ a x, ((![v1096, v65] : Fin 2 → IVec S16 32) a x).toNat < S32x2048.size a) ∧
  (∀ a x, ((![v1096, v68] : Fin 2 → IVec S16 32) a x).toNat < S32x2048.size a)
instance k0_chk26.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32), Decidable (k0_chk26 v23 v26 v29 v32 v35 v38 v41 v44 v47 v50 v53 v56 v59 v62 v65 v68 v1096) := fun v23 v26 v29 v32 v35 v38 v41 v44 v47 v50 v53 v56 v59 v62 v65 v68 v1096 => decidable_of_iff' _ (Iff.of_eq (k0_chk26.eq_1 v23 v26 v29 v32 v35 v38 v41 v44 v47 v50 v53 v56 v59 v62 v65 v68 v1096))
theorem k0_idx401_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v23] : Fin 2 → IVec S16 32) a x).toNat < S32x2048.size a := fun v23 v26 v29 v32 v35 v38 v41 v44 v47 v50 v53 v56 v59 v62 v65 v68 v1096 k0_hw26 => k0_hw26.1
theorem k0_idx402_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v26] : Fin 2 → IVec S16 32) a x).toNat < S32x2048.size a := fun v23 v26 v29 v32 v35 v38 v41 v44 v47 v50 v53 v56 v59 v62 v65 v68 v1096 k0_hw26 => k0_hw26.2.1
theorem k0_idx403_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v29] : Fin 2 → IVec S16 32) a x).toNat < S32x2048.size a := fun v23 v26 v29 v32 v35 v38 v41 v44 v47 v50 v53 v56 v59 v62 v65 v68 v1096 k0_hw26 => k0_hw26.2.2.1
theorem k0_idx404_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v32] : Fin 2 → IVec S16 32) a x).toNat < S32x2048.size a := fun v23 v26 v29 v32 v35 v38 v41 v44 v47 v50 v53 v56 v59 v62 v65 v68 v1096 k0_hw26 => k0_hw26.2.2.2.1
theorem k0_idx405_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v35] : Fin 2 → IVec S16 32) a x).toNat < S32x2048.size a := fun v23 v26 v29 v32 v35 v38 v41 v44 v47 v50 v53 v56 v59 v62 v65 v68 v1096 k0_hw26 => k0_hw26.2.2.2.2.1
theorem k0_idx406_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v38] : Fin 2 → IVec S16 32) a x).toNat < S32x2048.size a := fun v23 v26 v29 v32 v35 v38 v41 v44 v47 v50 v53 v56 v59 v62 v65 v68 v1096 k0_hw26 => k0_hw26.2.2.2.2.2.1
theorem k0_idx407_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v41] : Fin 2 → IVec S16 32) a x).toNat < S32x2048.size a := fun v23 v26 v29 v32 v35 v38 v41 v44 v47 v50 v53 v56 v59 v62 v65 v68 v1096 k0_hw26 => k0_hw26.2.2.2.2.2.2.1
theorem k0_idx408_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v44] : Fin 2 → IVec S16 32) a x).toNat < S32x2048.size a := fun v23 v26 v29 v32 v35 v38 v41 v44 v47 v50 v53 v56 v59 v62 v65 v68 v1096 k0_hw26 => k0_hw26.2.2.2.2.2.2.2.1
theorem k0_idx409_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v47] : Fin 2 → IVec S16 32) a x).toNat < S32x2048.size a := fun v23 v26 v29 v32 v35 v38 v41 v44 v47 v50 v53 v56 v59 v62 v65 v68 v1096 k0_hw26 => k0_hw26.2.2.2.2.2.2.2.2.1
theorem k0_idx410_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v50] : Fin 2 → IVec S16 32) a x).toNat < S32x2048.size a := fun v23 v26 v29 v32 v35 v38 v41 v44 v47 v50 v53 v56 v59 v62 v65 v68 v1096 k0_hw26 => k0_hw26.2.2.2.2.2.2.2.2.2.1
theorem k0_idx411_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v53] : Fin 2 → IVec S16 32) a x).toNat < S32x2048.size a := fun v23 v26 v29 v32 v35 v38 v41 v44 v47 v50 v53 v56 v59 v62 v65 v68 v1096 k0_hw26 => k0_hw26.2.2.2.2.2.2.2.2.2.2.1
theorem k0_idx412_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v56] : Fin 2 → IVec S16 32) a x).toNat < S32x2048.size a := fun v23 v26 v29 v32 v35 v38 v41 v44 v47 v50 v53 v56 v59 v62 v65 v68 v1096 k0_hw26 => k0_hw26.2.2.2.2.2.2.2.2.2.2.2.1
theorem k0_idx413_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v59] : Fin 2 → IVec S16 32) a x).toNat < S32x2048.size a := fun v23 v26 v29 v32 v35 v38 v41 v44 v47 v50 v53 v56 v59 v62 v65 v68 v1096 k0_hw26 => k0_hw26.2.2.2.2.2.2.2.2.2.2.2.2.1
theorem k0_idx414_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v62] : Fin 2 → IVec S16 32) a x).toNat < S32x2048.size a := fun v23 v26 v29 v32 v35 v38 v41 v44 v47 v50 v53 v56 v59 v62 v65 v68 v1096 k0_hw26 => k0_hw26.2.2.2.2.2.2.2.2.2.2.2.2.2.1
theorem k0_idx415_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v65] : Fin 2 → IVec S16 32) a x).toNat < S32x2048.size a := fun v23 v26 v29 v32 v35 v38 v41 v44 v47 v50 v53 v56 v59 v62 v65 v68 v1096 k0_hw26 => k0_hw26.2.2.2.2.2.2.2.2.2.2.2.2.2.2.1
theorem k0_idx416_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1096 : IVec S16 32) (k0_hw26 : k0_chk26 v23 v26 v29 v32 v35 v38 v41 v44 v47 v50 v53 v56 v59 v62 v65 v68 v1096), ∀ a x, ((![v1096, v68] : Fin 2 → IVec S16 32) a x).toNat < S32x2048.size a := fun v23 v26 v29 v32 v35 v38 v41 v44 v47 v50 v53 v56 v59 v62 v65 v68 v1096 k0_hw26 => k0_hw26.2.2.2.2.2.2.2.2.2.2.2.2.2.2.2
def k0_off45 (k0_t1 : Fin k0_t1_loop.trips) : Fin 2 → Nat :=
  let c25_i32_104 : BitVec 32 := 25#32
  let v1128 : Index := Scalar.indexCast c25_i32_104
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1129 : Index := Scalar.indexCast v20
  ![25, v1129.toNat]

def k0_chk27 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) : Prop :=
  (∀ a x, ((![v1137, v23] : Fin 2 → IVec S16 32) a x).toNat < S32x2048.size a) ∧
  (∀ a x, ((![v1137, v26] : Fin 2 → IVec S16 32) a x).toNat < S32x2048.size a) ∧
  (∀ a x, ((![v1137, v29] : Fin 2 → IVec S16 32) a x).toNat < S32x2048.size a) ∧
  (∀ a x, ((![v1137, v32] : Fin 2 → IVec S16 32) a x).toNat < S32x2048.size a) ∧
  (∀ a x, ((![v1137, v35] : Fin 2 → IVec S16 32) a x).toNat < S32x2048.size a) ∧
  (∀ a x, ((![v1137, v38] : Fin 2 → IVec S16 32) a x).toNat < S32x2048.size a) ∧
  (∀ a x, ((![v1137, v41] : Fin 2 → IVec S16 32) a x).toNat < S32x2048.size a) ∧
  (∀ a x, ((![v1137, v44] : Fin 2 → IVec S16 32) a x).toNat < S32x2048.size a) ∧
  (∀ a x, ((![v1137, v47] : Fin 2 → IVec S16 32) a x).toNat < S32x2048.size a) ∧
  (∀ a x, ((![v1137, v50] : Fin 2 → IVec S16 32) a x).toNat < S32x2048.size a) ∧
  (∀ a x, ((![v1137, v53] : Fin 2 → IVec S16 32) a x).toNat < S32x2048.size a) ∧
  (∀ a x, ((![v1137, v56] : Fin 2 → IVec S16 32) a x).toNat < S32x2048.size a) ∧
  (∀ a x, ((![v1137, v59] : Fin 2 → IVec S16 32) a x).toNat < S32x2048.size a) ∧
  (∀ a x, ((![v1137, v62] : Fin 2 → IVec S16 32) a x).toNat < S32x2048.size a) ∧
  (∀ a x, ((![v1137, v65] : Fin 2 → IVec S16 32) a x).toNat < S32x2048.size a) ∧
  (∀ a x, ((![v1137, v68] : Fin 2 → IVec S16 32) a x).toNat < S32x2048.size a)
instance k0_chk27.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32), Decidable (k0_chk27 v23 v26 v29 v32 v35 v38 v41 v44 v47 v50 v53 v56 v59 v62 v65 v68 v1137) := fun v23 v26 v29 v32 v35 v38 v41 v44 v47 v50 v53 v56 v59 v62 v65 v68 v1137 => decidable_of_iff' _ (Iff.of_eq (k0_chk27.eq_1 v23 v26 v29 v32 v35 v38 v41 v44 v47 v50 v53 v56 v59 v62 v65 v68 v1137))
theorem k0_idx417_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v23] : Fin 2 → IVec S16 32) a x).toNat < S32x2048.size a := fun v23 v26 v29 v32 v35 v38 v41 v44 v47 v50 v53 v56 v59 v62 v65 v68 v1137 k0_hw27 => k0_hw27.1
theorem k0_idx418_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v26] : Fin 2 → IVec S16 32) a x).toNat < S32x2048.size a := fun v23 v26 v29 v32 v35 v38 v41 v44 v47 v50 v53 v56 v59 v62 v65 v68 v1137 k0_hw27 => k0_hw27.2.1
theorem k0_idx419_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v29] : Fin 2 → IVec S16 32) a x).toNat < S32x2048.size a := fun v23 v26 v29 v32 v35 v38 v41 v44 v47 v50 v53 v56 v59 v62 v65 v68 v1137 k0_hw27 => k0_hw27.2.2.1
theorem k0_idx420_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v32] : Fin 2 → IVec S16 32) a x).toNat < S32x2048.size a := fun v23 v26 v29 v32 v35 v38 v41 v44 v47 v50 v53 v56 v59 v62 v65 v68 v1137 k0_hw27 => k0_hw27.2.2.2.1
theorem k0_idx421_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v35] : Fin 2 → IVec S16 32) a x).toNat < S32x2048.size a := fun v23 v26 v29 v32 v35 v38 v41 v44 v47 v50 v53 v56 v59 v62 v65 v68 v1137 k0_hw27 => k0_hw27.2.2.2.2.1
theorem k0_idx422_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v38] : Fin 2 → IVec S16 32) a x).toNat < S32x2048.size a := fun v23 v26 v29 v32 v35 v38 v41 v44 v47 v50 v53 v56 v59 v62 v65 v68 v1137 k0_hw27 => k0_hw27.2.2.2.2.2.1
theorem k0_idx423_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v41] : Fin 2 → IVec S16 32) a x).toNat < S32x2048.size a := fun v23 v26 v29 v32 v35 v38 v41 v44 v47 v50 v53 v56 v59 v62 v65 v68 v1137 k0_hw27 => k0_hw27.2.2.2.2.2.2.1
theorem k0_idx424_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v44] : Fin 2 → IVec S16 32) a x).toNat < S32x2048.size a := fun v23 v26 v29 v32 v35 v38 v41 v44 v47 v50 v53 v56 v59 v62 v65 v68 v1137 k0_hw27 => k0_hw27.2.2.2.2.2.2.2.1
theorem k0_idx425_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v47] : Fin 2 → IVec S16 32) a x).toNat < S32x2048.size a := fun v23 v26 v29 v32 v35 v38 v41 v44 v47 v50 v53 v56 v59 v62 v65 v68 v1137 k0_hw27 => k0_hw27.2.2.2.2.2.2.2.2.1
theorem k0_idx426_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v50] : Fin 2 → IVec S16 32) a x).toNat < S32x2048.size a := fun v23 v26 v29 v32 v35 v38 v41 v44 v47 v50 v53 v56 v59 v62 v65 v68 v1137 k0_hw27 => k0_hw27.2.2.2.2.2.2.2.2.2.1
theorem k0_idx427_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v53] : Fin 2 → IVec S16 32) a x).toNat < S32x2048.size a := fun v23 v26 v29 v32 v35 v38 v41 v44 v47 v50 v53 v56 v59 v62 v65 v68 v1137 k0_hw27 => k0_hw27.2.2.2.2.2.2.2.2.2.2.1
theorem k0_idx428_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v56] : Fin 2 → IVec S16 32) a x).toNat < S32x2048.size a := fun v23 v26 v29 v32 v35 v38 v41 v44 v47 v50 v53 v56 v59 v62 v65 v68 v1137 k0_hw27 => k0_hw27.2.2.2.2.2.2.2.2.2.2.2.1
theorem k0_idx429_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v59] : Fin 2 → IVec S16 32) a x).toNat < S32x2048.size a := fun v23 v26 v29 v32 v35 v38 v41 v44 v47 v50 v53 v56 v59 v62 v65 v68 v1137 k0_hw27 => k0_hw27.2.2.2.2.2.2.2.2.2.2.2.2.1
theorem k0_idx430_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v62] : Fin 2 → IVec S16 32) a x).toNat < S32x2048.size a := fun v23 v26 v29 v32 v35 v38 v41 v44 v47 v50 v53 v56 v59 v62 v65 v68 v1137 k0_hw27 => k0_hw27.2.2.2.2.2.2.2.2.2.2.2.2.2.1
theorem k0_idx431_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v65] : Fin 2 → IVec S16 32) a x).toNat < S32x2048.size a := fun v23 v26 v29 v32 v35 v38 v41 v44 v47 v50 v53 v56 v59 v62 v65 v68 v1137 k0_hw27 => k0_hw27.2.2.2.2.2.2.2.2.2.2.2.2.2.2.1
theorem k0_idx432_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1137 : IVec S16 32) (k0_hw27 : k0_chk27 v23 v26 v29 v32 v35 v38 v41 v44 v47 v50 v53 v56 v59 v62 v65 v68 v1137), ∀ a x, ((![v1137, v68] : Fin 2 → IVec S16 32) a x).toNat < S32x2048.size a := fun v23 v26 v29 v32 v35 v38 v41 v44 v47 v50 v53 v56 v59 v62 v65 v68 v1137 k0_hw27 => k0_hw27.2.2.2.2.2.2.2.2.2.2.2.2.2.2.2
def k0_off46 (k0_t1 : Fin k0_t1_loop.trips) : Fin 2 → Nat :=
  let c26_i32_107 : BitVec 32 := 26#32
  let v1169 : Index := Scalar.indexCast c26_i32_107
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1170 : Index := Scalar.indexCast v20
  ![26, v1170.toNat]

def k0_chk28 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) : Prop :=
  (∀ a x, ((![v1178, v23] : Fin 2 → IVec S16 32) a x).toNat < S32x2048.size a) ∧
  (∀ a x, ((![v1178, v26] : Fin 2 → IVec S16 32) a x).toNat < S32x2048.size a) ∧
  (∀ a x, ((![v1178, v29] : Fin 2 → IVec S16 32) a x).toNat < S32x2048.size a) ∧
  (∀ a x, ((![v1178, v32] : Fin 2 → IVec S16 32) a x).toNat < S32x2048.size a) ∧
  (∀ a x, ((![v1178, v35] : Fin 2 → IVec S16 32) a x).toNat < S32x2048.size a) ∧
  (∀ a x, ((![v1178, v38] : Fin 2 → IVec S16 32) a x).toNat < S32x2048.size a) ∧
  (∀ a x, ((![v1178, v41] : Fin 2 → IVec S16 32) a x).toNat < S32x2048.size a) ∧
  (∀ a x, ((![v1178, v44] : Fin 2 → IVec S16 32) a x).toNat < S32x2048.size a) ∧
  (∀ a x, ((![v1178, v47] : Fin 2 → IVec S16 32) a x).toNat < S32x2048.size a) ∧
  (∀ a x, ((![v1178, v50] : Fin 2 → IVec S16 32) a x).toNat < S32x2048.size a) ∧
  (∀ a x, ((![v1178, v53] : Fin 2 → IVec S16 32) a x).toNat < S32x2048.size a) ∧
  (∀ a x, ((![v1178, v56] : Fin 2 → IVec S16 32) a x).toNat < S32x2048.size a) ∧
  (∀ a x, ((![v1178, v59] : Fin 2 → IVec S16 32) a x).toNat < S32x2048.size a) ∧
  (∀ a x, ((![v1178, v62] : Fin 2 → IVec S16 32) a x).toNat < S32x2048.size a) ∧
  (∀ a x, ((![v1178, v65] : Fin 2 → IVec S16 32) a x).toNat < S32x2048.size a) ∧
  (∀ a x, ((![v1178, v68] : Fin 2 → IVec S16 32) a x).toNat < S32x2048.size a)
instance k0_chk28.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32), Decidable (k0_chk28 v23 v26 v29 v32 v35 v38 v41 v44 v47 v50 v53 v56 v59 v62 v65 v68 v1178) := fun v23 v26 v29 v32 v35 v38 v41 v44 v47 v50 v53 v56 v59 v62 v65 v68 v1178 => decidable_of_iff' _ (Iff.of_eq (k0_chk28.eq_1 v23 v26 v29 v32 v35 v38 v41 v44 v47 v50 v53 v56 v59 v62 v65 v68 v1178))
theorem k0_idx433_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v23] : Fin 2 → IVec S16 32) a x).toNat < S32x2048.size a := fun v23 v26 v29 v32 v35 v38 v41 v44 v47 v50 v53 v56 v59 v62 v65 v68 v1178 k0_hw28 => k0_hw28.1
theorem k0_idx434_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v26] : Fin 2 → IVec S16 32) a x).toNat < S32x2048.size a := fun v23 v26 v29 v32 v35 v38 v41 v44 v47 v50 v53 v56 v59 v62 v65 v68 v1178 k0_hw28 => k0_hw28.2.1
theorem k0_idx435_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v29] : Fin 2 → IVec S16 32) a x).toNat < S32x2048.size a := fun v23 v26 v29 v32 v35 v38 v41 v44 v47 v50 v53 v56 v59 v62 v65 v68 v1178 k0_hw28 => k0_hw28.2.2.1
theorem k0_idx436_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v32] : Fin 2 → IVec S16 32) a x).toNat < S32x2048.size a := fun v23 v26 v29 v32 v35 v38 v41 v44 v47 v50 v53 v56 v59 v62 v65 v68 v1178 k0_hw28 => k0_hw28.2.2.2.1
theorem k0_idx437_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v35] : Fin 2 → IVec S16 32) a x).toNat < S32x2048.size a := fun v23 v26 v29 v32 v35 v38 v41 v44 v47 v50 v53 v56 v59 v62 v65 v68 v1178 k0_hw28 => k0_hw28.2.2.2.2.1
theorem k0_idx438_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v38] : Fin 2 → IVec S16 32) a x).toNat < S32x2048.size a := fun v23 v26 v29 v32 v35 v38 v41 v44 v47 v50 v53 v56 v59 v62 v65 v68 v1178 k0_hw28 => k0_hw28.2.2.2.2.2.1
theorem k0_idx439_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v41] : Fin 2 → IVec S16 32) a x).toNat < S32x2048.size a := fun v23 v26 v29 v32 v35 v38 v41 v44 v47 v50 v53 v56 v59 v62 v65 v68 v1178 k0_hw28 => k0_hw28.2.2.2.2.2.2.1
theorem k0_idx440_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v44] : Fin 2 → IVec S16 32) a x).toNat < S32x2048.size a := fun v23 v26 v29 v32 v35 v38 v41 v44 v47 v50 v53 v56 v59 v62 v65 v68 v1178 k0_hw28 => k0_hw28.2.2.2.2.2.2.2.1
theorem k0_idx441_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v47] : Fin 2 → IVec S16 32) a x).toNat < S32x2048.size a := fun v23 v26 v29 v32 v35 v38 v41 v44 v47 v50 v53 v56 v59 v62 v65 v68 v1178 k0_hw28 => k0_hw28.2.2.2.2.2.2.2.2.1
theorem k0_idx442_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v50] : Fin 2 → IVec S16 32) a x).toNat < S32x2048.size a := fun v23 v26 v29 v32 v35 v38 v41 v44 v47 v50 v53 v56 v59 v62 v65 v68 v1178 k0_hw28 => k0_hw28.2.2.2.2.2.2.2.2.2.1
theorem k0_idx443_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v53] : Fin 2 → IVec S16 32) a x).toNat < S32x2048.size a := fun v23 v26 v29 v32 v35 v38 v41 v44 v47 v50 v53 v56 v59 v62 v65 v68 v1178 k0_hw28 => k0_hw28.2.2.2.2.2.2.2.2.2.2.1
theorem k0_idx444_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v56] : Fin 2 → IVec S16 32) a x).toNat < S32x2048.size a := fun v23 v26 v29 v32 v35 v38 v41 v44 v47 v50 v53 v56 v59 v62 v65 v68 v1178 k0_hw28 => k0_hw28.2.2.2.2.2.2.2.2.2.2.2.1
theorem k0_idx445_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v59] : Fin 2 → IVec S16 32) a x).toNat < S32x2048.size a := fun v23 v26 v29 v32 v35 v38 v41 v44 v47 v50 v53 v56 v59 v62 v65 v68 v1178 k0_hw28 => k0_hw28.2.2.2.2.2.2.2.2.2.2.2.2.1
theorem k0_idx446_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v62] : Fin 2 → IVec S16 32) a x).toNat < S32x2048.size a := fun v23 v26 v29 v32 v35 v38 v41 v44 v47 v50 v53 v56 v59 v62 v65 v68 v1178 k0_hw28 => k0_hw28.2.2.2.2.2.2.2.2.2.2.2.2.2.1
theorem k0_idx447_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v65] : Fin 2 → IVec S16 32) a x).toNat < S32x2048.size a := fun v23 v26 v29 v32 v35 v38 v41 v44 v47 v50 v53 v56 v59 v62 v65 v68 v1178 k0_hw28 => k0_hw28.2.2.2.2.2.2.2.2.2.2.2.2.2.2.1
theorem k0_idx448_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1178 : IVec S16 32) (k0_hw28 : k0_chk28 v23 v26 v29 v32 v35 v38 v41 v44 v47 v50 v53 v56 v59 v62 v65 v68 v1178), ∀ a x, ((![v1178, v68] : Fin 2 → IVec S16 32) a x).toNat < S32x2048.size a := fun v23 v26 v29 v32 v35 v38 v41 v44 v47 v50 v53 v56 v59 v62 v65 v68 v1178 k0_hw28 => k0_hw28.2.2.2.2.2.2.2.2.2.2.2.2.2.2.2
def k0_off47 (k0_t1 : Fin k0_t1_loop.trips) : Fin 2 → Nat :=
  let c27_i32_110 : BitVec 32 := 27#32
  let v1210 : Index := Scalar.indexCast c27_i32_110
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1211 : Index := Scalar.indexCast v20
  ![27, v1211.toNat]

def k0_chk29 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) : Prop :=
  (∀ a x, ((![v1219, v23] : Fin 2 → IVec S16 32) a x).toNat < S32x2048.size a) ∧
  (∀ a x, ((![v1219, v26] : Fin 2 → IVec S16 32) a x).toNat < S32x2048.size a) ∧
  (∀ a x, ((![v1219, v29] : Fin 2 → IVec S16 32) a x).toNat < S32x2048.size a) ∧
  (∀ a x, ((![v1219, v32] : Fin 2 → IVec S16 32) a x).toNat < S32x2048.size a) ∧
  (∀ a x, ((![v1219, v35] : Fin 2 → IVec S16 32) a x).toNat < S32x2048.size a) ∧
  (∀ a x, ((![v1219, v38] : Fin 2 → IVec S16 32) a x).toNat < S32x2048.size a) ∧
  (∀ a x, ((![v1219, v41] : Fin 2 → IVec S16 32) a x).toNat < S32x2048.size a) ∧
  (∀ a x, ((![v1219, v44] : Fin 2 → IVec S16 32) a x).toNat < S32x2048.size a) ∧
  (∀ a x, ((![v1219, v47] : Fin 2 → IVec S16 32) a x).toNat < S32x2048.size a) ∧
  (∀ a x, ((![v1219, v50] : Fin 2 → IVec S16 32) a x).toNat < S32x2048.size a) ∧
  (∀ a x, ((![v1219, v53] : Fin 2 → IVec S16 32) a x).toNat < S32x2048.size a) ∧
  (∀ a x, ((![v1219, v56] : Fin 2 → IVec S16 32) a x).toNat < S32x2048.size a) ∧
  (∀ a x, ((![v1219, v59] : Fin 2 → IVec S16 32) a x).toNat < S32x2048.size a) ∧
  (∀ a x, ((![v1219, v62] : Fin 2 → IVec S16 32) a x).toNat < S32x2048.size a) ∧
  (∀ a x, ((![v1219, v65] : Fin 2 → IVec S16 32) a x).toNat < S32x2048.size a) ∧
  (∀ a x, ((![v1219, v68] : Fin 2 → IVec S16 32) a x).toNat < S32x2048.size a)
instance k0_chk29.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32), Decidable (k0_chk29 v23 v26 v29 v32 v35 v38 v41 v44 v47 v50 v53 v56 v59 v62 v65 v68 v1219) := fun v23 v26 v29 v32 v35 v38 v41 v44 v47 v50 v53 v56 v59 v62 v65 v68 v1219 => decidable_of_iff' _ (Iff.of_eq (k0_chk29.eq_1 v23 v26 v29 v32 v35 v38 v41 v44 v47 v50 v53 v56 v59 v62 v65 v68 v1219))
theorem k0_idx449_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v23] : Fin 2 → IVec S16 32) a x).toNat < S32x2048.size a := fun v23 v26 v29 v32 v35 v38 v41 v44 v47 v50 v53 v56 v59 v62 v65 v68 v1219 k0_hw29 => k0_hw29.1
theorem k0_idx450_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v26] : Fin 2 → IVec S16 32) a x).toNat < S32x2048.size a := fun v23 v26 v29 v32 v35 v38 v41 v44 v47 v50 v53 v56 v59 v62 v65 v68 v1219 k0_hw29 => k0_hw29.2.1
theorem k0_idx451_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v29] : Fin 2 → IVec S16 32) a x).toNat < S32x2048.size a := fun v23 v26 v29 v32 v35 v38 v41 v44 v47 v50 v53 v56 v59 v62 v65 v68 v1219 k0_hw29 => k0_hw29.2.2.1
theorem k0_idx452_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v32] : Fin 2 → IVec S16 32) a x).toNat < S32x2048.size a := fun v23 v26 v29 v32 v35 v38 v41 v44 v47 v50 v53 v56 v59 v62 v65 v68 v1219 k0_hw29 => k0_hw29.2.2.2.1
theorem k0_idx453_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v35] : Fin 2 → IVec S16 32) a x).toNat < S32x2048.size a := fun v23 v26 v29 v32 v35 v38 v41 v44 v47 v50 v53 v56 v59 v62 v65 v68 v1219 k0_hw29 => k0_hw29.2.2.2.2.1
theorem k0_idx454_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v38] : Fin 2 → IVec S16 32) a x).toNat < S32x2048.size a := fun v23 v26 v29 v32 v35 v38 v41 v44 v47 v50 v53 v56 v59 v62 v65 v68 v1219 k0_hw29 => k0_hw29.2.2.2.2.2.1
theorem k0_idx455_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v41] : Fin 2 → IVec S16 32) a x).toNat < S32x2048.size a := fun v23 v26 v29 v32 v35 v38 v41 v44 v47 v50 v53 v56 v59 v62 v65 v68 v1219 k0_hw29 => k0_hw29.2.2.2.2.2.2.1
theorem k0_idx456_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v44] : Fin 2 → IVec S16 32) a x).toNat < S32x2048.size a := fun v23 v26 v29 v32 v35 v38 v41 v44 v47 v50 v53 v56 v59 v62 v65 v68 v1219 k0_hw29 => k0_hw29.2.2.2.2.2.2.2.1
theorem k0_idx457_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v47] : Fin 2 → IVec S16 32) a x).toNat < S32x2048.size a := fun v23 v26 v29 v32 v35 v38 v41 v44 v47 v50 v53 v56 v59 v62 v65 v68 v1219 k0_hw29 => k0_hw29.2.2.2.2.2.2.2.2.1
theorem k0_idx458_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v50] : Fin 2 → IVec S16 32) a x).toNat < S32x2048.size a := fun v23 v26 v29 v32 v35 v38 v41 v44 v47 v50 v53 v56 v59 v62 v65 v68 v1219 k0_hw29 => k0_hw29.2.2.2.2.2.2.2.2.2.1
theorem k0_idx459_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v53] : Fin 2 → IVec S16 32) a x).toNat < S32x2048.size a := fun v23 v26 v29 v32 v35 v38 v41 v44 v47 v50 v53 v56 v59 v62 v65 v68 v1219 k0_hw29 => k0_hw29.2.2.2.2.2.2.2.2.2.2.1
theorem k0_idx460_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v56] : Fin 2 → IVec S16 32) a x).toNat < S32x2048.size a := fun v23 v26 v29 v32 v35 v38 v41 v44 v47 v50 v53 v56 v59 v62 v65 v68 v1219 k0_hw29 => k0_hw29.2.2.2.2.2.2.2.2.2.2.2.1
theorem k0_idx461_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v59] : Fin 2 → IVec S16 32) a x).toNat < S32x2048.size a := fun v23 v26 v29 v32 v35 v38 v41 v44 v47 v50 v53 v56 v59 v62 v65 v68 v1219 k0_hw29 => k0_hw29.2.2.2.2.2.2.2.2.2.2.2.2.1
theorem k0_idx462_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v62] : Fin 2 → IVec S16 32) a x).toNat < S32x2048.size a := fun v23 v26 v29 v32 v35 v38 v41 v44 v47 v50 v53 v56 v59 v62 v65 v68 v1219 k0_hw29 => k0_hw29.2.2.2.2.2.2.2.2.2.2.2.2.2.1
theorem k0_idx463_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v65] : Fin 2 → IVec S16 32) a x).toNat < S32x2048.size a := fun v23 v26 v29 v32 v35 v38 v41 v44 v47 v50 v53 v56 v59 v62 v65 v68 v1219 k0_hw29 => k0_hw29.2.2.2.2.2.2.2.2.2.2.2.2.2.2.1
theorem k0_idx464_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1219 : IVec S16 32) (k0_hw29 : k0_chk29 v23 v26 v29 v32 v35 v38 v41 v44 v47 v50 v53 v56 v59 v62 v65 v68 v1219), ∀ a x, ((![v1219, v68] : Fin 2 → IVec S16 32) a x).toNat < S32x2048.size a := fun v23 v26 v29 v32 v35 v38 v41 v44 v47 v50 v53 v56 v59 v62 v65 v68 v1219 k0_hw29 => k0_hw29.2.2.2.2.2.2.2.2.2.2.2.2.2.2.2
def k0_off48 (k0_t1 : Fin k0_t1_loop.trips) : Fin 2 → Nat :=
  let c28_i32_113 : BitVec 32 := 28#32
  let v1251 : Index := Scalar.indexCast c28_i32_113
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1252 : Index := Scalar.indexCast v20
  ![28, v1252.toNat]

def k0_chk30 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) : Prop :=
  (∀ a x, ((![v1260, v23] : Fin 2 → IVec S16 32) a x).toNat < S32x2048.size a) ∧
  (∀ a x, ((![v1260, v26] : Fin 2 → IVec S16 32) a x).toNat < S32x2048.size a) ∧
  (∀ a x, ((![v1260, v29] : Fin 2 → IVec S16 32) a x).toNat < S32x2048.size a) ∧
  (∀ a x, ((![v1260, v32] : Fin 2 → IVec S16 32) a x).toNat < S32x2048.size a) ∧
  (∀ a x, ((![v1260, v35] : Fin 2 → IVec S16 32) a x).toNat < S32x2048.size a) ∧
  (∀ a x, ((![v1260, v38] : Fin 2 → IVec S16 32) a x).toNat < S32x2048.size a) ∧
  (∀ a x, ((![v1260, v41] : Fin 2 → IVec S16 32) a x).toNat < S32x2048.size a) ∧
  (∀ a x, ((![v1260, v44] : Fin 2 → IVec S16 32) a x).toNat < S32x2048.size a) ∧
  (∀ a x, ((![v1260, v47] : Fin 2 → IVec S16 32) a x).toNat < S32x2048.size a) ∧
  (∀ a x, ((![v1260, v50] : Fin 2 → IVec S16 32) a x).toNat < S32x2048.size a) ∧
  (∀ a x, ((![v1260, v53] : Fin 2 → IVec S16 32) a x).toNat < S32x2048.size a) ∧
  (∀ a x, ((![v1260, v56] : Fin 2 → IVec S16 32) a x).toNat < S32x2048.size a) ∧
  (∀ a x, ((![v1260, v59] : Fin 2 → IVec S16 32) a x).toNat < S32x2048.size a) ∧
  (∀ a x, ((![v1260, v62] : Fin 2 → IVec S16 32) a x).toNat < S32x2048.size a) ∧
  (∀ a x, ((![v1260, v65] : Fin 2 → IVec S16 32) a x).toNat < S32x2048.size a) ∧
  (∀ a x, ((![v1260, v68] : Fin 2 → IVec S16 32) a x).toNat < S32x2048.size a)
instance k0_chk30.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32), Decidable (k0_chk30 v23 v26 v29 v32 v35 v38 v41 v44 v47 v50 v53 v56 v59 v62 v65 v68 v1260) := fun v23 v26 v29 v32 v35 v38 v41 v44 v47 v50 v53 v56 v59 v62 v65 v68 v1260 => decidable_of_iff' _ (Iff.of_eq (k0_chk30.eq_1 v23 v26 v29 v32 v35 v38 v41 v44 v47 v50 v53 v56 v59 v62 v65 v68 v1260))
theorem k0_idx465_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v23] : Fin 2 → IVec S16 32) a x).toNat < S32x2048.size a := fun v23 v26 v29 v32 v35 v38 v41 v44 v47 v50 v53 v56 v59 v62 v65 v68 v1260 k0_hw30 => k0_hw30.1
theorem k0_idx466_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v26] : Fin 2 → IVec S16 32) a x).toNat < S32x2048.size a := fun v23 v26 v29 v32 v35 v38 v41 v44 v47 v50 v53 v56 v59 v62 v65 v68 v1260 k0_hw30 => k0_hw30.2.1
theorem k0_idx467_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v29] : Fin 2 → IVec S16 32) a x).toNat < S32x2048.size a := fun v23 v26 v29 v32 v35 v38 v41 v44 v47 v50 v53 v56 v59 v62 v65 v68 v1260 k0_hw30 => k0_hw30.2.2.1
theorem k0_idx468_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v32] : Fin 2 → IVec S16 32) a x).toNat < S32x2048.size a := fun v23 v26 v29 v32 v35 v38 v41 v44 v47 v50 v53 v56 v59 v62 v65 v68 v1260 k0_hw30 => k0_hw30.2.2.2.1
theorem k0_idx469_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v35] : Fin 2 → IVec S16 32) a x).toNat < S32x2048.size a := fun v23 v26 v29 v32 v35 v38 v41 v44 v47 v50 v53 v56 v59 v62 v65 v68 v1260 k0_hw30 => k0_hw30.2.2.2.2.1
theorem k0_idx470_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v38] : Fin 2 → IVec S16 32) a x).toNat < S32x2048.size a := fun v23 v26 v29 v32 v35 v38 v41 v44 v47 v50 v53 v56 v59 v62 v65 v68 v1260 k0_hw30 => k0_hw30.2.2.2.2.2.1
theorem k0_idx471_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v41] : Fin 2 → IVec S16 32) a x).toNat < S32x2048.size a := fun v23 v26 v29 v32 v35 v38 v41 v44 v47 v50 v53 v56 v59 v62 v65 v68 v1260 k0_hw30 => k0_hw30.2.2.2.2.2.2.1
theorem k0_idx472_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v44] : Fin 2 → IVec S16 32) a x).toNat < S32x2048.size a := fun v23 v26 v29 v32 v35 v38 v41 v44 v47 v50 v53 v56 v59 v62 v65 v68 v1260 k0_hw30 => k0_hw30.2.2.2.2.2.2.2.1
theorem k0_idx473_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v47] : Fin 2 → IVec S16 32) a x).toNat < S32x2048.size a := fun v23 v26 v29 v32 v35 v38 v41 v44 v47 v50 v53 v56 v59 v62 v65 v68 v1260 k0_hw30 => k0_hw30.2.2.2.2.2.2.2.2.1
theorem k0_idx474_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v50] : Fin 2 → IVec S16 32) a x).toNat < S32x2048.size a := fun v23 v26 v29 v32 v35 v38 v41 v44 v47 v50 v53 v56 v59 v62 v65 v68 v1260 k0_hw30 => k0_hw30.2.2.2.2.2.2.2.2.2.1
theorem k0_idx475_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v53] : Fin 2 → IVec S16 32) a x).toNat < S32x2048.size a := fun v23 v26 v29 v32 v35 v38 v41 v44 v47 v50 v53 v56 v59 v62 v65 v68 v1260 k0_hw30 => k0_hw30.2.2.2.2.2.2.2.2.2.2.1
theorem k0_idx476_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v56] : Fin 2 → IVec S16 32) a x).toNat < S32x2048.size a := fun v23 v26 v29 v32 v35 v38 v41 v44 v47 v50 v53 v56 v59 v62 v65 v68 v1260 k0_hw30 => k0_hw30.2.2.2.2.2.2.2.2.2.2.2.1
theorem k0_idx477_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v59] : Fin 2 → IVec S16 32) a x).toNat < S32x2048.size a := fun v23 v26 v29 v32 v35 v38 v41 v44 v47 v50 v53 v56 v59 v62 v65 v68 v1260 k0_hw30 => k0_hw30.2.2.2.2.2.2.2.2.2.2.2.2.1
theorem k0_idx478_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v62] : Fin 2 → IVec S16 32) a x).toNat < S32x2048.size a := fun v23 v26 v29 v32 v35 v38 v41 v44 v47 v50 v53 v56 v59 v62 v65 v68 v1260 k0_hw30 => k0_hw30.2.2.2.2.2.2.2.2.2.2.2.2.2.1
theorem k0_idx479_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v65] : Fin 2 → IVec S16 32) a x).toNat < S32x2048.size a := fun v23 v26 v29 v32 v35 v38 v41 v44 v47 v50 v53 v56 v59 v62 v65 v68 v1260 k0_hw30 => k0_hw30.2.2.2.2.2.2.2.2.2.2.2.2.2.2.1
theorem k0_idx480_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1260 : IVec S16 32) (k0_hw30 : k0_chk30 v23 v26 v29 v32 v35 v38 v41 v44 v47 v50 v53 v56 v59 v62 v65 v68 v1260), ∀ a x, ((![v1260, v68] : Fin 2 → IVec S16 32) a x).toNat < S32x2048.size a := fun v23 v26 v29 v32 v35 v38 v41 v44 v47 v50 v53 v56 v59 v62 v65 v68 v1260 k0_hw30 => k0_hw30.2.2.2.2.2.2.2.2.2.2.2.2.2.2.2
def k0_off49 (k0_t1 : Fin k0_t1_loop.trips) : Fin 2 → Nat :=
  let c29_i32_116 : BitVec 32 := 29#32
  let v1292 : Index := Scalar.indexCast c29_i32_116
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1293 : Index := Scalar.indexCast v20
  ![29, v1293.toNat]

def k0_chk31 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) : Prop :=
  (∀ a x, ((![v1301, v23] : Fin 2 → IVec S16 32) a x).toNat < S32x2048.size a) ∧
  (∀ a x, ((![v1301, v26] : Fin 2 → IVec S16 32) a x).toNat < S32x2048.size a) ∧
  (∀ a x, ((![v1301, v29] : Fin 2 → IVec S16 32) a x).toNat < S32x2048.size a) ∧
  (∀ a x, ((![v1301, v32] : Fin 2 → IVec S16 32) a x).toNat < S32x2048.size a) ∧
  (∀ a x, ((![v1301, v35] : Fin 2 → IVec S16 32) a x).toNat < S32x2048.size a) ∧
  (∀ a x, ((![v1301, v38] : Fin 2 → IVec S16 32) a x).toNat < S32x2048.size a) ∧
  (∀ a x, ((![v1301, v41] : Fin 2 → IVec S16 32) a x).toNat < S32x2048.size a) ∧
  (∀ a x, ((![v1301, v44] : Fin 2 → IVec S16 32) a x).toNat < S32x2048.size a) ∧
  (∀ a x, ((![v1301, v47] : Fin 2 → IVec S16 32) a x).toNat < S32x2048.size a) ∧
  (∀ a x, ((![v1301, v50] : Fin 2 → IVec S16 32) a x).toNat < S32x2048.size a) ∧
  (∀ a x, ((![v1301, v53] : Fin 2 → IVec S16 32) a x).toNat < S32x2048.size a) ∧
  (∀ a x, ((![v1301, v56] : Fin 2 → IVec S16 32) a x).toNat < S32x2048.size a) ∧
  (∀ a x, ((![v1301, v59] : Fin 2 → IVec S16 32) a x).toNat < S32x2048.size a) ∧
  (∀ a x, ((![v1301, v62] : Fin 2 → IVec S16 32) a x).toNat < S32x2048.size a) ∧
  (∀ a x, ((![v1301, v65] : Fin 2 → IVec S16 32) a x).toNat < S32x2048.size a) ∧
  (∀ a x, ((![v1301, v68] : Fin 2 → IVec S16 32) a x).toNat < S32x2048.size a)
instance k0_chk31.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32), Decidable (k0_chk31 v23 v26 v29 v32 v35 v38 v41 v44 v47 v50 v53 v56 v59 v62 v65 v68 v1301) := fun v23 v26 v29 v32 v35 v38 v41 v44 v47 v50 v53 v56 v59 v62 v65 v68 v1301 => decidable_of_iff' _ (Iff.of_eq (k0_chk31.eq_1 v23 v26 v29 v32 v35 v38 v41 v44 v47 v50 v53 v56 v59 v62 v65 v68 v1301))
theorem k0_idx481_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v23] : Fin 2 → IVec S16 32) a x).toNat < S32x2048.size a := fun v23 v26 v29 v32 v35 v38 v41 v44 v47 v50 v53 v56 v59 v62 v65 v68 v1301 k0_hw31 => k0_hw31.1
theorem k0_idx482_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v26] : Fin 2 → IVec S16 32) a x).toNat < S32x2048.size a := fun v23 v26 v29 v32 v35 v38 v41 v44 v47 v50 v53 v56 v59 v62 v65 v68 v1301 k0_hw31 => k0_hw31.2.1
theorem k0_idx483_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v29] : Fin 2 → IVec S16 32) a x).toNat < S32x2048.size a := fun v23 v26 v29 v32 v35 v38 v41 v44 v47 v50 v53 v56 v59 v62 v65 v68 v1301 k0_hw31 => k0_hw31.2.2.1
theorem k0_idx484_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v32] : Fin 2 → IVec S16 32) a x).toNat < S32x2048.size a := fun v23 v26 v29 v32 v35 v38 v41 v44 v47 v50 v53 v56 v59 v62 v65 v68 v1301 k0_hw31 => k0_hw31.2.2.2.1
theorem k0_idx485_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v35] : Fin 2 → IVec S16 32) a x).toNat < S32x2048.size a := fun v23 v26 v29 v32 v35 v38 v41 v44 v47 v50 v53 v56 v59 v62 v65 v68 v1301 k0_hw31 => k0_hw31.2.2.2.2.1
theorem k0_idx486_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v38] : Fin 2 → IVec S16 32) a x).toNat < S32x2048.size a := fun v23 v26 v29 v32 v35 v38 v41 v44 v47 v50 v53 v56 v59 v62 v65 v68 v1301 k0_hw31 => k0_hw31.2.2.2.2.2.1
theorem k0_idx487_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v41] : Fin 2 → IVec S16 32) a x).toNat < S32x2048.size a := fun v23 v26 v29 v32 v35 v38 v41 v44 v47 v50 v53 v56 v59 v62 v65 v68 v1301 k0_hw31 => k0_hw31.2.2.2.2.2.2.1
theorem k0_idx488_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v44] : Fin 2 → IVec S16 32) a x).toNat < S32x2048.size a := fun v23 v26 v29 v32 v35 v38 v41 v44 v47 v50 v53 v56 v59 v62 v65 v68 v1301 k0_hw31 => k0_hw31.2.2.2.2.2.2.2.1
theorem k0_idx489_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v47] : Fin 2 → IVec S16 32) a x).toNat < S32x2048.size a := fun v23 v26 v29 v32 v35 v38 v41 v44 v47 v50 v53 v56 v59 v62 v65 v68 v1301 k0_hw31 => k0_hw31.2.2.2.2.2.2.2.2.1
theorem k0_idx490_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v50] : Fin 2 → IVec S16 32) a x).toNat < S32x2048.size a := fun v23 v26 v29 v32 v35 v38 v41 v44 v47 v50 v53 v56 v59 v62 v65 v68 v1301 k0_hw31 => k0_hw31.2.2.2.2.2.2.2.2.2.1
theorem k0_idx491_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v53] : Fin 2 → IVec S16 32) a x).toNat < S32x2048.size a := fun v23 v26 v29 v32 v35 v38 v41 v44 v47 v50 v53 v56 v59 v62 v65 v68 v1301 k0_hw31 => k0_hw31.2.2.2.2.2.2.2.2.2.2.1
theorem k0_idx492_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v56] : Fin 2 → IVec S16 32) a x).toNat < S32x2048.size a := fun v23 v26 v29 v32 v35 v38 v41 v44 v47 v50 v53 v56 v59 v62 v65 v68 v1301 k0_hw31 => k0_hw31.2.2.2.2.2.2.2.2.2.2.2.1
theorem k0_idx493_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v59] : Fin 2 → IVec S16 32) a x).toNat < S32x2048.size a := fun v23 v26 v29 v32 v35 v38 v41 v44 v47 v50 v53 v56 v59 v62 v65 v68 v1301 k0_hw31 => k0_hw31.2.2.2.2.2.2.2.2.2.2.2.2.1
theorem k0_idx494_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v62] : Fin 2 → IVec S16 32) a x).toNat < S32x2048.size a := fun v23 v26 v29 v32 v35 v38 v41 v44 v47 v50 v53 v56 v59 v62 v65 v68 v1301 k0_hw31 => k0_hw31.2.2.2.2.2.2.2.2.2.2.2.2.2.1
theorem k0_idx495_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v65] : Fin 2 → IVec S16 32) a x).toNat < S32x2048.size a := fun v23 v26 v29 v32 v35 v38 v41 v44 v47 v50 v53 v56 v59 v62 v65 v68 v1301 k0_hw31 => k0_hw31.2.2.2.2.2.2.2.2.2.2.2.2.2.2.1
theorem k0_idx496_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1301 : IVec S16 32) (k0_hw31 : k0_chk31 v23 v26 v29 v32 v35 v38 v41 v44 v47 v50 v53 v56 v59 v62 v65 v68 v1301), ∀ a x, ((![v1301, v68] : Fin 2 → IVec S16 32) a x).toNat < S32x2048.size a := fun v23 v26 v29 v32 v35 v38 v41 v44 v47 v50 v53 v56 v59 v62 v65 v68 v1301 k0_hw31 => k0_hw31.2.2.2.2.2.2.2.2.2.2.2.2.2.2.2
def k0_off50 (k0_t1 : Fin k0_t1_loop.trips) : Fin 2 → Nat :=
  let c30_i32_119 : BitVec 32 := 30#32
  let v1333 : Index := Scalar.indexCast c30_i32_119
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1334 : Index := Scalar.indexCast v20
  ![30, v1334.toNat]

def k0_chk32 (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) : Prop :=
  (∀ a x, ((![v1342, v23] : Fin 2 → IVec S16 32) a x).toNat < S32x2048.size a) ∧
  (∀ a x, ((![v1342, v26] : Fin 2 → IVec S16 32) a x).toNat < S32x2048.size a) ∧
  (∀ a x, ((![v1342, v29] : Fin 2 → IVec S16 32) a x).toNat < S32x2048.size a) ∧
  (∀ a x, ((![v1342, v32] : Fin 2 → IVec S16 32) a x).toNat < S32x2048.size a) ∧
  (∀ a x, ((![v1342, v35] : Fin 2 → IVec S16 32) a x).toNat < S32x2048.size a) ∧
  (∀ a x, ((![v1342, v38] : Fin 2 → IVec S16 32) a x).toNat < S32x2048.size a) ∧
  (∀ a x, ((![v1342, v41] : Fin 2 → IVec S16 32) a x).toNat < S32x2048.size a) ∧
  (∀ a x, ((![v1342, v44] : Fin 2 → IVec S16 32) a x).toNat < S32x2048.size a) ∧
  (∀ a x, ((![v1342, v47] : Fin 2 → IVec S16 32) a x).toNat < S32x2048.size a) ∧
  (∀ a x, ((![v1342, v50] : Fin 2 → IVec S16 32) a x).toNat < S32x2048.size a) ∧
  (∀ a x, ((![v1342, v53] : Fin 2 → IVec S16 32) a x).toNat < S32x2048.size a) ∧
  (∀ a x, ((![v1342, v56] : Fin 2 → IVec S16 32) a x).toNat < S32x2048.size a) ∧
  (∀ a x, ((![v1342, v59] : Fin 2 → IVec S16 32) a x).toNat < S32x2048.size a) ∧
  (∀ a x, ((![v1342, v62] : Fin 2 → IVec S16 32) a x).toNat < S32x2048.size a) ∧
  (∀ a x, ((![v1342, v65] : Fin 2 → IVec S16 32) a x).toNat < S32x2048.size a) ∧
  (∀ a x, ((![v1342, v68] : Fin 2 → IVec S16 32) a x).toNat < S32x2048.size a)
instance k0_chk32.dec : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32), Decidable (k0_chk32 v23 v26 v29 v32 v35 v38 v41 v44 v47 v50 v53 v56 v59 v62 v65 v68 v1342) := fun v23 v26 v29 v32 v35 v38 v41 v44 v47 v50 v53 v56 v59 v62 v65 v68 v1342 => decidable_of_iff' _ (Iff.of_eq (k0_chk32.eq_1 v23 v26 v29 v32 v35 v38 v41 v44 v47 v50 v53 v56 v59 v62 v65 v68 v1342))
theorem k0_idx497_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v23] : Fin 2 → IVec S16 32) a x).toNat < S32x2048.size a := fun v23 v26 v29 v32 v35 v38 v41 v44 v47 v50 v53 v56 v59 v62 v65 v68 v1342 k0_hw32 => k0_hw32.1
theorem k0_idx498_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v26] : Fin 2 → IVec S16 32) a x).toNat < S32x2048.size a := fun v23 v26 v29 v32 v35 v38 v41 v44 v47 v50 v53 v56 v59 v62 v65 v68 v1342 k0_hw32 => k0_hw32.2.1
theorem k0_idx499_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v29] : Fin 2 → IVec S16 32) a x).toNat < S32x2048.size a := fun v23 v26 v29 v32 v35 v38 v41 v44 v47 v50 v53 v56 v59 v62 v65 v68 v1342 k0_hw32 => k0_hw32.2.2.1
theorem k0_idx500_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v32] : Fin 2 → IVec S16 32) a x).toNat < S32x2048.size a := fun v23 v26 v29 v32 v35 v38 v41 v44 v47 v50 v53 v56 v59 v62 v65 v68 v1342 k0_hw32 => k0_hw32.2.2.2.1
theorem k0_idx501_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v35] : Fin 2 → IVec S16 32) a x).toNat < S32x2048.size a := fun v23 v26 v29 v32 v35 v38 v41 v44 v47 v50 v53 v56 v59 v62 v65 v68 v1342 k0_hw32 => k0_hw32.2.2.2.2.1
theorem k0_idx502_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v38] : Fin 2 → IVec S16 32) a x).toNat < S32x2048.size a := fun v23 v26 v29 v32 v35 v38 v41 v44 v47 v50 v53 v56 v59 v62 v65 v68 v1342 k0_hw32 => k0_hw32.2.2.2.2.2.1
theorem k0_idx503_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v41] : Fin 2 → IVec S16 32) a x).toNat < S32x2048.size a := fun v23 v26 v29 v32 v35 v38 v41 v44 v47 v50 v53 v56 v59 v62 v65 v68 v1342 k0_hw32 => k0_hw32.2.2.2.2.2.2.1
theorem k0_idx504_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v44] : Fin 2 → IVec S16 32) a x).toNat < S32x2048.size a := fun v23 v26 v29 v32 v35 v38 v41 v44 v47 v50 v53 v56 v59 v62 v65 v68 v1342 k0_hw32 => k0_hw32.2.2.2.2.2.2.2.1
theorem k0_idx505_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v47] : Fin 2 → IVec S16 32) a x).toNat < S32x2048.size a := fun v23 v26 v29 v32 v35 v38 v41 v44 v47 v50 v53 v56 v59 v62 v65 v68 v1342 k0_hw32 => k0_hw32.2.2.2.2.2.2.2.2.1
theorem k0_idx506_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v50] : Fin 2 → IVec S16 32) a x).toNat < S32x2048.size a := fun v23 v26 v29 v32 v35 v38 v41 v44 v47 v50 v53 v56 v59 v62 v65 v68 v1342 k0_hw32 => k0_hw32.2.2.2.2.2.2.2.2.2.1
theorem k0_idx507_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v53] : Fin 2 → IVec S16 32) a x).toNat < S32x2048.size a := fun v23 v26 v29 v32 v35 v38 v41 v44 v47 v50 v53 v56 v59 v62 v65 v68 v1342 k0_hw32 => k0_hw32.2.2.2.2.2.2.2.2.2.2.1
theorem k0_idx508_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v56] : Fin 2 → IVec S16 32) a x).toNat < S32x2048.size a := fun v23 v26 v29 v32 v35 v38 v41 v44 v47 v50 v53 v56 v59 v62 v65 v68 v1342 k0_hw32 => k0_hw32.2.2.2.2.2.2.2.2.2.2.2.1
theorem k0_idx509_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v59] : Fin 2 → IVec S16 32) a x).toNat < S32x2048.size a := fun v23 v26 v29 v32 v35 v38 v41 v44 v47 v50 v53 v56 v59 v62 v65 v68 v1342 k0_hw32 => k0_hw32.2.2.2.2.2.2.2.2.2.2.2.2.1
theorem k0_idx510_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v62] : Fin 2 → IVec S16 32) a x).toNat < S32x2048.size a := fun v23 v26 v29 v32 v35 v38 v41 v44 v47 v50 v53 v56 v59 v62 v65 v68 v1342 k0_hw32 => k0_hw32.2.2.2.2.2.2.2.2.2.2.2.2.2.1
theorem k0_idx511_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v65] : Fin 2 → IVec S16 32) a x).toNat < S32x2048.size a := fun v23 v26 v29 v32 v35 v38 v41 v44 v47 v50 v53 v56 v59 v62 v65 v68 v1342 k0_hw32 => k0_hw32.2.2.2.2.2.2.2.2.2.2.2.2.2.2.1
theorem k0_idx512_inb : ∀ (v23 : IVec S16 32) (v26 : IVec S16 32) (v29 : IVec S16 32) (v32 : IVec S16 32) (v35 : IVec S16 32) (v38 : IVec S16 32) (v41 : IVec S16 32) (v44 : IVec S16 32) (v47 : IVec S16 32) (v50 : IVec S16 32) (v53 : IVec S16 32) (v56 : IVec S16 32) (v59 : IVec S16 32) (v62 : IVec S16 32) (v65 : IVec S16 32) (v68 : IVec S16 32) (v1342 : IVec S16 32) (k0_hw32 : k0_chk32 v23 v26 v29 v32 v35 v38 v41 v44 v47 v50 v53 v56 v59 v62 v65 v68 v1342), ∀ a x, ((![v1342, v68] : Fin 2 → IVec S16 32) a x).toNat < S32x2048.size a := fun v23 v26 v29 v32 v35 v38 v41 v44 v47 v50 v53 v56 v59 v62 v65 v68 v1342 k0_hw32 => k0_hw32.2.2.2.2.2.2.2.2.2.2.2.2.2.2.2
def k0_off51 (k0_t1 : Fin k0_t1_loop.trips) : Fin 2 → Nat :=
  let c31_i32_122 : BitVec 32 := 31#32
  let v1374 : Index := Scalar.indexCast c31_i32_122
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1375 : Index := Scalar.indexCast v20
  ![31, v1375.toNat]
def k0_off52 (k0_t1 : Fin k0_t1_loop.trips) : Fin 1 → Nat :=
  let c0_i32_5 : BitVec 32 := 0#32
  let c1_i32_6 : BitVec 32 := 1#32
  let arg12 : BitVec 32 := Scf.iv c0_i32_5 c1_i32_6 k0_t1
  let c16_i32 : BitVec 32 := 16#32
  let v20 : BitVec 32 := Scalar.muli arg12 c16_i32
  let v1383 : Index := Scalar.indexCast v20
  ![v1383.toNat]
def k0_off53 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r3 : BitVec 32 := 0#32
  ![v1.toNat, 0]
abbrev grid1 : Pipeline.Grid := .none

abbrev stage1_0 : Fin 1 → Memref sig .tc .vmem S8x4x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x4x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .smem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x2048x128_S8x2048x4x32 : S8x2048x128.ShapeCasts S8x2048x4x32
  transposes_S8x2048x4x32_S8x4x32x2048_0_2_3_1 : S8x2048x4x32.Transposes [0, 2, 3, 1] S8x4x32x2048
  shapeCasts_S8x4x32x2048_S32x32x2048 : S8x4x32x2048.ShapeCasts S32x32x2048
  transposes_S8x2048x16_S8x16x2048_0_2_1 : S8x2048x16.Transposes [0, 2, 1] S8x16x2048
  shapeCasts_S8x128_S32x32x1 : S8x128.ShapeCasts S32x32x1
  bcast_S32x32x1_S32x32x16_0_1_2 : S32x32x1.BroadcastsInDim S32x32x16 (![0, 1, 2] : Fin 3 → Fin S32x32x16.rank)
  squeezes_S1x32x2048_S32x2048 : S1x32x2048.Squeezes S32x2048
  squeezes_S1x16x2048_S16x2048 : S1x16x2048.Squeezes S16x2048
  squeezes_S1x32x16_S32x16 : S1x32x16.Squeezes S32x16
  h_S1x16 : 0 < S1x16.numel
  shapeCasts_S1x16_S16 : S1x16.ShapeCasts S16
  h_S32x2048 : 0 < S32x2048.numel
  inb_S32x16_S1x16_0_0 : ∀ a, (![0, 0] : Fin 2 → Nat) a + S1x16.size a ≤ S32x16.size a
  inb_S32x16_S1x16_1_0 : ∀ a, (![1, 0] : Fin 2 → Nat) a + S1x16.size a ≤ S32x16.size a
  inb_S32x16_S1x16_2_0 : ∀ a, (![2, 0] : Fin 2 → Nat) a + S1x16.size a ≤ S32x16.size a
  inb_S32x16_S1x16_3_0 : ∀ a, (![3, 0] : Fin 2 → Nat) a + S1x16.size a ≤ S32x16.size a
  inb_S32x16_S1x16_4_0 : ∀ a, (![4, 0] : Fin 2 → Nat) a + S1x16.size a ≤ S32x16.size a
  inb_S32x16_S1x16_5_0 : ∀ a, (![5, 0] : Fin 2 → Nat) a + S1x16.size a ≤ S32x16.size a
  inb_S32x16_S1x16_6_0 : ∀ a, (![6, 0] : Fin 2 → Nat) a + S1x16.size a ≤ S32x16.size a
  inb_S32x16_S1x16_7_0 : ∀ a, (![7, 0] : Fin 2 → Nat) a + S1x16.size a ≤ S32x16.size a
  inb_S32x16_S1x16_8_0 : ∀ a, (![8, 0] : Fin 2 → Nat) a + S1x16.size a ≤ S32x16.size a
  inb_S32x16_S1x16_9_0 : ∀ a, (![9, 0] : Fin 2 → Nat) a + S1x16.size a ≤ S32x16.size a
  inb_S32x16_S1x16_10_0 : ∀ a, (![10, 0] : Fin 2 → Nat) a + S1x16.size a ≤ S32x16.size a
  inb_S32x16_S1x16_11_0 : ∀ a, (![11, 0] : Fin 2 → Nat) a + S1x16.size a ≤ S32x16.size a
  inb_S32x16_S1x16_12_0 : ∀ a, (![12, 0] : Fin 2 → Nat) a + S1x16.size a ≤ S32x16.size a
  inb_S32x16_S1x16_13_0 : ∀ a, (![13, 0] : Fin 2 → Nat) a + S1x16.size a ≤ S32x16.size a
  inb_S32x16_S1x16_14_0 : ∀ a, (![14, 0] : Fin 2 → Nat) a + S1x16.size a ≤ S32x16.size a
  inb_S32x16_S1x16_15_0 : ∀ a, (![15, 0] : Fin 2 → Nat) a + S1x16.size a ≤ S32x16.size a
  inb_S32x16_S1x16_16_0 : ∀ a, (![16, 0] : Fin 2 → Nat) a + S1x16.size a ≤ S32x16.size a
  inb_S32x16_S1x16_17_0 : ∀ a, (![17, 0] : Fin 2 → Nat) a + S1x16.size a ≤ S32x16.size a
  inb_S32x16_S1x16_18_0 : ∀ a, (![18, 0] : Fin 2 → Nat) a + S1x16.size a ≤ S32x16.size a
  inb_S32x16_S1x16_19_0 : ∀ a, (![19, 0] : Fin 2 → Nat) a + S1x16.size a ≤ S32x16.size a
  inb_S32x16_S1x16_20_0 : ∀ a, (![20, 0] : Fin 2 → Nat) a + S1x16.size a ≤ S32x16.size a
  inb_S32x16_S1x16_21_0 : ∀ a, (![21, 0] : Fin 2 → Nat) a + S1x16.size a ≤ S32x16.size a
  inb_S32x16_S1x16_22_0 : ∀ a, (![22, 0] : Fin 2 → Nat) a + S1x16.size a ≤ S32x16.size a
  inb_S32x16_S1x16_23_0 : ∀ a, (![23, 0] : Fin 2 → Nat) a + S1x16.size a ≤ S32x16.size a
  inb_S32x16_S1x16_24_0 : ∀ a, (![24, 0] : Fin 2 → Nat) a + S1x16.size a ≤ S32x16.size a
  inb_S32x16_S1x16_25_0 : ∀ a, (![25, 0] : Fin 2 → Nat) a + S1x16.size a ≤ S32x16.size a
  inb_S32x16_S1x16_26_0 : ∀ a, (![26, 0] : Fin 2 → Nat) a + S1x16.size a ≤ S32x16.size a
  inb_S32x16_S1x16_27_0 : ∀ a, (![27, 0] : Fin 2 → Nat) a + S1x16.size a ≤ S32x16.size a
  inb_S32x16_S1x16_28_0 : ∀ a, (![28, 0] : Fin 2 → Nat) a + S1x16.size a ≤ S32x16.size a
  inb_S32x16_S1x16_29_0 : ∀ a, (![29, 0] : Fin 2 → Nat) a + S1x16.size a ≤ S32x16.size a
  inb_S32x16_S1x16_30_0 : ∀ a, (![30, 0] : Fin 2 → Nat) a + S1x16.size a ≤ S32x16.size a
  inb_S32x16_S1x16_31_0 : ∀ a, (![31, 0] : Fin 2 → Nat) a + S1x16.size a ≤ S32x16.size a
  h_S16 : 0 < S16.numel
  squeezes_S1x2048_S2048 : S1x2048.Squeezes S2048
  shapeCasts_S32x2048_S8x4x2048 : S32x2048.ShapeCasts S8x4x2048
  transposes_S8x2048x2_S2x8x2048_2_0_1 : S8x2048x2.Transposes [2, 0, 1] S2x8x2048
  transposes_S8x2_S2x8_1_0 : S8x2.Transposes [1, 0] S2x8
  bcast_S2x8_S2x8x1_0_1 : S2x8.BroadcastsInDim S2x8x1 (![0, 1] : Fin 2 → Fin S2x8x1.rank)
  bcast_S_S1 : S_.BroadcastsInDim S1 (![] : Fin 0 → Fin S1.rank)
  concatenates_S1_S1_S2_d0 : Shape.Concatenates [S1, S1] S2 0
  inb_S2_S1_0 : ∀ a, (![0] : Fin 1 → Nat) a + S1.size a ≤ S2.size a
  numel1_S1 : S1.numel = 1
  inb_S2_S1_1 : ∀ a, (![1] : Fin 1 → Nat) a + S1.size a ≤ S2.size a
  inb_S8x4x2048_S8x4x2048_0_0_0 : ∀ a, (![0, 0, 0] : Fin 3 → Nat) a + S8x4x2048.size a ≤ S8x4x2048.size a
  h_S8x4x2048 : 0 < S8x4x2048.numel
  shapeCasts_S8x4x2048_S8x4x2048 : S8x4x2048.ShapeCasts S8x4x2048
  reduces_S8x4x2048_S8x2048 : S8x4x2048.Reduces [1] S8x2048
  inb_S2x8x2048_S1x8x2048_0_0_0 : ∀ a, (![0, 0, 0] : Fin 3 → Nat) a + S1x8x2048.size a ≤ S2x8x2048.size a
  h_S1x8x2048 : 0 < S1x8x2048.numel
  shapeCasts_S1x8x2048_S8x2048 : S1x8x2048.ShapeCasts S8x2048
  inb_S2x8x1_S1x8x1_0_0_0 : ∀ a, (![0, 0, 0] : Fin 3 → Nat) a + S1x8x1.size a ≤ S2x8x1.size a
  h_S1x8x1 : 0 < S1x8x1.numel
  shapeCasts_S1x8x1_S8x1 : S1x8x1.ShapeCasts S8x1
  broadcasts_S8x1_S8x2048 : S8x1.Broadcasts S8x2048
  inb_S2x8x2048_S1x8x2048_1_0_0 : ∀ a, (![1, 0, 0] : Fin 3 → Nat) a + S1x8x2048.size a ≤ S2x8x2048.size a
  inb_S2x8x1_S1x8x1_1_0_0 : ∀ a, (![1, 0, 0] : Fin 3 → Nat) a + S1x8x1.size a ≤ S2x8x1.size a
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  reduces_S8x2048_S8 : S8x2048.Reduces [1] S8
  shapeCasts_S8_S8x1 : S8.ShapeCasts S8x1
  hcc0_scoped0 : 0 + S_.numel ≤ 12
  hcc0_scoped1 : 1 + S_.numel ≤ 12
  hcc0_scoped2 : 2 + S_.numel ≤ 12
  hcc0_scoped3 : 3 + S_.numel ≤ 12
  hcc0_scoped4 : 4 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x32x2048.size a ≤ S32x32x2048.size a
  k0_off2_inb : ∀ i : grid0.Coords, ∀ a, (k0_off2 i) a + S1x16x2048.size a ≤ S8x16x2048.size a
  k0_off3_inb : ∀ i : grid0.Coords, ∀ a, (k0_off3 i) a + S1x32x16.size a ≤ S32x32x16.size a
  k0_t1_ok : k0_t1_loop.OK
  k0_off4_inb : ∀ k0_t1 : Fin k0_t1_loop.trips, ∀ a, (k0_off4 k0_t1) a + S1x16.size a ≤ S16x2048.size a
  k0_off5_inb : ∀ k0_t1 : Fin k0_t1_loop.trips, ∀ a, (k0_off5 k0_t1) a + S1x16.size a ≤ S16x2048.size a
  k0_off6_inb : ∀ k0_t1 : Fin k0_t1_loop.trips, ∀ a, (k0_off6 k0_t1) a + S1x16.size a ≤ S16x2048.size a
  k0_off7_inb : ∀ k0_t1 : Fin k0_t1_loop.trips, ∀ a, (k0_off7 k0_t1) a + S1x16.size a ≤ S16x2048.size a
  k0_off8_inb : ∀ k0_t1 : Fin k0_t1_loop.trips, ∀ a, (k0_off8 k0_t1) a + S1x16.size a ≤ S16x2048.size a
  k0_off9_inb : ∀ k0_t1 : Fin k0_t1_loop.trips, ∀ a, (k0_off9 k0_t1) a + S1x16.size a ≤ S16x2048.size a
  k0_off10_inb : ∀ k0_t1 : Fin k0_t1_loop.trips, ∀ a, (k0_off10 k0_t1) a + S1x16.size a ≤ S16x2048.size a
  k0_off11_inb : ∀ k0_t1 : Fin k0_t1_loop.trips, ∀ a, (k0_off11 k0_t1) a + S1x16.size a ≤ S16x2048.size a
  k0_off12_inb : ∀ k0_t1 : Fin k0_t1_loop.trips, ∀ a, (k0_off12 k0_t1) a + S1x16.size a ≤ S16x2048.size a
  k0_off13_inb : ∀ k0_t1 : Fin k0_t1_loop.trips, ∀ a, (k0_off13 k0_t1) a + S1x16.size a ≤ S16x2048.size a
  k0_off14_inb : ∀ k0_t1 : Fin k0_t1_loop.trips, ∀ a, (k0_off14 k0_t1) a + S1x16.size a ≤ S16x2048.size a
  k0_off15_inb : ∀ k0_t1 : Fin k0_t1_loop.trips, ∀ a, (k0_off15 k0_t1) a + S1x16.size a ≤ S16x2048.size a
  k0_off16_inb : ∀ k0_t1 : Fin k0_t1_loop.trips, ∀ a, (k0_off16 k0_t1) a + S1x16.size a ≤ S16x2048.size a
  k0_off17_inb : ∀ k0_t1 : Fin k0_t1_loop.trips, ∀ a, (k0_off17 k0_t1) a + S1x16.size a ≤ S16x2048.size a
  k0_off18_inb : ∀ k0_t1 : Fin k0_t1_loop.trips, ∀ a, (k0_off18 k0_t1) a + S1x16.size a ≤ S16x2048.size a
  k0_off19_inb : ∀ k0_t1 : Fin k0_t1_loop.trips, ∀ a, (k0_off19 k0_t1) a + S1x16.size a ≤ S16x2048.size a
  k0_off20_inb : ∀ k0_t1 : Fin k0_t1_loop.trips, ∀ a, (k0_off20 k0_t1) a + S1x16.size a ≤ S32x2048.size a
  k0_off21_inb : ∀ k0_t1 : Fin k0_t1_loop.trips, ∀ a, (k0_off21 k0_t1) a + S1x16.size a ≤ S32x2048.size a
  k0_off22_inb : ∀ k0_t1 : Fin k0_t1_loop.trips, ∀ a, (k0_off22 k0_t1) a + S1x16.size a ≤ S32x2048.size a
  k0_off23_inb : ∀ k0_t1 : Fin k0_t1_loop.trips, ∀ a, (k0_off23 k0_t1) a + S1x16.size a ≤ S32x2048.size a
  k0_off24_inb : ∀ k0_t1 : Fin k0_t1_loop.trips, ∀ a, (k0_off24 k0_t1) a + S1x16.size a ≤ S32x2048.size a
  k0_off25_inb : ∀ k0_t1 : Fin k0_t1_loop.trips, ∀ a, (k0_off25 k0_t1) a + S1x16.size a ≤ S32x2048.size a
  k0_off26_inb : ∀ k0_t1 : Fin k0_t1_loop.trips, ∀ a, (k0_off26 k0_t1) a + S1x16.size a ≤ S32x2048.size a
  k0_off27_inb : ∀ k0_t1 : Fin k0_t1_loop.trips, ∀ a, (k0_off27 k0_t1) a + S1x16.size a ≤ S32x2048.size a
  k0_off28_inb : ∀ k0_t1 : Fin k0_t1_loop.trips, ∀ a, (k0_off28 k0_t1) a + S1x16.size a ≤ S32x2048.size a
  k0_off29_inb : ∀ k0_t1 : Fin k0_t1_loop.trips, ∀ a, (k0_off29 k0_t1) a + S1x16.size a ≤ S32x2048.size a
  k0_off30_inb : ∀ k0_t1 : Fin k0_t1_loop.trips, ∀ a, (k0_off30 k0_t1) a + S1x16.size a ≤ S32x2048.size a
  k0_off31_inb : ∀ k0_t1 : Fin k0_t1_loop.trips, ∀ a, (k0_off31 k0_t1) a + S1x16.size a ≤ S32x2048.size a
  k0_off32_inb : ∀ k0_t1 : Fin k0_t1_loop.trips, ∀ a, (k0_off32 k0_t1) a + S1x16.size a ≤ S32x2048.size a
  k0_off33_inb : ∀ k0_t1 : Fin k0_t1_loop.trips, ∀ a, (k0_off33 k0_t1) a + S1x16.size a ≤ S32x2048.size a
  k0_off34_inb : ∀ k0_t1 : Fin k0_t1_loop.trips, ∀ a, (k0_off34 k0_t1) a + S1x16.size a ≤ S32x2048.size a
  k0_off35_inb : ∀ k0_t1 : Fin k0_t1_loop.trips, ∀ a, (k0_off35 k0_t1) a + S1x16.size a ≤ S32x2048.size a
  k0_off36_inb : ∀ k0_t1 : Fin k0_t1_loop.trips, ∀ a, (k0_off36 k0_t1) a + S1x16.size a ≤ S32x2048.size a
  k0_off37_inb : ∀ k0_t1 : Fin k0_t1_loop.trips, ∀ a, (k0_off37 k0_t1) a + S1x16.size a ≤ S32x2048.size a
  k0_off38_inb : ∀ k0_t1 : Fin k0_t1_loop.trips, ∀ a, (k0_off38 k0_t1) a + S1x16.size a ≤ S32x2048.size a
  k0_off39_inb : ∀ k0_t1 : Fin k0_t1_loop.trips, ∀ a, (k0_off39 k0_t1) a + S1x16.size a ≤ S32x2048.size a
  k0_off40_inb : ∀ k0_t1 : Fin k0_t1_loop.trips, ∀ a, (k0_off40 k0_t1) a + S1x16.size a ≤ S32x2048.size a
  k0_off41_inb : ∀ k0_t1 : Fin k0_t1_loop.trips, ∀ a, (k0_off41 k0_t1) a + S1x16.size a ≤ S32x2048.size a
  k0_off42_inb : ∀ k0_t1 : Fin k0_t1_loop.trips, ∀ a, (k0_off42 k0_t1) a + S1x16.size a ≤ S32x2048.size a
  k0_off43_inb : ∀ k0_t1 : Fin k0_t1_loop.trips, ∀ a, (k0_off43 k0_t1) a + S1x16.size a ≤ S32x2048.size a
  k0_off44_inb : ∀ k0_t1 : Fin k0_t1_loop.trips, ∀ a, (k0_off44 k0_t1) a + S1x16.size a ≤ S32x2048.size a
  k0_off45_inb : ∀ k0_t1 : Fin k0_t1_loop.trips, ∀ a, (k0_off45 k0_t1) a + S1x16.size a ≤ S32x2048.size a
  k0_off46_inb : ∀ k0_t1 : Fin k0_t1_loop.trips, ∀ a, (k0_off46 k0_t1) a + S1x16.size a ≤ S32x2048.size a
  k0_off47_inb : ∀ k0_t1 : Fin k0_t1_loop.trips, ∀ a, (k0_off47 k0_t1) a + S1x16.size a ≤ S32x2048.size a
  k0_off48_inb : ∀ k0_t1 : Fin k0_t1_loop.trips, ∀ a, (k0_off48 k0_t1) a + S1x16.size a ≤ S32x2048.size a
  k0_off49_inb : ∀ k0_t1 : Fin k0_t1_loop.trips, ∀ a, (k0_off49 k0_t1) a + S1x16.size a ≤ S32x2048.size a
  k0_off50_inb : ∀ k0_t1 : Fin k0_t1_loop.trips, ∀ a, (k0_off50 k0_t1) a + S1x16.size a ≤ S32x2048.size a
  k0_off51_inb : ∀ k0_t1 : Fin k0_t1_loop.trips, ∀ a, (k0_off51 k0_t1) a + S1x16.size a ≤ S32x2048.size a
  k0_off52_inb : ∀ k0_t1 : Fin k0_t1_loop.trips, ∀ a, (k0_off52 k0_t1) a + S16.size a ≤ S2048.size a
  k0_off53_inb : ∀ i : grid0.Coords, ∀ a, (k0_off53 i) a + S1x2048.size a ≤ S32x2048.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4

abbrev win1_0 : Pipeline.Window sig grid1 :=
  Pipeline.Window.whole (Memref.whole main_v7) false false (stage1_0 0) (sem1_0 0) (Memref.isWhole_whole _) (hstage1_0 0)

abbrev win1_1 : Pipeline.Window sig grid1 :=
  Pipeline.Window.whole (Memref.whole main_v8) false false (stage1_1 0) (sem1_1 0) (Memref.isWhole_whole _) (hstage1_1 0)

abbrev win1_2 : Pipeline.Window sig grid1 :=
  Pipeline.Window.whole (Memref.whole main_v9) false false (stage1_2 0) (sem1_2 0) (Memref.isWhole_whole _) (hstage1_2 0)

abbrev win1_3 : Pipeline.Window sig grid1 :=
  Pipeline.Window.whole (Memref.whole main_v11) false false (stage1_3 0) (sem1_3 0) (Memref.isWhole_whole _) (hstage1_3 0)

abbrev win1_4 : Pipeline.Window sig grid1 :=
  Pipeline.Window.whole (Memref.whole main_v12) false false (stage1_4 0) (sem1_4 0) (Memref.isWhole_whole _) (hstage1_4 0)

abbrev win1_5 : Pipeline.Window sig grid1 :=
  Pipeline.Window.whole (Memref.whole main_v15) false false (stage1_5 0) (sem1_5 0) (Memref.isWhole_whole _) (hstage1_5 0)

abbrev win1_6 : Pipeline.Window sig grid1 :=
  Pipeline.Window.whole (Memref.whole main_v16) true false (stage1_6 0) (sem1_6 0) (Memref.isWhole_whole _) (hstage1_6 0)

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x128 : Shape := ⟨2, ![8, 128]⟩
abbrev S8x2048x128 : Shape := ⟨3, ![8, 2048, 128]⟩
abbrev S8x2048x16 : Shape := ⟨3, ![8, 2048, 16]⟩
abbrev S8x2048 : Shape := ⟨2, ![8, 2048]⟩
abbrev S8x2 : Shape := ⟨2, ![8, 2]⟩
abbrev S8x2048x2 : Shape := ⟨3, ![8, 2048, 2]⟩
abbrev S_ : Shape := ⟨0, ![]⟩
abbrev S8x1x128 : Shape := ⟨3, ![8, 1, 128]⟩
abbrev S8x32768 : Shape := ⟨2, ![8, 32768]⟩
abbrev S8x32768x1 : Shape := ⟨3, ![8, 32768, 1]⟩
abbrev S1 : Shape := ⟨1, ![1]⟩
abbrev S1x1x1 : Shape := ⟨3, ![1, 1, 1]⟩
abbrev S8x32768x128 : Shape := ⟨3, ![8, 32768, 128]⟩
abbrev S8x2048x16x128 : Shape := ⟨4, ![8, 2048, 16, 128]⟩
abbrev S8x2048x1x128 : Shape := ⟨4, ![8, 2048, 1, 128]⟩
abbrev S8x1x2 : Shape := ⟨3, ![8, 1, 2]⟩
abbrev S8 : Shape := ⟨1, ![8]⟩
abbrev S8x1 : Shape := ⟨2, ![8, 1]⟩

abbrev nBuf : Space → Nat
  | .hbm => 89
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x2048x128, .f32⟩
  | .hbm, ⟨2, _⟩ => ⟨S8x2048x16, .i32⟩
  | .hbm, ⟨3, _⟩ => ⟨S8x2048, .i1⟩
  | .hbm, ⟨4, _⟩ => ⟨S8x2, .f32⟩
  | .hbm, ⟨5, _⟩ => ⟨S8x2048x2, .f32⟩
  | .hbm, ⟨6, _⟩ => ⟨S_, .f32⟩
  | .hbm, ⟨7, _⟩ => ⟨S_, .f32⟩
  | .hbm, ⟨8, _⟩ => ⟨S8x1x128, .f32⟩
  | .hbm, ⟨9, _⟩ => ⟨S8x2048x128, .f32⟩
  | .hbm, ⟨10, _⟩ => ⟨S8x2048x128, .f32⟩
  | .hbm, ⟨11, _⟩ => ⟨S_, .f32⟩
  | .hbm, ⟨12, _⟩ => ⟨S8x2048, .f32⟩
  | .hbm, ⟨13, _⟩ => ⟨S8x32768, .i32⟩
  | .hbm, ⟨14, _⟩ => ⟨S8x32768x1, .i32⟩
  | .hbm, ⟨15, _⟩ => ⟨S_, .i32⟩
  | .hbm, ⟨16, _⟩ => ⟨S8x32768x1, .i32⟩
  | .hbm, ⟨17, _⟩ => ⟨S8x32768x1, .i1⟩
  | .hbm, ⟨18, _⟩ => ⟨S_, .i32⟩
  | .hbm, ⟨19, _⟩ => ⟨S8x32768x1, .i32⟩
  | .hbm, ⟨20, _⟩ => ⟨S8x32768x1, .i32⟩
  | .hbm, ⟨21, _⟩ => ⟨S8x32768x1, .i32⟩
  | .hbm, ⟨22, _⟩ => ⟨S1, .i32⟩
  | .hbm, ⟨23, _⟩ => ⟨S_, .i32⟩
  | .hbm, ⟨24, _⟩ => ⟨S8x32768x1, .i32⟩
  | .hbm, ⟨25, _⟩ => ⟨S8x32768x1, .i1⟩
  | .hbm, ⟨26, _⟩ => ⟨S1x1x1, .i32⟩
  | .hbm, ⟨27, _⟩ => ⟨S8x32768x1, .i32⟩
  | .hbm, ⟨28, _⟩ => ⟨S8x32768x1, .i1⟩
  | .hbm, ⟨29, _⟩ => ⟨S8x32768x1, .i1⟩
  | .hbm, ⟨30, _⟩ => ⟨S_, .i1⟩
  | .hbm, ⟨31, _⟩ => ⟨S8x32768, .i1⟩
  | .hbm, ⟨32, _⟩ => ⟨S8x32768x128, .f32⟩
  | .hbm, ⟨33, _⟩ => ⟨S8x32768x128, .i1⟩
  | .hbm, ⟨34, _⟩ => ⟨S_, .f32⟩
  | .hbm, ⟨35, _⟩ => ⟨S8x32768x128, .f32⟩
  | .hbm, ⟨36, _⟩ => ⟨S8x32768x128, .f32⟩
  | .hbm, ⟨37, _⟩ => ⟨S8x2048x16x128, .f32⟩
  | .hbm, ⟨38, _⟩ => ⟨S8x2048x1x128, .f32⟩
  | .hbm, ⟨39, _⟩ => ⟨S8x2048x16x128, .f32⟩
  | .hbm, ⟨40, _⟩ => ⟨S8x2048x16x128, .f32⟩
  | .hbm, ⟨41, _⟩ => ⟨S_, .f32⟩
  | .hbm, ⟨42, _⟩ => ⟨S8x2048x16, .f32⟩
  | .hbm, ⟨43, _⟩ => ⟨S_, .f32⟩
  | .hbm, ⟨44, _⟩ => ⟨S8x2048, .f32⟩
  | .hbm, ⟨45, _⟩ => ⟨S8x1x2, .f32⟩
  | .hbm, ⟨46, _⟩ => ⟨S8x2048x2, .f32⟩
  | .hbm, ⟨47, _⟩ => ⟨S8x2048x2, .f32⟩
  | .hbm, ⟨48, _⟩ => ⟨S8x2048x2, .f32⟩
  | .hbm, ⟨49, _⟩ => ⟨S_, .f32⟩
  | .hbm, ⟨50, _⟩ => ⟨S8x2048, .f32⟩
  | .hbm, ⟨51, _⟩ => ⟨S8x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8x2048, .f32⟩
  | .hbm, ⟨65, _⟩ => ⟨S8x2048, .f32⟩
  | .hbm, ⟨66, _⟩ => ⟨S8x2048, .f32⟩
  | .hbm, ⟨67, _⟩ => ⟨S8x2048, .f32⟩
  | .hbm, ⟨68, _⟩ => ⟨S8x2048, .f32⟩
  | .hbm, ⟨69, _⟩ => ⟨S8x2048, .f32⟩
  | .hbm, ⟨70, _⟩ => ⟨S_, .f32⟩
  | .hbm, ⟨71, _⟩ => ⟨S_, .f32⟩
  | .hbm, ⟨72, _⟩ => ⟨S8x2048, .f32⟩
  | .hbm, ⟨73, _⟩ => ⟨S8x2048, .f32⟩
  | .hbm, ⟨74, _⟩ => ⟨S_, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8x1, .f32⟩
  | .hbm, ⟨80, _⟩ => ⟨S8x2048, .f32⟩
  | .hbm, ⟨81, _⟩ => ⟨S8x2048, .f32⟩
  | .hbm, ⟨82, _⟩ => ⟨S8x2048, .f32⟩
  | .hbm, ⟨83, _⟩ => ⟨S_, .f32⟩
  | .hbm, ⟨84, _⟩ => ⟨S8, .f32⟩
  | .hbm, ⟨85, _⟩ => ⟨S8x1, .f32⟩
  | .hbm, ⟨86, _⟩ => ⟨S8x1, .f32⟩
  | .hbm, ⟨87, _⟩ => ⟨S8x2048, .f32⟩
  | .hbm, ⟨88, _⟩ => ⟨S8x2048, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_cst_3 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v19 : Ref sig .tc := ⟨.hbm, 57, rfl⟩
abbrev main_cst_5 : Ref sig .tc := ⟨.hbm, 58, rfl⟩
abbrev main_cst_6 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_7 : Ref sig .tc := ⟨.hbm, 70, rfl⟩
abbrev main_call3_v0 : Ref sig .tc := ⟨.hbm, 71, rfl⟩
abbrev main_call3_v1 : Ref sig .tc := ⟨.hbm, 72, rfl⟩
abbrev main_v27 : Ref sig .tc := ⟨.hbm, 73, rfl⟩
abbrev main_call4_cst : Ref sig .tc := ⟨.hbm, 74, rfl⟩
abbrev main_call4_v0 : Ref sig .tc := ⟨.hbm, 75, rfl⟩
abbrev main_call4_cst_0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_v6 : Ref sig .tc := ⟨.hbm, 82, rfl⟩
abbrev main_call4_cst_1 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_v28 : Ref sig .tc := ⟨.hbm, 88, rfl⟩

abbrev nD : Nat := 1
abbrev τ : Topo := Topo.v7x

variable {F : FTy → Type} [FloatOps F]

class Facts₀ : Prop where
  bcast_S8x128_S8x1x128_0_2 : S8x128.BroadcastsInDim S8x1x128 (![0, 2] : Fin 2 → Fin S8x1x128.rank)
  bcast_S8x1x128_S8x2048x128_0_1_2 : S8x1x128.BroadcastsInDim S8x2048x128 (![0, 1, 2] : Fin 3 → Fin S8x2048x128.rank)
  reducesTo_S8x2048x128_S8x2048_d2 : S8x2048x128.ReducesTo [2] S8x2048
  h_S_ : 0 < S_.numel
  shapeCasts_S8x2048x16_S8x32768 : S8x2048x16.ShapeCasts S8x32768
  bcast_S8x32768_S8x32768x1_0_1 : S8x32768.BroadcastsInDim S8x32768x1 (![0, 1] : Fin 2 → Fin S8x32768x1.rank)
  bcast_S_S8x32768x1 : S_.BroadcastsInDim S8x32768x1 (![] : Fin 0 → Fin S8x32768x1.rank)
  bcast_S1_S1x1x1_2 : S1.BroadcastsInDim S1x1x1 (![2] : Fin 1 → Fin S1x1x1.rank)
  bcast_S1x1x1_S8x32768x1_0_1_2 : S1x1x1.BroadcastsInDim S8x32768x1 (![0, 1, 2] : Fin 3 → Fin S8x32768x1.rank)
  reducesTo_S8x32768x1_S8x32768_d2 : S8x32768x1.ReducesTo [2] S8x32768
  bcast_S8x32768_S8x32768x128_0_1 : S8x32768.BroadcastsInDim S8x32768x128 (![0, 1] : Fin 2 → Fin S8x32768x128.rank)
  bcast_S_S8x32768x128 : S_.BroadcastsInDim S8x32768x128 (![] : Fin 0 → Fin S8x32768x128.rank)
  shapeCasts_S8x32768x128_S8x2048x16x128 : S8x32768x128.ShapeCasts S8x2048x16x128
  bcast_S8x2048x128_S8x2048x1x128_0_1_3 : S8x2048x128.BroadcastsInDim S8x2048x1x128 (![0, 1, 3] : Fin 3 → Fin S8x2048x1x128.rank)
  bcast_S8x2048x1x128_S8x2048x16x128_0_1_2_3 : S8x2048x1x128.BroadcastsInDim S8x2048x16x128 (![0, 1, 2, 3] : Fin 4 → Fin S8x2048x16x128.rank)
  reducesTo_S8x2048x16x128_S8x2048x16_d3 : S8x2048x16x128.ReducesTo [3] S8x2048x16
  reducesTo_S8x2048x16_S8x2048_d2 : S8x2048x16.ReducesTo [2] S8x2048
  bcast_S8x2_S8x1x2_0_2 : S8x2.BroadcastsInDim S8x1x2 (![0, 2] : Fin 2 → Fin S8x1x2.rank)
  bcast_S8x1x2_S8x2048x2_0_1_2 : S8x1x2.BroadcastsInDim S8x2048x2 (![0, 1, 2] : Fin 3 → Fin S8x2048x2.rank)
  reducesTo_S8x2048x2_S8x2048_d2 : S8x2048x2.ReducesTo [2] S8x2048
  bcast_S_S8x2048 : S_.BroadcastsInDim S8x2048 (![] : Fin 0 → Fin S8x2048.rank)
  reducesTo_S8x2048_S8_d1 : S8x2048.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x2048_0_1 : S8x1.BroadcastsInDim S8x2048 (![0, 1] : Fin 2 → Fin S8x2048.rank)
  gather_S8x2048x128_S8x32768x1_S8x32768x128_2_1_0_0_1_2_11128_wf : GatherDims.WF S8x2048x128 S8x32768x1 S8x32768x128 [2] [1] [0] [1] [0] 2 ![1, 1, 128]

variable [Facts₀]

def gather_S8x2048x128_S8x32768x1_S8x32768x128_2_1_0_0_1_2_11128 : GatherDims S8x2048x128 S8x32768x1 S8x32768x128 where
  offsetDims := [2]
  collapsedSliceDims := [1]
  operandBatchingDims := [0]
  startIndicesBatchingDims := [0]
  startIndexMap := [1]
  indexVectorDim := 2
  sliceSizes := ![1, 1, 128]
  wf := gather_S8x2048x128_S8x32768x1_S8x32768x128_2_1_0_0_1_2_11128_wf

class Facts : Prop extends Facts₀ where

variable [Facts]
-- ==== Proof.Setup.lean ====
/-
  The program as the SparseCore launch theorem sees it, shared by every module of this proof: the label table of its one
  TensorCore pipeline call, the SparseCore configuration of its one vector-subcore call, the body table, the variants, the
  configuration's side facts, and the resource algebra — the handshakes' rounds, the pipeline's staging cells' rounds, and
  the counters of the subcores' own local transfers.
-/
import proofs.«209090_g87076166960129_cont_sun_c4_39_31_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209090_g87076166960129_cont_sun_c4_39_31_alg».proof.Proof.Gen.KernelIdeal
import proofs.«209090_g87076166960129_cont_sun_c4_39_31_alg».proof.Proof.Gen.KernelIdeal.Skeleton
import proofs.«209090_g87076166960129_cont_sun_c4_39_31_alg».proof.Proof.Gen.KernelIdeal.Launch
import proofs.«209090_g87076166960129_cont_sun_c4_39_31_alg».proof.Proof.Gen.KernelIdeal.Points

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels: the kernels' own and the one pipeline's. -/
abbrev ΛP : Labels := Pipeline.Sig Λ₀ (Fin 1) fun p => (pcfgs (F := F) p).Adm
/-- The one SparseCore call: sixteen vector subcores on each of two SparseCores. -/
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's staging cells' rounds. -/
abbrev UR : Type := URounds (GSem nD τ sig) Unit
/-- All of it: the counters of the subcores' local transfers are found in the right factor by instance. -/
abbrev UU : Type := UH × (UR × Counters)

/-- The handshakes' rounds library, the left factor. -/
abbrev EH : Emb UH (MT nD τ sig (HIx 1) (Elt F) ℕ UU ℕ) := embL
/-- The pipeline's rounds library: the left factor of the right factor. -/
def ER : Emb UR (MT nD τ sig (HIx 1) (Elt F) ℕ UU ℕ) :=
  (Emb.inl : Emb UR (UR × Counters)).trans embR

instance ER_landsIn : (ER : Emb UR (MT nD τ sig (HIx 1) (Elt F) ℕ UU ℕ)).LandsIn (upEmb : UEmb _ (MT nD τ sig (HIx 1) (Elt F) ℕ UU ℕ)) := by
  unfold ER; infer_instance

/-- A pair of the algebra, owned, is its three parts owned each through its embedding (the counters' part dropped). -/
theorem ownU_split (a : UH) (b : UR) (c : Counters) :
    (ownU ((a, (b, c)) : UU) : sProp (MT nD τ sig (HIx 1) (Elt F) ℕ UU ℕ)) ⊢ iprop(BI.own (EH a) ∗ BI.own (ER b)) := by
  iintro Hu
  ihave H := (ownU_pair a (b, c)) $$ Hu
  icases H with ⟨HH, HR⟩
  isplitl [HH]; · iexact HH
  ihave H2 := (own_pair_emb (embR (nD := nD) (τ := τ) (sig := sig) (Ix := HIx 1) (Val := Elt F) (Name := ℕ) (A := UH) (B := UR × Counters) (Lvl := ℕ)) b c) $$ HR
  icases H2 with ⟨Hb, -⟩
  unfold ER
  iexact Hb

end Cert.KernelIdeal.Setup

end
-- ==== Proof.BridgeSpec.lean ====
/- The two arrays the first stage leaves, as functions of the arguments, and the laws by which the
   reference's sums regroup into them.  Row w = 4*b + blk of either array belongs to batch b and to the
   block of 32 feature coordinates 32*blk .. 32*blk+31:
     cp(w, n) = Σ_{d<32} psi(b, n, 32*blk+d) * q(b, 32*blk+d)
     ip(w, n) = Σ_{d<32} psi(b, n, 32*blk+d) * Σ_{k<16} psi(b, nbr(b,n,k), 32*blk+d)
   where nbr(b,n,k) is the k-th neighbour index of node n, read unsigned (and capped at 2047, which the
   input domain makes the identity). -/
import Idealize.ShloMosaic.PureOps.Ideal
import Idealize.ShloMosaic.Lib.ValueIdx

noncomputable section

open scoped BigOperators

namespace Cert.Bridge

open Idealize.ShloMosaic Idealize.ShloMosaic.ValueIdx

/-- The batch of row w = 4*b + blk. -/
abbrev rowB (w : Fin 32) : Fin 8 := ⟨w.val / 4, by omega⟩
/-- The feature coordinate 32*blk + d of row w = 4*b + blk at offset d. -/
abbrev rowD (w d : Fin 32) : Fin 128 := ⟨32 * (w.val % 4) + d.val, by omega⟩
/-- Row 4*b + blk. -/
abbrev rowOf (b : Fin 8) (blk : Fin 4) : Fin 32 := ⟨4 * b.val + blk.val, by omega⟩
/-- Feature coordinate 32*blk + d. -/
abbrev featOf (blk : Fin 4) (d : Fin 32) : Fin 128 := ⟨32 * blk.val + d.val, by omega⟩

theorem rowB_rowOf (b : Fin 8) (blk : Fin 4) : rowB (rowOf b blk) = b := Fin.ext (by show (4 * b.val + blk.val) / 4 = b.val; omega)
theorem rowD_rowOf (b : Fin 8) (blk : Fin 4) (d : Fin 32) : rowD (rowOf b blk) d = featOf blk d :=
  Fin.ext (by show 32 * ((4 * b.val + blk.val) % 4) + d.val = 32 * blk.val + d.val; omega)

/-- The k-th neighbour of node n in batch b: the index word read unsigned, capped at 2047. -/
def nbr (knn : IVec ⟨3, ![8, 2048, 16]⟩ 32) (b : Fin 8) (n : Fin 2048) (k : Fin 16) : Fin 2048 :=
  ⟨min (knn (ix3 b n k)).toNat 2047, by omega⟩

/-- On indices below 2048 the cap is the identity. -/
theorem nbr_val (knn : IVec ⟨3, ![8, 2048, 16]⟩ 32) (h : ∀ i, (knn i).toNat < 2048) (b : Fin 8) (n : Fin 2048)
    (k : Fin 16) : (nbr knn b n k).val = (knn (ix3 b n k)).toNat := by
  have := h (ix3 b n k)
  show min (knn (ix3 b n k)).toNat 2047 = _
  omega

/-- cp(w, n) = Σ_{d<32} psi(b, n, 32*blk+d) * q(b, 32*blk+d), w = 4*b + blk. -/
def cp (q : FVec Ideal ⟨2, ![8, 128]⟩ .f32) (psi : FVec Ideal ⟨3, ![8, 2048, 128]⟩ .f32) :
    FVec Ideal ⟨2, ![32, 2048]⟩ .f32 :=
  fun i => ∑ d : Fin 32, psi (ix3 (rowB (i 0)) (i 1) (rowD (i 0) d)) * q (ix2 (rowB (i 0)) (rowD (i 0) d))

/-- ip(w, n) = Σ_{d<32} psi(b, n, 32*blk+d) * Σ_{k<16} psi(b, nbr(b,n,k), 32*blk+d), w = 4*b + blk. -/
def ip (psi : FVec Ideal ⟨3, ![8, 2048, 128]⟩ .f32) (knn : IVec ⟨3, ![8, 2048, 16]⟩ 32) :
    FVec Ideal ⟨2, ![32, 2048]⟩ .f32 :=
  fun i => ∑ d : Fin 32, psi (ix3 (rowB (i 0)) (i 1) (rowD (i 0) d)) *
    ∑ k : Fin 16, psi (ix3 (rowB (i 0)) (nbr knn (rowB (i 0)) (i 1) k) (rowD (i 0) d))

theorem cp_rowOf (q : FVec Ideal ⟨2, ![8, 128]⟩ .f32) (psi : FVec Ideal ⟨3, ![8, 2048, 128]⟩ .f32)
    (b : Fin 8) (blk : Fin 4) (n : Fin 2048) :
    cp q psi (ix2 (rowOf b blk) n) = ∑ d : Fin 32, psi (ix3 b n (featOf blk d)) * q (ix2 b (featOf blk d)) := by
  show ∑ d : Fin 32, psi (ix3 (rowB (rowOf b blk)) n (rowD (rowOf b blk) d)) *
    q (ix2 (rowB (rowOf b blk)) (rowD (rowOf b blk) d)) = _
  simp only [rowB_rowOf, rowD_rowOf]

theorem ip_rowOf (psi : FVec Ideal ⟨3, ![8, 2048, 128]⟩ .f32) (knn : IVec ⟨3, ![8, 2048, 16]⟩ 32)
    (b : Fin 8) (blk : Fin 4) (n : Fin 2048) :
    ip psi knn (ix2 (rowOf b blk) n) = ∑ d : Fin 32, psi (ix3 b n (featOf blk d)) *
      ∑ k : Fin 16, psi (ix3 b (nbr knn b n k) (featOf blk d)) := by
  show ∑ d : Fin 32, psi (ix3 (rowB (rowOf b blk)) n (rowD (rowOf b blk) d)) *
    ∑ k : Fin 16, psi (ix3 (rowB (rowOf b blk)) (nbr knn (rowB (rowOf b blk)) n k) (rowD (rowOf b blk) d)) = _
  simp only [rowB_rowOf, rowD_rowOf]

/-! ## The laws -/

/-- A sum over 128 coordinates is the sum over 4 blocks of the sums over each block's 32. -/
theorem sum_blocks {M : Type*} [AddCommMonoid M] (f : Fin 128 → M) :
    ∑ D : Fin 128, f D = ∑ blk : Fin 4, ∑ d : Fin 32, f (featOf blk d) := by
  rw [← Fintype.sum_prod_type' (fun (blk : Fin 4) (d : Fin 32) => f (featOf blk d))]
  refine (Equiv.sum_comp (finProdFinEquiv (m := 4) (n := 32)) f).symm.trans ?_
  refine Fintype.sum_congr _ _ fun p => ?_
  congr 1
  refine Fin.ext ?_
  show p.2.val + 32 * p.1.val = 32 * p.1.val + p.2.val
  omega

/-- The coercion of reals into extended reals commutes with finite sums. -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A real factor distributes over a finite sum of reals, in the extended reals. -/
theorem mul_sum_real {ι : Type*} [Fintype ι] (a : ℝ) (g : ι → ℝ) :
    (a : EReal) * ∑ k, (g k : EReal) = ∑ k, (a : EReal) * (g k : EReal) := by
  rw [← coe_sum, ← EReal.coe_mul, Finset.mul_sum, coe_sum]
  simp only [EReal.coe_mul]

/-- The same, the factors given as extended reals known to be real. -/
theorem mul_sum_of_real {ι : Type*} [Fintype ι] (a : EReal) (x : ι → EReal) (ha : ∃ r : ℝ, a = (r : EReal))
    (hx : ∀ k, ∃ r : ℝ, x k = (r : EReal)) : a * ∑ k, x k = ∑ k, a * x k := by
  obtain ⟨ar, rfl⟩ := ha
  choose g hg using hx
  obtain rfl : x = fun k => (g k : EReal) := funext hg
  exact mul_sum_real ar g

variable (q : FVec Ideal ⟨2, ![8, 128]⟩ .f32) (psi : FVec Ideal ⟨3, ![8, 2048, 128]⟩ .f32)
  (knn : IVec ⟨3, ![8, 2048, 16]⟩ 32)

/-- The context score: the sum over all 128 coordinates is the sum of the four block rows of cp. -/
theorem ctx_eq (b : Fin 8) (n : Fin 2048) :
    ∑ D : Fin 128, psi (ix3 b n D) * q (ix2 b D) = ∑ blk : Fin 4, cp q psi (ix2 (rowOf b blk) n) := by
  rw [sum_blocks]
  simp only [cp_rowOf]

/-- The interference score: Σ_k Σ_D psi(b,n,D) * psi(b,nbr k,D) is the sum of the four block rows of ip.
    The exchange of the two sums is free; pulling psi(b,n,D) out of the sum over k needs the entries real. -/
theorem intf_eq (hpsi : ∀ i, ∃ r : ℝ, psi i = (r : EReal)) (b : Fin 8) (n : Fin 2048) :
    ∑ k : Fin 16, ∑ D : Fin 128, psi (ix3 b n D) * psi (ix3 b (nbr knn b n k) D)
      = ∑ blk : Fin 4, ip psi knn (ix2 (rowOf b blk) n) := by
  rw [Finset.sum_comm, sum_blocks]
  simp only [ip_rowOf]
  refine Fintype.sum_congr _ _ fun blk => Fintype.sum_congr _ _ fun d => ?_
  exact (mul_sum_of_real _ _ (hpsi _) (fun k => hpsi _)).symm

end Cert.Bridge

end
-- ==== Proof.BridgeGlue.lean ====
/- The layout operations in front of the first stage, for any reading of the floats, each read at an index:
   psi regrouped as [32 rows, 32 coordinates, 2048 nodes] (row w = 4*b + blk holds coordinates 32*blk ..
   32*blk+31 of batch b), the neighbour indices with the node axis last, and q as [32 rows, 32 coordinates]
   repeated along 16 lanes. -/
import proofs.«209090_g87076166960129_cont_sun_c4_39_31_alg».proof.KernelIdeal
import proofs.«209090_g87076166960129_cont_sun_c4_39_31_alg».proof.Proof.Gen.KernelIdeal
import proofs.«209090_g87076166960129_cont_sun_c4_39_31_alg».proof.Proof.BridgeSpec
import Idealize.ShloMosaic.Lib.Pipeline.Value
import Idealize.ShloMosaic.Lib.ValueLayout
import Idealize.ShloMosaic.Lib.ValueIdx

noncomputable section

namespace Cert.Bridge

open Idealize.ShloMosaic Idealize.ShloMosaic.ValueIdx Cert.KernelIdeal Cert.KernelIdeal.Gen

variable {F : FTy → Type} [FloatOps F]

/-- psi as [32, 32, 2048]: [8,2048,128] → [8,2048,4,32] → [8,4,32,2048] → [32,32,2048]. -/
def g2 (psi : Vec F S8x2048x128 .f32) : Vec F S32x32x2048 .f32 :=
  shapeCast S32x32x2048
    (transpose S8x4x32x2048 [0, 2, 3, 1] (shapeCast S8x2048x4x32 psi shapeCasts_S8x2048x128_S8x2048x4x32)
      transposes_S8x2048x4x32_S8x4x32x2048_0_2_3_1)
    shapeCasts_S8x4x32x2048_S32x32x2048

/-- The neighbour indices with the node axis last: [8,2048,16] → [8,16,2048]. -/
def g3 (knn : Vec F S8x2048x16 .i32) : Vec F S8x16x2048 .i32 :=
  transpose S8x16x2048 [0, 2, 1] knn transposes_S8x2048x16_S8x16x2048_0_2_1

/-- q as [32, 32, 16]: [8,128] → [32,32,1], repeated along the last axis. -/
def g5 (q : Vec F S8x128 .f32) : Vec F S32x32x16 .f32 :=
  broadcastInDim S32x32x16 ![0, 1, 2] bcast_S32x32x1_S32x32x16_0_1_2 (shapeCast S32x32x1 q shapeCasts_S8x128_S32x32x1)

/-- Entry (w, dd, n) of the regrouped psi is psi(b, n, 32*blk + dd), w = 4*b + blk. -/
theorem g2_apply (psi : Vec F S8x2048x128 .f32) (w dd : Fin 32) (n : Fin 2048) :
    g2 psi (ix3 w dd n) = psi (ix3 (rowB w) n (rowD w dd)) := by
  unfold g2
  refine (shapeCast_apply _ shapeCasts_S8x4x32x2048_S32x32x2048 (ix3 w dd n)
    (ix4 (rowB w) (⟨w.val % 4, by omega⟩ : Fin 4) dd n)
    (by rw [Shape.rowMajor_val_four, Shape.rowMajor_val_three]
        show ((w.val / 4 * 4 + w.val % 4) * 32 + dd.val) * 2048 + n.val = (w.val * 32 + dd.val) * 2048 + n.val
        omega)).trans ?_
  refine (transpose_apply _ _ transposes_S8x2048x4x32_S8x4x32x2048_0_2_3_1
    (ix4 (rowB w) (⟨w.val % 4, by omega⟩ : Fin 4) dd n) (ix4 (rowB w) n (⟨w.val % 4, by omega⟩ : Fin 4) dd)
    (fun a => match a with | ⟨0, _⟩ => rfl | ⟨1, _⟩ => rfl | ⟨2, _⟩ => rfl | ⟨3, _⟩ => rfl)).trans ?_
  exact shapeCast_apply psi shapeCasts_S8x2048x128_S8x2048x4x32 (ix4 (rowB w) n (⟨w.val % 4, by omega⟩ : Fin 4) dd)
    (ix3 (rowB w) n (rowD w dd))
    (by rw [Shape.rowMajor_val_three, Shape.rowMajor_val_four]
        show (w.val / 4 * 2048 + n.val) * 128 + (32 * (w.val % 4) + dd.val)
          = ((w.val / 4 * 2048 + n.val) * 4 + w.val % 4) * 32 + dd.val
        omega)

/-- Entry (b, k, n) of the transposed indices is the index (b, n, k). -/
theorem g3_apply (knn : Vec F S8x2048x16 .i32) (b : Fin 8) (k : Fin 16) (n : Fin 2048) :
    g3 knn (ix3 b k n) = knn (ix3 b n k) :=
  transpose_ix3_021_apply knn transposes_S8x2048x16_S8x16x2048_0_2_1 b k n

/-- Entry (w, dd, l) of the repeated q is q(b, 32*blk + dd), w = 4*b + blk, on every lane l. -/
theorem g5_apply (q : Vec F S8x128 .f32) (w dd : Fin 32) (l : Fin 16) :
    g5 q (ix3 w dd l) = q (ix2 (rowB w) (rowD w dd)) := by
  unfold g5
  refine (broadcastInDim_apply _ bcast_S32x32x1_S32x32x16_0_1_2 _ (ix3 w dd l) (ix3 w dd (0 : Fin 1))
    (fun a => match a with
      | ⟨0, _⟩ => by show w.val = if (32 : Nat) = 1 then 0 else w.val; rw [if_neg (by decide)]
      | ⟨1, _⟩ => by show dd.val = if (32 : Nat) = 1 then 0 else dd.val; rw [if_neg (by decide)]
      | ⟨2, _⟩ => by show 0 = if (1 : Nat) = 1 then 0 else l.val; rw [if_pos rfl])).trans ?_
  exact shapeCast_apply q shapeCasts_S8x128_S32x32x1 (ix3 w dd (0 : Fin 1)) (ix2 (rowB w) (rowD w dd))
    (by rw [Shape.rowMajor_val_two, Shape.rowMajor_val_three]
        show w.val / 4 * 128 + (32 * (w.val % 4) + dd.val) = (w.val * 32 + dd.val) * 1 + 0
        omega)

/-- Indices below 2048 stay below 2048 under the transposition. -/
theorem g3_small (knn : Vec F S8x2048x16 .i32) (h : ∀ i, (knn i).toNat < 2048) : ∀ j, (g3 knn j).toNat < 2048 := by
  intro j
  obtain ⟨b, k, n, rfl⟩ : ∃ (b : Fin 8) (k : Fin 16) (n : Fin 2048), j = ix3 b k n := ⟨j 0, j 1, j 2, eq_ix3 j⟩
  rw [g3_apply]
  exact h _

end Cert.Bridge

end
-- ==== Proof.HostOps.lean ====
/-
  @main's host operations inside the TensorCore's part of the run. The TensorCore holds its 26 arrays whole as one set at a
  valuation; the six layout operations before the SparseCore call and the nine between that call and the pipeline call each
  run within the set and leave it at the fold of their results; a call's arrays are taken out of the set and put back,
  its results at what the call left; and what the two lines leave in the calls' operands is read back: psi regrouped, the
  neighbour indices with the node axis last, q repeated along the lanes for the first call, and the six operands of the
  second each as the printed operation of its operands.
-/
import proofs.«209090_g87076166960129_cont_sun_c4_39_31_alg».proof.Proof.Setup
import proofs.«209090_g87076166960129_cont_sun_c4_39_31_alg».proof.Proof.BridgeGlue
import Idealize.ShloMosaic.Lib.Pipeline.Frame

noncomputable section

namespace Cert.KernelIdeal.HostOps

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)

variable {F : FTy → Type} [FloatOps F]

local notation "𝕄" => MT nD τ sig (HIx 1) (Elt F) ℕ UU ℕ

/-! ## The arrays -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)
abbrev arg4' : DevRef τ sig := Proc.devRef .tc (main_arg4 : Ref sig .tc)
abbrev arg5' : DevRef τ sig := Proc.devRef .tc (main_arg5 : Ref sig .tc)
abbrev arg6' : DevRef τ sig := Proc.devRef .tc (main_arg6 : Ref sig .tc)
abbrev arg7' : DevRef τ sig := Proc.devRef .tc (main_arg7 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v60' : DevRef τ sig := Proc.devRef .tc (main_v6_0 : Ref sig .tc)
abbrev v61' : DevRef τ sig := Proc.devRef .tc (main_v6_1 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)
abbrev v12' : DevRef τ sig := Proc.devRef .tc (main_v12 : Ref sig .tc)
abbrev v13' : DevRef τ sig := Proc.devRef .tc (main_v13 : Ref sig .tc)
abbrev v14' : DevRef τ sig := Proc.devRef .tc (main_v14 : Ref sig .tc)
abbrev v15' : DevRef τ sig := Proc.devRef .tc (main_v15 : Ref sig .tc)
abbrev v16' : DevRef τ sig := Proc.devRef .tc (main_v16 : Ref sig .tc)

/-- The TensorCore's 26 arrays, all unscoped. -/
abbrev Sall : Finset (DevRef τ sig) :=
  {arg0', arg1', arg2', arg3', arg4', arg5', arg6', arg7', v0', v1', v2', v3', v4', v5', v60', v61', v7', v8', v9', v10', v11', v12', v13', v14', v15', v16'}

set_option maxRecDepth 8192 in
/-- The TensorCore's unscoped references are these 26. -/
theorem ucRefs_eq : Pipeline.ucRefs τ sig = Sall := by decide

/-- The launch valuation of device `d`. -/
def V0 (m : (ℓ : Loc nD τ sig) → Buf (Elt F) ℓ) (d : Dev nD) : Valuation τ sig (Elt F) := fun b => m (d, b)

omit [FloatOps F] in
/-- The arrays as the launch hands them to the TensorCore are the 26 held at the launch valuation. -/
theorem unscoped_held (m : (ℓ : Loc nD τ sig) → Buf (Elt F) ℓ) (d : Dev nD) :
    (unscopedBufs d (fun b => m ((SparseCore.T d).loc b)) : sProp 𝕄) = held (SparseCore.T d) Sall (V0 m d) := by
  rw [← ucRefs_eq]
  exact Pipeline.unscopedBufs_held d (V0 m d)

/-! ## The two lines of host operations -/

/-- The six operations before the SparseCore call. -/
abbrev opsA : List (HloOp τ sig (Elt F)) :=
  [ StableHlo.reshape main_arg1 main_v0 rfl shapeCasts_S8x2048x128_S8x2048x4x32,
    StableHlo.unary main_v0 main_v1 ((transpose S8x4x32x2048 [0, 2, 3, 1] · transposes_S8x2048x4x32_S8x4x32x2048_0_2_3_1) : (⟨S8x2048x4x32, .f32⟩ : BufTy).Contents (Elt F) → (⟨S8x4x32x2048, .f32⟩ : BufTy).Contents (Elt F)),
    StableHlo.reshape main_v1 main_v2 rfl shapeCasts_S8x4x32x2048_S32x32x2048,
    StableHlo.unary main_arg2 main_v3 ((transpose S8x16x2048 [0, 2, 1] · transposes_S8x2048x16_S8x16x2048_0_2_1) : (⟨S8x2048x16, .i32⟩ : BufTy).Contents (Elt F) → (⟨S8x16x2048, .i32⟩ : BufTy).Contents (Elt F)),
    StableHlo.reshape main_arg0 main_v4 rfl shapeCasts_S8x128_S32x32x1,
    StableHlo.unary main_v4 main_v5 (broadcastInDim S32x32x16 ![0, 1, 2] bcast_S32x32x1_S32x32x16_0_1_2 : (⟨S32x32x1, .f32⟩ : BufTy).Contents (Elt F) → (⟨S32x32x16, .f32⟩ : BufTy).Contents (Elt F)) ]

/-- The eleven operations between the SparseCore call and the pipeline call. -/
abbrev opsB : List (HloOp τ sig (Elt F)) :=
  [ StableHlo.reshape main_v6_0 main_v7 rfl shapeCasts_S32x2048_S8x4x2048,
    StableHlo.reshape main_v6_1 main_v8 rfl shapeCasts_S32x2048_S8x4x2048,
    StableHlo.unary main_arg5 main_v9 ((transpose S2x8x2048 [2, 0, 1] · transposes_S8x2048x2_S2x8x2048_2_0_1) : (⟨S8x2048x2, .f32⟩ : BufTy).Contents (Elt F) → (⟨S2x8x2048, .f32⟩ : BufTy).Contents (Elt F)),
    StableHlo.unary main_arg4 main_v10 ((transpose S2x8 [1, 0] · transposes_S8x2_S2x8_1_0) : (⟨S8x2, .f32⟩ : BufTy).Contents (Elt F) → (⟨S2x8, .f32⟩ : BufTy).Contents (Elt F)),
    StableHlo.unary main_v10 main_v11 (broadcastInDim S2x8x1 ![0, 1] bcast_S2x8_S2x8x1_0_1 : (⟨S2x8, .f32⟩ : BufTy).Contents (Elt F) → (⟨S2x8x1, .f32⟩ : BufTy).Contents (Elt F)),
    StableHlo.unary main_arg3 main_v12 (uitofp .f32 : (⟨S8x2048, .i1⟩ : BufTy).Contents (Elt F) → (⟨S8x2048, .f32⟩ : BufTy).Contents (Elt F)),
    StableHlo.unary main_arg6 main_v13 (broadcastInDim S1 ![] bcast_S_S1 : (⟨S_, .f32⟩ : BufTy).Contents (Elt F) → (⟨S1, .f32⟩ : BufTy).Contents (Elt F)),
    StableHlo.unary main_arg7 main_v14 (broadcastInDim S1 ![] bcast_S_S1 : (⟨S_, .f32⟩ : BufTy).Contents (Elt F) → (⟨S1, .f32⟩ : BufTy).Contents (Elt F)),
    StableHlo.binary main_v13 main_v14 main_v15 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

theorem opsA_sub : (opsA : List (HloOp τ sig (Elt F))).Forall fun op => op.bufs ⊆ Sall :=
  ⟨show ({arg1', v0'} : Finset (DevRef τ sig)) ⊆ Sall by decide,
    show ({v0', v1'} : Finset (DevRef τ sig)) ⊆ Sall by decide,
    show ({v1', v2'} : Finset (DevRef τ sig)) ⊆ Sall by decide,
    show ({arg2', v3'} : Finset (DevRef τ sig)) ⊆ Sall by decide,
    show ({arg0', v4'} : Finset (DevRef τ sig)) ⊆ Sall by decide,
    show ({v4', v5'} : Finset (DevRef τ sig)) ⊆ Sall by decide⟩

theorem opsB_sub : (opsB : List (HloOp τ sig (Elt F))).Forall fun op => op.bufs ⊆ Sall :=
  ⟨show ({v60', v7'} : Finset (DevRef τ sig)) ⊆ Sall by decide,
    show ({v61', v8'} : Finset (DevRef τ sig)) ⊆ Sall by decide,
    show ({arg5', v9'} : Finset (DevRef τ sig)) ⊆ Sall by decide,
    show ({arg4', v10'} : Finset (DevRef τ sig)) ⊆ Sall by decide,
    show ({v10', v11'} : Finset (DevRef τ sig)) ⊆ Sall by decide,
    show ({arg3', v12'} : Finset (DevRef τ sig)) ⊆ Sall by decide,
    show ({arg6', v13'} : Finset (DevRef τ sig)) ⊆ Sall by decide,
    show ({arg7', v14'} : Finset (DevRef τ sig)) ⊆ Sall by decide,
    show ({v13', v14', v15'} : Finset (DevRef τ sig)) ⊆ Sall by decide⟩

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

/-- A line of host statements, each continued by the return, run one after the other and then `R`: the nested
    weakest preconditions. -/
def wpLine (d : Dev nD) : List (HloOp τ sig (Elt F)) → sProp 𝕄 → sProp 𝕄
  | [], R => R
  | op :: ops, R => wp frame (wpE ((K (F := F)).defs (D (F := F))) 𝒱 (SparseCore.T d) none) Set.univ
      (hlo rfl op fun _ => .ret (⟨⟩ : PUnit)) fun _ => wpLine d ops R

/-- Holding the region boundary and the 26 arrays at `W`, a line of operations on them runs to its end, where the
    arrays are at `after ops W`. -/
theorem wp_line (d : Dev nD) : ∀ (ops : List (HloOp τ sig (Elt F))) (_ : ∀ op ∈ ops, op.bufs ⊆ Sall) (_ : ∀ op ∈ ops, op.fresh = ∅)
    (W : Valuation τ sig (Elt F)) (R : sProp 𝕄),
    iprop(boundary (SparseCore.T d) ∗ (held (SparseCore.T d) Sall W : sProp 𝕄))
      ⊢ iprop((iprop(boundary (SparseCore.T d) ∗ (held (SparseCore.T d) Sall (StableHlo.after ops W) : sProp 𝕄)) -∗ R) -∗ wpLine d ops R)
  | [], _, _, W, R => by
    rw [wpLine, StableHlo.after_nil]
    iintro H Hk
    iapply Hk; iexact H
  | op :: ops, hS, hf, W, R => by
    rw [wpLine, StableHlo.after_cons]
    iintro H Hk
    iapply (wp_hlo_within 𝒱 (SparseCore.T d) none Set.univ (op := op) (S := Sall) (hS op List.mem_cons_self) (V := W)
      (hf := hf op List.mem_cons_self)) $$ H
    iintro H
    rw [wp_ret]; imodintro
    iapply (wp_line d ops (fun o ho => hS o (List.mem_cons_of_mem _ ho)) (fun o ho => hf o (List.mem_cons_of_mem _ ho)) (op.result W) R) $$ H
    iexact Hk

/-- The six operations before the SparseCore call, in the shape @main's weakest precondition unfolds to. -/
theorem wp_opsA (d : Dev nD) (W : Valuation τ sig (Elt F)) {R : sProp 𝕄} :
    iprop(boundary (SparseCore.T d) ∗ (held (SparseCore.T d) Sall W : sProp 𝕄))
      ⊢ iprop((iprop(boundary (SparseCore.T d) ∗ (held (SparseCore.T d) Sall (StableHlo.after opsA W) : sProp 𝕄)) -∗ R) -∗
      wp frame (wpE ((K (F := F)).defs (D (F := F))) 𝒱 (SparseCore.T d) none) Set.univ
    (hlo rfl (StableHlo.reshape main_arg1 main_v0 rfl shapeCasts_S8x2048x128_S8x2048x4x32) fun _ => .ret (⟨⟩ : PUnit)) fun _ =>
        wp frame (wpE ((K (F := F)).defs (D (F := F))) 𝒱 (SparseCore.T d) none) Set.univ
      (hlo rfl (StableHlo.unary main_v0 main_v1 ((transpose S8x4x32x2048 [0, 2, 3, 1] · transposes_S8x2048x4x32_S8x4x32x2048_0_2_3_1) : (⟨S8x2048x4x32, .f32⟩ : BufTy).Contents (Elt F) → (⟨S8x4x32x2048, .f32⟩ : BufTy).Contents (Elt F))) fun _ => .ret (⟨⟩ : PUnit)) fun _ =>
          wp frame (wpE ((K (F := F)).defs (D (F := F))) 𝒱 (SparseCore.T d) none) Set.univ
        (hlo rfl (StableHlo.reshape main_v1 main_v2 rfl shapeCasts_S8x4x32x2048_S32x32x2048) fun _ => .ret (⟨⟩ : PUnit)) fun _ =>
            wp frame (wpE ((K (F := F)).defs (D (F := F))) 𝒱 (SparseCore.T d) none) Set.univ
          (hlo rfl (StableHlo.unary main_arg2 main_v3 ((transpose S8x16x2048 [0, 2, 1] · transposes_S8x2048x16_S8x16x2048_0_2_1) : (⟨S8x2048x16, .i32⟩ : BufTy).Contents (Elt F) → (⟨S8x16x2048, .i32⟩ : BufTy).Contents (Elt F))) fun _ => .ret (⟨⟩ : PUnit)) fun _ =>
              wp frame (wpE ((K (F := F)).defs (D (F := F))) 𝒱 (SparseCore.T d) none) Set.univ
            (hlo rfl (StableHlo.reshape main_arg0 main_v4 rfl shapeCasts_S8x128_S32x32x1) fun _ => .ret (⟨⟩ : PUnit)) fun _ =>
                wp frame (wpE ((K (F := F)).defs (D (F := F))) 𝒱 (SparseCore.T d) none) Set.univ
              (hlo rfl (StableHlo.unary main_v4 main_v5 (broadcastInDim S32x32x16 ![0, 1, 2] bcast_S32x32x1_S32x32x16_0_1_2 : (⟨S32x32x1, .f32⟩ : BufTy).Contents (Elt F) → (⟨S32x32x16, .f32⟩ : BufTy).Contents (Elt F))) fun _ => .ret (⟨⟩ : PUnit)) fun _ =>
      R) :=
  wp_line d opsA (List.forall_iff_forall_mem.1 opsA_sub) opsA_fresh W R

/-- The eleven operations between the two calls, in the same shape. -/
theorem wp_opsB (d : Dev nD) (W : Valuation τ sig (Elt F)) {R : sProp 𝕄} :
    iprop(boundary (SparseCore.T d) ∗ (held (SparseCore.T d) Sall W : sProp 𝕄))
      ⊢ iprop((iprop(boundary (SparseCore.T d) ∗ (held (SparseCore.T d) Sall (StableHlo.after opsB W) : sProp 𝕄)) -∗ R) -∗
      wp frame (wpE ((K (F := F)).defs (D (F := F))) 𝒱 (SparseCore.T d) none) Set.univ
    (hlo rfl (StableHlo.reshape main_v6_0 main_v7 rfl shapeCasts_S32x2048_S8x4x2048) fun _ => .ret (⟨⟩ : PUnit)) fun _ =>
        wp frame (wpE ((K (F := F)).defs (D (F := F))) 𝒱 (SparseCore.T d) none) Set.univ
      (hlo rfl (StableHlo.reshape main_v6_1 main_v8 rfl shapeCasts_S32x2048_S8x4x2048) fun _ => .ret (⟨⟩ : PUnit)) fun _ =>
          wp frame (wpE ((K (F := F)).defs (D (F := F))) 𝒱 (SparseCore.T d) none) Set.univ
        (hlo rfl (StableHlo.unary main_arg5 main_v9 ((transpose S2x8x2048 [2, 0, 1] · transposes_S8x2048x2_S2x8x2048_2_0_1) : (⟨S8x2048x2, .f32⟩ : BufTy).Contents (Elt F) → (⟨S2x8x2048, .f32⟩ : BufTy).Contents (Elt F))) fun _ => .ret (⟨⟩ : PUnit)) fun _ =>
            wp frame (wpE ((K (F := F)).defs (D (F := F))) 𝒱 (SparseCore.T d) none) Set.univ
          (hlo rfl (StableHlo.unary main_arg4 main_v10 ((transpose S2x8 [1, 0] · transposes_S8x2_S2x8_1_0) : (⟨S8x2, .f32⟩ : BufTy).Contents (Elt F) → (⟨S2x8, .f32⟩ : BufTy).Contents (Elt F))) fun _ => .ret (⟨⟩ : PUnit)) fun _ =>
              wp frame (wpE ((K (F := F)).defs (D (F := F))) 𝒱 (SparseCore.T d) none) Set.univ
            (hlo rfl (StableHlo.unary main_v10 main_v11 (broadcastInDim S2x8x1 ![0, 1] bcast_S2x8_S2x8x1_0_1 : (⟨S2x8, .f32⟩ : BufTy).Contents (Elt F) → (⟨S2x8x1, .f32⟩ : BufTy).Contents (Elt F))) fun _ => .ret (⟨⟩ : PUnit)) fun _ =>
                wp frame (wpE ((K (F := F)).defs (D (F := F))) 𝒱 (SparseCore.T d) none) Set.univ
              (hlo rfl (StableHlo.unary main_arg3 main_v12 (uitofp .f32 : (⟨S8x2048, .i1⟩ : BufTy).Contents (Elt F) → (⟨S8x2048, .f32⟩ : BufTy).Contents (Elt F))) fun _ => .ret (⟨⟩ : PUnit)) fun _ =>
                  wp frame (wpE ((K (F := F)).defs (D (F := F))) 𝒱 (SparseCore.T d) none) Set.univ
                (hlo rfl (StableHlo.unary main_arg6 main_v13 (broadcastInDim S1 ![] bcast_S_S1 : (⟨S_, .f32⟩ : BufTy).Contents (Elt F) → (⟨S1, .f32⟩ : BufTy).Contents (Elt F))) fun _ => .ret (⟨⟩ : PUnit)) fun _ =>
                    wp frame (wpE ((K (F := F)).defs (D (F := F))) 𝒱 (SparseCore.T d) none) Set.univ
                  (hlo rfl (StableHlo.unary main_arg7 main_v14 (broadcastInDim S1 ![] bcast_S_S1 : (⟨S_, .f32⟩ : BufTy).Contents (Elt F) → (⟨S1, .f32⟩ : BufTy).Contents (Elt F))) fun _ => .ret (⟨⟩ : PUnit)) fun _ =>
                      wp frame (wpE ((K (F := F)).defs (D (F := F))) 𝒱 (SparseCore.T d) none) Set.univ
                    (hlo rfl (StableHlo.binary main_v13 main_v14 main_v15 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))) fun _ => .ret (⟨⟩ : PUnit)) fun _ =>
      R) :=
  wp_line d opsB (List.forall_iff_forall_mem.1 opsB_sub) opsB_fresh W R

/-! ## Arrays out of the held set and back -/

/-- The SparseCore call's arrays: its three operands and its two results. -/
abbrev five : Finset (DevRef τ sig) := {v2', v3', v5', v60', v61'}
/-- The pipeline call's arrays: its six operands and its result. -/
abbrev seven : Finset (DevRef τ sig) := {v7', v8', v9', v11', v12', v15', v16'}
/-- @main's eight arguments. -/
abbrev eight : Finset (DevRef τ sig) := {arg0', arg1', arg2', arg3', arg4', arg5', arg6', arg7'}

omit [FloatOps F] in
theorem held_out5 (d : Dev nD) (W : Valuation τ sig (Elt F)) :
    (held (SparseCore.T d) Sall W : sProp 𝕄) = iprop(((SparseCore.T d).loc main_v2 ↦{fullShare} W v2') ∗ ((SparseCore.T d).loc main_v3 ↦{fullShare} W v3') ∗ ((SparseCore.T d).loc main_v5 ↦{fullShare} W v5') ∗ ((SparseCore.T d).loc main_v6_0 ↦{fullShare} W v60') ∗ ((SparseCore.T d).loc main_v6_1 ↦{fullShare} W v61') ∗ held (SparseCore.T d) (Sall \ five) W) := by
  unfold held
  conv_lhs => rw [show Sall = insert v2' (insert v3' (insert v5' (insert v60' (insert v61' (Sall \ five))))) by decide]
  rw [SparseCore.bigSep_insert' (by decide), SparseCore.bigSep_insert' (by decide), SparseCore.bigSep_insert' (by decide), SparseCore.bigSep_insert' (by decide), SparseCore.bigSep_insert' (by decide)]

omit [FloatOps F] in
theorem held_out7 (d : Dev nD) (W : Valuation τ sig (Elt F)) :
    (held (SparseCore.T d) Sall W : sProp 𝕄) = iprop(((SparseCore.T d).loc main_v7 ↦{fullShare} W v7') ∗ ((SparseCore.T d).loc main_v8 ↦{fullShare} W v8') ∗ ((SparseCore.T d).loc main_v9 ↦{fullShare} W v9') ∗ ((SparseCore.T d).loc main_v11 ↦{fullShare} W v11') ∗ ((SparseCore.T d).loc main_v12 ↦{fullShare} W v12') ∗ ((SparseCore.T d).loc main_v15 ↦{fullShare} W v15') ∗ ((SparseCore.T d).loc main_v16 ↦{fullShare} W v16') ∗ held (SparseCore.T d) (Sall \ seven) W) := by
  unfold held
  conv_lhs => rw [show Sall = insert v7' (insert v8' (insert v9' (insert v11' (insert v12' (insert v15' (insert v16' (Sall \ seven))))))) by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)]

omit [FloatOps F] in
theorem held_out8 (d : Dev nD) (W : Valuation τ sig (Elt F)) :
    (held (SparseCore.T d) Sall W : sProp 𝕄) = iprop(((SparseCore.T d).loc main_arg0 ↦{fullShare} W arg0') ∗ ((SparseCore.T d).loc main_arg1 ↦{fullShare} W arg1') ∗ ((SparseCore.T d).loc main_arg2 ↦{fullShare} W arg2') ∗ ((SparseCore.T d).loc main_arg3 ↦{fullShare} W arg3') ∗ ((SparseCore.T d).loc main_arg4 ↦{fullShare} W arg4') ∗ ((SparseCore.T d).loc main_arg5 ↦{fullShare} W arg5') ∗ ((SparseCore.T d).loc main_arg6 ↦{fullShare} W arg6') ∗ ((SparseCore.T d).loc main_arg7 ↦{fullShare} W arg7') ∗ held (SparseCore.T d) (Sall \ eight) W) := by
  unfold held
  conv_lhs => rw [show Sall = insert arg0' (insert arg1' (insert arg2' (insert arg3' (insert arg4' (insert arg5' (insert arg6' (insert arg7' (Sall \ eight)))))))) by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)]

/-- `W` with the SparseCore call's two results at new contents. -/
def W5 (W : Valuation τ sig (Elt F)) (d : Dev nD) (f0 : Buf (Elt F) ((SparseCore.T d : Thread nD τ).loc main_v6_0)) (f1 : Buf (Elt F) ((SparseCore.T d : Thread nD τ).loc main_v6_1)) :
    Valuation τ sig (Elt F) :=
  Function.update (Function.update W v60' f0) v61' f1

omit [FloatOps F] in
theorem W5_v60 (W : Valuation τ sig (Elt F)) (d : Dev nD) (f0 : Buf (Elt F) ((SparseCore.T d : Thread nD τ).loc main_v6_0)) (f1 : Buf (Elt F) ((SparseCore.T d : Thread nD τ).loc main_v6_1)) :
    W5 W d f0 f1 v60' = f0 :=
  (Function.update_of_ne (show v60' ≠ v61' by decide) _ _).trans (Function.update_self _ _ _)
omit [FloatOps F] in
theorem W5_v61 (W : Valuation τ sig (Elt F)) (d : Dev nD) (f0 : Buf (Elt F) ((SparseCore.T d : Thread nD τ).loc main_v6_0)) (f1 : Buf (Elt F) ((SparseCore.T d : Thread nD τ).loc main_v6_1)) :
    W5 W d f0 f1 v61' = f1 := Function.update_self _ _ _
omit [FloatOps F] in
theorem W5_of_ne (W : Valuation τ sig (Elt F)) (d : Dev nD) (f0 : Buf (Elt F) ((SparseCore.T d : Thread nD τ).loc main_v6_0)) (f1 : Buf (Elt F) ((SparseCore.T d : Thread nD τ).loc main_v6_1))
    {b : DevRef τ sig} (h0 : b ≠ v60') (h1 : b ≠ v61') : W5 W d f0 f1 b = W b :=
  (Function.update_of_ne h1 _ _).trans (Function.update_of_ne h0 _ _)

omit [FloatOps F] in
/-- The SparseCore call's arrays back into the held set, its two results at what the call left. -/
theorem held_in5 (d : Dev nD) (W : Valuation τ sig (Elt F)) (f0 : Buf (Elt F) ((SparseCore.T d : Thread nD τ).loc main_v6_0)) (f1 : Buf (Elt F) ((SparseCore.T d : Thread nD τ).loc main_v6_1)) :
    iprop(((SparseCore.T d).loc main_v2 ↦{fullShare} W v2') ∗ ((SparseCore.T d).loc main_v3 ↦{fullShare} W v3') ∗ ((SparseCore.T d).loc main_v5 ↦{fullShare} W v5') ∗ ((SparseCore.T d).loc main_v6_0 ↦{fullShare} f0) ∗ ((SparseCore.T d).loc main_v6_1 ↦{fullShare} f1) ∗ held (SparseCore.T d) (Sall \ five) W)
      = (held (SparseCore.T d) Sall (W5 W d f0 f1) : sProp 𝕄) := by
  rw [held_out5 d (W5 W d f0 f1), W5_v60, W5_v61,
    W5_of_ne W d f0 f1 (show v2' ≠ v60' by decide) (show v2' ≠ v61' by decide),
    W5_of_ne W d f0 f1 (show v3' ≠ v60' by decide) (show v3' ≠ v61' by decide),
    W5_of_ne W d f0 f1 (show v5' ≠ v60' by decide) (show v5' ≠ v61' by decide),
    held_congr (SparseCore.T d) (V := W5 W d f0 f1) (V' := W) fun b hb => W5_of_ne W d f0 f1
      (fun e => (Finset.mem_sdiff.mp hb).2 (e ▸ by decide)) (fun e => (Finset.mem_sdiff.mp hb).2 (e ▸ by decide))]

/-- `W` with the pipeline call's result at new contents. -/
def W7 (W : Valuation τ sig (Elt F)) (d : Dev nD) (g : Buf (Elt F) ((SparseCore.T d : Thread nD τ).loc main_v16)) : Valuation τ sig (Elt F) :=
  Function.update W v16' g

omit [FloatOps F] in
theorem W7_v16 (W : Valuation τ sig (Elt F)) (d : Dev nD) (g : Buf (Elt F) ((SparseCore.T d : Thread nD τ).loc main_v16)) : W7 W d g v16' = g :=
  Function.update_self _ _ _
omit [FloatOps F] in
theorem W7_of_ne (W : Valuation τ sig (Elt F)) (d : Dev nD) (g : Buf (Elt F) ((SparseCore.T d : Thread nD τ).loc main_v16)) {b : DevRef τ sig} (h : b ≠ v16') :
    W7 W d g b = W b := Function.update_of_ne h _ _

omit [FloatOps F] in
/-- The pipeline call's arrays back into the held set, its result at what the call left. -/
theorem held_in7 (d : Dev nD) (W : Valuation τ sig (Elt F)) (g : Buf (Elt F) ((SparseCore.T d : Thread nD τ).loc main_v16)) :
    iprop(((SparseCore.T d).loc main_v7 ↦{fullShare} W v7') ∗ ((SparseCore.T d).loc main_v8 ↦{fullShare} W v8') ∗ ((SparseCore.T d).loc main_v9 ↦{fullShare} W v9') ∗ ((SparseCore.T d).loc main_v11 ↦{fullShare} W v11') ∗ ((SparseCore.T d).loc main_v12 ↦{fullShare} W v12') ∗ ((SparseCore.T d).loc main_v15 ↦{fullShare} W v15') ∗ ((SparseCore.T d).loc main_v16 ↦{fullShare} g) ∗ held (SparseCore.T d) (Sall \ seven) W)
      = (held (SparseCore.T d) Sall (W7 W d g) : sProp 𝕄) := by
  rw [held_out7 d (W7 W d g), W7_v16,
    W7_of_ne W d g (show v7' ≠ v16' by decide), W7_of_ne W d g (show v8' ≠ v16' by decide), W7_of_ne W d g (show v9' ≠ v16' by decide), W7_of_ne W d g (show v11' ≠ v16' by decide), W7_of_ne W d g (show v12' ≠ v16' by decide), W7_of_ne W d g (show v15' ≠ v16' by decide),
    held_congr (SparseCore.T d) (V := W7 W d g) (V' := W) fun b hb => W7_of_ne W d g
      (fun e => (Finset.mem_sdiff.mp hb).2 (e ▸ by decide))]

/-! ## What the two lines leave -/

theorem opsA_writes : (opsA : List (HloOp τ sig (Elt F))).Forall fun op =>
    op.writes ⊆ (([main_v0, main_v1, main_v2, main_v3, main_v4, main_v5] : List (Ref sig .tc)).map (Proc.devRef (τ := τ) .tc)).toFinset :=
  ⟨show ({v0'} : Finset (DevRef τ sig)) ⊆ _ by decide,
    show ({v1'} : Finset (DevRef τ sig)) ⊆ _ by decide,
    show ({v2'} : Finset (DevRef τ sig)) ⊆ _ by decide,
    show ({v3'} : Finset (DevRef τ sig)) ⊆ _ by decide,
    show ({v4'} : Finset (DevRef τ sig)) ⊆ _ by decide,
    show ({v5'} : Finset (DevRef τ sig)) ⊆ _ by decide⟩

theorem opsB_writes : (opsB : List (HloOp τ sig (Elt F))).Forall fun op =>
    op.writes ⊆ (([main_v7, main_v8, main_v9, main_v10, main_v11, main_v12, main_v13, main_v14, main_v15] : List (Ref sig .tc)).map (Proc.devRef (τ := τ) .tc)).toFinset :=
  ⟨show ({v7'} : Finset (DevRef τ sig)) ⊆ _ by decide,
    show ({v8'} : Finset (DevRef τ sig)) ⊆ _ by decide,
    show ({v9'} : Finset (DevRef τ sig)) ⊆ _ by decide,
    show ({v10'} : Finset (DevRef τ sig)) ⊆ _ by decide,
    show ({v11'} : Finset (DevRef τ sig)) ⊆ _ by decide,
    show ({v12'} : Finset (DevRef τ sig)) ⊆ _ by decide,
    show ({v13'} : Finset (DevRef τ sig)) ⊆ _ by decide,
    show ({v14'} : Finset (DevRef τ sig)) ⊆ _ by decide,
    show ({v15'} : Finset (DevRef τ sig)) ⊆ _ by decide⟩

/-- An array none of the six operations writes keeps its contents. -/
theorem opsA_frame (W : Valuation τ sig (Elt F)) (r : Ref sig .tc) (hr : r ∉ ([main_v0, main_v1, main_v2, main_v3, main_v4, main_v5] : List (Ref sig .tc))) :
    StableHlo.after opsA W (Proc.devRef .tc r) = W (Proc.devRef .tc r) :=
  StableHlo.after_of_writes_sub opsA W opsA_writes hr

/-- An array none of the operations between the calls writes keeps its contents. -/
theorem opsB_frame (W : Valuation τ sig (Elt F)) (r : Ref sig .tc) (hr : r ∉ ([main_v7, main_v8, main_v9, main_v10, main_v11, main_v12, main_v13, main_v14, main_v15] : List (Ref sig .tc))) :
    StableHlo.after opsB W (Proc.devRef .tc r) = W (Proc.devRef .tc r) :=
  StableHlo.after_of_writes_sub opsB W opsB_writes hr

/-- After the six operations: psi regrouped, -/
theorem opsA_v2 (W : Valuation τ sig (Elt F)) : StableHlo.after opsA W v2' = Cert.Bridge.g2 (W arg1') := by
  after_results_simp <;> rfl
/-- the neighbour indices with the node axis last, -/
theorem opsA_v3 (W : Valuation τ sig (Elt F)) : StableHlo.after opsA W v3' = Cert.Bridge.g3 (W arg2') := by
  after_results_simp <;> rfl
/-- and q repeated along the lanes. -/
theorem opsA_v5 (W : Valuation τ sig (Elt F)) : StableHlo.after opsA W v5' = Cert.Bridge.g5 (W arg0') := by
  after_results_simp <;> rfl

/-- After the operations between the calls: the pipeline call's six operands, each the printed operation of its operands. -/
theorem opsB_v7 (W : Valuation τ sig (Elt F)) :
    StableHlo.after opsB W v7' = shapeCast S8x4x2048 (W v60') shapeCasts_S32x2048_S8x4x2048 := by
  after_results_simp <;> rfl
theorem opsB_v8 (W : Valuation τ sig (Elt F)) :
    StableHlo.after opsB W v8' = shapeCast S8x4x2048 (W v61') shapeCasts_S32x2048_S8x4x2048 := by
  after_results_simp <;> rfl
theorem opsB_v9 (W : Valuation τ sig (Elt F)) :
    StableHlo.after opsB W v9' = transpose S2x8x2048 [2, 0, 1] (W arg5') transposes_S8x2048x2_S2x8x2048_2_0_1 := by
  after_results_simp <;> rfl
theorem opsB_v11 (W : Valuation τ sig (Elt F)) :
    StableHlo.after opsB W v11'
      = broadcastInDim S2x8x1 ![0, 1] bcast_S2x8_S2x8x1_0_1 (transpose S2x8 [1, 0] (W arg4') transposes_S8x2_S2x8_1_0) := by
  after_results_simp <;> rfl
theorem opsB_v12 (W : Valuation τ sig (Elt F)) : StableHlo.after opsB W v12' = uitofp .f32 (W arg3') := by
  after_results_simp <;> rfl
theorem opsB_v15 (W : Valuation τ sig (Elt F)) :
    StableHlo.after opsB W v15'
      = concatenate S2 0 [⟨S1, broadcastInDim S1 ![] bcast_S_S1 (W arg6')⟩, ⟨S1, broadcastInDim S1 ![] bcast_S_S1 (W arg7')⟩]
          concatenates_S1_S1_S2_d0 := by
  after_results_simp <;> rfl

end Cert.KernelIdeal.HostOps

end
-- ==== Proof.TileRes.lean ====
import proofs.«209090_g87076166960129_cont_sun_c4_39_31_alg».proof.Proof.Setup

noncomputable section

namespace Cert.KernelIdeal.TileRes

open Cert.KernelIdeal Cert.KernelIdeal.Gen Cert.KernelIdeal.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)
local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)
local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)
local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

variable [FloatOps F]
variable (d : Dev nD) (L : grid0.Coords)

/-- The vector subcore a grid position runs on. -/
abbrev cV (L : grid0.Coords) : Fin τ.nSC := (L 0).castLE hcore0
abbrev jV (L : grid0.Coords) : Fin τ.nSub := (L 1).castLE hsub0

/-- A DMA semaphore of the subcore, as a cell. -/
abbrev cell (sm : DmaSem sig) : GSem nD τ sig := (V d (cV L) (jV L), .dma sm)

omit [FloatOps F] in
theorem cell_ne {a b : DmaSem sig} (h : a ≠ b) : cell d L a ≠ cell d L b :=
  fun e => h (SemLoc.dma.inj (Prod.mk.inj e).2)

omit [FloatOps F] in
theorem cell_mem (sm : DmaSem sig) (hs : (SemLoc.dma sm : SemLoc sig).isScoped .scVector = true) : cell d L sm ∈ ownCells (V d (cV L) (jV L)) :=
  mem_ownCells.mpr ⟨rfl, hs⟩

/-- The kernel's five DMA semaphores, as cells of the subcore. -/
abbrev fiveCells : Finset (GSem nD τ sig) :=
  {cell d L cc0_scoped0.sem, cell d L cc0_scoped1.sem, cell d L cc0_scoped2.sem, cell d L cc0_scoped3.sem, cell d L cc0_scoped4.sem}

omit [FloatOps F] in
theorem fiveCells_sub : fiveCells d L ⊆ ownCells (V d (cV L) (jV L)) := by
  intro g hg
  simp only [fiveCells, Finset.mem_insert, Finset.mem_singleton] at hg
  rcases hg with rfl | rfl | rfl | rfl | rfl <;> exact cell_mem d L _ (by decide)

omit [FloatOps F] in
/-- The subcore's own semaphores at zero are the kernel's five and the rest. -/
theorem ownSems0_V :
    (ownSems0 (V d (cV L) (jV L)) : sProp 𝕄)
      = iprop((semVal (cell d L cc0_scoped0.sem) 0 ∗ semVal (cell d L cc0_scoped1.sem) 0 ∗ semVal (cell d L cc0_scoped2.sem) 0
          ∗ semVal (cell d L cc0_scoped3.sem) 0 ∗ semVal (cell d L cc0_scoped4.sem) 0)
          ∗ bigSep (ownCells (V d (cV L) (jV L)) \ fiveCells d L) fun g => semVal g 0) := by
  unfold SparseCore.Cfg.ownSems0
  rw [SparseCore.bigSep_sdiff_split' (fiveCells_sub d L)]
  congr 1
  unfold fiveCells
  rw [SparseCore.bigSep_insert' (by
        simp only [Finset.mem_insert, Finset.mem_singleton, not_or]
        exact ⟨cell_ne d L (by decide), cell_ne d L (by decide), cell_ne d L (by decide), cell_ne d L (by decide)⟩),
    SparseCore.bigSep_insert' (by
        simp only [Finset.mem_insert, Finset.mem_singleton, not_or]
        exact ⟨cell_ne d L (by decide), cell_ne d L (by decide), cell_ne d L (by decide)⟩),
    SparseCore.bigSep_insert' (by
        simp only [Finset.mem_insert, Finset.mem_singleton, not_or]
        exact ⟨cell_ne d L (by decide), cell_ne d L (by decide)⟩),
    SparseCore.bigSep_insert' (by
        simp only [Finset.mem_singleton]
        exact cell_ne d L (by decide)),
    bigSep_singleton]

/-- A scratch of the subcore, as a device reference. -/
abbrev sref (r : Ref sig .scVector) : DevRef τ sig := (Proc.scVector (cV L) (jV L)).devRef r

omit [FloatOps F] in
theorem sref_ne {a b : Ref sig .scVector} (h : a ≠ b) : sref L a ≠ sref L b := fun e => h (Proc.devRef_injective _ e)

abbrev fiveRefs : Finset (DevRef τ sig) := {sref L cc0_scratch0, sref L cc0_scratch1, sref L cc0_scratch2, sref L cc0_scratch3, sref L cc0_scratch4}

omit [FloatOps F] in
theorem fiveRefs_sub : fiveRefs L ⊆ ownRefs (τ := τ) (.scVector (cV L) (jV L)) := by
  intro b hb
  simp only [fiveRefs, Finset.mem_insert, Finset.mem_singleton] at hb
  rcases hb with rfl | rfl | rfl | rfl | rfl <;> exact SparseCore.Cfg.mem_ownRefs_of_owner rfl

omit [FloatOps F] in
/-- The subcore's own buffers are the kernel's five scratches, each at some contents, and the rest. -/
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f))
          ∗ bigSep (ownRefs (τ := τ) (.scVector (cV L) (jV L)) \ fiveRefs L)
              fun b => iprop(∃ f, ((d, b) : Loc nD τ sig) ↦{fullShare} f)) := by
  unfold SparseCore.Cfg.ownBufs
  rw [SparseCore.bigSep_sdiff_split' (fiveRefs_sub L)]
  congr 1
  unfold fiveRefs
  rw [SparseCore.bigSep_insert' (by
        simp only [Finset.mem_insert, Finset.mem_singleton, not_or]
        exact ⟨sref_ne L (by decide), sref_ne L (by decide), sref_ne L (by decide), sref_ne L (by decide)⟩),
    SparseCore.bigSep_insert' (by
        simp only [Finset.mem_insert, Finset.mem_singleton, not_or]
        exact ⟨sref_ne L (by decide), sref_ne L (by decide), sref_ne L (by decide)⟩),
    SparseCore.bigSep_insert' (by
        simp only [Finset.mem_insert, Finset.mem_singleton, not_or]
        exact ⟨sref_ne L (by decide), sref_ne L (by decide)⟩),
    SparseCore.bigSep_insert' (by
        simp only [Finset.mem_singleton]
        exact sref_ne L (by decide)),
    bigSep_singleton]

end Cert.KernelIdeal.TileRes

end
-- ==== Proof.TileSpec.lean ====
import proofs.«209090_g87076166960129_cont_sun_c4_39_31_alg».proof.Proof.Setup
import proofs.«209090_g87076166960129_cont_sun_c4_39_31_alg».proof.Proof.TileRes

noncomputable section

namespace Cert.KernelIdeal.TileSpec

open Cert.KernelIdeal Cert.KernelIdeal.Gen Cert.KernelIdeal.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)
local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)
local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)
local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

open Cert.KernelIdeal.TileRes

variable [FloatOps F]
variable (d : Dev nD) (L : grid0.Coords)

/-- What one trip of the task's loop over groups of sixteen nodes needs and leaves: the table, index and query scratches
    held whole at fixed contents, the two result scratches held whole at some contents. -/
def tripInv (tbl : Buf (Elt F) ((V d (cV L) (jV L)).loc cc0_scratch0)) (idx : Buf (Elt F) ((V d (cV L) (jV L)).loc cc0_scratch1))
    (qb : Buf (Elt F) ((V d (cV L) (jV L)).loc cc0_scratch2)) (_ : Nat) (_ : Unit) : sProp 𝕄 :=
  iprop(((s7).view.loc (V d (cV L) (jV L)) ↦{fullShare} tbl) ∗ ((s8).view.loc (V d (cV L) (jV L)) ↦{fullShare} idx)
      ∗ ((s9).view.loc (V d (cV L) (jV L)) ↦{fullShare} qb)
      ∗ (∃ f, (s10).view.loc (V d (cV L) (jV L)) ↦{fullShare} f) ∗ (∃ f, (s11).view.loc (V d (cV L) (jV L)) ↦{fullShare} f))

/-- One trip runs, whatever group it is, provided every word of the index scratch names a column of the table: each of
    its thirty-two rounds of sixteen indexed loads reads inside the table, and it leaves the five scratches as it found
    them, the two result scratches at new contents. -/
def TripSpec : Prop :=
  ∀ (k : Fin k0_t1_loop.trips) (tbl : Buf (Elt F) ((V d (cV L) (jV L)).loc cc0_scratch0)) (idx : Buf (Elt F) ((V d (cV L) (jV L)).loc cc0_scratch1))
    (qb : Buf (Elt F) ((V d (cV L) (jV L)).loc cc0_scratch2)),
    (∀ j, (((s8).view.read (Elt F) idx j : BitVec 32)).toNat < 2048) →
    (tripInv d L tbl idx qb k.val () : sProp 𝕄)
      ⊢ wp frame (wpE (defs₀ (F := F)) 𝒱₀ (V d (cV L) (jV L)) none) Set.univ
          (k0_t1_body L a2 (Memref.isWhole_whole _) a3 (Memref.isWhole_whole _) a4 (Memref.isWhole_whole _) a5 (Memref.isWhole_whole _) a6 (Memref.isWhole_whole _)
            s7 (Memref.isWhole_whole _) s8 (Memref.isWhole_whole _) s9 (Memref.isWhole_whole _) s10 (Memref.isWhole_whole _) s11 (Memref.isWhole_whole _)
            cc0_scoped0 cc0_scoped1 cc0_scoped2 cc0_scoped3 cc0_scoped4 k ())
          fun r => tripInv d L tbl idx qb (k.val + 1) r

/-- Row `2·s + c` of a result array, as the task on subcore `(c, s)` slices it for its copy out. -/
abbrev oRow5 (L : grid0.Coords) : Memref sig .scVector .hbm S2048 .f32 :=
  ((a5).slice (Rect.unit (s := S32x2048) (k0_off53 L) S1x2048.size (k0_off53_inb L)) (fun _ => rfl)).squeeze S2048 squeezes_S1x2048_S2048
abbrev oRow6 (L : grid0.Coords) : Memref sig .scVector .hbm S2048 .f32 :=
  ((a6).slice (Rect.unit (s := S32x2048) (k0_off53 L) S1x2048.size (k0_off53_inb L)) (fun _ => rfl)).squeeze S2048 squeezes_S1x2048_S2048

/-- The elements of a result array that the task's row holds. -/
def outSet5 (L : grid0.Coords) : Finset S32x2048.Idx := (oRow5 L).view.set
def outSet6 (L : grid0.Coords) : Finset S32x2048.Idx := (oRow6 L).view.set

omit [FloatOps F] in
theorem pts_o5 (f : Buf (Elt F) ((V d (cV L) (jV L)).loc main_v6_0_scv)) :
    ((oRow5 L).view.loc (V d (cV L) (jV L)) ↦[(oRow5 L).view.set]{fullShare} f : sProp 𝕄)
      = (V d (cV L) (jV L)).loc main_v6_0_scv ↦[outSet5 L]{fullShare} f := rfl
omit [FloatOps F] in
theorem pts_o6 (f : Buf (Elt F) ((V d (cV L) (jV L)).loc main_v6_1_scv)) :
    ((oRow6 L).view.loc (V d (cV L) (jV L)) ↦[(oRow6 L).view.set]{fullShare} f : sProp 𝕄)
      = (V d (cV L) (jV L)).loc main_v6_1_scv ↦[outSet6 L]{fullShare} f := rfl

end Cert.KernelIdeal.TileSpec

end
-- ==== Proof.LaunchPay.lean ====
/- What the one SparseCore call's handshakes carry, and how it splits: the three arrays every task reads whole
   go out as read shares — one share per SparseCore, each cut again into one per vector subcore — and each of
   the two result arrays goes out row by row, the task on SparseCore c, subcore i holding row 2*i + c. The
   32 rows are pairwise disjoint and cover the array, so the whole arrays split into the tasks' resources and
   a remainder of read shares, and come back the same way. -/
import proofs.«209090_g87076166960129_cont_sun_c4_39_31_alg».proof.Proof.Setup
import proofs.«209090_g87076166960129_cont_sun_c4_39_31_alg».proof.Proof.TileRes
import proofs.«209090_g87076166960129_cont_sun_c4_39_31_alg».proof.Proof.TileSpec

noncomputable section

namespace Cert.KernelIdeal.Launch

open Cert.KernelIdeal Cert.KernelIdeal.Gen Cert.KernelIdeal.Setup Cert.KernelIdeal.TileRes Cert.KernelIdeal.TileSpec
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)

/-! ## The rows of a [32, 2048] array -/

theorem hdiv : 32 ∣ S32x2048.size 0 := ⟨1, rfl⟩
/-- Row w. -/
abbrev row (w : Fin 32) : Rect S32x2048 := Rect.part (s := S32x2048) (a₀ := 0) hdiv w
/-- The elements of row w. -/
abbrev rowSet (w : Fin 32) : Finset S32x2048.Idx := ((a5).view.slice (row w)).set

/-- The grid position (SparseCore c, subcore s). -/
def coordsV (c : Fin (grid0.bound 0)) (s : Fin (grid0.bound 1)) : grid0.Coords :=
  fun | 0 => c | 1 => s | ⟨_ + 2, h⟩ => absurd h (Nat.not_lt.2 (Nat.le_add_left _ _))

/-- The row 2*s + c of the task at grid position (c, s). -/
abbrev wL (L : grid0.Coords) : Fin 32 :=
  ⟨2 * (L 1).val + (L 0).val, by
    have h0 : (L 0).val < 2 := (L 0).isLt
    have h1 : (L 1).val < 16 := (L 1).isLt
    omega⟩

/-- The rectangle the task slices for its copy out. -/
abbrev rowK (L : grid0.Coords) : Rect S32x2048 := Rect.unit (s := S32x2048) (k0_off53 L) S1x2048.size (k0_off53_inb L)

theorem rowK_eq (L : grid0.Coords) : rowK L = row (wL L) := by
  unfold rowK row Rect.part Rect.block
  congr 1 <;> funext a
  · rw [k0_off53_eq]
    match a with
    | 0 => simp [Shape.partIx, Shape.partSize]
    | 1 => simp [Shape.partIx, Shape.partSize]
  · match a with
    | 0 => simp [Shape.partSize]
    | 1 => simp [Shape.partSize]

theorem outSet5_eq (L : grid0.Coords) : outSet5 L = rowSet (wL L) := by
  unfold outSet5
  show (((a5).view.slice (rowK L)).reshape S2048 squeezes_S1x2048_S2048.numel_eq).set = ((a5).view.slice (row (wL L))).set
  rw [View.set_reshape]
  exact rowK_eq L ▸ rfl

theorem outSet6_eq (L : grid0.Coords) : outSet6 L = rowSet (wL L) := by
  unfold outSet6
  show (((a6).view.slice (rowK L)).reshape S2048 squeezes_S1x2048_S2048.numel_eq).set = ((a5).view.slice (row (wL L))).set
  rw [View.set_reshape]
  exact rowK_eq L ▸ rfl

theorem rowSet_eq (w : Fin 32) : rowSet w = (row w).set := by
  show ((View.whole (main_v6_0_scv : Ref sig .scVector)).slice (row w)).set = _
  rw [View.set_slice]; exact Finset.map_refl

theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h

theorem rows_cover : (Finset.univ : Finset (Fin 32)).biUnion rowSet = Finset.univ :=
  (Finset.biUnion_congr rfl fun i _ => rowSet_eq i).trans (Rect.biUnion_part hdiv)

/-- Rows are numbered by (SparseCore, subcore): (c, i) ↦ 2*i + c. -/
def rowEquiv : Fin 2 × Fin 16 ≃ Fin 32 where
  toFun p := ⟨2 * p.2.val + p.1.val, by omega⟩
  invFun w := (⟨w.val % 2, by omega⟩, ⟨w.val / 2, by omega⟩)
  left_inv p := Prod.ext (Fin.ext (by show (2 * p.2.val + p.1.val) % 2 = p.1.val; omega))
    (Fin.ext (by show (2 * p.2.val + p.1.val) / 2 = p.2.val; omega))
  right_inv w := Fin.ext (by show 2 * (w.val / 2) + w.val % 2 = w.val; omega)

theorem wL_coordsV (c : Fin 2) (i : Fin 16) : wL (coordsV c i) = rowEquiv (c, i) := rfl

/-- The locations of the five arrays of the call on device d. -/
abbrev v2Loc (d : Dev nD) : Loc nD τ sig := (SparseCore.T d).loc main_v2
abbrev v3Loc (d : Dev nD) : Loc nD τ sig := (SparseCore.T d).loc main_v3
abbrev v5Loc (d : Dev nD) : Loc nD τ sig := (SparseCore.T d).loc main_v5
abbrev o5Loc (d : Dev nD) : Loc nD τ sig := (SparseCore.T d).loc main_v6_0
abbrev o6Loc (d : Dev nD) : Loc nD τ sig := (SparseCore.T d).loc main_v6_1

/-- A whole result array is its 32 rows, numbered by (SparseCore, subcore). -/
theorem o5_rows (d : Dev nD) (f : Buf (Elt F) (o5Loc d)) :
    (o5Loc d ↦{fullShare} f : sProp 𝕄)
      = bigSep Finset.univ fun c : Fin 2 => bigSep Finset.univ fun i : Fin 16 => o5Loc d ↦[outSet5 (coordsV c i)]{fullShare} f := by
  rw [← bigSep_univ_prod (fun p : Fin 2 × Fin 16 => (o5Loc d ↦[outSet5 (coordsV p.1 p.2)]{fullShare} f : sProp 𝕄)),
    bigSep_congr (s := Finset.univ) (Ψ := fun p : Fin 2 × Fin 16 => (o5Loc d ↦[rowSet (rowEquiv p)]{fullShare} f : sProp 𝕄))
      (fun p _ => by rw [outSet5_eq, wL_coordsV]),
    ← bigSep_univ_equiv rowEquiv (fun w : Fin 32 => (o5Loc d ↦[rowSet w]{fullShare} f : sProp 𝕄)),
    ← pointsTo_biUnion Finset.univ (ℓ := o5Loc d) rowSet rows_disjoint, rows_cover]
  try rfl

theorem o6_rows (d : Dev nD) (f : Buf (Elt F) (o6Loc d)) :
    (o6Loc d ↦{fullShare} f : sProp 𝕄)
      = bigSep Finset.univ fun c : Fin 2 => bigSep Finset.univ fun i : Fin 16 => o6Loc d ↦[outSet6 (coordsV c i)]{fullShare} f := by
  rw [← bigSep_univ_prod (fun p : Fin 2 × Fin 16 => (o6Loc d ↦[outSet6 (coordsV p.1 p.2)]{fullShare} f : sProp 𝕄)),
    bigSep_congr (s := Finset.univ) (Ψ := fun p : Fin 2 × Fin 16 => (o6Loc d ↦[rowSet (rowEquiv p)]{fullShare} f : sProp 𝕄))
      (fun p _ => by rw [outSet6_eq, wL_coordsV]),
    ← bigSep_univ_equiv rowEquiv (fun w : Fin 32 => (o6Loc d ↦[rowSet w]{fullShare} f : sProp 𝕄)),
    ← pointsTo_biUnion Finset.univ (ℓ := o6Loc d) rowSet rows_disjoint, rows_cover]
  try rfl

/-! ## What travels -/

variable [FloatOps F]
variable (c2 : (d : Dev nD) → Buf (Elt F) (v2Loc d)) (c3 : (d : Dev nD) → Buf (Elt F) (v3Loc d))
  (c5 : (d : Dev nD) → Buf (Elt F) (v5Loc d))

/-- SparseCore c's read share of an array, and the share of its subcore i. -/
abbrev qC (c : Fin 2) : PosShare TreeShare := Transfers.shareTok fullShare 2 c
abbrev qT (c : Fin 2) (i : Fin 16) : PosShare TreeShare := Transfers.shareTok (qC c) 16 i

/-- What the task on SparseCore c, subcore i holds: a read share of each of the three arrays, and its row of
    each result array at some contents. -/
def tileRes (d : Dev nD) (c : Fin 2) (i : Fin 16) : sProp 𝕄 :=
  iprop((v2Loc d ↦{qT c i} c2 d) ∗ (v3Loc d ↦{qT c i} c3 d) ∗ (v5Loc d ↦{qT c i} c5 d)
    ∗ (∃ f, o5Loc d ↦[outSet5 (coordsV c i)]{fullShare} f) ∗ (∃ f, o6Loc d ↦[outSet6 (coordsV c i)]{fullShare} f))

/-- What SparseCore c holds for its sixteen tasks. -/
def coreRes (d : Dev nD) (c : Fin 2) : sProp 𝕄 :=
  iprop((v2Loc d ↦{qC c} c2 d) ∗ (v3Loc d ↦{qC c} c3 d) ∗ (v5Loc d ↦{qC c} c5 d)
    ∗ bigSep Finset.univ fun i : Fin 16 =>
        iprop((∃ f, o5Loc d ↦[outSet5 (coordsV c i)]{fullShare} f) ∗ (∃ f, o6Loc d ↦[outSet6 (coordsV c i)]{fullShare} f)))

/-- The read shares SparseCore c keeps while its tasks run. -/
def coreRem (d : Dev nD) (c : Fin 2) : sProp 𝕄 :=
  iprop((v2Loc d ↦{Transfers.shareDrop (qC c) 16} c2 d) ∗ (v3Loc d ↦{Transfers.shareDrop (qC c) 16} c3 d)
    ∗ (v5Loc d ↦{Transfers.shareDrop (qC c) 16} c5 d))

/-- The read shares the caller keeps while the call runs. -/
def callRem (d : Dev nD) : sProp 𝕄 :=
  iprop((v2Loc d ↦{Transfers.shareDrop fullShare 2} c2 d) ∗ (v3Loc d ↦{Transfers.shareDrop fullShare 2} c3 d)
    ∗ (v5Loc d ↦{Transfers.shareDrop fullShare 2} c5 d))

/-- What the handshakes carry: the call hands each SparseCore its resources and gets them back; a SparseCore
    hands each task its resources and gets them back. -/
def P : (K (F := F)).Pay (nD := nD) (Val := Elt F) (Name := ℕ) (U := UU) where
  st := fun q d c => match q with | 0 => coreRes c2 c3 c5 d (Fin.cast nCore_zero c)
  dn := fun q d c => match q with | 0 => coreRes c2 c3 c5 d (Fin.cast nCore_zero c)
  go := fun q d c i => match q with | 0 => tileRes c2 c3 c5 d (Fin.cast nCore_zero c) (Fin.cast nSub_zero i)
  td := fun q d c i => match q with | 0 => tileRes c2 c3 c5 d (Fin.cast nCore_zero c) (Fin.cast nSub_zero i)
  x := fun _ _ => iprop(emp)

instance tileRes_storable (d : Dev nD) (c : Fin 2) (i : Fin 16) : BI.Storable (upEmb : UEmb _ 𝕄) (tileRes c2 c3 c5 d c i) := by
  unfold tileRes; infer_instance
instance coreRes_storable (d : Dev nD) (c : Fin 2) : BI.Storable (upEmb : UEmb _ 𝕄) (coreRes c2 c3 c5 d c) := by
  unfold coreRes; infer_instance

instance P_storable : (P (F := F) c2 c3 c5).IsStorable where
  st q d c := match q with | 0 => coreRes_storable c2 c3 c5 d (Fin.cast nCore_zero c)
  dn q d c := match q with | 0 => coreRes_storable c2 c3 c5 d (Fin.cast nCore_zero c)
  go q d c i := match q with | 0 => tileRes_storable c2 c3 c5 d (Fin.cast nCore_zero c) (Fin.cast nSub_zero i)
  td q d c i := match q with | 0 => tileRes_storable c2 c3 c5 d (Fin.cast nCore_zero c) (Fin.cast nSub_zero i)

/-! ## Splitting and joining -/

omit [FloatOps F] in
/-- Two assertions that entail each other are equal. -/
theorem eq_of_entails {A B : sProp 𝕄} (h1 : A ⊢ B) (h2 : B ⊢ A) : A = B := BI.equiv_iff.mp ⟨h1, h2⟩

omit [FloatOps F] in
/-- A points-to at a share is the remainder after n read tokens, and the n tokens. -/
theorem toks_eq {ℓ : Loc nD τ sig} (f : Buf (Elt F) ℓ) (q : PosShare TreeShare) (n : ℕ) :
    (ℓ ↦{q} f : sProp 𝕄)
      = iprop((ℓ ↦{Transfers.shareDrop q n} f) ∗ bigSep Finset.univ fun i : Fin n => ℓ ↦{Transfers.shareTok q n i} f) :=
  BI.equiv_iff.mp ⟨(Transfers.pointsTo_toks q n).1, (Transfers.pointsTo_toks q n).2⟩

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's resources are what it keeps and its sixteen tasks' resources. -/
theorem coreRes_eq (d : Dev nD) (c : Fin 2) :
    coreRes c2 c3 c5 d c = iprop(coreRem c2 c3 c5 d c ∗ bigSep Finset.univ fun i : Fin 16 => tileRes c2 c3 c5 d c i) := by
  unfold coreRes coreRem tileRes
  simp only [bigSep_sep']
  rw [toks_eq (c2 d) (qC c) 16, toks_eq (c3 d) (qC c) 16, toks_eq (c5 d) (qC c) 16]
  refine eq_of_entails ?_ ?_
  · iintro ⟨⟨D2, B2⟩, ⟨D3, B3⟩, ⟨D5, B5⟩, R5, R6⟩
    isplitl [D2 D3 D5]
    · isplitl [D2]; · iexact D2
      isplitl [D3]; · iexact D3
      iexact D5
    · isplitl [B2]; · iexact B2
      isplitl [B3]; · iexact B3
      isplitl [B5]; · iexact B5
      isplitl [R5]; · iexact R5
      iexact R6
  · iintro ⟨⟨D2, D3, D5⟩, B2, B3, B5, R5, R6⟩
    isplitl [D2 B2]
    · isplitl [D2]; · iexact D2
      iexact B2
    isplitl [D3 B3]
    · isplitl [D3]; · iexact D3
      iexact B3
    isplitl [D5 B5]
    · isplitl [D5]; · iexact D5
      iexact B5
    isplitl [R5]; · iexact R5
    iexact R6

/-- How a SparseCore's resources split into its tasks' and come back. -/
theorem vecSplit : (K (F := F)).VecSplit' (P c2 c3 c5) 0 := by
  intro d c
  show coreRes c2 c3 c5 d (Fin.cast nCore_zero c) ⊢ |={Set.univ}=> iprop(
      (bigSep Finset.univ fun i : Fin ((K (F := F)).nSub 0) => tileRes c2 c3 c5 d (Fin.cast nCore_zero c) (Fin.cast nSub_zero i))
      ∗ ((bigSep Finset.univ fun i : Fin ((K (F := F)).nSub 0) => tileRes c2 c3 c5 d (Fin.cast nCore_zero c) (Fin.cast nSub_zero i))
          -∗ coreRes c2 c3 c5 d (Fin.cast nCore_zero c)))
  rw [bigSep_tasks (F := F) (fun i => tileRes c2 c3 c5 d (Fin.cast nCore_zero c) i), coreRes_eq]
  iintro ⟨HR, HB⟩; imodintro
  isplitl [HB]; · iexact HB
  iintro HB'
  isplitl [HR]; · iexact HR
  iexact HB'

/-! ## The whole call -/

omit [FloatOps F] in
theorem out5_disjoint : ∀ p ∈ (Finset.univ : Finset (Fin 2 × Fin 16)), ∀ p' ∈ (Finset.univ : Finset (Fin 2 × Fin 16)), p ≠ p' →
    Disjoint (outSet5 (coordsV p.1 p.2)) (outSet5 (coordsV p'.1 p'.2)) := fun p _ p' _ h => by
  rw [outSet5_eq, outSet5_eq, wL_coordsV, wL_coordsV]
  exact rows_disjoint _ (Finset.mem_univ _) _ (Finset.mem_univ _) fun e => h (rowEquiv.injective e)
omit [FloatOps F] in
theorem out6_disjoint : ∀ p ∈ (Finset.univ : Finset (Fin 2 × Fin 16)), ∀ p' ∈ (Finset.univ : Finset (Fin 2 × Fin 16)), p ≠ p' →
    Disjoint (outSet6 (coordsV p.1 p.2)) (outSet6 (coordsV p'.1 p'.2)) := fun p _ p' _ h => by
  rw [outSet6_eq, outSet6_eq, wL_coordsV, wL_coordsV]
  exact rows_disjoint _ (Finset.mem_univ _) _ (Finset.mem_univ _) fun e => h (rowEquiv.injective e)

omit [FloatOps F] in
theorem rowsP_cover : (Finset.univ : Finset (Fin 2 × Fin 16)).biUnion (fun p => rowSet (rowEquiv p)) = Finset.univ := by
  ext x
  simp only [Finset.mem_biUnion, Finset.mem_univ, true_and, iff_true]
  have hx : x ∈ (Finset.univ : Finset (Fin 32)).biUnion rowSet := by rw [rows_cover]; exact Finset.mem_univ _
  obtain ⟨w, -, hw⟩ := Finset.mem_biUnion.mp hx
  exact ⟨rowEquiv.symm w, by rw [Equiv.apply_symm_apply]; exact hw⟩
omit [FloatOps F] in
theorem out5_cover : (Finset.univ : Finset (Fin 2 × Fin 16)).biUnion (fun p => outSet5 (coordsV p.1 p.2)) = Finset.univ :=
  (Finset.biUnion_congr rfl fun p _ => (outSet5_eq _).trans (congrArg rowSet (wL_coordsV p.1 p.2))).trans rowsP_cover
omit [FloatOps F] in
theorem out6_cover : (Finset.univ : Finset (Fin 2 × Fin 16)).biUnion (fun p => outSet6 (coordsV p.1 p.2)) = Finset.univ :=
  (Finset.biUnion_congr rfl fun p _ => (outSet6_eq _).trans (congrArg rowSet (wL_coordsV p.1 p.2))).trans rowsP_cover

omit [FloatOps F] in
/-- Held at given contents is held at some contents. -/
theorem pts_ex {ℓ : Loc nD τ sig} (S : Finset (Idx ℓ)) (f : Buf (Elt F) ℓ) :
    (ℓ ↦[S]{fullShare} f : sProp 𝕄) ⊢ iprop(∃ g, ℓ ↦[S]{fullShare} g) := by
  iintro H; iexists f; iexact H

/-- Some contents of a whole result array is some contents of each of its 32 rows. -/
theorem o5_rows_ex (d : Dev nD) :
    (iprop(∃ f, o5Loc d ↦{fullShare} f) : sProp 𝕄)
      = bigSep Finset.univ fun c : Fin 2 => bigSep Finset.univ fun i : Fin 16 =>
          iprop(∃ f, o5Loc d ↦[outSet5 (coordsV c i)]{fullShare} f) := by
  refine eq_of_entails ?_ ?_
  · iintro ⟨%f, H⟩
    iapply (show (o5Loc d ↦{fullShare} f : sProp 𝕄) ⊢ _ from by
      rw [o5_rows d f]
      exact bigSep_mono fun c _ => bigSep_mono fun i _ => pts_ex _ f)
    iexact H
  · rw [← bigSep_univ_prod (fun p : Fin 2 × Fin 16 =>
      (iprop(∃ f, o5Loc d ↦[outSet5 (coordsV p.1 p.2)]{fullShare} f) : sProp 𝕄))]
    refine (bigSep_exists_pi Finset.univ (fun (p : Fin 2 × Fin 16) (f : Buf (Elt F) (o5Loc d)) =>
      (o5Loc d ↦[outSet5 (coordsV p.1 p.2)]{fullShare} f : sProp 𝕄))).trans ?_
    iintro ⟨%fs, H⟩
    ihave H' := (pointsTo_biUnion_join Finset.univ (fun p : Fin 2 × Fin 16 => outSet5 (coordsV p.1 p.2)) fs (fs (0, 0)) out5_disjoint) $$ H
    icases H' with ⟨%g, -, Hg⟩
    rw [out5_cover]
    iexists g; iexact Hg

theorem o6_rows_ex (d : Dev nD) :
    (iprop(∃ f, o6Loc d ↦{fullShare} f) : sProp 𝕄)
      = bigSep Finset.univ fun c : Fin 2 => bigSep Finset.univ fun i : Fin 16 =>
          iprop(∃ f, o6Loc d ↦[outSet6 (coordsV c i)]{fullShare} f) := by
  refine eq_of_entails ?_ ?_
  · iintro ⟨%f, H⟩
    iapply (show (o6Loc d ↦{fullShare} f : sProp 𝕄) ⊢ _ from by
      rw [o6_rows d f]
      exact bigSep_mono fun c _ => bigSep_mono fun i _ => pts_ex _ f)
    iexact H
  · rw [← bigSep_univ_prod (fun p : Fin 2 × Fin 16 =>
      (iprop(∃ f, o6Loc d ↦[outSet6 (coordsV p.1 p.2)]{fullShare} f) : sProp 𝕄))]
    refine (bigSep_exists_pi Finset.univ (fun (p : Fin 2 × Fin 16) (f : Buf (Elt F) (o6Loc d)) =>
      (o6Loc d ↦[outSet6 (coordsV p.1 p.2)]{fullShare} f : sProp 𝕄))).trans ?_
    iintro ⟨%fs, H⟩
    ihave H' := (pointsTo_biUnion_join Finset.univ (fun p : Fin 2 × Fin 16 => outSet6 (coordsV p.1 p.2)) fs (fs (0, 0)) out6_disjoint) $$ H
    icases H' with ⟨%g, -, Hg⟩
    rw [out6_cover]
    iexists g; iexact Hg

/-- The five arrays held whole are the two SparseCores' resources and what the caller keeps. -/
theorem fullRes_eq (d : Dev nD) :
    (iprop((v2Loc d ↦{fullShare} c2 d) ∗ (v3Loc d ↦{fullShare} c3 d) ∗ (v5Loc d ↦{fullShare} c5 d)
        ∗ (∃ f, o5Loc d ↦{fullShare} f) ∗ (∃ f, o6Loc d ↦{fullShare} f)) : sProp 𝕄)
      = iprop((bigSep Finset.univ fun c : Fin 2 => coreRes c2 c3 c5 d c) ∗ callRem c2 c3 c5 d) := by
  unfold coreRes callRem
  simp only [bigSep_sep']
  rw [o5_rows_ex, o6_rows_ex, toks_eq (c2 d) fullShare 2, toks_eq (c3 d) fullShare 2, toks_eq (c5 d) fullShare 2]
  refine eq_of_entails ?_ ?_
  · iintro ⟨⟨D2, B2⟩, ⟨D3, B3⟩, ⟨D5, B5⟩, R5, R6⟩
    isplitr [D2 D3 D5]
    · isplitl [B2]; · iexact B2
      isplitl [B3]; · iexact B3
      isplitl [B5]; · iexact B5
      isplitl [R5]; · iexact R5
      iexact R6
    · isplitl [D2]; · iexact D2
      isplitl [D3]; · iexact D3
      iexact D5
  · iintro ⟨⟨B2, B3, B5, R5, R6⟩, D2, D3, D5⟩
    isplitl [D2 B2]
    · isplitl [D2]; · iexact D2
      iexact B2
    isplitl [D3 B3]
    · isplitl [D3]; · iexact D3
      iexact B3
    isplitl [D5 B5]
    · isplitl [D5]; · iexact D5
      iexact B5
    isplitl [R5]; · iexact R5
    iexact R6

/-- From the five arrays held whole to what the call hands the SparseCores, and what the caller keeps. -/
theorem st_of_full (d : Dev nD) :
    (iprop((v2Loc d ↦{fullShare} c2 d) ∗ (v3Loc d ↦{fullShare} c3 d) ∗ (v5Loc d ↦{fullShare} c5 d)
        ∗ (∃ f, o5Loc d ↦{fullShare} f) ∗ (∃ f, o6Loc d ↦{fullShare} f)) : sProp 𝕄)
      ⊢ iprop((bigSep Finset.univ fun c : Fin ((K (F := F)).nCore 0) => (P c2 c3 c5).st 0 d c) ∗ callRem c2 c3 c5 d) := by
  show _ ⊢ iprop((bigSep Finset.univ fun c : Fin ((K (F := F)).nCore 0) => coreRes c2 c3 c5 d (Fin.cast nCore_zero c)) ∗ callRem c2 c3 c5 d)
  rw [bigSep_cores (F := F) (fun c => coreRes c2 c3 c5 d c), ← fullRes_eq]

/-- … and back, from what the SparseCores hand back and what the caller kept. -/
theorem full_of_dn (d : Dev nD) :
    (iprop((bigSep Finset.univ fun c : Fin ((K (F := F)).nCore 0) => (P c2 c3 c5).dn 0 d c) ∗ callRem c2 c3 c5 d) : sProp 𝕄)
      ⊢ iprop((v2Loc d ↦{fullShare} c2 d) ∗ (v3Loc d ↦{fullShare} c3 d) ∗ (v5Loc d ↦{fullShare} c5 d)
        ∗ (∃ f, o5Loc d ↦{fullShare} f) ∗ (∃ f, o6Loc d ↦{fullShare} f)) := by
  show iprop((bigSep Finset.univ fun c : Fin ((K (F := F)).nCore 0) => coreRes c2 c3 c5 d (Fin.cast nCore_zero c)) ∗ callRem c2 c3 c5 d) ⊢ _
  rw [bigSep_cores (F := F) (fun c => coreRes c2 c3 c5 d c), ← fullRes_eq]

end Cert.KernelIdeal.Launch

end
-- ==== Proof.TcRegion.lean ====
/-
  The TensorCore pipeline call of @main (custom call 1): seven whole-array windows on a grid of one point — six operands
  fetched into staging buffers, one result written back. Its value as a pure function of the six operand arrays
  (`tcOut`: the body's one store's payload over what its loads read), the body's triple on whole staging buffers, the
  pipeline's proof data (every operand's staging buffer holds the array, the result's holds `tcOut`; nothing owed, no
  semaphore of the kernel's own), and the call's run inside @main on a TensorCore that has finished its SparseCore call:
  the operand arrays unchanged, the result array at `tcOut` of them, the region boundary and the core's debt handed back.
-/
import proofs.«209090_g87076166960129_cont_sun_c4_39_31_alg».proof.Proof.Gen.KernelIdeal.Launch
import proofs.«209090_g87076166960129_cont_sun_c4_39_31_alg».proof.Proof.Gen.KernelIdeal.Skeleton
import proofs.«209090_g87076166960129_cont_sun_c4_39_31_alg».proof.Proof.Gen.KernelIdeal.Points
import Idealize.ShloMosaic.Lib.Pipeline.Regions
import Idealize.ShloMosaic.Lib.Pipeline.FrameBody
import Idealize.ShloMosaic.Lib.Pipeline.Value
import Idealize.ShloMosaic.Lib.SparseCore.Launch
import Idealize.ShloMosaic.Lib.Tactic

noncomputable section

namespace Cert.KernelIdeal.TcRegion

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

/-! ## The zero offsets, spelt as the printed accesses spell them -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The value of the call -/

/-- The two rows of the coordinate arrays and of the current point's, and the two parameter words, as the body's loads
    read them. -/
abbrev rowA0 : Rect S2x8x2048 := Rect.unit (s := S2x8x2048) ![0, 0, 0] S1x8x2048.size inb_S2x8x2048_S1x8x2048_0_0_0
abbrev rowA1 : Rect S2x8x2048 := Rect.unit (s := S2x8x2048) ![1, 0, 0] S1x8x2048.size inb_S2x8x2048_S1x8x2048_1_0_0
abbrev rowC0 : Rect S2x8x1 := Rect.unit (s := S2x8x1) ![0, 0, 0] S1x8x1.size inb_S2x8x1_S1x8x1_0_0_0
abbrev rowC1 : Rect S2x8x1 := Rect.unit (s := S2x8x1) ![1, 0, 0] S1x8x1.size inb_S2x8x1_S1x8x1_1_0_0
abbrev word0 : Rect S2 := Rect.unit (s := S2) ![0] S1.size inb_S2_S1_0
abbrev word1 : Rect S2 := Rect.unit (s := S2) ![1] S1.size inb_S2_S1_1

theorem word0_pos : 0 < word0.shape.numel := by decide
theorem word1_pos : 0 < word1.shape.numel := by decide

/-- What the call leaves in its result, from its six operands: the body's one store's payload over what its loads read —
    the two clipped parameters, the two partial-sum arrays whole, row 0 and row 1 of the coordinates and of the current
    point, and the mask whole. -/
def tcOut (a7 a8 : Vec F S8x4x2048 .f32) (a9 : Vec F S2x8x2048 .f32) (a11 : Vec F S2x8x1 .f32) (a12 : Vec F S8x2048 .f32)
    (a15 : Vec F S2 .f32) : FVec F S8x2048 .f32 :=
  k1_pay1 (k1_pay2 (View.ld a15 word0 (Shape.Idx.first word0_pos)) (View.ld a15 word1 (Shape.Idx.first word1_pos)) a7 a8
    (View.ld a9 rowA0) (View.ld a11 rowC0) (View.ld a9 rowA1) (View.ld a11 rowC1)) a12

abbrev outRect : Rect S8x2048 := Rect.unit (s := S8x2048) ![0, 0] S8x2048.size inb_S8x2048_S8x2048_0_0

/-- The body's one store covers the result's staging buffer. -/
theorem cover6 (p0 : Vec F S8x2048 .f32) (y : S8x2048.Idx) :
    ∃ pc ∈ ([⟨outRect, p0⟩] : List (View.Piece (Elt F) S8x2048 .f32)), y ∈ pc.1.set :=
  ⟨⟨outRect, p0⟩, List.mem_singleton_self _, View.mem_set_unit_zero (S := S8x2048) hz2 inb_S8x2048_S8x2048_0_0 y⟩

/-- The body's one store, read back: its payload over the loads' readings, each whole-buffer load reading the
    buffer's contents. Stated over any two payload functions. -/
theorem out_eq
    (g1 : FVec F S8x2048 .f32 → Vec F S8x2048 .f32 → FVec F S8x2048 .f32)
    (g2 : Elt F .f32 → Elt F .f32 → Vec F S8x4x2048 .f32 → Vec F S8x4x2048 .f32 → Vec F S1x8x2048 .f32 → Vec F S1x8x1 .f32
      → Vec F S1x8x2048 .f32 → Vec F S1x8x1 .f32 → FVec F S8x2048 .f32)
    (arg0 arg1 : Memref sig .tc .vmem S8x4x2048 .f32) (arg2 : Memref sig .tc .vmem S2x8x2048 .f32) (arg3 : Memref sig .tc .vmem S2x8x1 .f32)
    (arg4 : Memref sig .tc .vmem S8x2048 .f32) (arg5 : Memref sig .tc .smem S2 .f32) (arg6 : Memref sig .tc .vmem S8x2048 .f32)
    (f0 : arg0.view.ty.Contents (Elt F)) (f1 : arg1.view.ty.Contents (Elt F)) (f2 : arg2.view.ty.Contents (Elt F))
    (f3 : arg3.view.ty.Contents (Elt F)) (f4 : arg4.view.ty.Contents (Elt F)) (f5 : arg5.view.ty.Contents (Elt F))
    (f6 : arg6.view.ty.Contents (Elt F)) (h0 : 0 < word0.shape.numel) (h1 : 0 < word1.shape.numel) :
    View.read (Elt F) arg6.view (arg6.view.writes (Elt F) f6
      [⟨Rect.unit (s := S8x2048) ![0, 0] S8x2048.size inb_S8x2048_S8x2048_0_0,
        g1 (g2 (View.readAt (Elt F) arg5.view word0.toLoadRect f5 (Shape.Idx.first h0))
              (View.readAt (Elt F) arg5.view word1.toLoadRect f5 (Shape.Idx.first h1))
              (View.readAt (Elt F) arg0.view (Rect.unit (s := S8x4x2048) ![0, 0, 0] S8x4x2048.size inb_S8x4x2048_S8x4x2048_0_0_0).toLoadRect f0)
              (View.readAt (Elt F) arg1.view (Rect.unit (s := S8x4x2048) ![0, 0, 0] S8x4x2048.size inb_S8x4x2048_S8x4x2048_0_0_0).toLoadRect f1)
              (View.readAt (Elt F) arg2.view rowA0.toLoadRect f2) (View.readAt (Elt F) arg3.view rowC0.toLoadRect f3)
              (View.readAt (Elt F) arg2.view rowA1.toLoadRect f2) (View.readAt (Elt F) arg3.view rowC1.toLoadRect f3))
          (View.readAt (Elt F) arg4.view (Rect.unit (s := S8x2048) ![0, 0] S8x2048.size inb_S8x2048_S8x2048_0_0).toLoadRect f4)⟩])
    = g1 (g2 (View.ld (View.read (Elt F) arg5.view f5) word0 (Shape.Idx.first word0_pos))
              (View.ld (View.read (Elt F) arg5.view f5) word1 (Shape.Idx.first word1_pos))
              (View.read (Elt F) arg0.view f0) (View.read (Elt F) arg1.view f1)
              (View.ld (View.read (Elt F) arg2.view f2) rowA0) (View.ld (View.read (Elt F) arg3.view f3) rowC0)
              (View.ld (View.read (Elt F) arg2.view f2) rowA1) (View.ld (View.read (Elt F) arg3.view f3) rowC1))
          (View.read (Elt F) arg4.view f4) := by
  rw [View.read_writes_eq_canon _ _ _ (cover6 _), View.canon_unit_zero (S := S8x2048) hz2]
  simp only [View.readAt_eq_ld, View.ld_unit_zero (S := S8x4x2048) hz3, View.ld_unit_zero (S := S8x2048) hz2]
/-! ## The body on whole staging buffers -/

set_option maxHeartbeats 1000000 in
/-- The kernel body on whole staging memrefs, the six operands' at read contents and the result's at anything, runs to
    the continuation holding the operands' as they were and the result's at `tcOut` of them. -/
theorem sound_kernel (c : Dev nD) (E : Set ℕ)
    (arg0 : Memref sig .tc .vmem S8x4x2048 .f32) (harg0 : arg0.IsWhole) (arg1 : Memref sig .tc .vmem S8x4x2048 .f32) (harg1 : arg1.IsWhole)
    (arg2 : Memref sig .tc .vmem S2x8x2048 .f32) (harg2 : arg2.IsWhole) (arg3 : Memref sig .tc .vmem S2x8x1 .f32) (harg3 : arg3.IsWhole)
    (arg4 : Memref sig .tc .vmem S8x2048 .f32) (harg4 : arg4.IsWhole) (arg5 : Memref sig .tc .smem S2 .f32) (harg5 : arg5.IsWhole)
    (arg6 : Memref sig .tc .vmem S8x2048 .f32) (harg6 : arg6.IsWhole)
    (x0 x1 : Vec F S8x4x2048 .f32) (x2 : Vec F S2x8x2048 .f32) (x3 : Vec F S2x8x1 .f32) (x4 : Vec F S8x2048 .f32) (x5 : Vec F S2 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (tcOut x0 x1 x2 x3 x4 x5)) -∗ K ⟨⟩))
      ⊢ wp frame (wpE (defs₀ (F := F)) Variants.none c none) E (cc1__tc_body arg0 harg0 arg1 harg1 arg2 harg2 arg3 harg3 arg4 harg4 arg5 harg5 arg6 harg6) K := by
  sl_unfold [cc1__tc_body]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  unfold tcOut
  exact out_eq k1_pay1 k1_pay2 arg0 arg1 arg2 arg3 arg4 arg5 arg6 f0 f1 f2 f3 f4 f5 f6 _ _

/-! ## The region's proof data -/

section Region

variable (a7 a8 : Vec F S8x4x2048 .f32) (a9 : Vec F S2x8x2048 .f32) (a11 : Vec F S2x8x1 .f32) (a12 : Vec F S8x2048 .f32)
  (a15 : Vec F S2 .f32) (f16 : Vec F S8x2048 .f32)

/-- The prefetched tables' admissible contents: no table. -/
abbrev adm : (p : Fin 1) → (pcfgs (F := F) p).Adm := fun p => (cfgs p).toPCfg_adm

/-- The (own cell, index) pairs the TensorCore's waits may have recorded when the region is entered: those at levels the
    first SparseCore call's handshakes use. -/
def below (d : Dev nD) : Set (SemLoc sig × HIx 1) := {p | (sc (F := F)).lev (SparseCore.T d, p.1) p.2 ≤ 8 * 1}

/-- The proof data on device `d`: the six operand arrays at their contents and the result's at `f16`; after the body
    each operand's staging buffer as fetched and the result's at `tcOut`; the invariant the scoped rest; nothing owed. -/
def dats (_ : Fin 1) (d : Dev nD) : Dat τ (Elt F) (HIx 1) ℕ U ℕ cfg1 d where
  A w := match w with
    | ⟨0, _⟩ => a7
    | ⟨1, _⟩ => a8
    | ⟨2, _⟩ => a9
    | ⟨3, _⟩ => a11
    | ⟨4, _⟩ => a12
    | ⟨5, _⟩ => a15
    | ⟨6, _⟩ => f16
  after w _ := match w with
    | ⟨0, _⟩ => a7
    | ⟨1, _⟩ => a8
    | ⟨2, _⟩ => a9
    | ⟨3, _⟩ => a11
    | ⟨4, _⟩ => a12
    | ⟨5, _⟩ => a15
    | ⟨6, _⟩ => tcOut a7 a8 a9 a11 a12 a15
  Φ _ := Pipeline.scopedRest (Ix := HIx 1) (Name := ℕ) (U := U) (Lvl := ℕ) (Val := Elt F) spec1 d
  q _ := fullShare
  owed _ := 0
  recorded _ := below (F := F) d

local notation "𝔇" => dats (U := U) a7 a8 a9 a11 a12 a15 f16 0

theorem A_0 (d : Dev nD) : (𝔇 d).A 0 = a7 := by dsimp only [dats]
theorem A_1 (d : Dev nD) : (𝔇 d).A 1 = a8 := by dsimp only [dats]
theorem A_2 (d : Dev nD) : (𝔇 d).A 2 = a9 := by dsimp only [dats]
theorem A_3 (d : Dev nD) : (𝔇 d).A 3 = a11 := by dsimp only [dats]
theorem A_4 (d : Dev nD) : (𝔇 d).A 4 = a12 := by dsimp only [dats]
theorem A_5 (d : Dev nD) : (𝔇 d).A 5 = a15 := by dsimp only [dats]
theorem A_6 (d : Dev nD) : (𝔇 d).A 6 = f16 := by dsimp only [dats]

theorem after_0 (d : Dev nD) (t : Fin cfg1.N) : (𝔇 d).after 0 t = a7 := by dsimp only [dats]
theorem after_1 (d : Dev nD) (t : Fin cfg1.N) : (𝔇 d).after 1 t = a8 := by dsimp only [dats]
theorem after_2 (d : Dev nD) (t : Fin cfg1.N) : (𝔇 d).after 2 t = a9 := by dsimp only [dats]
theorem after_3 (d : Dev nD) (t : Fin cfg1.N) : (𝔇 d).after 3 t = a11 := by dsimp only [dats]
theorem after_4 (d : Dev nD) (t : Fin cfg1.N) : (𝔇 d).after 4 t = a12 := by dsimp only [dats]
theorem after_5 (d : Dev nD) (t : Fin cfg1.N) : (𝔇 d).after 5 t = a15 := by dsimp only [dats]
theorem after_6 (d : Dev nD) (t : Fin cfg1.N) : (𝔇 d).after 6 t = tcOut a7 a8 a9 a11 a12 a15 := by dsimp only [dats]

/-- A whole-array window's block, read off the array, is the array's contents. -/
theorem before_0 (d : Dev nD) (t : Fin cfg1.N) (x) : (𝔇 d).before 0 t x = a7 := by
  unfold Dat.before; rw [if_pos (fetch1_0 t)]
  show (𝔇 d).blockOf 0 t = a7
  unfold Dat.blockOf; rw [A_0]
  exact Memref.read_access_unit_zero (Elt F) main_v7 (funext fun a => Nat.zero_mul _) _ a7
theorem before_1 (d : Dev nD) (t : Fin cfg1.N) (x) : (𝔇 d).before 1 t x = a8 := by
  unfold Dat.before; rw [if_pos (fetch1_1 t)]
  show (𝔇 d).blockOf 1 t = a8
  unfold Dat.blockOf; rw [A_1]
  exact Memref.read_access_unit_zero (Elt F) main_v8 (funext fun a => Nat.zero_mul _) _ a8
theorem before_2 (d : Dev nD) (t : Fin cfg1.N) (x) : (𝔇 d).before 2 t x = a9 := by
  unfold Dat.before; rw [if_pos (fetch1_2 t)]
  show (𝔇 d).blockOf 2 t = a9
  unfold Dat.blockOf; rw [A_2]
  exact Memref.read_access_unit_zero (Elt F) main_v9 (funext fun a => Nat.zero_mul _) _ a9
theorem before_3 (d : Dev nD) (t : Fin cfg1.N) (x) : (𝔇 d).before 3 t x = a11 := by
  unfold Dat.before; rw [if_pos (fetch1_3 t)]
  show (𝔇 d).blockOf 3 t = a11
  unfold Dat.blockOf; rw [A_3]
  exact Memref.read_access_unit_zero (Elt F) main_v11 (funext fun a => Nat.zero_mul _) _ a11
theorem before_4 (d : Dev nD) (t : Fin cfg1.N) (x) : (𝔇 d).before 4 t x = a12 := by
  unfold Dat.before; rw [if_pos (fetch1_4 t)]
  show (𝔇 d).blockOf 4 t = a12
  unfold Dat.blockOf; rw [A_4]
  exact Memref.read_access_unit_zero (Elt F) main_v12 (funext fun a => Nat.zero_mul _) _ a12
theorem before_5 (d : Dev nD) (t : Fin cfg1.N) (x) : (𝔇 d).before 5 t x = a15 := by
  unfold Dat.before; rw [if_pos (fetch1_5 t)]
  show (𝔇 d).blockOf 5 t = a15
  unfold Dat.blockOf; rw [A_5]
  exact Memref.read_access_unit_zero (Elt F) main_v15 (funext fun a => Nat.zero_mul _) _ a15

/-! ## The body obligation -/

/-- What the body is called with at point `t`, the windows one by one, -/
def bodyPre (d : Dev nD) (t : Fin cfg1.N) : sProp 𝕄 :=
  iprop((𝔇 d).Φ t.castSucc ∗ (𝔇 d).owesAt none t.castSucc
    ∗ (∃ x, owns (d : Thread nD τ) (st1_0 t) fullShare ((𝔇 d).before 0 t x))
    ∗ (∃ x, owns (d : Thread nD τ) (st1_1 t) fullShare ((𝔇 d).before 1 t x))
    ∗ (∃ x, owns (d : Thread nD τ) (st1_2 t) fullShare ((𝔇 d).before 2 t x))
    ∗ (∃ x, owns (d : Thread nD τ) (st1_3 t) fullShare ((𝔇 d).before 3 t x))
    ∗ (∃ x, owns (d : Thread nD τ) (st1_4 t) fullShare ((𝔇 d).before 4 t x))
    ∗ (∃ x, owns (d : Thread nD τ) (st1_5 t) fullShare ((𝔇 d).before 5 t x))
    ∗ (∃ x, owns (d : Thread nD τ) (st1_6 t) fullShare ((𝔇 d).before 6 t x)))

/-- and what it returns. -/
def bodyPost (d : Dev nD) (t : Fin cfg1.N) : sProp 𝕄 :=
  iprop((𝔇 d).Φ t.succ ∗ (𝔇 d).owesAt none t.succ
    ∗ owns (d : Thread nD τ) (st1_0 t) fullShare ((𝔇 d).after 0 t)
    ∗ owns (d : Thread nD τ) (st1_1 t) fullShare ((𝔇 d).after 1 t)
    ∗ owns (d : Thread nD τ) (st1_2 t) fullShare ((𝔇 d).after 2 t)
    ∗ owns (d : Thread nD τ) (st1_3 t) fullShare ((𝔇 d).after 3 t)
    ∗ owns (d : Thread nD τ) (st1_4 t) fullShare ((𝔇 d).after 4 t)
    ∗ owns (d : Thread nD τ) (st1_5 t) fullShare ((𝔇 d).after 5 t)
    ∗ owns (d : Thread nD τ) (st1_6 t) fullShare ((𝔇 d).after 6 t))

/-- The body at the one point: the operands' staging buffers hold the arrays, so `sound_kernel` applies; the invariant
    and what the core owes pass through unread. -/
theorem sound_body (d : Dev nD) (t : Fin cfg1.N) :
    bodyPre a7 a8 a9 a11 a12 a15 f16 d t
      ⊢ wp frame (wpE (defs₀ (F := F)) Variants.none d none) Set.univ (bodyAt1 t) (fun _ => bodyPost (U := U) a7 a8 a9 a11 a12 a15 f16 d t) := by
  unfold bodyPre bodyPost bodyAt1
  simp only [before_0, before_1, before_2, before_3, before_4, before_5]
  rw [show (𝔇 d).Φ t.succ = (𝔇 d).Φ t.castSucc from rfl,
    show (𝔇 d).owesAt none t.succ = (𝔇 d).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel d Set.univ _ _ _ _ _ _ _ _ _ _ _ _ _ _ a7 a8 a9 a11 a12 a15 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation. -/
theorem body_obligation (d : Dev nD) : BodyObligation (𝔇 d) (defs₀ (F := F)) Variants.none none Set.univ := fun t => by
  rw [bigSep_W1, bigSep_W1]
  exact sound_body a7 a8 a9 a11 a12 a15 f16 d t

end Region

/-! ## The result array after the write-back -/

section Final

variable (a7 a8 : Vec F S8x4x2048 .f32) (a9 : Vec F S2x8x2048 .f32) (a11 : Vec F S2x8x1 .f32) (a12 : Vec F S8x2048 .f32)
  (a15 : Vec F S2 .f32) (f16 : Vec F S8x2048 .f32)

local notation "𝔇" => dats (U := U) a7 a8 a9 a11 a12 a15 f16 0

/-- An access to a whole buffer through the unit rectangle of its own sizes at zero offsets goes through all its elements. -/
theorem set_access_unit_zero {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

/-- The result window's one block is the whole array. -/
theorem blk6_set (t : Fin cfg1.N) : ((cfg1.win 6).blk t).view.set = Finset.univ :=
  set_access_unit_zero main_v16 (funext fun a => Nat.zero_mul _) _

/-- The result array after the one write-back holds the body's payload. -/
theorem arrAt_6 (d : Dev nD) : (𝔇 d).arrAt 6 cfg1.N = tcOut a7 a8 a9 a11 a12 a15 := by
  refine (𝔇 d).arrAt_eq_of_cover 6 (tcOut a7 a8 a9 a11 a12 a15) (fun t _ => ?_) (fun i => ⟨t1_0, flush1_6 _, ?_⟩)
  · show (cfg1.win 6).cut _ ((𝔇 d).after 6 t) = _
    rw [after_6]
    exact (Memref.read_access_unit_zero (Elt F) main_v16 (funext fun a => Nat.zero_mul _) _ _).symm
  · rw [blk6_set]; exact Finset.mem_univ _

end Final

/-! ## The region -/

section Seg

variable (ER : Emb (URounds (GSem nD τ sig) Unit) (MT nD τ sig (HIx 1) (Elt F) ℕ U ℕ))
variable (a7 a8 : Vec F S8x4x2048 .f32) (a9 : Vec F S2x8x2048 .f32) (a11 : Vec F S2x8x1 .f32) (a12 : Vec F S8x2048 .f32)
  (a15 : Vec F S2 .f32) (f16 : Vec F S8x2048 .f32)

local notation "𝔇" => dats (U := U) a7 a8 a9 a11 a12 a15 f16 0

/-- What the TensorCore owes when the region is entered, as its state after the SparseCore call holds it. -/
abbrev owesB (d : Dev nD) : sProp 𝕄 :=
  iprop(∃ W, ⌜(sc (F := F)).WBelow (SparseCore.T d) W (8 * 1)⌝ ∗ owes (SparseCore.T d) ((sc (F := F)).Otc d 1) W)

/-- The call's seven arrays on device `d`: the operands at their contents, the result at `r`. -/
abbrev arrs (d : Dev nD) (r : Vec F S8x2048 .f32) : sProp 𝕄 :=
  iprop((((SparseCore.T d).loc main_v7 ↦{fullShare} (a7 : Buf (Elt F) ((SparseCore.T d).loc main_v7))) : sProp 𝕄)
    ∗ (((SparseCore.T d).loc main_v8 ↦{fullShare} (a8 : Buf (Elt F) ((SparseCore.T d).loc main_v8))) : sProp 𝕄)
    ∗ (((SparseCore.T d).loc main_v9 ↦{fullShare} (a9 : Buf (Elt F) ((SparseCore.T d).loc main_v9))) : sProp 𝕄)
    ∗ (((SparseCore.T d).loc main_v11 ↦{fullShare} (a11 : Buf (Elt F) ((SparseCore.T d).loc main_v11))) : sProp 𝕄)
    ∗ (((SparseCore.T d).loc main_v12 ↦{fullShare} (a12 : Buf (Elt F) ((SparseCore.T d).loc main_v12))) : sProp 𝕄)
    ∗ (((SparseCore.T d).loc main_v15 ↦{fullShare} (a15 : Buf (Elt F) ((SparseCore.T d).loc main_v15))) : sProp 𝕄)
    ∗ (((SparseCore.T d).loc main_v16 ↦{fullShare} (r : Buf (Elt F) ((SparseCore.T d).loc main_v16))) : sProp 𝕄))

/-- The staging cells' ghost state and duty tokens on device `d`: what the launch hands the TensorCore for the region. -/
abbrev ghost (d : Dev nD) : sProp 𝕄 := iprop(Pipeline.cellsGhost cfgs ER 0 d ∗ Pipeline.toksInit cfgs ER 0 d)

theorem Otc_one (d : Dev nD) : (sc (F := F)).Otc d 1 = 0 := (sc (F := F)).Otc_end d (le_refl 1)

/-- After the one SparseCore call the TensorCore owes nothing. -/
theorem owesB_eq (d : Dev nD) :
    (owesB d : sProp 𝕄) = iprop(∃ W, ⌜(sc (F := F)).WBelow (SparseCore.T d) W (8 * 1)⌝ ∗ owes (SparseCore.T d) (0 : CellTallies nD τ sig (HIx 1)) W) := by
  unfold owesB; rw [Otc_one]

set_option maxHeartbeats 4000000 in
set_option backward.isDefEq.respectTransparency.types false in
/-- The region: the windows' decided layout, no semaphore of the kernel's own, the body obligation; entered from the seven
    arrays and what the core owes, left with the result at `tcOut`. -/
def reg : Pipeline.RegionSeg (pcfgs (F := F)) adm (dats (U := U) a7 a8 a9 a11 a12 a15 f16) none defs₀ Variants.none
    (sc (F := F)).L (sc (F := F)).lev 0 where
  win := launch1.win.to₀
  block_pos := launch1.block_pos
  stage_whole := launch1.stage_whole
  K := PEmpty
  osem := fun k => k.elim
  ho := Pipeline.OwnSemFacts.none _
  hbody d := (body_obligation a7 a8 a9 a11 a12 a15 f16 d).loose
  hwaits := Pipeline.hwaits_of_owed_zero _ _ _ _ _ _ 0 fun _ _ => rfl
  pre d := iprop(owesB d ∗ arrs a7 a8 a9 a11 a12 a15 d f16)
  post d := iprop(owesB d ∗ arrs a7 a8 a9 a11 a12 a15 d (tcOut a7 a8 a9 a11 a12 a15))
  X _ := iprop(emp)
  Y _ := iprop(emp)
  Z _ := iprop(emp)
  hentry d := by
    rw [Pipeline.arrays_eq cfgs (dats (U := U) a7 a8 a9 a11 a12 a15 f16) 0 d launch1.arr_whole ((𝔇 d).share_full fun _ => rfl), bigSep_W1,
      owesB_eq]
    iintro ⟨⟨⟨%W, %hW, HO⟩, H7, H8, H9, H11, H12, H15, H16⟩, -, -⟩
    imodintro
    isplitl [H7 H8 H9 H11 H12 H15 H16]
    · isplitl [H7]; · iexact H7
      isplitl [H8]; · iexact H8
      isplitl [H9]; · iexact H9
      isplitl [H11]; · iexact H11
      isplitl [H12]; · iexact H12
      isplitl [H15]; · iexact H15
      iexact H16
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitl [] <;> iempintro
  hin d := by
    rw [show (𝔇 d).Φ 0 = Pipeline.scopedRest spec1 d from rfl]
    iintro ⟨-, -, Hr⟩; iexact Hr
  hout d := by
    rw [show (𝔇 d).Φ (Fin.last cfg1.N) = Pipeline.scopedRest spec1 d from rfl, Pipeline.ownSems0_none]
    iintro Hr
    isplitr; · iempintro
    isplitr; · iempintro
    iexact Hr
  hexit d := by
    rw [Pipeline.arrays_eq cfgs (dats (U := U) a7 a8 a9 a11 a12 a15 f16) 0 d launch1.arr_whole ((𝔇 d).share_full fun _ => rfl), bigSep_W1,
      (𝔇 d).arrAt_in 0 rfl, (𝔇 d).arrAt_in 1 rfl, (𝔇 d).arrAt_in 2 rfl, (𝔇 d).arrAt_in 3 rfl, (𝔇 d).arrAt_in 4 rfl, (𝔇 d).arrAt_in 5 rfl,
      arrAt_6, A_0, A_1, A_2, A_3, A_4, A_5, owesB_eq]
    iintro ⟨⟨H7, H8, H9, H11, H12, H15, H16⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨w, s, rfl⟩
        · exact h
        · exact Nat.zero_le _
      iexact HO
    isplitl [H7]; · iexact H7
    isplitl [H8]; · iexact H8
    isplitl [H9]; · iexact H9
    isplitl [H11]; · iexact H11
    isplitl [H12]; · iexact H12
    isplitl [H15]; · iexact H15
    iexact H16

theorem reg_pre (d : Dev nD) : (reg (U := U) a7 a8 a9 a11 a12 a15 f16).pre d = iprop(owesB d ∗ arrs a7 a8 a9 a11 a12 a15 d f16) := rfl
theorem reg_post (d : Dev nD) :
    (reg (U := U) a7 a8 a9 a11 a12 a15 f16).post d = iprop(owesB d ∗ arrs a7 a8 a9 a11 a12 a15 d (tcOut a7 a8 a9 a11 a12 a15)) := rfl

set_option backward.isDefEq.respectTransparency.types false in
/-- The call in the pipelines' own signature. -/
theorem wp_region₀ [∀ e, Nonempty (Elt F e)] [ER.LandsIn (upEmb : UEmb _ (MT nD τ sig (HIx 1) (Elt F) ℕ U ℕ))] (d : Dev nD)
    (Φ : PUnit → sProp 𝕄) :
    iprop(levAts (sc (F := F)).L (sc (F := F)).lev ∗ boundary (SparseCore.T d) ∗ owesB d ∗ arrs a7 a8 a9 a11 a12 a15 d f16 ∗ ghost ER d
        ∗ (iprop(boundary (SparseCore.T d) ∗ owesB d ∗ arrs a7 a8 a9 a11 a12 a15 d (tcOut a7 a8 a9 a11 a12 a15)) -∗ Φ ⟨⟩))
      ⊢ wp frame (wpE (Pipeline.defs (pcfgs (F := F)) defs₀) (Variants.none).lift (SparseCore.T d) none) Set.univ
          (.op (.customCall (Pipeline.entry (0 : Fin 1)) ()) fun u => .ret u) Φ := by
  iintro ⟨#Hlev, Hb, HO, Harr, ⟨Hcg, Htk⟩, Hk⟩
  iapply (Pipeline.RegionSeg.wp (pcfgs (F := F)) adm (dats (U := U) a7 a8 a9 a11 a12 a15 f16) none cellOf_inj ER defs₀ Variants.none
    (sc (F := F)).L (sc (F := F)).lev (reg a7 a8 a9 a11 a12 a15 f16) d none (fun _ h => nomatch h) (fun u => .ret u) Φ)
  rw [reg_pre, reg_post]
  isplitl [Hk]
  · iintro ⟨Hb, HO, Harr⟩
    rw [wp_ret]; imodintro
    iapply Hk
    isplitl [Hb]; · iexact Hb
    isplitl [HO]; · iexact HO
    iexact Harr
  isplitl [Hb]; · iexact Hb
  isplitl [HO Harr]
  · isplitl [HO]; · iexact HO
    iexact Harr
  isplitr; · iexact Hlev
  isplitl [Hcg]; · iexact Hcg
  iexact Htk

/-- THE CALL, inside @main on the TensorCore of `d`: from the level facts, the region boundary, what the core owes after
    the SparseCore call, the six operand arrays at named contents, the result array at any, and the staging cells' ghost
    state, the pipeline call runs to the continuation holding the boundary, the same debt, the operands unchanged and the
    result at `tcOut` of them. -/
theorem wp_region [∀ e, Nonempty (Elt F e)] [ER.LandsIn (upEmb : UEmb _ (MT nD τ sig (HIx 1) (Elt F) ℕ U ℕ))] (d : Dev nD)
    (Φ : PUnit → sProp 𝕄) :
    iprop(levAts (sc (F := F)).L (sc (F := F)).lev ∗ boundary (SparseCore.T d) ∗ owesB d ∗ arrs a7 a8 a9 a11 a12 a15 d f16 ∗ ghost ER d
        ∗ (iprop(boundary (SparseCore.T d) ∗ owesB d ∗ arrs a7 a8 a9 a11 a12 a15 d (tcOut a7 a8 a9 a11 a12 a15)) -∗ Φ ⟨⟩))
      ⊢ wp frame (wpE ((sc (F := F)).defs (Pipeline.defs pcfgs defs₀)) (Variants.none).lift (SparseCore.T d) none) Set.univ
          (Prog.lift (.customCall (SparseCore.inner (Pipeline.entry 0)) ())) Φ :=
  (wp_region₀ ER a7 a8 a9 a11 a12 a15 f16 d Φ).trans
    ((sc (F := F)).wp_liftProg (Pipeline.defs pcfgs defs₀) (Variants.none).lift (SparseCore.T d) Set.univ none
      (.op (.customCall (Pipeline.entry (0 : Fin 1)) ()) fun u => .ret u) Φ)

/-! ## What the launch funds -/

/-- From the rounds library's launch element at the staging cells and the pipeline's transfers, every device's `ghost`. -/
theorem fund :
    BI.own (ER (initOf (Pipeline.cells cfgs cellOf_inj) (Pipeline.launchToks cfgs cellOf_inj)))
      ⊢ iprop(|==> bigSep Finset.univ fun d : Dev nD => ghost ER d) := by
  refine (Pipeline.fund_ghost cfgs ER cellOf_inj).trans (bupd_mono ?_)
  rw [bigSep_sep']
  refine sep_mono (bigSep_mono fun d _ => ?_) (bigSep_mono fun d _ => ?_)
  · exact Entails.of_eq (bigSep_univ_of_subsingleton (0 : Fin 1))
  · exact Entails.of_eq (bigSep_univ_of_subsingleton (0 : Fin 1))

end Seg

end Cert.KernelIdeal.TcRegion

end
-- ==== Proof.LaunchMain.lean ====
/-
  @main on a device's TensorCore, for the launch theorem of a program with one SparseCore call: the six layout operations,
  the SparseCore call — its three operands handed over whole at the regrouped arguments, its two results taken back at
  whatever the call left —, the nine operations after it, the pipeline call by its rule, and the eight arguments back at
  their launch contents; and what the final state then says of the memory.
-/
import proofs.«209090_g87076166960129_cont_sun_c4_39_31_alg».proof.Proof.HostOps
import proofs.«209090_g87076166960129_cont_sun_c4_39_31_alg».proof.Proof.LaunchPay
import proofs.«209090_g87076166960129_cont_sun_c4_39_31_alg».proof.Proof.TcRegion

noncomputable section

namespace Cert.KernelIdeal.Launch

open Cert.KernelIdeal Cert.KernelIdeal.Gen Cert.KernelIdeal.Setup Cert.KernelIdeal.HostOps

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The SparseCore call's operands -/

/-- psi regrouped, the neighbour indices with the node axis last, q repeated along the lanes: what the six layout
    operations leave in the call's three operands, as functions of the launch memory. -/
def c2 (d : Dev nD) : Buf (Elt F) (v2Loc d) := Cert.Bridge.g2 (m ((SparseCore.T d).loc main_arg1))
def c3 (d : Dev nD) : Buf (Elt F) (v3Loc d) := Cert.Bridge.g3 (m ((SparseCore.T d).loc main_arg2))
def c5 (d : Dev nD) : Buf (Elt F) (v5Loc d) := Cert.Bridge.g5 (m ((SparseCore.T d).loc main_arg0))

theorem opsA_c2 (d : Dev nD) : StableHlo.after opsA (V0 m d) v2' = c2 m d := opsA_v2 (V0 m d)
theorem opsA_c3 (d : Dev nD) : StableHlo.after opsA (V0 m d) v3' = c3 m d := opsA_v3 (V0 m d)
theorem opsA_c5 (d : Dev nD) : StableHlo.after opsA (V0 m d) v5' = c5 m d := opsA_v5 (V0 m d)

/-- An array that neither line of operations writes and neither call returns is, at the end, at its launch contents. -/
theorem kept (d : Dev nD) (f0 : Buf (Elt F) ((SparseCore.T d : Thread nD τ).loc main_v6_0)) (f1 : Buf (Elt F) ((SparseCore.T d : Thread nD τ).loc main_v6_1))
    (g : Buf (Elt F) ((SparseCore.T d : Thread nD τ).loc main_v16)) (r : Ref sig .tc)
    (hA : r ∉ ([main_v0, main_v1, main_v2, main_v3, main_v4, main_v5] : List (Ref sig .tc)))
    (hB : r ∉ ([main_v7, main_v8, main_v9, main_v10, main_v11, main_v12, main_v13, main_v14, main_v15] : List (Ref sig .tc)))
    (h60 : Proc.devRef .tc r ≠ v60') (h61 : Proc.devRef .tc r ≠ v61') (h16 : Proc.devRef .tc r ≠ v16') :
    W7 (StableHlo.after opsB (W5 (StableHlo.after opsA (V0 m d)) d f0 f1)) d g (Proc.devRef .tc r) = m ((SparseCore.T d).loc r) := by
  rw [W7_of_ne _ d g h16, opsB_frame _ r hB, W5_of_ne _ d f0 f1 h60 h61, opsA_frame _ r hA]
  rfl

/-! ## The pipeline call's rule, as @main uses it -/

/-- What the TensorCore owes when the pipeline call is entered, as its state after the SparseCore call holds it. -/
abbrev owesB (d : Dev nD) : sProp 𝕄 :=
  iprop(∃ W, ⌜(sc (F := F)).WBelow (SparseCore.T d) W (8 * 1)⌝ ∗ owes (SparseCore.T d) ((sc (F := F)).Otc d 1) W)

/-- The pipeline call's seven arrays on device `d`: the operands at their contents, the result at `r`. -/
abbrev arrs (a7 a8 : Vec F S8x4x2048 .f32) (a9 : Vec F S2x8x2048 .f32) (a11 : Vec F S2x8x1 .f32) (a12 : Vec F S8x2048 .f32)
    (a15 : Vec F S2 .f32) (d : Dev nD) (r : Vec F S8x2048 .f32) : sProp 𝕄 :=
  iprop((((SparseCore.T d).loc main_v7 ↦{fullShare} (a7 : Buf (Elt F) ((SparseCore.T d).loc main_v7))) : sProp 𝕄)
    ∗ (((SparseCore.T d).loc main_v8 ↦{fullShare} (a8 : Buf (Elt F) ((SparseCore.T d).loc main_v8))) : sProp 𝕄)
    ∗ (((SparseCore.T d).loc main_v9 ↦{fullShare} (a9 : Buf (Elt F) ((SparseCore.T d).loc main_v9))) : sProp 𝕄)
    ∗ (((SparseCore.T d).loc main_v11 ↦{fullShare} (a11 : Buf (Elt F) ((SparseCore.T d).loc main_v11))) : sProp 𝕄)
    ∗ (((SparseCore.T d).loc main_v12 ↦{fullShare} (a12 : Buf (Elt F) ((SparseCore.T d).loc main_v12))) : sProp 𝕄)
    ∗ (((SparseCore.T d).loc main_v15 ↦{fullShare} (a15 : Buf (Elt F) ((SparseCore.T d).loc main_v15))) : sProp 𝕄)
    ∗ (((SparseCore.T d).loc main_v16 ↦{fullShare} (r : Buf (Elt F) ((SparseCore.T d).loc main_v16))) : sProp 𝕄))

/-- The rule of the pipeline call: from the level facts, the region boundary, what the TensorCore owes after the SparseCore
    call, the six operands and the result array whole, and the call's own ghost state, the call runs and leaves the
    operands as they were and the result at `tcOut` of them. -/
def RegionRule (ghost : Dev nD → sProp 𝕄)
    (tcOut : Vec F S8x4x2048 .f32 → Vec F S8x4x2048 .f32 → Vec F S2x8x2048 .f32 → Vec F S2x8x1 .f32 → Vec F S8x2048 .f32 → Vec F S2 .f32
      → FVec F S8x2048 .f32) : Prop :=
  ∀ (d : Dev nD) (a7 a8 : Vec F S8x4x2048 .f32) (a9 : Vec F S2x8x2048 .f32) (a11 : Vec F S2x8x1 .f32) (a12 : Vec F S8x2048 .f32)
    (a15 : Vec F S2 .f32) (f16 : Vec F S8x2048 .f32) (Φ : PUnit → sProp 𝕄),
    iprop(levAts (sc (F := F)).L (sc (F := F)).lev ∗ boundary (SparseCore.T d) ∗ owesB (F := F) d ∗ arrs a7 a8 a9 a11 a12 a15 d f16 ∗ ghost d
        ∗ (iprop(boundary (SparseCore.T d) ∗ owesB (F := F) d ∗ arrs a7 a8 a9 a11 a12 a15 d (tcOut a7 a8 a9 a11 a12 a15)) -∗ Φ ⟨⟩))
      ⊢ wp frame (wpE ((sc (F := F)).defs (Pipeline.defs pcfgs defs₀)) (Variants.none).lift (SparseCore.T d) none) Set.univ
          (Prog.lift (.customCall (SparseCore.inner (Pipeline.entry 0)) ())) Φ

/-! ## What @main leaves, and what it says of the final memory -/

/-- The eight arguments and the result array together. -/
abbrev nine : Finset (DevRef τ sig) := {arg0', arg1', arg2', arg3', arg4', arg5', arg6', arg7', v16'}

omit [FloatOps F] in
theorem held_out9 (d : Dev nD) (W : Valuation τ sig (Elt F)) :
    (held (SparseCore.T d) Sall W : sProp 𝕄) = iprop(((SparseCore.T d).loc main_arg0 ↦{fullShare} W arg0') ∗ ((SparseCore.T d).loc main_arg1 ↦{fullShare} W arg1') ∗ ((SparseCore.T d).loc main_arg2 ↦{fullShare} W arg2') ∗ ((SparseCore.T d).loc main_arg3 ↦{fullShare} W arg3') ∗ ((SparseCore.T d).loc main_arg4 ↦{fullShare} W arg4') ∗ ((SparseCore.T d).loc main_arg5 ↦{fullShare} W arg5') ∗ ((SparseCore.T d).loc main_arg6 ↦{fullShare} W arg6') ∗ ((SparseCore.T d).loc main_arg7 ↦{fullShare} W arg7') ∗ ((SparseCore.T d).loc main_v16 ↦{fullShare} W v16') ∗ held (SparseCore.T d) (Sall \ nine) W) := by
  unfold held
  conv_lhs => rw [show Sall = insert arg0' (insert arg1' (insert arg2' (insert arg3' (insert arg4' (insert arg5' (insert arg6' (insert arg7' (insert v16' (Sall \ nine))))))))) by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)]

/-- What @main leaves the claim: the eight arguments at their launch contents, and the result array at some contents. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7))
    ∗ ∃ g, (SparseCore.T d).loc main_v16 ↦{fullShare} g)

/-- The eight arguments of device `d` are, in the final memory, as at the launch. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)

omit [FloatOps F] in
theorem hfin (d : Dev nD) (s' : Phys nD τ sig (Elt F)) : iprop(FIN m d ∗ SI s') ⊢ (⌜fq m d s'⌝ : sProp 𝕄) := by
  iintro ⟨⟨H0, H1, H2, H3, H4, H5, H6, H7, -⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI H6]
  · isplitl [HSI] <;> iassumption
  icases H with ⟨%h6, HSI, -⟩
  ihave H := (SI_pointsTo_agree (st := s') (ℓ := (SparseCore.T d).loc main_arg7) (I := Finset.univ) (q := fullShare) (f := m ((SparseCore.T d).loc main_arg7))) $$ [HSI H7]
  · isplitl [HSI] <;> iassumption
  icases H with %h7
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i)⟩

/-- The claim's post: on every device the eight arguments end as they were. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

omit [FloatOps F] in
theorem hQ : ∀ s' : Phys nD τ sig (Elt F), (∀ d, fq m d s') → QC m (⟨⟩, s'.mem) := fun _ h => h

/-! ## @main -/

set_option maxHeartbeats 4000000 in
/-- @main on device `d`'s TensorCore: the six layout operations within the held arrays; the SparseCore call, from its
    three operands at the regrouped arguments and its two result arrays, which come back at some contents; the nine
    operations after it; the pipeline call by its rule; the eight arguments, untouched throughout, at their launch contents. -/
theorem hmain (ghost : Dev nD → sProp 𝕄)
    (tcOut : Vec F S8x4x2048 .f32 → Vec F S8x4x2048 .f32 → Vec F S2x8x2048 .f32 → Vec F S2x8x1 .f32 → Vec F S8x2048 .f32 → Vec F S2 .f32
      → FVec F S8x2048 .f32)
    (hregion : RegionRule (F := F) ghost tcOut) (κ : GSem nD τ sig → ℕ) (d : Dev nD) :
    iprop((K (F := F)).ctx EH (P (c2 m) (c3 m) (c5 m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hghost⟩
  -- the six layout operations
  iapply (wp_opsA d (V0 m d)) $$ [Hb Hheld]
  · isplitl [Hb]; · iexact Hb
    iexact Hheld
  iintro ⟨Hb, Hheld⟩
  ihave Hh := (Entails.of_eq (held_out5 (F := F) d _)) $$ Hheld
  icases Hh with ⟨H2, H3, H5, H60, H61, Hrest⟩
  rw [opsA_c2, opsA_c3, opsA_c5]
  ihave Hfull := (st_of_full (c2 m) (c3 m) (c5 m) d) $$ [H2 H3 H5 H60 H61]
  · isplitl [H2]; · iexact H2
    isplitl [H3]; · iexact H3
    isplitl [H5]; · iexact H5
    isplitl [H60]; · iexists _; iexact H60
    iexists _; iexact H61
  icases Hfull with ⟨Hst0, Hrem⟩
  -- the SparseCore call
  iapply ((K (F := F)).wp_run (D (F := F)) 𝒱 (EH := EH) (P := P (c2 m) (c3 m) (c5 m)) κ d 0) $$ [Hst Hst0 Hb Hrest Hrem Hghost]
  isplitr; · iexact Hctx
  isplitl [Hst]; · iexact Hst
  isplitl [Hst0]; · iexact Hst0
  iintro ⟨Hst, Hdn⟩
  ihave Hfull := (full_of_dn (c2 m) (c3 m) (c5 m) d) $$ [Hdn Hrem]
  · isplitl [Hdn]; · iexact Hdn
    iexact Hrem
  icases Hfull with ⟨H2, H3, H5, ⟨%f0, H60⟩, ⟨%f1, H61⟩⟩
  rw [← opsA_c2, ← opsA_c3, ← opsA_c5]
  ihave Hheld := (Entails.of_eq (held_in5 (F := F) d (StableHlo.after opsA (V0 m d)) f0 f1)) $$ [H2 H3 H5 H60 H61 Hrest]
  · isplitl [H2]; · iexact H2
    isplitl [H3]; · iexact H3
    isplitl [H5]; · iexact H5
    isplitl [H60]; · iexact H60
    isplitl [H61]; · iexact H61
    iexact Hrest
  -- the nine operations after it
  iapply (wp_opsB d (W5 (StableHlo.after opsA (V0 m d)) d f0 f1)) $$ [Hb Hheld]
  · isplitl [Hb]; · iexact Hb
    iexact Hheld
  iintro ⟨Hb, Hheld⟩
  ihave Hh := (Entails.of_eq (held_out7 (F := F) d _)) $$ Hheld
  icases Hh with ⟨H7, H8, H9, H11, H12, H15, H16, Hrest⟩
  -- the pipeline call
  unfold SparseCore.Cfg.tcSt
  icases Hst with ⟨HO, Hst⟩
  ihave Hlev := (SparseCore.Cfg.ctx_levAts κ) $$ Hctx
  iapply (hregion d ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15') ((StableHlo.after opsB (W5 (StableHlo.after opsA (V0 m d)) d f0 f1)) v16') _) $$ [Hlev Hb HO H7 H8 H9 H11 H12 H15 H16 Hghost Hst Hrest]
  isplitl [Hlev]; · iexact Hlev
  isplitl [Hb]; · iexact Hb
  isplitl [HO]; · iexact HO
  isplitl [H7 H8 H9 H11 H12 H15 H16]
  · isplitl [H7]; · iexact H7
    isplitl [H8]; · iexact H8
    isplitl [H9]; · iexact H9
    isplitl [H11]; · iexact H11
    isplitl [H12]; · iexact H12
    isplitl [H15]; · iexact H15
    iexact H16
  isplitl [Hghost]; · iexact Hghost
  iintro ⟨Hb, HO, H7, H8, H9, H11, H12, H15, H16⟩
  imodintro
  -- the arrays back; the arguments out
  ihave Hheld := (Entails.of_eq (held_in7 (F := F) d (StableHlo.after opsB (W5 (StableHlo.after opsA (V0 m d)) d f0 f1)) (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')))) $$ [H7 H8 H9 H11 H12 H15 H16 Hrest]
  · isplitl [H7]; · iexact H7
    isplitl [H8]; · iexact H8
    isplitl [H9]; · iexact H9
    isplitl [H11]; · iexact H11
    isplitl [H12]; · iexact H12
    isplitl [H15]; · iexact H15
    isplitl [H16]; · iexact H16
    iexact Hrest
  ihave Hh := (Entails.of_eq (held_out9 (F := F) d _)) $$ Hheld
  icases Hh with ⟨A0, A1, A2, A3, A4, A5, A6, A7, A16, -⟩
  rw [kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg0 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg1 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg2 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg3 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg4 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg5 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg6 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg7 (by decide) (by decide) (by decide) (by decide) (by decide)]
  isplitl [HO Hst]
  · isplitl [HO]; · iexact HO
    iexact Hst
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  iexists _; iexact A16

/-- @main on device `d`'s TensorCore, with the pipeline call's rule as proved for this program. -/
theorem hmain_tc [∀ e, Nonempty (Elt F e)] (κ : GSem nD τ sig → ℕ) (d : Dev nD) :
    iprop((K (F := F)).ctx EH (P (c2 m) (c3 m) (c5 m)) κ ∗ (K (F := F)).tcSt EH d 0 ∗ (K (F := F)).tcRes m ρ d ∗ TcRegion.ghost ER d)
      ⊢ wp frame (wpE ((K (F := F)).defs (D (F := F))) 𝒱 (SparseCore.T d) none) Set.univ (main d)
          fun _ => iprop((K (F := F)).tcSt EH d 1 ∗ FIN m d) :=
  hmain m ρ (TcRegion.ghost ER) TcRegion.tcOut
    (fun d a7 a8 a9 a11 a12 a15 f16 Φ => TcRegion.wp_region ER a7 a8 a9 a11 a12 a15 f16 d Φ) κ d

end Cert.KernelIdeal.Launch

end
-- ==== Proof.Tile.lean ====
/-
  One task of the SparseCore call, on the vector subcore a grid position names: three copies in (its block of the table, its
  batch's neighbour indices, its block of the query), the loop over 128 groups of sixteen nodes (each trip by the trip's
  specification), two copies out (its rows of the two partial-score arrays). It runs to its end, faults nowhere, returns
  the three operand arrays as it got them and its two rows at new contents, and gives back the subcore's scratch and
  semaphores.
-/
import proofs.«209090_g87076166960129_cont_sun_c4_39_31_alg».proof.Proof.Setup
import proofs.«209090_g87076166960129_cont_sun_c4_39_31_alg».proof.Proof.TileSpec

noncomputable section

namespace Cert.KernelIdeal.Tile

open Cert.KernelIdeal Cert.KernelIdeal.Gen Cert.KernelIdeal.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)
local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)
local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)
local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

open Cert.KernelIdeal.TileRes Cert.KernelIdeal.TileSpec

variable [FloatOps F]
variable (d : Dev nD) (L : grid0.Coords)
omit [FloatOps F] in
theorem pts_a2 (q : PosShare TreeShare) (f : Buf (Elt F) ((V d (cV L) (jV L)).loc main_v2_scv)) :
    ((a2).view.loc (V d (cV L) (jV L)) ↦{q} f : sProp 𝕄) = (V d (cV L) (jV L)).loc main_v2_scv ↦{q} f := rfl
omit [FloatOps F] in
theorem pts_a3 (q : PosShare TreeShare) (f : Buf (Elt F) ((V d (cV L) (jV L)).loc main_v3_scv)) :
    ((a3).view.loc (V d (cV L) (jV L)) ↦{q} f : sProp 𝕄) = (V d (cV L) (jV L)).loc main_v3_scv ↦{q} f := rfl
omit [FloatOps F] in
theorem pts_a4 (q : PosShare TreeShare) (f : Buf (Elt F) ((V d (cV L) (jV L)).loc main_v5_scv)) :
    ((a4).view.loc (V d (cV L) (jV L)) ↦{q} f : sProp 𝕄) = (V d (cV L) (jV L)).loc main_v5_scv ↦{q} f := rfl
omit [FloatOps F] in
theorem pts_s7 (f : Buf (Elt F) ((V d (cV L) (jV L)).loc cc0_scratch0)) :
    ((s7).view.loc (V d (cV L) (jV L)) ↦{fullShare} f : sProp 𝕄) = (V d (cV L) (jV L)).loc cc0_scratch0 ↦{fullShare} f := rfl
omit [FloatOps F] in
theorem pts_s8 (f : Buf (Elt F) ((V d (cV L) (jV L)).loc cc0_scratch1)) :
    ((s8).view.loc (V d (cV L) (jV L)) ↦{fullShare} f : sProp 𝕄) = (V d (cV L) (jV L)).loc cc0_scratch1 ↦{fullShare} f := rfl
omit [FloatOps F] in
theorem pts_s9 (f : Buf (Elt F) ((V d (cV L) (jV L)).loc cc0_scratch2)) :
    ((s9).view.loc (V d (cV L) (jV L)) ↦{fullShare} f : sProp 𝕄) = (V d (cV L) (jV L)).loc cc0_scratch2 ↦{fullShare} f := rfl
omit [FloatOps F] in
theorem pts_s10 (f : Buf (Elt F) ((V d (cV L) (jV L)).loc cc0_scratch3)) :
    ((s10).view.loc (V d (cV L) (jV L)) ↦{fullShare} f : sProp 𝕄) = (V d (cV L) (jV L)).loc cc0_scratch3 ↦{fullShare} f := rfl
omit [FloatOps F] in
theorem pts_s11 (f : Buf (Elt F) ((V d (cV L) (jV L)).loc cc0_scratch4)) :
    ((s11).view.loc (V d (cV L) (jV L)) ↦{fullShare} f : sProp 𝕄) = (V d (cV L) (jV L)).loc cc0_scratch4 ↦{fullShare} f := rfl

set_option maxHeartbeats 4000000 in
theorem tile_body (htrip : TripSpec (F := F) d L) (hF : (K (F := F)).Facts) (O : CellTallies nD τ sig (HIx 1)) (W : Waits sig (HIx 1)) (hO : ∀ g, O g none = 0)
    (q : PosShare TreeShare)
    (c2 : Buf (Elt F) ((V d (cV L) (jV L)).loc main_v2_scv)) (c3 : Buf (Elt F) ((V d (cV L) (jV L)).loc main_v3_scv))
    (c5 : Buf (Elt F) ((V d (cV L) (jV L)).loc main_v5_scv)) (hc3 : ∀ j, (c3 j).toNat < 2048) :
    iprop(levAts (K (F := F)).L (K (F := F)).lev ∗ emp
        ∗ (((V d (cV L) (jV L)).loc main_v2_scv ↦{q} c2) ∗ ((V d (cV L) (jV L)).loc main_v3_scv ↦{q} c3) ∗ ((V d (cV L) (jV L)).loc main_v5_scv ↦{q} c5)
            ∗ (∃ f, (V d (cV L) (jV L)).loc main_v6_0_scv ↦[outSet5 L]{fullShare} f)
            ∗ (∃ f, (V d (cV L) (jV L)).loc main_v6_1_scv ↦[outSet6 L]{fullShare} f))
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_body L a2 (Memref.isWhole_whole _) a3 (Memref.isWhole_whole _) a4 (Memref.isWhole_whole _) a5 (Memref.isWhole_whole _) a6 (Memref.isWhole_whole _)
            s7 (Memref.isWhole_whole _) s8 (Memref.isWhole_whole _) s9 (Memref.isWhole_whole _) s10 (Memref.isWhole_whole _) s11 (Memref.isWhole_whole _)
            cc0_scoped0 cc0_scoped1 cc0_scoped2 cc0_scoped3 cc0_scoped4)
          fun _ => iprop((((V d (cV L) (jV L)).loc main_v2_scv ↦{q} c2) ∗ ((V d (cV L) (jV L)).loc main_v3_scv ↦{q} c3) ∗ ((V d (cV L) (jV L)).loc main_v5_scv ↦{q} c5)
              ∗ (∃ f, (V d (cV L) (jV L)).loc main_v6_0_scv ↦[outSet5 L]{fullShare} f)
              ∗ (∃ f, (V d (cV L) (jV L)).loc main_v6_1_scv ↦[outSet6 L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨H2, H3, H4, ⟨%f60, H5⟩, ⟨%f61, H6⟩⟩, ⟨⟨⟨%f7, H7⟩, ⟨%f8, H8⟩, ⟨%f9, H9⟩, ⟨%f10, H10⟩, ⟨%f11, H11⟩⟩, Hbufs⟩, ⟨⟨Hs0, Hs1, Hs2, Hs3, Hs4⟩, Hsems⟩, HO⟩
  ihave Hmw := ((K (F := F)).mayWaits_none (thr := V d (cV L) (jV L)) hO) $$ Hlv
  ihave H2 := (Entails.of_eq (pts_a2 (F := F) d L q _).symm) $$ H2
  ihave H3 := (Entails.of_eq (pts_a3 (F := F) d L q _).symm) $$ H3
  ihave H4 := (Entails.of_eq (pts_a4 (F := F) d L q _).symm) $$ H4
  ihave H5 := (Entails.of_eq (pts_o5 (F := F) d L _).symm) $$ H5
  ihave H6 := (Entails.of_eq (pts_o6 (F := F) d L _).symm) $$ H6
  ihave H7 := (Entails.of_eq (pts_s7 (F := F) d L _).symm) $$ H7
  ihave H8 := (Entails.of_eq (pts_s8 (F := F) d L _).symm) $$ H8
  ihave H9 := (Entails.of_eq (pts_s9 (F := F) d L _).symm) $$ H9
  ihave H10 := (Entails.of_eq (pts_s10 (F := F) d L _).symm) $$ H10
  ihave H11 := (Entails.of_eq (pts_s11 (F := F) d L _).symm) $$ H11
  sl_exec
  -- every word of the index scratch, after its copy, is a word of the batch's neighbour indices
  have hrd : ∀ j, (((s8).view.read (Elt F) (View.write (Elt F) (s8).view f8 (tile_body.sl.dma0_1 d L c3) Finset.univ) j : BitVec 32)).toNat < 2048 := by
    intro j
    rw [View.write_whole_univ]
    unfold tile_body.sl.dma0_1
    rw [(View.read_apply _ _).trans (cast_eq _ _), ReadAs.apply_same, (View.read_apply _ _).trans (cast_eq _ _)]
    exact hc3 _
  sl_for (tripInv d L (View.write (Elt F) (s7).view f7 (tile_body.sl.dma0 d L c2) Finset.univ)
      (View.write (Elt F) (s8).view f8 (tile_body.sl.dma0_1 d L c3) Finset.univ)
      (View.write (Elt F) (s9).view f9 (tile_body.sl.dma0_2 d L c5) Finset.univ)) $$ [H7 H8 H9 H10 H11]
  case region =>
    intro k acc
    exact htrip k _ _ _ hrd
  · unfold tripInv
    isplitl [H7]; · iexact H7
    isplitl [H8]; · iexact H8
    isplitl [H9]; · iexact H9
    isplitl [H10]; · iexists _; iexact H10
    iexists _; iexact H11
  iintro %acc HI
  unfold tripInv
  icases HI with ⟨H7, H8, H9, ⟨%g10, H10⟩, ⟨%g11, H11⟩⟩
  sl_exec
  sl_step
  isplitl [H2 H3 H4 H5 H6]
  · isplitl [H2]; · iapply (Entails.of_eq (pts_a2 (F := F) d L q _)); iexact H2
    isplitl [H3]; · iapply (Entails.of_eq (pts_a3 (F := F) d L q _)); iexact H3
    isplitl [H4]; · iapply (Entails.of_eq (pts_a4 (F := F) d L q _)); iexact H4
    isplitl [H5]; · iexists _; iapply (Entails.of_eq (pts_o5 (F := F) d L _)); iexact H5
    iexists _; iapply (Entails.of_eq (pts_o6 (F := F) d L _)); iexact H6
  isplitl [H7 H8 H9 H10 H11 Hbufs]
  · isplitl [H7 H8 H9 H10 H11]
    · isplitl [H7]; · iexists _; iapply (Entails.of_eq (pts_s7 (F := F) d L _)); iexact H7
      isplitl [H8]; · iexists _; iapply (Entails.of_eq (pts_s8 (F := F) d L _)); iexact H8
      isplitl [H9]; · iexists _; iapply (Entails.of_eq (pts_s9 (F := F) d L _)); iexact H9
      isplitl [H10]; · iexists _; iapply (Entails.of_eq (pts_s10 (F := F) d L _)); iexact H10
      iexists _; iapply (Entails.of_eq (pts_s11 (F := F) d L _)); iexact H11
    · iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    · iexact Hsems
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    · exact .inl hp

end Cert.KernelIdeal.Tile

end
-- ==== Proof.LaunchObl.lean ====
/-
  The vector-subcore call's task obligation for the launch theorem: on subcore `s` of SparseCore `c` the call's body is
  the kernel's function at grid position `(c, s)`, and the task proved at that position — handed its read shares of the three
  operand arrays and its rows of the two results — is what the launch asks of it.
-/
import proofs.«209090_g87076166960129_cont_sun_c4_39_31_alg».proof.Proof.Setup
import proofs.«209090_g87076166960129_cont_sun_c4_39_31_alg».proof.Proof.Tile
import proofs.«209090_g87076166960129_cont_sun_c4_39_31_alg».proof.Proof.LaunchPay

noncomputable section

namespace Cert.KernelIdeal.Launch

open Cert.KernelIdeal Cert.KernelIdeal.Gen Cert.KernelIdeal.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)
local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)
local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)
local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

open Cert.KernelIdeal.TileRes Cert.KernelIdeal.TileSpec Cert.KernelIdeal.Tile

variable [FloatOps F]
variable (c2 : (d : Dev nD) → Buf (Elt F) (v2Loc d)) (c3 : (d : Dev nD) → Buf (Elt F) (v3Loc d)) (c5 : (d : Dev nD) → Buf (Elt F) (v5Loc d))

theorem defs₀_vector (c : Fin τ.nSC) (s : Fin τ.nSub) :
    defs₀ (F := F) (.scVector c s) 0 ()
      = SparseCore.onTile hcore0 hsub0 (fun c s => cc0__sc_body (coordsV c s)
          a2 (Memref.isWhole_whole _) a3 (Memref.isWhole_whole _) a4 (Memref.isWhole_whole _) a5 (Memref.isWhole_whole _) a6 (Memref.isWhole_whole _)
          s7 (Memref.isWhole_whole _) s8 (Memref.isWhole_whole _) s9 (Memref.isWhole_whole _) s10 (Memref.isWhole_whole _) s11 (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation, from the trip's specification at every position and the index words' range at the call. -/
theorem tileObl (htrip : ∀ (d : Dev nD) (L : grid0.Coords), TripSpec (F := F) d L) (hF : (K (F := F)).Facts)
    (hc3 : ∀ d j, (c3 d j).toNat < 2048) : (K (F := F)).TileObl (D (F := F)) 𝒱 (P c2 c3 c5) v₀ 0 := by
  intro d c i O W hO _ _
  -- this kernel owes nothing for a protocol of its own
  simp only [show (P c2 c3 c5).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (htrip d _) hF O W hO _ (c2 d) (c3 d) (c5 d) (hc3 d)).trans
    (wp_mono frame _ _ fun _ => obl_post)

end Cert.KernelIdeal.Launch

end
-- ==== Proof.BridgePre.lean ====
/- What the input-domain precondition says of the arguments: every float entry is a real number,
   and every neighbour index lies in [0, 2047]. -/
import proofs.«209090_g87076166960129_cont_sun_c4_39_31_alg».proof.Proof.Gen.Pre_input_domain
import Idealize.ShloMosaic.Lib.ReduceAll
import Idealize.ShloMosaic.Lib.ValueIdx
import Idealize.ShloMosaic.PureOps.Ideal.Laws

noncomputable section

namespace Cert.Bridge

open Idealize.ShloMosaic Idealize.ShloMosaic.ValueIdx Cert.Pre_input_domain

/-- The scalar shape has one index. -/
instance subsingleton_scalar_idx : Subsingleton (⟨0, ![]⟩ : Shape).Idx := ⟨fun a b => funext fun d => d.elim0⟩

/-- The f32 word 0x7F800000 is +∞. -/
theorem inf_bits : Ideal.ofBits .f32 0x7F800000#32 = ⊤ := by simp [Ideal.ofBits, Ideal.ieee]

/-- An extended real whose absolute value max x (-x) is below +∞ is a real number. -/
theorem real_of_abs_lt_top (x : EReal)
    (h : Ideal.cmp .olt (max x (-x)) (Ideal.ofBits .f32 0x7F800000#32) = 1#1) : ∃ r : ℝ, x = (r : EReal) := by
  rw [inf_bits] at h
  induction x using EReal.rec with
  | bot => exact absurd h (by simp [Ideal.cmp])
  | coe r => exact ⟨r, rfl⟩
  | top => exact absurd h (by simp [Ideal.cmp])

/-- If "all |x| < +∞" reduces to 1, every entry of x is a real number. -/
theorem real_of_all {s : Shape} {axes : List (Fin s.rank)} (x bnd : FVec Ideal s .f32)
    (hb : ∀ i, bnd i = Ideal.ofBits .f32 0x7F800000#32) (init : IVec ⟨0, ![]⟩ 1)
    (h : s.ReducesTo axes ⟨0, ![]⟩) (hu : 0 < (⟨0, ![]⟩ : Shape).numel)
    (e : Host.reduce IntOp.andi (cmpf .olt (Host.absf x) bnd) init h hu ix0 = 1#1) (i : s.Idx) :
    ∃ r : ℝ, x i = (r : EReal) := by
  have hi := Host.reduce_andi_all _ init h hu ix0 e i
  refine real_of_abs_lt_top (x i) ?_
  rw [← hb i]
  exact hi

variable {q : FVec Ideal S8x128 .f32} {psi : FVec Ideal S8x2048x128 .f32} {knn : IVec S8x2048x16 32}
  {mask : IVec S8x2048 1} {cur : FVec Ideal S8x2 .f32} {all : FVec Ideal S8x2048x2 .f32}
  {lam mu : FVec Ideal S_ .f32}

/-- The precondition split into its seven conjuncts. -/
theorem pre_split (hpre : fn (F := Ideal) q psi knn mask cur all lam mu = fun _ => 1#1) :
    (∀ i, ∃ r : ℝ, q i = (r : EReal)) ∧ (∀ i, ∃ r : ℝ, psi i = (r : EReal)) ∧
    (∀ i, ∃ r : ℝ, cur i = (r : EReal)) ∧ (∀ i, ∃ r : ℝ, all i = (r : EReal)) ∧
    (∀ i, ∃ r : ℝ, lam i = (r : EReal)) ∧ (∀ i, ∃ r : ℝ, mu i = (r : EReal)) ∧
    (∀ i, 0 ≤ (knn i).toInt ∧ (knn i).toInt ≤ 2047) := by
  have h := congrFun hpre ix0
  dsimp only [fn, fn_part1, fn_part2] at h
  obtain ⟨h6, hknn⟩ := IntOp.andi_eq_one.1 h
  obtain ⟨h5, hmu⟩ := IntOp.andi_eq_one.1 h6
  obtain ⟨h4, hlam⟩ := IntOp.andi_eq_one.1 h5
  obtain ⟨h3, hall⟩ := IntOp.andi_eq_one.1 h4
  obtain ⟨h2, hcur⟩ := IntOp.andi_eq_one.1 h3
  obtain ⟨hq, hpsi⟩ := IntOp.andi_eq_one.1 h2
  refine ⟨real_of_all q _ (fun _ => rfl) _ _ _ hq, real_of_all psi _ (fun _ => rfl) _ _ _ hpsi,
    real_of_all cur _ (fun _ => rfl) _ _ _ hcur, real_of_all all _ (fun _ => rfl) _ _ _ hall,
    real_of_all lam _ (fun _ => rfl) _ _ _ hlam, real_of_all mu _ (fun _ => rfl) _ _ _ hmu, fun i => ?_⟩
  have hi := Host.reduce_andi_all _ _ _ _ ix0 hknn i
  obtain ⟨hge, hle⟩ := IntOp.andi_eq_one.1 hi
  have hge' := IntOp.cmpi_sge.1 hge
  have hle' := IntOp.cmpi_sle.1 hle
  exact ⟨hge', hle'⟩

/-- Every float argument entry is a real number. -/
theorem pre_real (hpre : fn (F := Ideal) q psi knn mask cur all lam mu = fun _ => 1#1) :
    (∀ i, ∃ r : ℝ, q i = (r : EReal)) ∧ (∀ i, ∃ r : ℝ, psi i = (r : EReal)) ∧
    (∀ i, ∃ r : ℝ, cur i = (r : EReal)) ∧ (∀ i, ∃ r : ℝ, all i = (r : EReal)) ∧
    (∀ i, ∃ r : ℝ, lam i = (r : EReal)) ∧ (∀ i, ∃ r : ℝ, mu i = (r : EReal)) :=
  let h := pre_split hpre
  ⟨h.1, h.2.1, h.2.2.1, h.2.2.2.1, h.2.2.2.2.1, h.2.2.2.2.2.1⟩

/-- Every neighbour index, read signed, lies in [0, 2047]. -/
theorem pre_knn (hpre : fn (F := Ideal) q psi knn mask cur all lam mu = fun _ => 1#1) :
    ∀ i, 0 ≤ (knn i).toInt ∧ (knn i).toInt ≤ 2047 := (pre_split hpre).2.2.2.2.2.2

/-- A 32-bit word whose signed reading lies in [0, 2047] reads unsigned below 2048, and the two readings agree. -/
theorem toNat_of_toInt_range (x : BitVec 32) (h0 : 0 ≤ x.toInt) (h1 : x.toInt ≤ 2047) :
    x.toNat < 2048 ∧ x.toInt = (x.toNat : Int) := by
  have hc := BitVec.toInt_eq_toNat_cond x
  have hlt := x.isLt
  split_ifs at hc <;> omega

/-- Every neighbour index, read unsigned, is below 2048. -/
theorem pre_knn_lt (hpre : fn (F := Ideal) q psi knn mask cur all lam mu = fun _ => 1#1) :
    ∀ i, (knn i).toNat < 2048 := fun i =>
  (toNat_of_toInt_range (knn i) (pre_knn hpre i).1 (pre_knn hpre i).2).1

end Cert.Bridge

end
-- ==== Proof.BridgePreF.lean ====
/- The index-range part of the input-domain precondition, for any reading of the floats: it compares
   integers only, so the float conjuncts are simply dropped. -/
import proofs.«209090_g87076166960129_cont_sun_c4_39_31_alg».proof.Proof.BridgePre

noncomputable section

namespace Cert.Bridge

open Idealize.ShloMosaic Idealize.ShloMosaic.ValueIdx Cert.Pre_input_domain

variable {F : FTy → Type} [FloatOps F]
  {q : FVec F S8x128 .f32} {psi : FVec F S8x2048x128 .f32} {knn : IVec S8x2048x16 32}
  {mask : IVec S8x2048 1} {cur : FVec F S8x2 .f32} {all : FVec F S8x2048x2 .f32} {lam mu : FVec F S_ .f32}

/-- Every neighbour index, read signed, lies in [0, 2047], whatever the floats are. -/
theorem pre_knnF (hpre : fn (F := F) q psi knn mask cur all lam mu = fun _ => 1#1) :
    ∀ i, 0 ≤ (knn i).toInt ∧ (knn i).toInt ≤ 2047 := by
  have h := congrFun hpre ix0
  dsimp only [fn, fn_part1, fn_part2] at h
  obtain ⟨-, hknn⟩ := IntOp.andi_eq_one.1 h
  intro i
  have hi := Host.reduce_andi_all _ _ _ _ ix0 hknn i
  obtain ⟨hge, hle⟩ := IntOp.andi_eq_one.1 hi
  exact ⟨IntOp.cmpi_sge.1 hge, IntOp.cmpi_sle.1 hle⟩

/-- Every neighbour index, read unsigned, is below 2048, whatever the floats are. -/
theorem pre_knn_ltF (hpre : fn (F := F) q psi knn mask cur all lam mu = fun _ => 1#1) :
    ∀ i, (knn i).toNat < 2048 := fun i =>
  (toNat_of_toInt_range (knn i) (pre_knnF hpre i).1 (pre_knnF hpre i).2).1

end Cert.Bridge

end
-- ==== Proof.LaunchAux.lean ====
/- Two facts the launch takes from outside the call: the neighbour indices in the launch memory are below
   2048 (from the input-domain precondition, whatever the floats are), and the launch element of the ghost
   state — the handshakes' rounds handed over as they are, the second stage's staging cells funded, nothing
   of the first stage's own. -/
import proofs.«209090_g87076166960129_cont_sun_c4_39_31_alg».proof.Proof.LaunchPay
import proofs.«209090_g87076166960129_cont_sun_c4_39_31_alg».proof.Proof.BridgePreF
import proofs.«209090_g87076166960129_cont_sun_c4_39_31_alg».proof.Proof.BridgeGlue

noncomputable section

namespace Cert.KernelIdeal.Launch

open Cert.KernelIdeal Cert.KernelIdeal.Gen Cert.KernelIdeal.Setup Cert.KernelIdeal.TileRes Cert.KernelIdeal.TileSpec
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The neighbour indices of the launch memory -/

section Pre
variable [FloatOps F]

/-- Under the input-domain precondition on every device, every neighbour index of the launch memory is below 2048. -/
theorem knn_small (m : (ℓ : Loc nD τ sig) → Buf (Elt F) ℓ)
    (h : ∀ c : Dev nD, Cert.Pre_input_domain.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) = fun _ => 1#1) :
    ∀ (d : Dev nD) (i : S8x2048x16.Idx), (m ((SparseCore.T d).loc main_arg2) i : BitVec 32).toNat < 2048 :=
  fun d i => Cert.Bridge.pre_knn_ltF (h d) i

/-- … and so is every entry of the index array with the node axis last. -/
theorem knn_small_g3 (m : (ℓ : Loc nD τ sig) → Buf (Elt F) ℓ)
    (h : ∀ c : Dev nD, Cert.Pre_input_domain.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) = fun _ => 1#1) :
    ∀ (d : Dev nD) (j : S8x16x2048.Idx), (Cert.Bridge.g3 (F := F) (m ((SparseCore.T d).loc main_arg2)) j : BitVec 32).toNat < 2048 :=
  fun d => Cert.Bridge.g3_small (F := F) _ (knn_small m h d)

end Pre

/-! ## The launch element -/

/-- The launch element: the handshakes' rounds, the staging cells' rounds, no counters. -/
def u₀ : UU :=
  (initOf (K (F := F)).hsCells (K (F := F)).hsToks,
    (initOf (Pipeline.cells cfgs Gen.cellOf_inj) (Pipeline.launchToks cfgs Gen.cellOf_inj), 1))

theorem bigSep_emp' {I : Type} (s : Finset I) : (bigSep s fun _ => iprop(emp)) = (iprop(emp) : sProp 𝕄) := bigSep_emp_const s

variable [FloatOps F]
variable (c2 : (d : Dev nD) → Buf (Elt F) (v2Loc d)) (c3 : (d : Dev nD) → Buf (Elt F) (v3Loc d))
  (c5 : (d : Dev nD) → Buf (Elt F) (v5Loc d))

/-- From the launch element: the handshakes' rounds, what the staging cells' rounds fund, and nothing for the
    first stage's own protocol (it has none). -/
theorem hu₀ (G : Dev nD → sProp 𝕄)
    (hfund : BI.own (ER (F := F) (initOf (Pipeline.cells cfgs Gen.cellOf_inj) (Pipeline.launchToks cfgs Gen.cellOf_inj)))
      ⊢ iprop(|==> bigSep Finset.univ G)) :
    (ownU (u₀ (F := F)) : sProp 𝕄)
      ⊢ |={Set.univ}=> iprop(BI.own (EH (initOf (K (F := F)).hsCells (K (F := F)).hsToks)) ∗ bigSep Finset.univ G
          ∗ bigSep Finset.univ fun thr : Thread nD τ => bigSep Finset.univ fun q : Fin 1 => (P c2 c3 c5).x q thr) := by
  unfold u₀
  iintro Hu
  ihave H := (ownU_split _ _ _) $$ Hu
  icases H with ⟨HH, HR⟩
  imod hfund $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Launch

end
-- ==== Proof.LaunchRun.lean ====
/-
  The kernel program's run, from the launch theorem of a SparseCore program: the one vector-subcore call's task obligation and
  split, @main on the TensorCore (host operations, the call, host operations, the TensorCore pipeline call), the launch element,
  and the read-off of the final memory. Every weakly fair execution of the device's threads terminates, nothing faulting, with
  the eight argument arrays unchanged — given that every neighbour index names a node.
-/
import proofs.«209090_g87076166960129_cont_sun_c4_39_31_alg».proof.Proof.LaunchMain
import proofs.«209090_g87076166960129_cont_sun_c4_39_31_alg».proof.Proof.LaunchObl
import proofs.«209090_g87076166960129_cont_sun_c4_39_31_alg».proof.Proof.LaunchAux

noncomputable section

namespace Cert.KernelIdeal.Launch

open Cert.KernelIdeal Cert.KernelIdeal.Gen Cert.KernelIdeal.Setup
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.TileSpec

variable {F : FTy → Type} [FloatOps F]

/-- The program runs, its arguments kept, from the trip's specification at every grid position and the precondition's
    range of the neighbour indices. -/
theorem run_main [∀ e, Nonempty (Elt F e)] (htrip : ∀ (d : Dev nD) (L : grid0.Coords), TripSpec (F := F) d L)
    (m : (ℓ : Loc nD τ sig) → Buf (Elt F) ℓ) (ρ : Dev nD → PrngReg)
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) = fun _ => 1#1) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (c2 m) (c3 m) (c5 m)) facts v₀
    (fun q hq => match q with | 0 => nomatch hq)
    (fun q _ => match q with | 0 => tileObl (c2 m) (c3 m) (c5 m) htrip facts (knn_small_g3 m h))
    (fun q _ => match q with | 0 => SparseCore.Cfg.VecSplit.of_plain (vecSplit (c2 m) (c3 m) (c5 m)))
    m ρ main (fun d => TcRegion.ghost ER d) (FIN m) (u₀ (F := F))
    (sep_elim_left.trans (hu₀ (c2 m) (c3 m) (c5 m) (fun d => TcRegion.ghost ER d) (TcRegion.fund ER)))
    (hmain_tc m ρ) (fq m) (hfin m) (QC m) (hQ m)

end Cert.KernelIdeal.Launch

end
-- ==== Proof.SetupK.lean ====
/-
  The program as the SparseCore launch theorem sees it, shared by every module of this proof: the label table of its one
  TensorCore pipeline call, the SparseCore configuration of its one vector-subcore call, the body table, the variants, the
  configuration's side facts, and the resource algebra — the handshakes' rounds, the pipeline's staging cells' rounds, and
  the counters of the subcores' own local transfers.
-/
import proofs.«209090_g87076166960129_cont_sun_c4_39_31_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209090_g87076166960129_cont_sun_c4_39_31_alg».proof.Proof.Gen.Kernel
import proofs.«209090_g87076166960129_cont_sun_c4_39_31_alg».proof.Proof.Gen.Kernel.Skeleton
import proofs.«209090_g87076166960129_cont_sun_c4_39_31_alg».proof.Proof.Gen.Kernel.Launch
import proofs.«209090_g87076166960129_cont_sun_c4_39_31_alg».proof.Proof.Gen.Kernel.Points

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels: the kernels' own and the one pipeline's. -/
abbrev ΛP : Labels := Pipeline.Sig Λ₀ (Fin 1) fun p => (pcfgs (F := F) p).Adm
/-- The one SparseCore call: sixteen vector subcores on each of two SparseCores. -/
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's staging cells' rounds. -/
abbrev UR : Type := URounds (GSem nD τ sig) Unit
/-- All of it: the counters of the subcores' local transfers are found in the right factor by instance. -/
abbrev UU : Type := UH × (UR × Counters)

/-- The handshakes' rounds library, the left factor. -/
abbrev EH : Emb UH (MT nD τ sig (HIx 1) (Elt F) ℕ UU ℕ) := embL
/-- The pipeline's rounds library: the left factor of the right factor. -/
def ER : Emb UR (MT nD τ sig (HIx 1) (Elt F) ℕ UU ℕ) :=
  (Emb.inl : Emb UR (UR × Counters)).trans embR

instance ER_landsIn : (ER : Emb UR (MT nD τ sig (HIx 1) (Elt F) ℕ UU ℕ)).LandsIn (upEmb : UEmb _ (MT nD τ sig (HIx 1) (Elt F) ℕ UU ℕ)) := by
  unfold ER; infer_instance

/-- A pair of the algebra, owned, is its three parts owned each through its embedding (the counters' part dropped). -/
theorem ownU_split (a : UH) (b : UR) (c : Counters) :
    (ownU ((a, (b, c)) : UU) : sProp (MT nD τ sig (HIx 1) (Elt F) ℕ UU ℕ)) ⊢ iprop(BI.own (EH a) ∗ BI.own (ER b)) := by
  iintro Hu
  ihave H := (ownU_pair a (b, c)) $$ Hu
  icases H with ⟨HH, HR⟩
  isplitl [HH]; · iexact HH
  ihave H2 := (own_pair_emb (embR (nD := nD) (τ := τ) (sig := sig) (Ix := HIx 1) (Val := Elt F) (Name := ℕ) (A := UH) (B := UR × Counters) (Lvl := ℕ)) b c) $$ HR
  icases H2 with ⟨Hb, -⟩
  unfold ER
  iexact Hb

end Cert.Kernel.Setup

end
-- ==== Proof.BridgeGlueK.lean ====
/- The layout operations in front of the first stage, for any reading of the floats, each read at an index:
   psi regrouped as [32 rows, 32 coordinates, 2048 nodes] (row w = 4*b + blk holds coordinates 32*blk ..
   32*blk+31 of batch b), the neighbour indices with the node axis last, and q as [32 rows, 32 coordinates]
   repeated along 16 lanes. -/
import proofs.«209090_g87076166960129_cont_sun_c4_39_31_alg».proof.Kernel
import proofs.«209090_g87076166960129_cont_sun_c4_39_31_alg».proof.Proof.Gen.Kernel
import proofs.«209090_g87076166960129_cont_sun_c4_39_31_alg».proof.Proof.BridgeSpec
import Idealize.ShloMosaic.Lib.Pipeline.Value
import Idealize.ShloMosaic.Lib.ValueLayout
import Idealize.ShloMosaic.Lib.ValueIdx

noncomputable section

namespace Cert.BridgeK

open Idealize.ShloMosaic Idealize.ShloMosaic.ValueIdx Cert.Kernel Cert.Kernel.Gen
open Cert.Bridge

variable {F : FTy → Type} [FloatOps F]

/-- psi as [32, 32, 2048]: [8,2048,128] → [8,2048,4,32] → [8,4,32,2048] → [32,32,2048]. -/
def g2 (psi : Vec F S8x2048x128 .f32) : Vec F S32x32x2048 .f32 :=
  shapeCast S32x32x2048
    (transpose S8x4x32x2048 [0, 2, 3, 1] (shapeCast S8x2048x4x32 psi shapeCasts_S8x2048x128_S8x2048x4x32)
      transposes_S8x2048x4x32_S8x4x32x2048_0_2_3_1)
    shapeCasts_S8x4x32x2048_S32x32x2048

/-- The neighbour indices with the node axis last: [8,2048,16] → [8,16,2048]. -/
def g3 (knn : Vec F S8x2048x16 .i32) : Vec F S8x16x2048 .i32 :=
  transpose S8x16x2048 [0, 2, 1] knn transposes_S8x2048x16_S8x16x2048_0_2_1

/-- q as [32, 32, 16]: [8,128] → [32,32,1], repeated along the last axis. -/
def g5 (q : Vec F S8x128 .f32) : Vec F S32x32x16 .f32 :=
  broadcastInDim S32x32x16 ![0, 1, 2] bcast_S32x32x1_S32x32x16_0_1_2 (shapeCast S32x32x1 q shapeCasts_S8x128_S32x32x1)

/-- Entry (w, dd, n) of the regrouped psi is psi(b, n, 32*blk + dd), w = 4*b + blk. -/
theorem g2_apply (psi : Vec F S8x2048x128 .f32) (w dd : Fin 32) (n : Fin 2048) :
    g2 psi (ix3 w dd n) = psi (ix3 (rowB w) n (rowD w dd)) := by
  unfold g2
  refine (shapeCast_apply _ shapeCasts_S8x4x32x2048_S32x32x2048 (ix3 w dd n)
    (ix4 (rowB w) (⟨w.val % 4, by omega⟩ : Fin 4) dd n)
    (by rw [Shape.rowMajor_val_four, Shape.rowMajor_val_three]
        show ((w.val / 4 * 4 + w.val % 4) * 32 + dd.val) * 2048 + n.val = (w.val * 32 + dd.val) * 2048 + n.val
        omega)).trans ?_
  refine (transpose_apply _ _ transposes_S8x2048x4x32_S8x4x32x2048_0_2_3_1
    (ix4 (rowB w) (⟨w.val % 4, by omega⟩ : Fin 4) dd n) (ix4 (rowB w) n (⟨w.val % 4, by omega⟩ : Fin 4) dd)
    (fun a => match a with | ⟨0, _⟩ => rfl | ⟨1, _⟩ => rfl | ⟨2, _⟩ => rfl | ⟨3, _⟩ => rfl)).trans ?_
  exact shapeCast_apply psi shapeCasts_S8x2048x128_S8x2048x4x32 (ix4 (rowB w) n (⟨w.val % 4, by omega⟩ : Fin 4) dd)
    (ix3 (rowB w) n (rowD w dd))
    (by rw [Shape.rowMajor_val_three, Shape.rowMajor_val_four]
        show (w.val / 4 * 2048 + n.val) * 128 + (32 * (w.val % 4) + dd.val)
          = ((w.val / 4 * 2048 + n.val) * 4 + w.val % 4) * 32 + dd.val
        omega)

/-- Entry (b, k, n) of the transposed indices is the index (b, n, k). -/
theorem g3_apply (knn : Vec F S8x2048x16 .i32) (b : Fin 8) (k : Fin 16) (n : Fin 2048) :
    g3 knn (ix3 b k n) = knn (ix3 b n k) :=
  transpose_ix3_021_apply knn transposes_S8x2048x16_S8x16x2048_0_2_1 b k n

/-- Entry (w, dd, l) of the repeated q is q(b, 32*blk + dd), w = 4*b + blk, on every lane l. -/
theorem g5_apply (q : Vec F S8x128 .f32) (w dd : Fin 32) (l : Fin 16) :
    g5 q (ix3 w dd l) = q (ix2 (rowB w) (rowD w dd)) := by
  unfold g5
  refine (broadcastInDim_apply _ bcast_S32x32x1_S32x32x16_0_1_2 _ (ix3 w dd l) (ix3 w dd (0 : Fin 1))
    (fun a => match a with
      | ⟨0, _⟩ => by show w.val = if (32 : Nat) = 1 then 0 else w.val; rw [if_neg (by decide)]
      | ⟨1, _⟩ => by show dd.val = if (32 : Nat) = 1 then 0 else dd.val; rw [if_neg (by decide)]
      | ⟨2, _⟩ => by show 0 = if (1 : Nat) = 1 then 0 else l.val; rw [if_pos rfl])).trans ?_
  exact shapeCast_apply q shapeCasts_S8x128_S32x32x1 (ix3 w dd (0 : Fin 1)) (ix2 (rowB w) (rowD w dd))
    (by rw [Shape.rowMajor_val_two, Shape.rowMajor_val_three]
        show w.val / 4 * 128 + (32 * (w.val % 4) + dd.val) = (w.val * 32 + dd.val) * 1 + 0
        omega)

/-- Indices below 2048 stay below 2048 under the transposition. -/
theorem g3_small (knn : Vec F S8x2048x16 .i32) (h : ∀ i, (knn i).toNat < 2048) : ∀ j, (g3 knn j).toNat < 2048 := by
  intro j
  obtain ⟨b, k, n, rfl⟩ : ∃ (b : Fin 8) (k : Fin 16) (n : Fin 2048), j = ix3 b k n := ⟨j 0, j 1, j 2, eq_ix3 j⟩
  rw [g3_apply]
  exact h _

end Cert.BridgeK

end
-- ==== Proof.HostOpsK.lean ====
/-
  @main's host operations inside the TensorCore's part of the run. The TensorCore holds its 26 arrays whole as one set at a
  valuation; the six layout operations before the SparseCore call and the nine between that call and the pipeline call each
  run within the set and leave it at the fold of their results; a call's arrays are taken out of the set and put back,
  its results at what the call left; and what the two lines leave in the calls' operands is read back: psi regrouped, the
  neighbour indices with the node axis last, q repeated along the lanes for the first call, and the six operands of the
  second each as the printed operation of its operands.
-/
import proofs.«209090_g87076166960129_cont_sun_c4_39_31_alg».proof.Proof.SetupK
import proofs.«209090_g87076166960129_cont_sun_c4_39_31_alg».proof.Proof.BridgeGlueK
import Idealize.ShloMosaic.Lib.Pipeline.Frame

noncomputable section

namespace Cert.Kernel.HostOps

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)

variable {F : FTy → Type} [FloatOps F]

local notation "𝕄" => MT nD τ sig (HIx 1) (Elt F) ℕ UU ℕ

/-! ## The arrays -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)
abbrev arg4' : DevRef τ sig := Proc.devRef .tc (main_arg4 : Ref sig .tc)
abbrev arg5' : DevRef τ sig := Proc.devRef .tc (main_arg5 : Ref sig .tc)
abbrev arg6' : DevRef τ sig := Proc.devRef .tc (main_arg6 : Ref sig .tc)
abbrev arg7' : DevRef τ sig := Proc.devRef .tc (main_arg7 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v60' : DevRef τ sig := Proc.devRef .tc (main_v6_0 : Ref sig .tc)
abbrev v61' : DevRef τ sig := Proc.devRef .tc (main_v6_1 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)
abbrev v12' : DevRef τ sig := Proc.devRef .tc (main_v12 : Ref sig .tc)
abbrev v13' : DevRef τ sig := Proc.devRef .tc (main_v13 : Ref sig .tc)
abbrev v14' : DevRef τ sig := Proc.devRef .tc (main_v14 : Ref sig .tc)
abbrev v15' : DevRef τ sig := Proc.devRef .tc (main_v15 : Ref sig .tc)
abbrev v16' : DevRef τ sig := Proc.devRef .tc (main_v16 : Ref sig .tc)

/-- The TensorCore's 26 arrays, all unscoped. -/
abbrev Sall : Finset (DevRef τ sig) :=
  {arg0', arg1', arg2', arg3', arg4', arg5', arg6', arg7', v0', v1', v2', v3', v4', v5', v60', v61', v7', v8', v9', v10', v11', v12', v13', v14', v15', v16'}

set_option maxRecDepth 8192 in
/-- The TensorCore's unscoped references are these 26. -/
theorem ucRefs_eq : Pipeline.ucRefs τ sig = Sall := by decide

/-- The launch valuation of device `d`. -/
def V0 (m : (ℓ : Loc nD τ sig) → Buf (Elt F) ℓ) (d : Dev nD) : Valuation τ sig (Elt F) := fun b => m (d, b)

omit [FloatOps F] in
/-- The arrays as the launch hands them to the TensorCore are the 26 held at the launch valuation. -/
theorem unscoped_held (m : (ℓ : Loc nD τ sig) → Buf (Elt F) ℓ) (d : Dev nD) :
    (unscopedBufs d (fun b => m ((SparseCore.T d).loc b)) : sProp 𝕄) = held (SparseCore.T d) Sall (V0 m d) := by
  rw [← ucRefs_eq]
  exact Pipeline.unscopedBufs_held d (V0 m d)

/-! ## The two lines of host operations -/

/-- The six operations before the SparseCore call. -/
abbrev opsA : List (HloOp τ sig (Elt F)) :=
  [ StableHlo.reshape main_arg1 main_v0 rfl shapeCasts_S8x2048x128_S8x2048x4x32,
    StableHlo.unary main_v0 main_v1 ((transpose S8x4x32x2048 [0, 2, 3, 1] · transposes_S8x2048x4x32_S8x4x32x2048_0_2_3_1) : (⟨S8x2048x4x32, .f32⟩ : BufTy).Contents (Elt F) → (⟨S8x4x32x2048, .f32⟩ : BufTy).Contents (Elt F)),
    StableHlo.reshape main_v1 main_v2 rfl shapeCasts_S8x4x32x2048_S32x32x2048,
    StableHlo.unary main_arg2 main_v3 ((transpose S8x16x2048 [0, 2, 1] · transposes_S8x2048x16_S8x16x2048_0_2_1) : (⟨S8x2048x16, .i32⟩ : BufTy).Contents (Elt F) → (⟨S8x16x2048, .i32⟩ : BufTy).Contents (Elt F)),
    StableHlo.reshape main_arg0 main_v4 rfl shapeCasts_S8x128_S32x32x1,
    StableHlo.unary main_v4 main_v5 (broadcastInDim S32x32x16 ![0, 1, 2] bcast_S32x32x1_S32x32x16_0_1_2 : (⟨S32x32x1, .f32⟩ : BufTy).Contents (Elt F) → (⟨S32x32x16, .f32⟩ : BufTy).Contents (Elt F)) ]

/-- The eleven operations between the SparseCore call and the pipeline call. -/
abbrev opsB : List (HloOp τ sig (Elt F)) :=
  [ StableHlo.reshape main_v6_0 main_v7 rfl shapeCasts_S32x2048_S8x4x2048,
    StableHlo.reshape main_v6_1 main_v8 rfl shapeCasts_S32x2048_S8x4x2048,
    StableHlo.unary main_arg5 main_v9 ((transpose S2x8x2048 [2, 0, 1] · transposes_S8x2048x2_S2x8x2048_2_0_1) : (⟨S8x2048x2, .f32⟩ : BufTy).Contents (Elt F) → (⟨S2x8x2048, .f32⟩ : BufTy).Contents (Elt F)),
    StableHlo.unary main_arg4 main_v10 ((transpose S2x8 [1, 0] · transposes_S8x2_S2x8_1_0) : (⟨S8x2, .f32⟩ : BufTy).Contents (Elt F) → (⟨S2x8, .f32⟩ : BufTy).Contents (Elt F)),
    StableHlo.unary main_v10 main_v11 (broadcastInDim S2x8x1 ![0, 1] bcast_S2x8_S2x8x1_0_1 : (⟨S2x8, .f32⟩ : BufTy).Contents (Elt F) → (⟨S2x8x1, .f32⟩ : BufTy).Contents (Elt F)),
    StableHlo.unary main_arg3 main_v12 (uitofp .f32 : (⟨S8x2048, .i1⟩ : BufTy).Contents (Elt F) → (⟨S8x2048, .f32⟩ : BufTy).Contents (Elt F)),
    StableHlo.unary main_arg6 main_v13 (broadcastInDim S1 ![] bcast_S_S1 : (⟨S_, .f32⟩ : BufTy).Contents (Elt F) → (⟨S1, .f32⟩ : BufTy).Contents (Elt F)),
    StableHlo.unary main_arg7 main_v14 (broadcastInDim S1 ![] bcast_S_S1 : (⟨S_, .f32⟩ : BufTy).Contents (Elt F) → (⟨S1, .f32⟩ : BufTy).Contents (Elt F)),
    StableHlo.binary main_v13 main_v14 main_v15 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

theorem opsA_sub : (opsA : List (HloOp τ sig (Elt F))).Forall fun op => op.bufs ⊆ Sall :=
  ⟨show ({arg1', v0'} : Finset (DevRef τ sig)) ⊆ Sall by decide,
    show ({v0', v1'} : Finset (DevRef τ sig)) ⊆ Sall by decide,
    show ({v1', v2'} : Finset (DevRef τ sig)) ⊆ Sall by decide,
    show ({arg2', v3'} : Finset (DevRef τ sig)) ⊆ Sall by decide,
    show ({arg0', v4'} : Finset (DevRef τ sig)) ⊆ Sall by decide,
    show ({v4', v5'} : Finset (DevRef τ sig)) ⊆ Sall by decide⟩

theorem opsB_sub : (opsB : List (HloOp τ sig (Elt F))).Forall fun op => op.bufs ⊆ Sall :=
  ⟨show ({v60', v7'} : Finset (DevRef τ sig)) ⊆ Sall by decide,
    show ({v61', v8'} : Finset (DevRef τ sig)) ⊆ Sall by decide,
    show ({arg5', v9'} : Finset (DevRef τ sig)) ⊆ Sall by decide,
    show ({arg4', v10'} : Finset (DevRef τ sig)) ⊆ Sall by decide,
    show ({v10', v11'} : Finset (DevRef τ sig)) ⊆ Sall by decide,
    show ({arg3', v12'} : Finset (DevRef τ sig)) ⊆ Sall by decide,
    show ({arg6', v13'} : Finset (DevRef τ sig)) ⊆ Sall by decide,
    show ({arg7', v14'} : Finset (DevRef τ sig)) ⊆ Sall by decide,
    show ({v13', v14', v15'} : Finset (DevRef τ sig)) ⊆ Sall by decide⟩

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

/-- A line of host statements, each continued by the return, run one after the other and then `R`: the nested
    weakest preconditions. -/
def wpLine (d : Dev nD) : List (HloOp τ sig (Elt F)) → sProp 𝕄 → sProp 𝕄
  | [], R => R
  | op :: ops, R => wp frame (wpE ((K (F := F)).defs (D (F := F))) 𝒱 (SparseCore.T d) none) Set.univ
      (hlo rfl op fun _ => .ret (⟨⟩ : PUnit)) fun _ => wpLine d ops R

/-- Holding the region boundary and the 26 arrays at `W`, a line of operations on them runs to its end, where the
    arrays are at `after ops W`. -/
theorem wp_line (d : Dev nD) : ∀ (ops : List (HloOp τ sig (Elt F))) (_ : ∀ op ∈ ops, op.bufs ⊆ Sall) (_ : ∀ op ∈ ops, op.fresh = ∅)
    (W : Valuation τ sig (Elt F)) (R : sProp 𝕄),
    iprop(boundary (SparseCore.T d) ∗ (held (SparseCore.T d) Sall W : sProp 𝕄))
      ⊢ iprop((iprop(boundary (SparseCore.T d) ∗ (held (SparseCore.T d) Sall (StableHlo.after ops W) : sProp 𝕄)) -∗ R) -∗ wpLine d ops R)
  | [], _, _, W, R => by
    rw [wpLine, StableHlo.after_nil]
    iintro H Hk
    iapply Hk; iexact H
  | op :: ops, hS, hf, W, R => by
    rw [wpLine, StableHlo.after_cons]
    iintro H Hk
    iapply (wp_hlo_within 𝒱 (SparseCore.T d) none Set.univ (op := op) (S := Sall) (hS op List.mem_cons_self) (V := W)
      (hf := hf op List.mem_cons_self)) $$ H
    iintro H
    rw [wp_ret]; imodintro
    iapply (wp_line d ops (fun o ho => hS o (List.mem_cons_of_mem _ ho)) (fun o ho => hf o (List.mem_cons_of_mem _ ho)) (op.result W) R) $$ H
    iexact Hk

/-- The six operations before the SparseCore call, in the shape @main's weakest precondition unfolds to. -/
theorem wp_opsA (d : Dev nD) (W : Valuation τ sig (Elt F)) {R : sProp 𝕄} :
    iprop(boundary (SparseCore.T d) ∗ (held (SparseCore.T d) Sall W : sProp 𝕄))
      ⊢ iprop((iprop(boundary (SparseCore.T d) ∗ (held (SparseCore.T d) Sall (StableHlo.after opsA W) : sProp 𝕄)) -∗ R) -∗
      wp frame (wpE ((K (F := F)).defs (D (F := F))) 𝒱 (SparseCore.T d) none) Set.univ
    (hlo rfl (StableHlo.reshape main_arg1 main_v0 rfl shapeCasts_S8x2048x128_S8x2048x4x32) fun _ => .ret (⟨⟩ : PUnit)) fun _ =>
        wp frame (wpE ((K (F := F)).defs (D (F := F))) 𝒱 (SparseCore.T d) none) Set.univ
      (hlo rfl (StableHlo.unary main_v0 main_v1 ((transpose S8x4x32x2048 [0, 2, 3, 1] · transposes_S8x2048x4x32_S8x4x32x2048_0_2_3_1) : (⟨S8x2048x4x32, .f32⟩ : BufTy).Contents (Elt F) → (⟨S8x4x32x2048, .f32⟩ : BufTy).Contents (Elt F))) fun _ => .ret (⟨⟩ : PUnit)) fun _ =>
          wp frame (wpE ((K (F := F)).defs (D (F := F))) 𝒱 (SparseCore.T d) none) Set.univ
        (hlo rfl (StableHlo.reshape main_v1 main_v2 rfl shapeCasts_S8x4x32x2048_S32x32x2048) fun _ => .ret (⟨⟩ : PUnit)) fun _ =>
            wp frame (wpE ((K (F := F)).defs (D (F := F))) 𝒱 (SparseCore.T d) none) Set.univ
          (hlo rfl (StableHlo.unary main_arg2 main_v3 ((transpose S8x16x2048 [0, 2, 1] · transposes_S8x2048x16_S8x16x2048_0_2_1) : (⟨S8x2048x16, .i32⟩ : BufTy).Contents (Elt F) → (⟨S8x16x2048, .i32⟩ : BufTy).Contents (Elt F))) fun _ => .ret (⟨⟩ : PUnit)) fun _ =>
              wp frame (wpE ((K (F := F)).defs (D (F := F))) 𝒱 (SparseCore.T d) none) Set.univ
            (hlo rfl (StableHlo.reshape main_arg0 main_v4 rfl shapeCasts_S8x128_S32x32x1) fun _ => .ret (⟨⟩ : PUnit)) fun _ =>
                wp frame (wpE ((K (F := F)).defs (D (F := F))) 𝒱 (SparseCore.T d) none) Set.univ
              (hlo rfl (StableHlo.unary main_v4 main_v5 (broadcastInDim S32x32x16 ![0, 1, 2] bcast_S32x32x1_S32x32x16_0_1_2 : (⟨S32x32x1, .f32⟩ : BufTy).Contents (Elt F) → (⟨S32x32x16, .f32⟩ : BufTy).Contents (Elt F))) fun _ => .ret (⟨⟩ : PUnit)) fun _ =>
      R) :=
  wp_line d opsA (List.forall_iff_forall_mem.1 opsA_sub) opsA_fresh W R

/-- The eleven operations between the two calls, in the same shape. -/
theorem wp_opsB (d : Dev nD) (W : Valuation τ sig (Elt F)) {R : sProp 𝕄} :
    iprop(boundary (SparseCore.T d) ∗ (held (SparseCore.T d) Sall W : sProp 𝕄))
      ⊢ iprop((iprop(boundary (SparseCore.T d) ∗ (held (SparseCore.T d) Sall (StableHlo.after opsB W) : sProp 𝕄)) -∗ R) -∗
      wp frame (wpE ((K (F := F)).defs (D (F := F))) 𝒱 (SparseCore.T d) none) Set.univ
    (hlo rfl (StableHlo.reshape main_v6_0 main_v7 rfl shapeCasts_S32x2048_S8x4x2048) fun _ => .ret (⟨⟩ : PUnit)) fun _ =>
        wp frame (wpE ((K (F := F)).defs (D (F := F))) 𝒱 (SparseCore.T d) none) Set.univ
      (hlo rfl (StableHlo.reshape main_v6_1 main_v8 rfl shapeCasts_S32x2048_S8x4x2048) fun _ => .ret (⟨⟩ : PUnit)) fun _ =>
          wp frame (wpE ((K (F := F)).defs (D (F := F))) 𝒱 (SparseCore.T d) none) Set.univ
        (hlo rfl (StableHlo.unary main_arg5 main_v9 ((transpose S2x8x2048 [2, 0, 1] · transposes_S8x2048x2_S2x8x2048_2_0_1) : (⟨S8x2048x2, .f32⟩ : BufTy).Contents (Elt F) → (⟨S2x8x2048, .f32⟩ : BufTy).Contents (Elt F))) fun _ => .ret (⟨⟩ : PUnit)) fun _ =>
            wp frame (wpE ((K (F := F)).defs (D (F := F))) 𝒱 (SparseCore.T d) none) Set.univ
          (hlo rfl (StableHlo.unary main_arg4 main_v10 ((transpose S2x8 [1, 0] · transposes_S8x2_S2x8_1_0) : (⟨S8x2, .f32⟩ : BufTy).Contents (Elt F) → (⟨S2x8, .f32⟩ : BufTy).Contents (Elt F))) fun _ => .ret (⟨⟩ : PUnit)) fun _ =>
              wp frame (wpE ((K (F := F)).defs (D (F := F))) 𝒱 (SparseCore.T d) none) Set.univ
            (hlo rfl (StableHlo.unary main_v10 main_v11 (broadcastInDim S2x8x1 ![0, 1] bcast_S2x8_S2x8x1_0_1 : (⟨S2x8, .f32⟩ : BufTy).Contents (Elt F) → (⟨S2x8x1, .f32⟩ : BufTy).Contents (Elt F))) fun _ => .ret (⟨⟩ : PUnit)) fun _ =>
                wp frame (wpE ((K (F := F)).defs (D (F := F))) 𝒱 (SparseCore.T d) none) Set.univ
              (hlo rfl (StableHlo.unary main_arg3 main_v12 (uitofp .f32 : (⟨S8x2048, .i1⟩ : BufTy).Contents (Elt F) → (⟨S8x2048, .f32⟩ : BufTy).Contents (Elt F))) fun _ => .ret (⟨⟩ : PUnit)) fun _ =>
                  wp frame (wpE ((K (F := F)).defs (D (F := F))) 𝒱 (SparseCore.T d) none) Set.univ
                (hlo rfl (StableHlo.unary main_arg6 main_v13 (broadcastInDim S1 ![] bcast_S_S1 : (⟨S_, .f32⟩ : BufTy).Contents (Elt F) → (⟨S1, .f32⟩ : BufTy).Contents (Elt F))) fun _ => .ret (⟨⟩ : PUnit)) fun _ =>
                    wp frame (wpE ((K (F := F)).defs (D (F := F))) 𝒱 (SparseCore.T d) none) Set.univ
                  (hlo rfl (StableHlo.unary main_arg7 main_v14 (broadcastInDim S1 ![] bcast_S_S1 : (⟨S_, .f32⟩ : BufTy).Contents (Elt F) → (⟨S1, .f32⟩ : BufTy).Contents (Elt F))) fun _ => .ret (⟨⟩ : PUnit)) fun _ =>
                      wp frame (wpE ((K (F := F)).defs (D (F := F))) 𝒱 (SparseCore.T d) none) Set.univ
                    (hlo rfl (StableHlo.binary main_v13 main_v14 main_v15 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))) fun _ => .ret (⟨⟩ : PUnit)) fun _ =>
      R) :=
  wp_line d opsB (List.forall_iff_forall_mem.1 opsB_sub) opsB_fresh W R

/-! ## Arrays out of the held set and back -/

/-- The SparseCore call's arrays: its three operands and its two results. -/
abbrev five : Finset (DevRef τ sig) := {v2', v3', v5', v60', v61'}
/-- The pipeline call's arrays: its six operands and its result. -/
abbrev seven : Finset (DevRef τ sig) := {v7', v8', v9', v11', v12', v15', v16'}
/-- @main's eight arguments. -/
abbrev eight : Finset (DevRef τ sig) := {arg0', arg1', arg2', arg3', arg4', arg5', arg6', arg7'}

omit [FloatOps F] in
theorem held_out5 (d : Dev nD) (W : Valuation τ sig (Elt F)) :
    (held (SparseCore.T d) Sall W : sProp 𝕄) = iprop(((SparseCore.T d).loc main_v2 ↦{fullShare} W v2') ∗ ((SparseCore.T d).loc main_v3 ↦{fullShare} W v3') ∗ ((SparseCore.T d).loc main_v5 ↦{fullShare} W v5') ∗ ((SparseCore.T d).loc main_v6_0 ↦{fullShare} W v60') ∗ ((SparseCore.T d).loc main_v6_1 ↦{fullShare} W v61') ∗ held (SparseCore.T d) (Sall \ five) W) := by
  unfold held
  conv_lhs => rw [show Sall = insert v2' (insert v3' (insert v5' (insert v60' (insert v61' (Sall \ five))))) by decide]
  rw [SparseCore.bigSep_insert' (by decide), SparseCore.bigSep_insert' (by decide), SparseCore.bigSep_insert' (by decide), SparseCore.bigSep_insert' (by decide), SparseCore.bigSep_insert' (by decide)]

omit [FloatOps F] in
theorem held_out7 (d : Dev nD) (W : Valuation τ sig (Elt F)) :
    (held (SparseCore.T d) Sall W : sProp 𝕄) = iprop(((SparseCore.T d).loc main_v7 ↦{fullShare} W v7') ∗ ((SparseCore.T d).loc main_v8 ↦{fullShare} W v8') ∗ ((SparseCore.T d).loc main_v9 ↦{fullShare} W v9') ∗ ((SparseCore.T d).loc main_v11 ↦{fullShare} W v11') ∗ ((SparseCore.T d).loc main_v12 ↦{fullShare} W v12') ∗ ((SparseCore.T d).loc main_v15 ↦{fullShare} W v15') ∗ ((SparseCore.T d).loc main_v16 ↦{fullShare} W v16') ∗ held (SparseCore.T d) (Sall \ seven) W) := by
  unfold held
  conv_lhs => rw [show Sall = insert v7' (insert v8' (insert v9' (insert v11' (insert v12' (insert v15' (insert v16' (Sall \ seven))))))) by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)]

omit [FloatOps F] in
theorem held_out8 (d : Dev nD) (W : Valuation τ sig (Elt F)) :
    (held (SparseCore.T d) Sall W : sProp 𝕄) = iprop(((SparseCore.T d).loc main_arg0 ↦{fullShare} W arg0') ∗ ((SparseCore.T d).loc main_arg1 ↦{fullShare} W arg1') ∗ ((SparseCore.T d).loc main_arg2 ↦{fullShare} W arg2') ∗ ((SparseCore.T d).loc main_arg3 ↦{fullShare} W arg3') ∗ ((SparseCore.T d).loc main_arg4 ↦{fullShare} W arg4') ∗ ((SparseCore.T d).loc main_arg5 ↦{fullShare} W arg5') ∗ ((SparseCore.T d).loc main_arg6 ↦{fullShare} W arg6') ∗ ((SparseCore.T d).loc main_arg7 ↦{fullShare} W arg7') ∗ held (SparseCore.T d) (Sall \ eight) W) := by
  unfold held
  conv_lhs => rw [show Sall = insert arg0' (insert arg1' (insert arg2' (insert arg3' (insert arg4' (insert arg5' (insert arg6' (insert arg7' (Sall \ eight)))))))) by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)]

/-- `W` with the SparseCore call's two results at new contents. -/
def W5 (W : Valuation τ sig (Elt F)) (d : Dev nD) (f0 : Buf (Elt F) ((SparseCore.T d : Thread nD τ).loc main_v6_0)) (f1 : Buf (Elt F) ((SparseCore.T d : Thread nD τ).loc main_v6_1)) :
    Valuation τ sig (Elt F) :=
  Function.update (Function.update W v60' f0) v61' f1

omit [FloatOps F] in
theorem W5_v60 (W : Valuation τ sig (Elt F)) (d : Dev nD) (f0 : Buf (Elt F) ((SparseCore.T d : Thread nD τ).loc main_v6_0)) (f1 : Buf (Elt F) ((SparseCore.T d : Thread nD τ).loc main_v6_1)) :
    W5 W d f0 f1 v60' = f0 :=
  (Function.update_of_ne (show v60' ≠ v61' by decide) _ _).trans (Function.update_self _ _ _)
omit [FloatOps F] in
theorem W5_v61 (W : Valuation τ sig (Elt F)) (d : Dev nD) (f0 : Buf (Elt F) ((SparseCore.T d : Thread nD τ).loc main_v6_0)) (f1 : Buf (Elt F) ((SparseCore.T d : Thread nD τ).loc main_v6_1)) :
    W5 W d f0 f1 v61' = f1 := Function.update_self _ _ _
omit [FloatOps F] in
theorem W5_of_ne (W : Valuation τ sig (Elt F)) (d : Dev nD) (f0 : Buf (Elt F) ((SparseCore.T d : Thread nD τ).loc main_v6_0)) (f1 : Buf (Elt F) ((SparseCore.T d : Thread nD τ).loc main_v6_1))
    {b : DevRef τ sig} (h0 : b ≠ v60') (h1 : b ≠ v61') : W5 W d f0 f1 b = W b :=
  (Function.update_of_ne h1 _ _).trans (Function.update_of_ne h0 _ _)

omit [FloatOps F] in
/-- The SparseCore call's arrays back into the held set, its two results at what the call left. -/
theorem held_in5 (d : Dev nD) (W : Valuation τ sig (Elt F)) (f0 : Buf (Elt F) ((SparseCore.T d : Thread nD τ).loc main_v6_0)) (f1 : Buf (Elt F) ((SparseCore.T d : Thread nD τ).loc main_v6_1)) :
    iprop(((SparseCore.T d).loc main_v2 ↦{fullShare} W v2') ∗ ((SparseCore.T d).loc main_v3 ↦{fullShare} W v3') ∗ ((SparseCore.T d).loc main_v5 ↦{fullShare} W v5') ∗ ((SparseCore.T d).loc main_v6_0 ↦{fullShare} f0) ∗ ((SparseCore.T d).loc main_v6_1 ↦{fullShare} f1) ∗ held (SparseCore.T d) (Sall \ five) W)
      = (held (SparseCore.T d) Sall (W5 W d f0 f1) : sProp 𝕄) := by
  rw [held_out5 d (W5 W d f0 f1), W5_v60, W5_v61,
    W5_of_ne W d f0 f1 (show v2' ≠ v60' by decide) (show v2' ≠ v61' by decide),
    W5_of_ne W d f0 f1 (show v3' ≠ v60' by decide) (show v3' ≠ v61' by decide),
    W5_of_ne W d f0 f1 (show v5' ≠ v60' by decide) (show v5' ≠ v61' by decide),
    held_congr (SparseCore.T d) (V := W5 W d f0 f1) (V' := W) fun b hb => W5_of_ne W d f0 f1
      (fun e => (Finset.mem_sdiff.mp hb).2 (e ▸ by decide)) (fun e => (Finset.mem_sdiff.mp hb).2 (e ▸ by decide))]

/-- `W` with the pipeline call's result at new contents. -/
def W7 (W : Valuation τ sig (Elt F)) (d : Dev nD) (g : Buf (Elt F) ((SparseCore.T d : Thread nD τ).loc main_v16)) : Valuation τ sig (Elt F) :=
  Function.update W v16' g

omit [FloatOps F] in
theorem W7_v16 (W : Valuation τ sig (Elt F)) (d : Dev nD) (g : Buf (Elt F) ((SparseCore.T d : Thread nD τ).loc main_v16)) : W7 W d g v16' = g :=
  Function.update_self _ _ _
omit [FloatOps F] in
theorem W7_of_ne (W : Valuation τ sig (Elt F)) (d : Dev nD) (g : Buf (Elt F) ((SparseCore.T d : Thread nD τ).loc main_v16)) {b : DevRef τ sig} (h : b ≠ v16') :
    W7 W d g b = W b := Function.update_of_ne h _ _

omit [FloatOps F] in
/-- The pipeline call's arrays back into the held set, its result at what the call left. -/
theorem held_in7 (d : Dev nD) (W : Valuation τ sig (Elt F)) (g : Buf (Elt F) ((SparseCore.T d : Thread nD τ).loc main_v16)) :
    iprop(((SparseCore.T d).loc main_v7 ↦{fullShare} W v7') ∗ ((SparseCore.T d).loc main_v8 ↦{fullShare} W v8') ∗ ((SparseCore.T d).loc main_v9 ↦{fullShare} W v9') ∗ ((SparseCore.T d).loc main_v11 ↦{fullShare} W v11') ∗ ((SparseCore.T d).loc main_v12 ↦{fullShare} W v12') ∗ ((SparseCore.T d).loc main_v15 ↦{fullShare} W v15') ∗ ((SparseCore.T d).loc main_v16 ↦{fullShare} g) ∗ held (SparseCore.T d) (Sall \ seven) W)
      = (held (SparseCore.T d) Sall (W7 W d g) : sProp 𝕄) := by
  rw [held_out7 d (W7 W d g), W7_v16,
    W7_of_ne W d g (show v7' ≠ v16' by decide), W7_of_ne W d g (show v8' ≠ v16' by decide), W7_of_ne W d g (show v9' ≠ v16' by decide), W7_of_ne W d g (show v11' ≠ v16' by decide), W7_of_ne W d g (show v12' ≠ v16' by decide), W7_of_ne W d g (show v15' ≠ v16' by decide),
    held_congr (SparseCore.T d) (V := W7 W d g) (V' := W) fun b hb => W7_of_ne W d g
      (fun e => (Finset.mem_sdiff.mp hb).2 (e ▸ by decide))]

/-! ## What the two lines leave -/

theorem opsA_writes : (opsA : List (HloOp τ sig (Elt F))).Forall fun op =>
    op.writes ⊆ (([main_v0, main_v1, main_v2, main_v3, main_v4, main_v5] : List (Ref sig .tc)).map (Proc.devRef (τ := τ) .tc)).toFinset :=
  ⟨show ({v0'} : Finset (DevRef τ sig)) ⊆ _ by decide,
    show ({v1'} : Finset (DevRef τ sig)) ⊆ _ by decide,
    show ({v2'} : Finset (DevRef τ sig)) ⊆ _ by decide,
    show ({v3'} : Finset (DevRef τ sig)) ⊆ _ by decide,
    show ({v4'} : Finset (DevRef τ sig)) ⊆ _ by decide,
    show ({v5'} : Finset (DevRef τ sig)) ⊆ _ by decide⟩

theorem opsB_writes : (opsB : List (HloOp τ sig (Elt F))).Forall fun op =>
    op.writes ⊆ (([main_v7, main_v8, main_v9, main_v10, main_v11, main_v12, main_v13, main_v14, main_v15] : List (Ref sig .tc)).map (Proc.devRef (τ := τ) .tc)).toFinset :=
  ⟨show ({v7'} : Finset (DevRef τ sig)) ⊆ _ by decide,
    show ({v8'} : Finset (DevRef τ sig)) ⊆ _ by decide,
    show ({v9'} : Finset (DevRef τ sig)) ⊆ _ by decide,
    show ({v10'} : Finset (DevRef τ sig)) ⊆ _ by decide,
    show ({v11'} : Finset (DevRef τ sig)) ⊆ _ by decide,
    show ({v12'} : Finset (DevRef τ sig)) ⊆ _ by decide,
    show ({v13'} : Finset (DevRef τ sig)) ⊆ _ by decide,
    show ({v14'} : Finset (DevRef τ sig)) ⊆ _ by decide,
    show ({v15'} : Finset (DevRef τ sig)) ⊆ _ by decide⟩

/-- An array none of the six operations writes keeps its contents. -/
theorem opsA_frame (W : Valuation τ sig (Elt F)) (r : Ref sig .tc) (hr : r ∉ ([main_v0, main_v1, main_v2, main_v3, main_v4, main_v5] : List (Ref sig .tc))) :
    StableHlo.after opsA W (Proc.devRef .tc r) = W (Proc.devRef .tc r) :=
  StableHlo.after_of_writes_sub opsA W opsA_writes hr

/-- An array none of the operations between the calls writes keeps its contents. -/
theorem opsB_frame (W : Valuation τ sig (Elt F)) (r : Ref sig .tc) (hr : r ∉ ([main_v7, main_v8, main_v9, main_v10, main_v11, main_v12, main_v13, main_v14, main_v15] : List (Ref sig .tc))) :
    StableHlo.after opsB W (Proc.devRef .tc r) = W (Proc.devRef .tc r) :=
  StableHlo.after_of_writes_sub opsB W opsB_writes hr

/-- After the six operations: psi regrouped, -/
theorem opsA_v2 (W : Valuation τ sig (Elt F)) : StableHlo.after opsA W v2' = Cert.BridgeK.g2 (W arg1') := by
  after_results_simp <;> rfl
/-- the neighbour indices with the node axis last, -/
theorem opsA_v3 (W : Valuation τ sig (Elt F)) : StableHlo.after opsA W v3' = Cert.BridgeK.g3 (W arg2') := by
  after_results_simp <;> rfl
/-- and q repeated along the lanes. -/
theorem opsA_v5 (W : Valuation τ sig (Elt F)) : StableHlo.after opsA W v5' = Cert.BridgeK.g5 (W arg0') := by
  after_results_simp <;> rfl

/-- After the operations between the calls: the pipeline call's six operands, each the printed operation of its operands. -/
theorem opsB_v7 (W : Valuation τ sig (Elt F)) :
    StableHlo.after opsB W v7' = shapeCast S8x4x2048 (W v60') shapeCasts_S32x2048_S8x4x2048 := by
  after_results_simp <;> rfl
theorem opsB_v8 (W : Valuation τ sig (Elt F)) :
    StableHlo.after opsB W v8' = shapeCast S8x4x2048 (W v61') shapeCasts_S32x2048_S8x4x2048 := by
  after_results_simp <;> rfl
theorem opsB_v9 (W : Valuation τ sig (Elt F)) :
    StableHlo.after opsB W v9' = transpose S2x8x2048 [2, 0, 1] (W arg5') transposes_S8x2048x2_S2x8x2048_2_0_1 := by
  after_results_simp <;> rfl
theorem opsB_v11 (W : Valuation τ sig (Elt F)) :
    StableHlo.after opsB W v11'
      = broadcastInDim S2x8x1 ![0, 1] bcast_S2x8_S2x8x1_0_1 (transpose S2x8 [1, 0] (W arg4') transposes_S8x2_S2x8_1_0) := by
  after_results_simp <;> rfl
theorem opsB_v12 (W : Valuation τ sig (Elt F)) : StableHlo.after opsB W v12' = uitofp .f32 (W arg3') := by
  after_results_simp <;> rfl
theorem opsB_v15 (W : Valuation τ sig (Elt F)) :
    StableHlo.after opsB W v15'
      = concatenate S2 0 [⟨S1, broadcastInDim S1 ![] bcast_S_S1 (W arg6')⟩, ⟨S1, broadcastInDim S1 ![] bcast_S_S1 (W arg7')⟩]
          concatenates_S1_S1_S2_d0 := by
  after_results_simp <;> rfl

end Cert.Kernel.HostOps

end
-- ==== Proof.TileResK.lean ====
import proofs.«209090_g87076166960129_cont_sun_c4_39_31_alg».proof.Proof.SetupK

noncomputable section

namespace Cert.Kernel.TileRes

open Cert.Kernel Cert.Kernel.Gen Cert.Kernel.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.Kernel.main_v2_scv : Memref Cert.Kernel.sig Kind.scVector Space.hbm Cert.Kernel.S32x32x2048 EltTy.f32)
local notation "a3" => (Memref.whole Cert.Kernel.main_v3_scv : Memref Cert.Kernel.sig Kind.scVector Space.hbm Cert.Kernel.S8x16x2048 EltTy.i32)
local notation "a4" => (Memref.whole Cert.Kernel.main_v5_scv : Memref Cert.Kernel.sig Kind.scVector Space.hbm Cert.Kernel.S32x32x16 EltTy.f32)
local notation "a5" => (Memref.whole Cert.Kernel.main_v6_0_scv : Memref Cert.Kernel.sig Kind.scVector Space.hbm Cert.Kernel.S32x2048 EltTy.f32)
local notation "a6" => (Memref.whole Cert.Kernel.main_v6_1_scv : Memref Cert.Kernel.sig Kind.scVector Space.hbm Cert.Kernel.S32x2048 EltTy.f32)
local notation "s7" => (Memref.whole Cert.Kernel.cc0_scratch0 : Memref Cert.Kernel.sig Kind.scVector Space.vmem Cert.Kernel.S32x2048 EltTy.f32)
local notation "s8" => (Memref.whole Cert.Kernel.cc0_scratch1 : Memref Cert.Kernel.sig Kind.scVector Space.vmem Cert.Kernel.S16x2048 EltTy.i32)
local notation "s9" => (Memref.whole Cert.Kernel.cc0_scratch2 : Memref Cert.Kernel.sig Kind.scVector Space.vmem Cert.Kernel.S32x16 EltTy.f32)
local notation "s10" => (Memref.whole Cert.Kernel.cc0_scratch3 : Memref Cert.Kernel.sig Kind.scVector Space.vmem Cert.Kernel.S2048 EltTy.f32)
local notation "s11" => (Memref.whole Cert.Kernel.cc0_scratch4 : Memref Cert.Kernel.sig Kind.scVector Space.vmem Cert.Kernel.S2048 EltTy.f32)

variable [FloatOps F]
variable (d : Dev nD) (L : grid0.Coords)

/-- The vector subcore a grid position runs on. -/
abbrev cV (L : grid0.Coords) : Fin τ.nSC := (L 0).castLE hcore0
abbrev jV (L : grid0.Coords) : Fin τ.nSub := (L 1).castLE hsub0

/-- A DMA semaphore of the subcore, as a cell. -/
abbrev cell (sm : DmaSem sig) : GSem nD τ sig := (V d (cV L) (jV L), .dma sm)

omit [FloatOps F] in
theorem cell_ne {a b : DmaSem sig} (h : a ≠ b) : cell d L a ≠ cell d L b :=
  fun e => h (SemLoc.dma.inj (Prod.mk.inj e).2)

omit [FloatOps F] in
theorem cell_mem (sm : DmaSem sig) (hs : (SemLoc.dma sm : SemLoc sig).isScoped .scVector = true) : cell d L sm ∈ ownCells (V d (cV L) (jV L)) :=
  mem_ownCells.mpr ⟨rfl, hs⟩

/-- The kernel's five DMA semaphores, as cells of the subcore. -/
abbrev fiveCells : Finset (GSem nD τ sig) :=
  {cell d L cc0_scoped0.sem, cell d L cc0_scoped1.sem, cell d L cc0_scoped2.sem, cell d L cc0_scoped3.sem, cell d L cc0_scoped4.sem}

omit [FloatOps F] in
theorem fiveCells_sub : fiveCells d L ⊆ ownCells (V d (cV L) (jV L)) := by
  intro g hg
  simp only [fiveCells, Finset.mem_insert, Finset.mem_singleton] at hg
  rcases hg with rfl | rfl | rfl | rfl | rfl <;> exact cell_mem d L _ (by decide)

omit [FloatOps F] in
/-- The subcore's own semaphores at zero are the kernel's five and the rest. -/
theorem ownSems0_V :
    (ownSems0 (V d (cV L) (jV L)) : sProp 𝕄)
      = iprop((semVal (cell d L cc0_scoped0.sem) 0 ∗ semVal (cell d L cc0_scoped1.sem) 0 ∗ semVal (cell d L cc0_scoped2.sem) 0
          ∗ semVal (cell d L cc0_scoped3.sem) 0 ∗ semVal (cell d L cc0_scoped4.sem) 0)
          ∗ bigSep (ownCells (V d (cV L) (jV L)) \ fiveCells d L) fun g => semVal g 0) := by
  unfold SparseCore.Cfg.ownSems0
  rw [SparseCore.bigSep_sdiff_split' (fiveCells_sub d L)]
  congr 1
  unfold fiveCells
  rw [SparseCore.bigSep_insert' (by
        simp only [Finset.mem_insert, Finset.mem_singleton, not_or]
        exact ⟨cell_ne d L (by decide), cell_ne d L (by decide), cell_ne d L (by decide), cell_ne d L (by decide)⟩),
    SparseCore.bigSep_insert' (by
        simp only [Finset.mem_insert, Finset.mem_singleton, not_or]
        exact ⟨cell_ne d L (by decide), cell_ne d L (by decide), cell_ne d L (by decide)⟩),
    SparseCore.bigSep_insert' (by
        simp only [Finset.mem_insert, Finset.mem_singleton, not_or]
        exact ⟨cell_ne d L (by decide), cell_ne d L (by decide)⟩),
    SparseCore.bigSep_insert' (by
        simp only [Finset.mem_singleton]
        exact cell_ne d L (by decide)),
    bigSep_singleton]

/-- A scratch of the subcore, as a device reference. -/
abbrev sref (r : Ref sig .scVector) : DevRef τ sig := (Proc.scVector (cV L) (jV L)).devRef r

omit [FloatOps F] in
theorem sref_ne {a b : Ref sig .scVector} (h : a ≠ b) : sref L a ≠ sref L b := fun e => h (Proc.devRef_injective _ e)

abbrev fiveRefs : Finset (DevRef τ sig) := {sref L cc0_scratch0, sref L cc0_scratch1, sref L cc0_scratch2, sref L cc0_scratch3, sref L cc0_scratch4}

omit [FloatOps F] in
theorem fiveRefs_sub : fiveRefs L ⊆ ownRefs (τ := τ) (.scVector (cV L) (jV L)) := by
  intro b hb
  simp only [fiveRefs, Finset.mem_insert, Finset.mem_singleton] at hb
  rcases hb with rfl | rfl | rfl | rfl | rfl <;> exact SparseCore.Cfg.mem_ownRefs_of_owner rfl

omit [FloatOps F] in
/-- The subcore's own buffers are the kernel's five scratches, each at some contents, and the rest. -/
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f))
          ∗ bigSep (ownRefs (τ := τ) (.scVector (cV L) (jV L)) \ fiveRefs L)
              fun b => iprop(∃ f, ((d, b) : Loc nD τ sig) ↦{fullShare} f)) := by
  unfold SparseCore.Cfg.ownBufs
  rw [SparseCore.bigSep_sdiff_split' (fiveRefs_sub L)]
  congr 1
  unfold fiveRefs
  rw [SparseCore.bigSep_insert' (by
        simp only [Finset.mem_insert, Finset.mem_singleton, not_or]
        exact ⟨sref_ne L (by decide), sref_ne L (by decide), sref_ne L (by decide), sref_ne L (by decide)⟩),
    SparseCore.bigSep_insert' (by
        simp only [Finset.mem_insert, Finset.mem_singleton, not_or]
        exact ⟨sref_ne L (by decide), sref_ne L (by decide), sref_ne L (by decide)⟩),
    SparseCore.bigSep_insert' (by
        simp only [Finset.mem_insert, Finset.mem_singleton, not_or]
        exact ⟨sref_ne L (by decide), sref_ne L (by decide)⟩),
    SparseCore.bigSep_insert' (by
        simp only [Finset.mem_singleton]
        exact sref_ne L (by decide)),
    bigSep_singleton]

end Cert.Kernel.TileRes

end
-- ==== Proof.TileSpecK.lean ====
import proofs.«209090_g87076166960129_cont_sun_c4_39_31_alg».proof.Proof.SetupK
import proofs.«209090_g87076166960129_cont_sun_c4_39_31_alg».proof.Proof.TileResK

noncomputable section

namespace Cert.Kernel.TileSpec

open Cert.Kernel Cert.Kernel.Gen Cert.Kernel.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.Kernel.main_v2_scv : Memref Cert.Kernel.sig Kind.scVector Space.hbm Cert.Kernel.S32x32x2048 EltTy.f32)
local notation "a3" => (Memref.whole Cert.Kernel.main_v3_scv : Memref Cert.Kernel.sig Kind.scVector Space.hbm Cert.Kernel.S8x16x2048 EltTy.i32)
local notation "a4" => (Memref.whole Cert.Kernel.main_v5_scv : Memref Cert.Kernel.sig Kind.scVector Space.hbm Cert.Kernel.S32x32x16 EltTy.f32)
local notation "a5" => (Memref.whole Cert.Kernel.main_v6_0_scv : Memref Cert.Kernel.sig Kind.scVector Space.hbm Cert.Kernel.S32x2048 EltTy.f32)
local notation "a6" => (Memref.whole Cert.Kernel.main_v6_1_scv : Memref Cert.Kernel.sig Kind.scVector Space.hbm Cert.Kernel.S32x2048 EltTy.f32)
local notation "s7" => (Memref.whole Cert.Kernel.cc0_scratch0 : Memref Cert.Kernel.sig Kind.scVector Space.vmem Cert.Kernel.S32x2048 EltTy.f32)
local notation "s8" => (Memref.whole Cert.Kernel.cc0_scratch1 : Memref Cert.Kernel.sig Kind.scVector Space.vmem Cert.Kernel.S16x2048 EltTy.i32)
local notation "s9" => (Memref.whole Cert.Kernel.cc0_scratch2 : Memref Cert.Kernel.sig Kind.scVector Space.vmem Cert.Kernel.S32x16 EltTy.f32)
local notation "s10" => (Memref.whole Cert.Kernel.cc0_scratch3 : Memref Cert.Kernel.sig Kind.scVector Space.vmem Cert.Kernel.S2048 EltTy.f32)
local notation "s11" => (Memref.whole Cert.Kernel.cc0_scratch4 : Memref Cert.Kernel.sig Kind.scVector Space.vmem Cert.Kernel.S2048 EltTy.f32)

open Cert.Kernel.TileRes

variable [FloatOps F]
variable (d : Dev nD) (L : grid0.Coords)

/-- What one trip of the task's loop over groups of sixteen nodes needs and leaves: the table, index and query scratches
    held whole at fixed contents, the two result scratches held whole at some contents. -/
def tripInv (tbl : Buf (Elt F) ((V d (cV L) (jV L)).loc cc0_scratch0)) (idx : Buf (Elt F) ((V d (cV L) (jV L)).loc cc0_scratch1))
    (qb : Buf (Elt F) ((V d (cV L) (jV L)).loc cc0_scratch2)) (_ : Nat) (_ : Unit) : sProp 𝕄 :=
  iprop(((s7).view.loc (V d (cV L) (jV L)) ↦{fullShare} tbl) ∗ ((s8).view.loc (V d (cV L) (jV L)) ↦{fullShare} idx)
      ∗ ((s9).view.loc (V d (cV L) (jV L)) ↦{fullShare} qb)
      ∗ (∃ f, (s10).view.loc (V d (cV L) (jV L)) ↦{fullShare} f) ∗ (∃ f, (s11).view.loc (V d (cV L) (jV L)) ↦{fullShare} f))

/-- One trip runs, whatever group it is, provided every word of the index scratch names a column of the table: each of
    its thirty-two rounds of sixteen indexed loads reads inside the table, and it leaves the five scratches as it found
    them, the two result scratches at new contents. -/
def TripSpec : Prop :=
  ∀ (k : Fin k0_t1_loop.trips) (tbl : Buf (Elt F) ((V d (cV L) (jV L)).loc cc0_scratch0)) (idx : Buf (Elt F) ((V d (cV L) (jV L)).loc cc0_scratch1))
    (qb : Buf (Elt F) ((V d (cV L) (jV L)).loc cc0_scratch2)),
    (∀ j, (((s8).view.read (Elt F) idx j : BitVec 32)).toNat < 2048) →
    (tripInv d L tbl idx qb k.val () : sProp 𝕄)
      ⊢ wp frame (wpE (defs₀ (F := F)) 𝒱₀ (V d (cV L) (jV L)) none) Set.univ
          (k0_t1_body L a2 (Memref.isWhole_whole _) a3 (Memref.isWhole_whole _) a4 (Memref.isWhole_whole _) a5 (Memref.isWhole_whole _) a6 (Memref.isWhole_whole _)
            s7 (Memref.isWhole_whole _) s8 (Memref.isWhole_whole _) s9 (Memref.isWhole_whole _) s10 (Memref.isWhole_whole _) s11 (Memref.isWhole_whole _)
            cc0_scoped0 cc0_scoped1 cc0_scoped2 cc0_scoped3 cc0_scoped4 k ())
          fun r => tripInv d L tbl idx qb (k.val + 1) r

/-- Row `2·s + c` of a result array, as the task on subcore `(c, s)` slices it for its copy out. -/
abbrev oRow5 (L : grid0.Coords) : Memref sig .scVector .hbm S2048 .f32 :=
  ((a5).slice (Rect.unit (s := S32x2048) (k0_off53 L) S1x2048.size (k0_off53_inb L)) (fun _ => rfl)).squeeze S2048 squeezes_S1x2048_S2048
abbrev oRow6 (L : grid0.Coords) : Memref sig .scVector .hbm S2048 .f32 :=
  ((a6).slice (Rect.unit (s := S32x2048) (k0_off53 L) S1x2048.size (k0_off53_inb L)) (fun _ => rfl)).squeeze S2048 squeezes_S1x2048_S2048

/-- The elements of a result array that the task's row holds. -/
def outSet5 (L : grid0.Coords) : Finset S32x2048.Idx := (oRow5 L).view.set
def outSet6 (L : grid0.Coords) : Finset S32x2048.Idx := (oRow6 L).view.set

omit [FloatOps F] in
theorem pts_o5 (f : Buf (Elt F) ((V d (cV L) (jV L)).loc main_v6_0_scv)) :
    ((oRow5 L).view.loc (V d (cV L) (jV L)) ↦[(oRow5 L).view.set]{fullShare} f : sProp 𝕄)
      = (V d (cV L) (jV L)).loc main_v6_0_scv ↦[outSet5 L]{fullShare} f := rfl
omit [FloatOps F] in
theorem pts_o6 (f : Buf (Elt F) ((V d (cV L) (jV L)).loc main_v6_1_scv)) :
    ((oRow6 L).view.loc (V d (cV L) (jV L)) ↦[(oRow6 L).view.set]{fullShare} f : sProp 𝕄)
      = (V d (cV L) (jV L)).loc main_v6_1_scv ↦[outSet6 L]{fullShare} f := rfl

end Cert.Kernel.TileSpec

end
-- ==== Proof.LaunchPayK.lean ====
/- What the one SparseCore call's handshakes carry, and how it splits: the three arrays every task reads whole
   go out as read shares — one share per SparseCore, each cut again into one per vector subcore — and each of
   the two result arrays goes out row by row, the task on SparseCore c, subcore i holding row 2*i + c. The
   32 rows are pairwise disjoint and cover the array, so the whole arrays split into the tasks' resources and
   a remainder of read shares, and come back the same way. -/
import proofs.«209090_g87076166960129_cont_sun_c4_39_31_alg».proof.Proof.SetupK
import proofs.«209090_g87076166960129_cont_sun_c4_39_31_alg».proof.Proof.TileResK
import proofs.«209090_g87076166960129_cont_sun_c4_39_31_alg».proof.Proof.TileSpecK

noncomputable section

namespace Cert.Kernel.Launch

open Cert.Kernel Cert.Kernel.Gen Cert.Kernel.Setup Cert.Kernel.TileRes Cert.Kernel.TileSpec
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "a5" => (Memref.whole Cert.Kernel.main_v6_0_scv : Memref Cert.Kernel.sig Kind.scVector Space.hbm Cert.Kernel.S32x2048 EltTy.f32)
local notation "a6" => (Memref.whole Cert.Kernel.main_v6_1_scv : Memref Cert.Kernel.sig Kind.scVector Space.hbm Cert.Kernel.S32x2048 EltTy.f32)

/-! ## The rows of a [32, 2048] array -/

theorem hdiv : 32 ∣ S32x2048.size 0 := ⟨1, rfl⟩
/-- Row w. -/
abbrev row (w : Fin 32) : Rect S32x2048 := Rect.part (s := S32x2048) (a₀ := 0) hdiv w
/-- The elements of row w. -/
abbrev rowSet (w : Fin 32) : Finset S32x2048.Idx := ((a5).view.slice (row w)).set

/-- The grid position (SparseCore c, subcore s). -/
def coordsV (c : Fin (grid0.bound 0)) (s : Fin (grid0.bound 1)) : grid0.Coords :=
  fun | 0 => c | 1 => s | ⟨_ + 2, h⟩ => absurd h (Nat.not_lt.2 (Nat.le_add_left _ _))

/-- The row 2*s + c of the task at grid position (c, s). -/
abbrev wL (L : grid0.Coords) : Fin 32 :=
  ⟨2 * (L 1).val + (L 0).val, by
    have h0 : (L 0).val < 2 := (L 0).isLt
    have h1 : (L 1).val < 16 := (L 1).isLt
    omega⟩

/-- The rectangle the task slices for its copy out. -/
abbrev rowK (L : grid0.Coords) : Rect S32x2048 := Rect.unit (s := S32x2048) (k0_off53 L) S1x2048.size (k0_off53_inb L)

theorem rowK_eq (L : grid0.Coords) : rowK L = row (wL L) := by
  unfold rowK row Rect.part Rect.block
  congr 1 <;> funext a
  · rw [k0_off53_eq]
    match a with
    | 0 => simp [Shape.partIx, Shape.partSize]
    | 1 => simp [Shape.partIx, Shape.partSize]
  · match a with
    | 0 => simp [Shape.partSize]
    | 1 => simp [Shape.partSize]

theorem outSet5_eq (L : grid0.Coords) : outSet5 L = rowSet (wL L) := by
  unfold outSet5
  show (((a5).view.slice (rowK L)).reshape S2048 squeezes_S1x2048_S2048.numel_eq).set = ((a5).view.slice (row (wL L))).set
  rw [View.set_reshape]
  exact rowK_eq L ▸ rfl

theorem outSet6_eq (L : grid0.Coords) : outSet6 L = rowSet (wL L) := by
  unfold outSet6
  show (((a6).view.slice (rowK L)).reshape S2048 squeezes_S1x2048_S2048.numel_eq).set = ((a5).view.slice (row (wL L))).set
  rw [View.set_reshape]
  exact rowK_eq L ▸ rfl

theorem rowSet_eq (w : Fin 32) : rowSet w = (row w).set := by
  show ((View.whole (main_v6_0_scv : Ref sig .scVector)).slice (row w)).set = _
  rw [View.set_slice]; exact Finset.map_refl

theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h

theorem rows_cover : (Finset.univ : Finset (Fin 32)).biUnion rowSet = Finset.univ :=
  (Finset.biUnion_congr rfl fun i _ => rowSet_eq i).trans (Rect.biUnion_part hdiv)

/-- Rows are numbered by (SparseCore, subcore): (c, i) ↦ 2*i + c. -/
def rowEquiv : Fin 2 × Fin 16 ≃ Fin 32 where
  toFun p := ⟨2 * p.2.val + p.1.val, by omega⟩
  invFun w := (⟨w.val % 2, by omega⟩, ⟨w.val / 2, by omega⟩)
  left_inv p := Prod.ext (Fin.ext (by show (2 * p.2.val + p.1.val) % 2 = p.1.val; omega))
    (Fin.ext (by show (2 * p.2.val + p.1.val) / 2 = p.2.val; omega))
  right_inv w := Fin.ext (by show 2 * (w.val / 2) + w.val % 2 = w.val; omega)

theorem wL_coordsV (c : Fin 2) (i : Fin 16) : wL (coordsV c i) = rowEquiv (c, i) := rfl

/-- The locations of the five arrays of the call on device d. -/
abbrev v2Loc (d : Dev nD) : Loc nD τ sig := (SparseCore.T d).loc main_v2
abbrev v3Loc (d : Dev nD) : Loc nD τ sig := (SparseCore.T d).loc main_v3
abbrev v5Loc (d : Dev nD) : Loc nD τ sig := (SparseCore.T d).loc main_v5
abbrev o5Loc (d : Dev nD) : Loc nD τ sig := (SparseCore.T d).loc main_v6_0
abbrev o6Loc (d : Dev nD) : Loc nD τ sig := (SparseCore.T d).loc main_v6_1

/-- A whole result array is its 32 rows, numbered by (SparseCore, subcore). -/
theorem o5_rows (d : Dev nD) (f : Buf (Elt F) (o5Loc d)) :
    (o5Loc d ↦{fullShare} f : sProp 𝕄)
      = bigSep Finset.univ fun c : Fin 2 => bigSep Finset.univ fun i : Fin 16 => o5Loc d ↦[outSet5 (coordsV c i)]{fullShare} f := by
  rw [← bigSep_univ_prod (fun p : Fin 2 × Fin 16 => (o5Loc d ↦[outSet5 (coordsV p.1 p.2)]{fullShare} f : sProp 𝕄)),
    bigSep_congr (s := Finset.univ) (Ψ := fun p : Fin 2 × Fin 16 => (o5Loc d ↦[rowSet (rowEquiv p)]{fullShare} f : sProp 𝕄))
      (fun p _ => by rw [outSet5_eq, wL_coordsV]),
    ← bigSep_univ_equiv rowEquiv (fun w : Fin 32 => (o5Loc d ↦[rowSet w]{fullShare} f : sProp 𝕄)),
    ← pointsTo_biUnion Finset.univ (ℓ := o5Loc d) rowSet rows_disjoint, rows_cover]
  try rfl

theorem o6_rows (d : Dev nD) (f : Buf (Elt F) (o6Loc d)) :
    (o6Loc d ↦{fullShare} f : sProp 𝕄)
      = bigSep Finset.univ fun c : Fin 2 => bigSep Finset.univ fun i : Fin 16 => o6Loc d ↦[outSet6 (coordsV c i)]{fullShare} f := by
  rw [← bigSep_univ_prod (fun p : Fin 2 × Fin 16 => (o6Loc d ↦[outSet6 (coordsV p.1 p.2)]{fullShare} f : sProp 𝕄)),
    bigSep_congr (s := Finset.univ) (Ψ := fun p : Fin 2 × Fin 16 => (o6Loc d ↦[rowSet (rowEquiv p)]{fullShare} f : sProp 𝕄))
      (fun p _ => by rw [outSet6_eq, wL_coordsV]),
    ← bigSep_univ_equiv rowEquiv (fun w : Fin 32 => (o6Loc d ↦[rowSet w]{fullShare} f : sProp 𝕄)),
    ← pointsTo_biUnion Finset.univ (ℓ := o6Loc d) rowSet rows_disjoint, rows_cover]
  try rfl

/-! ## What travels -/

variable [FloatOps F]
variable (c2 : (d : Dev nD) → Buf (Elt F) (v2Loc d)) (c3 : (d : Dev nD) → Buf (Elt F) (v3Loc d))
  (c5 : (d : Dev nD) → Buf (Elt F) (v5Loc d))

/-- SparseCore c's read share of an array, and the share of its subcore i. -/
abbrev qC (c : Fin 2) : PosShare TreeShare := Transfers.shareTok fullShare 2 c
abbrev qT (c : Fin 2) (i : Fin 16) : PosShare TreeShare := Transfers.shareTok (qC c) 16 i

/-- What the task on SparseCore c, subcore i holds: a read share of each of the three arrays, and its row of
    each result array at some contents. -/
def tileRes (d : Dev nD) (c : Fin 2) (i : Fin 16) : sProp 𝕄 :=
  iprop((v2Loc d ↦{qT c i} c2 d) ∗ (v3Loc d ↦{qT c i} c3 d) ∗ (v5Loc d ↦{qT c i} c5 d)
    ∗ (∃ f, o5Loc d ↦[outSet5 (coordsV c i)]{fullShare} f) ∗ (∃ f, o6Loc d ↦[outSet6 (coordsV c i)]{fullShare} f))

/-- What SparseCore c holds for its sixteen tasks. -/
def coreRes (d : Dev nD) (c : Fin 2) : sProp 𝕄 :=
  iprop((v2Loc d ↦{qC c} c2 d) ∗ (v3Loc d ↦{qC c} c3 d) ∗ (v5Loc d ↦{qC c} c5 d)
    ∗ bigSep Finset.univ fun i : Fin 16 =>
        iprop((∃ f, o5Loc d ↦[outSet5 (coordsV c i)]{fullShare} f) ∗ (∃ f, o6Loc d ↦[outSet6 (coordsV c i)]{fullShare} f)))

/-- The read shares SparseCore c keeps while its tasks run. -/
def coreRem (d : Dev nD) (c : Fin 2) : sProp 𝕄 :=
  iprop((v2Loc d ↦{Transfers.shareDrop (qC c) 16} c2 d) ∗ (v3Loc d ↦{Transfers.shareDrop (qC c) 16} c3 d)
    ∗ (v5Loc d ↦{Transfers.shareDrop (qC c) 16} c5 d))

/-- The read shares the caller keeps while the call runs. -/
def callRem (d : Dev nD) : sProp 𝕄 :=
  iprop((v2Loc d ↦{Transfers.shareDrop fullShare 2} c2 d) ∗ (v3Loc d ↦{Transfers.shareDrop fullShare 2} c3 d)
    ∗ (v5Loc d ↦{Transfers.shareDrop fullShare 2} c5 d))

/-- What the handshakes carry: the call hands each SparseCore its resources and gets them back; a SparseCore
    hands each task its resources and gets them back. -/
def P : (K (F := F)).Pay (nD := nD) (Val := Elt F) (Name := ℕ) (U := UU) where
  st := fun q d c => match q with | 0 => coreRes c2 c3 c5 d (Fin.cast nCore_zero c)
  dn := fun q d c => match q with | 0 => coreRes c2 c3 c5 d (Fin.cast nCore_zero c)
  go := fun q d c i => match q with | 0 => tileRes c2 c3 c5 d (Fin.cast nCore_zero c) (Fin.cast nSub_zero i)
  td := fun q d c i => match q with | 0 => tileRes c2 c3 c5 d (Fin.cast nCore_zero c) (Fin.cast nSub_zero i)
  x := fun _ _ => iprop(emp)

instance tileRes_storable (d : Dev nD) (c : Fin 2) (i : Fin 16) : BI.Storable (upEmb : UEmb _ 𝕄) (tileRes c2 c3 c5 d c i) := by
  unfold tileRes; infer_instance
instance coreRes_storable (d : Dev nD) (c : Fin 2) : BI.Storable (upEmb : UEmb _ 𝕄) (coreRes c2 c3 c5 d c) := by
  unfold coreRes; infer_instance

instance P_storable : (P (F := F) c2 c3 c5).IsStorable where
  st q d c := match q with | 0 => coreRes_storable c2 c3 c5 d (Fin.cast nCore_zero c)
  dn q d c := match q with | 0 => coreRes_storable c2 c3 c5 d (Fin.cast nCore_zero c)
  go q d c i := match q with | 0 => tileRes_storable c2 c3 c5 d (Fin.cast nCore_zero c) (Fin.cast nSub_zero i)
  td q d c i := match q with | 0 => tileRes_storable c2 c3 c5 d (Fin.cast nCore_zero c) (Fin.cast nSub_zero i)

/-! ## Splitting and joining -/

omit [FloatOps F] in
/-- Two assertions that entail each other are equal. -/
theorem eq_of_entails {A B : sProp 𝕄} (h1 : A ⊢ B) (h2 : B ⊢ A) : A = B := BI.equiv_iff.mp ⟨h1, h2⟩

omit [FloatOps F] in
/-- A points-to at a share is the remainder after n read tokens, and the n tokens. -/
theorem toks_eq {ℓ : Loc nD τ sig} (f : Buf (Elt F) ℓ) (q : PosShare TreeShare) (n : ℕ) :
    (ℓ ↦{q} f : sProp 𝕄)
      = iprop((ℓ ↦{Transfers.shareDrop q n} f) ∗ bigSep Finset.univ fun i : Fin n => ℓ ↦{Transfers.shareTok q n i} f) :=
  BI.equiv_iff.mp ⟨(Transfers.pointsTo_toks q n).1, (Transfers.pointsTo_toks q n).2⟩

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's resources are what it keeps and its sixteen tasks' resources. -/
theorem coreRes_eq (d : Dev nD) (c : Fin 2) :
    coreRes c2 c3 c5 d c = iprop(coreRem c2 c3 c5 d c ∗ bigSep Finset.univ fun i : Fin 16 => tileRes c2 c3 c5 d c i) := by
  unfold coreRes coreRem tileRes
  simp only [bigSep_sep']
  rw [toks_eq (c2 d) (qC c) 16, toks_eq (c3 d) (qC c) 16, toks_eq (c5 d) (qC c) 16]
  refine eq_of_entails ?_ ?_
  · iintro ⟨⟨D2, B2⟩, ⟨D3, B3⟩, ⟨D5, B5⟩, R5, R6⟩
    isplitl [D2 D3 D5]
    · isplitl [D2]; · iexact D2
      isplitl [D3]; · iexact D3
      iexact D5
    · isplitl [B2]; · iexact B2
      isplitl [B3]; · iexact B3
      isplitl [B5]; · iexact B5
      isplitl [R5]; · iexact R5
      iexact R6
  · iintro ⟨⟨D2, D3, D5⟩, B2, B3, B5, R5, R6⟩
    isplitl [D2 B2]
    · isplitl [D2]; · iexact D2
      iexact B2
    isplitl [D3 B3]
    · isplitl [D3]; · iexact D3
      iexact B3
    isplitl [D5 B5]
    · isplitl [D5]; · iexact D5
      iexact B5
    isplitl [R5]; · iexact R5
    iexact R6

/-- How a SparseCore's resources split into its tasks' and come back. -/
theorem vecSplit : (K (F := F)).VecSplit' (P c2 c3 c5) 0 := by
  intro d c
  show coreRes c2 c3 c5 d (Fin.cast nCore_zero c) ⊢ |={Set.univ}=> iprop(
      (bigSep Finset.univ fun i : Fin ((K (F := F)).nSub 0) => tileRes c2 c3 c5 d (Fin.cast nCore_zero c) (Fin.cast nSub_zero i))
      ∗ ((bigSep Finset.univ fun i : Fin ((K (F := F)).nSub 0) => tileRes c2 c3 c5 d (Fin.cast nCore_zero c) (Fin.cast nSub_zero i))
          -∗ coreRes c2 c3 c5 d (Fin.cast nCore_zero c)))
  rw [bigSep_tasks (F := F) (fun i => tileRes c2 c3 c5 d (Fin.cast nCore_zero c) i), coreRes_eq]
  iintro ⟨HR, HB⟩; imodintro
  isplitl [HB]; · iexact HB
  iintro HB'
  isplitl [HR]; · iexact HR
  iexact HB'

/-! ## The whole call -/

omit [FloatOps F] in
theorem out5_disjoint : ∀ p ∈ (Finset.univ : Finset (Fin 2 × Fin 16)), ∀ p' ∈ (Finset.univ : Finset (Fin 2 × Fin 16)), p ≠ p' →
    Disjoint (outSet5 (coordsV p.1 p.2)) (outSet5 (coordsV p'.1 p'.2)) := fun p _ p' _ h => by
  rw [outSet5_eq, outSet5_eq, wL_coordsV, wL_coordsV]
  exact rows_disjoint _ (Finset.mem_univ _) _ (Finset.mem_univ _) fun e => h (rowEquiv.injective e)
omit [FloatOps F] in
theorem out6_disjoint : ∀ p ∈ (Finset.univ : Finset (Fin 2 × Fin 16)), ∀ p' ∈ (Finset.univ : Finset (Fin 2 × Fin 16)), p ≠ p' →
    Disjoint (outSet6 (coordsV p.1 p.2)) (outSet6 (coordsV p'.1 p'.2)) := fun p _ p' _ h => by
  rw [outSet6_eq, outSet6_eq, wL_coordsV, wL_coordsV]
  exact rows_disjoint _ (Finset.mem_univ _) _ (Finset.mem_univ _) fun e => h (rowEquiv.injective e)

omit [FloatOps F] in
theorem rowsP_cover : (Finset.univ : Finset (Fin 2 × Fin 16)).biUnion (fun p => rowSet (rowEquiv p)) = Finset.univ := by
  ext x
  simp only [Finset.mem_biUnion, Finset.mem_univ, true_and, iff_true]
  have hx : x ∈ (Finset.univ : Finset (Fin 32)).biUnion rowSet := by rw [rows_cover]; exact Finset.mem_univ _
  obtain ⟨w, -, hw⟩ := Finset.mem_biUnion.mp hx
  exact ⟨rowEquiv.symm w, by rw [Equiv.apply_symm_apply]; exact hw⟩
omit [FloatOps F] in
theorem out5_cover : (Finset.univ : Finset (Fin 2 × Fin 16)).biUnion (fun p => outSet5 (coordsV p.1 p.2)) = Finset.univ :=
  (Finset.biUnion_congr rfl fun p _ => (outSet5_eq _).trans (congrArg rowSet (wL_coordsV p.1 p.2))).trans rowsP_cover
omit [FloatOps F] in
theorem out6_cover : (Finset.univ : Finset (Fin 2 × Fin 16)).biUnion (fun p => outSet6 (coordsV p.1 p.2)) = Finset.univ :=
  (Finset.biUnion_congr rfl fun p _ => (outSet6_eq _).trans (congrArg rowSet (wL_coordsV p.1 p.2))).trans rowsP_cover

omit [FloatOps F] in
/-- Held at given contents is held at some contents. -/
theorem pts_ex {ℓ : Loc nD τ sig} (S : Finset (Idx ℓ)) (f : Buf (Elt F) ℓ) :
    (ℓ ↦[S]{fullShare} f : sProp 𝕄) ⊢ iprop(∃ g, ℓ ↦[S]{fullShare} g) := by
  iintro H; iexists f; iexact H

/-- Some contents of a whole result array is some contents of each of its 32 rows. -/
theorem o5_rows_ex (d : Dev nD) :
    (iprop(∃ f, o5Loc d ↦{fullShare} f) : sProp 𝕄)
      = bigSep Finset.univ fun c : Fin 2 => bigSep Finset.univ fun i : Fin 16 =>
          iprop(∃ f, o5Loc d ↦[outSet5 (coordsV c i)]{fullShare} f) := by
  refine eq_of_entails ?_ ?_
  · iintro ⟨%f, H⟩
    iapply (show (o5Loc d ↦{fullShare} f : sProp 𝕄) ⊢ _ from by
      rw [o5_rows d f]
      exact bigSep_mono fun c _ => bigSep_mono fun i _ => pts_ex _ f)
    iexact H
  · rw [← bigSep_univ_prod (fun p : Fin 2 × Fin 16 =>
      (iprop(∃ f, o5Loc d ↦[outSet5 (coordsV p.1 p.2)]{fullShare} f) : sProp 𝕄))]
    refine (bigSep_exists_pi Finset.univ (fun (p : Fin 2 × Fin 16) (f : Buf (Elt F) (o5Loc d)) =>
      (o5Loc d ↦[outSet5 (coordsV p.1 p.2)]{fullShare} f : sProp 𝕄))).trans ?_
    iintro ⟨%fs, H⟩
    ihave H' := (pointsTo_biUnion_join Finset.univ (fun p : Fin 2 × Fin 16 => outSet5 (coordsV p.1 p.2)) fs (fs (0, 0)) out5_disjoint) $$ H
    icases H' with ⟨%g, -, Hg⟩
    rw [out5_cover]
    iexists g; iexact Hg

theorem o6_rows_ex (d : Dev nD) :
    (iprop(∃ f, o6Loc d ↦{fullShare} f) : sProp 𝕄)
      = bigSep Finset.univ fun c : Fin 2 => bigSep Finset.univ fun i : Fin 16 =>
          iprop(∃ f, o6Loc d ↦[outSet6 (coordsV c i)]{fullShare} f) := by
  refine eq_of_entails ?_ ?_
  · iintro ⟨%f, H⟩
    iapply (show (o6Loc d ↦{fullShare} f : sProp 𝕄) ⊢ _ from by
      rw [o6_rows d f]
      exact bigSep_mono fun c _ => bigSep_mono fun i _ => pts_ex _ f)
    iexact H
  · rw [← bigSep_univ_prod (fun p : Fin 2 × Fin 16 =>
      (iprop(∃ f, o6Loc d ↦[outSet6 (coordsV p.1 p.2)]{fullShare} f) : sProp 𝕄))]
    refine (bigSep_exists_pi Finset.univ (fun (p : Fin 2 × Fin 16) (f : Buf (Elt F) (o6Loc d)) =>
      (o6Loc d ↦[outSet6 (coordsV p.1 p.2)]{fullShare} f : sProp 𝕄))).trans ?_
    iintro ⟨%fs, H⟩
    ihave H' := (pointsTo_biUnion_join Finset.univ (fun p : Fin 2 × Fin 16 => outSet6 (coordsV p.1 p.2)) fs (fs (0, 0)) out6_disjoint) $$ H
    icases H' with ⟨%g, -, Hg⟩
    rw [out6_cover]
    iexists g; iexact Hg

/-- The five arrays held whole are the two SparseCores' resources and what the caller keeps. -/
theorem fullRes_eq (d : Dev nD) :
    (iprop((v2Loc d ↦{fullShare} c2 d) ∗ (v3Loc d ↦{fullShare} c3 d) ∗ (v5Loc d ↦{fullShare} c5 d)
        ∗ (∃ f, o5Loc d ↦{fullShare} f) ∗ (∃ f, o6Loc d ↦{fullShare} f)) : sProp 𝕄)
      = iprop((bigSep Finset.univ fun c : Fin 2 => coreRes c2 c3 c5 d c) ∗ callRem c2 c3 c5 d) := by
  unfold coreRes callRem
  simp only [bigSep_sep']
  rw [o5_rows_ex, o6_rows_ex, toks_eq (c2 d) fullShare 2, toks_eq (c3 d) fullShare 2, toks_eq (c5 d) fullShare 2]
  refine eq_of_entails ?_ ?_
  · iintro ⟨⟨D2, B2⟩, ⟨D3, B3⟩, ⟨D5, B5⟩, R5, R6⟩
    isplitr [D2 D3 D5]
    · isplitl [B2]; · iexact B2
      isplitl [B3]; · iexact B3
      isplitl [B5]; · iexact B5
      isplitl [R5]; · iexact R5
      iexact R6
    · isplitl [D2]; · iexact D2
      isplitl [D3]; · iexact D3
      iexact D5
  · iintro ⟨⟨B2, B3, B5, R5, R6⟩, D2, D3, D5⟩
    isplitl [D2 B2]
    · isplitl [D2]; · iexact D2
      iexact B2
    isplitl [D3 B3]
    · isplitl [D3]; · iexact D3
      iexact B3
    isplitl [D5 B5]
    · isplitl [D5]; · iexact D5
      iexact B5
    isplitl [R5]; · iexact R5
    iexact R6

/-- From the five arrays held whole to what the call hands the SparseCores, and what the caller keeps. -/
theorem st_of_full (d : Dev nD) :
    (iprop((v2Loc d ↦{fullShare} c2 d) ∗ (v3Loc d ↦{fullShare} c3 d) ∗ (v5Loc d ↦{fullShare} c5 d)
        ∗ (∃ f, o5Loc d ↦{fullShare} f) ∗ (∃ f, o6Loc d ↦{fullShare} f)) : sProp 𝕄)
      ⊢ iprop((bigSep Finset.univ fun c : Fin ((K (F := F)).nCore 0) => (P c2 c3 c5).st 0 d c) ∗ callRem c2 c3 c5 d) := by
  show _ ⊢ iprop((bigSep Finset.univ fun c : Fin ((K (F := F)).nCore 0) => coreRes c2 c3 c5 d (Fin.cast nCore_zero c)) ∗ callRem c2 c3 c5 d)
  rw [bigSep_cores (F := F) (fun c => coreRes c2 c3 c5 d c), ← fullRes_eq]

/-- … and back, from what the SparseCores hand back and what the caller kept. -/
theorem full_of_dn (d : Dev nD) :
    (iprop((bigSep Finset.univ fun c : Fin ((K (F := F)).nCore 0) => (P c2 c3 c5).dn 0 d c) ∗ callRem c2 c3 c5 d) : sProp 𝕄)
      ⊢ iprop((v2Loc d ↦{fullShare} c2 d) ∗ (v3Loc d ↦{fullShare} c3 d) ∗ (v5Loc d ↦{fullShare} c5 d)
        ∗ (∃ f, o5Loc d ↦{fullShare} f) ∗ (∃ f, o6Loc d ↦{fullShare} f)) := by
  show iprop((bigSep Finset.univ fun c : Fin ((K (F := F)).nCore 0) => coreRes c2 c3 c5 d (Fin.cast nCore_zero c)) ∗ callRem c2 c3 c5 d) ⊢ _
  rw [bigSep_cores (F := F) (fun c => coreRes c2 c3 c5 d c), ← fullRes_eq]

end Cert.Kernel.Launch

end
-- ==== Proof.TcRegionK.lean ====
/-
  The TensorCore pipeline call of @main (custom call 1): seven whole-array windows on a grid of one point — six operands
  fetched into staging buffers, one result written back. Its value as a pure function of the six operand arrays
  (`tcOut`: the body's one store's payload over what its loads read), the body's triple on whole staging buffers, the
  pipeline's proof data (every operand's staging buffer holds the array, the result's holds `tcOut`; nothing owed, no
  semaphore of the kernel's own), and the call's run inside @main on a TensorCore that has finished its SparseCore call:
  the operand arrays unchanged, the result array at `tcOut` of them, the region boundary and the core's debt handed back.
-/
import proofs.«209090_g87076166960129_cont_sun_c4_39_31_alg».proof.Proof.Gen.Kernel.Launch
import proofs.«209090_g87076166960129_cont_sun_c4_39_31_alg».proof.Proof.Gen.Kernel.Skeleton
import proofs.«209090_g87076166960129_cont_sun_c4_39_31_alg».proof.Proof.Gen.Kernel.Points
import Idealize.ShloMosaic.Lib.Pipeline.Regions
import Idealize.ShloMosaic.Lib.Pipeline.FrameBody
import Idealize.ShloMosaic.Lib.Pipeline.Value
import Idealize.ShloMosaic.Lib.SparseCore.Launch
import Idealize.ShloMosaic.Lib.Tactic

noncomputable section

namespace Cert.Kernel.TcRegion

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig (HIx 1) (Elt F) ℕ U ℕ

/-! ## The zero offsets, spelt as the printed accesses spell them -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The value of the call -/

/-- The two rows of the coordinate arrays and of the current point's, and the two parameter words, as the body's loads
    read them. -/
abbrev rowA0 : Rect S2x8x2048 := Rect.unit (s := S2x8x2048) ![0, 0, 0] S1x8x2048.size inb_S2x8x2048_S1x8x2048_0_0_0
abbrev rowA1 : Rect S2x8x2048 := Rect.unit (s := S2x8x2048) ![1, 0, 0] S1x8x2048.size inb_S2x8x2048_S1x8x2048_1_0_0
abbrev rowC0 : Rect S2x8x1 := Rect.unit (s := S2x8x1) ![0, 0, 0] S1x8x1.size inb_S2x8x1_S1x8x1_0_0_0
abbrev rowC1 : Rect S2x8x1 := Rect.unit (s := S2x8x1) ![1, 0, 0] S1x8x1.size inb_S2x8x1_S1x8x1_1_0_0
abbrev word0 : Rect S2 := Rect.unit (s := S2) ![0] S1.size inb_S2_S1_0
abbrev word1 : Rect S2 := Rect.unit (s := S2) ![1] S1.size inb_S2_S1_1

theorem word0_pos : 0 < word0.shape.numel := by decide
theorem word1_pos : 0 < word1.shape.numel := by decide

/-- What the call leaves in its result, from its six operands: the body's one store's payload over what its loads read —
    the two clipped parameters, the two partial-sum arrays whole, row 0 and row 1 of the coordinates and of the current
    point, and the mask whole. -/
def tcOut (a7 a8 : Vec F S8x4x2048 .f32) (a9 : Vec F S2x8x2048 .f32) (a11 : Vec F S2x8x1 .f32) (a12 : Vec F S8x2048 .f32)
    (a15 : Vec F S2 .f32) : FVec F S8x2048 .f32 :=
  k1_pay1 (k1_pay2 (View.ld a15 word0 (Shape.Idx.first word0_pos)) (View.ld a15 word1 (Shape.Idx.first word1_pos)) a7 a8
    (View.ld a9 rowA0) (View.ld a11 rowC0) (View.ld a9 rowA1) (View.ld a11 rowC1)) a12

abbrev outRect : Rect S8x2048 := Rect.unit (s := S8x2048) ![0, 0] S8x2048.size inb_S8x2048_S8x2048_0_0

/-- The body's one store covers the result's staging buffer. -/
theorem cover6 (p0 : Vec F S8x2048 .f32) (y : S8x2048.Idx) :
    ∃ pc ∈ ([⟨outRect, p0⟩] : List (View.Piece (Elt F) S8x2048 .f32)), y ∈ pc.1.set :=
  ⟨⟨outRect, p0⟩, List.mem_singleton_self _, View.mem_set_unit_zero (S := S8x2048) hz2 inb_S8x2048_S8x2048_0_0 y⟩

/-- The body's one store, read back: its payload over the loads' readings, each whole-buffer load reading the
    buffer's contents. Stated over any two payload functions. -/
theorem out_eq
    (g1 : FVec F S8x2048 .f32 → Vec F S8x2048 .f32 → FVec F S8x2048 .f32)
    (g2 : Elt F .f32 → Elt F .f32 → Vec F S8x4x2048 .f32 → Vec F S8x4x2048 .f32 → Vec F S1x8x2048 .f32 → Vec F S1x8x1 .f32
      → Vec F S1x8x2048 .f32 → Vec F S1x8x1 .f32 → FVec F S8x2048 .f32)
    (arg0 arg1 : Memref sig .tc .vmem S8x4x2048 .f32) (arg2 : Memref sig .tc .vmem S2x8x2048 .f32) (arg3 : Memref sig .tc .vmem S2x8x1 .f32)
    (arg4 : Memref sig .tc .vmem S8x2048 .f32) (arg5 : Memref sig .tc .smem S2 .f32) (arg6 : Memref sig .tc .vmem S8x2048 .f32)
    (f0 : arg0.view.ty.Contents (Elt F)) (f1 : arg1.view.ty.Contents (Elt F)) (f2 : arg2.view.ty.Contents (Elt F))
    (f3 : arg3.view.ty.Contents (Elt F)) (f4 : arg4.view.ty.Contents (Elt F)) (f5 : arg5.view.ty.Contents (Elt F))
    (f6 : arg6.view.ty.Contents (Elt F)) (h0 : 0 < word0.shape.numel) (h1 : 0 < word1.shape.numel) :
    View.read (Elt F) arg6.view (arg6.view.writes (Elt F) f6
      [⟨Rect.unit (s := S8x2048) ![0, 0] S8x2048.size inb_S8x2048_S8x2048_0_0,
        g1 (g2 (View.readAt (Elt F) arg5.view word0.toLoadRect f5 (Shape.Idx.first h0))
              (View.readAt (Elt F) arg5.view word1.toLoadRect f5 (Shape.Idx.first h1))
              (View.readAt (Elt F) arg0.view (Rect.unit (s := S8x4x2048) ![0, 0, 0] S8x4x2048.size inb_S8x4x2048_S8x4x2048_0_0_0).toLoadRect f0)
              (View.readAt (Elt F) arg1.view (Rect.unit (s := S8x4x2048) ![0, 0, 0] S8x4x2048.size inb_S8x4x2048_S8x4x2048_0_0_0).toLoadRect f1)
              (View.readAt (Elt F) arg2.view rowA0.toLoadRect f2) (View.readAt (Elt F) arg3.view rowC0.toLoadRect f3)
              (View.readAt (Elt F) arg2.view rowA1.toLoadRect f2) (View.readAt (Elt F) arg3.view rowC1.toLoadRect f3))
          (View.readAt (Elt F) arg4.view (Rect.unit (s := S8x2048) ![0, 0] S8x2048.size inb_S8x2048_S8x2048_0_0).toLoadRect f4)⟩])
    = g1 (g2 (View.ld (View.read (Elt F) arg5.view f5) word0 (Shape.Idx.first word0_pos))
              (View.ld (View.read (Elt F) arg5.view f5) word1 (Shape.Idx.first word1_pos))
              (View.read (Elt F) arg0.view f0) (View.read (Elt F) arg1.view f1)
              (View.ld (View.read (Elt F) arg2.view f2) rowA0) (View.ld (View.read (Elt F) arg3.view f3) rowC0)
              (View.ld (View.read (Elt F) arg2.view f2) rowA1) (View.ld (View.read (Elt F) arg3.view f3) rowC1))
          (View.read (Elt F) arg4.view f4) := by
  rw [View.read_writes_eq_canon _ _ _ (cover6 _), View.canon_unit_zero (S := S8x2048) hz2]
  simp only [View.readAt_eq_ld, View.ld_unit_zero (S := S8x4x2048) hz3, View.ld_unit_zero (S := S8x2048) hz2]
/-! ## The body on whole staging buffers -/

set_option maxHeartbeats 1000000 in
/-- The kernel body on whole staging memrefs, the six operands' at read contents and the result's at anything, runs to
    the continuation holding the operands' as they were and the result's at `tcOut` of them. -/
theorem sound_kernel (c : Dev nD) (E : Set ℕ)
    (arg0 : Memref sig .tc .vmem S8x4x2048 .f32) (harg0 : arg0.IsWhole) (arg1 : Memref sig .tc .vmem S8x4x2048 .f32) (harg1 : arg1.IsWhole)
    (arg2 : Memref sig .tc .vmem S2x8x2048 .f32) (harg2 : arg2.IsWhole) (arg3 : Memref sig .tc .vmem S2x8x1 .f32) (harg3 : arg3.IsWhole)
    (arg4 : Memref sig .tc .vmem S8x2048 .f32) (harg4 : arg4.IsWhole) (arg5 : Memref sig .tc .smem S2 .f32) (harg5 : arg5.IsWhole)
    (arg6 : Memref sig .tc .vmem S8x2048 .f32) (harg6 : arg6.IsWhole)
    (x0 x1 : Vec F S8x4x2048 .f32) (x2 : Vec F S2x8x2048 .f32) (x3 : Vec F S2x8x1 .f32) (x4 : Vec F S8x2048 .f32) (x5 : Vec F S2 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (tcOut x0 x1 x2 x3 x4 x5)) -∗ K ⟨⟩))
      ⊢ wp frame (wpE (defs₀ (F := F)) Variants.none c none) E (cc1__tc_body arg0 harg0 arg1 harg1 arg2 harg2 arg3 harg3 arg4 harg4 arg5 harg5 arg6 harg6) K := by
  sl_unfold [cc1__tc_body]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  unfold tcOut
  exact out_eq k1_pay1 k1_pay2 arg0 arg1 arg2 arg3 arg4 arg5 arg6 f0 f1 f2 f3 f4 f5 f6 _ _

/-! ## The region's proof data -/

section Region

variable (a7 a8 : Vec F S8x4x2048 .f32) (a9 : Vec F S2x8x2048 .f32) (a11 : Vec F S2x8x1 .f32) (a12 : Vec F S8x2048 .f32)
  (a15 : Vec F S2 .f32) (f16 : Vec F S8x2048 .f32)

/-- The prefetched tables' admissible contents: no table. -/
abbrev adm : (p : Fin 1) → (pcfgs (F := F) p).Adm := fun p => (cfgs p).toPCfg_adm

/-- The (own cell, index) pairs the TensorCore's waits may have recorded when the region is entered: those at levels the
    first SparseCore call's handshakes use. -/
def below (d : Dev nD) : Set (SemLoc sig × HIx 1) := {p | (sc (F := F)).lev (SparseCore.T d, p.1) p.2 ≤ 8 * 1}

/-- The proof data on device `d`: the six operand arrays at their contents and the result's at `f16`; after the body
    each operand's staging buffer as fetched and the result's at `tcOut`; the invariant the scoped rest; nothing owed. -/
def dats (_ : Fin 1) (d : Dev nD) : Dat τ (Elt F) (HIx 1) ℕ U ℕ cfg1 d where
  A w := match w with
    | ⟨0, _⟩ => a7
    | ⟨1, _⟩ => a8
    | ⟨2, _⟩ => a9
    | ⟨3, _⟩ => a11
    | ⟨4, _⟩ => a12
    | ⟨5, _⟩ => a15
    | ⟨6, _⟩ => f16
  after w _ := match w with
    | ⟨0, _⟩ => a7
    | ⟨1, _⟩ => a8
    | ⟨2, _⟩ => a9
    | ⟨3, _⟩ => a11
    | ⟨4, _⟩ => a12
    | ⟨5, _⟩ => a15
    | ⟨6, _⟩ => tcOut a7 a8 a9 a11 a12 a15
  Φ _ := Pipeline.scopedRest (Ix := HIx 1) (Name := ℕ) (U := U) (Lvl := ℕ) (Val := Elt F) spec1 d
  q _ := fullShare
  owed _ := 0
  recorded _ := below (F := F) d

local notation "𝔇" => dats (U := U) a7 a8 a9 a11 a12 a15 f16 0

theorem A_0 (d : Dev nD) : (𝔇 d).A 0 = a7 := by dsimp only [dats]
theorem A_1 (d : Dev nD) : (𝔇 d).A 1 = a8 := by dsimp only [dats]
theorem A_2 (d : Dev nD) : (𝔇 d).A 2 = a9 := by dsimp only [dats]
theorem A_3 (d : Dev nD) : (𝔇 d).A 3 = a11 := by dsimp only [dats]
theorem A_4 (d : Dev nD) : (𝔇 d).A 4 = a12 := by dsimp only [dats]
theorem A_5 (d : Dev nD) : (𝔇 d).A 5 = a15 := by dsimp only [dats]
theorem A_6 (d : Dev nD) : (𝔇 d).A 6 = f16 := by dsimp only [dats]

theorem after_0 (d : Dev nD) (t : Fin cfg1.N) : (𝔇 d).after 0 t = a7 := by dsimp only [dats]
theorem after_1 (d : Dev nD) (t : Fin cfg1.N) : (𝔇 d).after 1 t = a8 := by dsimp only [dats]
theorem after_2 (d : Dev nD) (t : Fin cfg1.N) : (𝔇 d).after 2 t = a9 := by dsimp only [dats]
theorem after_3 (d : Dev nD) (t : Fin cfg1.N) : (𝔇 d).after 3 t = a11 := by dsimp only [dats]
theorem after_4 (d : Dev nD) (t : Fin cfg1.N) : (𝔇 d).after 4 t = a12 := by dsimp only [dats]
theorem after_5 (d : Dev nD) (t : Fin cfg1.N) : (𝔇 d).after 5 t = a15 := by dsimp only [dats]
theorem after_6 (d : Dev nD) (t : Fin cfg1.N) : (𝔇 d).after 6 t = tcOut a7 a8 a9 a11 a12 a15 := by dsimp only [dats]

/-- A whole-array window's block, read off the array, is the array's contents. -/
theorem before_0 (d : Dev nD) (t : Fin cfg1.N) (x) : (𝔇 d).before 0 t x = a7 := by
  unfold Dat.before; rw [if_pos (fetch1_0 t)]
  show (𝔇 d).blockOf 0 t = a7
  unfold Dat.blockOf; rw [A_0]
  exact Memref.read_access_unit_zero (Elt F) main_v7 (funext fun a => Nat.zero_mul _) _ a7
theorem before_1 (d : Dev nD) (t : Fin cfg1.N) (x) : (𝔇 d).before 1 t x = a8 := by
  unfold Dat.before; rw [if_pos (fetch1_1 t)]
  show (𝔇 d).blockOf 1 t = a8
  unfold Dat.blockOf; rw [A_1]
  exact Memref.read_access_unit_zero (Elt F) main_v8 (funext fun a => Nat.zero_mul _) _ a8
theorem before_2 (d : Dev nD) (t : Fin cfg1.N) (x) : (𝔇 d).before 2 t x = a9 := by
  unfold Dat.before; rw [if_pos (fetch1_2 t)]
  show (𝔇 d).blockOf 2 t = a9
  unfold Dat.blockOf; rw [A_2]
  exact Memref.read_access_unit_zero (Elt F) main_v9 (funext fun a => Nat.zero_mul _) _ a9
theorem before_3 (d : Dev nD) (t : Fin cfg1.N) (x) : (𝔇 d).before 3 t x = a11 := by
  unfold Dat.before; rw [if_pos (fetch1_3 t)]
  show (𝔇 d).blockOf 3 t = a11
  unfold Dat.blockOf; rw [A_3]
  exact Memref.read_access_unit_zero (Elt F) main_v11 (funext fun a => Nat.zero_mul _) _ a11
theorem before_4 (d : Dev nD) (t : Fin cfg1.N) (x) : (𝔇 d).before 4 t x = a12 := by
  unfold Dat.before; rw [if_pos (fetch1_4 t)]
  show (𝔇 d).blockOf 4 t = a12
  unfold Dat.blockOf; rw [A_4]
  exact Memref.read_access_unit_zero (Elt F) main_v12 (funext fun a => Nat.zero_mul _) _ a12
theorem before_5 (d : Dev nD) (t : Fin cfg1.N) (x) : (𝔇 d).before 5 t x = a15 := by
  unfold Dat.before; rw [if_pos (fetch1_5 t)]
  show (𝔇 d).blockOf 5 t = a15
  unfold Dat.blockOf; rw [A_5]
  exact Memref.read_access_unit_zero (Elt F) main_v15 (funext fun a => Nat.zero_mul _) _ a15

/-! ## The body obligation -/

/-- What the body is called with at point `t`, the windows one by one, -/
def bodyPre (d : Dev nD) (t : Fin cfg1.N) : sProp 𝕄 :=
  iprop((𝔇 d).Φ t.castSucc ∗ (𝔇 d).owesAt none t.castSucc
    ∗ (∃ x, owns (d : Thread nD τ) (st1_0 t) fullShare ((𝔇 d).before 0 t x))
    ∗ (∃ x, owns (d : Thread nD τ) (st1_1 t) fullShare ((𝔇 d).before 1 t x))
    ∗ (∃ x, owns (d : Thread nD τ) (st1_2 t) fullShare ((𝔇 d).before 2 t x))
    ∗ (∃ x, owns (d : Thread nD τ) (st1_3 t) fullShare ((𝔇 d).before 3 t x))
    ∗ (∃ x, owns (d : Thread nD τ) (st1_4 t) fullShare ((𝔇 d).before 4 t x))
    ∗ (∃ x, owns (d : Thread nD τ) (st1_5 t) fullShare ((𝔇 d).before 5 t x))
    ∗ (∃ x, owns (d : Thread nD τ) (st1_6 t) fullShare ((𝔇 d).before 6 t x)))

/-- and what it returns. -/
def bodyPost (d : Dev nD) (t : Fin cfg1.N) : sProp 𝕄 :=
  iprop((𝔇 d).Φ t.succ ∗ (𝔇 d).owesAt none t.succ
    ∗ owns (d : Thread nD τ) (st1_0 t) fullShare ((𝔇 d).after 0 t)
    ∗ owns (d : Thread nD τ) (st1_1 t) fullShare ((𝔇 d).after 1 t)
    ∗ owns (d : Thread nD τ) (st1_2 t) fullShare ((𝔇 d).after 2 t)
    ∗ owns (d : Thread nD τ) (st1_3 t) fullShare ((𝔇 d).after 3 t)
    ∗ owns (d : Thread nD τ) (st1_4 t) fullShare ((𝔇 d).after 4 t)
    ∗ owns (d : Thread nD τ) (st1_5 t) fullShare ((𝔇 d).after 5 t)
    ∗ owns (d : Thread nD τ) (st1_6 t) fullShare ((𝔇 d).after 6 t))

/-- The body at the one point: the operands' staging buffers hold the arrays, so `sound_kernel` applies; the invariant
    and what the core owes pass through unread. -/
theorem sound_body (d : Dev nD) (t : Fin cfg1.N) :
    bodyPre a7 a8 a9 a11 a12 a15 f16 d t
      ⊢ wp frame (wpE (defs₀ (F := F)) Variants.none d none) Set.univ (bodyAt1 t) (fun _ => bodyPost (U := U) a7 a8 a9 a11 a12 a15 f16 d t) := by
  unfold bodyPre bodyPost bodyAt1
  simp only [before_0, before_1, before_2, before_3, before_4, before_5]
  rw [show (𝔇 d).Φ t.succ = (𝔇 d).Φ t.castSucc from rfl,
    show (𝔇 d).owesAt none t.succ = (𝔇 d).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel d Set.univ _ _ _ _ _ _ _ _ _ _ _ _ _ _ a7 a8 a9 a11 a12 a15 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation. -/
theorem body_obligation (d : Dev nD) : BodyObligation (𝔇 d) (defs₀ (F := F)) Variants.none none Set.univ := fun t => by
  rw [bigSep_W1, bigSep_W1]
  exact sound_body a7 a8 a9 a11 a12 a15 f16 d t

end Region

/-! ## The result array after the write-back -/

section Final

variable (a7 a8 : Vec F S8x4x2048 .f32) (a9 : Vec F S2x8x2048 .f32) (a11 : Vec F S2x8x1 .f32) (a12 : Vec F S8x2048 .f32)
  (a15 : Vec F S2 .f32) (f16 : Vec F S8x2048 .f32)

local notation "𝔇" => dats (U := U) a7 a8 a9 a11 a12 a15 f16 0

/-- An access to a whole buffer through the unit rectangle of its own sizes at zero offsets goes through all its elements. -/
theorem set_access_unit_zero {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

/-- The result window's one block is the whole array. -/
theorem blk6_set (t : Fin cfg1.N) : ((cfg1.win 6).blk t).view.set = Finset.univ :=
  set_access_unit_zero main_v16 (funext fun a => Nat.zero_mul _) _

/-- The result array after the one write-back holds the body's payload. -/
theorem arrAt_6 (d : Dev nD) : (𝔇 d).arrAt 6 cfg1.N = tcOut a7 a8 a9 a11 a12 a15 := by
  refine (𝔇 d).arrAt_eq_of_cover 6 (tcOut a7 a8 a9 a11 a12 a15) (fun t _ => ?_) (fun i => ⟨t1_0, flush1_6 _, ?_⟩)
  · show (cfg1.win 6).cut _ ((𝔇 d).after 6 t) = _
    rw [after_6]
    exact (Memref.read_access_unit_zero (Elt F) main_v16 (funext fun a => Nat.zero_mul _) _ _).symm
  · rw [blk6_set]; exact Finset.mem_univ _

end Final

/-! ## The region -/

section Seg

variable (ER : Emb (URounds (GSem nD τ sig) Unit) (MT nD τ sig (HIx 1) (Elt F) ℕ U ℕ))
variable (a7 a8 : Vec F S8x4x2048 .f32) (a9 : Vec F S2x8x2048 .f32) (a11 : Vec F S2x8x1 .f32) (a12 : Vec F S8x2048 .f32)
  (a15 : Vec F S2 .f32) (f16 : Vec F S8x2048 .f32)

local notation "𝔇" => dats (U := U) a7 a8 a9 a11 a12 a15 f16 0

/-- What the TensorCore owes when the region is entered, as its state after the SparseCore call holds it. -/
abbrev owesB (d : Dev nD) : sProp 𝕄 :=
  iprop(∃ W, ⌜(sc (F := F)).WBelow (SparseCore.T d) W (8 * 1)⌝ ∗ owes (SparseCore.T d) ((sc (F := F)).Otc d 1) W)

/-- The call's seven arrays on device `d`: the operands at their contents, the result at `r`. -/
abbrev arrs (d : Dev nD) (r : Vec F S8x2048 .f32) : sProp 𝕄 :=
  iprop((((SparseCore.T d).loc main_v7 ↦{fullShare} (a7 : Buf (Elt F) ((SparseCore.T d).loc main_v7))) : sProp 𝕄)
    ∗ (((SparseCore.T d).loc main_v8 ↦{fullShare} (a8 : Buf (Elt F) ((SparseCore.T d).loc main_v8))) : sProp 𝕄)
    ∗ (((SparseCore.T d).loc main_v9 ↦{fullShare} (a9 : Buf (Elt F) ((SparseCore.T d).loc main_v9))) : sProp 𝕄)
    ∗ (((SparseCore.T d).loc main_v11 ↦{fullShare} (a11 : Buf (Elt F) ((SparseCore.T d).loc main_v11))) : sProp 𝕄)
    ∗ (((SparseCore.T d).loc main_v12 ↦{fullShare} (a12 : Buf (Elt F) ((SparseCore.T d).loc main_v12))) : sProp 𝕄)
    ∗ (((SparseCore.T d).loc main_v15 ↦{fullShare} (a15 : Buf (Elt F) ((SparseCore.T d).loc main_v15))) : sProp 𝕄)
    ∗ (((SparseCore.T d).loc main_v16 ↦{fullShare} (r : Buf (Elt F) ((SparseCore.T d).loc main_v16))) : sProp 𝕄))

/-- The staging cells' ghost state and duty tokens on device `d`: what the launch hands the TensorCore for the region. -/
abbrev ghost (d : Dev nD) : sProp 𝕄 := iprop(Pipeline.cellsGhost cfgs ER 0 d ∗ Pipeline.toksInit cfgs ER 0 d)

theorem Otc_one (d : Dev nD) : (sc (F := F)).Otc d 1 = 0 := (sc (F := F)).Otc_end d (le_refl 1)

/-- After the one SparseCore call the TensorCore owes nothing. -/
theorem owesB_eq (d : Dev nD) :
    (owesB d : sProp 𝕄) = iprop(∃ W, ⌜(sc (F := F)).WBelow (SparseCore.T d) W (8 * 1)⌝ ∗ owes (SparseCore.T d) (0 : CellTallies nD τ sig (HIx 1)) W) := by
  unfold owesB; rw [Otc_one]

set_option maxHeartbeats 4000000 in
set_option backward.isDefEq.respectTransparency.types false in
/-- The region: the windows' decided layout, no semaphore of the kernel's own, the body obligation; entered from the seven
    arrays and what the core owes, left with the result at `tcOut`. -/
def reg : Pipeline.RegionSeg (pcfgs (F := F)) adm (dats (U := U) a7 a8 a9 a11 a12 a15 f16) none defs₀ Variants.none
    (sc (F := F)).L (sc (F := F)).lev 0 where
  win := launch1.win.to₀
  block_pos := launch1.block_pos
  stage_whole := launch1.stage_whole
  K := PEmpty
  osem := fun k => k.elim
  ho := Pipeline.OwnSemFacts.none _
  hbody d := (body_obligation a7 a8 a9 a11 a12 a15 f16 d).loose
  hwaits := Pipeline.hwaits_of_owed_zero _ _ _ _ _ _ 0 fun _ _ => rfl
  pre d := iprop(owesB d ∗ arrs a7 a8 a9 a11 a12 a15 d f16)
  post d := iprop(owesB d ∗ arrs a7 a8 a9 a11 a12 a15 d (tcOut a7 a8 a9 a11 a12 a15))
  X _ := iprop(emp)
  Y _ := iprop(emp)
  Z _ := iprop(emp)
  hentry d := by
    rw [Pipeline.arrays_eq cfgs (dats (U := U) a7 a8 a9 a11 a12 a15 f16) 0 d launch1.arr_whole ((𝔇 d).share_full fun _ => rfl), bigSep_W1,
      owesB_eq]
    iintro ⟨⟨⟨%W, %hW, HO⟩, H7, H8, H9, H11, H12, H15, H16⟩, -, -⟩
    imodintro
    isplitl [H7 H8 H9 H11 H12 H15 H16]
    · isplitl [H7]; · iexact H7
      isplitl [H8]; · iexact H8
      isplitl [H9]; · iexact H9
      isplitl [H11]; · iexact H11
      isplitl [H12]; · iexact H12
      isplitl [H15]; · iexact H15
      iexact H16
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitl [] <;> iempintro
  hin d := by
    rw [show (𝔇 d).Φ 0 = Pipeline.scopedRest spec1 d from rfl]
    iintro ⟨-, -, Hr⟩; iexact Hr
  hout d := by
    rw [show (𝔇 d).Φ (Fin.last cfg1.N) = Pipeline.scopedRest spec1 d from rfl, Pipeline.ownSems0_none]
    iintro Hr
    isplitr; · iempintro
    isplitr; · iempintro
    iexact Hr
  hexit d := by
    rw [Pipeline.arrays_eq cfgs (dats (U := U) a7 a8 a9 a11 a12 a15 f16) 0 d launch1.arr_whole ((𝔇 d).share_full fun _ => rfl), bigSep_W1,
      (𝔇 d).arrAt_in 0 rfl, (𝔇 d).arrAt_in 1 rfl, (𝔇 d).arrAt_in 2 rfl, (𝔇 d).arrAt_in 3 rfl, (𝔇 d).arrAt_in 4 rfl, (𝔇 d).arrAt_in 5 rfl,
      arrAt_6, A_0, A_1, A_2, A_3, A_4, A_5, owesB_eq]
    iintro ⟨⟨H7, H8, H9, H11, H12, H15, H16⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨w, s, rfl⟩
        · exact h
        · exact Nat.zero_le _
      iexact HO
    isplitl [H7]; · iexact H7
    isplitl [H8]; · iexact H8
    isplitl [H9]; · iexact H9
    isplitl [H11]; · iexact H11
    isplitl [H12]; · iexact H12
    isplitl [H15]; · iexact H15
    iexact H16

theorem reg_pre (d : Dev nD) : (reg (U := U) a7 a8 a9 a11 a12 a15 f16).pre d = iprop(owesB d ∗ arrs a7 a8 a9 a11 a12 a15 d f16) := rfl
theorem reg_post (d : Dev nD) :
    (reg (U := U) a7 a8 a9 a11 a12 a15 f16).post d = iprop(owesB d ∗ arrs a7 a8 a9 a11 a12 a15 d (tcOut a7 a8 a9 a11 a12 a15)) := rfl

set_option backward.isDefEq.respectTransparency.types false in
/-- The call in the pipelines' own signature. -/
theorem wp_region₀ [∀ e, Nonempty (Elt F e)] [ER.LandsIn (upEmb : UEmb _ (MT nD τ sig (HIx 1) (Elt F) ℕ U ℕ))] (d : Dev nD)
    (Φ : PUnit → sProp 𝕄) :
    iprop(levAts (sc (F := F)).L (sc (F := F)).lev ∗ boundary (SparseCore.T d) ∗ owesB d ∗ arrs a7 a8 a9 a11 a12 a15 d f16 ∗ ghost ER d
        ∗ (iprop(boundary (SparseCore.T d) ∗ owesB d ∗ arrs a7 a8 a9 a11 a12 a15 d (tcOut a7 a8 a9 a11 a12 a15)) -∗ Φ ⟨⟩))
      ⊢ wp frame (wpE (Pipeline.defs (pcfgs (F := F)) defs₀) (Variants.none).lift (SparseCore.T d) none) Set.univ
          (.op (.customCall (Pipeline.entry (0 : Fin 1)) ()) fun u => .ret u) Φ := by
  iintro ⟨#Hlev, Hb, HO, Harr, ⟨Hcg, Htk⟩, Hk⟩
  iapply (Pipeline.RegionSeg.wp (pcfgs (F := F)) adm (dats (U := U) a7 a8 a9 a11 a12 a15 f16) none cellOf_inj ER defs₀ Variants.none
    (sc (F := F)).L (sc (F := F)).lev (reg a7 a8 a9 a11 a12 a15 f16) d none (fun _ h => nomatch h) (fun u => .ret u) Φ)
  rw [reg_pre, reg_post]
  isplitl [Hk]
  · iintro ⟨Hb, HO, Harr⟩
    rw [wp_ret]; imodintro
    iapply Hk
    isplitl [Hb]; · iexact Hb
    isplitl [HO]; · iexact HO
    iexact Harr
  isplitl [Hb]; · iexact Hb
  isplitl [HO Harr]
  · isplitl [HO]; · iexact HO
    iexact Harr
  isplitr; · iexact Hlev
  isplitl [Hcg]; · iexact Hcg
  iexact Htk

/-- THE CALL, inside @main on the TensorCore of `d`: from the level facts, the region boundary, what the core owes after
    the SparseCore call, the six operand arrays at named contents, the result array at any, and the staging cells' ghost
    state, the pipeline call runs to the continuation holding the boundary, the same debt, the operands unchanged and the
    result at `tcOut` of them. -/
theorem wp_region [∀ e, Nonempty (Elt F e)] [ER.LandsIn (upEmb : UEmb _ (MT nD τ sig (HIx 1) (Elt F) ℕ U ℕ))] (d : Dev nD)
    (Φ : PUnit → sProp 𝕄) :
    iprop(levAts (sc (F := F)).L (sc (F := F)).lev ∗ boundary (SparseCore.T d) ∗ owesB d ∗ arrs a7 a8 a9 a11 a12 a15 d f16 ∗ ghost ER d
        ∗ (iprop(boundary (SparseCore.T d) ∗ owesB d ∗ arrs a7 a8 a9 a11 a12 a15 d (tcOut a7 a8 a9 a11 a12 a15)) -∗ Φ ⟨⟩))
      ⊢ wp frame (wpE ((sc (F := F)).defs (Pipeline.defs pcfgs defs₀)) (Variants.none).lift (SparseCore.T d) none) Set.univ
          (Prog.lift (.customCall (SparseCore.inner (Pipeline.entry 0)) ())) Φ :=
  (wp_region₀ ER a7 a8 a9 a11 a12 a15 f16 d Φ).trans
    ((sc (F := F)).wp_liftProg (Pipeline.defs pcfgs defs₀) (Variants.none).lift (SparseCore.T d) Set.univ none
      (.op (.customCall (Pipeline.entry (0 : Fin 1)) ()) fun u => .ret u) Φ)

/-! ## What the launch funds -/

/-- From the rounds library's launch element at the staging cells and the pipeline's transfers, every device's `ghost`. -/
theorem fund :
    BI.own (ER (initOf (Pipeline.cells cfgs cellOf_inj) (Pipeline.launchToks cfgs cellOf_inj)))
      ⊢ iprop(|==> bigSep Finset.univ fun d : Dev nD => ghost ER d) := by
  refine (Pipeline.fund_ghost cfgs ER cellOf_inj).trans (bupd_mono ?_)
  rw [bigSep_sep']
  refine sep_mono (bigSep_mono fun d _ => ?_) (bigSep_mono fun d _ => ?_)
  · exact Entails.of_eq (bigSep_univ_of_subsingleton (0 : Fin 1))
  · exact Entails.of_eq (bigSep_univ_of_subsingleton (0 : Fin 1))

end Seg

end Cert.Kernel.TcRegion

end
-- ==== Proof.LaunchMainK.lean ====
/-
  @main on a device's TensorCore, for the launch theorem of a program with one SparseCore call: the six layout operations,
  the SparseCore call — its three operands handed over whole at the regrouped arguments, its two results taken back at
  whatever the call left —, the nine operations after it, the pipeline call by its rule, and the eight arguments back at
  their launch contents; and what the final state then says of the memory.
-/
import proofs.«209090_g87076166960129_cont_sun_c4_39_31_alg».proof.Proof.HostOpsK
import proofs.«209090_g87076166960129_cont_sun_c4_39_31_alg».proof.Proof.LaunchPayK
import proofs.«209090_g87076166960129_cont_sun_c4_39_31_alg».proof.Proof.TcRegionK

noncomputable section

namespace Cert.Kernel.Launch

open Cert.Kernel Cert.Kernel.Gen Cert.Kernel.Setup Cert.Kernel.HostOps

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The SparseCore call's operands -/

/-- psi regrouped, the neighbour indices with the node axis last, q repeated along the lanes: what the six layout
    operations leave in the call's three operands, as functions of the launch memory. -/
def c2 (d : Dev nD) : Buf (Elt F) (v2Loc d) := Cert.BridgeK.g2 (m ((SparseCore.T d).loc main_arg1))
def c3 (d : Dev nD) : Buf (Elt F) (v3Loc d) := Cert.BridgeK.g3 (m ((SparseCore.T d).loc main_arg2))
def c5 (d : Dev nD) : Buf (Elt F) (v5Loc d) := Cert.BridgeK.g5 (m ((SparseCore.T d).loc main_arg0))

theorem opsA_c2 (d : Dev nD) : StableHlo.after opsA (V0 m d) v2' = c2 m d := opsA_v2 (V0 m d)
theorem opsA_c3 (d : Dev nD) : StableHlo.after opsA (V0 m d) v3' = c3 m d := opsA_v3 (V0 m d)
theorem opsA_c5 (d : Dev nD) : StableHlo.after opsA (V0 m d) v5' = c5 m d := opsA_v5 (V0 m d)

/-- An array that neither line of operations writes and neither call returns is, at the end, at its launch contents. -/
theorem kept (d : Dev nD) (f0 : Buf (Elt F) ((SparseCore.T d : Thread nD τ).loc main_v6_0)) (f1 : Buf (Elt F) ((SparseCore.T d : Thread nD τ).loc main_v6_1))
    (g : Buf (Elt F) ((SparseCore.T d : Thread nD τ).loc main_v16)) (r : Ref sig .tc)
    (hA : r ∉ ([main_v0, main_v1, main_v2, main_v3, main_v4, main_v5] : List (Ref sig .tc)))
    (hB : r ∉ ([main_v7, main_v8, main_v9, main_v10, main_v11, main_v12, main_v13, main_v14, main_v15] : List (Ref sig .tc)))
    (h60 : Proc.devRef .tc r ≠ v60') (h61 : Proc.devRef .tc r ≠ v61') (h16 : Proc.devRef .tc r ≠ v16') :
    W7 (StableHlo.after opsB (W5 (StableHlo.after opsA (V0 m d)) d f0 f1)) d g (Proc.devRef .tc r) = m ((SparseCore.T d).loc r) := by
  rw [W7_of_ne _ d g h16, opsB_frame _ r hB, W5_of_ne _ d f0 f1 h60 h61, opsA_frame _ r hA]
  rfl

/-! ## The pipeline call's rule, as @main uses it -/

/-- What the TensorCore owes when the pipeline call is entered, as its state after the SparseCore call holds it. -/
abbrev owesB (d : Dev nD) : sProp 𝕄 :=
  iprop(∃ W, ⌜(sc (F := F)).WBelow (SparseCore.T d) W (8 * 1)⌝ ∗ owes (SparseCore.T d) ((sc (F := F)).Otc d 1) W)

/-- The pipeline call's seven arrays on device `d`: the operands at their contents, the result at `r`. -/
abbrev arrs (a7 a8 : Vec F S8x4x2048 .f32) (a9 : Vec F S2x8x2048 .f32) (a11 : Vec F S2x8x1 .f32) (a12 : Vec F S8x2048 .f32)
    (a15 : Vec F S2 .f32) (d : Dev nD) (r : Vec F S8x2048 .f32) : sProp 𝕄 :=
  iprop((((SparseCore.T d).loc main_v7 ↦{fullShare} (a7 : Buf (Elt F) ((SparseCore.T d).loc main_v7))) : sProp 𝕄)
    ∗ (((SparseCore.T d).loc main_v8 ↦{fullShare} (a8 : Buf (Elt F) ((SparseCore.T d).loc main_v8))) : sProp 𝕄)
    ∗ (((SparseCore.T d).loc main_v9 ↦{fullShare} (a9 : Buf (Elt F) ((SparseCore.T d).loc main_v9))) : sProp 𝕄)
    ∗ (((SparseCore.T d).loc main_v11 ↦{fullShare} (a11 : Buf (Elt F) ((SparseCore.T d).loc main_v11))) : sProp 𝕄)
    ∗ (((SparseCore.T d).loc main_v12 ↦{fullShare} (a12 : Buf (Elt F) ((SparseCore.T d).loc main_v12))) : sProp 𝕄)
    ∗ (((SparseCore.T d).loc main_v15 ↦{fullShare} (a15 : Buf (Elt F) ((SparseCore.T d).loc main_v15))) : sProp 𝕄)
    ∗ (((SparseCore.T d).loc main_v16 ↦{fullShare} (r : Buf (Elt F) ((SparseCore.T d).loc main_v16))) : sProp 𝕄))

/-- The rule of the pipeline call: from the level facts, the region boundary, what the TensorCore owes after the SparseCore
    call, the six operands and the result array whole, and the call's own ghost state, the call runs and leaves the
    operands as they were and the result at `tcOut` of them. -/
def RegionRule (ghost : Dev nD → sProp 𝕄)
    (tcOut : Vec F S8x4x2048 .f32 → Vec F S8x4x2048 .f32 → Vec F S2x8x2048 .f32 → Vec F S2x8x1 .f32 → Vec F S8x2048 .f32 → Vec F S2 .f32
      → FVec F S8x2048 .f32) : Prop :=
  ∀ (d : Dev nD) (a7 a8 : Vec F S8x4x2048 .f32) (a9 : Vec F S2x8x2048 .f32) (a11 : Vec F S2x8x1 .f32) (a12 : Vec F S8x2048 .f32)
    (a15 : Vec F S2 .f32) (f16 : Vec F S8x2048 .f32) (Φ : PUnit → sProp 𝕄),
    iprop(levAts (sc (F := F)).L (sc (F := F)).lev ∗ boundary (SparseCore.T d) ∗ owesB (F := F) d ∗ arrs a7 a8 a9 a11 a12 a15 d f16 ∗ ghost d
        ∗ (iprop(boundary (SparseCore.T d) ∗ owesB (F := F) d ∗ arrs a7 a8 a9 a11 a12 a15 d (tcOut a7 a8 a9 a11 a12 a15)) -∗ Φ ⟨⟩))
      ⊢ wp frame (wpE ((sc (F := F)).defs (Pipeline.defs pcfgs defs₀)) (Variants.none).lift (SparseCore.T d) none) Set.univ
          (Prog.lift (.customCall (SparseCore.inner (Pipeline.entry 0)) ())) Φ

/-! ## What @main leaves, and what it says of the final memory -/

/-- The eight arguments and the result array together. -/
abbrev nine : Finset (DevRef τ sig) := {arg0', arg1', arg2', arg3', arg4', arg5', arg6', arg7', v16'}

omit [FloatOps F] in
theorem held_out9 (d : Dev nD) (W : Valuation τ sig (Elt F)) :
    (held (SparseCore.T d) Sall W : sProp 𝕄) = iprop(((SparseCore.T d).loc main_arg0 ↦{fullShare} W arg0') ∗ ((SparseCore.T d).loc main_arg1 ↦{fullShare} W arg1') ∗ ((SparseCore.T d).loc main_arg2 ↦{fullShare} W arg2') ∗ ((SparseCore.T d).loc main_arg3 ↦{fullShare} W arg3') ∗ ((SparseCore.T d).loc main_arg4 ↦{fullShare} W arg4') ∗ ((SparseCore.T d).loc main_arg5 ↦{fullShare} W arg5') ∗ ((SparseCore.T d).loc main_arg6 ↦{fullShare} W arg6') ∗ ((SparseCore.T d).loc main_arg7 ↦{fullShare} W arg7') ∗ ((SparseCore.T d).loc main_v16 ↦{fullShare} W v16') ∗ held (SparseCore.T d) (Sall \ nine) W) := by
  unfold held
  conv_lhs => rw [show Sall = insert arg0' (insert arg1' (insert arg2' (insert arg3' (insert arg4' (insert arg5' (insert arg6' (insert arg7' (insert v16' (Sall \ nine))))))))) by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)]

/-- What @main leaves the claim: the eight arguments at their launch contents, and the result array at some contents. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7))
    ∗ ∃ g, (SparseCore.T d).loc main_v16 ↦{fullShare} g)

/-- The eight arguments of device `d` are, in the final memory, as at the launch. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)

omit [FloatOps F] in
theorem hfin (d : Dev nD) (s' : Phys nD τ sig (Elt F)) : iprop(FIN m d ∗ SI s') ⊢ (⌜fq m d s'⌝ : sProp 𝕄) := by
  iintro ⟨⟨H0, H1, H2, H3, H4, H5, H6, H7, -⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI H6]
  · isplitl [HSI] <;> iassumption
  icases H with ⟨%h6, HSI, -⟩
  ihave H := (SI_pointsTo_agree (st := s') (ℓ := (SparseCore.T d).loc main_arg7) (I := Finset.univ) (q := fullShare) (f := m ((SparseCore.T d).loc main_arg7))) $$ [HSI H7]
  · isplitl [HSI] <;> iassumption
  icases H with %h7
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i)⟩

/-- The claim's post: on every device the eight arguments end as they were. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

omit [FloatOps F] in
theorem hQ : ∀ s' : Phys nD τ sig (Elt F), (∀ d, fq m d s') → QC m (⟨⟩, s'.mem) := fun _ h => h

/-! ## @main -/

set_option maxHeartbeats 4000000 in
/-- @main on device `d`'s TensorCore: the six layout operations within the held arrays; the SparseCore call, from its
    three operands at the regrouped arguments and its two result arrays, which come back at some contents; the nine
    operations after it; the pipeline call by its rule; the eight arguments, untouched throughout, at their launch contents. -/
theorem hmain (ghost : Dev nD → sProp 𝕄)
    (tcOut : Vec F S8x4x2048 .f32 → Vec F S8x4x2048 .f32 → Vec F S2x8x2048 .f32 → Vec F S2x8x1 .f32 → Vec F S8x2048 .f32 → Vec F S2 .f32
      → FVec F S8x2048 .f32)
    (hregion : RegionRule (F := F) ghost tcOut) (κ : GSem nD τ sig → ℕ) (d : Dev nD) :
    iprop((K (F := F)).ctx EH (P (c2 m) (c3 m) (c5 m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hghost⟩
  -- the six layout operations
  iapply (wp_opsA d (V0 m d)) $$ [Hb Hheld]
  · isplitl [Hb]; · iexact Hb
    iexact Hheld
  iintro ⟨Hb, Hheld⟩
  ihave Hh := (Entails.of_eq (held_out5 (F := F) d _)) $$ Hheld
  icases Hh with ⟨H2, H3, H5, H60, H61, Hrest⟩
  rw [opsA_c2, opsA_c3, opsA_c5]
  ihave Hfull := (st_of_full (c2 m) (c3 m) (c5 m) d) $$ [H2 H3 H5 H60 H61]
  · isplitl [H2]; · iexact H2
    isplitl [H3]; · iexact H3
    isplitl [H5]; · iexact H5
    isplitl [H60]; · iexists _; iexact H60
    iexists _; iexact H61
  icases Hfull with ⟨Hst0, Hrem⟩
  -- the SparseCore call
  iapply ((K (F := F)).wp_run (D (F := F)) 𝒱 (EH := EH) (P := P (c2 m) (c3 m) (c5 m)) κ d 0) $$ [Hst Hst0 Hb Hrest Hrem Hghost]
  isplitr; · iexact Hctx
  isplitl [Hst]; · iexact Hst
  isplitl [Hst0]; · iexact Hst0
  iintro ⟨Hst, Hdn⟩
  ihave Hfull := (full_of_dn (c2 m) (c3 m) (c5 m) d) $$ [Hdn Hrem]
  · isplitl [Hdn]; · iexact Hdn
    iexact Hrem
  icases Hfull with ⟨H2, H3, H5, ⟨%f0, H60⟩, ⟨%f1, H61⟩⟩
  rw [← opsA_c2, ← opsA_c3, ← opsA_c5]
  ihave Hheld := (Entails.of_eq (held_in5 (F := F) d (StableHlo.after opsA (V0 m d)) f0 f1)) $$ [H2 H3 H5 H60 H61 Hrest]
  · isplitl [H2]; · iexact H2
    isplitl [H3]; · iexact H3
    isplitl [H5]; · iexact H5
    isplitl [H60]; · iexact H60
    isplitl [H61]; · iexact H61
    iexact Hrest
  -- the nine operations after it
  iapply (wp_opsB d (W5 (StableHlo.after opsA (V0 m d)) d f0 f1)) $$ [Hb Hheld]
  · isplitl [Hb]; · iexact Hb
    iexact Hheld
  iintro ⟨Hb, Hheld⟩
  ihave Hh := (Entails.of_eq (held_out7 (F := F) d _)) $$ Hheld
  icases Hh with ⟨H7, H8, H9, H11, H12, H15, H16, Hrest⟩
  -- the pipeline call
  unfold SparseCore.Cfg.tcSt
  icases Hst with ⟨HO, Hst⟩
  ihave Hlev := (SparseCore.Cfg.ctx_levAts κ) $$ Hctx
  iapply (hregion d ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15') ((StableHlo.after opsB (W5 (StableHlo.after opsA (V0 m d)) d f0 f1)) v16') _) $$ [Hlev Hb HO H7 H8 H9 H11 H12 H15 H16 Hghost Hst Hrest]
  isplitl [Hlev]; · iexact Hlev
  isplitl [Hb]; · iexact Hb
  isplitl [HO]; · iexact HO
  isplitl [H7 H8 H9 H11 H12 H15 H16]
  · isplitl [H7]; · iexact H7
    isplitl [H8]; · iexact H8
    isplitl [H9]; · iexact H9
    isplitl [H11]; · iexact H11
    isplitl [H12]; · iexact H12
    isplitl [H15]; · iexact H15
    iexact H16
  isplitl [Hghost]; · iexact Hghost
  iintro ⟨Hb, HO, H7, H8, H9, H11, H12, H15, H16⟩
  imodintro
  -- the arrays back; the arguments out
  ihave Hheld := (Entails.of_eq (held_in7 (F := F) d (StableHlo.after opsB (W5 (StableHlo.after opsA (V0 m d)) d f0 f1)) (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')))) $$ [H7 H8 H9 H11 H12 H15 H16 Hrest]
  · isplitl [H7]; · iexact H7
    isplitl [H8]; · iexact H8
    isplitl [H9]; · iexact H9
    isplitl [H11]; · iexact H11
    isplitl [H12]; · iexact H12
    isplitl [H15]; · iexact H15
    isplitl [H16]; · iexact H16
    iexact Hrest
  ihave Hh := (Entails.of_eq (held_out9 (F := F) d _)) $$ Hheld
  icases Hh with ⟨A0, A1, A2, A3, A4, A5, A6, A7, A16, -⟩
  rw [kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg0 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg1 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg2 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg3 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg4 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg5 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg6 (by decide) (by decide) (by decide) (by decide) (by decide),
    kept m d f0 f1 (tcOut ((StableHlo.after opsB (W5 (StableHlo.after opsA (V0 m d)) d f0 f1)) v7') ((StableHlo.after opsB (W5 (StableHlo.after opsA (V0 m d)) d f0 f1)) v8') ((StableHlo.after opsB (W5 (StableHlo.after opsA (V0 m d)) d f0 f1)) v9') ((StableHlo.after opsB (W5 (StableHlo.after opsA (V0 m d)) d f0 f1)) v11') ((StableHlo.after opsB (W5 (StableHlo.after opsA (V0 m d)) d f0 f1)) v12') ((StableHlo.after opsB (W5 (StableHlo.after opsA (V0 m d)) d f0 f1)) v15')) main_arg7 (by decide) (by decide) (by decide) (by decide) (by decide)]
  isplitl [HO Hst]
  · isplitl [HO]; · iexact HO
    iexact Hst
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  iexists _; iexact A16

/-- @main on device `d`'s TensorCore, with the pipeline call's rule as proved for this program. -/
theorem hmain_tc [∀ e, Nonempty (Elt F e)] (κ : GSem nD τ sig → ℕ) (d : Dev nD) :
    iprop((K (F := F)).ctx EH (P (c2 m) (c3 m) (c5 m)) κ ∗ (K (F := F)).tcSt EH d 0 ∗ (K (F := F)).tcRes m ρ d ∗ TcRegion.ghost ER d)
      ⊢ wp frame (wpE ((K (F := F)).defs (D (F := F))) 𝒱 (SparseCore.T d) none) Set.univ (main d)
          fun _ => iprop((K (F := F)).tcSt EH d 1 ∗ FIN m d) :=
  hmain m ρ (TcRegion.ghost ER) TcRegion.tcOut
    (fun d a7 a8 a9 a11 a12 a15 f16 Φ => TcRegion.wp_region ER a7 a8 a9 a11 a12 a15 f16 d Φ) κ d

end Cert.Kernel.Launch

end
-- ==== Proof.TileK.lean ====
/-
  One task of the SparseCore call, on the vector subcore a grid position names: three copies in (its block of the table, its
  batch's neighbour indices, its block of the query), the loop over 128 groups of sixteen nodes (each trip by the trip's
  specification), two copies out (its rows of the two partial-score arrays). It runs to its end, faults nowhere, returns
  the three operand arrays as it got them and its two rows at new contents, and gives back the subcore's scratch and
  semaphores.
-/
import proofs.«209090_g87076166960129_cont_sun_c4_39_31_alg».proof.Proof.SetupK
import proofs.«209090_g87076166960129_cont_sun_c4_39_31_alg».proof.Proof.TileSpecK

noncomputable section

namespace Cert.Kernel.Tile

open Cert.Kernel Cert.Kernel.Gen Cert.Kernel.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.Kernel.main_v2_scv : Memref Cert.Kernel.sig Kind.scVector Space.hbm Cert.Kernel.S32x32x2048 EltTy.f32)
local notation "a3" => (Memref.whole Cert.Kernel.main_v3_scv : Memref Cert.Kernel.sig Kind.scVector Space.hbm Cert.Kernel.S8x16x2048 EltTy.i32)
local notation "a4" => (Memref.whole Cert.Kernel.main_v5_scv : Memref Cert.Kernel.sig Kind.scVector Space.hbm Cert.Kernel.S32x32x16 EltTy.f32)
local notation "a5" => (Memref.whole Cert.Kernel.main_v6_0_scv : Memref Cert.Kernel.sig Kind.scVector Space.hbm Cert.Kernel.S32x2048 EltTy.f32)
local notation "a6" => (Memref.whole Cert.Kernel.main_v6_1_scv : Memref Cert.Kernel.sig Kind.scVector Space.hbm Cert.Kernel.S32x2048 EltTy.f32)
local notation "s7" => (Memref.whole Cert.Kernel.cc0_scratch0 : Memref Cert.Kernel.sig Kind.scVector Space.vmem Cert.Kernel.S32x2048 EltTy.f32)
local notation "s8" => (Memref.whole Cert.Kernel.cc0_scratch1 : Memref Cert.Kernel.sig Kind.scVector Space.vmem Cert.Kernel.S16x2048 EltTy.i32)
local notation "s9" => (Memref.whole Cert.Kernel.cc0_scratch2 : Memref Cert.Kernel.sig Kind.scVector Space.vmem Cert.Kernel.S32x16 EltTy.f32)
local notation "s10" => (Memref.whole Cert.Kernel.cc0_scratch3 : Memref Cert.Kernel.sig Kind.scVector Space.vmem Cert.Kernel.S2048 EltTy.f32)
local notation "s11" => (Memref.whole Cert.Kernel.cc0_scratch4 : Memref Cert.Kernel.sig Kind.scVector Space.vmem Cert.Kernel.S2048 EltTy.f32)

open Cert.Kernel.TileRes Cert.Kernel.TileSpec

variable [FloatOps F]
variable (d : Dev nD) (L : grid0.Coords)
omit [FloatOps F] in
theorem pts_a2 (q : PosShare TreeShare) (f : Buf (Elt F) ((V d (cV L) (jV L)).loc main_v2_scv)) :
    ((a2).view.loc (V d (cV L) (jV L)) ↦{q} f : sProp 𝕄) = (V d (cV L) (jV L)).loc main_v2_scv ↦{q} f := rfl
omit [FloatOps F] in
theorem pts_a3 (q : PosShare TreeShare) (f : Buf (Elt F) ((V d (cV L) (jV L)).loc main_v3_scv)) :
    ((a3).view.loc (V d (cV L) (jV L)) ↦{q} f : sProp 𝕄) = (V d (cV L) (jV L)).loc main_v3_scv ↦{q} f := rfl
omit [FloatOps F] in
theorem pts_a4 (q : PosShare TreeShare) (f : Buf (Elt F) ((V d (cV L) (jV L)).loc main_v5_scv)) :
    ((a4).view.loc (V d (cV L) (jV L)) ↦{q} f : sProp 𝕄) = (V d (cV L) (jV L)).loc main_v5_scv ↦{q} f := rfl
omit [FloatOps F] in
theorem pts_s7 (f : Buf (Elt F) ((V d (cV L) (jV L)).loc cc0_scratch0)) :
    ((s7).view.loc (V d (cV L) (jV L)) ↦{fullShare} f : sProp 𝕄) = (V d (cV L) (jV L)).loc cc0_scratch0 ↦{fullShare} f := rfl
omit [FloatOps F] in
theorem pts_s8 (f : Buf (Elt F) ((V d (cV L) (jV L)).loc cc0_scratch1)) :
    ((s8).view.loc (V d (cV L) (jV L)) ↦{fullShare} f : sProp 𝕄) = (V d (cV L) (jV L)).loc cc0_scratch1 ↦{fullShare} f := rfl
omit [FloatOps F] in
theorem pts_s9 (f : Buf (Elt F) ((V d (cV L) (jV L)).loc cc0_scratch2)) :
    ((s9).view.loc (V d (cV L) (jV L)) ↦{fullShare} f : sProp 𝕄) = (V d (cV L) (jV L)).loc cc0_scratch2 ↦{fullShare} f := rfl
omit [FloatOps F] in
theorem pts_s10 (f : Buf (Elt F) ((V d (cV L) (jV L)).loc cc0_scratch3)) :
    ((s10).view.loc (V d (cV L) (jV L)) ↦{fullShare} f : sProp 𝕄) = (V d (cV L) (jV L)).loc cc0_scratch3 ↦{fullShare} f := rfl
omit [FloatOps F] in
theorem pts_s11 (f : Buf (Elt F) ((V d (cV L) (jV L)).loc cc0_scratch4)) :
    ((s11).view.loc (V d (cV L) (jV L)) ↦{fullShare} f : sProp 𝕄) = (V d (cV L) (jV L)).loc cc0_scratch4 ↦{fullShare} f := rfl

set_option maxHeartbeats 4000000 in
theorem tile_body (htrip : TripSpec (F := F) d L) (hF : (K (F := F)).Facts) (O : CellTallies nD τ sig (HIx 1)) (W : Waits sig (HIx 1)) (hO : ∀ g, O g none = 0)
    (q : PosShare TreeShare)
    (c2 : Buf (Elt F) ((V d (cV L) (jV L)).loc main_v2_scv)) (c3 : Buf (Elt F) ((V d (cV L) (jV L)).loc main_v3_scv))
    (c5 : Buf (Elt F) ((V d (cV L) (jV L)).loc main_v5_scv)) (hc3 : ∀ j, (c3 j).toNat < 2048) :
    iprop(levAts (K (F := F)).L (K (F := F)).lev ∗ emp
        ∗ (((V d (cV L) (jV L)).loc main_v2_scv ↦{q} c2) ∗ ((V d (cV L) (jV L)).loc main_v3_scv ↦{q} c3) ∗ ((V d (cV L) (jV L)).loc main_v5_scv ↦{q} c5)
            ∗ (∃ f, (V d (cV L) (jV L)).loc main_v6_0_scv ↦[outSet5 L]{fullShare} f)
            ∗ (∃ f, (V d (cV L) (jV L)).loc main_v6_1_scv ↦[outSet6 L]{fullShare} f))
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_body L a2 (Memref.isWhole_whole _) a3 (Memref.isWhole_whole _) a4 (Memref.isWhole_whole _) a5 (Memref.isWhole_whole _) a6 (Memref.isWhole_whole _)
            s7 (Memref.isWhole_whole _) s8 (Memref.isWhole_whole _) s9 (Memref.isWhole_whole _) s10 (Memref.isWhole_whole _) s11 (Memref.isWhole_whole _)
            cc0_scoped0 cc0_scoped1 cc0_scoped2 cc0_scoped3 cc0_scoped4)
          fun _ => iprop((((V d (cV L) (jV L)).loc main_v2_scv ↦{q} c2) ∗ ((V d (cV L) (jV L)).loc main_v3_scv ↦{q} c3) ∗ ((V d (cV L) (jV L)).loc main_v5_scv ↦{q} c5)
              ∗ (∃ f, (V d (cV L) (jV L)).loc main_v6_0_scv ↦[outSet5 L]{fullShare} f)
              ∗ (∃ f, (V d (cV L) (jV L)).loc main_v6_1_scv ↦[outSet6 L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨H2, H3, H4, ⟨%f60, H5⟩, ⟨%f61, H6⟩⟩, ⟨⟨⟨%f7, H7⟩, ⟨%f8, H8⟩, ⟨%f9, H9⟩, ⟨%f10, H10⟩, ⟨%f11, H11⟩⟩, Hbufs⟩, ⟨⟨Hs0, Hs1, Hs2, Hs3, Hs4⟩, Hsems⟩, HO⟩
  ihave Hmw := ((K (F := F)).mayWaits_none (thr := V d (cV L) (jV L)) hO) $$ Hlv
  ihave H2 := (Entails.of_eq (pts_a2 (F := F) d L q _).symm) $$ H2
  ihave H3 := (Entails.of_eq (pts_a3 (F := F) d L q _).symm) $$ H3
  ihave H4 := (Entails.of_eq (pts_a4 (F := F) d L q _).symm) $$ H4
  ihave H5 := (Entails.of_eq (pts_o5 (F := F) d L _).symm) $$ H5
  ihave H6 := (Entails.of_eq (pts_o6 (F := F) d L _).symm) $$ H6
  ihave H7 := (Entails.of_eq (pts_s7 (F := F) d L _).symm) $$ H7
  ihave H8 := (Entails.of_eq (pts_s8 (F := F) d L _).symm) $$ H8
  ihave H9 := (Entails.of_eq (pts_s9 (F := F) d L _).symm) $$ H9
  ihave H10 := (Entails.of_eq (pts_s10 (F := F) d L _).symm) $$ H10
  ihave H11 := (Entails.of_eq (pts_s11 (F := F) d L _).symm) $$ H11
  sl_exec
  -- every word of the index scratch, after its copy, is a word of the batch's neighbour indices
  have hrd : ∀ j, (((s8).view.read (Elt F) (View.write (Elt F) (s8).view f8 (tile_body.sl.dma0_1 d L c3) Finset.univ) j : BitVec 32)).toNat < 2048 := by
    intro j
    rw [View.write_whole_univ]
    unfold tile_body.sl.dma0_1
    rw [(View.read_apply _ _).trans (cast_eq _ _), ReadAs.apply_same, (View.read_apply _ _).trans (cast_eq _ _)]
    exact hc3 _
  sl_for (tripInv d L (View.write (Elt F) (s7).view f7 (tile_body.sl.dma0 d L c2) Finset.univ)
      (View.write (Elt F) (s8).view f8 (tile_body.sl.dma0_1 d L c3) Finset.univ)
      (View.write (Elt F) (s9).view f9 (tile_body.sl.dma0_2 d L c5) Finset.univ)) $$ [H7 H8 H9 H10 H11]
  case region =>
    intro k acc
    exact htrip k _ _ _ hrd
  · unfold tripInv
    isplitl [H7]; · iexact H7
    isplitl [H8]; · iexact H8
    isplitl [H9]; · iexact H9
    isplitl [H10]; · iexists _; iexact H10
    iexists _; iexact H11
  iintro %acc HI
  unfold tripInv
  icases HI with ⟨H7, H8, H9, ⟨%g10, H10⟩, ⟨%g11, H11⟩⟩
  sl_exec
  sl_step
  isplitl [H2 H3 H4 H5 H6]
  · isplitl [H2]; · iapply (Entails.of_eq (pts_a2 (F := F) d L q _)); iexact H2
    isplitl [H3]; · iapply (Entails.of_eq (pts_a3 (F := F) d L q _)); iexact H3
    isplitl [H4]; · iapply (Entails.of_eq (pts_a4 (F := F) d L q _)); iexact H4
    isplitl [H5]; · iexists _; iapply (Entails.of_eq (pts_o5 (F := F) d L _)); iexact H5
    iexists _; iapply (Entails.of_eq (pts_o6 (F := F) d L _)); iexact H6
  isplitl [H7 H8 H9 H10 H11 Hbufs]
  · isplitl [H7 H8 H9 H10 H11]
    · isplitl [H7]; · iexists _; iapply (Entails.of_eq (pts_s7 (F := F) d L _)); iexact H7
      isplitl [H8]; · iexists _; iapply (Entails.of_eq (pts_s8 (F := F) d L _)); iexact H8
      isplitl [H9]; · iexists _; iapply (Entails.of_eq (pts_s9 (F := F) d L _)); iexact H9
      isplitl [H10]; · iexists _; iapply (Entails.of_eq (pts_s10 (F := F) d L _)); iexact H10
      iexists _; iapply (Entails.of_eq (pts_s11 (F := F) d L _)); iexact H11
    · iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    · iexact Hsems
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    · exact .inl hp

end Cert.Kernel.Tile

end
-- ==== Proof.LaunchOblK.lean ====
/-
  The vector-subcore call's task obligation for the launch theorem: on subcore `s` of SparseCore `c` the call's body is
  the kernel's function at grid position `(c, s)`, and the task proved at that position — handed its read shares of the three
  operand arrays and its rows of the two results — is what the launch asks of it.
-/
import proofs.«209090_g87076166960129_cont_sun_c4_39_31_alg».proof.Proof.SetupK
import proofs.«209090_g87076166960129_cont_sun_c4_39_31_alg».proof.Proof.TileK
import proofs.«209090_g87076166960129_cont_sun_c4_39_31_alg».proof.Proof.LaunchPayK

noncomputable section

namespace Cert.Kernel.Launch

open Cert.Kernel Cert.Kernel.Gen Cert.Kernel.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.Kernel.main_v2_scv : Memref Cert.Kernel.sig Kind.scVector Space.hbm Cert.Kernel.S32x32x2048 EltTy.f32)
local notation "a3" => (Memref.whole Cert.Kernel.main_v3_scv : Memref Cert.Kernel.sig Kind.scVector Space.hbm Cert.Kernel.S8x16x2048 EltTy.i32)
local notation "a4" => (Memref.whole Cert.Kernel.main_v5_scv : Memref Cert.Kernel.sig Kind.scVector Space.hbm Cert.Kernel.S32x32x16 EltTy.f32)
local notation "a5" => (Memref.whole Cert.Kernel.main_v6_0_scv : Memref Cert.Kernel.sig Kind.scVector Space.hbm Cert.Kernel.S32x2048 EltTy.f32)
local notation "a6" => (Memref.whole Cert.Kernel.main_v6_1_scv : Memref Cert.Kernel.sig Kind.scVector Space.hbm Cert.Kernel.S32x2048 EltTy.f32)
local notation "s7" => (Memref.whole Cert.Kernel.cc0_scratch0 : Memref Cert.Kernel.sig Kind.scVector Space.vmem Cert.Kernel.S32x2048 EltTy.f32)
local notation "s8" => (Memref.whole Cert.Kernel.cc0_scratch1 : Memref Cert.Kernel.sig Kind.scVector Space.vmem Cert.Kernel.S16x2048 EltTy.i32)
local notation "s9" => (Memref.whole Cert.Kernel.cc0_scratch2 : Memref Cert.Kernel.sig Kind.scVector Space.vmem Cert.Kernel.S32x16 EltTy.f32)
local notation "s10" => (Memref.whole Cert.Kernel.cc0_scratch3 : Memref Cert.Kernel.sig Kind.scVector Space.vmem Cert.Kernel.S2048 EltTy.f32)
local notation "s11" => (Memref.whole Cert.Kernel.cc0_scratch4 : Memref Cert.Kernel.sig Kind.scVector Space.vmem Cert.Kernel.S2048 EltTy.f32)

open Cert.Kernel.TileRes Cert.Kernel.TileSpec Cert.Kernel.Tile

variable [FloatOps F]
variable (c2 : (d : Dev nD) → Buf (Elt F) (v2Loc d)) (c3 : (d : Dev nD) → Buf (Elt F) (v3Loc d)) (c5 : (d : Dev nD) → Buf (Elt F) (v5Loc d))

theorem defs₀_vector (c : Fin τ.nSC) (s : Fin τ.nSub) :
    defs₀ (F := F) (.scVector c s) 0 ()
      = SparseCore.onTile hcore0 hsub0 (fun c s => cc0__sc_body (coordsV c s)
          a2 (Memref.isWhole_whole _) a3 (Memref.isWhole_whole _) a4 (Memref.isWhole_whole _) a5 (Memref.isWhole_whole _) a6 (Memref.isWhole_whole _)
          s7 (Memref.isWhole_whole _) s8 (Memref.isWhole_whole _) s9 (Memref.isWhole_whole _) s10 (Memref.isWhole_whole _) s11 (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation, from the trip's specification at every position and the index words' range at the call. -/
theorem tileObl (htrip : ∀ (d : Dev nD) (L : grid0.Coords), TripSpec (F := F) d L) (hF : (K (F := F)).Facts)
    (hc3 : ∀ d j, (c3 d j).toNat < 2048) : (K (F := F)).TileObl (D (F := F)) 𝒱 (P c2 c3 c5) v₀ 0 := by
  intro d c i O W hO _ _
  -- this kernel owes nothing for a protocol of its own
  simp only [show (P c2 c3 c5).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (htrip d _) hF O W hO _ (c2 d) (c3 d) (c5 d) (hc3 d)).trans
    (wp_mono frame _ _ fun _ => obl_post)

end Cert.Kernel.Launch

end
-- ==== Proof.LaunchAuxK.lean ====
/- Two facts the launch takes from outside the call: the neighbour indices in the launch memory are below
   2048 (from the input-domain precondition, whatever the floats are), and the launch element of the ghost
   state — the handshakes' rounds handed over as they are, the second stage's staging cells funded, nothing
   of the first stage's own. -/
import proofs.«209090_g87076166960129_cont_sun_c4_39_31_alg».proof.Proof.LaunchPayK
import proofs.«209090_g87076166960129_cont_sun_c4_39_31_alg».proof.Proof.BridgePreF
import proofs.«209090_g87076166960129_cont_sun_c4_39_31_alg».proof.Proof.BridgeGlueK

noncomputable section

namespace Cert.Kernel.Launch

open Cert.Kernel Cert.Kernel.Gen Cert.Kernel.Setup Cert.Kernel.TileRes Cert.Kernel.TileSpec
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The neighbour indices of the launch memory -/

section Pre
variable [FloatOps F]

/-- Under the input-domain precondition on every device, every neighbour index of the launch memory is below 2048. -/
theorem knn_small (m : (ℓ : Loc nD τ sig) → Buf (Elt F) ℓ)
    (h : ∀ c : Dev nD, Cert.Pre_input_domain.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) = fun _ => 1#1) :
    ∀ (d : Dev nD) (i : S8x2048x16.Idx), (m ((SparseCore.T d).loc main_arg2) i : BitVec 32).toNat < 2048 :=
  fun d i => Cert.Bridge.pre_knn_ltF (h d) i

/-- … and so is every entry of the index array with the node axis last. -/
theorem knn_small_g3 (m : (ℓ : Loc nD τ sig) → Buf (Elt F) ℓ)
    (h : ∀ c : Dev nD, Cert.Pre_input_domain.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) = fun _ => 1#1) :
    ∀ (d : Dev nD) (j : S8x16x2048.Idx), (Cert.BridgeK.g3 (F := F) (m ((SparseCore.T d).loc main_arg2)) j : BitVec 32).toNat < 2048 :=
  fun d => Cert.BridgeK.g3_small (F := F) _ (knn_small m h d)

end Pre

/-! ## The launch element -/

/-- The launch element: the handshakes' rounds, the staging cells' rounds, no counters. -/
def u₀ : UU :=
  (initOf (K (F := F)).hsCells (K (F := F)).hsToks,
    (initOf (Pipeline.cells cfgs Gen.cellOf_inj) (Pipeline.launchToks cfgs Gen.cellOf_inj), 1))

theorem bigSep_emp' {I : Type} (s : Finset I) : (bigSep s fun _ => iprop(emp)) = (iprop(emp) : sProp 𝕄) := bigSep_emp_const s

variable [FloatOps F]
variable (c2 : (d : Dev nD) → Buf (Elt F) (v2Loc d)) (c3 : (d : Dev nD) → Buf (Elt F) (v3Loc d))
  (c5 : (d : Dev nD) → Buf (Elt F) (v5Loc d))

/-- From the launch element: the handshakes' rounds, what the staging cells' rounds fund, and nothing for the
    first stage's own protocol (it has none). -/
theorem hu₀ (G : Dev nD → sProp 𝕄)
    (hfund : BI.own (ER (F := F) (initOf (Pipeline.cells cfgs Gen.cellOf_inj) (Pipeline.launchToks cfgs Gen.cellOf_inj)))
      ⊢ iprop(|==> bigSep Finset.univ G)) :
    (ownU (u₀ (F := F)) : sProp 𝕄)
      ⊢ |={Set.univ}=> iprop(BI.own (EH (initOf (K (F := F)).hsCells (K (F := F)).hsToks)) ∗ bigSep Finset.univ G
          ∗ bigSep Finset.univ fun thr : Thread nD τ => bigSep Finset.univ fun q : Fin 1 => (P c2 c3 c5).x q thr) := by
  unfold u₀
  iintro Hu
  ihave H := (ownU_split _ _ _) $$ Hu
  icases H with ⟨HH, HR⟩
  imod hfund $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Launch

end
-- ==== Proof.LaunchRunK.lean ====
/-
  The kernel program's run, from the launch theorem of a SparseCore program: the one vector-subcore call's task obligation and
  split, @main on the TensorCore (host operations, the call, host operations, the TensorCore pipeline call), the launch element,
  and the read-off of the final memory. Every weakly fair execution of the device's threads terminates, nothing faulting, with
  the eight argument arrays unchanged — given that every neighbour index names a node.
-/
import proofs.«209090_g87076166960129_cont_sun_c4_39_31_alg».proof.Proof.LaunchMainK
import proofs.«209090_g87076166960129_cont_sun_c4_39_31_alg».proof.Proof.LaunchOblK
import proofs.«209090_g87076166960129_cont_sun_c4_39_31_alg».proof.Proof.LaunchAuxK

noncomputable section

namespace Cert.Kernel.Launch

open Cert.Kernel Cert.Kernel.Gen Cert.Kernel.Setup
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.TileSpec

variable {F : FTy → Type} [FloatOps F]

/-- The program runs, its arguments kept, from the trip's specification at every grid position and the precondition's
    range of the neighbour indices. -/
theorem run_main [∀ e, Nonempty (Elt F e)] (htrip : ∀ (d : Dev nD) (L : grid0.Coords), TripSpec (F := F) d L)
    (m : (ℓ : Loc nD τ sig) → Buf (Elt F) ℓ) (ρ : Dev nD → PrngReg)
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) = fun _ => 1#1) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (c2 m) (c3 m) (c5 m)) facts v₀
    (fun q hq => match q with | 0 => nomatch hq)
    (fun q _ => match q with | 0 => tileObl (c2 m) (c3 m) (c5 m) htrip facts (knn_small_g3 m h))
    (fun q _ => match q with | 0 => SparseCore.Cfg.VecSplit.of_plain (vecSplit (c2 m) (c3 m) (c5 m)))
    m ρ main (fun d => TcRegion.ghost ER d) (FIN m) (u₀ (F := F))
    (sep_elim_left.trans (hu₀ (c2 m) (c3 m) (c5 m) (fun d => TcRegion.ghost ER d) (TcRegion.fund ER)))
    (hmain_tc m ρ) (fq m) (hfin m) (QC m) (hQ m)

end Cert.Kernel.Launch

end
-- ==== Proof.Frames.lean ====
/-
  The three frame conjuncts of the claim. The two kernel programs — the word-level one read at the bit-exact instance, the
  idealized one at the ideal instance — run to their end with the eight argument arrays unchanged by the SparseCore launch
  theorem (the run of LaunchRun / LaunchRunK), under the precondition's range of the neighbour indices; the reference's frame
  is its run read back with the result dropped.
-/
import proofs.«209090_g87076166960129_cont_sun_c4_39_31_alg».proof.Defs
import proofs.«209090_g87076166960129_cont_sun_c4_39_31_alg».proof.Proof.LaunchRun
import proofs.«209090_g87076166960129_cont_sun_c4_39_31_alg».proof.Proof.LaunchRunK
import proofs.«209090_g87076166960129_cont_sun_c4_39_31_alg».proof.Proof.RefRunThm
import proofs.«209090_g87076166960129_cont_sun_c4_39_31_alg».proof.Proof.Gen.Pre_input_domain
import proofs.«209090_g87076166960129_cont_sun_c4_39_31_alg».proof.Proof.Gen.ReferenceIdeal

noncomputable section

namespace Cert.Proof.Frames

open Idealize.ShloMosaic Idealize.ShloMosaic.TcCoe Idealize.SL.Sem

/-- The idealized kernel program's frame, from the trip's specification at the ideal instance. -/
theorem frame_KernelIdeal (htrip : ∀ (d : Dev Cert.KernelIdeal.nD) (L : Cert.KernelIdeal.grid0.Coords), Cert.KernelIdeal.TileSpec.TripSpec (F := Ideal) d L) :
    Cert.frame_KernelIdeal := fun m g hpre =>
  (θ_run _ _ _).mono (fun _ h c => h c) (Cert.KernelIdeal.Launch.run_main (F := Ideal) htrip m g hpre)

/-- The word-level kernel program's frame, from the trip's specification at the bit-exact instance. -/
theorem frame_Kernel (htrip : ∀ (d : Dev Cert.Kernel.nD) (L : Cert.Kernel.grid0.Coords), Cert.Kernel.TileSpec.TripSpec (F := Bits) d L) :
    Cert.frame_Kernel := fun m g hpre =>
  (θ_run _ _ _).mono (fun _ h c => h c) (Cert.Kernel.Launch.run_main (F := Bits) htrip m g hpre)

/-- The reference's frame: its run, the result dropped. -/
theorem frame_ReferenceIdeal : Cert.frame_ReferenceIdeal := fun m ρ _ =>
  (θ_run Cert.ReferenceIdeal.defs _ _).mono (fun _ h c => (h c).2) (Cert.ReferenceIdeal.ValueP.run (F := Ideal) m ρ)

end Cert.Proof.Frames

end
-- ==== Proof.TripValue.lean ====
/- What one trip of a task's loop over groups of sixteen nodes computes, for any reading of the floats. With
   own(dd), qv(dd) (dd < 32) and iv(j) (j < 16) the sixteen-lane vectors read from the table, query and index
   scratches, and gath(dd, j) the table gathered at row dd and the columns iv(j) names:
     cv = (((0 + own(0)*qv(0)) + own(1)*qv(1)) + …) + own(31)*qv(31)
     iv = (((0 + own(0)*tree(0)) + own(1)*tree(1)) + …) + own(31)*tree(31)
   where tree(dd) adds gath(dd, 0..15) pairwise: ((g0+g1)+(g2+g3)) + ((g4+g5)+(g6+g7)), the same of g8..g15, and
   the two halves. The printed chain of the trip's operations, written over the same vectors, is these two
   terms. -/
import proofs.«209090_g87076166960129_cont_sun_c4_39_31_alg».proof.Proof.Gen.KernelIdeal.Skeleton

noncomputable section

namespace Cert.KernelIdeal.TripValue

open Cert.KernelIdeal Cert.KernelIdeal.Gen Idealize.ShloMosaic

variable {F : FTy → Type} [FloatOps F]

/-! ## Over any families of loaded vectors -/

section Generic
variable (o ql : Fin 32 → Vec F S1x16 .f32) (il : Fin 16 → Vec F S1x16 .i32) (T : Vec F S32x2048 .f32)

/-- The zero vector both sums start from. -/
def zeroV : FVec F S16 .f32 := broadcast S16 (Scalar.ofBits (F := F) .f32 0x00000000#32)
/-- The node's own coordinate dd, the query's coordinate dd, the j-th neighbour indices: each as sixteen lanes. -/
def ownG (dd : Fin 32) : Vec F S16 .f32 := shapeCast S16 (o dd) shapeCasts_S1x16_S16
def qvG (dd : Fin 32) : Vec F S16 .f32 := shapeCast S16 (ql dd) shapeCasts_S1x16_S16
def ivG (j : Fin 16) : Vec F S16 .i32 := shapeCast S16 (il j) shapeCasts_S1x16_S16
/-- The two index vectors of the gather of row dd at the j-th neighbours. -/
abbrev gidxG (dd : Fin 32) (j : Fin 16) : Fin S32x2048.rank → IVec S16 32 :=
  ![broadcast S16 (BitVec.ofNat 32 dd.val), ivG il j]
/-- Every gather's indices are inside the table. -/
abbrev InRangeG : Prop :=
  ∀ (dd : Fin 32) (j : Fin 16) (a : Fin S32x2048.rank) (x : S16.Idx), ((gidxG il dd j) a x).toNat < S32x2048.size a
/-- Row dd of the table at the j-th neighbours. -/
def gathG (hr : InRangeG il) (dd : Fin 32) (j : Fin 16) : Vec F S16 .f32 := loadIdx T (gidxG il dd j) (hr dd j)
/-- Eight vectors added pairwise. -/
def tree8 (g0 g1 g2 g3 g4 g5 g6 g7 : FVec F S16 .f32) : FVec F S16 .f32 :=
  addf (addf (addf g0 g1) (addf g2 g3)) (addf (addf g4 g5) (addf g6 g7))
/-- The sixteen gathered rows added pairwise. -/
def treeG (hr : InRangeG il) (dd : Fin 32) : FVec F S16 .f32 :=
  addf (tree8 (gathG il T hr dd 0) (gathG il T hr dd 1) (gathG il T hr dd 2) (gathG il T hr dd 3) (gathG il T hr dd 4) (gathG il T hr dd 5) (gathG il T hr dd 6) (gathG il T hr dd 7))
    (tree8 (gathG il T hr dd 8) (gathG il T hr dd 9) (gathG il T hr dd 10) (gathG il T hr dd 11) (gathG il T hr dd 12) (gathG il T hr dd 13) (gathG il T hr dd 14) (gathG il T hr dd 15))

/-- The context sum after n coordinates. -/
def cvRec : (n : Nat) → n ≤ 32 → FVec F S16 .f32
  | 0, _ => zeroV
  | n + 1, h => addf (cvRec n (Nat.le_of_succ_le h)) (mulf (ownG o ⟨n, h⟩) (qvG ql ⟨n, h⟩))
/-- The interference sum after n coordinates. -/
def ivRec (hr : InRangeG il) : (n : Nat) → n ≤ 32 → FVec F S16 .f32
  | 0, _ => zeroV
  | n + 1, h => addf (ivRec hr n (Nat.le_of_succ_le h)) (mulf (ownG o ⟨n, h⟩) (treeG il T hr ⟨n, h⟩))

/-- The trip's context vector. -/
def cvG : FVec F S16 .f32 := cvRec o ql 32 (Nat.le_refl 32)
/-- The trip's interference vector. -/
def ivGs (hr : InRangeG il) : FVec F S16 .f32 := ivRec o il T hr 32 (Nat.le_refl 32)

set_option maxRecDepth 65536 in
set_option maxHeartbeats 4000000 in
/-- The printed chain of the context sum, over the loaded vectors, is the context vector. -/
theorem cv_chain :
    (k0_pay1 (F := F) (k0_pay113 (F := F) (k0_pay110 (F := F) (k0_pay105 (F := F) (k0_pay102 (F := F) (k0_pay97 (F := F) (k0_pay94 (F := F) (k0_pay89 (F := F) (k0_pay86 (F := F) (k0_pay81 (F := F) (k0_pay78 (F := F) (k0_pay73 (F := F) (k0_pay70 (F := F) (k0_pay65 (F := F) (k0_pay62 (F := F) (k0_pay57 (F := F) (k0_pay54 (F := F) (k0_pay49 (F := F) (k0_pay46 (F := F) (k0_pay41 (F := F) (k0_pay38 (F := F) (k0_pay33 (F := F) (k0_pay30 (F := F) (k0_pay25 (F := F) (k0_pay22 (F := F) (k0_pay17 (F := F) (k0_pay14 (F := F)) (shapeCast S16 (o 0) shapeCasts_S1x16_S16) (ql 0)) (shapeCast S16 (o 1) shapeCasts_S1x16_S16) (ql 1) (shapeCast S16 (o 2) shapeCasts_S1x16_S16) (ql 2)) (o 3) (ql 3)) (o 4) (ql 4)) (shapeCast S16 (o 5) shapeCasts_S1x16_S16) (ql 5)) (shapeCast S16 (o 6) shapeCasts_S1x16_S16) (ql 6) (shapeCast S16 (o 7) shapeCasts_S1x16_S16) (ql 7)) (o 8) (ql 8)) (o 9) (ql 9)) (shapeCast S16 (o 10) shapeCasts_S1x16_S16) (ql 10)) (shapeCast S16 (o 11) shapeCasts_S1x16_S16) (ql 11) (shapeCast S16 (o 12) shapeCasts_S1x16_S16) (ql 12)) (o 13) (ql 13)) (o 14) (ql 14)) (shapeCast S16 (o 15) shapeCasts_S1x16_S16) (ql 15)) (shapeCast S16 (o 16) shapeCasts_S1x16_S16) (ql 16) (shapeCast S16 (o 17) shapeCasts_S1x16_S16) (ql 17)) (o 18) (ql 18)) (o 19) (ql 19)) (shapeCast S16 (o 20) shapeCasts_S1x16_S16) (ql 20)) (shapeCast S16 (o 21) shapeCasts_S1x16_S16) (ql 21) (shapeCast S16 (o 22) shapeCasts_S1x16_S16) (ql 22)) (o 23) (ql 23)) (o 24) (ql 24)) (shapeCast S16 (o 25) shapeCasts_S1x16_S16) (ql 25)) (shapeCast S16 (o 26) shapeCasts_S1x16_S16) (ql 26) (shapeCast S16 (o 27) shapeCasts_S1x16_S16) (ql 27)) (o 28) (ql 28)) (o 29) (ql 29)) (shapeCast S16 (o 30) shapeCasts_S1x16_S16) (ql 30)) (shapeCast S16 (o 31) shapeCasts_S1x16_S16) (ql 31))
      = cvG o ql := rfl

set_option maxRecDepth 65536 in
set_option maxHeartbeats 16000000 in
/-- The printed chain of the interference sum, over the loaded vectors, is the interference vector. -/
theorem iv_chain (hr : InRangeG il) :
    (k0_pay115 (F := F) (k0_pay109 (F := F) (k0_pay104 (F := F) (k0_pay101 (F := F) (k0_pay99 (F := F) (k0_pay93 (F := F) (k0_pay88 (F := F) (k0_pay85 (F := F) (k0_pay83 (F := F) (k0_pay77 (F := F) (k0_pay72 (F := F) (k0_pay69 (F := F) (k0_pay67 (F := F) (k0_pay61 (F := F) (k0_pay56 (F := F) (k0_pay53 (F := F) (k0_pay51 (F := F) (k0_pay45 (F := F) (k0_pay40 (F := F) (k0_pay37 (F := F) (k0_pay35 (F := F) (k0_pay29 (F := F) (k0_pay24 (F := F) (k0_pay21 (F := F) (k0_pay19 (F := F) (k0_pay13 (F := F)) (k0_pay15 (F := F) (loadIdx T ![(broadcast S16 0#32), (k0_pay2 (F := F) (il 0))] (hr 0 0)) (loadIdx T ![(broadcast S16 0#32), (k0_pay3 (F := F) (il 1))] (hr 0 1)) (loadIdx T ![(broadcast S16 0#32), (k0_pay4 (F := F) (il 2))] (hr 0 2)) (loadIdx T ![(broadcast S16 0#32), (k0_pay5 (F := F) (il 3))] (hr 0 3)) (loadIdx T ![(broadcast S16 0#32), (k0_pay6 (F := F) (il 4))] (hr 0 4)) (loadIdx T ![(broadcast S16 0#32), (k0_pay7 (F := F) (il 5))] (hr 0 5)) (loadIdx T ![(broadcast S16 0#32), (k0_pay8 (F := F) (il 6))] (hr 0 6)) (loadIdx T ![(broadcast S16 0#32), (k0_pay9 (F := F) (il 7))] (hr 0 7))) (k0_pay16 (F := F) (loadIdx T ![(broadcast S16 0#32), (k0_pay10 (F := F) (il 8))] (hr 0 8)) (loadIdx T ![(broadcast S16 0#32), (k0_pay11 (F := F) (il 9))] (hr 0 9)) (loadIdx T ![(broadcast S16 0#32), (k0_pay12 (F := F) (il 10))] (hr 0 10)) (loadIdx T ![(broadcast S16 0#32), (shapeCast S16 (il 11) shapeCasts_S1x16_S16)] (hr 0 11)) (loadIdx T ![(broadcast S16 0#32), (shapeCast S16 (il 12) shapeCasts_S1x16_S16)] (hr 0 12)) (loadIdx T ![(broadcast S16 0#32), (shapeCast S16 (il 13) shapeCasts_S1x16_S16)] (hr 0 13)) (loadIdx T ![(broadcast S16 0#32), (shapeCast S16 (il 14) shapeCasts_S1x16_S16)] (hr 0 14)) (loadIdx T ![(broadcast S16 0#32), (shapeCast S16 (il 15) shapeCasts_S1x16_S16)] (hr 0 15))) (shapeCast S16 (o 0) shapeCasts_S1x16_S16) (loadIdx T ![(broadcast S16 1#32), (k0_pay10 (F := F) (il 8))] (hr 1 8)) (loadIdx T ![(broadcast S16 1#32), (k0_pay11 (F := F) (il 9))] (hr 1 9)) (loadIdx T ![(broadcast S16 1#32), (k0_pay12 (F := F) (il 10))] (hr 1 10)) (loadIdx T ![(broadcast S16 1#32), (shapeCast S16 (il 11) shapeCasts_S1x16_S16)] (hr 1 11)) (loadIdx T ![(broadcast S16 1#32), (shapeCast S16 (il 12) shapeCasts_S1x16_S16)] (hr 1 12)) (loadIdx T ![(broadcast S16 1#32), (shapeCast S16 (il 13) shapeCasts_S1x16_S16)] (hr 1 13)) (loadIdx T ![(broadcast S16 1#32), (shapeCast S16 (il 14) shapeCasts_S1x16_S16)] (hr 1 14)) (loadIdx T ![(broadcast S16 1#32), (shapeCast S16 (il 15) shapeCasts_S1x16_S16)] (hr 1 15)) (k0_pay18 (F := F) (loadIdx T ![(broadcast S16 1#32), (k0_pay2 (F := F) (il 0))] (hr 1 0)) (loadIdx T ![(broadcast S16 1#32), (k0_pay3 (F := F) (il 1))] (hr 1 1)) (loadIdx T ![(broadcast S16 1#32), (k0_pay4 (F := F) (il 2))] (hr 1 2)) (loadIdx T ![(broadcast S16 1#32), (k0_pay5 (F := F) (il 3))] (hr 1 3)) (loadIdx T ![(broadcast S16 1#32), (k0_pay6 (F := F) (il 4))] (hr 1 4)) (loadIdx T ![(broadcast S16 1#32), (k0_pay7 (F := F) (il 5))] (hr 1 5)) (loadIdx T ![(broadcast S16 1#32), (k0_pay8 (F := F) (il 6))] (hr 1 6)) (loadIdx T ![(broadcast S16 1#32), (k0_pay9 (F := F) (il 7))] (hr 1 7))) (shapeCast S16 (o 1) shapeCasts_S1x16_S16)) (loadIdx T ![(broadcast S16 2#32), (k0_pay10 (F := F) (il 8))] (hr 2 8)) (loadIdx T ![(broadcast S16 2#32), (k0_pay11 (F := F) (il 9))] (hr 2 9)) (loadIdx T ![(broadcast S16 2#32), (k0_pay12 (F := F) (il 10))] (hr 2 10)) (loadIdx T ![(broadcast S16 2#32), (shapeCast S16 (il 11) shapeCasts_S1x16_S16)] (hr 2 11)) (loadIdx T ![(broadcast S16 2#32), (shapeCast S16 (il 12) shapeCasts_S1x16_S16)] (hr 2 12)) (loadIdx T ![(broadcast S16 2#32), (shapeCast S16 (il 13) shapeCasts_S1x16_S16)] (hr 2 13)) (loadIdx T ![(broadcast S16 2#32), (shapeCast S16 (il 14) shapeCasts_S1x16_S16)] (hr 2 14)) (loadIdx T ![(broadcast S16 2#32), (shapeCast S16 (il 15) shapeCasts_S1x16_S16)] (hr 2 15)) (k0_pay20 (F := F) (loadIdx T ![(broadcast S16 2#32), (k0_pay2 (F := F) (il 0))] (hr 2 0)) (loadIdx T ![(broadcast S16 2#32), (k0_pay3 (F := F) (il 1))] (hr 2 1)) (loadIdx T ![(broadcast S16 2#32), (k0_pay4 (F := F) (il 2))] (hr 2 2)) (loadIdx T ![(broadcast S16 2#32), (k0_pay5 (F := F) (il 3))] (hr 2 3)) (loadIdx T ![(broadcast S16 2#32), (k0_pay6 (F := F) (il 4))] (hr 2 4)) (loadIdx T ![(broadcast S16 2#32), (k0_pay7 (F := F) (il 5))] (hr 2 5)) (loadIdx T ![(broadcast S16 2#32), (k0_pay8 (F := F) (il 6))] (hr 2 6)) (loadIdx T ![(broadcast S16 2#32), (k0_pay9 (F := F) (il 7))] (hr 2 7))) (shapeCast S16 (o 2) shapeCasts_S1x16_S16)) (loadIdx T ![(broadcast S16 3#32), (k0_pay2 (F := F) (il 0))] (hr 3 0)) (loadIdx T ![(broadcast S16 3#32), (k0_pay3 (F := F) (il 1))] (hr 3 1)) (loadIdx T ![(broadcast S16 3#32), (k0_pay4 (F := F) (il 2))] (hr 3 2)) (loadIdx T ![(broadcast S16 3#32), (k0_pay5 (F := F) (il 3))] (hr 3 3)) (loadIdx T ![(broadcast S16 3#32), (k0_pay6 (F := F) (il 4))] (hr 3 4)) (loadIdx T ![(broadcast S16 3#32), (k0_pay7 (F := F) (il 5))] (hr 3 5)) (loadIdx T ![(broadcast S16 3#32), (k0_pay8 (F := F) (il 6))] (hr 3 6)) (loadIdx T ![(broadcast S16 3#32), (k0_pay9 (F := F) (il 7))] (hr 3 7)) (loadIdx T ![(broadcast S16 3#32), (k0_pay10 (F := F) (il 8))] (hr 3 8)) (loadIdx T ![(broadcast S16 3#32), (k0_pay11 (F := F) (il 9))] (hr 3 9)) (loadIdx T ![(broadcast S16 3#32), (k0_pay12 (F := F) (il 10))] (hr 3 10)) (loadIdx T ![(broadcast S16 3#32), (shapeCast S16 (il 11) shapeCasts_S1x16_S16)] (hr 3 11)) (loadIdx T ![(broadcast S16 3#32), (shapeCast S16 (il 12) shapeCasts_S1x16_S16)] (hr 3 12)) (loadIdx T ![(broadcast S16 3#32), (shapeCast S16 (il 13) shapeCasts_S1x16_S16)] (hr 3 13)) (loadIdx T ![(broadcast S16 3#32), (shapeCast S16 (il 14) shapeCasts_S1x16_S16)] (hr 3 14)) (loadIdx T ![(broadcast S16 3#32), (shapeCast S16 (il 15) shapeCasts_S1x16_S16)] (hr 3 15)) (o 3)) (loadIdx T ![(broadcast S16 4#32), (k0_pay6 (F := F) (il 4))] (hr 4 4)) (loadIdx T ![(broadcast S16 4#32), (k0_pay7 (F := F) (il 5))] (hr 4 5)) (loadIdx T ![(broadcast S16 4#32), (k0_pay8 (F := F) (il 6))] (hr 4 6)) (loadIdx T ![(broadcast S16 4#32), (k0_pay9 (F := F) (il 7))] (hr 4 7)) (loadIdx T ![(broadcast S16 4#32), (k0_pay10 (F := F) (il 8))] (hr 4 8)) (loadIdx T ![(broadcast S16 4#32), (k0_pay11 (F := F) (il 9))] (hr 4 9)) (loadIdx T ![(broadcast S16 4#32), (k0_pay12 (F := F) (il 10))] (hr 4 10)) (loadIdx T ![(broadcast S16 4#32), (shapeCast S16 (il 11) shapeCasts_S1x16_S16)] (hr 4 11)) (loadIdx T ![(broadcast S16 4#32), (shapeCast S16 (il 12) shapeCasts_S1x16_S16)] (hr 4 12)) (loadIdx T ![(broadcast S16 4#32), (shapeCast S16 (il 13) shapeCasts_S1x16_S16)] (hr 4 13)) (loadIdx T ![(broadcast S16 4#32), (shapeCast S16 (il 14) shapeCasts_S1x16_S16)] (hr 4 14)) (loadIdx T ![(broadcast S16 4#32), (shapeCast S16 (il 15) shapeCasts_S1x16_S16)] (hr 4 15)) (k0_pay26 (F := F) (loadIdx T ![(broadcast S16 4#32), (k0_pay2 (F := F) (il 0))] (hr 4 0)) (loadIdx T ![(broadcast S16 4#32), (k0_pay3 (F := F) (il 1))] (hr 4 1))) (k0_pay27 (F := F) (loadIdx T ![(broadcast S16 4#32), (k0_pay4 (F := F) (il 2))] (hr 4 2)) (loadIdx T ![(broadcast S16 4#32), (k0_pay5 (F := F) (il 3))] (hr 4 3))) (o 4)) (k0_pay31 (F := F) (loadIdx T ![(broadcast S16 5#32), (k0_pay2 (F := F) (il 0))] (hr 5 0)) (loadIdx T ![(broadcast S16 5#32), (k0_pay3 (F := F) (il 1))] (hr 5 1)) (loadIdx T ![(broadcast S16 5#32), (k0_pay4 (F := F) (il 2))] (hr 5 2)) (loadIdx T ![(broadcast S16 5#32), (k0_pay5 (F := F) (il 3))] (hr 5 3)) (loadIdx T ![(broadcast S16 5#32), (k0_pay6 (F := F) (il 4))] (hr 5 4)) (loadIdx T ![(broadcast S16 5#32), (k0_pay7 (F := F) (il 5))] (hr 5 5)) (loadIdx T ![(broadcast S16 5#32), (k0_pay8 (F := F) (il 6))] (hr 5 6)) (loadIdx T ![(broadcast S16 5#32), (k0_pay9 (F := F) (il 7))] (hr 5 7))) (k0_pay32 (F := F) (loadIdx T ![(broadcast S16 5#32), (k0_pay10 (F := F) (il 8))] (hr 5 8)) (loadIdx T ![(broadcast S16 5#32), (k0_pay11 (F := F) (il 9))] (hr 5 9)) (loadIdx T ![(broadcast S16 5#32), (k0_pay12 (F := F) (il 10))] (hr 5 10)) (loadIdx T ![(broadcast S16 5#32), (shapeCast S16 (il 11) shapeCasts_S1x16_S16)] (hr 5 11)) (loadIdx T ![(broadcast S16 5#32), (shapeCast S16 (il 12) shapeCasts_S1x16_S16)] (hr 5 12)) (loadIdx T ![(broadcast S16 5#32), (shapeCast S16 (il 13) shapeCasts_S1x16_S16)] (hr 5 13)) (loadIdx T ![(broadcast S16 5#32), (shapeCast S16 (il 14) shapeCasts_S1x16_S16)] (hr 5 14)) (loadIdx T ![(broadcast S16 5#32), (shapeCast S16 (il 15) shapeCasts_S1x16_S16)] (hr 5 15))) (shapeCast S16 (o 5) shapeCasts_S1x16_S16) (loadIdx T ![(broadcast S16 6#32), (k0_pay10 (F := F) (il 8))] (hr 6 8)) (loadIdx T ![(broadcast S16 6#32), (k0_pay11 (F := F) (il 9))] (hr 6 9)) (loadIdx T ![(broadcast S16 6#32), (k0_pay12 (F := F) (il 10))] (hr 6 10)) (loadIdx T ![(broadcast S16 6#32), (shapeCast S16 (il 11) shapeCasts_S1x16_S16)] (hr 6 11)) (loadIdx T ![(broadcast S16 6#32), (shapeCast S16 (il 12) shapeCasts_S1x16_S16)] (hr 6 12)) (loadIdx T ![(broadcast S16 6#32), (shapeCast S16 (il 13) shapeCasts_S1x16_S16)] (hr 6 13)) (loadIdx T ![(broadcast S16 6#32), (shapeCast S16 (il 14) shapeCasts_S1x16_S16)] (hr 6 14)) (loadIdx T ![(broadcast S16 6#32), (shapeCast S16 (il 15) shapeCasts_S1x16_S16)] (hr 6 15)) (k0_pay34 (F := F) (loadIdx T ![(broadcast S16 6#32), (k0_pay2 (F := F) (il 0))] (hr 6 0)) (loadIdx T ![(broadcast S16 6#32), (k0_pay3 (F := F) (il 1))] (hr 6 1)) (loadIdx T ![(broadcast S16 6#32), (k0_pay4 (F := F) (il 2))] (hr 6 2)) (loadIdx T ![(broadcast S16 6#32), (k0_pay5 (F := F) (il 3))] (hr 6 3)) (loadIdx T ![(broadcast S16 6#32), (k0_pay6 (F := F) (il 4))] (hr 6 4)) (loadIdx T ![(broadcast S16 6#32), (k0_pay7 (F := F) (il 5))] (hr 6 5)) (loadIdx T ![(broadcast S16 6#32), (k0_pay8 (F := F) (il 6))] (hr 6 6)) (loadIdx T ![(broadcast S16 6#32), (k0_pay9 (F := F) (il 7))] (hr 6 7))) (shapeCast S16 (o 6) shapeCasts_S1x16_S16)) (loadIdx T ![(broadcast S16 7#32), (k0_pay10 (F := F) (il 8))] (hr 7 8)) (loadIdx T ![(broadcast S16 7#32), (k0_pay11 (F := F) (il 9))] (hr 7 9)) (loadIdx T ![(broadcast S16 7#32), (k0_pay12 (F := F) (il 10))] (hr 7 10)) (loadIdx T ![(broadcast S16 7#32), (shapeCast S16 (il 11) shapeCasts_S1x16_S16)] (hr 7 11)) (loadIdx T ![(broadcast S16 7#32), (shapeCast S16 (il 12) shapeCasts_S1x16_S16)] (hr 7 12)) (loadIdx T ![(broadcast S16 7#32), (shapeCast S16 (il 13) shapeCasts_S1x16_S16)] (hr 7 13)) (loadIdx T ![(broadcast S16 7#32), (shapeCast S16 (il 14) shapeCasts_S1x16_S16)] (hr 7 14)) (loadIdx T ![(broadcast S16 7#32), (shapeCast S16 (il 15) shapeCasts_S1x16_S16)] (hr 7 15)) (k0_pay36 (F := F) (loadIdx T ![(broadcast S16 7#32), (k0_pay2 (F := F) (il 0))] (hr 7 0)) (loadIdx T ![(broadcast S16 7#32), (k0_pay3 (F := F) (il 1))] (hr 7 1)) (loadIdx T ![(broadcast S16 7#32), (k0_pay4 (F := F) (il 2))] (hr 7 2)) (loadIdx T ![(broadcast S16 7#32), (k0_pay5 (F := F) (il 3))] (hr 7 3)) (loadIdx T ![(broadcast S16 7#32), (k0_pay6 (F := F) (il 4))] (hr 7 4)) (loadIdx T ![(broadcast S16 7#32), (k0_pay7 (F := F) (il 5))] (hr 7 5)) (loadIdx T ![(broadcast S16 7#32), (k0_pay8 (F := F) (il 6))] (hr 7 6)) (loadIdx T ![(broadcast S16 7#32), (k0_pay9 (F := F) (il 7))] (hr 7 7))) (shapeCast S16 (o 7) shapeCasts_S1x16_S16)) (loadIdx T ![(broadcast S16 8#32), (k0_pay2 (F := F) (il 0))] (hr 8 0)) (loadIdx T ![(broadcast S16 8#32), (k0_pay3 (F := F) (il 1))] (hr 8 1)) (loadIdx T ![(broadcast S16 8#32), (k0_pay4 (F := F) (il 2))] (hr 8 2)) (loadIdx T ![(broadcast S16 8#32), (k0_pay5 (F := F) (il 3))] (hr 8 3)) (loadIdx T ![(broadcast S16 8#32), (k0_pay6 (F := F) (il 4))] (hr 8 4)) (loadIdx T ![(broadcast S16 8#32), (k0_pay7 (F := F) (il 5))] (hr 8 5)) (loadIdx T ![(broadcast S16 8#32), (k0_pay8 (F := F) (il 6))] (hr 8 6)) (loadIdx T ![(broadcast S16 8#32), (k0_pay9 (F := F) (il 7))] (hr 8 7)) (loadIdx T ![(broadcast S16 8#32), (k0_pay10 (F := F) (il 8))] (hr 8 8)) (loadIdx T ![(broadcast S16 8#32), (k0_pay11 (F := F) (il 9))] (hr 8 9)) (loadIdx T ![(broadcast S16 8#32), (k0_pay12 (F := F) (il 10))] (hr 8 10)) (loadIdx T ![(broadcast S16 8#32), (shapeCast S16 (il 11) shapeCasts_S1x16_S16)] (hr 8 11)) (loadIdx T ![(broadcast S16 8#32), (shapeCast S16 (il 12) shapeCasts_S1x16_S16)] (hr 8 12)) (loadIdx T ![(broadcast S16 8#32), (shapeCast S16 (il 13) shapeCasts_S1x16_S16)] (hr 8 13)) (loadIdx T ![(broadcast S16 8#32), (shapeCast S16 (il 14) shapeCasts_S1x16_S16)] (hr 8 14)) (loadIdx T ![(broadcast S16 8#32), (shapeCast S16 (il 15) shapeCasts_S1x16_S16)] (hr 8 15)) (o 8)) (loadIdx T ![(broadcast S16 9#32), (k0_pay6 (F := F) (il 4))] (hr 9 4)) (loadIdx T ![(broadcast S16 9#32), (k0_pay7 (F := F) (il 5))] (hr 9 5)) (loadIdx T ![(broadcast S16 9#32), (k0_pay8 (F := F) (il 6))] (hr 9 6)) (loadIdx T ![(broadcast S16 9#32), (k0_pay9 (F := F) (il 7))] (hr 9 7)) (loadIdx T ![(broadcast S16 9#32), (k0_pay10 (F := F) (il 8))] (hr 9 8)) (loadIdx T ![(broadcast S16 9#32), (k0_pay11 (F := F) (il 9))] (hr 9 9)) (loadIdx T ![(broadcast S16 9#32), (k0_pay12 (F := F) (il 10))] (hr 9 10)) (loadIdx T ![(broadcast S16 9#32), (shapeCast S16 (il 11) shapeCasts_S1x16_S16)] (hr 9 11)) (loadIdx T ![(broadcast S16 9#32), (shapeCast S16 (il 12) shapeCasts_S1x16_S16)] (hr 9 12)) (loadIdx T ![(broadcast S16 9#32), (shapeCast S16 (il 13) shapeCasts_S1x16_S16)] (hr 9 13)) (loadIdx T ![(broadcast S16 9#32), (shapeCast S16 (il 14) shapeCasts_S1x16_S16)] (hr 9 14)) (loadIdx T ![(broadcast S16 9#32), (shapeCast S16 (il 15) shapeCasts_S1x16_S16)] (hr 9 15)) (k0_pay42 (F := F) (loadIdx T ![(broadcast S16 9#32), (k0_pay2 (F := F) (il 0))] (hr 9 0)) (loadIdx T ![(broadcast S16 9#32), (k0_pay3 (F := F) (il 1))] (hr 9 1))) (k0_pay43 (F := F) (loadIdx T ![(broadcast S16 9#32), (k0_pay4 (F := F) (il 2))] (hr 9 2)) (loadIdx T ![(broadcast S16 9#32), (k0_pay5 (F := F) (il 3))] (hr 9 3))) (o 9)) (k0_pay47 (F := F) (loadIdx T ![(broadcast S16 10#32), (k0_pay2 (F := F) (il 0))] (hr 10 0)) (loadIdx T ![(broadcast S16 10#32), (k0_pay3 (F := F) (il 1))] (hr 10 1)) (loadIdx T ![(broadcast S16 10#32), (k0_pay4 (F := F) (il 2))] (hr 10 2)) (loadIdx T ![(broadcast S16 10#32), (k0_pay5 (F := F) (il 3))] (hr 10 3)) (loadIdx T ![(broadcast S16 10#32), (k0_pay6 (F := F) (il 4))] (hr 10 4)) (loadIdx T ![(broadcast S16 10#32), (k0_pay7 (F := F) (il 5))] (hr 10 5)) (loadIdx T ![(broadcast S16 10#32), (k0_pay8 (F := F) (il 6))] (hr 10 6)) (loadIdx T ![(broadcast S16 10#32), (k0_pay9 (F := F) (il 7))] (hr 10 7))) (k0_pay48 (F := F) (loadIdx T ![(broadcast S16 10#32), (k0_pay10 (F := F) (il 8))] (hr 10 8)) (loadIdx T ![(broadcast S16 10#32), (k0_pay11 (F := F) (il 9))] (hr 10 9)) (loadIdx T ![(broadcast S16 10#32), (k0_pay12 (F := F) (il 10))] (hr 10 10)) (loadIdx T ![(broadcast S16 10#32), (shapeCast S16 (il 11) shapeCasts_S1x16_S16)] (hr 10 11)) (loadIdx T ![(broadcast S16 10#32), (shapeCast S16 (il 12) shapeCasts_S1x16_S16)] (hr 10 12)) (loadIdx T ![(broadcast S16 10#32), (shapeCast S16 (il 13) shapeCasts_S1x16_S16)] (hr 10 13)) (loadIdx T ![(broadcast S16 10#32), (shapeCast S16 (il 14) shapeCasts_S1x16_S16)] (hr 10 14)) (loadIdx T ![(broadcast S16 10#32), (shapeCast S16 (il 15) shapeCasts_S1x16_S16)] (hr 10 15))) (shapeCast S16 (o 10) shapeCasts_S1x16_S16) (loadIdx T ![(broadcast S16 11#32), (k0_pay10 (F := F) (il 8))] (hr 11 8)) (loadIdx T ![(broadcast S16 11#32), (k0_pay11 (F := F) (il 9))] (hr 11 9)) (loadIdx T ![(broadcast S16 11#32), (k0_pay12 (F := F) (il 10))] (hr 11 10)) (loadIdx T ![(broadcast S16 11#32), (shapeCast S16 (il 11) shapeCasts_S1x16_S16)] (hr 11 11)) (loadIdx T ![(broadcast S16 11#32), (shapeCast S16 (il 12) shapeCasts_S1x16_S16)] (hr 11 12)) (loadIdx T ![(broadcast S16 11#32), (shapeCast S16 (il 13) shapeCasts_S1x16_S16)] (hr 11 13)) (loadIdx T ![(broadcast S16 11#32), (shapeCast S16 (il 14) shapeCasts_S1x16_S16)] (hr 11 14)) (loadIdx T ![(broadcast S16 11#32), (shapeCast S16 (il 15) shapeCasts_S1x16_S16)] (hr 11 15)) (k0_pay50 (F := F) (loadIdx T ![(broadcast S16 11#32), (k0_pay2 (F := F) (il 0))] (hr 11 0)) (loadIdx T ![(broadcast S16 11#32), (k0_pay3 (F := F) (il 1))] (hr 11 1)) (loadIdx T ![(broadcast S16 11#32), (k0_pay4 (F := F) (il 2))] (hr 11 2)) (loadIdx T ![(broadcast S16 11#32), (k0_pay5 (F := F) (il 3))] (hr 11 3)) (loadIdx T ![(broadcast S16 11#32), (k0_pay6 (F := F) (il 4))] (hr 11 4)) (loadIdx T ![(broadcast S16 11#32), (k0_pay7 (F := F) (il 5))] (hr 11 5)) (loadIdx T ![(broadcast S16 11#32), (k0_pay8 (F := F) (il 6))] (hr 11 6)) (loadIdx T ![(broadcast S16 11#32), (k0_pay9 (F := F) (il 7))] (hr 11 7))) (shapeCast S16 (o 11) shapeCasts_S1x16_S16)) (loadIdx T ![(broadcast S16 12#32), (k0_pay10 (F := F) (il 8))] (hr 12 8)) (loadIdx T ![(broadcast S16 12#32), (k0_pay11 (F := F) (il 9))] (hr 12 9)) (loadIdx T ![(broadcast S16 12#32), (k0_pay12 (F := F) (il 10))] (hr 12 10)) (loadIdx T ![(broadcast S16 12#32), (shapeCast S16 (il 11) shapeCasts_S1x16_S16)] (hr 12 11)) (loadIdx T ![(broadcast S16 12#32), (shapeCast S16 (il 12) shapeCasts_S1x16_S16)] (hr 12 12)) (loadIdx T ![(broadcast S16 12#32), (shapeCast S16 (il 13) shapeCasts_S1x16_S16)] (hr 12 13)) (loadIdx T ![(broadcast S16 12#32), (shapeCast S16 (il 14) shapeCasts_S1x16_S16)] (hr 12 14)) (loadIdx T ![(broadcast S16 12#32), (shapeCast S16 (il 15) shapeCasts_S1x16_S16)] (hr 12 15)) (k0_pay52 (F := F) (loadIdx T ![(broadcast S16 12#32), (k0_pay2 (F := F) (il 0))] (hr 12 0)) (loadIdx T ![(broadcast S16 12#32), (k0_pay3 (F := F) (il 1))] (hr 12 1)) (loadIdx T ![(broadcast S16 12#32), (k0_pay4 (F := F) (il 2))] (hr 12 2)) (loadIdx T ![(broadcast S16 12#32), (k0_pay5 (F := F) (il 3))] (hr 12 3)) (loadIdx T ![(broadcast S16 12#32), (k0_pay6 (F := F) (il 4))] (hr 12 4)) (loadIdx T ![(broadcast S16 12#32), (k0_pay7 (F := F) (il 5))] (hr 12 5)) (loadIdx T ![(broadcast S16 12#32), (k0_pay8 (F := F) (il 6))] (hr 12 6)) (loadIdx T ![(broadcast S16 12#32), (k0_pay9 (F := F) (il 7))] (hr 12 7))) (shapeCast S16 (o 12) shapeCasts_S1x16_S16)) (loadIdx T ![(broadcast S16 13#32), (k0_pay2 (F := F) (il 0))] (hr 13 0)) (loadIdx T ![(broadcast S16 13#32), (k0_pay3 (F := F) (il 1))] (hr 13 1)) (loadIdx T ![(broadcast S16 13#32), (k0_pay4 (F := F) (il 2))] (hr 13 2)) (loadIdx T ![(broadcast S16 13#32), (k0_pay5 (F := F) (il 3))] (hr 13 3)) (loadIdx T ![(broadcast S16 13#32), (k0_pay6 (F := F) (il 4))] (hr 13 4)) (loadIdx T ![(broadcast S16 13#32), (k0_pay7 (F := F) (il 5))] (hr 13 5)) (loadIdx T ![(broadcast S16 13#32), (k0_pay8 (F := F) (il 6))] (hr 13 6)) (loadIdx T ![(broadcast S16 13#32), (k0_pay9 (F := F) (il 7))] (hr 13 7)) (loadIdx T ![(broadcast S16 13#32), (k0_pay10 (F := F) (il 8))] (hr 13 8)) (loadIdx T ![(broadcast S16 13#32), (k0_pay11 (F := F) (il 9))] (hr 13 9)) (loadIdx T ![(broadcast S16 13#32), (k0_pay12 (F := F) (il 10))] (hr 13 10)) (loadIdx T ![(broadcast S16 13#32), (shapeCast S16 (il 11) shapeCasts_S1x16_S16)] (hr 13 11)) (loadIdx T ![(broadcast S16 13#32), (shapeCast S16 (il 12) shapeCasts_S1x16_S16)] (hr 13 12)) (loadIdx T ![(broadcast S16 13#32), (shapeCast S16 (il 13) shapeCasts_S1x16_S16)] (hr 13 13)) (loadIdx T ![(broadcast S16 13#32), (shapeCast S16 (il 14) shapeCasts_S1x16_S16)] (hr 13 14)) (loadIdx T ![(broadcast S16 13#32), (shapeCast S16 (il 15) shapeCasts_S1x16_S16)] (hr 13 15)) (o 13)) (loadIdx T ![(broadcast S16 14#32), (k0_pay6 (F := F) (il 4))] (hr 14 4)) (loadIdx T ![(broadcast S16 14#32), (k0_pay7 (F := F) (il 5))] (hr 14 5)) (loadIdx T ![(broadcast S16 14#32), (k0_pay8 (F := F) (il 6))] (hr 14 6)) (loadIdx T ![(broadcast S16 14#32), (k0_pay9 (F := F) (il 7))] (hr 14 7)) (loadIdx T ![(broadcast S16 14#32), (k0_pay10 (F := F) (il 8))] (hr 14 8)) (loadIdx T ![(broadcast S16 14#32), (k0_pay11 (F := F) (il 9))] (hr 14 9)) (loadIdx T ![(broadcast S16 14#32), (k0_pay12 (F := F) (il 10))] (hr 14 10)) (loadIdx T ![(broadcast S16 14#32), (shapeCast S16 (il 11) shapeCasts_S1x16_S16)] (hr 14 11)) (loadIdx T ![(broadcast S16 14#32), (shapeCast S16 (il 12) shapeCasts_S1x16_S16)] (hr 14 12)) (loadIdx T ![(broadcast S16 14#32), (shapeCast S16 (il 13) shapeCasts_S1x16_S16)] (hr 14 13)) (loadIdx T ![(broadcast S16 14#32), (shapeCast S16 (il 14) shapeCasts_S1x16_S16)] (hr 14 14)) (loadIdx T ![(broadcast S16 14#32), (shapeCast S16 (il 15) shapeCasts_S1x16_S16)] (hr 14 15)) (k0_pay58 (F := F) (loadIdx T ![(broadcast S16 14#32), (k0_pay2 (F := F) (il 0))] (hr 14 0)) (loadIdx T ![(broadcast S16 14#32), (k0_pay3 (F := F) (il 1))] (hr 14 1))) (k0_pay59 (F := F) (loadIdx T ![(broadcast S16 14#32), (k0_pay4 (F := F) (il 2))] (hr 14 2)) (loadIdx T ![(broadcast S16 14#32), (k0_pay5 (F := F) (il 3))] (hr 14 3))) (o 14)) (k0_pay63 (F := F) (loadIdx T ![(broadcast S16 15#32), (k0_pay2 (F := F) (il 0))] (hr 15 0)) (loadIdx T ![(broadcast S16 15#32), (k0_pay3 (F := F) (il 1))] (hr 15 1)) (loadIdx T ![(broadcast S16 15#32), (k0_pay4 (F := F) (il 2))] (hr 15 2)) (loadIdx T ![(broadcast S16 15#32), (k0_pay5 (F := F) (il 3))] (hr 15 3)) (loadIdx T ![(broadcast S16 15#32), (k0_pay6 (F := F) (il 4))] (hr 15 4)) (loadIdx T ![(broadcast S16 15#32), (k0_pay7 (F := F) (il 5))] (hr 15 5)) (loadIdx T ![(broadcast S16 15#32), (k0_pay8 (F := F) (il 6))] (hr 15 6)) (loadIdx T ![(broadcast S16 15#32), (k0_pay9 (F := F) (il 7))] (hr 15 7))) (k0_pay64 (F := F) (loadIdx T ![(broadcast S16 15#32), (k0_pay10 (F := F) (il 8))] (hr 15 8)) (loadIdx T ![(broadcast S16 15#32), (k0_pay11 (F := F) (il 9))] (hr 15 9)) (loadIdx T ![(broadcast S16 15#32), (k0_pay12 (F := F) (il 10))] (hr 15 10)) (loadIdx T ![(broadcast S16 15#32), (shapeCast S16 (il 11) shapeCasts_S1x16_S16)] (hr 15 11)) (loadIdx T ![(broadcast S16 15#32), (shapeCast S16 (il 12) shapeCasts_S1x16_S16)] (hr 15 12)) (loadIdx T ![(broadcast S16 15#32), (shapeCast S16 (il 13) shapeCasts_S1x16_S16)] (hr 15 13)) (loadIdx T ![(broadcast S16 15#32), (shapeCast S16 (il 14) shapeCasts_S1x16_S16)] (hr 15 14)) (loadIdx T ![(broadcast S16 15#32), (shapeCast S16 (il 15) shapeCasts_S1x16_S16)] (hr 15 15))) (shapeCast S16 (o 15) shapeCasts_S1x16_S16) (loadIdx T ![(broadcast S16 16#32), (k0_pay10 (F := F) (il 8))] (hr 16 8)) (loadIdx T ![(broadcast S16 16#32), (k0_pay11 (F := F) (il 9))] (hr 16 9)) (loadIdx T ![(broadcast S16 16#32), (k0_pay12 (F := F) (il 10))] (hr 16 10)) (loadIdx T ![(broadcast S16 16#32), (shapeCast S16 (il 11) shapeCasts_S1x16_S16)] (hr 16 11)) (loadIdx T ![(broadcast S16 16#32), (shapeCast S16 (il 12) shapeCasts_S1x16_S16)] (hr 16 12)) (loadIdx T ![(broadcast S16 16#32), (shapeCast S16 (il 13) shapeCasts_S1x16_S16)] (hr 16 13)) (loadIdx T ![(broadcast S16 16#32), (shapeCast S16 (il 14) shapeCasts_S1x16_S16)] (hr 16 14)) (loadIdx T ![(broadcast S16 16#32), (shapeCast S16 (il 15) shapeCasts_S1x16_S16)] (hr 16 15)) (k0_pay66 (F := F) (loadIdx T ![(broadcast S16 16#32), (k0_pay2 (F := F) (il 0))] (hr 16 0)) (loadIdx T ![(broadcast S16 16#32), (k0_pay3 (F := F) (il 1))] (hr 16 1)) (loadIdx T ![(broadcast S16 16#32), (k0_pay4 (F := F) (il 2))] (hr 16 2)) (loadIdx T ![(broadcast S16 16#32), (k0_pay5 (F := F) (il 3))] (hr 16 3)) (loadIdx T ![(broadcast S16 16#32), (k0_pay6 (F := F) (il 4))] (hr 16 4)) (loadIdx T ![(broadcast S16 16#32), (k0_pay7 (F := F) (il 5))] (hr 16 5)) (loadIdx T ![(broadcast S16 16#32), (k0_pay8 (F := F) (il 6))] (hr 16 6)) (loadIdx T ![(broadcast S16 16#32), (k0_pay9 (F := F) (il 7))] (hr 16 7))) (shapeCast S16 (o 16) shapeCasts_S1x16_S16)) (loadIdx T ![(broadcast S16 17#32), (k0_pay10 (F := F) (il 8))] (hr 17 8)) (loadIdx T ![(broadcast S16 17#32), (k0_pay11 (F := F) (il 9))] (hr 17 9)) (loadIdx T ![(broadcast S16 17#32), (k0_pay12 (F := F) (il 10))] (hr 17 10)) (loadIdx T ![(broadcast S16 17#32), (shapeCast S16 (il 11) shapeCasts_S1x16_S16)] (hr 17 11)) (loadIdx T ![(broadcast S16 17#32), (shapeCast S16 (il 12) shapeCasts_S1x16_S16)] (hr 17 12)) (loadIdx T ![(broadcast S16 17#32), (shapeCast S16 (il 13) shapeCasts_S1x16_S16)] (hr 17 13)) (loadIdx T ![(broadcast S16 17#32), (shapeCast S16 (il 14) shapeCasts_S1x16_S16)] (hr 17 14)) (loadIdx T ![(broadcast S16 17#32), (shapeCast S16 (il 15) shapeCasts_S1x16_S16)] (hr 17 15)) (k0_pay68 (F := F) (loadIdx T ![(broadcast S16 17#32), (k0_pay2 (F := F) (il 0))] (hr 17 0)) (loadIdx T ![(broadcast S16 17#32), (k0_pay3 (F := F) (il 1))] (hr 17 1)) (loadIdx T ![(broadcast S16 17#32), (k0_pay4 (F := F) (il 2))] (hr 17 2)) (loadIdx T ![(broadcast S16 17#32), (k0_pay5 (F := F) (il 3))] (hr 17 3)) (loadIdx T ![(broadcast S16 17#32), (k0_pay6 (F := F) (il 4))] (hr 17 4)) (loadIdx T ![(broadcast S16 17#32), (k0_pay7 (F := F) (il 5))] (hr 17 5)) (loadIdx T ![(broadcast S16 17#32), (k0_pay8 (F := F) (il 6))] (hr 17 6)) (loadIdx T ![(broadcast S16 17#32), (k0_pay9 (F := F) (il 7))] (hr 17 7))) (shapeCast S16 (o 17) shapeCasts_S1x16_S16)) (loadIdx T ![(broadcast S16 18#32), (k0_pay2 (F := F) (il 0))] (hr 18 0)) (loadIdx T ![(broadcast S16 18#32), (k0_pay3 (F := F) (il 1))] (hr 18 1)) (loadIdx T ![(broadcast S16 18#32), (k0_pay4 (F := F) (il 2))] (hr 18 2)) (loadIdx T ![(broadcast S16 18#32), (k0_pay5 (F := F) (il 3))] (hr 18 3)) (loadIdx T ![(broadcast S16 18#32), (k0_pay6 (F := F) (il 4))] (hr 18 4)) (loadIdx T ![(broadcast S16 18#32), (k0_pay7 (F := F) (il 5))] (hr 18 5)) (loadIdx T ![(broadcast S16 18#32), (k0_pay8 (F := F) (il 6))] (hr 18 6)) (loadIdx T ![(broadcast S16 18#32), (k0_pay9 (F := F) (il 7))] (hr 18 7)) (loadIdx T ![(broadcast S16 18#32), (k0_pay10 (F := F) (il 8))] (hr 18 8)) (loadIdx T ![(broadcast S16 18#32), (k0_pay11 (F := F) (il 9))] (hr 18 9)) (loadIdx T ![(broadcast S16 18#32), (k0_pay12 (F := F) (il 10))] (hr 18 10)) (loadIdx T ![(broadcast S16 18#32), (shapeCast S16 (il 11) shapeCasts_S1x16_S16)] (hr 18 11)) (loadIdx T ![(broadcast S16 18#32), (shapeCast S16 (il 12) shapeCasts_S1x16_S16)] (hr 18 12)) (loadIdx T ![(broadcast S16 18#32), (shapeCast S16 (il 13) shapeCasts_S1x16_S16)] (hr 18 13)) (loadIdx T ![(broadcast S16 18#32), (shapeCast S16 (il 14) shapeCasts_S1x16_S16)] (hr 18 14)) (loadIdx T ![(broadcast S16 18#32), (shapeCast S16 (il 15) shapeCasts_S1x16_S16)] (hr 18 15)) (o 18)) (loadIdx T ![(broadcast S16 19#32), (k0_pay6 (F := F) (il 4))] (hr 19 4)) (loadIdx T ![(broadcast S16 19#32), (k0_pay7 (F := F) (il 5))] (hr 19 5)) (loadIdx T ![(broadcast S16 19#32), (k0_pay8 (F := F) (il 6))] (hr 19 6)) (loadIdx T ![(broadcast S16 19#32), (k0_pay9 (F := F) (il 7))] (hr 19 7)) (loadIdx T ![(broadcast S16 19#32), (k0_pay10 (F := F) (il 8))] (hr 19 8)) (loadIdx T ![(broadcast S16 19#32), (k0_pay11 (F := F) (il 9))] (hr 19 9)) (loadIdx T ![(broadcast S16 19#32), (k0_pay12 (F := F) (il 10))] (hr 19 10)) (loadIdx T ![(broadcast S16 19#32), (shapeCast S16 (il 11) shapeCasts_S1x16_S16)] (hr 19 11)) (loadIdx T ![(broadcast S16 19#32), (shapeCast S16 (il 12) shapeCasts_S1x16_S16)] (hr 19 12)) (loadIdx T ![(broadcast S16 19#32), (shapeCast S16 (il 13) shapeCasts_S1x16_S16)] (hr 19 13)) (loadIdx T ![(broadcast S16 19#32), (shapeCast S16 (il 14) shapeCasts_S1x16_S16)] (hr 19 14)) (loadIdx T ![(broadcast S16 19#32), (shapeCast S16 (il 15) shapeCasts_S1x16_S16)] (hr 19 15)) (k0_pay74 (F := F) (loadIdx T ![(broadcast S16 19#32), (k0_pay2 (F := F) (il 0))] (hr 19 0)) (loadIdx T ![(broadcast S16 19#32), (k0_pay3 (F := F) (il 1))] (hr 19 1))) (k0_pay75 (F := F) (loadIdx T ![(broadcast S16 19#32), (k0_pay4 (F := F) (il 2))] (hr 19 2)) (loadIdx T ![(broadcast S16 19#32), (k0_pay5 (F := F) (il 3))] (hr 19 3))) (o 19)) (k0_pay79 (F := F) (loadIdx T ![(broadcast S16 20#32), (k0_pay2 (F := F) (il 0))] (hr 20 0)) (loadIdx T ![(broadcast S16 20#32), (k0_pay3 (F := F) (il 1))] (hr 20 1)) (loadIdx T ![(broadcast S16 20#32), (k0_pay4 (F := F) (il 2))] (hr 20 2)) (loadIdx T ![(broadcast S16 20#32), (k0_pay5 (F := F) (il 3))] (hr 20 3)) (loadIdx T ![(broadcast S16 20#32), (k0_pay6 (F := F) (il 4))] (hr 20 4)) (loadIdx T ![(broadcast S16 20#32), (k0_pay7 (F := F) (il 5))] (hr 20 5)) (loadIdx T ![(broadcast S16 20#32), (k0_pay8 (F := F) (il 6))] (hr 20 6)) (loadIdx T ![(broadcast S16 20#32), (k0_pay9 (F := F) (il 7))] (hr 20 7))) (k0_pay80 (F := F) (loadIdx T ![(broadcast S16 20#32), (k0_pay10 (F := F) (il 8))] (hr 20 8)) (loadIdx T ![(broadcast S16 20#32), (k0_pay11 (F := F) (il 9))] (hr 20 9)) (loadIdx T ![(broadcast S16 20#32), (k0_pay12 (F := F) (il 10))] (hr 20 10)) (loadIdx T ![(broadcast S16 20#32), (shapeCast S16 (il 11) shapeCasts_S1x16_S16)] (hr 20 11)) (loadIdx T ![(broadcast S16 20#32), (shapeCast S16 (il 12) shapeCasts_S1x16_S16)] (hr 20 12)) (loadIdx T ![(broadcast S16 20#32), (shapeCast S16 (il 13) shapeCasts_S1x16_S16)] (hr 20 13)) (loadIdx T ![(broadcast S16 20#32), (shapeCast S16 (il 14) shapeCasts_S1x16_S16)] (hr 20 14)) (loadIdx T ![(broadcast S16 20#32), (shapeCast S16 (il 15) shapeCasts_S1x16_S16)] (hr 20 15))) (shapeCast S16 (o 20) shapeCasts_S1x16_S16) (loadIdx T ![(broadcast S16 21#32), (k0_pay10 (F := F) (il 8))] (hr 21 8)) (loadIdx T ![(broadcast S16 21#32), (k0_pay11 (F := F) (il 9))] (hr 21 9)) (loadIdx T ![(broadcast S16 21#32), (k0_pay12 (F := F) (il 10))] (hr 21 10)) (loadIdx T ![(broadcast S16 21#32), (shapeCast S16 (il 11) shapeCasts_S1x16_S16)] (hr 21 11)) (loadIdx T ![(broadcast S16 21#32), (shapeCast S16 (il 12) shapeCasts_S1x16_S16)] (hr 21 12)) (loadIdx T ![(broadcast S16 21#32), (shapeCast S16 (il 13) shapeCasts_S1x16_S16)] (hr 21 13)) (loadIdx T ![(broadcast S16 21#32), (shapeCast S16 (il 14) shapeCasts_S1x16_S16)] (hr 21 14)) (loadIdx T ![(broadcast S16 21#32), (shapeCast S16 (il 15) shapeCasts_S1x16_S16)] (hr 21 15)) (k0_pay82 (F := F) (loadIdx T ![(broadcast S16 21#32), (k0_pay2 (F := F) (il 0))] (hr 21 0)) (loadIdx T ![(broadcast S16 21#32), (k0_pay3 (F := F) (il 1))] (hr 21 1)) (loadIdx T ![(broadcast S16 21#32), (k0_pay4 (F := F) (il 2))] (hr 21 2)) (loadIdx T ![(broadcast S16 21#32), (k0_pay5 (F := F) (il 3))] (hr 21 3)) (loadIdx T ![(broadcast S16 21#32), (k0_pay6 (F := F) (il 4))] (hr 21 4)) (loadIdx T ![(broadcast S16 21#32), (k0_pay7 (F := F) (il 5))] (hr 21 5)) (loadIdx T ![(broadcast S16 21#32), (k0_pay8 (F := F) (il 6))] (hr 21 6)) (loadIdx T ![(broadcast S16 21#32), (k0_pay9 (F := F) (il 7))] (hr 21 7))) (shapeCast S16 (o 21) shapeCasts_S1x16_S16)) (loadIdx T ![(broadcast S16 22#32), (k0_pay10 (F := F) (il 8))] (hr 22 8)) (loadIdx T ![(broadcast S16 22#32), (k0_pay11 (F := F) (il 9))] (hr 22 9)) (loadIdx T ![(broadcast S16 22#32), (k0_pay12 (F := F) (il 10))] (hr 22 10)) (loadIdx T ![(broadcast S16 22#32), (shapeCast S16 (il 11) shapeCasts_S1x16_S16)] (hr 22 11)) (loadIdx T ![(broadcast S16 22#32), (shapeCast S16 (il 12) shapeCasts_S1x16_S16)] (hr 22 12)) (loadIdx T ![(broadcast S16 22#32), (shapeCast S16 (il 13) shapeCasts_S1x16_S16)] (hr 22 13)) (loadIdx T ![(broadcast S16 22#32), (shapeCast S16 (il 14) shapeCasts_S1x16_S16)] (hr 22 14)) (loadIdx T ![(broadcast S16 22#32), (shapeCast S16 (il 15) shapeCasts_S1x16_S16)] (hr 22 15)) (k0_pay84 (F := F) (loadIdx T ![(broadcast S16 22#32), (k0_pay2 (F := F) (il 0))] (hr 22 0)) (loadIdx T ![(broadcast S16 22#32), (k0_pay3 (F := F) (il 1))] (hr 22 1)) (loadIdx T ![(broadcast S16 22#32), (k0_pay4 (F := F) (il 2))] (hr 22 2)) (loadIdx T ![(broadcast S16 22#32), (k0_pay5 (F := F) (il 3))] (hr 22 3)) (loadIdx T ![(broadcast S16 22#32), (k0_pay6 (F := F) (il 4))] (hr 22 4)) (loadIdx T ![(broadcast S16 22#32), (k0_pay7 (F := F) (il 5))] (hr 22 5)) (loadIdx T ![(broadcast S16 22#32), (k0_pay8 (F := F) (il 6))] (hr 22 6)) (loadIdx T ![(broadcast S16 22#32), (k0_pay9 (F := F) (il 7))] (hr 22 7))) (shapeCast S16 (o 22) shapeCasts_S1x16_S16)) (loadIdx T ![(broadcast S16 23#32), (k0_pay2 (F := F) (il 0))] (hr 23 0)) (loadIdx T ![(broadcast S16 23#32), (k0_pay3 (F := F) (il 1))] (hr 23 1)) (loadIdx T ![(broadcast S16 23#32), (k0_pay4 (F := F) (il 2))] (hr 23 2)) (loadIdx T ![(broadcast S16 23#32), (k0_pay5 (F := F) (il 3))] (hr 23 3)) (loadIdx T ![(broadcast S16 23#32), (k0_pay6 (F := F) (il 4))] (hr 23 4)) (loadIdx T ![(broadcast S16 23#32), (k0_pay7 (F := F) (il 5))] (hr 23 5)) (loadIdx T ![(broadcast S16 23#32), (k0_pay8 (F := F) (il 6))] (hr 23 6)) (loadIdx T ![(broadcast S16 23#32), (k0_pay9 (F := F) (il 7))] (hr 23 7)) (loadIdx T ![(broadcast S16 23#32), (k0_pay10 (F := F) (il 8))] (hr 23 8)) (loadIdx T ![(broadcast S16 23#32), (k0_pay11 (F := F) (il 9))] (hr 23 9)) (loadIdx T ![(broadcast S16 23#32), (k0_pay12 (F := F) (il 10))] (hr 23 10)) (loadIdx T ![(broadcast S16 23#32), (shapeCast S16 (il 11) shapeCasts_S1x16_S16)] (hr 23 11)) (loadIdx T ![(broadcast S16 23#32), (shapeCast S16 (il 12) shapeCasts_S1x16_S16)] (hr 23 12)) (loadIdx T ![(broadcast S16 23#32), (shapeCast S16 (il 13) shapeCasts_S1x16_S16)] (hr 23 13)) (loadIdx T ![(broadcast S16 23#32), (shapeCast S16 (il 14) shapeCasts_S1x16_S16)] (hr 23 14)) (loadIdx T ![(broadcast S16 23#32), (shapeCast S16 (il 15) shapeCasts_S1x16_S16)] (hr 23 15)) (o 23)) (loadIdx T ![(broadcast S16 24#32), (k0_pay6 (F := F) (il 4))] (hr 24 4)) (loadIdx T ![(broadcast S16 24#32), (k0_pay7 (F := F) (il 5))] (hr 24 5)) (loadIdx T ![(broadcast S16 24#32), (k0_pay8 (F := F) (il 6))] (hr 24 6)) (loadIdx T ![(broadcast S16 24#32), (k0_pay9 (F := F) (il 7))] (hr 24 7)) (loadIdx T ![(broadcast S16 24#32), (k0_pay10 (F := F) (il 8))] (hr 24 8)) (loadIdx T ![(broadcast S16 24#32), (k0_pay11 (F := F) (il 9))] (hr 24 9)) (loadIdx T ![(broadcast S16 24#32), (k0_pay12 (F := F) (il 10))] (hr 24 10)) (loadIdx T ![(broadcast S16 24#32), (shapeCast S16 (il 11) shapeCasts_S1x16_S16)] (hr 24 11)) (loadIdx T ![(broadcast S16 24#32), (shapeCast S16 (il 12) shapeCasts_S1x16_S16)] (hr 24 12)) (loadIdx T ![(broadcast S16 24#32), (shapeCast S16 (il 13) shapeCasts_S1x16_S16)] (hr 24 13)) (loadIdx T ![(broadcast S16 24#32), (shapeCast S16 (il 14) shapeCasts_S1x16_S16)] (hr 24 14)) (loadIdx T ![(broadcast S16 24#32), (shapeCast S16 (il 15) shapeCasts_S1x16_S16)] (hr 24 15)) (k0_pay90 (F := F) (loadIdx T ![(broadcast S16 24#32), (k0_pay2 (F := F) (il 0))] (hr 24 0)) (loadIdx T ![(broadcast S16 24#32), (k0_pay3 (F := F) (il 1))] (hr 24 1))) (k0_pay91 (F := F) (loadIdx T ![(broadcast S16 24#32), (k0_pay4 (F := F) (il 2))] (hr 24 2)) (loadIdx T ![(broadcast S16 24#32), (k0_pay5 (F := F) (il 3))] (hr 24 3))) (o 24)) (k0_pay95 (F := F) (loadIdx T ![(broadcast S16 25#32), (k0_pay2 (F := F) (il 0))] (hr 25 0)) (loadIdx T ![(broadcast S16 25#32), (k0_pay3 (F := F) (il 1))] (hr 25 1)) (loadIdx T ![(broadcast S16 25#32), (k0_pay4 (F := F) (il 2))] (hr 25 2)) (loadIdx T ![(broadcast S16 25#32), (k0_pay5 (F := F) (il 3))] (hr 25 3)) (loadIdx T ![(broadcast S16 25#32), (k0_pay6 (F := F) (il 4))] (hr 25 4)) (loadIdx T ![(broadcast S16 25#32), (k0_pay7 (F := F) (il 5))] (hr 25 5)) (loadIdx T ![(broadcast S16 25#32), (k0_pay8 (F := F) (il 6))] (hr 25 6)) (loadIdx T ![(broadcast S16 25#32), (k0_pay9 (F := F) (il 7))] (hr 25 7))) (k0_pay96 (F := F) (loadIdx T ![(broadcast S16 25#32), (k0_pay10 (F := F) (il 8))] (hr 25 8)) (loadIdx T ![(broadcast S16 25#32), (k0_pay11 (F := F) (il 9))] (hr 25 9)) (loadIdx T ![(broadcast S16 25#32), (k0_pay12 (F := F) (il 10))] (hr 25 10)) (loadIdx T ![(broadcast S16 25#32), (shapeCast S16 (il 11) shapeCasts_S1x16_S16)] (hr 25 11)) (loadIdx T ![(broadcast S16 25#32), (shapeCast S16 (il 12) shapeCasts_S1x16_S16)] (hr 25 12)) (loadIdx T ![(broadcast S16 25#32), (shapeCast S16 (il 13) shapeCasts_S1x16_S16)] (hr 25 13)) (loadIdx T ![(broadcast S16 25#32), (shapeCast S16 (il 14) shapeCasts_S1x16_S16)] (hr 25 14)) (loadIdx T ![(broadcast S16 25#32), (shapeCast S16 (il 15) shapeCasts_S1x16_S16)] (hr 25 15))) (shapeCast S16 (o 25) shapeCasts_S1x16_S16) (loadIdx T ![(broadcast S16 26#32), (k0_pay10 (F := F) (il 8))] (hr 26 8)) (loadIdx T ![(broadcast S16 26#32), (k0_pay11 (F := F) (il 9))] (hr 26 9)) (loadIdx T ![(broadcast S16 26#32), (k0_pay12 (F := F) (il 10))] (hr 26 10)) (loadIdx T ![(broadcast S16 26#32), (shapeCast S16 (il 11) shapeCasts_S1x16_S16)] (hr 26 11)) (loadIdx T ![(broadcast S16 26#32), (shapeCast S16 (il 12) shapeCasts_S1x16_S16)] (hr 26 12)) (loadIdx T ![(broadcast S16 26#32), (shapeCast S16 (il 13) shapeCasts_S1x16_S16)] (hr 26 13)) (loadIdx T ![(broadcast S16 26#32), (shapeCast S16 (il 14) shapeCasts_S1x16_S16)] (hr 26 14)) (loadIdx T ![(broadcast S16 26#32), (shapeCast S16 (il 15) shapeCasts_S1x16_S16)] (hr 26 15)) (k0_pay98 (F := F) (loadIdx T ![(broadcast S16 26#32), (k0_pay2 (F := F) (il 0))] (hr 26 0)) (loadIdx T ![(broadcast S16 26#32), (k0_pay3 (F := F) (il 1))] (hr 26 1)) (loadIdx T ![(broadcast S16 26#32), (k0_pay4 (F := F) (il 2))] (hr 26 2)) (loadIdx T ![(broadcast S16 26#32), (k0_pay5 (F := F) (il 3))] (hr 26 3)) (loadIdx T ![(broadcast S16 26#32), (k0_pay6 (F := F) (il 4))] (hr 26 4)) (loadIdx T ![(broadcast S16 26#32), (k0_pay7 (F := F) (il 5))] (hr 26 5)) (loadIdx T ![(broadcast S16 26#32), (k0_pay8 (F := F) (il 6))] (hr 26 6)) (loadIdx T ![(broadcast S16 26#32), (k0_pay9 (F := F) (il 7))] (hr 26 7))) (shapeCast S16 (o 26) shapeCasts_S1x16_S16)) (loadIdx T ![(broadcast S16 27#32), (k0_pay10 (F := F) (il 8))] (hr 27 8)) (loadIdx T ![(broadcast S16 27#32), (k0_pay11 (F := F) (il 9))] (hr 27 9)) (loadIdx T ![(broadcast S16 27#32), (k0_pay12 (F := F) (il 10))] (hr 27 10)) (loadIdx T ![(broadcast S16 27#32), (shapeCast S16 (il 11) shapeCasts_S1x16_S16)] (hr 27 11)) (loadIdx T ![(broadcast S16 27#32), (shapeCast S16 (il 12) shapeCasts_S1x16_S16)] (hr 27 12)) (loadIdx T ![(broadcast S16 27#32), (shapeCast S16 (il 13) shapeCasts_S1x16_S16)] (hr 27 13)) (loadIdx T ![(broadcast S16 27#32), (shapeCast S16 (il 14) shapeCasts_S1x16_S16)] (hr 27 14)) (loadIdx T ![(broadcast S16 27#32), (shapeCast S16 (il 15) shapeCasts_S1x16_S16)] (hr 27 15)) (k0_pay100 (F := F) (loadIdx T ![(broadcast S16 27#32), (k0_pay2 (F := F) (il 0))] (hr 27 0)) (loadIdx T ![(broadcast S16 27#32), (k0_pay3 (F := F) (il 1))] (hr 27 1)) (loadIdx T ![(broadcast S16 27#32), (k0_pay4 (F := F) (il 2))] (hr 27 2)) (loadIdx T ![(broadcast S16 27#32), (k0_pay5 (F := F) (il 3))] (hr 27 3)) (loadIdx T ![(broadcast S16 27#32), (k0_pay6 (F := F) (il 4))] (hr 27 4)) (loadIdx T ![(broadcast S16 27#32), (k0_pay7 (F := F) (il 5))] (hr 27 5)) (loadIdx T ![(broadcast S16 27#32), (k0_pay8 (F := F) (il 6))] (hr 27 6)) (loadIdx T ![(broadcast S16 27#32), (k0_pay9 (F := F) (il 7))] (hr 27 7))) (shapeCast S16 (o 27) shapeCasts_S1x16_S16)) (loadIdx T ![(broadcast S16 28#32), (k0_pay2 (F := F) (il 0))] (hr 28 0)) (loadIdx T ![(broadcast S16 28#32), (k0_pay3 (F := F) (il 1))] (hr 28 1)) (loadIdx T ![(broadcast S16 28#32), (k0_pay4 (F := F) (il 2))] (hr 28 2)) (loadIdx T ![(broadcast S16 28#32), (k0_pay5 (F := F) (il 3))] (hr 28 3)) (loadIdx T ![(broadcast S16 28#32), (k0_pay6 (F := F) (il 4))] (hr 28 4)) (loadIdx T ![(broadcast S16 28#32), (k0_pay7 (F := F) (il 5))] (hr 28 5)) (loadIdx T ![(broadcast S16 28#32), (k0_pay8 (F := F) (il 6))] (hr 28 6)) (loadIdx T ![(broadcast S16 28#32), (k0_pay9 (F := F) (il 7))] (hr 28 7)) (loadIdx T ![(broadcast S16 28#32), (k0_pay10 (F := F) (il 8))] (hr 28 8)) (loadIdx T ![(broadcast S16 28#32), (k0_pay11 (F := F) (il 9))] (hr 28 9)) (loadIdx T ![(broadcast S16 28#32), (k0_pay12 (F := F) (il 10))] (hr 28 10)) (loadIdx T ![(broadcast S16 28#32), (shapeCast S16 (il 11) shapeCasts_S1x16_S16)] (hr 28 11)) (loadIdx T ![(broadcast S16 28#32), (shapeCast S16 (il 12) shapeCasts_S1x16_S16)] (hr 28 12)) (loadIdx T ![(broadcast S16 28#32), (shapeCast S16 (il 13) shapeCasts_S1x16_S16)] (hr 28 13)) (loadIdx T ![(broadcast S16 28#32), (shapeCast S16 (il 14) shapeCasts_S1x16_S16)] (hr 28 14)) (loadIdx T ![(broadcast S16 28#32), (shapeCast S16 (il 15) shapeCasts_S1x16_S16)] (hr 28 15)) (o 28)) (loadIdx T ![(broadcast S16 29#32), (k0_pay6 (F := F) (il 4))] (hr 29 4)) (loadIdx T ![(broadcast S16 29#32), (k0_pay7 (F := F) (il 5))] (hr 29 5)) (loadIdx T ![(broadcast S16 29#32), (k0_pay8 (F := F) (il 6))] (hr 29 6)) (loadIdx T ![(broadcast S16 29#32), (k0_pay9 (F := F) (il 7))] (hr 29 7)) (loadIdx T ![(broadcast S16 29#32), (k0_pay10 (F := F) (il 8))] (hr 29 8)) (loadIdx T ![(broadcast S16 29#32), (k0_pay11 (F := F) (il 9))] (hr 29 9)) (loadIdx T ![(broadcast S16 29#32), (k0_pay12 (F := F) (il 10))] (hr 29 10)) (loadIdx T ![(broadcast S16 29#32), (shapeCast S16 (il 11) shapeCasts_S1x16_S16)] (hr 29 11)) (loadIdx T ![(broadcast S16 29#32), (shapeCast S16 (il 12) shapeCasts_S1x16_S16)] (hr 29 12)) (loadIdx T ![(broadcast S16 29#32), (shapeCast S16 (il 13) shapeCasts_S1x16_S16)] (hr 29 13)) (loadIdx T ![(broadcast S16 29#32), (shapeCast S16 (il 14) shapeCasts_S1x16_S16)] (hr 29 14)) (loadIdx T ![(broadcast S16 29#32), (shapeCast S16 (il 15) shapeCasts_S1x16_S16)] (hr 29 15)) (k0_pay106 (F := F) (loadIdx T ![(broadcast S16 29#32), (k0_pay2 (F := F) (il 0))] (hr 29 0)) (loadIdx T ![(broadcast S16 29#32), (k0_pay3 (F := F) (il 1))] (hr 29 1))) (k0_pay107 (F := F) (loadIdx T ![(broadcast S16 29#32), (k0_pay4 (F := F) (il 2))] (hr 29 2)) (loadIdx T ![(broadcast S16 29#32), (k0_pay5 (F := F) (il 3))] (hr 29 3))) (o 29)) (k0_pay111 (F := F) (loadIdx T ![(broadcast S16 30#32), (k0_pay2 (F := F) (il 0))] (hr 30 0)) (loadIdx T ![(broadcast S16 30#32), (k0_pay3 (F := F) (il 1))] (hr 30 1)) (loadIdx T ![(broadcast S16 30#32), (k0_pay4 (F := F) (il 2))] (hr 30 2)) (loadIdx T ![(broadcast S16 30#32), (k0_pay5 (F := F) (il 3))] (hr 30 3)) (loadIdx T ![(broadcast S16 30#32), (k0_pay6 (F := F) (il 4))] (hr 30 4)) (loadIdx T ![(broadcast S16 30#32), (k0_pay7 (F := F) (il 5))] (hr 30 5)) (loadIdx T ![(broadcast S16 30#32), (k0_pay8 (F := F) (il 6))] (hr 30 6)) (loadIdx T ![(broadcast S16 30#32), (k0_pay9 (F := F) (il 7))] (hr 30 7))) (k0_pay112 (F := F) (loadIdx T ![(broadcast S16 30#32), (k0_pay10 (F := F) (il 8))] (hr 30 8)) (loadIdx T ![(broadcast S16 30#32), (k0_pay11 (F := F) (il 9))] (hr 30 9)) (loadIdx T ![(broadcast S16 30#32), (k0_pay12 (F := F) (il 10))] (hr 30 10)) (loadIdx T ![(broadcast S16 30#32), (shapeCast S16 (il 11) shapeCasts_S1x16_S16)] (hr 30 11)) (loadIdx T ![(broadcast S16 30#32), (shapeCast S16 (il 12) shapeCasts_S1x16_S16)] (hr 30 12)) (loadIdx T ![(broadcast S16 30#32), (shapeCast S16 (il 13) shapeCasts_S1x16_S16)] (hr 30 13)) (loadIdx T ![(broadcast S16 30#32), (shapeCast S16 (il 14) shapeCasts_S1x16_S16)] (hr 30 14)) (loadIdx T ![(broadcast S16 30#32), (shapeCast S16 (il 15) shapeCasts_S1x16_S16)] (hr 30 15))) (shapeCast S16 (o 30) shapeCasts_S1x16_S16) (loadIdx T ![(broadcast S16 31#32), (k0_pay10 (F := F) (il 8))] (hr 31 8)) (loadIdx T ![(broadcast S16 31#32), (k0_pay11 (F := F) (il 9))] (hr 31 9)) (loadIdx T ![(broadcast S16 31#32), (k0_pay12 (F := F) (il 10))] (hr 31 10)) (loadIdx T ![(broadcast S16 31#32), (shapeCast S16 (il 11) shapeCasts_S1x16_S16)] (hr 31 11)) (loadIdx T ![(broadcast S16 31#32), (shapeCast S16 (il 12) shapeCasts_S1x16_S16)] (hr 31 12)) (loadIdx T ![(broadcast S16 31#32), (shapeCast S16 (il 13) shapeCasts_S1x16_S16)] (hr 31 13)) (loadIdx T ![(broadcast S16 31#32), (shapeCast S16 (il 14) shapeCasts_S1x16_S16)] (hr 31 14)) (loadIdx T ![(broadcast S16 31#32), (shapeCast S16 (il 15) shapeCasts_S1x16_S16)] (hr 31 15)) (k0_pay114 (F := F) (loadIdx T ![(broadcast S16 31#32), (k0_pay2 (F := F) (il 0))] (hr 31 0)) (loadIdx T ![(broadcast S16 31#32), (k0_pay3 (F := F) (il 1))] (hr 31 1)) (loadIdx T ![(broadcast S16 31#32), (k0_pay4 (F := F) (il 2))] (hr 31 2)) (loadIdx T ![(broadcast S16 31#32), (k0_pay5 (F := F) (il 3))] (hr 31 3)) (loadIdx T ![(broadcast S16 31#32), (k0_pay6 (F := F) (il 4))] (hr 31 4)) (loadIdx T ![(broadcast S16 31#32), (k0_pay7 (F := F) (il 5))] (hr 31 5)) (loadIdx T ![(broadcast S16 31#32), (k0_pay8 (F := F) (il 6))] (hr 31 6)) (loadIdx T ![(broadcast S16 31#32), (k0_pay9 (F := F) (il 7))] (hr 31 7))) (shapeCast S16 (o 31) shapeCasts_S1x16_S16))
      = ivGs o il T hr := rfl

end Generic

/-! ## At the scratches' contents -/

local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)

variable (tbl : Vec F S32x2048 .f32) (idx : Vec F S16x2048 .i32) (qb : Vec F S32x16 .f32) (k : Fin k0_t1_loop.trips)

/-- The sixteen lanes 16k .. 16k+15 of row dd of the table scratch. -/
def ownLd : Fin 32 → Vec F S1x16 .f32
  | 0 => (s7).view.readAt (Elt F) (Rect.unit (s := S32x2048) (k0_off20 k) S1x16.size (k0_off20_inb k)).toLoadRect tbl
  | 1 => (s7).view.readAt (Elt F) (Rect.unit (s := S32x2048) (k0_off21 k) S1x16.size (k0_off21_inb k)).toLoadRect tbl
  | 2 => (s7).view.readAt (Elt F) (Rect.unit (s := S32x2048) (k0_off22 k) S1x16.size (k0_off22_inb k)).toLoadRect tbl
  | 3 => (s7).view.readAt (Elt F) (Rect.unit (s := S32x2048) (k0_off23 k) S1x16.size (k0_off23_inb k)).toLoadRect tbl
  | 4 => (s7).view.readAt (Elt F) (Rect.unit (s := S32x2048) (k0_off24 k) S1x16.size (k0_off24_inb k)).toLoadRect tbl
  | 5 => (s7).view.readAt (Elt F) (Rect.unit (s := S32x2048) (k0_off25 k) S1x16.size (k0_off25_inb k)).toLoadRect tbl
  | 6 => (s7).view.readAt (Elt F) (Rect.unit (s := S32x2048) (k0_off26 k) S1x16.size (k0_off26_inb k)).toLoadRect tbl
  | 7 => (s7).view.readAt (Elt F) (Rect.unit (s := S32x2048) (k0_off27 k) S1x16.size (k0_off27_inb k)).toLoadRect tbl
  | 8 => (s7).view.readAt (Elt F) (Rect.unit (s := S32x2048) (k0_off28 k) S1x16.size (k0_off28_inb k)).toLoadRect tbl
  | 9 => (s7).view.readAt (Elt F) (Rect.unit (s := S32x2048) (k0_off29 k) S1x16.size (k0_off29_inb k)).toLoadRect tbl
  | 10 => (s7).view.readAt (Elt F) (Rect.unit (s := S32x2048) (k0_off30 k) S1x16.size (k0_off30_inb k)).toLoadRect tbl
  | 11 => (s7).view.readAt (Elt F) (Rect.unit (s := S32x2048) (k0_off31 k) S1x16.size (k0_off31_inb k)).toLoadRect tbl
  | 12 => (s7).view.readAt (Elt F) (Rect.unit (s := S32x2048) (k0_off32 k) S1x16.size (k0_off32_inb k)).toLoadRect tbl
  | 13 => (s7).view.readAt (Elt F) (Rect.unit (s := S32x2048) (k0_off33 k) S1x16.size (k0_off33_inb k)).toLoadRect tbl
  | 14 => (s7).view.readAt (Elt F) (Rect.unit (s := S32x2048) (k0_off34 k) S1x16.size (k0_off34_inb k)).toLoadRect tbl
  | 15 => (s7).view.readAt (Elt F) (Rect.unit (s := S32x2048) (k0_off35 k) S1x16.size (k0_off35_inb k)).toLoadRect tbl
  | 16 => (s7).view.readAt (Elt F) (Rect.unit (s := S32x2048) (k0_off36 k) S1x16.size (k0_off36_inb k)).toLoadRect tbl
  | 17 => (s7).view.readAt (Elt F) (Rect.unit (s := S32x2048) (k0_off37 k) S1x16.size (k0_off37_inb k)).toLoadRect tbl
  | 18 => (s7).view.readAt (Elt F) (Rect.unit (s := S32x2048) (k0_off38 k) S1x16.size (k0_off38_inb k)).toLoadRect tbl
  | 19 => (s7).view.readAt (Elt F) (Rect.unit (s := S32x2048) (k0_off39 k) S1x16.size (k0_off39_inb k)).toLoadRect tbl
  | 20 => (s7).view.readAt (Elt F) (Rect.unit (s := S32x2048) (k0_off40 k) S1x16.size (k0_off40_inb k)).toLoadRect tbl
  | 21 => (s7).view.readAt (Elt F) (Rect.unit (s := S32x2048) (k0_off41 k) S1x16.size (k0_off41_inb k)).toLoadRect tbl
  | 22 => (s7).view.readAt (Elt F) (Rect.unit (s := S32x2048) (k0_off42 k) S1x16.size (k0_off42_inb k)).toLoadRect tbl
  | 23 => (s7).view.readAt (Elt F) (Rect.unit (s := S32x2048) (k0_off43 k) S1x16.size (k0_off43_inb k)).toLoadRect tbl
  | 24 => (s7).view.readAt (Elt F) (Rect.unit (s := S32x2048) (k0_off44 k) S1x16.size (k0_off44_inb k)).toLoadRect tbl
  | 25 => (s7).view.readAt (Elt F) (Rect.unit (s := S32x2048) (k0_off45 k) S1x16.size (k0_off45_inb k)).toLoadRect tbl
  | 26 => (s7).view.readAt (Elt F) (Rect.unit (s := S32x2048) (k0_off46 k) S1x16.size (k0_off46_inb k)).toLoadRect tbl
  | 27 => (s7).view.readAt (Elt F) (Rect.unit (s := S32x2048) (k0_off47 k) S1x16.size (k0_off47_inb k)).toLoadRect tbl
  | 28 => (s7).view.readAt (Elt F) (Rect.unit (s := S32x2048) (k0_off48 k) S1x16.size (k0_off48_inb k)).toLoadRect tbl
  | 29 => (s7).view.readAt (Elt F) (Rect.unit (s := S32x2048) (k0_off49 k) S1x16.size (k0_off49_inb k)).toLoadRect tbl
  | 30 => (s7).view.readAt (Elt F) (Rect.unit (s := S32x2048) (k0_off50 k) S1x16.size (k0_off50_inb k)).toLoadRect tbl
  | 31 => (s7).view.readAt (Elt F) (Rect.unit (s := S32x2048) (k0_off51 k) S1x16.size (k0_off51_inb k)).toLoadRect tbl
  | ⟨_ + 32, h⟩ => absurd h (Nat.not_lt.2 (Nat.le_add_left _ _))
/-- Row dd of the query scratch. -/
def qLd : Fin 32 → Vec F S1x16 .f32
  | 0 => (s9).view.readAt (Elt F) (Rect.unit (s := S32x16) ![0, 0] S1x16.size inb_S32x16_S1x16_0_0).toLoadRect qb
  | 1 => (s9).view.readAt (Elt F) (Rect.unit (s := S32x16) ![1, 0] S1x16.size inb_S32x16_S1x16_1_0).toLoadRect qb
  | 2 => (s9).view.readAt (Elt F) (Rect.unit (s := S32x16) ![2, 0] S1x16.size inb_S32x16_S1x16_2_0).toLoadRect qb
  | 3 => (s9).view.readAt (Elt F) (Rect.unit (s := S32x16) ![3, 0] S1x16.size inb_S32x16_S1x16_3_0).toLoadRect qb
  | 4 => (s9).view.readAt (Elt F) (Rect.unit (s := S32x16) ![4, 0] S1x16.size inb_S32x16_S1x16_4_0).toLoadRect qb
  | 5 => (s9).view.readAt (Elt F) (Rect.unit (s := S32x16) ![5, 0] S1x16.size inb_S32x16_S1x16_5_0).toLoadRect qb
  | 6 => (s9).view.readAt (Elt F) (Rect.unit (s := S32x16) ![6, 0] S1x16.size inb_S32x16_S1x16_6_0).toLoadRect qb
  | 7 => (s9).view.readAt (Elt F) (Rect.unit (s := S32x16) ![7, 0] S1x16.size inb_S32x16_S1x16_7_0).toLoadRect qb
  | 8 => (s9).view.readAt (Elt F) (Rect.unit (s := S32x16) ![8, 0] S1x16.size inb_S32x16_S1x16_8_0).toLoadRect qb
  | 9 => (s9).view.readAt (Elt F) (Rect.unit (s := S32x16) ![9, 0] S1x16.size inb_S32x16_S1x16_9_0).toLoadRect qb
  | 10 => (s9).view.readAt (Elt F) (Rect.unit (s := S32x16) ![10, 0] S1x16.size inb_S32x16_S1x16_10_0).toLoadRect qb
  | 11 => (s9).view.readAt (Elt F) (Rect.unit (s := S32x16) ![11, 0] S1x16.size inb_S32x16_S1x16_11_0).toLoadRect qb
  | 12 => (s9).view.readAt (Elt F) (Rect.unit (s := S32x16) ![12, 0] S1x16.size inb_S32x16_S1x16_12_0).toLoadRect qb
  | 13 => (s9).view.readAt (Elt F) (Rect.unit (s := S32x16) ![13, 0] S1x16.size inb_S32x16_S1x16_13_0).toLoadRect qb
  | 14 => (s9).view.readAt (Elt F) (Rect.unit (s := S32x16) ![14, 0] S1x16.size inb_S32x16_S1x16_14_0).toLoadRect qb
  | 15 => (s9).view.readAt (Elt F) (Rect.unit (s := S32x16) ![15, 0] S1x16.size inb_S32x16_S1x16_15_0).toLoadRect qb
  | 16 => (s9).view.readAt (Elt F) (Rect.unit (s := S32x16) ![16, 0] S1x16.size inb_S32x16_S1x16_16_0).toLoadRect qb
  | 17 => (s9).view.readAt (Elt F) (Rect.unit (s := S32x16) ![17, 0] S1x16.size inb_S32x16_S1x16_17_0).toLoadRect qb
  | 18 => (s9).view.readAt (Elt F) (Rect.unit (s := S32x16) ![18, 0] S1x16.size inb_S32x16_S1x16_18_0).toLoadRect qb
  | 19 => (s9).view.readAt (Elt F) (Rect.unit (s := S32x16) ![19, 0] S1x16.size inb_S32x16_S1x16_19_0).toLoadRect qb
  | 20 => (s9).view.readAt (Elt F) (Rect.unit (s := S32x16) ![20, 0] S1x16.size inb_S32x16_S1x16_20_0).toLoadRect qb
  | 21 => (s9).view.readAt (Elt F) (Rect.unit (s := S32x16) ![21, 0] S1x16.size inb_S32x16_S1x16_21_0).toLoadRect qb
  | 22 => (s9).view.readAt (Elt F) (Rect.unit (s := S32x16) ![22, 0] S1x16.size inb_S32x16_S1x16_22_0).toLoadRect qb
  | 23 => (s9).view.readAt (Elt F) (Rect.unit (s := S32x16) ![23, 0] S1x16.size inb_S32x16_S1x16_23_0).toLoadRect qb
  | 24 => (s9).view.readAt (Elt F) (Rect.unit (s := S32x16) ![24, 0] S1x16.size inb_S32x16_S1x16_24_0).toLoadRect qb
  | 25 => (s9).view.readAt (Elt F) (Rect.unit (s := S32x16) ![25, 0] S1x16.size inb_S32x16_S1x16_25_0).toLoadRect qb
  | 26 => (s9).view.readAt (Elt F) (Rect.unit (s := S32x16) ![26, 0] S1x16.size inb_S32x16_S1x16_26_0).toLoadRect qb
  | 27 => (s9).view.readAt (Elt F) (Rect.unit (s := S32x16) ![27, 0] S1x16.size inb_S32x16_S1x16_27_0).toLoadRect qb
  | 28 => (s9).view.readAt (Elt F) (Rect.unit (s := S32x16) ![28, 0] S1x16.size inb_S32x16_S1x16_28_0).toLoadRect qb
  | 29 => (s9).view.readAt (Elt F) (Rect.unit (s := S32x16) ![29, 0] S1x16.size inb_S32x16_S1x16_29_0).toLoadRect qb
  | 30 => (s9).view.readAt (Elt F) (Rect.unit (s := S32x16) ![30, 0] S1x16.size inb_S32x16_S1x16_30_0).toLoadRect qb
  | 31 => (s9).view.readAt (Elt F) (Rect.unit (s := S32x16) ![31, 0] S1x16.size inb_S32x16_S1x16_31_0).toLoadRect qb
  | ⟨_ + 32, h⟩ => absurd h (Nat.not_lt.2 (Nat.le_add_left _ _))
/-- The sixteen lanes 16k .. 16k+15 of row j of the index scratch. -/
def idxLd : Fin 16 → Vec F S1x16 .i32
  | 0 => (s8).view.readAt (Elt F) (Rect.unit (s := S16x2048) (k0_off4 k) S1x16.size (k0_off4_inb k)).toLoadRect idx
  | 1 => (s8).view.readAt (Elt F) (Rect.unit (s := S16x2048) (k0_off5 k) S1x16.size (k0_off5_inb k)).toLoadRect idx
  | 2 => (s8).view.readAt (Elt F) (Rect.unit (s := S16x2048) (k0_off6 k) S1x16.size (k0_off6_inb k)).toLoadRect idx
  | 3 => (s8).view.readAt (Elt F) (Rect.unit (s := S16x2048) (k0_off7 k) S1x16.size (k0_off7_inb k)).toLoadRect idx
  | 4 => (s8).view.readAt (Elt F) (Rect.unit (s := S16x2048) (k0_off8 k) S1x16.size (k0_off8_inb k)).toLoadRect idx
  | 5 => (s8).view.readAt (Elt F) (Rect.unit (s := S16x2048) (k0_off9 k) S1x16.size (k0_off9_inb k)).toLoadRect idx
  | 6 => (s8).view.readAt (Elt F) (Rect.unit (s := S16x2048) (k0_off10 k) S1x16.size (k0_off10_inb k)).toLoadRect idx
  | 7 => (s8).view.readAt (Elt F) (Rect.unit (s := S16x2048) (k0_off11 k) S1x16.size (k0_off11_inb k)).toLoadRect idx
  | 8 => (s8).view.readAt (Elt F) (Rect.unit (s := S16x2048) (k0_off12 k) S1x16.size (k0_off12_inb k)).toLoadRect idx
  | 9 => (s8).view.readAt (Elt F) (Rect.unit (s := S16x2048) (k0_off13 k) S1x16.size (k0_off13_inb k)).toLoadRect idx
  | 10 => (s8).view.readAt (Elt F) (Rect.unit (s := S16x2048) (k0_off14 k) S1x16.size (k0_off14_inb k)).toLoadRect idx
  | 11 => (s8).view.readAt (Elt F) (Rect.unit (s := S16x2048) (k0_off15 k) S1x16.size (k0_off15_inb k)).toLoadRect idx
  | 12 => (s8).view.readAt (Elt F) (Rect.unit (s := S16x2048) (k0_off16 k) S1x16.size (k0_off16_inb k)).toLoadRect idx
  | 13 => (s8).view.readAt (Elt F) (Rect.unit (s := S16x2048) (k0_off17 k) S1x16.size (k0_off17_inb k)).toLoadRect idx
  | 14 => (s8).view.readAt (Elt F) (Rect.unit (s := S16x2048) (k0_off18 k) S1x16.size (k0_off18_inb k)).toLoadRect idx
  | 15 => (s8).view.readAt (Elt F) (Rect.unit (s := S16x2048) (k0_off19 k) S1x16.size (k0_off19_inb k)).toLoadRect idx
  | ⟨_ + 16, h⟩ => absurd h (Nat.not_lt.2 (Nat.le_add_left _ _))

/-- The table scratch read whole. -/
abbrev tblR : Vec F S32x2048 .f32 := View.read (Elt F) ((s7).access (Rect.whole S32x2048)) tbl

/-- Every gather of trip k reads inside the table. -/
abbrev InRange : Prop := InRangeG (F := F) (idxLd idx k)

/-- The context vector trip k stores. -/
def cvSpec : FVec F S16 .f32 := cvG (ownLd tbl k) (qLd qb)
/-- The interference vector trip k stores. -/
def ivSpec (hr : InRange idx k) : FVec F S16 .f32 := ivGs (ownLd tbl k) (idxLd idx k) (tblR tbl) hr

theorem cvSpec_eq : cvSpec tbl qb k = cvG (ownLd tbl k) (qLd qb) := rfl
theorem ivSpec_eq (hr : InRange idx k) : ivSpec tbl idx k hr = ivGs (ownLd tbl k) (idxLd idx k) (tblR tbl) hr := rfl

end Cert.KernelIdeal.TripValue

end
-- ==== Proof.ValArr.lean ====
/-
  The two arrays the SparseCore call leaves, as whole-array functions of its three operand arrays: entry (w, n) is the trip
  value of group n / 16 at lane n % 16, computed from row w of the table operand, batch w / 4 of the index operand and row w of
  the query operand. Each task's row is a piece of these.
-/
import proofs.«209090_g87076166960129_cont_sun_c4_39_31_alg».proof.Proof.TripValue
import Idealize.ShloMosaic.Lib.ValueIdx

noncomputable section

namespace Cert.KernelIdeal.ValArr

open Cert.KernelIdeal Cert.KernelIdeal.Gen Cert.KernelIdeal.TripValue
open Idealize.ShloMosaic Idealize.ShloMosaic.ValueIdx

variable {F : FTy → Type} [FloatOps F]

/-- Row `w` of the table operand [32, 32, 2048], as a task's table scratch holds it. -/
def tblRow (c2 : Vec F S32x32x2048 .f32) (w : Fin 32) : Vec F S32x2048 .f32 := fun i => c2 (ix3 w (i 0) (i 1))
/-- Batch `b` of the index operand [8, 16, 2048]. -/
def idxRow (c3 : Vec F S8x16x2048 .i32) (b : Fin 8) : Vec F S16x2048 .i32 := fun i => c3 (ix3 b (i 0) (i 1))
/-- Row `w` of the query operand [32, 32, 16]. -/
def qbRow (c5 : Vec F S32x32x16 .f32) (w : Fin 32) : Vec F S32x16 .f32 := fun i => c5 (ix3 w (i 0) (i 1))

theorem trips_128 : k0_t1_loop.trips = 128 := by decide

/-- The group a node falls in, as a trip of the loop. -/
def grp (n : Fin 2048) : Fin k0_t1_loop.trips := ⟨n.val / 16, by rw [trips_128]; omega⟩
/-- Its lane in the group. -/
def lane (n : Fin 2048) : Fin 16 := ⟨n.val % 16, Nat.mod_lt _ (by decide)⟩
/-- The batch of a row. -/
def batchOf (w : Fin 32) : Fin 8 := ⟨w.val / 4, by omega⟩

/-- The context partial scores, whole. -/
def cvArr (c2 : Vec F S32x32x2048 .f32) (c5 : Vec F S32x32x16 .f32) : FVec F S32x2048 .f32 :=
  fun i => cvSpec (tblRow c2 (i 0)) (qbRow c5 (i 0)) (grp (i 1)) (ix1 (lane (i 1)))

/-- The interference partial scores, whole, given that every index word names a column. -/
def ivArr (c2 : Vec F S32x32x2048 .f32) (c3 : Vec F S8x16x2048 .i32) (hr : ∀ (b : Fin 8) k, InRange (F := F) (idxRow c3 b) k) :
    FVec F S32x2048 .f32 :=
  fun i => ivSpec (tblRow c2 (i 0)) (idxRow c3 (batchOf (i 0))) (grp (i 1)) (hr (batchOf (i 0)) (grp (i 1))) (ix1 (lane (i 1)))

end Cert.KernelIdeal.ValArr

end
-- ==== Proof.LaunchPayV.lean ====
/- What the one SparseCore call's handshakes carry when the results are followed: out, as before — read shares of the three
   operand arrays and the result arrays' rows at whatever they hold —; back, each task's two rows at the contents the task
   computes, pieces of two whole-array functions of the operands, so that the 32 rows of a result array rejoin to the whole
   array at that function. -/
import proofs.«209090_g87076166960129_cont_sun_c4_39_31_alg».proof.Proof.LaunchPay
import proofs.«209090_g87076166960129_cont_sun_c4_39_31_alg».proof.Proof.ValArr

noncomputable section

namespace Cert.KernelIdeal.Launch

open Cert.KernelIdeal Cert.KernelIdeal.Gen Cert.KernelIdeal.Setup Cert.KernelIdeal.TileRes Cert.KernelIdeal.TileSpec
open Cert.KernelIdeal.TripValue Cert.KernelIdeal.ValArr
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (c2 : (d : Dev nD) → Buf (Elt F) (v2Loc d)) (c3 : (d : Dev nD) → Buf (Elt F) (v3Loc d))
  (c5 : (d : Dev nD) → Buf (Elt F) (v5Loc d))
  (hr : ∀ (d : Dev nD) (b : Fin 8) k, InRange (F := F) (idxRow (c3 d) b) k)

/-- The two result arrays' contents after the call, on device `d`. -/
abbrev cvAt (d : Dev nD) : Buf (Elt F) (o5Loc d) := cvArr (c2 d) (c5 d)
abbrev ivAt (d : Dev nD) : Buf (Elt F) (o6Loc d) := ivArr (c2 d) (c3 d) (hr d)

/-- What the task on SparseCore c, subcore i hands back: its read shares, and its row of each result array at the
    contents computed. -/
def tileResV (d : Dev nD) (c : Fin 2) (i : Fin 16) : sProp 𝕄 :=
  iprop((v2Loc d ↦{qT c i} c2 d) ∗ (v3Loc d ↦{qT c i} c3 d) ∗ (v5Loc d ↦{qT c i} c5 d)
    ∗ (o5Loc d ↦[outSet5 (coordsV c i)]{fullShare} cvAt c2 c5 d) ∗ (o6Loc d ↦[outSet6 (coordsV c i)]{fullShare} ivAt c2 c3 hr d))

/-- What SparseCore c hands back for its sixteen tasks. -/
def coreResV (d : Dev nD) (c : Fin 2) : sProp 𝕄 :=
  iprop((v2Loc d ↦{qC c} c2 d) ∗ (v3Loc d ↦{qC c} c3 d) ∗ (v5Loc d ↦{qC c} c5 d)
    ∗ bigSep Finset.univ fun i : Fin 16 =>
        iprop((o5Loc d ↦[outSet5 (coordsV c i)]{fullShare} cvAt c2 c5 d) ∗ (o6Loc d ↦[outSet6 (coordsV c i)]{fullShare} ivAt c2 c3 hr d)))

/-- What the handshakes carry: out as before, back with the rows at their contents. -/
def PV : (K (F := F)).Pay (nD := nD) (Val := Elt F) (Name := ℕ) (U := UU) where
  st := fun q d c => match q with | 0 => coreRes c2 c3 c5 d (Fin.cast nCore_zero c)
  dn := fun q d c => match q with | 0 => coreResV c2 c3 c5 hr d (Fin.cast nCore_zero c)
  go := fun q d c i => match q with | 0 => tileRes c2 c3 c5 d (Fin.cast nCore_zero c) (Fin.cast nSub_zero i)
  td := fun q d c i => match q with | 0 => tileResV c2 c3 c5 hr d (Fin.cast nCore_zero c) (Fin.cast nSub_zero i)
  x := fun _ _ => iprop(emp)

instance tileResV_storable (d : Dev nD) (c : Fin 2) (i : Fin 16) : BI.Storable (upEmb : UEmb _ 𝕄) (tileResV c2 c3 c5 hr d c i) := by
  unfold tileResV; infer_instance
instance coreResV_storable (d : Dev nD) (c : Fin 2) : BI.Storable (upEmb : UEmb _ 𝕄) (coreResV c2 c3 c5 hr d c) := by
  unfold coreResV; infer_instance

instance PV_storable : (PV (F := F) c2 c3 c5 hr).IsStorable where
  st q d c := match q with | 0 => coreRes_storable c2 c3 c5 d (Fin.cast nCore_zero c)
  dn q d c := match q with | 0 => coreResV_storable c2 c3 c5 hr d (Fin.cast nCore_zero c)
  go q d c i := match q with | 0 => tileRes_storable c2 c3 c5 d (Fin.cast nCore_zero c) (Fin.cast nSub_zero i)
  td q d c i := match q with | 0 => tileResV_storable c2 c3 c5 hr d (Fin.cast nCore_zero c) (Fin.cast nSub_zero i)

/-- What a SparseCore hands back is what it kept and what its sixteen tasks hand back. -/
theorem coreResV_eq (d : Dev nD) (c : Fin 2) :
    coreResV c2 c3 c5 hr d c = iprop(coreRem c2 c3 c5 d c ∗ bigSep Finset.univ fun i : Fin 16 => tileResV c2 c3 c5 hr d c i) := by
  unfold coreResV coreRem tileResV
  simp only [bigSep_sep']
  rw [toks_eq (c2 d) (qC c) 16, toks_eq (c3 d) (qC c) 16, toks_eq (c5 d) (qC c) 16]
  refine eq_of_entails ?_ ?_
  · iintro ⟨⟨D2, B2⟩, ⟨D3, B3⟩, ⟨D5, B5⟩, R5, R6⟩
    isplitl [D2 D3 D5]
    · isplitl [D2]; · iexact D2
      isplitl [D3]; · iexact D3
      iexact D5
    · isplitl [B2]; · iexact B2
      isplitl [B3]; · iexact B3
      isplitl [B5]; · iexact B5
      isplitl [R5]; · iexact R5
      iexact R6
  · iintro ⟨⟨D2, D3, D5⟩, B2, B3, B5, R5, R6⟩
    isplitl [D2 B2]
    · isplitl [D2]; · iexact D2
      iexact B2
    isplitl [D3 B3]
    · isplitl [D3]; · iexact D3
      iexact B3
    isplitl [D5 B5]
    · isplitl [D5]; · iexact D5
      iexact B5
    isplitl [R5]; · iexact R5
    iexact R6

/-- How a SparseCore's resources split into its tasks' and what the tasks hand back gathers. -/
theorem vecSplitV : (K (F := F)).VecSplit' (PV c2 c3 c5 hr) 0 := by
  intro d c
  show coreRes c2 c3 c5 d (Fin.cast nCore_zero c) ⊢ |={Set.univ}=> iprop(
      (bigSep Finset.univ fun i : Fin ((K (F := F)).nSub 0) => tileRes c2 c3 c5 d (Fin.cast nCore_zero c) (Fin.cast nSub_zero i))
      ∗ ((bigSep Finset.univ fun i : Fin ((K (F := F)).nSub 0) => tileResV c2 c3 c5 hr d (Fin.cast nCore_zero c) (Fin.cast nSub_zero i))
          -∗ coreResV c2 c3 c5 hr d (Fin.cast nCore_zero c)))
  rw [bigSep_tasks (F := F) (fun i => tileRes c2 c3 c5 d (Fin.cast nCore_zero c) i),
    bigSep_tasks (F := F) (fun i => tileResV c2 c3 c5 hr d (Fin.cast nCore_zero c) i), coreRes_eq, coreResV_eq]
  iintro ⟨HR, HB⟩; imodintro
  isplitl [HB]; · iexact HB
  iintro HB'
  isplitl [HR]; · iexact HR
  iexact HB'

/-- The five arrays whole, the two results at their contents, are what the two SparseCores hand back and what the caller kept. -/
theorem fullResV_eq (d : Dev nD) :
    (iprop((v2Loc d ↦{fullShare} c2 d) ∗ (v3Loc d ↦{fullShare} c3 d) ∗ (v5Loc d ↦{fullShare} c5 d)
        ∗ (o5Loc d ↦{fullShare} cvAt c2 c5 d) ∗ (o6Loc d ↦{fullShare} ivAt c2 c3 hr d)) : sProp 𝕄)
      = iprop((bigSep Finset.univ fun c : Fin 2 => coreResV c2 c3 c5 hr d c) ∗ callRem c2 c3 c5 d) := by
  unfold coreResV callRem
  simp only [bigSep_sep']
  rw [o5_rows d (cvAt c2 c5 d), o6_rows d (ivAt c2 c3 hr d), toks_eq (c2 d) fullShare 2, toks_eq (c3 d) fullShare 2, toks_eq (c5 d) fullShare 2]
  refine eq_of_entails ?_ ?_
  · iintro ⟨⟨D2, B2⟩, ⟨D3, B3⟩, ⟨D5, B5⟩, R5, R6⟩
    isplitr [D2 D3 D5]
    · isplitl [B2]; · iexact B2
      isplitl [B3]; · iexact B3
      isplitl [B5]; · iexact B5
      isplitl [R5]; · iexact R5
      iexact R6
    · isplitl [D2]; · iexact D2
      isplitl [D3]; · iexact D3
      iexact D5
  · iintro ⟨⟨B2, B3, B5, R5, R6⟩, D2, D3, D5⟩
    isplitl [D2 B2]
    · isplitl [D2]; · iexact D2
      iexact B2
    isplitl [D3 B3]
    · isplitl [D3]; · iexact D3
      iexact B3
    isplitl [D5 B5]
    · isplitl [D5]; · iexact D5
      iexact B5
    isplitl [R5]; · iexact R5
    iexact R6

/-- From the five arrays held whole to what the call hands the SparseCores, and what the caller keeps. -/
theorem st_of_fullV (d : Dev nD) :
    (iprop((v2Loc d ↦{fullShare} c2 d) ∗ (v3Loc d ↦{fullShare} c3 d) ∗ (v5Loc d ↦{fullShare} c5 d)
        ∗ (∃ f, o5Loc d ↦{fullShare} f) ∗ (∃ f, o6Loc d ↦{fullShare} f)) : sProp 𝕄)
      ⊢ iprop((bigSep Finset.univ fun c : Fin ((K (F := F)).nCore 0) => (PV c2 c3 c5 hr).st 0 d c) ∗ callRem c2 c3 c5 d) := by
  show _ ⊢ iprop((bigSep Finset.univ fun c : Fin ((K (F := F)).nCore 0) => coreRes c2 c3 c5 d (Fin.cast nCore_zero c)) ∗ callRem c2 c3 c5 d)
  rw [bigSep_cores (F := F) (fun c => coreRes c2 c3 c5 d c), ← fullRes_eq]

/-- … and back, the two result arrays whole at their contents. -/
theorem full_of_dnV (d : Dev nD) :
    (iprop((bigSep Finset.univ fun c : Fin ((K (F := F)).nCore 0) => (PV c2 c3 c5 hr).dn 0 d c) ∗ callRem c2 c3 c5 d) : sProp 𝕄)
      ⊢ iprop((v2Loc d ↦{fullShare} c2 d) ∗ (v3Loc d ↦{fullShare} c3 d) ∗ (v5Loc d ↦{fullShare} c5 d)
        ∗ (o5Loc d ↦{fullShare} cvAt c2 c5 d) ∗ (o6Loc d ↦{fullShare} ivAt c2 c3 hr d)) := by
  show iprop((bigSep Finset.univ fun c : Fin ((K (F := F)).nCore 0) => coreResV c2 c3 c5 hr d (Fin.cast nCore_zero c)) ∗ callRem c2 c3 c5 d) ⊢ _
  rw [bigSep_cores (F := F) (fun c => coreResV c2 c3 c5 hr d c), ← fullResV_eq]

end Cert.KernelIdeal.Launch

end
-- ==== Proof.LaunchMainV.lean ====
/-
  @main on a device's TensorCore with the results followed: as in the frame, but the SparseCore call's two result arrays come
  back at the whole-array functions of its operands, the nine operations after it and the pipeline call then leave the
  result array at a function of the launch memory, and the final state says that of the memory as well.
-/
import proofs.«209090_g87076166960129_cont_sun_c4_39_31_alg».proof.Proof.LaunchMain
import proofs.«209090_g87076166960129_cont_sun_c4_39_31_alg».proof.Proof.LaunchPayV

noncomputable section

namespace Cert.KernelIdeal.Launch

open Cert.KernelIdeal Cert.KernelIdeal.Gen Cert.KernelIdeal.Setup Cert.KernelIdeal.HostOps
open Cert.KernelIdeal.TripValue Cert.KernelIdeal.ValArr

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)
  (hr : ∀ (d : Dev nD) (b : Fin 8) k, InRange (F := F) (idxRow (c3 m d) b) k)

/-! ## The result -/

/-- What @main leaves in its result array on device `d`, as a function of the launch memory: the pipeline call's result
    from its six operands — the SparseCore call's two results regrouped, the coordinates and the current position
    transposed, the mask as floats, the two parameters side by side. -/
def vOut (d : Dev nD) : FVec F S8x2048 .f32 :=
  TcRegion.tcOut
    (shapeCast S8x4x2048 (cvArr (c2 m d) (c5 m d)) shapeCasts_S32x2048_S8x4x2048)
    (shapeCast S8x4x2048 (ivArr (c2 m d) (c3 m d) (hr d)) shapeCasts_S32x2048_S8x4x2048)
    (transpose S2x8x2048 [2, 0, 1] (m ((SparseCore.T d).loc main_arg5)) transposes_S8x2048x2_S2x8x2048_2_0_1)
    (broadcastInDim S2x8x1 ![0, 1] bcast_S2x8_S2x8x1_0_1 (transpose S2x8 [1, 0] (m ((SparseCore.T d).loc main_arg4)) transposes_S8x2_S2x8_1_0))
    (uitofp .f32 (m ((SparseCore.T d).loc main_arg3)))
    (concatenate S2 0 [⟨S1, broadcastInDim S1 ![] bcast_S_S1 (m ((SparseCore.T d).loc main_arg6))⟩,
      ⟨S1, broadcastInDim S1 ![] bcast_S_S1 (m ((SparseCore.T d).loc main_arg7))⟩] concatenates_S1_S1_S2_d0)

/-- The pipeline call's result, from what the nine operations leave in its operands, is `vOut`. -/
theorem out_eq (d : Dev nD) :
    (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) = vOut m hr d := by
  rw [opsB_v7, opsB_v8, opsB_v9, opsB_v11, opsB_v12, opsB_v15, W5_v60, W5_v61,
    W5_of_ne _ d _ _ (show arg5' ≠ v60' by decide) (show arg5' ≠ v61' by decide),
    W5_of_ne _ d _ _ (show arg4' ≠ v60' by decide) (show arg4' ≠ v61' by decide),
    W5_of_ne _ d _ _ (show arg3' ≠ v60' by decide) (show arg3' ≠ v61' by decide),
    W5_of_ne _ d _ _ (show arg6' ≠ v60' by decide) (show arg6' ≠ v61' by decide),
    W5_of_ne _ d _ _ (show arg7' ≠ v60' by decide) (show arg7' ≠ v61' by decide),
    opsA_frame _ main_arg5 (by decide), opsA_frame _ main_arg4 (by decide), opsA_frame _ main_arg3 (by decide),
    opsA_frame _ main_arg6 (by decide), opsA_frame _ main_arg7 (by decide)]
  rfl

/-! ## What @main leaves, and what it says of the final memory -/

/-- What @main leaves the claim: the eight arguments at their launch contents, and the result array at `vOut`. -/
abbrev FINV (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7))
    ∗ ((SparseCore.T d).loc main_v16 ↦{fullShare} (vOut m hr d : Buf (Elt F) ((SparseCore.T d).loc main_v16))))

/-- In the final memory the result array of device `d` is at `vOut` and its eight arguments are as at the launch. -/
def fqV (d : Dev nD) (s' : Phys nD τ sig (Elt F)) : Prop :=
  s'.mem.mem ((SparseCore.T d).loc main_v16) = vOut m hr d
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)
  ∧ s'.mem.mem ((SparseCore.T d).loc main_arg7) = m ((SparseCore.T d).loc main_arg7)

theorem hfinV (d : Dev nD) (s' : Phys nD τ sig (Elt F)) : iprop(FINV m hr d ∗ SI s') ⊢ (⌜fqV m hr d s'⌝ : sProp 𝕄) := by
  iintro ⟨⟨H0, H1, H2, H3, H4, H5, H6, H7, H16⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI H6]
  · isplitl [HSI] <;> iassumption
  icases H with ⟨%h6, HSI, -⟩
  ihave H := (persistent_entails_right (SI_pointsTo_agree (st := s') (ℓ := (SparseCore.T d).loc main_arg7) (I := Finset.univ) (q := fullShare) (f := m ((SparseCore.T d).loc main_arg7)))) $$ [HSI H7]
  · isplitl [HSI] <;> iassumption
  icases H with ⟨%h7, HSI, -⟩
  ihave H := (SI_pointsTo_agree (st := s') (ℓ := (SparseCore.T d).loc main_v16) (I := Finset.univ) (q := fullShare) (f := (vOut m hr d : Buf (Elt F) ((SparseCore.T d).loc main_v16)))) $$ [HSI H16]
  · isplitl [HSI] <;> iassumption
  icases H with %h16
  ipureintro
  exact ⟨funext fun i => h16 i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i)⟩

/-- The claim's post with the result: on every device the result array ends at `vOut` and the eight arguments as they were. -/
def QCV : PUnit × MemSt nD τ sig (Elt F) → Prop := fun r => ∀ c : Dev nD,
  r.2.mem ((c.tc : Thread nD τ).loc main_v16) = vOut m hr c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem hQV : ∀ s' : Phys nD τ sig (Elt F), (∀ d, fqV m hr d s') → QCV m hr (⟨⟩, s'.mem) := fun _ h => h

/-! ## @main -/

set_option maxHeartbeats 4000000 in
/-- @main on device `d`'s TensorCore, the results followed: the SparseCore call hands its two result arrays back at the
    whole-array functions of its operands; the nine operations and the pipeline call then leave the result array at `vOut`. -/
theorem hmainV [∀ e, Nonempty (Elt F e)] (κ : GSem nD τ sig → ℕ) (d : Dev nD) :
    iprop((K (F := F)).ctx EH (PV (c2 m) (c3 m) (c5 m) hr) κ ∗ (K (F := F)).tcSt EH d 0 ∗ (K (F := F)).tcRes m ρ d ∗ TcRegion.ghost ER d)
      ⊢ wp frame (wpE ((K (F := F)).defs (D (F := F))) 𝒱 (SparseCore.T d) none) Set.univ (main d)
          fun _ => iprop((K (F := F)).tcSt EH d 1 ∗ FINV m hr d) := by
  unfold SparseCore.Cfg.tcRes
  rw [unscoped_held]
  simp only [main, wp_bind, wp_pure]
  iintro ⟨#Hctx, Hst, ⟨Hb, Hheld, -, -⟩, Hghost⟩
  -- the six layout operations
  iapply (wp_opsA d (V0 m d)) $$ [Hb Hheld]
  · isplitl [Hb]; · iexact Hb
    iexact Hheld
  iintro ⟨Hb, Hheld⟩
  ihave Hh := (Entails.of_eq (held_out5 (F := F) d _)) $$ Hheld
  icases Hh with ⟨H2, H3, H5, H60, H61, Hrest⟩
  rw [opsA_c2, opsA_c3, opsA_c5]
  ihave Hfull := (st_of_fullV (c2 m) (c3 m) (c5 m) hr d) $$ [H2 H3 H5 H60 H61]
  · isplitl [H2]; · iexact H2
    isplitl [H3]; · iexact H3
    isplitl [H5]; · iexact H5
    isplitl [H60]; · iexists _; iexact H60
    iexists _; iexact H61
  icases Hfull with ⟨Hst0, Hrem⟩
  -- the SparseCore call
  iapply ((K (F := F)).wp_run (D (F := F)) 𝒱 (EH := EH) (P := PV (c2 m) (c3 m) (c5 m) hr) κ d 0) $$ [Hst Hst0 Hb Hrest Hrem Hghost]
  isplitr; · iexact Hctx
  isplitl [Hst]; · iexact Hst
  isplitl [Hst0]; · iexact Hst0
  iintro ⟨Hst, Hdn⟩
  ihave Hfull := (full_of_dnV (c2 m) (c3 m) (c5 m) hr d) $$ [Hdn Hrem]
  · isplitl [Hdn]; · iexact Hdn
    iexact Hrem
  icases Hfull with ⟨H2, H3, H5, H60, H61⟩
  rw [← opsA_c2, ← opsA_c3, ← opsA_c5]
  ihave Hheld := (Entails.of_eq (held_in5 (F := F) d (StableHlo.after opsA (V0 m d)) (cvAt (c2 m) (c5 m) d) (ivAt (c2 m) (c3 m) hr d))) $$ [H2 H3 H5 H60 H61 Hrest]
  · isplitl [H2]; · iexact H2
    isplitl [H3]; · iexact H3
    isplitl [H5]; · iexact H5
    isplitl [H60]; · iexact H60
    isplitl [H61]; · iexact H61
    iexact Hrest
  -- the nine operations after it
  iapply (wp_opsB d (W5 (StableHlo.after opsA (V0 m d)) d (cvAt (c2 m) (c5 m) d) (ivAt (c2 m) (c3 m) hr d))) $$ [Hb Hheld]
  · isplitl [Hb]; · iexact Hb
    iexact Hheld
  iintro ⟨Hb, Hheld⟩
  ihave Hh := (Entails.of_eq (held_out7 (F := F) d _)) $$ Hheld
  icases Hh with ⟨H7, H8, H9, H11, H12, H15, H16, Hrest⟩
  -- the pipeline call
  unfold SparseCore.Cfg.tcSt
  icases Hst with ⟨HO, Hst⟩
  ihave Hlev := (SparseCore.Cfg.ctx_levAts κ) $$ Hctx
  iapply (TcRegion.wp_region ER ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15') ((StableHlo.after opsB (W5 (StableHlo.after opsA (V0 m d)) d (cvAt (c2 m) (c5 m) d) (ivAt (c2 m) (c3 m) hr d))) v16') d _) $$ [Hlev Hb HO H7 H8 H9 H11 H12 H15 H16 Hghost Hst Hrest]
  isplitl [Hlev]; · iexact Hlev
  isplitl [Hb]; · iexact Hb
  isplitl [HO]; · iexact HO
  isplitl [H7 H8 H9 H11 H12 H15 H16]
  · isplitl [H7]; · iexact H7
    isplitl [H8]; · iexact H8
    isplitl [H9]; · iexact H9
    isplitl [H11]; · iexact H11
    isplitl [H12]; · iexact H12
    isplitl [H15]; · iexact H15
    iexact H16
  isplitl [Hghost]; · iexact Hghost
  iintro ⟨Hb, HO, H7, H8, H9, H11, H12, H15, H16⟩
  imodintro
  -- the arrays back; the arguments and the result out
  ihave Hheld := (Entails.of_eq (held_in7 (F := F) d (StableHlo.after opsB (W5 (StableHlo.after opsA (V0 m d)) d (cvAt (c2 m) (c5 m) d) (ivAt (c2 m) (c3 m) hr d))) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')))) $$ [H7 H8 H9 H11 H12 H15 H16 Hrest]
  · isplitl [H7]; · iexact H7
    isplitl [H8]; · iexact H8
    isplitl [H9]; · iexact H9
    isplitl [H11]; · iexact H11
    isplitl [H12]; · iexact H12
    isplitl [H15]; · iexact H15
    isplitl [H16]; · iexact H16
    iexact Hrest
  ihave Hh := (Entails.of_eq (held_out9 (F := F) d _)) $$ Hheld
  icases Hh with ⟨A0, A1, A2, A3, A4, A5, A6, A7, A16, -⟩
  rw [kept m d (cvAt (c2 m) (c5 m) d) (ivAt (c2 m) (c3 m) hr d) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) main_arg0 (by decide) (by decide) (by decide) (by decide) (by decide),
    kept m d (cvAt (c2 m) (c5 m) d) (ivAt (c2 m) (c3 m) hr d) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) main_arg1 (by decide) (by decide) (by decide) (by decide) (by decide),
    kept m d (cvAt (c2 m) (c5 m) d) (ivAt (c2 m) (c3 m) hr d) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) main_arg2 (by decide) (by decide) (by decide) (by decide) (by decide),
    kept m d (cvAt (c2 m) (c5 m) d) (ivAt (c2 m) (c3 m) hr d) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) main_arg3 (by decide) (by decide) (by decide) (by decide) (by decide),
    kept m d (cvAt (c2 m) (c5 m) d) (ivAt (c2 m) (c3 m) hr d) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) main_arg4 (by decide) (by decide) (by decide) (by decide) (by decide),
    kept m d (cvAt (c2 m) (c5 m) d) (ivAt (c2 m) (c3 m) hr d) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) main_arg5 (by decide) (by decide) (by decide) (by decide) (by decide),
    kept m d (cvAt (c2 m) (c5 m) d) (ivAt (c2 m) (c3 m) hr d) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) main_arg6 (by decide) (by decide) (by decide) (by decide) (by decide),
    kept m d (cvAt (c2 m) (c5 m) d) (ivAt (c2 m) (c3 m) hr d) (TcRegion.tcOut ((StableHlo.after opsB (W5 (StableHlo.after opsA (V0 m d)) d (cvAt (c2 m) (c5 m) d) (ivAt (c2 m) (c3 m) hr d))) v7') ((StableHlo.after opsB (W5 (StableHlo.after opsA (V0 m d)) d (cvAt (c2 m) (c5 m) d) (ivAt (c2 m) (c3 m) hr d))) v8') ((StableHlo.after opsB (W5 (StableHlo.after opsA (V0 m d)) d (cvAt (c2 m) (c5 m) d) (ivAt (c2 m) (c3 m) hr d))) v9') ((StableHlo.after opsB (W5 (StableHlo.after opsA (V0 m d)) d (cvAt (c2 m) (c5 m) d) (ivAt (c2 m) (c3 m) hr d))) v11') ((StableHlo.after opsB (W5 (StableHlo.after opsA (V0 m d)) d (cvAt (c2 m) (c5 m) d) (ivAt (c2 m) (c3 m) hr d))) v12') ((StableHlo.after opsB (W5 (StableHlo.after opsA (V0 m d)) d (cvAt (c2 m) (c5 m) d) (ivAt (c2 m) (c3 m) hr d))) v15')) main_arg7 (by decide) (by decide) (by decide) (by decide) (by decide),
    W7_v16, out_eq m hr d]
  isplitl [HO Hst]
  · isplitl [HO]; · iexact HO
    iexact Hst
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  iexact A16

end Cert.KernelIdeal.Launch

end
-- ==== Proof.LaunchRunV.lean ====
/-
  The kernel program's run with the result followed, from the launch theorem of a SparseCore program: as the frame's run,
  over the hand-backs at exact contents; every weakly fair execution terminates, nothing faulting, with the result array at
  `vOut` of the launch memory and the eight argument arrays unchanged — given the task's obligation over those hand-backs
  and that every index word of the regrouped neighbour indices names a column.
-/
import proofs.«209090_g87076166960129_cont_sun_c4_39_31_alg».proof.Proof.LaunchMainV
import proofs.«209090_g87076166960129_cont_sun_c4_39_31_alg».proof.Proof.LaunchAux

noncomputable section

namespace Cert.KernelIdeal.Launch

open Cert.KernelIdeal Cert.KernelIdeal.Gen Cert.KernelIdeal.Setup
open Cert.KernelIdeal.TripValue Cert.KernelIdeal.ValArr
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element funds the same as in the frame: the hand-backs at exact contents change nothing of what the launch
    deals the later kernels' proofs (nothing). -/
theorem hu₀V (c2 : (d : Dev nD) → Buf (Elt F) (v2Loc d)) (c3 : (d : Dev nD) → Buf (Elt F) (v3Loc d))
    (c5 : (d : Dev nD) → Buf (Elt F) (v5Loc d)) (hr : ∀ (d : Dev nD) (b : Fin 8) k, InRange (F := F) (idxRow (c3 d) b) k)
    (G : Dev nD → sProp 𝕄)
    (hfund : BI.own (ER (F := F) (initOf (Pipeline.cells cfgs Gen.cellOf_inj) (Pipeline.launchToks cfgs Gen.cellOf_inj)))
      ⊢ iprop(|==> bigSep Finset.univ G)) :
    (ownU (u₀ (F := F)) : sProp 𝕄)
      ⊢ |={Set.univ}=> iprop(BI.own (EH (initOf (K (F := F)).hsCells (K (F := F)).hsToks)) ∗ bigSep Finset.univ G
          ∗ bigSep Finset.univ fun thr : Thread nD τ => bigSep Finset.univ fun q : Fin 1 => (PV c2 c3 c5 hr).x q thr) :=
  hu₀ c2 c3 c5 G hfund

/-- The program runs, its result at `vOut` and its arguments kept, from the task's obligation over the hand-backs at exact
    contents. -/
theorem run_mainV [∀ e, Nonempty (Elt F e)] (m : (ℓ : Loc nD τ sig) → Buf (Elt F) ℓ) (ρ : Dev nD → PrngReg)
    (hr : ∀ (d : Dev nD) (b : Fin 8) k, InRange (F := F) (idxRow (c3 m d) b) k)
    (htile : (K (F := F)).TileObl (D (F := F)) 𝒱 (PV (c2 m) (c3 m) (c5 m) hr) v₀ 0) :
    θ_run (Cert.KernelIdeal.defs (F := F)) (Cert.KernelIdeal.threads (F := F)) ⟨m, fun _ => 0, ρ⟩ (QCV m hr) :=
  SparseCore.Cfg.θ_run_sc (K := K (F := F)) (D := D (F := F)) (𝒱 := 𝒱) (EH := EH) (P := PV (c2 m) (c3 m) (c5 m) hr) facts v₀
    (fun q hq => match q with | 0 => nomatch hq)
    (fun q _ => match q with | 0 => htile)
    (fun q _ => match q with | 0 => SparseCore.Cfg.VecSplit.of_plain (vecSplitV (c2 m) (c3 m) (c5 m) hr))
    m ρ main (fun d => TcRegion.ghost ER d) (FINV m hr) (u₀ (F := F))
    (sep_elim_left.trans (hu₀V (c2 m) (c3 m) (c5 m) hr (fun d => TcRegion.ghost ER d) (TcRegion.fund ER)))
    (hmainV m ρ hr) (fqV m hr) (hfinV m hr) (QCV m hr) (hQV m hr)

end Cert.KernelIdeal.Launch

end
-- ==== Proof.TileSpecV.lean ====
/-
  The loop of one task WITH its values: after n trips the two result scratches hold, in their first 16·n lanes, what the trips
  computed — group k's sixteen lanes the trip-k values of the context and the interference partial scores — and beyond them what
  they held before the loop.
-/
import proofs.«209090_g87076166960129_cont_sun_c4_39_31_alg».proof.Proof.Setup
import proofs.«209090_g87076166960129_cont_sun_c4_39_31_alg».proof.Proof.TileSpec
import proofs.«209090_g87076166960129_cont_sun_c4_39_31_alg».proof.Proof.TripValue
import Idealize.ShloMosaic.Lib.ValueIdx

noncomputable section

namespace Cert.KernelIdeal.TileSpecV

open Cert.KernelIdeal Cert.KernelIdeal.Gen Cert.KernelIdeal.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)
local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)
local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)
local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

open Cert.KernelIdeal.TileRes Cert.KernelIdeal.TileSpec Cert.KernelIdeal.TripValue

variable [FloatOps F]
variable (d : Dev nD) (L : grid0.Coords)

/-- A result scratch after `n` trips: lanes below `16·n` at the trips' values (`spec k` for group `k`), the others untouched. -/
def accAt (spec : Fin k0_t1_loop.trips → FVec F S16 .f32) (g0 : S2048.Idx → F .f32) (n : Nat) : S2048.Idx → F .f32 :=
  fun j => if h : (j 0).val / 16 < n ∧ (j 0).val / 16 < k0_t1_loop.trips then
      spec ⟨(j 0).val / 16, h.2⟩ (ValueIdx.ix1 ⟨(j 0).val % 16, Nat.mod_lt _ (by decide)⟩)
    else g0 j

omit [FloatOps F] in
/-- Before the first trip the scratch is as it was. -/
theorem accAt_zero (spec : Fin k0_t1_loop.trips → FVec F S16 .f32) (g0 : S2048.Idx → F .f32) : accAt spec g0 0 = g0 := by
  funext j
  unfold accAt
  rw [dif_neg (fun h => Nat.not_lt_zero _ h.1)]

/-- The invariant with values: the three read-only scratches at fixed contents, the two result scratches at `accAt`. -/
def tripInvV (tbl : Buf (Elt F) ((V d (cV L) (jV L)).loc cc0_scratch0)) (idx : Buf (Elt F) ((V d (cV L) (jV L)).loc cc0_scratch1))
    (qb : Buf (Elt F) ((V d (cV L) (jV L)).loc cc0_scratch2)) (hr : ∀ k, InRange (F := F) idx k)
    (g10 : Buf (Elt F) ((V d (cV L) (jV L)).loc cc0_scratch3)) (g11 : Buf (Elt F) ((V d (cV L) (jV L)).loc cc0_scratch4))
    (n : Nat) (_ : Unit) : sProp 𝕄 :=
  iprop(((s7).view.loc (V d (cV L) (jV L)) ↦{fullShare} tbl) ∗ ((s8).view.loc (V d (cV L) (jV L)) ↦{fullShare} idx)
      ∗ ((s9).view.loc (V d (cV L) (jV L)) ↦{fullShare} qb)
      ∗ ((s10).view.loc (V d (cV L) (jV L)) ↦{fullShare} (accAt (fun k => cvSpec tbl qb k) g10 n : Buf (Elt F) ((V d (cV L) (jV L)).loc cc0_scratch3)))
      ∗ ((s11).view.loc (V d (cV L) (jV L)) ↦{fullShare} (accAt (fun k => ivSpec tbl idx k (hr k)) g11 n : Buf (Elt F) ((V d (cV L) (jV L)).loc cc0_scratch4))))

/-- One trip with its values: trip `k` takes the invariant at `k` to the invariant at `k + 1`. -/
def TripSpecV : Prop :=
  ∀ (k : Fin k0_t1_loop.trips) (tbl : Buf (Elt F) ((V d (cV L) (jV L)).loc cc0_scratch0)) (idx : Buf (Elt F) ((V d (cV L) (jV L)).loc cc0_scratch1))
    (qb : Buf (Elt F) ((V d (cV L) (jV L)).loc cc0_scratch2)) (hr : ∀ k, InRange (F := F) idx k)
    (g10 : Buf (Elt F) ((V d (cV L) (jV L)).loc cc0_scratch3)) (g11 : Buf (Elt F) ((V d (cV L) (jV L)).loc cc0_scratch4)),
    (∀ j, (((s8).view.read (Elt F) idx j : BitVec 32)).toNat < 2048) →
    (tripInvV d L tbl idx qb hr g10 g11 k.val () : sProp 𝕄)
      ⊢ wp frame (wpE (defs₀ (F := F)) 𝒱₀ (V d (cV L) (jV L)) none) Set.univ
          (k0_t1_body L a2 (Memref.isWhole_whole _) a3 (Memref.isWhole_whole _) a4 (Memref.isWhole_whole _) a5 (Memref.isWhole_whole _) a6 (Memref.isWhole_whole _)
            s7 (Memref.isWhole_whole _) s8 (Memref.isWhole_whole _) s9 (Memref.isWhole_whole _) s10 (Memref.isWhole_whole _) s11 (Memref.isWhole_whole _)
            cc0_scoped0 cc0_scoped1 cc0_scoped2 cc0_scoped3 cc0_scoped4 k ())
          fun r => tripInvV d L tbl idx qb hr g10 g11 (k.val + 1) r

end Cert.KernelIdeal.TileSpecV

end
-- ==== Proof.TileCopies.lean ====
/- The memrefs the task's five copies address, as index maps: the table copy reads row w = 2*s + c of the
   regrouped psi, the index copy batch w / 4 of the neighbour indices, the query copy row w of the repeated q,
   and the two copies out write row w of the two result arrays. Pure index facts about the views. -/
import proofs.«209090_g87076166960129_cont_sun_c4_39_31_alg».proof.Proof.LaunchPay
import proofs.«209090_g87076166960129_cont_sun_c4_39_31_alg».proof.Proof.ValArr
import proofs.«209090_g87076166960129_cont_sun_c4_39_31_alg».proof.Proof.TileSpecV
import Idealize.ShloMosaic.Lib.ValueLayout
import Idealize.ShloMosaic.Lib.Writes

noncomputable section

namespace Cert.KernelIdeal.TileCopies

open Cert.KernelIdeal Cert.KernelIdeal.Gen Idealize.ShloMosaic Idealize.ShloMosaic.ValueIdx
open Cert.KernelIdeal.TileSpec Cert.KernelIdeal.Launch Cert.KernelIdeal.ValArr Cert.KernelIdeal.TileSpecV

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)

/-- The three memrefs the copies in read, as the body slices them. -/
abbrev tblM (L : grid0.Coords) : Memref sig .scVector .hbm S32x2048 .f32 :=
  ((a2).slice (Rect.unit (s := S32x32x2048) (k0_off1 L) S1x32x2048.size (k0_off1_inb L)) (fun _ => rfl)).squeeze S32x2048 squeezes_S1x32x2048_S32x2048
abbrev idxM (L : grid0.Coords) : Memref sig .scVector .hbm S16x2048 .i32 :=
  ((a3).slice (Rect.unit (s := S8x16x2048) (k0_off2 L) S1x16x2048.size (k0_off2_inb L)) (fun _ => rfl)).squeeze S16x2048 squeezes_S1x16x2048_S16x2048
abbrev qbM (L : grid0.Coords) : Memref sig .scVector .hbm S32x16 .f32 :=
  ((a4).slice (Rect.unit (s := S32x32x16) (k0_off3 L) S1x32x16.size (k0_off3_inb L)) (fun _ => rfl)).squeeze S32x16 squeezes_S1x32x16_S32x16

/-- The batch offset of the index copy, in closed form. -/
theorem k0_off2_eq : ∀ i : grid0.Coords, k0_off2 i = ![(2 * (i 1).val + (i 0).val) / 4, 0, 0] := by decide +kernel

/-- A one-axis index, reshaped to a leading unit axis. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    simp only [Nat.zero_mul, Nat.zero_add])

theorem tbl_emb (L : grid0.Coords) (i : S32x2048.Idx) : (tblM L).view.emb i = ix3 (wL L) (i 0) (i 1) := by
  obtain ⟨x, y, rfl⟩ : ∃ (x : Fin 32) (y : Fin 2048), i = ix2 x y := ⟨i 0, i 1, eq_ix2 i⟩
  show (Rect.unit (s := S32x32x2048) (k0_off1 L) S1x32x2048.size (k0_off1_inb L)).emb
      (Shape.reshapeEquiv squeezes_S1x32x2048_S32x2048.numel_eq (ix2 x y)) = _
  rw [reshapeEquiv_ix2_1ab]
  have ho := k0_off1_eq L
  funext a
  match a with
  | ⟨0, _⟩ => exact Fin.ext (by show k0_off1 L (0 : Fin 3) + 1 * 0 = 2 * (L 1).val + (L 0).val; rw [ho]; rfl)
  | ⟨1, _⟩ => exact Fin.ext (by show k0_off1 L (1 : Fin 3) + 1 * x.val = x.val; rw [ho]; show 0 + 1 * x.val = x.val; omega)
  | ⟨2, _⟩ => exact Fin.ext (by show k0_off1 L (2 : Fin 3) + 1 * y.val = y.val; rw [ho]; show 0 + 1 * y.val = y.val; omega)

theorem idx_emb (L : grid0.Coords) (i : S16x2048.Idx) : (idxM L).view.emb i = ix3 (batchOf (wL L)) (i 0) (i 1) := by
  obtain ⟨x, y, rfl⟩ : ∃ (x : Fin 16) (y : Fin 2048), i = ix2 x y := ⟨i 0, i 1, eq_ix2 i⟩
  show (Rect.unit (s := S8x16x2048) (k0_off2 L) S1x16x2048.size (k0_off2_inb L)).emb
      (Shape.reshapeEquiv squeezes_S1x16x2048_S16x2048.numel_eq (ix2 x y)) = _
  rw [reshapeEquiv_ix2_1ab]
  have ho := k0_off2_eq L
  funext a
  match a with
  | ⟨0, _⟩ => exact Fin.ext (by show k0_off2 L (0 : Fin 3) + 1 * 0 = (2 * (L 1).val + (L 0).val) / 4; rw [ho]; rfl)
  | ⟨1, _⟩ => exact Fin.ext (by show k0_off2 L (1 : Fin 3) + 1 * x.val = x.val; rw [ho]; show 0 + 1 * x.val = x.val; omega)
  | ⟨2, _⟩ => exact Fin.ext (by show k0_off2 L (2 : Fin 3) + 1 * y.val = y.val; rw [ho]; show 0 + 1 * y.val = y.val; omega)

theorem qb_emb (L : grid0.Coords) (i : S32x16.Idx) : (qbM L).view.emb i = ix3 (wL L) (i 0) (i 1) := by
  obtain ⟨x, y, rfl⟩ : ∃ (x : Fin 32) (y : Fin 16), i = ix2 x y := ⟨i 0, i 1, eq_ix2 i⟩
  show (Rect.unit (s := S32x32x16) (k0_off3 L) S1x32x16.size (k0_off3_inb L)).emb
      (Shape.reshapeEquiv squeezes_S1x32x16_S32x16.numel_eq (ix2 x y)) = _
  rw [reshapeEquiv_ix2_1ab]
  have ho := k0_off3_eq L
  funext a
  match a with
  | ⟨0, _⟩ => exact Fin.ext (by show k0_off3 L (0 : Fin 3) + 1 * 0 = 2 * (L 1).val + (L 0).val; rw [ho]; rfl)
  | ⟨1, _⟩ => exact Fin.ext (by show k0_off3 L (1 : Fin 3) + 1 * x.val = x.val; rw [ho]; show 0 + 1 * x.val = x.val; omega)
  | ⟨2, _⟩ => exact Fin.ext (by show k0_off3 L (2 : Fin 3) + 1 * y.val = y.val; rw [ho]; show 0 + 1 * y.val = y.val; omega)

theorem o5_emb (L : grid0.Coords) (j : S2048.Idx) : (oRow5 L).view.emb j = ix2 (wL L) (j 0) := by
  obtain ⟨x, rfl⟩ : ∃ x : Fin 2048, j = ix1 x := ⟨j 0, eq_ix1 j⟩
  show (Rect.unit (s := S32x2048) (k0_off53 L) S1x2048.size (k0_off53_inb L)).emb
      (Shape.reshapeEquiv squeezes_S1x2048_S2048.numel_eq (ix1 x)) = _
  rw [reshapeEquiv_ix1_1a]
  have ho := k0_off53_eq L
  funext a
  match a with
  | ⟨0, _⟩ => exact Fin.ext (by show k0_off53 L (0 : Fin 2) + 1 * 0 = 2 * (L 1).val + (L 0).val; rw [ho]; rfl)
  | ⟨1, _⟩ => exact Fin.ext (by show k0_off53 L (1 : Fin 2) + 1 * x.val = x.val; rw [ho]; show 0 + 1 * x.val = x.val; omega)

theorem o6_emb (L : grid0.Coords) (j : S2048.Idx) : (oRow6 L).view.emb j = ix2 (wL L) (j 0) := by
  obtain ⟨x, rfl⟩ : ∃ x : Fin 2048, j = ix1 x := ⟨j 0, eq_ix1 j⟩
  show (Rect.unit (s := S32x2048) (k0_off53 L) S1x2048.size (k0_off53_inb L)).emb
      (Shape.reshapeEquiv squeezes_S1x2048_S2048.numel_eq (ix1 x)) = _
  rw [reshapeEquiv_ix1_1a]
  have ho := k0_off53_eq L
  funext a
  match a with
  | ⟨0, _⟩ => exact Fin.ext (by show k0_off53 L (0 : Fin 2) + 1 * 0 = 2 * (L 1).val + (L 0).val; rw [ho]; rfl)
  | ⟨1, _⟩ => exact Fin.ext (by show k0_off53 L (1 : Fin 2) + 1 * x.val = x.val; rw [ho]; show 0 + 1 * x.val = x.val; omega)

/-- The task's row of a result array is the elements its copy out addresses. -/
theorem mem_outSet5 (L : grid0.Coords) (i : S32x2048.Idx) : i ∈ outSet5 L ↔ ∃ j, (oRow5 L).view.emb j = i := by
  unfold outSet5 View.set
  simp only [Finset.mem_map, Finset.mem_univ, true_and]
theorem mem_outSet6 (L : grid0.Coords) (i : S32x2048.Idx) : i ∈ outSet6 L ↔ ∃ j, (oRow6 L).view.emb j = i := by
  unfold outSet6 View.set
  simp only [Finset.mem_map, Finset.mem_univ, true_and]

theorem mem_outSet5_row (L : grid0.Coords) (i : S32x2048.Idx) : i ∈ outSet5 L ↔ i 0 = wL L := by
  rw [mem_outSet5]
  constructor
  · rintro ⟨j, rfl⟩; rw [o5_emb]
  · intro h
    refine ⟨ix1 (i 1), ?_⟩
    rw [o5_emb, ← h]
    exact (eq_ix2 i).symm
theorem mem_outSet6_row (L : grid0.Coords) (i : S32x2048.Idx) : i ∈ outSet6 L ↔ i 0 = wL L := by
  rw [mem_outSet6]
  constructor
  · rintro ⟨j, rfl⟩; rw [o6_emb]
  · intro h
    refine ⟨ix1 (i 1), ?_⟩
    rw [o6_emb, ← h]
    exact (eq_ix2 i).symm

variable {F : FTy → Type}

/-- After the copy out of a vector g that is row w of an array G, the task's row of the result array reads as G. -/
theorem row5_congr (L : grid0.Coords) (f60 : S32x2048.Idx → F .f32) (g : S2048.Idx → F .f32) (G : FVec F S32x2048 .f32)
    (h : ∀ n : Fin 2048, g (ix1 n) = G (ix2 (wL L) n)) :
    ∀ i ∈ outSet5 L, (oRow5 L).view.writes (Elt F) f60 [⟨Rect.whole S2048, g⟩] i = G i := by
  intro i hi
  obtain ⟨j, rfl⟩ := (mem_outSet5 L i).1 hi
  have hj : ((oRow5 L).view.slice (Rect.whole S2048)).emb j = (oRow5 L).view.emb j := by
    show (oRow5 L).view.emb ((Rect.whole S2048).emb j) = _
    rw [Rect.emb_whole_apply]
  rw [View.writes_singleton, ← hj, View.write_emb_of_mem _ _ (Finset.mem_univ j), hj, o5_emb]
  show g j = _
  rw [eq_ix1 j]
  exact h (j 0)

theorem row6_congr (L : grid0.Coords) (f61 : S32x2048.Idx → F .f32) (g : S2048.Idx → F .f32) (G : FVec F S32x2048 .f32)
    (h : ∀ n : Fin 2048, g (ix1 n) = G (ix2 (wL L) n)) :
    ∀ i ∈ outSet6 L, (oRow6 L).view.writes (Elt F) f61 [⟨Rect.whole S2048, g⟩] i = G i := by
  intro i hi
  obtain ⟨j, rfl⟩ := (mem_outSet6 L i).1 hi
  have hj : ((oRow6 L).view.slice (Rect.whole S2048)).emb j = (oRow6 L).view.emb j := by
    show (oRow6 L).view.emb ((Rect.whole S2048).emb j) = _
    rw [Rect.emb_whole_apply]
  rw [View.writes_singleton, ← hj, View.write_emb_of_mem _ _ (Finset.mem_univ j), hj, o6_emb]
  show g j = _
  rw [eq_ix1 j]
  exact h (j 0)

/-- After all the trips a result scratch holds every group's values. -/
theorem accAt_full (spec : Fin k0_t1_loop.trips → FVec F S16 .f32) (g0 : S2048.Idx → F .f32) (j : S2048.Idx) :
    accAt spec g0 k0_t1_loop.trips j = spec (grp (j 0)) (ix1 (lane (j 0))) := by
  have hn : (j 0).val < 2048 := (j 0).isLt
  unfold accAt
  rw [dif_pos ⟨by rw [trips_128]; omega, by rw [trips_128]; omega⟩]
  rfl

end Cert.KernelIdeal.TileCopies

end
-- ==== Proof.TripStore.lean ====
/- The trip's two stores, as functions: writing trip k's sixteen values into lanes 16*k .. 16*k+15 of a result
   scratch that holds the first k trips' values gives the scratch holding the first k + 1 trips' values. -/
import proofs.«209090_g87076166960129_cont_sun_c4_39_31_alg».proof.Proof.TileSpecV
import Idealize.ShloMosaic.Lib.Writes

noncomputable section

namespace Cert.KernelIdeal.TileSpecV

open Cert.KernelIdeal Cert.KernelIdeal.Gen Idealize.ShloMosaic Idealize.ShloMosaic.ValueIdx

variable {F : FTy → Type}

local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

theorem trips128 : k0_t1_loop.trips = 128 := by decide

/-- Storing trip k's sixteen values at lanes 16*k .. 16*k+15 takes the scratch after k trips to the scratch
    after k + 1 trips. -/
theorem accAt_step10 (spec : Fin k0_t1_loop.trips → FVec F S16 .f32) (g0 : S2048.Idx → F .f32) (k : Fin k0_t1_loop.trips)
    (w : (Rect.unit (s := S2048) (k0_off52 k) S16.size (k0_off52_inb k)).shape.Idx → F .f32) (hw : w = spec k) :
    (s10).view.writes (Elt F) (accAt spec g0 k.val)
        [⟨Rect.unit (s := S2048) (k0_off52 k) S16.size (k0_off52_inb k), w⟩]
      = accAt spec g0 (k.val + 1) := by
  subst hw
  have hk : k.val < 128 := lt_of_lt_of_eq k.isLt trips128
  funext j
  show (s10).view.read (Elt F) ((s10).view.writes (Elt F) (accAt spec g0 k.val)
      [⟨Rect.unit (s := S2048) (k0_off52 k) S16.size (k0_off52_inb k), spec k⟩]) j = _
  have hn : (j 0).val < 2048 := (j 0).isLt
  have hoff : k0_off52 k (0 : Fin 1) = 16 * k.val := by rw [k0_off52_eq]; rfl
  by_cases hin : (j 0).val / 16 = k.val
  · -- the lane is one the trip stores
    have hj : (Rect.unit (s := S2048) (k0_off52 k) S16.size (k0_off52_inb k)).emb
        (ix1 (⟨(j 0).val % 16, Nat.mod_lt _ (by decide)⟩ : Fin 16)) = j := by
      funext a
      match a with
      | ⟨0, _⟩ =>
        refine Fin.ext ?_
        show k0_off52 k (0 : Fin 1) + 1 * ((j 0).val % 16) = (j 0).val
        rw [hoff]; omega
    rw [← hj, View.read_writes_cons_emb, hj]
    unfold accAt
    rw [dif_pos ⟨by omega, by rw [trips128]; omega⟩]
    refine congrFun (congrArg spec ?_) _
    exact Fin.ext (show k.val = (j 0).val / 16 from hin.symm)
  · -- the lane is not touched
    have hnot : j ∉ (Rect.unit (s := S2048) (k0_off52 k) S16.size (k0_off52_inb k)).set := by
      rw [Rect.mem_set_unit]
      intro h
      have h0 := h (0 : Fin 1)
      rw [hoff] at h0
      have h1 : (j 0).val < 16 * k.val + 16 := h0.2
      have h2 : 16 * k.val ≤ (j 0).val := h0.1
      exact hin (by omega)
    rw [View.read_writes_apply_of_forall_not_mem _ _ j _ (fun p hp => by
      rw [List.mem_singleton] at hp; subst hp; exact hnot)]
    show accAt spec g0 k.val j = accAt spec g0 (k.val + 1) j
    unfold accAt
    by_cases hlt : (j 0).val / 16 < k.val
    · rw [dif_pos ⟨hlt, by rw [trips128]; omega⟩, dif_pos ⟨by omega, by rw [trips128]; omega⟩]
    · rw [dif_neg (fun h => hlt h.1), dif_neg (fun h => by have := h.1; omega)]

/-- Storing trip k's sixteen values at lanes 16*k .. 16*k+15 takes the scratch after k trips to the scratch
    after k + 1 trips. -/
theorem accAt_step11 (spec : Fin k0_t1_loop.trips → FVec F S16 .f32) (g0 : S2048.Idx → F .f32) (k : Fin k0_t1_loop.trips)
    (w : (Rect.unit (s := S2048) (k0_off52 k) S16.size (k0_off52_inb k)).shape.Idx → F .f32) (hw : w = spec k) :
    (s11).view.writes (Elt F) (accAt spec g0 k.val)
        [⟨Rect.unit (s := S2048) (k0_off52 k) S16.size (k0_off52_inb k), w⟩]
      = accAt spec g0 (k.val + 1) := by
  subst hw
  have hk : k.val < 128 := lt_of_lt_of_eq k.isLt trips128
  funext j
  show (s11).view.read (Elt F) ((s11).view.writes (Elt F) (accAt spec g0 k.val)
      [⟨Rect.unit (s := S2048) (k0_off52 k) S16.size (k0_off52_inb k), spec k⟩]) j = _
  have hn : (j 0).val < 2048 := (j 0).isLt
  have hoff : k0_off52 k (0 : Fin 1) = 16 * k.val := by rw [k0_off52_eq]; rfl
  by_cases hin : (j 0).val / 16 = k.val
  · -- the lane is one the trip stores
    have hj : (Rect.unit (s := S2048) (k0_off52 k) S16.size (k0_off52_inb k)).emb
        (ix1 (⟨(j 0).val % 16, Nat.mod_lt _ (by decide)⟩ : Fin 16)) = j := by
      funext a
      match a with
      | ⟨0, _⟩ =>
        refine Fin.ext ?_
        show k0_off52 k (0 : Fin 1) + 1 * ((j 0).val % 16) = (j 0).val
        rw [hoff]; omega
    rw [← hj, View.read_writes_cons_emb, hj]
    unfold accAt
    rw [dif_pos ⟨by omega, by rw [trips128]; omega⟩]
    refine congrFun (congrArg spec ?_) _
    exact Fin.ext (show k.val = (j 0).val / 16 from hin.symm)
  · -- the lane is not touched
    have hnot : j ∉ (Rect.unit (s := S2048) (k0_off52 k) S16.size (k0_off52_inb k)).set := by
      rw [Rect.mem_set_unit]
      intro h
      have h0 := h (0 : Fin 1)
      rw [hoff] at h0
      have h1 : (j 0).val < 16 * k.val + 16 := h0.2
      have h2 : 16 * k.val ≤ (j 0).val := h0.1
      exact hin (by omega)
    rw [View.read_writes_apply_of_forall_not_mem _ _ j _ (fun p hp => by
      rw [List.mem_singleton] at hp; subst hp; exact hnot)]
    show accAt spec g0 k.val j = accAt spec g0 (k.val + 1) j
    unfold accAt
    by_cases hlt : (j 0).val / 16 < k.val
    · rw [dif_pos ⟨hlt, by rw [trips128]; omega⟩, dif_pos ⟨by omega, by rw [trips128]; omega⟩]
    · rw [dif_neg (fun h => hlt h.1), dif_neg (fun h => by have := h.1; omega)]

end Cert.KernelIdeal.TileSpecV

end
-- ==== Proof.TileV.lean ====
/-
  One task of the SparseCore call WITH its values: as the task body of Tile.lean, the loop by the value-carrying trip
  specification, and its two rows handed back at the whole-array functions of the call's operands (the context and the
  interference partial scores) instead of at some contents.
-/
import proofs.«209090_g87076166960129_cont_sun_c4_39_31_alg».proof.Proof.Setup
import proofs.«209090_g87076166960129_cont_sun_c4_39_31_alg».proof.Proof.TileSpecV
import proofs.«209090_g87076166960129_cont_sun_c4_39_31_alg».proof.Proof.ValArr
import proofs.«209090_g87076166960129_cont_sun_c4_39_31_alg».proof.Proof.LaunchPay
import proofs.«209090_g87076166960129_cont_sun_c4_39_31_alg».proof.Proof.TileCopies
import proofs.«209090_g87076166960129_cont_sun_c4_39_31_alg».proof.Proof.TripStore

noncomputable section

namespace Cert.KernelIdeal.TileV

open Cert.KernelIdeal Cert.KernelIdeal.Gen Cert.KernelIdeal.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)
local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)
local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)
local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

open Cert.KernelIdeal.TileRes Cert.KernelIdeal.TileSpec Cert.KernelIdeal.TileSpecV Cert.KernelIdeal.TripValue Cert.KernelIdeal.ValArr Cert.KernelIdeal.TileCopies
open Cert.KernelIdeal.Launch (wL)

variable [FloatOps F]
variable (d : Dev nD) (L : grid0.Coords)
omit [FloatOps F] in
theorem pts_a2 (q : PosShare TreeShare) (f : Buf (Elt F) ((V d (cV L) (jV L)).loc main_v2_scv)) :
    ((a2).view.loc (V d (cV L) (jV L)) ↦{q} f : sProp 𝕄) = (V d (cV L) (jV L)).loc main_v2_scv ↦{q} f := rfl
omit [FloatOps F] in
theorem pts_a3 (q : PosShare TreeShare) (f : Buf (Elt F) ((V d (cV L) (jV L)).loc main_v3_scv)) :
    ((a3).view.loc (V d (cV L) (jV L)) ↦{q} f : sProp 𝕄) = (V d (cV L) (jV L)).loc main_v3_scv ↦{q} f := rfl
omit [FloatOps F] in
theorem pts_a4 (q : PosShare TreeShare) (f : Buf (Elt F) ((V d (cV L) (jV L)).loc main_v5_scv)) :
    ((a4).view.loc (V d (cV L) (jV L)) ↦{q} f : sProp 𝕄) = (V d (cV L) (jV L)).loc main_v5_scv ↦{q} f := rfl
omit [FloatOps F] in
theorem pts_s7 (f : Buf (Elt F) ((V d (cV L) (jV L)).loc cc0_scratch0)) :
    ((s7).view.loc (V d (cV L) (jV L)) ↦{fullShare} f : sProp 𝕄) = (V d (cV L) (jV L)).loc cc0_scratch0 ↦{fullShare} f := rfl
omit [FloatOps F] in
theorem pts_s8 (f : Buf (Elt F) ((V d (cV L) (jV L)).loc cc0_scratch1)) :
    ((s8).view.loc (V d (cV L) (jV L)) ↦{fullShare} f : sProp 𝕄) = (V d (cV L) (jV L)).loc cc0_scratch1 ↦{fullShare} f := rfl
omit [FloatOps F] in
theorem pts_s9 (f : Buf (Elt F) ((V d (cV L) (jV L)).loc cc0_scratch2)) :
    ((s9).view.loc (V d (cV L) (jV L)) ↦{fullShare} f : sProp 𝕄) = (V d (cV L) (jV L)).loc cc0_scratch2 ↦{fullShare} f := rfl
omit [FloatOps F] in
theorem pts_s10 (f : Buf (Elt F) ((V d (cV L) (jV L)).loc cc0_scratch3)) :
    ((s10).view.loc (V d (cV L) (jV L)) ↦{fullShare} f : sProp 𝕄) = (V d (cV L) (jV L)).loc cc0_scratch3 ↦{fullShare} f := rfl
omit [FloatOps F] in
theorem pts_s11 (f : Buf (Elt F) ((V d (cV L) (jV L)).loc cc0_scratch4)) :
    ((s11).view.loc (V d (cV L) (jV L)) ↦{fullShare} f : sProp 𝕄) = (V d (cV L) (jV L)).loc cc0_scratch4 ↦{fullShare} f := rfl

set_option maxHeartbeats 4000000 in
theorem tile_bodyV (htrip : TripSpecV (F := F) d L) (hF : (K (F := F)).Facts) (O : CellTallies nD τ sig (HIx 1)) (W : Waits sig (HIx 1)) (hO : ∀ g, O g none = 0)
    (q : PosShare TreeShare)
    (c2 : Buf (Elt F) ((V d (cV L) (jV L)).loc main_v2_scv)) (c3 : Buf (Elt F) ((V d (cV L) (jV L)).loc main_v3_scv))
    (c5 : Buf (Elt F) ((V d (cV L) (jV L)).loc main_v5_scv)) (hc3 : ∀ j, (c3 j).toNat < 2048)
    (hr : ∀ (b : Fin 8) k, InRange (F := F) (idxRow c3 b) k) :
    iprop(levAts (K (F := F)).L (K (F := F)).lev ∗ emp
        ∗ (((V d (cV L) (jV L)).loc main_v2_scv ↦{q} c2) ∗ ((V d (cV L) (jV L)).loc main_v3_scv ↦{q} c3) ∗ ((V d (cV L) (jV L)).loc main_v5_scv ↦{q} c5)
            ∗ (∃ f, (V d (cV L) (jV L)).loc main_v6_0_scv ↦[outSet5 L]{fullShare} f)
            ∗ (∃ f, (V d (cV L) (jV L)).loc main_v6_1_scv ↦[outSet6 L]{fullShare} f))
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__sc_body L a2 (Memref.isWhole_whole _) a3 (Memref.isWhole_whole _) a4 (Memref.isWhole_whole _) a5 (Memref.isWhole_whole _) a6 (Memref.isWhole_whole _)
            s7 (Memref.isWhole_whole _) s8 (Memref.isWhole_whole _) s9 (Memref.isWhole_whole _) s10 (Memref.isWhole_whole _) s11 (Memref.isWhole_whole _)
            cc0_scoped0 cc0_scoped1 cc0_scoped2 cc0_scoped3 cc0_scoped4)
          fun _ => iprop((((V d (cV L) (jV L)).loc main_v2_scv ↦{q} c2) ∗ ((V d (cV L) (jV L)).loc main_v3_scv ↦{q} c3) ∗ ((V d (cV L) (jV L)).loc main_v5_scv ↦{q} c5)
              ∗ ((V d (cV L) (jV L)).loc main_v6_0_scv ↦[outSet5 L]{fullShare} (cvArr c2 c5 : Buf (Elt F) ((V d (cV L) (jV L)).loc main_v6_0_scv)))
              ∗ ((V d (cV L) (jV L)).loc main_v6_1_scv ↦[outSet6 L]{fullShare} (ivArr c2 c3 hr : Buf (Elt F) ((V d (cV L) (jV L)).loc main_v6_1_scv))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨H2, H3, H4, ⟨%f60, H5⟩, ⟨%f61, H6⟩⟩, ⟨⟨⟨%f7, H7⟩, ⟨%f8, H8⟩, ⟨%f9, H9⟩, ⟨%f10, H10⟩, ⟨%f11, H11⟩⟩, Hbufs⟩, ⟨⟨Hs0, Hs1, Hs2, Hs3, Hs4⟩, Hsems⟩, HO⟩
  ihave Hmw := ((K (F := F)).mayWaits_none (thr := V d (cV L) (jV L)) hO) $$ Hlv
  ihave H2 := (Entails.of_eq (pts_a2 (F := F) d L q _).symm) $$ H2
  ihave H3 := (Entails.of_eq (pts_a3 (F := F) d L q _).symm) $$ H3
  ihave H4 := (Entails.of_eq (pts_a4 (F := F) d L q _).symm) $$ H4
  ihave H5 := (Entails.of_eq (pts_o5 (F := F) d L _).symm) $$ H5
  ihave H6 := (Entails.of_eq (pts_o6 (F := F) d L _).symm) $$ H6
  ihave H7 := (Entails.of_eq (pts_s7 (F := F) d L _).symm) $$ H7
  ihave H8 := (Entails.of_eq (pts_s8 (F := F) d L _).symm) $$ H8
  ihave H9 := (Entails.of_eq (pts_s9 (F := F) d L _).symm) $$ H9
  ihave H10 := (Entails.of_eq (pts_s10 (F := F) d L _).symm) $$ H10
  ihave H11 := (Entails.of_eq (pts_s11 (F := F) d L _).symm) $$ H11
  sl_exec
  -- what the three copies in leave in the scratches: the task's row of each operand
  have e7 : View.write (Elt F) (s7).view f7 (tile_bodyV.sl.dma0 d L c2) Finset.univ = tblRow c2 (wL L) := by
    rw [View.write_whole_univ]; funext i; unfold tile_bodyV.sl.dma0
    rw [ReadAs.apply_same, (View.read_apply _ _).trans (cast_eq _ _)]
    unfold tblRow; rw [tbl_emb]; try rfl
  have e8 : View.write (Elt F) (s8).view f8 (tile_bodyV.sl.dma0_1 d L c3) Finset.univ = idxRow c3 (batchOf (wL L)) := by
    rw [View.write_whole_univ]; funext i; unfold tile_bodyV.sl.dma0_1
    rw [ReadAs.apply_same, (View.read_apply _ _).trans (cast_eq _ _)]
    unfold idxRow; rw [idx_emb]; try rfl
  have e9 : View.write (Elt F) (s9).view f9 (tile_bodyV.sl.dma0_2 d L c5) Finset.univ = qbRow c5 (wL L) := by
    rw [View.write_whole_univ]; funext i; unfold tile_bodyV.sl.dma0_2
    rw [ReadAs.apply_same, (View.read_apply _ _).trans (cast_eq _ _)]
    unfold qbRow; rw [qb_emb]; try rfl
  rw [e7, e8, e9]
  have hrd : ∀ j, (((s8).view.read (Elt F) (idxRow c3 (batchOf (wL L))) j : BitVec 32)).toNat < 2048 := by
    intro j
    rw [(View.read_apply _ _).trans (cast_eq _ _)]
    exact hc3 _
  sl_for (tripInvV d L (tblRow c2 (wL L)) (idxRow c3 (batchOf (wL L))) (qbRow c5 (wL L)) (hr (batchOf (wL L))) f10 f11) $$ [H7 H8 H9 H10 H11]
  case region =>
    intro k acc
    exact htrip k _ _ _ _ _ _ hrd
  · unfold tripInvV
    rw [accAt_zero, accAt_zero]
    isplitl [H7]; · iexact H7
    isplitl [H8]; · iexact H8
    isplitl [H9]; · iexact H9
    isplitl [H10]; · iexact H10
    iexact H11
  iintro %acc HI
  unfold tripInvV
  icases HI with ⟨H7, H8, H9, H10, H11⟩
  sl_exec
  -- what the copies out leave in the task's rows agrees, on the rows, with the whole-array functions
  have r5 : ((V d (cV L) (jV L)).loc main_v6_0_scv ↦[outSet5 L]{fullShare}
        ((oRow5 L).view.writes (Elt F) f60 [⟨Rect.whole S2048, tile_bodyV.sl.dma0_3 d L c2 c5 f10⟩] : Buf (Elt F) ((V d (cV L) (jV L)).loc main_v6_0_scv)) : sProp 𝕄)
      = (V d (cV L) (jV L)).loc main_v6_0_scv ↦[outSet5 L]{fullShare} (cvArr c2 c5 : Buf (Elt F) ((V d (cV L) (jV L)).loc main_v6_0_scv)) :=
    pointsTo_congr (row5_congr L f60 _ (cvArr c2 c5) (fun n => by
      unfold tile_bodyV.sl.dma0_3
      rw [ReadAs.apply_same, (View.read_apply _ _).trans (cast_eq _ _)]
      exact accAt_full _ _ _))
  have r6 : ((V d (cV L) (jV L)).loc main_v6_1_scv ↦[outSet6 L]{fullShare}
        ((oRow6 L).view.writes (Elt F) f61 [⟨Rect.whole S2048, tile_bodyV.sl.dma0_4 d L c2 c3 hr f11⟩] : Buf (Elt F) ((V d (cV L) (jV L)).loc main_v6_1_scv)) : sProp 𝕄)
      = (V d (cV L) (jV L)).loc main_v6_1_scv ↦[outSet6 L]{fullShare} (ivArr c2 c3 hr : Buf (Elt F) ((V d (cV L) (jV L)).loc main_v6_1_scv)) :=
    pointsTo_congr (row6_congr L f61 _ (ivArr c2 c3 hr) (fun n => by
      unfold tile_bodyV.sl.dma0_4
      rw [ReadAs.apply_same, (View.read_apply _ _).trans (cast_eq _ _)]
      exact accAt_full _ _ _))
  sl_step
  isplitl [H2 H3 H4 H5 H6]
  · isplitl [H2]; · iapply (Entails.of_eq (pts_a2 (F := F) d L q _)); iexact H2
    isplitl [H3]; · iapply (Entails.of_eq (pts_a3 (F := F) d L q _)); iexact H3
    isplitl [H4]; · iapply (Entails.of_eq (pts_a4 (F := F) d L q _)); iexact H4
    isplitl [H5]
    · iapply (Entails.of_eq r5); iapply (Entails.of_eq (pts_o5 (F := F) d L _)); iexact H5
    · iapply (Entails.of_eq r6); iapply (Entails.of_eq (pts_o6 (F := F) d L _)); iexact H6
  isplitl [H7 H8 H9 H10 H11 Hbufs]
  · isplitl [H7 H8 H9 H10 H11]
    · isplitl [H7]; · iexists _; iapply (Entails.of_eq (pts_s7 (F := F) d L _)); iexact H7
      isplitl [H8]; · iexists _; iapply (Entails.of_eq (pts_s8 (F := F) d L _)); iexact H8
      isplitl [H9]; · iexists _; iapply (Entails.of_eq (pts_s9 (F := F) d L _)); iexact H9
      isplitl [H10]; · iexists _; iapply (Entails.of_eq (pts_s10 (F := F) d L _)); iexact H10
      iexists _; iapply (Entails.of_eq (pts_s11 (F := F) d L _)); iexact H11
    · iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    · iexact Hsems
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    · exact .inl hp

end Cert.KernelIdeal.TileV

end
-- ==== Proof.LaunchOblV.lean ====
/-
  The vector-subcore call's task obligation with the results followed: on subcore `s` of SparseCore `c` the call's body is
  the kernel's function at grid position `(c, s)`, and the task proved at that position with its values — handed its read
  shares of the three operand arrays and its rows of the two results, handing the rows back at the whole-array functions
  of the operands — is what the launch asks of it over the hand-backs at exact contents.
-/
import proofs.«209090_g87076166960129_cont_sun_c4_39_31_alg».proof.Proof.Setup
import proofs.«209090_g87076166960129_cont_sun_c4_39_31_alg».proof.Proof.TileV
import proofs.«209090_g87076166960129_cont_sun_c4_39_31_alg».proof.Proof.LaunchObl
import proofs.«209090_g87076166960129_cont_sun_c4_39_31_alg».proof.Proof.LaunchPayV

noncomputable section

namespace Cert.KernelIdeal.Launch

open Cert.KernelIdeal Cert.KernelIdeal.Gen Cert.KernelIdeal.Setup
open Cert.KernelIdeal.TripValue Cert.KernelIdeal.ValArr
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileSpec Cert.KernelIdeal.TileSpecV Cert.KernelIdeal.TileV

variable [FloatOps F]
variable (c2 : (d : Dev nD) → Buf (Elt F) (v2Loc d)) (c3 : (d : Dev nD) → Buf (Elt F) (v3Loc d)) (c5 : (d : Dev nD) → Buf (Elt F) (v5Loc d))

/-- The task obligation over the hand-backs at exact contents, from the value-carrying trip's specification at every
    position, the index words' range at the call, and that every index word names a column. -/
theorem tileOblV (htripV : ∀ (d : Dev nD) (L : grid0.Coords), TripSpecV (F := F) d L) (hF : (K (F := F)).Facts)
    (hc3 : ∀ d j, (c3 d j).toNat < 2048) (hr : ∀ (d : Dev nD) (b : Fin 8) k, InRange (F := F) (idxRow (c3 d) b) k) :
    (K (F := F)).TileObl (D (F := F)) 𝒱 (PV c2 c3 c5 hr) v₀ 0 := by
  intro d c i O W hO _ _
  -- this kernel owes nothing for a protocol of its own
  simp only [show (PV c2 c3 c5 hr).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_bodyV d (coordsV ⟨_, hc.1⟩ ⟨_, hc.2⟩) (htripV d _) hF O W hO _ (c2 d) (c3 d) (c5 d) (hc3 d) (hr d)).trans
    (wp_mono frame _ _ fun _ => obl_post)

end Cert.KernelIdeal.Launch

end
-- ==== Proof.BridgeTail.lean ====
/- The last steps of both programs — fill the masked nodes with -1e9, then the log-softmax over each
   batch's 2048 nodes (subtract the row maximum, subtract the log of the row's sum of exponentials) — are
   one function of the score array and the mask, although the two texts spell it differently: the mask as
   a bit or as the float 0/1 compared with 0; the row maximum by a fold in row-major order from -∞ (once
   more maxed with -∞) or by a lane reduction; a column [8] → [8,1] → [8,2048] by two broadcasts or by a
   reshape and a broadcast; the row sum from an initial 0 or without one. -/
import proofs.«209090_g87076166960129_cont_sun_c4_39_31_alg».proof.Proof.Gen.KernelIdeal.Skeleton
import proofs.«209090_g87076166960129_cont_sun_c4_39_31_alg».proof.Proof.Gen.ReferenceIdeal
import Idealize.ShloMosaic.Lib.Pipeline.Value
import Idealize.ShloMosaic.Lib.KernelVsHost
import Idealize.ShloMosaic.Lib.IdealHost
import Idealize.ShloMosaic.PureOps.Ideal.Laws

noncomputable section

open scoped BigOperators

namespace Cert.Bridge

open Idealize.ShloMosaic Idealize.ShloMosaic.ValueIdx

abbrev T0 : Shape := ⟨0, ![]⟩
abbrev T8 : Shape := ⟨1, ![8]⟩
abbrev T8x1 : Shape := ⟨2, ![8, 1]⟩
abbrev T8x2048 : Shape := ⟨2, ![8, 2048]⟩

/-! ## The two spellings, named -/

/-- The reference's fill: -1e9 where the mask bit is set. -/
def fillR (x3 : IVec T8x2048 1) (s : FVec Ideal T8x2048 .f32) : FVec Ideal T8x2048 .f32 :=
  select x3 (broadcastInDim T8x2048 ![] Cert.ReferenceIdeal.Gen.bcast_S_S8x2048
    (id (constant (F := Ideal) T0 .f32 0xCE6E6B28#32))) s

/-- The kernel's fill: -1e9 where the mask, as a float, differs from 0. -/
def fillK (mf : FVec Ideal T8x2048 .f32) (s : FVec Ideal T8x2048 .f32) : FVec Ideal T8x2048 .f32 :=
  select (cmpf .one (shapeCast T8x2048 mf Cert.KernelIdeal.Gen.shapeCasts_S8x2048_S8x2048)
      (broadcast T8x2048 (Scalar.ofBits (F := Ideal) .f32 0x00000000#32)))
    (broadcast T8x2048 (Scalar.ofBits (F := Ideal) .f32 0xCE6E6B28#32)) s

/-- The reference's row maximum. -/
def maxR (S : FVec Ideal T8x2048 .f32) : FVec Ideal T8 .f32 :=
  maximumf (broadcastInDim T8 ![] Cert.ReferenceIdeal.Gen.bcast_S_S8 (constant (F := Ideal) T0 .f32 0xFF800000#32))
    (Host.reduce FloatOps.maximumf S (constant (F := Ideal) T0 .f32 0xFF800000#32)
      Cert.ReferenceIdeal.Gen.reducesTo_S8x2048_S8_d1 Cert.ReferenceIdeal.Gen.h_S_)

/-- The kernel's row maximum. -/
def maxK (S : FVec Ideal T8x2048 .f32) : FVec Ideal T8 .f32 :=
  multiReduction (F := Ideal) .maximumf [1] T8 S 0xFF800000#32 Cert.KernelIdeal.Gen.reduces_S8x2048_S8 (.inl rfl) rfl

/-- The reference's column [8] → [8,1] → [8,2048]. -/
def colR (m : FVec Ideal T8 .f32) : FVec Ideal T8x2048 .f32 :=
  broadcastInDim T8x2048 ![0, 1] Cert.ReferenceIdeal.Gen.bcast_S8x1_S8x2048_0_1
    (broadcastInDim T8x1 ![0] Cert.ReferenceIdeal.Gen.bcast_S8_S8x1_0 m)

/-- The kernel's column [8] → [8,1] → [8,2048]. -/
def colK (m : FVec Ideal T8 .f32) : FVec Ideal T8x2048 .f32 :=
  broadcastTo T8x2048 (shapeCast T8x1 m Cert.KernelIdeal.Gen.shapeCasts_S8_S8x1) Cert.KernelIdeal.Gen.broadcasts_S8x1_S8x2048

/-- The reference's row sum of exponentials. -/
def sumR (L : FVec Ideal T8x2048 .f32) : FVec Ideal T8 .f32 :=
  Host.reduceAdd (Host.exp L) (constant (F := Ideal) T0 .f32 0x00000000#32)
    Cert.ReferenceIdeal.Gen.reducesTo_S8x2048_S8_d1 Cert.ReferenceIdeal.Gen.h_S_

/-- The kernel's row sum of exponentials. -/
def sumK (L : FVec Ideal T8x2048 .f32) : FVec Ideal T8 .f32 :=
  multiReduction (F := Ideal) .add [1] T8 (exp L) 0x00000000#32 Cert.KernelIdeal.Gen.reduces_S8x2048_S8 (.inl rfl) rfl

/-- The reference's log-softmax over each row. -/
def lsmR (S : FVec Ideal T8x2048 .f32) : FVec Ideal T8x2048 .f32 :=
  subf (subf S (colR (maxR S)))
    (broadcastInDim T8x2048 ![0, 1] Cert.ReferenceIdeal.Gen.bcast_S8x1_S8x2048_0_1
      (Host.log (broadcastInDim T8x1 ![0] Cert.ReferenceIdeal.Gen.bcast_S8_S8x1_0 (sumR (subf S (colR (maxR S)))))))

/-- The kernel's log-softmax over each row. -/
def lsmK (S : FVec Ideal T8x2048 .f32) : FVec Ideal T8x2048 .f32 :=
  subf (subf S (colK (maxK S)))
    (broadcastTo T8x2048 (log (shapeCast T8x1 (sumK (subf S (colK (maxK S)))) Cert.KernelIdeal.Gen.shapeCasts_S8_S8x1))
      Cert.KernelIdeal.Gen.broadcasts_S8x1_S8x2048)

/-- The reference's last steps: fill, then log-softmax. -/
def refTail (x3 : IVec T8x2048 1) (s : FVec Ideal T8x2048 .f32) : FVec Ideal T8x2048 .f32 := lsmR (fillR x3 s)

/-- The kernel's last steps are its fill, then its log-softmax. -/
theorem k1_pay1_eq (s mf : FVec Ideal T8x2048 .f32) :
    Cert.KernelIdeal.Gen.k1_pay1 (F := Ideal) s mf = lsmK (fillK mf s) := rfl

/-! ## They agree -/

/-- The mask bit as a float differs from 0 exactly when the bit is set. -/
theorem cmp_one_uitofp (b : BitVec 1) :
    Ideal.cmp .one (((b.toNat : ℝ)) : EReal) (Ideal.ofBits .f32 0x00000000#32) = b := by
  rw [Ideal.ofBits_zero_f32]
  rcases BitVec.eq_zero_or_eq_one b with rfl | rfl <;> simp [Ideal.cmp]

theorem fill_eq (x3 : IVec T8x2048 1) (s : FVec Ideal T8x2048 .f32) :
    fillK (uitofp (F := Ideal) .f32 x3) s = fillR x3 s := by
  funext i
  unfold fillK fillR
  rw [shapeCast_self]
  show Scalar.select (Ideal.cmp .one (((x3 i).toNat : ℝ) : EReal) (Ideal.ofBits .f32 0x00000000#32)) _ _ = _
  rw [cmp_one_uitofp]
  rfl

/-- The f32 word 0xFF800000 is -∞. -/
theorem neg_inf_bits : Ideal.ofBits .f32 0xFF800000#32 = ⊥ := by simp [Ideal.ofBits, Ideal.ieee]

theorem max_eq (S : FVec Ideal T8x2048 .f32) : maxR S = maxK S := by
  funext j
  unfold maxR maxK
  refine Eq.trans ?_ (Ideal.multiReduction_maximumf_single S _ Cert.KernelIdeal.Gen.reduces_S8x2048_S8 (.inl rfl) rfl j).symm
  show max (Ideal.ofBits .f32 0xFF800000#32) (Host.reduce FloatOps.maximumf S _ _ _ j) = _
  rw [Host.reduce_eq_fold_single FloatOps.maximumf S _ Cert.ReferenceIdeal.Gen.reducesTo_S8x2048_S8_d1
    Cert.KernelIdeal.Gen.reduces_S8x2048_S8 Cert.ReferenceIdeal.Gen.h_S_ j]
  show max (Ideal.ofBits .f32 0xFF800000#32) (Finset.fold _ (Ideal.ofBits .f32 0xFF800000#32) _ _) = Finset.fold _ (Ideal.ofBits .f32 0xFF800000#32) _ _
  rw [neg_inf_bits, max_bot_left]
  rfl

theorem colR_apply (m : FVec Ideal T8 .f32) (b : Fin 8) (n : Fin 2048) : colR m (ix2 b n) = m (ix1 b) := by
  unfold colR
  refine (broadcastInDim_apply _ Cert.ReferenceIdeal.Gen.bcast_S8x1_S8x2048_0_1 _ (ix2 b n) (ix2 b (0 : Fin 1))
    (fun a => match a with
      | ⟨0, _⟩ => by show b.val = if (8 : Nat) = 1 then 0 else b.val; rw [if_neg (by decide)]
      | ⟨1, _⟩ => by show 0 = if (1 : Nat) = 1 then 0 else n.val; rw [if_pos rfl])).trans ?_
  exact broadcastInDim_apply _ Cert.ReferenceIdeal.Gen.bcast_S8_S8x1_0 m (ix2 b (0 : Fin 1)) (ix1 b)
    (fun a => match a with
      | ⟨0, _⟩ => by show b.val = if (8 : Nat) = 1 then 0 else b.val; rw [if_neg (by decide)])

theorem colK_apply (m : FVec Ideal T8 .f32) (b : Fin 8) (n : Fin 2048) : colK m (ix2 b n) = m (ix1 b) := by
  unfold colK
  refine (broadcastTo_apply _ Cert.KernelIdeal.Gen.broadcasts_S8x1_S8x2048 (ix2 b n) (ix2 b (0 : Fin 1))
    (fun a => match a with
      | ⟨0, _⟩ => by show b.val = if (8 : Nat) = 1 then 0 else b.val; rw [if_neg (by decide)]
      | ⟨1, _⟩ => by show 0 = if (1 : Nat) = 1 then 0 else n.val; rw [if_pos rfl])).trans ?_
  exact shapeCast_apply m Cert.KernelIdeal.Gen.shapeCasts_S8_S8x1 (ix2 b (0 : Fin 1)) (ix1 b)
    (by rw [Shape.rowMajor_val_one, Shape.rowMajor_val_two]; show b.val = b.val * 1 + 0; omega)

theorem col_eq (m : FVec Ideal T8 .f32) : colR m = colK m := by
  funext i
  obtain ⟨b, n, rfl⟩ : ∃ (b : Fin 8) (n : Fin 2048), i = ix2 b n := ⟨i 0, i 1, eq_ix2 i⟩
  rw [colR_apply, colK_apply]

theorem sum_eq (L : FVec Ideal T8x2048 .f32) : sumR L = sumK L := by
  unfold sumR sumK
  exact (multiReduction_add_eq_hostReduceAdd (exp L) _ Cert.KernelIdeal.Gen.reduces_S8x2048_S8 (.inl rfl) rfl
    (constant (F := Ideal) T0 .f32 0x00000000#32) Cert.ReferenceIdeal.Gen.reducesTo_S8x2048_S8_d1
    Cert.ReferenceIdeal.Gen.h_S_ Ideal.ofBits_zero_f32).symm

theorem logcolR_apply (z : FVec Ideal T8 .f32) (b : Fin 8) (n : Fin 2048) :
    broadcastInDim T8x2048 ![0, 1] Cert.ReferenceIdeal.Gen.bcast_S8x1_S8x2048_0_1
      (Host.log (broadcastInDim T8x1 ![0] Cert.ReferenceIdeal.Gen.bcast_S8_S8x1_0 z)) (ix2 b n) = Ideal.log (z (ix1 b)) := by
  refine (broadcastInDim_apply _ Cert.ReferenceIdeal.Gen.bcast_S8x1_S8x2048_0_1 _ (ix2 b n) (ix2 b (0 : Fin 1))
    (fun a => match a with
      | ⟨0, _⟩ => by show b.val = if (8 : Nat) = 1 then 0 else b.val; rw [if_neg (by decide)]
      | ⟨1, _⟩ => by show 0 = if (1 : Nat) = 1 then 0 else n.val; rw [if_pos rfl])).trans ?_
  show Ideal.log (broadcastInDim T8x1 ![0] Cert.ReferenceIdeal.Gen.bcast_S8_S8x1_0 z (ix2 b (0 : Fin 1))) = _
  congr 1
  exact broadcastInDim_apply _ Cert.ReferenceIdeal.Gen.bcast_S8_S8x1_0 z (ix2 b (0 : Fin 1)) (ix1 b)
    (fun a => match a with
      | ⟨0, _⟩ => by show b.val = if (8 : Nat) = 1 then 0 else b.val; rw [if_neg (by decide)])

theorem logcolK_apply (z : FVec Ideal T8 .f32) (b : Fin 8) (n : Fin 2048) :
    broadcastTo T8x2048 (log (shapeCast T8x1 z Cert.KernelIdeal.Gen.shapeCasts_S8_S8x1))
      Cert.KernelIdeal.Gen.broadcasts_S8x1_S8x2048 (ix2 b n) = Ideal.log (z (ix1 b)) := by
  refine (broadcastTo_apply _ Cert.KernelIdeal.Gen.broadcasts_S8x1_S8x2048 (ix2 b n) (ix2 b (0 : Fin 1))
    (fun a => match a with
      | ⟨0, _⟩ => by show b.val = if (8 : Nat) = 1 then 0 else b.val; rw [if_neg (by decide)]
      | ⟨1, _⟩ => by show 0 = if (1 : Nat) = 1 then 0 else n.val; rw [if_pos rfl])).trans ?_
  show Ideal.log (shapeCast T8x1 z Cert.KernelIdeal.Gen.shapeCasts_S8_S8x1 (ix2 b (0 : Fin 1))) = _
  congr 1
  exact shapeCast_apply z Cert.KernelIdeal.Gen.shapeCasts_S8_S8x1 (ix2 b (0 : Fin 1)) (ix1 b)
    (by rw [Shape.rowMajor_val_one, Shape.rowMajor_val_two]; show b.val = b.val * 1 + 0; omega)

theorem lsm_eq (S : FVec Ideal T8x2048 .f32) : lsmR S = lsmK S := by
  funext i
  obtain ⟨b, n, rfl⟩ : ∃ (b : Fin 8) (n : Fin 2048), i = ix2 b n := ⟨i 0, i 1, eq_ix2 i⟩
  unfold lsmR lsmK
  rw [subf_apply, subf_apply (subf S (colK (maxK S))), logcolR_apply, logcolK_apply, ← max_eq, ← col_eq, ← sum_eq]

/-- The last steps of the reference are the last steps of the kernel. -/
theorem tail_eq (x3 : IVec T8x2048 1) (s : FVec Ideal T8x2048 .f32) :
    refTail x3 s = Cert.KernelIdeal.Gen.k1_pay1 (F := Ideal) s (uitofp (F := Ideal) .f32 x3) := by
  rw [k1_pay1_eq, fill_eq, ← lsm_eq]
  rfl

end Cert.Bridge

end
-- ==== Proof.BridgeKernel.lean ====
/- The second stage as one function of the two arrays the first stage leaves and of the remaining
   arguments: the layout operations that carry the arguments to the second stage's operands, then the
   second stage's arithmetic (clips of the two parameters, sums over the four block rows, distance,
   score, fill under the mask, log-softmax over each batch's nodes). -/
import proofs.«209090_g87076166960129_cont_sun_c4_39_31_alg».proof.Proof.Gen.KernelIdeal.Skeleton
import Idealize.ShloMosaic.Lib.ValueIdx

noncomputable section

namespace Cert.Bridge

open Idealize.ShloMosaic Idealize.ShloMosaic.ValueIdx Cert.KernelIdeal Cert.KernelIdeal.Gen

/-- The second stage's arithmetic on its operands as loaded: the two parameters p0, p1, the two
    [8,4,2048] arrays c, e, rows 0 and 1 of the transposed coordinates (a0, a1) and of the transposed
    current position (u0, u1), and the mask as floats mf. -/
def kTail (p0 p1 : Ideal .f32) (c e : Vec Ideal S8x4x2048 .f32) (a0 : Vec Ideal S1x8x2048 .f32)
    (u0 : Vec Ideal S1x8x1 .f32) (a1 : Vec Ideal S1x8x2048 .f32) (u1 : Vec Ideal S1x8x1 .f32)
    (mf : Vec Ideal S8x2048 .f32) : FVec Ideal S8x2048 .f32 :=
  k1_pay1 (F := Ideal) (k1_pay2 (F := Ideal) p0 p1 c e a0 u0 a1 u1) mf

/-- The second stage on two [32,2048] arrays cpa, ipa and the arguments: cpa, ipa reshaped to [8,4,2048];
    the coordinates transposed to [2,8,2048] and the current position to [2,8,1], each read a row at a
    time; the mask converted to floats; the two parameters side by side in one array of two. -/
def kOut (cpa ipa : FVec Ideal S32x2048 .f32) (mask : Vec Ideal S8x2048 .i1) (cur : Vec Ideal S8x2 .f32)
    (all : Vec Ideal S8x2048x2 .f32) (lam mu : Vec Ideal S_ .f32) : FVec Ideal S8x2048 .f32 :=
  let v7 : Vec Ideal S8x4x2048 .f32 := shapeCast S8x4x2048 cpa shapeCasts_S32x2048_S8x4x2048
  let v8 : Vec Ideal S8x4x2048 .f32 := shapeCast S8x4x2048 ipa shapeCasts_S32x2048_S8x4x2048
  let v9 : Vec Ideal S2x8x2048 .f32 := transpose S2x8x2048 [2, 0, 1] all transposes_S8x2048x2_S2x8x2048_2_0_1
  let v11 : Vec Ideal S2x8x1 .f32 :=
    broadcastInDim S2x8x1 ![0, 1] bcast_S2x8_S2x8x1_0_1 (transpose S2x8 [1, 0] cur transposes_S8x2_S2x8_1_0)
  let v12 : Vec Ideal S8x2048 .f32 := uitofp (F := Ideal) .f32 mask
  let v15 : Vec Ideal S2 .f32 :=
    concatenate S2 0 [⟨S1, broadcastInDim S1 ![] bcast_S_S1 lam⟩, ⟨S1, broadcastInDim S1 ![] bcast_S_S1 mu⟩]
      concatenates_S1_S1_S2_d0
  kTail (v15 (ix1 (0 : Fin 2))) (v15 (ix1 (1 : Fin 2))) v7 v8
    (fun i => v9 (ix3 (0 : Fin 2) (i 1) (i 2))) (fun i => v11 (ix3 (0 : Fin 2) (i 1) (i 2)))
    (fun i => v9 (ix3 (1 : Fin 2) (i 1) (i 2))) (fun i => v11 (ix3 (1 : Fin 2) (i 1) (i 2))) v12

end Cert.Bridge

end
-- ==== Proof.BridgeScore.lean ====
/- The score of node n of batch b before the fill, as one expression of the two first-stage arrays and the
   arguments: (ctx + clip(lam, -0.5, 3) * intf) - clip(mu, 0, 10) * dist, with ctx and intf the sums of the
   four block rows and dist the Euclidean distance between the node's coordinates and the current position. -/
import proofs.«209090_g87076166960129_cont_sun_c4_39_31_alg».proof.Proof.BridgeSpec

noncomputable section

open scoped BigOperators

namespace Cert.Bridge

open Idealize.ShloMosaic Idealize.ShloMosaic.ValueIdx

/-- The squared distance between node n's coordinates and batch b's current position. -/
def dist2 (cur : FVec Ideal ⟨2, ![8, 2]⟩ .f32) (all : FVec Ideal ⟨3, ![8, 2048, 2]⟩ .f32) (b : Fin 8) (n : Fin 2048) : EReal :=
  (all (ix3 b n (0 : Fin 2)) - cur (ix2 b (0 : Fin 2))) * (all (ix3 b n (0 : Fin 2)) - cur (ix2 b (0 : Fin 2)))
    + (all (ix3 b n (1 : Fin 2)) - cur (ix2 b (1 : Fin 2))) * (all (ix3 b n (1 : Fin 2)) - cur (ix2 b (1 : Fin 2)))

/-- The score of node n of batch b. The clip bounds are kept as their f32 words: -0.5, 3, 0, 10. -/
def score (cpa ipa : FVec Ideal ⟨2, ![32, 2048]⟩ .f32) (cur : FVec Ideal ⟨2, ![8, 2]⟩ .f32)
    (all : FVec Ideal ⟨3, ![8, 2048, 2]⟩ .f32) (lam mu : FVec Ideal ⟨0, ![]⟩ .f32) (b : Fin 8) (n : Fin 2048) : EReal :=
  ((∑ blk : Fin 4, cpa (ix2 (rowOf b blk) n))
      + min (Ideal.ofBits .f32 0x40400000#32) (max (Ideal.ofBits .f32 0xBF000000#32) (lam ix0))
        * ∑ blk : Fin 4, ipa (ix2 (rowOf b blk) n))
    - min (Ideal.ofBits .f32 0x41200000#32) (max (Ideal.ofBits .f32 0x00000000#32) (mu ix0))
      * Ideal.sqrt (dist2 cur all b n)

end Cert.Bridge

end
-- ==== Proof.BridgeScoreK.lean ====
/- The second stage's score arithmetic read at node n of batch b, and the layout operations that feed it:
   the score expression of the two [32,2048] arrays and the arguments. -/
import proofs.«209090_g87076166960129_cont_sun_c4_39_31_alg».proof.Proof.BridgeKernel
import proofs.«209090_g87076166960129_cont_sun_c4_39_31_alg».proof.Proof.BridgeScore
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.Bridge

open Idealize.ShloMosaic Idealize.ShloMosaic.ValueIdx Cert.KernelIdeal Cert.KernelIdeal.Gen

/-- The sum over the four block rows of an [8,4,2048] array at (b, n). -/
theorem sum4_apply (c : Vec Ideal S8x4x2048 .f32) (hφ : FKind.Formats .f32)
    (hacc : (0x00000000#32 : BitVec 32) = 0x00000000#32) (b : Fin 8) (n : Fin 2048) :
    multiReduction (F := Ideal) .add [1] S8x2048 (shapeCast S8x4x2048 c shapeCasts_S8x4x2048_S8x4x2048) 0x00000000#32
      reduces_S8x4x2048_S8x2048 hφ hacc (ix2 b n) = ∑ blk : Fin 4, c (ix3 b blk n) := by
  rw [shapeCast_self]
  refine (Ideal.multiReduction_add_single c _ reduces_S8x4x2048_S8x2048 hφ hacc (ix2 b n)).trans ?_
  refine Finset.sum_congr rfl fun blk _ => congrArg c (funext fun a => Fin.ext ?_)
  match a with
  | ⟨0, _⟩ => rfl
  | ⟨1, _⟩ => rfl
  | ⟨2, _⟩ => rfl

/-- Row 0 of a [1,8,2048] array, as an [8,2048] array, at (b, n). -/
theorem row_apply (a : Vec Ideal S1x8x2048 .f32) (b : Fin 8) (n : Fin 2048) :
    shapeCast S8x2048 a shapeCasts_S1x8x2048_S8x2048 (ix2 b n) = a (ix3 (0 : Fin 1) b n) :=
  shapeCast_1ab_ab_apply a shapeCasts_S1x8x2048_S8x2048 b n

/-- A [1,8,1] column, as [8,1], broadcast along the 2048 nodes, at (b, n). -/
theorem colu_apply (u : Vec Ideal S1x8x1 .f32) (b : Fin 8) (n : Fin 2048) :
    broadcastTo S8x2048 (shapeCast S8x1 u shapeCasts_S1x8x1_S8x1) broadcasts_S8x1_S8x2048 (ix2 b n)
      = u (ix3 (0 : Fin 1) b (0 : Fin 1)) := by
  refine (broadcastTo_apply _ broadcasts_S8x1_S8x2048 (ix2 b n) (ix2 b (0 : Fin 1))
    (fun a => match a with
      | ⟨0, _⟩ => by show b.val = if (8 : Nat) = 1 then 0 else b.val; rw [if_neg (by decide)]
      | ⟨1, _⟩ => by show 0 = if (1 : Nat) = 1 then 0 else n.val; rw [if_pos rfl])).trans ?_
  exact shapeCast_1ab_ab_apply u shapeCasts_S1x8x1_S8x1 b (0 : Fin 1)

/-- Equal parts give equal scores. -/
theorem score_congr {X X' Y Y' m m' r0 r0' c0 c0' r1 r1' c1 c1' : EReal} (hX : X = X') (hY : Y = Y')
    (h0 : r0 = r0') (k0 : c0 = c0') (h1 : r1 = r1') (k1 : c1 = c1') :
    X + m * Y - m' * Ideal.sqrt ((r0 - c0) * (r0 - c0) + (r1 - c1) * (r1 - c1))
      = X' + m * Y' - m' * Ideal.sqrt ((r0' - c0') * (r0' - c0') + (r1' - c1') * (r1' - c1')) := by
  subst hX hY h0 k0 h1 k1
  rfl

theorem sqrt_apply {s : Shape} (x : FVec Ideal s .f32) (i : s.Idx) : sqrt x i = Ideal.sqrt (x i) := rfl

/-- The score arithmetic at (b, n), over any operands. -/
theorem k1_pay2_apply (p0 p1 : Ideal .f32) (c e : Vec Ideal S8x4x2048 .f32) (a0 : Vec Ideal S1x8x2048 .f32)
    (u0 : Vec Ideal S1x8x1 .f32) (a1 : Vec Ideal S1x8x2048 .f32) (u1 : Vec Ideal S1x8x1 .f32) (b : Fin 8) (n : Fin 2048) :
    k1_pay2 (F := Ideal) p0 p1 c e a0 u0 a1 u1 (ix2 b n)
      = ((∑ blk : Fin 4, c (ix3 b blk n))
          + min (Ideal.ofBits .f32 0x40400000#32) (max (Ideal.ofBits .f32 0xBF000000#32) p0) * ∑ blk : Fin 4, e (ix3 b blk n))
        - min (Ideal.ofBits .f32 0x41200000#32) (max (Ideal.ofBits .f32 0x00000000#32) p1)
          * Ideal.sqrt ((a0 (ix3 (0 : Fin 1) b n) - u0 (ix3 (0 : Fin 1) b (0 : Fin 1))) * (a0 (ix3 (0 : Fin 1) b n) - u0 (ix3 (0 : Fin 1) b (0 : Fin 1)))
            + (a1 (ix3 (0 : Fin 1) b n) - u1 (ix3 (0 : Fin 1) b (0 : Fin 1))) * (a1 (ix3 (0 : Fin 1) b n) - u1 (ix3 (0 : Fin 1) b (0 : Fin 1)))) := by
  unfold k1_pay2
  simp only [subf_apply, addf_apply, mulf_apply, broadcast_apply, sqrt_apply]
  exact score_congr (sum4_apply c _ _ b n) (sum4_apply e _ _ b n) (row_apply a0 b n) (colu_apply u0 b n)
    (row_apply a1 b n) (colu_apply u1 b n)

/-! ## The layout operations in front of the arithmetic -/

variable (cpa ipa : FVec Ideal S32x2048 .f32) (cur : Vec Ideal S8x2 .f32) (all : Vec Ideal S8x2048x2 .f32)
  (lam mu : Vec Ideal S_ .f32)

/-- A [32,2048] array as [8,4,2048]: (b, blk, n) is row 4*b + blk. -/
theorem rows_apply (x : FVec Ideal S32x2048 .f32) (b : Fin 8) (blk : Fin 4) (n : Fin 2048) :
    shapeCast S8x4x2048 x shapeCasts_S32x2048_S8x4x2048 (ix3 b blk n) = x (ix2 (rowOf b blk) n) :=
  shapeCast_apply x shapeCasts_S32x2048_S8x4x2048 (ix3 b blk n) (ix2 (rowOf b blk) n)
    (by rw [Shape.rowMajor_val_two, Shape.rowMajor_val_three]
        show (4 * b.val + blk.val) * 2048 + n.val = (b.val * 4 + blk.val) * 2048 + n.val
        omega)

/-- The coordinates transposed to [2,8,2048]: (c, b, n) is coordinate c of node n of batch b. -/
theorem coords_apply (c : Fin 2) (b : Fin 8) (n : Fin 2048) :
    transpose S2x8x2048 [2, 0, 1] all transposes_S8x2048x2_S2x8x2048_2_0_1 (ix3 c b n) = all (ix3 b n c) :=
  transpose_apply _ all transposes_S8x2048x2_S2x8x2048_2_0_1 (ix3 c b n) (ix3 b n c)
    fun a => match a with | ⟨0, _⟩ => rfl | ⟨1, _⟩ => rfl | ⟨2, _⟩ => rfl

/-- The current position transposed to [2,8] and given a trailing unit axis: (c, b, 0) is coordinate c of batch b. -/
theorem curpos_apply (c : Fin 2) (b : Fin 8) :
    broadcastInDim S2x8x1 ![0, 1] bcast_S2x8_S2x8x1_0_1 (transpose S2x8 [1, 0] cur transposes_S8x2_S2x8_1_0)
      (ix3 c b (0 : Fin 1)) = cur (ix2 b c) := by
  refine (broadcastInDim_apply _ bcast_S2x8_S2x8x1_0_1 _ (ix3 c b (0 : Fin 1)) (ix2 c b)
    (fun a => match a with
      | ⟨0, _⟩ => by show c.val = if (2 : Nat) = 1 then 0 else c.val; rw [if_neg (by decide)]
      | ⟨1, _⟩ => by show b.val = if (8 : Nat) = 1 then 0 else b.val; rw [if_neg (by decide)])).trans ?_
  exact transpose_ix2_apply cur transposes_S8x2_S2x8_1_0 c b

/-- The two parameters side by side: entry 0 is the first. -/
theorem par0_apply :
    concatenate S2 0 [⟨S1, broadcastInDim S1 ![] bcast_S_S1 lam⟩, ⟨S1, broadcastInDim S1 ![] bcast_S_S1 mu⟩]
      concatenates_S1_S1_S2_d0 (ix1 (0 : Fin 2)) = lam ix0 := by
  refine (concatenate_pair_apply_left (t := S2) (s₁ := S1) (s₂ := S1) (0 : Fin 1) _ _ concatenates_S1_S1_S2_d0 (ix1 (0 : Fin 2)) rfl (ix1 (0 : Fin 1))
    (fun a => match a with | ⟨0, _⟩ => rfl)).trans ?_
  exact broadcastInDim_scalar_apply bcast_S_S1 lam _

/-- … and entry 1 is the second. -/
theorem par1_apply :
    concatenate S2 0 [⟨S1, broadcastInDim S1 ![] bcast_S_S1 lam⟩, ⟨S1, broadcastInDim S1 ![] bcast_S_S1 mu⟩]
      concatenates_S1_S1_S2_d0 (ix1 (1 : Fin 2)) = mu ix0 := by
  refine (concatenate_pair_apply_right (t := S2) (s₁ := S1) (s₂ := S1) (0 : Fin 1) _ _ concatenates_S1_S1_S2_d0 (ix1 (1 : Fin 2)) rfl rfl (ix1 (0 : Fin 1))
    (fun a ha => absurd (Subsingleton.elim _ _) ha) rfl).trans ?_
  exact broadcastInDim_scalar_apply bcast_S_S1 mu _

/-- The second stage's score at (b, n) is the score expression. -/
theorem kScore_apply (b : Fin 8) (n : Fin 2048) :
    k1_pay2 (F := Ideal)
      (concatenate S2 0 [⟨S1, broadcastInDim S1 ![] bcast_S_S1 lam⟩, ⟨S1, broadcastInDim S1 ![] bcast_S_S1 mu⟩]
        concatenates_S1_S1_S2_d0 (ix1 (0 : Fin 2)))
      (concatenate S2 0 [⟨S1, broadcastInDim S1 ![] bcast_S_S1 lam⟩, ⟨S1, broadcastInDim S1 ![] bcast_S_S1 mu⟩]
        concatenates_S1_S1_S2_d0 (ix1 (1 : Fin 2)))
      (shapeCast S8x4x2048 cpa shapeCasts_S32x2048_S8x4x2048) (shapeCast S8x4x2048 ipa shapeCasts_S32x2048_S8x4x2048)
      (fun i => transpose S2x8x2048 [2, 0, 1] all transposes_S8x2048x2_S2x8x2048_2_0_1 (ix3 (0 : Fin 2) (i 1) (i 2)))
      (fun i => broadcastInDim S2x8x1 ![0, 1] bcast_S2x8_S2x8x1_0_1 (transpose S2x8 [1, 0] cur transposes_S8x2_S2x8_1_0)
        (ix3 (0 : Fin 2) (i 1) (i 2)))
      (fun i => transpose S2x8x2048 [2, 0, 1] all transposes_S8x2048x2_S2x8x2048_2_0_1 (ix3 (1 : Fin 2) (i 1) (i 2)))
      (fun i => broadcastInDim S2x8x1 ![0, 1] bcast_S2x8_S2x8x1_0_1 (transpose S2x8 [1, 0] cur transposes_S8x2_S2x8_1_0)
        (ix3 (1 : Fin 2) (i 1) (i 2)))
      (ix2 b n)
      = score cpa ipa cur all lam mu b n := by
  rw [k1_pay2_apply, par0_apply, par1_apply]
  simp only [rows_apply]
  show _ - _ * Ideal.sqrt
      ((transpose S2x8x2048 [2, 0, 1] all transposes_S8x2048x2_S2x8x2048_2_0_1 (ix3 (0 : Fin 2) b n)
          - broadcastInDim S2x8x1 ![0, 1] bcast_S2x8_S2x8x1_0_1 (transpose S2x8 [1, 0] cur transposes_S8x2_S2x8_1_0) (ix3 (0 : Fin 2) b (0 : Fin 1)))
        * (transpose S2x8x2048 [2, 0, 1] all transposes_S8x2048x2_S2x8x2048_2_0_1 (ix3 (0 : Fin 2) b n)
          - broadcastInDim S2x8x1 ![0, 1] bcast_S2x8_S2x8x1_0_1 (transpose S2x8 [1, 0] cur transposes_S8x2_S2x8_1_0) (ix3 (0 : Fin 2) b (0 : Fin 1)))
        + (transpose S2x8x2048 [2, 0, 1] all transposes_S8x2048x2_S2x8x2048_2_0_1 (ix3 (1 : Fin 2) b n)
          - broadcastInDim S2x8x1 ![0, 1] bcast_S2x8_S2x8x1_0_1 (transpose S2x8 [1, 0] cur transposes_S8x2_S2x8_1_0) (ix3 (1 : Fin 2) b (0 : Fin 1)))
        * (transpose S2x8x2048 [2, 0, 1] all transposes_S8x2048x2_S2x8x2048_2_0_1 (ix3 (1 : Fin 2) b n)
          - broadcastInDim S2x8x1 ![0, 1] bcast_S2x8_S2x8x1_0_1 (transpose S2x8 [1, 0] cur transposes_S8x2_S2x8_1_0) (ix3 (1 : Fin 2) b (0 : Fin 1)))) = _
  rw [coords_apply, coords_apply, curpos_apply, curpos_apply]
  rfl

/-- So the kernel-side function, on any two [32,2048] arrays, is the kernel's last steps on the score array. -/
theorem kOut_eq (mask : Vec Ideal S8x2048 .i1) :
    kOut cpa ipa mask cur all lam mu
      = k1_pay1 (F := Ideal) (fun i => score cpa ipa cur all lam mu (i 0) (i 1)) (uitofp (F := Ideal) .f32 mask) := by
  unfold kOut kTail
  refine congrArg (fun s => k1_pay1 (F := Ideal) s (uitofp (F := Ideal) .f32 mask)) (funext fun i => ?_)
  obtain ⟨b, n, rfl⟩ : ∃ (b : Fin 8) (n : Fin 2048), i = ix2 b n := ⟨i 0, i 1, eq_ix2 i⟩
  exact kScore_apply cpa ipa cur all lam mu b n

end Cert.Bridge

end
-- ==== Proof.BridgeGather.lean ====
/- The reference's gather of neighbour rows (take_along_axis over the node axis, the 2048*16 indices of a
   batch laid flat): under the input domain — every index in [0, 2047] — the wrap of negative indices and the
   out-of-range fill do nothing, and entry (b, 16*n+k, D) of the gathered array is psi(b, nbr(b,n,k), D). -/
import proofs.«209090_g87076166960129_cont_sun_c4_39_31_alg».proof.Proof.RefRead
import proofs.«209090_g87076166960129_cont_sun_c4_39_31_alg».proof.Proof.BridgeSpec
import proofs.«209090_g87076166960129_cont_sun_c4_39_31_alg».proof.Proof.BridgePre
import Idealize.ShloMosaic.Lib.ValueIdx

noncomputable section

namespace Cert.Bridge

open Idealize.ShloMosaic Idealize.ShloMosaic.ValueIdx Cert.ReferenceIdeal Cert.ReferenceIdeal.Gen

/-- The flat position 16*n + k of neighbour k of node n. -/
abbrev flat (n : Fin 2048) (k : Fin 16) : Fin 32768 := ⟨16 * n.val + k.val, by omega⟩

variable (psi : FVec Ideal S8x2048x128 .f32) (knn : IVec S8x2048x16 32)

/-- The flat index array at (b, 16*n+k) is the index array at (b, n, k). -/
theorem idx_knn (b : Fin 8) (n : Fin 2048) (k : Fin 16) (u : Fin 1) :
    ReadP.idx_main_v4 (ReadP.idx_main_v5 (ix3 b (flat n k) u)) = ix3 b n k := by
  funext a
  match a with
  | ⟨0, _⟩ => exact Fin.ext (by show (b.val * 32768 + (16 * n.val + k.val)) / 32768 = b.val; omega)
  | ⟨1, _⟩ => exact Fin.ext (by show (b.val * 32768 + (16 * n.val + k.val)) / 16 % 2048 = n.val; omega)
  | ⟨2, _⟩ => exact Fin.ext (by show (b.val * 32768 + (16 * n.val + k.val)) % 16 = k.val; omega)

theorem toInt_zero32 : (0#32 : BitVec 32).toInt = 0 := by decide
theorem toInt_2047 : (2047#32 : BitVec 32).toInt = 2047 := by decide

/-- A nonnegative index is not wrapped. -/
theorem wrap_apply (hk : ∀ i, 0 ≤ (knn i).toInt ∧ (knn i).toInt ≤ 2047) (b : Fin 8) (n : Fin 2048) (k : Fin 16) (u : Fin 1) :
    ReadP.val_main_call0_v4 (F := Ideal) knn (ix3 b (flat n k) u) = knn (ix3 b n k) := by
  rw [ReadP.val_main_call0_v4_apply, ReadP.val_main_call0_v1_apply, ReadP.val_main_v5_apply, ReadP.val_main_v4_apply, idx_knn,
    ReadP.val_main_call0_v0_apply, ReadP.val_main_call0_c_apply]
  have h0 := (hk (ix3 b n k)).1
  have hz : IntOp.cmpi .slt (knn (ix3 b n k)) 0#32 = 0#1 :=
    eq_zero_of_ne_one fun h => by
      have := IntOp.cmpi_slt.1 h
      rw [toInt_zero32] at this
      omega
  rw [hz, select_zero]

/-- A fold over the one-element index set. -/
theorem fold_fin_one {α : Type} (op : α → α → α) [Std.Commutative op] [Std.Associative op] (init : α) (f : Fin 1 → α) :
    (Finset.univ : Finset (Fin 1)).fold op init f = op (f 0) init := by
  rw [Finset.univ_unique, Finset.fold_singleton]
  rfl

theorem reduces_trailing_unit : S8x32768x1.Reduces [2] S8x32768 := by decide

/-- An index in [0, 2047] is in bounds. -/
theorem inb_apply (hk : ∀ i, 0 ≤ (knn i).toInt ∧ (knn i).toInt ≤ 2047) (b : Fin 8) (n : Fin 2048) (k : Fin 16) (D : Fin 128) :
    ReadP.val_main_call0_v13 (F := Ideal) knn (ix3 b (flat n k) D) = 1#1 := by
  rw [ReadP.val_main_call0_v13_apply]
  unfold ReadP.val_main_call0_v11
  rw [Host.reduce_eq_fold_single IntOp.andi _ _ reducesTo_S8x32768x1_S8x32768_d2 reduces_trailing_unit h_S_]
  refine (fold_fin_one IntOp.andi _ _).trans ?_
  show IntOp.andi (ReadP.val_main_call0_v10 (F := Ideal) knn
    (reduces_trailing_unit.lift (ReadP.idx_main_call0_v13 (ix3 b (flat n k) D)) (0 : Fin 1))) (ReadP.val_main_call0_c_3 (F := Ideal) _) = 1#1
  have hidx : (reduces_trailing_unit.lift (ReadP.idx_main_call0_v13 (ix3 b (flat n k) D)) (0 : Fin 1))
      = ix3 b (flat n k) (0 : Fin 1) := by
    funext a
    match a with
    | ⟨0, _⟩ => rfl
    | ⟨1, _⟩ => rfl
    | ⟨2, _⟩ => rfl
  rw [hidx, ReadP.val_main_call0_c_3_apply, ReadP.val_main_call0_v10_apply, ReadP.val_main_call0_v6_apply,
    ReadP.val_main_call0_v9_apply, wrap_apply knn hk, ReadP.val_main_call0_v5_apply, ReadP.val_main_call0_c_2_apply,
    ReadP.val_main_call0_v8_apply, ReadP.val_main_call0_v7_apply, ReadP.val_main_call0_c_1_apply]
  have h := hk (ix3 b n k)
  have h1 : IntOp.cmpi .sge (knn (ix3 b n k)) 0#32 = 1#1 := IntOp.cmpi_sge.2 (by rw [toInt_zero32]; exact h.1)
  have h2 : IntOp.cmpi .sle (knn (ix3 b n k)) 2047#32 = 1#1 := IntOp.cmpi_sle.2 (by rw [toInt_2047]; exact h.2)
  rw [h1, h2]
  decide

abbrev gd := gather_S8x2048x128_S8x32768x1_S8x32768x128_2_1_0_0_1_2_11128

/-- The gather at (b, m, D) reads the operand at (b, the start index at (b, m, 0) read signed and capped at 2047, D). -/
theorem gather_apply (x : FVec Ideal S8x2048x128 .f32) (idx : IVec S8x32768x1 32) (b : Fin 8) (m : Fin 32768) (D : Fin 128)
    (j : Fin 2048) (hj : j.val = min (idx (ix3 b m (0 : Fin 1))).toInt.toNat 2047) :
    Host.gather gd x idx (ix3 b m D) = x (ix3 b j D) := by
  unfold Host.gather
  refine congrArg x (funext fun a => Fin.ext ?_)
  match a with
  | ⟨0, _⟩ =>
    show gd.start (ix3 b m D) idx 0 + gd.batchCoord (ix3 b m D) 0 + gd.offCoord (ix3 b m D) 0 = b.val
    rw [gd.start_batching _ _ _ (by decide), gd.offCoord_eq_zero _ _ (by decide), Nat.zero_add, Nat.add_zero]
    unfold GatherDims.batchCoord
    rw [dif_pos (by decide)]
    rfl
  | ⟨1, _⟩ =>
    show gd.start (ix3 b m D) idx 1 + gd.batchCoord (ix3 b m D) 1 + gd.offCoord (ix3 b m D) 1 = j.val
    rw [hj, gd.batchCoord_eq_zero _ _ (by decide), gd.offCoord_eq_zero _ _ (by decide)]
    show gd.start (ix3 b m D) idx 1 = _
    unfold GatherDims.start
    rw [dif_pos (by decide)]
    have hsi : gd.siIdx (ix3 b m D) ⟨List.idxOf (1 : Fin 3) gd.startIndexMap, List.idxOf_lt_length_iff.2 (by decide)⟩
        = ix3 b m (0 : Fin 1) := by
      funext c; refine Fin.ext ?_
      match c with
      | ⟨0, _⟩ => rfl
      | ⟨1, _⟩ => rfl
      | ⟨2, _⟩ => rfl
    rw [hsi]
    rfl
  | ⟨2, _⟩ =>
    show gd.start (ix3 b m D) idx 2 + gd.batchCoord (ix3 b m D) 2 + gd.offCoord (ix3 b m D) 2 = D.val
    rw [gd.batchCoord_eq_zero _ _ (by decide), Nat.add_zero]
    unfold GatherDims.start GatherDims.offCoord
    rw [dif_neg (by decide), dif_pos (by decide), Nat.zero_add]
    rfl

/-- The gathered array at (b, 16*n+k, D) is psi at neighbour k of node n. -/
theorem take_apply (hk : ∀ i, 0 ≤ (knn i).toInt ∧ (knn i).toInt ≤ 2047) (b : Fin 8) (n : Fin 2048) (k : Fin 16) (D : Fin 128) :
    ReadP.val_main_v6 (F := Ideal) psi knn (ix3 b (flat n k) D) = psi (ix3 b (nbr knn b n k) D) := by
  rw [ReadP.val_main_v6_apply, inb_apply knn hk, select_one]
  unfold ReadP.val_main_call0_v12
  refine gather_apply psi _ b (flat n k) D (nbr knn b n k) ?_
  rw [wrap_apply knn hk]
  have h := hk (ix3 b n k)
  have hr := toNat_of_toInt_range (knn (ix3 b n k)) h.1 h.2
  show min (knn (ix3 b n k)).toNat 2047 = min (knn (ix3 b n k)).toInt.toNat 2047
  rw [hr.2, Int.toNat_natCast]

end Cert.Bridge

end
-- ==== Proof.BridgeScoreR.lean ====
/- The reference's score before the fill, read at node n of batch b: the score expression of cp, ip and
   the arguments. The context sum regroups 128 = 4 x 32; the interference sum exchanges the sums over
   neighbours and coordinates and pulls psi(b,n,D) out of the sum over neighbours (the entries are real);
   the distance is the sum of two squares from 0. -/
import proofs.«209090_g87076166960129_cont_sun_c4_39_31_alg».proof.Proof.BridgeGather
import proofs.«209090_g87076166960129_cont_sun_c4_39_31_alg».proof.Proof.BridgeScore
import Idealize.ShloMosaic.PureOps.Ideal.Laws

noncomputable section

open scoped BigOperators

namespace Cert.Bridge

open Idealize.ShloMosaic Idealize.ShloMosaic.ValueIdx Cert.ReferenceIdeal Cert.ReferenceIdeal.Gen

variable (q : FVec Ideal S8x128 .f32) (psi : FVec Ideal S8x2048x128 .f32) (knn : IVec S8x2048x16 32)
  (cur : FVec Ideal S8x2 .f32) (all : FVec Ideal S8x2048x2 .f32) (lam mu : FVec Ideal S_ .f32)

/-! ## Index equations -/

theorem idx3 (b : Fin 8) (n : Fin 2048) (k : Fin 128) : ReadP.idx_main_v3 (ix2 b n) k = ix3 b n k := by
  funext a; match a with | ⟨0, _⟩ => rfl | ⟨1, _⟩ => rfl | ⟨2, _⟩ => rfl
theorem idx01 (b : Fin 8) (n : Fin 2048) (k : Fin 128) : ReadP.idx_main_v0 (ReadP.idx_main_v1 (ix3 b n k)) = ix2 b k := by
  funext a; match a with | ⟨0, _⟩ => rfl | ⟨1, _⟩ => rfl
theorem idx12 (b : Fin 8) (n : Fin 2048) (k : Fin 16) : ReadP.idx_main_v12 (ix2 b n) k = ix3 b n k := by
  funext a; match a with | ⟨0, _⟩ => rfl | ⟨1, _⟩ => rfl | ⟨2, _⟩ => rfl
theorem idx11 (b : Fin 8) (n : Fin 2048) (k : Fin 16) (D : Fin 128) : ReadP.idx_main_v11 (ix3 b n k) D = ix4 b n k D := by
  funext a; match a with | ⟨0, _⟩ => rfl | ⟨1, _⟩ => rfl | ⟨2, _⟩ => rfl | ⟨3, _⟩ => rfl
theorem idx89 (b : Fin 8) (n : Fin 2048) (k : Fin 16) (D : Fin 128) :
    ReadP.idx_main_v8 (ReadP.idx_main_v9 (ix4 b n k D)) = ix3 b n D := by
  funext a; match a with | ⟨0, _⟩ => rfl | ⟨1, _⟩ => rfl | ⟨2, _⟩ => rfl
theorem idx7 (b : Fin 8) (n : Fin 2048) (k : Fin 16) (D : Fin 128) :
    ReadP.idx_main_v7 (ix4 b n k D) = ix3 b (flat n k) D := by
  funext a
  match a with
  | ⟨0, _⟩ => exact Fin.ext (by show (((b.val * 2048 + n.val) * 16 + k.val) * 128 + D.val) / 4194304 = b.val; omega)
  | ⟨1, _⟩ => exact Fin.ext (by show (((b.val * 2048 + n.val) * 16 + k.val) * 128 + D.val) / 128 % 32768 = 16 * n.val + k.val; omega)
  | ⟨2, _⟩ => exact Fin.ext (by show (((b.val * 2048 + n.val) * 16 + k.val) * 128 + D.val) % 128 = D.val; omega)
theorem idx17 (b : Fin 8) (n : Fin 2048) (c : Fin 2) : ReadP.idx_main_v17 (ix2 b n) c = ix3 b n c := by
  funext a; match a with | ⟨0, _⟩ => rfl | ⟨1, _⟩ => rfl | ⟨2, _⟩ => rfl
theorem idx1314 (b : Fin 8) (n : Fin 2048) (c : Fin 2) : ReadP.idx_main_v13 (ReadP.idx_main_v14 (ix3 b n c)) = ix2 b c := by
  funext a; match a with | ⟨0, _⟩ => rfl | ⟨1, _⟩ => rfl

/-! ## The five parts of the score -/

theorem ctxR_apply (b : Fin 8) (n : Fin 2048) :
    ReadP.val_main_v3 (F := Ideal) q psi (ix2 b n) = ∑ blk : Fin 4, cp q psi (ix2 (rowOf b blk) n) := by
  rw [ReadP.val_main_v3_apply, ReadP.val_main_cst_apply, ← ctx_eq]
  show Ideal.ofBits .f32 0x00000000#32 + _ = _
  rw [Ideal.ofBits_zero_f32, zero_add]
  refine Finset.sum_congr rfl fun k _ => ?_
  rw [idx3, ReadP.val_main_v2_apply, ReadP.val_main_v1_apply, ReadP.val_main_v0_apply, idx01]
  rfl

theorem lamR_apply (b : Fin 8) (n : Fin 2048) :
    ReadP.val_main_v21 (F := Ideal) lam (ix2 b n)
      = min (Ideal.ofBits .f32 0x40400000#32) (max (Ideal.ofBits .f32 0xBF000000#32) (lam ix0)) := by
  rw [ReadP.val_main_v21_apply, ReadP.val_main_v20_apply, ReadP.val_main_call2_v2_apply, ReadP.val_main_cst_6_apply,
    ReadP.val_main_call2_v1_apply, ReadP.val_main_call2_v0_apply, ReadP.val_main_cst_5_apply]
  rfl

theorem muR_apply (b : Fin 8) (n : Fin 2048) :
    ReadP.val_main_v24 (F := Ideal) mu (ix2 b n)
      = min (Ideal.ofBits .f32 0x41200000#32) (max (Ideal.ofBits .f32 0x00000000#32) (mu ix0)) := by
  rw [ReadP.val_main_v24_apply, ReadP.val_main_v19_apply, ReadP.val_main_call1_v2_apply, ReadP.val_main_cst_4_apply,
    ReadP.val_main_call1_v1_apply, ReadP.val_main_call1_v0_apply, ReadP.val_main_cst_3_apply]
  rfl

theorem intfR_apply (hpsi : ∀ i, ∃ r : ℝ, psi i = (r : EReal))
    (hk : ∀ i, 0 ≤ (knn i).toInt ∧ (knn i).toInt ≤ 2047) (b : Fin 8) (n : Fin 2048) :
    ReadP.val_main_v12 (F := Ideal) psi knn (ix2 b n) = ∑ blk : Fin 4, ip psi knn (ix2 (rowOf b blk) n) := by
  rw [ReadP.val_main_v12_apply, ReadP.val_main_cst_1_apply, ← intf_eq psi knn hpsi]
  show Ideal.ofBits .f32 0x00000000#32 + _ = _
  rw [Ideal.ofBits_zero_f32, zero_add]
  refine Finset.sum_congr rfl fun k _ => ?_
  rw [idx12, ReadP.val_main_v11_apply, ReadP.val_main_cst_0_apply]
  show Ideal.ofBits .f32 0x00000000#32 + _ = _
  rw [Ideal.ofBits_zero_f32, zero_add]
  refine Finset.sum_congr rfl fun D _ => ?_
  rw [idx11, ReadP.val_main_v10_apply, ReadP.val_main_v9_apply, ReadP.val_main_v8_apply, idx89, ReadP.val_main_v7_apply, idx7,
    take_apply psi knn hk]
  rfl

theorem distR_apply (b : Fin 8) (n : Fin 2048) :
    ReadP.val_main_v18 (F := Ideal) cur all (ix2 b n) = Ideal.sqrt (dist2 cur all b n) := by
  rw [ReadP.val_main_v18_apply, ReadP.val_main_v17_apply, ReadP.val_main_cst_2_apply, Fin.sum_univ_two, idx17, idx17,
    ReadP.val_main_v16_apply, ReadP.val_main_v16_apply, ReadP.val_main_v15_apply, ReadP.val_main_v15_apply,
    ReadP.val_main_v14_apply, ReadP.val_main_v14_apply, ReadP.val_main_v13_apply, ReadP.val_main_v13_apply, idx1314, idx1314]
  show Ideal.sqrt (Ideal.ofBits .f32 0x00000000#32 + _) = _
  rw [Ideal.ofBits_zero_f32, zero_add]
  rfl

/-- The reference's score at (b, n) is the score expression of cp and ip. -/
theorem rScore_apply (hpsi : ∀ i, ∃ r : ℝ, psi i = (r : EReal))
    (hk : ∀ i, 0 ≤ (knn i).toInt ∧ (knn i).toInt ≤ 2047) (b : Fin 8) (n : Fin 2048) :
    ReadP.val_main_v26 (F := Ideal) q psi knn cur all lam mu (ix2 b n)
      = score (cp q psi) (ip psi knn) cur all lam mu b n := by
  rw [ReadP.val_main_v26_apply, ReadP.val_main_v23_apply, ReadP.val_main_v25_apply, ReadP.val_main_v22_apply,
    ctxR_apply, lamR_apply, muR_apply, intfR_apply psi knn hpsi hk, distR_apply]
  rfl

end Cert.Bridge

end
-- ==== Proof.BridgeRef.lean ====
/- The reference's result and the kernel-side function of cp and ip are one function of the arguments:
   the reference's result is its last steps (fill, log-softmax) on its score array; its score array is the
   score expression of cp and ip at every node (under the input domain); the kernel-side function is the
   kernel's last steps on the same score array; and the two last steps agree. -/
import proofs.«209090_g87076166960129_cont_sun_c4_39_31_alg».proof.Proof.RefRead
import proofs.«209090_g87076166960129_cont_sun_c4_39_31_alg».proof.Proof.BridgePre
import proofs.«209090_g87076166960129_cont_sun_c4_39_31_alg».proof.Proof.BridgeTail
import proofs.«209090_g87076166960129_cont_sun_c4_39_31_alg».proof.Proof.BridgeScoreK
import proofs.«209090_g87076166960129_cont_sun_c4_39_31_alg».proof.Proof.BridgeScoreR

noncomputable section

namespace Cert.Bridge

open Idealize.ShloMosaic Idealize.ShloMosaic.ValueIdx Cert.ReferenceIdeal Cert.ReferenceIdeal.Gen

variable {q : FVec Ideal S8x128 .f32} {psi : FVec Ideal S8x2048x128 .f32} {knn : IVec S8x2048x16 32}
  {mask : IVec S8x2048 1} {cur : FVec Ideal S8x2 .f32} {all : FVec Ideal S8x2048x2 .f32}
  {lam mu : FVec Ideal S_ .f32}

/-- The reference's result is its last steps applied to its score array. -/
theorem ref_tail :
    ReadP.val_main_v28 (F := Ideal) q psi knn mask cur all lam mu
      = refTail mask (ReadP.val_main_v26 (F := Ideal) q psi knn cur all lam mu) := rfl

/-- The reference's score array is the score expression of cp and ip at every node. -/
theorem ref_score (hpre : Cert.Pre_input_domain.fn (F := Ideal) q psi knn mask cur all lam mu = fun _ => 1#1) :
    ReadP.val_main_v26 (F := Ideal) q psi knn cur all lam mu
      = fun i => score (cp q psi) (ip psi knn) cur all lam mu (i 0) (i 1) := by
  have hs := pre_split hpre
  funext i
  obtain ⟨b, n, rfl⟩ : ∃ (b : Fin 8) (n : Fin 2048), i = ix2 b n := ⟨i 0, i 1, eq_ix2 i⟩
  exact rScore_apply q psi knn cur all lam mu hs.2.1 hs.2.2.2.2.2.2 b n

/-- Under the input domain the reference's result is the kernel-side function of cp and ip. -/
theorem ref_eq (hpre : Cert.Pre_input_domain.fn (F := Ideal) q psi knn mask cur all lam mu = fun _ => 1#1) :
    ReadP.val_main_v28 (F := Ideal) q psi knn mask cur all lam mu
      = kOut (cp q psi) (ip psi knn) mask cur all lam mu := by
  rw [ref_tail, ref_score hpre, tail_eq, kOut_eq]

end Cert.Bridge

end
-- ==== Proof.ValueFinal.lean ====
/- The value the second stage leaves, from the first stage's two arrays holding cp and ip and the arguments
   carried through the layout operations, is the reference's result: the second stage's loads of rows 0 and 1
   and of the two parameter words are the plain row slices, so its result is the kernel-side function of cp
   and ip, which the reference's result equals under the input domain. -/
import proofs.«209090_g87076166960129_cont_sun_c4_39_31_alg».proof.Proof.TcRegion
import proofs.«209090_g87076166960129_cont_sun_c4_39_31_alg».proof.Proof.BridgeRef

noncomputable section

namespace Cert.KernelIdeal.ValueFinal

open Cert.KernelIdeal Cert.KernelIdeal.Gen Idealize.ShloMosaic Idealize.ShloMosaic.ValueIdx

/-! ## The second stage's loads are the row slices -/

theorem ld_rowA0 (a9 : Vec Ideal S2x8x2048 .f32) :
    View.ld a9 TcRegion.rowA0 = fun i => a9 (ix3 (0 : Fin 2) (i 1) (i 2)) := by
  funext i
  show a9 _ = a9 _
  congr 1
  funext a
  match a with
  | ⟨0, _⟩ => exact Fin.ext (by have h : (i 0).val < 1 := (i 0).isLt; show 0 + 1 * (i 0).val = 0; omega)
  | ⟨1, _⟩ => exact Fin.ext (by show 0 + 1 * (i 1).val = (i 1).val; omega)
  | ⟨2, _⟩ => exact Fin.ext (by show 0 + 1 * (i 2).val = (i 2).val; omega)

theorem ld_rowA1 (a9 : Vec Ideal S2x8x2048 .f32) :
    View.ld a9 TcRegion.rowA1 = fun i => a9 (ix3 (1 : Fin 2) (i 1) (i 2)) := by
  funext i
  show a9 _ = a9 _
  congr 1
  funext a
  match a with
  | ⟨0, _⟩ => exact Fin.ext (by have h : (i 0).val < 1 := (i 0).isLt; show 1 + 1 * (i 0).val = 1; omega)
  | ⟨1, _⟩ => exact Fin.ext (by show 0 + 1 * (i 1).val = (i 1).val; omega)
  | ⟨2, _⟩ => exact Fin.ext (by show 0 + 1 * (i 2).val = (i 2).val; omega)

theorem ld_rowC0 (a11 : Vec Ideal S2x8x1 .f32) :
    View.ld a11 TcRegion.rowC0 = fun i => a11 (ix3 (0 : Fin 2) (i 1) (i 2)) := by
  funext i
  show a11 _ = a11 _
  congr 1
  funext a
  match a with
  | ⟨0, _⟩ => exact Fin.ext (by have h : (i 0).val < 1 := (i 0).isLt; show 0 + 1 * (i 0).val = 0; omega)
  | ⟨1, _⟩ => exact Fin.ext (by show 0 + 1 * (i 1).val = (i 1).val; omega)
  | ⟨2, _⟩ => exact Fin.ext (by show 0 + 1 * (i 2).val = (i 2).val; omega)

theorem ld_rowC1 (a11 : Vec Ideal S2x8x1 .f32) :
    View.ld a11 TcRegion.rowC1 = fun i => a11 (ix3 (1 : Fin 2) (i 1) (i 2)) := by
  funext i
  show a11 _ = a11 _
  congr 1
  funext a
  match a with
  | ⟨0, _⟩ => exact Fin.ext (by have h : (i 0).val < 1 := (i 0).isLt; show 1 + 1 * (i 0).val = 1; omega)
  | ⟨1, _⟩ => exact Fin.ext (by show 0 + 1 * (i 1).val = (i 1).val; omega)
  | ⟨2, _⟩ => exact Fin.ext (by show 0 + 1 * (i 2).val = (i 2).val; omega)

theorem ld_word0 (a15 : Vec Ideal S2 .f32) :
    View.ld a15 TcRegion.word0 (Shape.Idx.first TcRegion.word0_pos) = a15 (ix1 (0 : Fin 2)) := by
  show a15 _ = a15 _
  congr 1
  funext a
  match a with
  | ⟨0, _⟩ => exact Fin.ext rfl

theorem ld_word1 (a15 : Vec Ideal S2 .f32) :
    View.ld a15 TcRegion.word1 (Shape.Idx.first TcRegion.word1_pos) = a15 (ix1 (1 : Fin 2)) := by
  show a15 _ = a15 _
  congr 1
  funext a
  match a with
  | ⟨0, _⟩ => exact Fin.ext rfl

/-! ## The second stage's result -/

variable (c60 c61 : FVec Ideal S32x2048 .f32) (mask : Vec Ideal S8x2048 .i1) (cur : Vec Ideal S8x2 .f32)
  (all : Vec Ideal S8x2048x2 .f32) (lam mu : Vec Ideal S_ .f32)

/-- The second stage's result on the arguments carried through the layout operations is the kernel-side function. -/
theorem tcOut_eq_kOut :
    TcRegion.tcOut (F := Ideal) (shapeCast S8x4x2048 c60 shapeCasts_S32x2048_S8x4x2048)
        (shapeCast S8x4x2048 c61 shapeCasts_S32x2048_S8x4x2048)
        (transpose S2x8x2048 [2, 0, 1] all transposes_S8x2048x2_S2x8x2048_2_0_1)
        (broadcastInDim S2x8x1 ![0, 1] bcast_S2x8_S2x8x1_0_1 (transpose S2x8 [1, 0] cur transposes_S8x2_S2x8_1_0))
        (uitofp (F := Ideal) .f32 mask)
        (concatenate S2 0 [⟨S1, broadcastInDim S1 ![] bcast_S_S1 lam⟩, ⟨S1, broadcastInDim S1 ![] bcast_S_S1 mu⟩]
          concatenates_S1_S1_S2_d0)
      = Cert.Bridge.kOut c60 c61 mask cur all lam mu := by
  unfold TcRegion.tcOut Cert.Bridge.kOut Cert.Bridge.kTail
  rw [ld_rowA0, ld_rowA1, ld_rowC0, ld_rowC1, ld_word0, ld_word1]
  rfl

variable {q : FVec Ideal S8x128 .f32} {psi : FVec Ideal S8x2048x128 .f32} {knn : IVec S8x2048x16 32}
  {mask cur all lam mu}

/-- With the first stage's arrays holding cp and ip, the second stage's result is the reference's result. -/
theorem vout_eq (hpre : Cert.Pre_input_domain.fn (F := Ideal) q psi knn mask cur all lam mu = fun _ => 1#1)
    (c60 c61 : FVec Ideal S32x2048 .f32)
    (h60 : ∀ (w : Fin 32) (n : Fin 2048), c60 (ix2 w n) = Cert.Bridge.cp q psi (ix2 w n))
    (h61 : ∀ (w : Fin 32) (n : Fin 2048), c61 (ix2 w n) = Cert.Bridge.ip psi knn (ix2 w n)) :
    TcRegion.tcOut (F := Ideal) (shapeCast S8x4x2048 c60 shapeCasts_S32x2048_S8x4x2048)
        (shapeCast S8x4x2048 c61 shapeCasts_S32x2048_S8x4x2048)
        (transpose S2x8x2048 [2, 0, 1] all transposes_S8x2048x2_S2x8x2048_2_0_1)
        (broadcastInDim S2x8x1 ![0, 1] bcast_S2x8_S2x8x1_0_1 (transpose S2x8 [1, 0] cur transposes_S8x2_S2x8_1_0))
        (uitofp (F := Ideal) .f32 mask)
        (concatenate S2 0 [⟨S1, broadcastInDim S1 ![] bcast_S_S1 lam⟩, ⟨S1, broadcastInDim S1 ![] bcast_S_S1 mu⟩]
          concatenates_S1_S1_S2_d0)
      = Cert.ReferenceIdeal.ReadP.val_main_v28 (F := Ideal) q psi knn mask cur all lam mu := by
  have e60 : c60 = Cert.Bridge.cp q psi := funext fun i => by
    obtain ⟨w, n, rfl⟩ : ∃ (w : Fin 32) (n : Fin 2048), i = ix2 w n := ⟨i 0, i 1, eq_ix2 i⟩
    exact h60 w n
  have e61 : c61 = Cert.Bridge.ip psi knn := funext fun i => by
    obtain ⟨w, n, rfl⟩ : ∃ (w : Fin 32) (n : Fin 2048), i = ix2 w n := ⟨i 0, i 1, eq_ix2 i⟩
    exact h61 w n
  rw [tcOut_eq_kOut, e60, e61]
  exact (Cert.Bridge.ref_eq hpre).symm

end Cert.KernelIdeal.ValueFinal

end
-- ==== Proof.TripValueIdeal.lean ====
/- One trip of a task's loop, read at the extended reals: when the table scratch holds row w of the regrouped
   psi, the index scratch the neighbour indices of batch b (node axis last) and the query scratch row w of q
   (w = 4*b + blk), and every index is below 2048, lane l of the vector trip k stores is entry (w, 16*k + l)
   of cp, resp. of ip: a left fold of a_i * b_i from 0 is their sum, and sixteen vectors added pairwise are
   their sum. -/
import proofs.«209090_g87076166960129_cont_sun_c4_39_31_alg».proof.Proof.TripValue
import proofs.«209090_g87076166960129_cont_sun_c4_39_31_alg».proof.Proof.BridgeSpec
import Idealize.ShloMosaic.Lib.ValueLayout
import Idealize.ShloMosaic.Lib.Pipeline.Value
import Idealize.ShloMosaic.PureOps.Ideal.Laws

noncomputable section

open scoped BigOperators

namespace Cert.KernelIdeal.TripValue

open Cert.KernelIdeal Cert.KernelIdeal.Gen Idealize.ShloMosaic Idealize.ShloMosaic.ValueIdx Cert.Bridge

local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)

/-! ## Sums -/

/-- Sixteen terms added pairwise are their sum. -/
theorem sum16 {M : Type*} [AddCommMonoid M] (f : Fin 16 → M) :
    ∑ j, f j = (((f 0 + f 1) + (f 2 + f 3)) + ((f 4 + f 5) + (f 6 + f 7)))
      + (((f 8 + f 9) + (f 10 + f 11)) + ((f 12 + f 13) + (f 14 + f 15))) := by
  simp only [Fin.sum_univ_succ, Fin.sum_univ_zero, add_zero]
  show f 0 + (f 1 + (f 2 + (f 3 + (f 4 + (f 5 + (f 6 + (f 7 + (f 8 + (f 9 + (f 10 + (f 11 + (f 12 + (f 13 + (f 14 + f 15)))))))))))))) = _
  abel

section Generic
variable (o ql : Fin 32 → Vec Ideal S1x16 .f32) (il : Fin 16 → Vec Ideal S1x16 .i32) (T : Vec Ideal S32x2048 .f32)

theorem zeroV_apply (x : S16.Idx) : zeroV (F := Ideal) x = 0 := Ideal.ofBits_zero_f32

/-- The context sum after n coordinates, at a lane. -/
theorem cvRec_apply (x : S16.Idx) : ∀ (n : Nat) (h : n ≤ 32),
    cvRec (F := Ideal) o ql n h x = ∑ i : Fin n, ownG o ⟨i.val, by omega⟩ x * qvG ql ⟨i.val, by omega⟩ x
  | 0, _ => by rw [Fin.sum_univ_zero]; exact zeroV_apply x
  | n + 1, h => by
    rw [Fin.sum_univ_castSucc]
    show cvRec (F := Ideal) o ql n (Nat.le_of_succ_le h) x + ownG o ⟨n, h⟩ x * qvG ql ⟨n, h⟩ x = _
    rw [cvRec_apply x n (Nat.le_of_succ_le h)]
    rfl

/-- The sixteen gathered rows added pairwise, at a lane. -/
theorem treeG_apply (hr : InRangeG il) (dd : Fin 32) (x : S16.Idx) :
    treeG (F := Ideal) il T hr dd x = ∑ j : Fin 16, gathG il T hr dd j x := by
  rw [sum16]
  rfl

/-- The interference sum after n coordinates, at a lane. -/
theorem ivRec_apply (hr : InRangeG il) (x : S16.Idx) : ∀ (n : Nat) (h : n ≤ 32),
    ivRec (F := Ideal) o il T hr n h x
      = ∑ i : Fin n, ownG o ⟨i.val, by omega⟩ x * ∑ j : Fin 16, gathG il T hr ⟨i.val, by omega⟩ j x
  | 0, _ => by rw [Fin.sum_univ_zero]; exact zeroV_apply x
  | n + 1, h => by
    rw [Fin.sum_univ_castSucc]
    show ivRec (F := Ideal) o il T hr n (Nat.le_of_succ_le h) x + ownG o ⟨n, h⟩ x * treeG il T hr ⟨n, h⟩ x = _
    rw [ivRec_apply hr x n (Nat.le_of_succ_le h), treeG_apply]
    rfl

end Generic

theorem gathG_apply (il : Fin 16 → Vec Ideal S1x16 .i32) (T : Vec Ideal S32x2048 .f32) (hr : InRangeG il) (dd : Fin 32) (j : Fin 16)
    (x : S16.Idx) : gathG (F := Ideal) il T hr dd j x = T (idxAt (gidxG il dd j) (hr dd j) x) := rfl

theorem tblR_apply (tbl : Vec Ideal S32x2048 .f32) (y : S32x2048.Idx) : tblR (F := Ideal) tbl y = tbl y :=
  congrFun (Memref.read_access_whole (Elt Ideal) Cert.KernelIdeal.cc0_scratch0 tbl) y

/-! ## The loads -/

theorem own_read (tbl : Vec Ideal S32x2048 .f32) (off : Fin 2 → Nat) (inb : ∀ a, off a + S1x16.size a ≤ S32x2048.size a)
    (r : Fin 32) (c : Nat) (hc : c + 16 ≤ 2048) (hoff : off = ![r.val, c]) (lane : Fin 16) :
    shapeCast S16 ((s7).view.readAt (Elt Ideal) (Rect.unit (s := S32x2048) off S1x16.size inb).toLoadRect tbl) shapeCasts_S1x16_S16 (ix1 lane)
      = tbl (ix2 r (⟨c + lane.val, by omega⟩ : Fin 2048)) := by
  subst hoff
  rw [shapeCast_1a_a_apply]
  show tbl _ = tbl _
  congr 1
  funext a
  match a with
  | ⟨0, _⟩ => exact Fin.ext (by simp [LoadRect.idx, Rect.toLoadRect, Rect.unit])
  | ⟨1, _⟩ => exact Fin.ext (by simp [LoadRect.idx, Rect.toLoadRect, Rect.unit])

theorem idx_read (idx : Vec Ideal S16x2048 .i32) (off : Fin 2 → Nat) (inb : ∀ a, off a + S1x16.size a ≤ S16x2048.size a)
    (r : Fin 16) (c : Nat) (hc : c + 16 ≤ 2048) (hoff : off = ![r.val, c]) (lane : Fin 16) :
    shapeCast S16 ((s8).view.readAt (Elt Ideal) (Rect.unit (s := S16x2048) off S1x16.size inb).toLoadRect idx) shapeCasts_S1x16_S16 (ix1 lane)
      = idx (ix2 r (⟨c + lane.val, by omega⟩ : Fin 2048)) := by
  subst hoff
  rw [shapeCast_1a_a_apply]
  show idx _ = idx _
  congr 1
  funext a
  match a with
  | ⟨0, _⟩ => exact Fin.ext (by simp [LoadRect.idx, Rect.toLoadRect, Rect.unit])
  | ⟨1, _⟩ => exact Fin.ext (by simp [LoadRect.idx, Rect.toLoadRect, Rect.unit])

theorem q_read (qb : Vec Ideal S32x16 .f32) (off : Fin 2 → Nat) (inb : ∀ a, off a + S1x16.size a ≤ S32x16.size a)
    (r : Fin 32) (hoff : off = ![r.val, 0]) (lane : Fin 16) :
    shapeCast S16 ((s9).view.readAt (Elt Ideal) (Rect.unit (s := S32x16) off S1x16.size inb).toLoadRect qb) shapeCasts_S1x16_S16 (ix1 lane)
      = qb (ix2 r lane) := by
  subst hoff
  rw [shapeCast_1a_a_apply]
  show qb _ = qb _
  congr 1
  funext a
  match a with
  | ⟨0, _⟩ => exact Fin.ext (by simp [LoadRect.idx, Rect.toLoadRect, Rect.unit])
  | ⟨1, _⟩ => exact Fin.ext (by simp [LoadRect.idx, Rect.toLoadRect, Rect.unit])

theorem trips_eq : k0_t1_loop.trips = 128 := by decide

variable (tbl : Vec Ideal S32x2048 .f32) (idx : Vec Ideal S16x2048 .i32) (qb : Vec Ideal S32x16 .f32) (k : Fin k0_t1_loop.trips)

/-- Node 16*k + lane. -/
abbrev nodeOf (k : Fin k0_t1_loop.trips) (lane : Fin 16) : Fin 2048 :=
  ⟨16 * k.val + lane.val, by have := lt_of_lt_of_eq k.isLt trips_eq; omega⟩

theorem ownG_apply (dd : Fin 32) (lane : Fin 16) :
    ownG (ownLd tbl k) dd (ix1 lane) = tbl (ix2 dd (nodeOf k lane)) := by
  have hk : k.val < 128 := lt_of_lt_of_eq k.isLt trips_eq
  match dd with
  | 0 => exact own_read tbl _ _ 0 (16 * k.val) (by omega) (k0_off20_eq k) lane
  | 1 => exact own_read tbl _ _ 1 (16 * k.val) (by omega) (k0_off21_eq k) lane
  | 2 => exact own_read tbl _ _ 2 (16 * k.val) (by omega) (k0_off22_eq k) lane
  | 3 => exact own_read tbl _ _ 3 (16 * k.val) (by omega) (k0_off23_eq k) lane
  | 4 => exact own_read tbl _ _ 4 (16 * k.val) (by omega) (k0_off24_eq k) lane
  | 5 => exact own_read tbl _ _ 5 (16 * k.val) (by omega) (k0_off25_eq k) lane
  | 6 => exact own_read tbl _ _ 6 (16 * k.val) (by omega) (k0_off26_eq k) lane
  | 7 => exact own_read tbl _ _ 7 (16 * k.val) (by omega) (k0_off27_eq k) lane
  | 8 => exact own_read tbl _ _ 8 (16 * k.val) (by omega) (k0_off28_eq k) lane
  | 9 => exact own_read tbl _ _ 9 (16 * k.val) (by omega) (k0_off29_eq k) lane
  | 10 => exact own_read tbl _ _ 10 (16 * k.val) (by omega) (k0_off30_eq k) lane
  | 11 => exact own_read tbl _ _ 11 (16 * k.val) (by omega) (k0_off31_eq k) lane
  | 12 => exact own_read tbl _ _ 12 (16 * k.val) (by omega) (k0_off32_eq k) lane
  | 13 => exact own_read tbl _ _ 13 (16 * k.val) (by omega) (k0_off33_eq k) lane
  | 14 => exact own_read tbl _ _ 14 (16 * k.val) (by omega) (k0_off34_eq k) lane
  | 15 => exact own_read tbl _ _ 15 (16 * k.val) (by omega) (k0_off35_eq k) lane
  | 16 => exact own_read tbl _ _ 16 (16 * k.val) (by omega) (k0_off36_eq k) lane
  | 17 => exact own_read tbl _ _ 17 (16 * k.val) (by omega) (k0_off37_eq k) lane
  | 18 => exact own_read tbl _ _ 18 (16 * k.val) (by omega) (k0_off38_eq k) lane
  | 19 => exact own_read tbl _ _ 19 (16 * k.val) (by omega) (k0_off39_eq k) lane
  | 20 => exact own_read tbl _ _ 20 (16 * k.val) (by omega) (k0_off40_eq k) lane
  | 21 => exact own_read tbl _ _ 21 (16 * k.val) (by omega) (k0_off41_eq k) lane
  | 22 => exact own_read tbl _ _ 22 (16 * k.val) (by omega) (k0_off42_eq k) lane
  | 23 => exact own_read tbl _ _ 23 (16 * k.val) (by omega) (k0_off43_eq k) lane
  | 24 => exact own_read tbl _ _ 24 (16 * k.val) (by omega) (k0_off44_eq k) lane
  | 25 => exact own_read tbl _ _ 25 (16 * k.val) (by omega) (k0_off45_eq k) lane
  | 26 => exact own_read tbl _ _ 26 (16 * k.val) (by omega) (k0_off46_eq k) lane
  | 27 => exact own_read tbl _ _ 27 (16 * k.val) (by omega) (k0_off47_eq k) lane
  | 28 => exact own_read tbl _ _ 28 (16 * k.val) (by omega) (k0_off48_eq k) lane
  | 29 => exact own_read tbl _ _ 29 (16 * k.val) (by omega) (k0_off49_eq k) lane
  | 30 => exact own_read tbl _ _ 30 (16 * k.val) (by omega) (k0_off50_eq k) lane
  | 31 => exact own_read tbl _ _ 31 (16 * k.val) (by omega) (k0_off51_eq k) lane
  | ⟨_ + 32, h⟩ => exact absurd h (Nat.not_lt.2 (Nat.le_add_left _ _))

theorem ivG_apply (j : Fin 16) (lane : Fin 16) :
    ivG (idxLd idx k) j (ix1 lane) = idx (ix2 j (nodeOf k lane)) := by
  have hk : k.val < 128 := lt_of_lt_of_eq k.isLt trips_eq
  match j with
  | 0 => exact idx_read idx _ _ 0 (16 * k.val) (by omega) (k0_off4_eq k) lane
  | 1 => exact idx_read idx _ _ 1 (16 * k.val) (by omega) (k0_off5_eq k) lane
  | 2 => exact idx_read idx _ _ 2 (16 * k.val) (by omega) (k0_off6_eq k) lane
  | 3 => exact idx_read idx _ _ 3 (16 * k.val) (by omega) (k0_off7_eq k) lane
  | 4 => exact idx_read idx _ _ 4 (16 * k.val) (by omega) (k0_off8_eq k) lane
  | 5 => exact idx_read idx _ _ 5 (16 * k.val) (by omega) (k0_off9_eq k) lane
  | 6 => exact idx_read idx _ _ 6 (16 * k.val) (by omega) (k0_off10_eq k) lane
  | 7 => exact idx_read idx _ _ 7 (16 * k.val) (by omega) (k0_off11_eq k) lane
  | 8 => exact idx_read idx _ _ 8 (16 * k.val) (by omega) (k0_off12_eq k) lane
  | 9 => exact idx_read idx _ _ 9 (16 * k.val) (by omega) (k0_off13_eq k) lane
  | 10 => exact idx_read idx _ _ 10 (16 * k.val) (by omega) (k0_off14_eq k) lane
  | 11 => exact idx_read idx _ _ 11 (16 * k.val) (by omega) (k0_off15_eq k) lane
  | 12 => exact idx_read idx _ _ 12 (16 * k.val) (by omega) (k0_off16_eq k) lane
  | 13 => exact idx_read idx _ _ 13 (16 * k.val) (by omega) (k0_off17_eq k) lane
  | 14 => exact idx_read idx _ _ 14 (16 * k.val) (by omega) (k0_off18_eq k) lane
  | 15 => exact idx_read idx _ _ 15 (16 * k.val) (by omega) (k0_off19_eq k) lane
  | ⟨_ + 16, h⟩ => exact absurd h (Nat.not_lt.2 (Nat.le_add_left _ _))

theorem qvG_apply (dd : Fin 32) (lane : Fin 16) :
    qvG (qLd qb) dd (ix1 lane) = qb (ix2 dd lane) := by
  match dd with
  | 0 => exact q_read qb _ _ 0 rfl lane
  | 1 => exact q_read qb _ _ 1 rfl lane
  | 2 => exact q_read qb _ _ 2 rfl lane
  | 3 => exact q_read qb _ _ 3 rfl lane
  | 4 => exact q_read qb _ _ 4 rfl lane
  | 5 => exact q_read qb _ _ 5 rfl lane
  | 6 => exact q_read qb _ _ 6 rfl lane
  | 7 => exact q_read qb _ _ 7 rfl lane
  | 8 => exact q_read qb _ _ 8 rfl lane
  | 9 => exact q_read qb _ _ 9 rfl lane
  | 10 => exact q_read qb _ _ 10 rfl lane
  | 11 => exact q_read qb _ _ 11 rfl lane
  | 12 => exact q_read qb _ _ 12 rfl lane
  | 13 => exact q_read qb _ _ 13 rfl lane
  | 14 => exact q_read qb _ _ 14 rfl lane
  | 15 => exact q_read qb _ _ 15 rfl lane
  | 16 => exact q_read qb _ _ 16 rfl lane
  | 17 => exact q_read qb _ _ 17 rfl lane
  | 18 => exact q_read qb _ _ 18 rfl lane
  | 19 => exact q_read qb _ _ 19 rfl lane
  | 20 => exact q_read qb _ _ 20 rfl lane
  | 21 => exact q_read qb _ _ 21 rfl lane
  | 22 => exact q_read qb _ _ 22 rfl lane
  | 23 => exact q_read qb _ _ 23 rfl lane
  | 24 => exact q_read qb _ _ 24 rfl lane
  | 25 => exact q_read qb _ _ 25 rfl lane
  | 26 => exact q_read qb _ _ 26 rfl lane
  | 27 => exact q_read qb _ _ 27 rfl lane
  | 28 => exact q_read qb _ _ 28 rfl lane
  | 29 => exact q_read qb _ _ 29 rfl lane
  | 30 => exact q_read qb _ _ 30 rfl lane
  | 31 => exact q_read qb _ _ 31 rfl lane
  | ⟨_ + 32, h⟩ => exact absurd h (Nat.not_lt.2 (Nat.le_add_left _ _))

/-! ## The trip's two vectors -/

variable (q : FVec Ideal S8x128 .f32) (psi : FVec Ideal S8x2048x128 .f32) (knn : IVec S8x2048x16 32) (w : Fin 32)

/-- With every index below 2048, every gather of the trip reads inside the table. -/
theorem inRange_of_small (hidx : ∀ (j : Fin 16) (n : Fin 2048), idx (ix2 j n) = knn (ix3 (rowB w) n j))
    (hsmall : ∀ i, (knn i).toNat < 2048) : InRange (F := Ideal) idx k := by
  intro dd j a x
  obtain ⟨lane, rfl⟩ : ∃ lane : Fin 16, x = ix1 lane := ⟨x 0, eq_ix1 x⟩
  match a with
  | ⟨0, _⟩ =>
    show (BitVec.ofNat 32 dd.val).toNat < 32
    rw [BitVec.toNat_ofNat]
    exact lt_of_le_of_lt (Nat.mod_le _ _) dd.isLt
  | ⟨1, _⟩ =>
    show (ivG (idxLd idx k) j (ix1 lane) : BitVec 32).toNat < 2048
    rw [ivG_apply, hidx]
    exact hsmall _

/-- Lane l of the context vector trip k stores is cp(w, 16*k + l). -/
theorem cvSpec_apply (htbl : ∀ (dd : Fin 32) (n : Fin 2048), tbl (ix2 dd n) = psi (ix3 (rowB w) n (rowD w dd)))
    (hqb : ∀ (dd : Fin 32) (l : Fin 16), qb (ix2 dd l) = q (ix2 (rowB w) (rowD w dd))) (lane : Fin 16) :
    cvSpec (F := Ideal) tbl qb k (ix1 lane) = cp q psi (ix2 w (nodeOf k lane)) := by
  unfold cvSpec cvG
  rw [cvRec_apply]
  show _ = ∑ d : Fin 32, psi (ix3 (rowB w) (nodeOf k lane) (rowD w d)) * q (ix2 (rowB w) (rowD w d))
  refine Finset.sum_congr rfl fun d _ => ?_
  rw [ownG_apply, qvG_apply, htbl, hqb]

/-- Lane l of the interference vector trip k stores is ip(w, 16*k + l). -/
theorem ivSpec_apply (htbl : ∀ (dd : Fin 32) (n : Fin 2048), tbl (ix2 dd n) = psi (ix3 (rowB w) n (rowD w dd)))
    (hidx : ∀ (j : Fin 16) (n : Fin 2048), idx (ix2 j n) = knn (ix3 (rowB w) n j))
    (hsmall : ∀ i, (knn i).toNat < 2048) (hr : InRange (F := Ideal) idx k) (lane : Fin 16) :
    ivSpec (F := Ideal) tbl idx k hr (ix1 lane) = ip psi knn (ix2 w (nodeOf k lane)) := by
  unfold ivSpec ivGs
  rw [ivRec_apply]
  show _ = ∑ d : Fin 32, psi (ix3 (rowB w) (nodeOf k lane) (rowD w d))
    * ∑ j : Fin 16, psi (ix3 (rowB w) (nbr knn (rowB w) (nodeOf k lane) j) (rowD w d))
  refine Finset.sum_congr rfl fun d _ => ?_
  rw [ownG_apply, htbl]
  refine congrArg (_ * ·) (Finset.sum_congr rfl fun j _ => ?_)
  rw [gathG_apply, tblR_apply]
  have hcol : (ivG (idxLd idx k) j (ix1 lane) : BitVec 32).toNat = (nbr knn (rowB w) (nodeOf k lane) j).val := by
    rw [ivG_apply, hidx, nbr_val knn hsmall]
  have hrow : (BitVec.ofNat 32 d.val).toNat = d.val := by
    rw [BitVec.toNat_ofNat]; exact Nat.mod_eq_of_lt (lt_trans d.isLt (by norm_num))
  refine (congrArg tbl ?_).trans (htbl d (nbr knn (rowB w) (nodeOf k lane) j))
  funext a
  match a with
  | ⟨0, _⟩ => exact Fin.ext hrow
  | ⟨1, _⟩ => exact Fin.ext hcol

end Cert.KernelIdeal.TripValue

end
-- ==== Proof.Algebraic.lean ====
/-
  The algebraic claim: at the ideal instance, from memories agreeing on the arguments, the idealized kernel program and the
  idealized reference both run and end with equal results and unchanged arguments. The kernel's result is `vOut` of its
  launch memory — the second stage's result from the first stage's two arrays, which are cp and ip of the arguments entry by
  entry —, and that is the reference's result under the input domain.
-/
import proofs.«209090_g87076166960129_cont_sun_c4_39_31_alg».proof.Defs
import proofs.«209090_g87076166960129_cont_sun_c4_39_31_alg».proof.Proof.LaunchRunV
import proofs.«209090_g87076166960129_cont_sun_c4_39_31_alg».proof.Proof.LaunchOblV
import proofs.«209090_g87076166960129_cont_sun_c4_39_31_alg».proof.Proof.RefRunThm
import proofs.«209090_g87076166960129_cont_sun_c4_39_31_alg».proof.Proof.RefRead
import proofs.«209090_g87076166960129_cont_sun_c4_39_31_alg».proof.Proof.ValueFinal
import proofs.«209090_g87076166960129_cont_sun_c4_39_31_alg».proof.Proof.TripValueIdeal
import proofs.«209090_g87076166960129_cont_sun_c4_39_31_alg».proof.Proof.BridgeGlue
import proofs.«209090_g87076166960129_cont_sun_c4_39_31_alg».proof.Proof.LaunchAux

noncomputable section

namespace Cert.Proof.Algebraic

open Idealize.ShloMosaic Idealize.ShloMosaic.TcCoe Idealize.SL.Sem Idealize.ShloMosaic.ValueIdx
open Cert.KernelIdeal Cert.KernelIdeal.Gen Cert.KernelIdeal.Setup Cert.KernelIdeal.Launch Cert.KernelIdeal.ValArr Cert.KernelIdeal.TripValue
open Cert.Bridge

variable (m : (ℓ : Loc nD τ sig) → Buf (Elt Ideal) ℓ)

/-- Entry (j, n) of batch b of the regrouped neighbour indices is the index (b, n, j) of the launch memory. -/
theorem idxRow_c3 (d : Dev nD) (b : Fin 8) (j : Fin 16) (n : Fin 2048) :
    idxRow (c3 m d) b (ix2 j n) = (m ((SparseCore.T d).loc main_arg2) : IVec S8x2048x16 32) (ix3 b n j) := by
  show Cert.Bridge.g3 (F := Ideal) (m ((SparseCore.T d).loc main_arg2)) (ix3 b j n) = _
  rw [Cert.Bridge.g3_apply]

/-- Entry (dd, n) of row w of the regrouped psi is psi(b, n, 32*blk + dd), w = 4*b + blk. -/
theorem tblRow_c2 (d : Dev nD) (w dd : Fin 32) (n : Fin 2048) :
    tblRow (c2 m d) w (ix2 dd n) = (m ((SparseCore.T d).loc main_arg1) : FVec Ideal S8x2048x128 .f32) (ix3 (rowB w) n (rowD w dd)) := by
  show Cert.Bridge.g2 (F := Ideal) (m ((SparseCore.T d).loc main_arg1)) (ix3 w dd n) = _
  rw [Cert.Bridge.g2_apply]

/-- Entry (dd, l) of row w of the repeated q is q(b, 32*blk + dd), w = 4*b + blk. -/
theorem qbRow_c5 (d : Dev nD) (w dd : Fin 32) (l : Fin 16) :
    qbRow (c5 m d) w (ix2 dd l) = (m ((SparseCore.T d).loc main_arg0) : FVec Ideal S8x128 .f32) (ix2 (rowB w) (rowD w dd)) := by
  show Cert.Bridge.g5 (F := Ideal) (m ((SparseCore.T d).loc main_arg0)) (ix3 w dd l) = _
  rw [Cert.Bridge.g5_apply]

/-- Node n is lane n % 16 of group n / 16. -/
theorem nodeOf_grp_lane (n : Fin 2048) : nodeOf (grp n) (lane n) = n :=
  Fin.ext (by show 16 * (n.val / 16) + n.val % 16 = n.val; omega)

/-- Under the input domain every index word of the regrouped neighbour indices names a column of the table. -/
theorem hr_of_pre (hpre : Cert.Pre_KernelIdeal m) : ∀ (d : Dev nD) (b : Fin 8) k, InRange (F := Ideal) (idxRow (c3 m d) b) k :=
  fun d b k => inRange_of_small (idx := idxRow (c3 m d) b) (k := k) (knn := m ((SparseCore.T d).loc main_arg2)) (w := rowOf b 0)
    (fun j n => by rw [idxRow_c3, rowB_rowOf]) (knn_small m hpre d)

/-- The first result array of the SparseCore call is cp of the arguments, entry by entry. -/
theorem cvArr_eq (d : Dev nD) (w : Fin 32) (n : Fin 2048) :
    cvArr (c2 m d) (c5 m d) (ix2 w n)
      = Cert.Bridge.cp (m ((SparseCore.T d).loc main_arg0)) (m ((SparseCore.T d).loc main_arg1)) (ix2 w n) := by
  show cvSpec (F := Ideal) (tblRow (c2 m d) w) (qbRow (c5 m d) w) (grp n) (ix1 (lane n)) = _
  rw [cvSpec_apply (tbl := tblRow (c2 m d) w) (qb := qbRow (c5 m d) w) (k := grp n)
    (q := m ((SparseCore.T d).loc main_arg0)) (psi := m ((SparseCore.T d).loc main_arg1)) (w := w)
    (fun dd n => tblRow_c2 m d w dd n) (fun dd l => qbRow_c5 m d w dd l) (lane n), nodeOf_grp_lane]

/-- The second is ip of the arguments, entry by entry. -/
theorem ivArr_eq (hpre : Cert.Pre_KernelIdeal m) (hr : ∀ (d : Dev nD) (b : Fin 8) k, InRange (F := Ideal) (idxRow (c3 m d) b) k) (d : Dev nD) (w : Fin 32) (n : Fin 2048) :
    ivArr (c2 m d) (c3 m d) (hr d) (ix2 w n)
      = Cert.Bridge.ip (m ((SparseCore.T d).loc main_arg1)) (m ((SparseCore.T d).loc main_arg2)) (ix2 w n) := by
  show ivSpec (F := Ideal) (tblRow (c2 m d) w) (idxRow (c3 m d) (batchOf w)) (grp n) (hr d (batchOf w) (grp n)) (ix1 (lane n)) = _
  rw [ivSpec_apply (tbl := tblRow (c2 m d) w) (idx := idxRow (c3 m d) (batchOf w)) (k := grp n)
    (psi := m ((SparseCore.T d).loc main_arg1)) (knn := m ((SparseCore.T d).loc main_arg2)) (w := w)
    (fun dd n => tblRow_c2 m d w dd n) (fun j n => idxRow_c3 m d (batchOf w) j n) (knn_small m hpre d) (hr d (batchOf w) (grp n)) (lane n),
    nodeOf_grp_lane]

/-- The kernel's result is the reference's result of the same arguments. -/
theorem vOut_eq_ref (hpre : Cert.Pre_KernelIdeal m) (hr : ∀ (d : Dev nD) (b : Fin 8) k, InRange (F := Ideal) (idxRow (c3 m d) b) k) (d : Dev nD) :
    vOut m hr d = Cert.ReferenceIdeal.ReadP.val_main_v28 (F := Ideal)
      (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5))
      (m ((d.tc : Thread nD τ).loc main_arg6)) (m ((d.tc : Thread nD τ).loc main_arg7)) :=
  Cert.KernelIdeal.ValueFinal.vout_eq (hpre d) (cvArr (c2 m d) (c5 m d)) (ivArr (c2 m d) (c3 m d) (hr d))
    (fun w n => cvArr_eq m d w n) (fun w n => ivArr_eq m hpre hr d w n)

/-- The algebraic claim, from the task's obligation over the hand-backs at exact contents. -/
theorem algebraic (htripV : ∀ (d : Dev Cert.KernelIdeal.nD) (L : Cert.KernelIdeal.grid0.Coords), Cert.KernelIdeal.TileSpecV.TripSpecV (F := Ideal) d L) : Cert.algebraic_KernelIdeal_ReferenceIdeal := by
  intro m g m' g' hpre hagree
  refine ⟨fun c => vOut m (hr_of_pre m hpre) c, run_mainV (F := Ideal) m g (hr_of_pre m hpre) (tileOblV (c2 m) (c3 m) (c5 m) htripV facts (knn_small_g3 m hpre) (hr_of_pre m hpre)), ?_⟩
  refine (θ_run Cert.ReferenceIdeal.defs _ _).mono (fun _ h c => ⟨(h c).1.trans ?_, (h c).2⟩)
    (Cert.ReferenceIdeal.ValueP.run (F := Ideal) m' g')
  rw [Cert.ReferenceIdeal.ReadP.val_main_v28_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (vOut_eq_ref m hpre (hr_of_pre m hpre) c).symm

end Cert.Proof.Algebraic

end
-- ==== Proof.TileTrip.lean ====
/-
  One trip of the task's loop runs: sixteen loads of index vectors, then thirty-two rounds — the round's index-range
  condition (every gathered column below 2048 because every word of the index scratch is, every row number a literal
  below 32), sixteen indexed loads of the table scratch, a load of the table's own lanes and of the query's — and the two
  stores into the result scratches. An indexed load is, by definition, a load of the whole scratch followed by the pure
  gather, so the program is first rewritten to plain loads (while the scratches' invariant is still folded), and then run.
-/
import proofs.«209090_g87076166960129_cont_sun_c4_39_31_alg».proof.Proof.Setup
import proofs.«209090_g87076166960129_cont_sun_c4_39_31_alg».proof.Proof.TileSpec

noncomputable section

namespace Cert.KernelIdeal.TileTrip

open Cert.KernelIdeal Cert.KernelIdeal.Gen Cert.KernelIdeal.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)
local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)
local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)
local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

open Cert.KernelIdeal.TileRes Cert.KernelIdeal.TileSpec

variable [FloatOps F]
variable (d : Dev nD) (L : grid0.Coords)

/-- Two index vectors, a row number below 32 in every lane and a column number below 2048 in every lane, name an
    element of a [32, 2048] array in every lane. -/
theorem pair_inb {vd v : IVec S16 32} (hd : ∀ x, (vd x).toNat < 32) (hv : ∀ x, (v x).toNat < 2048) :
    ∀ a x, ((![vd, v] : Fin 2 → IVec S16 32) a x).toNat < S32x2048.size a := by
  intro a x
  match a with
  | ⟨0, _⟩ => exact hd x
  | ⟨1, _⟩ => exact hv x

/-- A splat of a word below 32 is below 32 in every lane. -/
theorem bcast_small (w : BitVec 32) (hw : w.toNat < 32) : ∀ x, ((broadcast S16 w : IVec S16 32) x).toNat < 32 := fun _ => hw

/-- A re-laid vector of words below 2048 holds words below 2048. -/
theorem small_cast {s : Shape} (g : s.Idx → BitVec 32) (hg : ∀ y, (g y).toNat < 2048) (h : s.ShapeCasts S16) :
    ∀ x, ((shapeCast S16 g h : S16.Idx → BitVec 32) x).toNat < 2048 := by
  intro x; unfold shapeCast; exact hg _

/-- A vector loaded through a view whose every element is a word below 2048 holds words below 2048. -/
theorem small_read {κ : Kind} {sp : Space} {s : Shape} (v : View sig κ sp s .i32) (r : LoadRect s) (f : v.ty.Contents (Elt F))
    (hf : ∀ j, ((v.read (Elt F) f j : BitVec 32)).toNat < 2048) : ∀ y, ((v.readAt (Elt F) r f y : BitVec 32)).toNat < 2048 :=
  fun _ => hf _

/-- Open whichever of the body's thirty-two index-range conditions the goal is. -/
macro "unfold_chk" : tactic => `(tactic| (first | unfold k0_chk1 | unfold k0_chk2 | unfold k0_chk3 | unfold k0_chk4 | unfold k0_chk5 | unfold k0_chk6 | unfold k0_chk7 | unfold k0_chk8 | unfold k0_chk9 | unfold k0_chk10 | unfold k0_chk11 | unfold k0_chk12 | unfold k0_chk13 | unfold k0_chk14 | unfold k0_chk15 | unfold k0_chk16 | unfold k0_chk17 | unfold k0_chk18 | unfold k0_chk19 | unfold k0_chk20 | unfold k0_chk21 | unfold k0_chk22 | unfold k0_chk23 | unfold k0_chk24 | unfold k0_chk25 | unfold k0_chk26 | unfold k0_chk27 | unfold k0_chk28 | unfold k0_chk29 | unfold k0_chk30 | unfold k0_chk31 | unfold k0_chk32))

set_option maxHeartbeats 0 in
set_option maxRecDepth 100000 in
/-- The trip's specification holds at every grid position. -/
theorem trip : TripSpec (F := F) d L := by
  intro k tbl idx qb hrd
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [SparseCore.vectorLoadIdx_bind (c := V d (cV L) (jV L))]
  unfold tripInv
  iintro ⟨H7, H8, H9, ⟨%f10, H10⟩, ⟨%f11, H11⟩⟩
  sl_exec (disch := (unfold_chk; refine ⟨?_, ?_, ?_, ?_, ?_, ?_, ?_, ?_, ?_, ?_, ?_, ?_, ?_, ?_, ?_, ?_⟩ <;> exact pair_inb (bcast_small _ (by decide)) (small_cast _ (small_read _ _ _ hrd) _)))
  sl_step
  isplitl [H7]; · iexact H7
  isplitl [H8]; · iexact H8
  isplitl [H9]; · iexact H9
  isplitl [H10]; · iexists _; iexact H10
  iexists _; iexact H11

end Cert.KernelIdeal.TileTrip

end
-- ==== Proof.TileTripK.lean ====
/-
  One trip of the task's loop runs: sixteen loads of index vectors, then thirty-two rounds — the round's index-range
  condition (every gathered column below 2048 because every word of the index scratch is, every row number a literal
  below 32), sixteen indexed loads of the table scratch, a load of the table's own lanes and of the query's — and the two
  stores into the result scratches. An indexed load is, by definition, a load of the whole scratch followed by the pure
  gather, so the program is first rewritten to plain loads (while the scratches' invariant is still folded), and then run.
-/
import proofs.«209090_g87076166960129_cont_sun_c4_39_31_alg».proof.Proof.SetupK
import proofs.«209090_g87076166960129_cont_sun_c4_39_31_alg».proof.Proof.TileSpecK

noncomputable section

namespace Cert.Kernel.TileTrip

open Cert.Kernel Cert.Kernel.Gen Cert.Kernel.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.Kernel.main_v2_scv : Memref Cert.Kernel.sig Kind.scVector Space.hbm Cert.Kernel.S32x32x2048 EltTy.f32)
local notation "a3" => (Memref.whole Cert.Kernel.main_v3_scv : Memref Cert.Kernel.sig Kind.scVector Space.hbm Cert.Kernel.S8x16x2048 EltTy.i32)
local notation "a4" => (Memref.whole Cert.Kernel.main_v5_scv : Memref Cert.Kernel.sig Kind.scVector Space.hbm Cert.Kernel.S32x32x16 EltTy.f32)
local notation "a5" => (Memref.whole Cert.Kernel.main_v6_0_scv : Memref Cert.Kernel.sig Kind.scVector Space.hbm Cert.Kernel.S32x2048 EltTy.f32)
local notation "a6" => (Memref.whole Cert.Kernel.main_v6_1_scv : Memref Cert.Kernel.sig Kind.scVector Space.hbm Cert.Kernel.S32x2048 EltTy.f32)
local notation "s7" => (Memref.whole Cert.Kernel.cc0_scratch0 : Memref Cert.Kernel.sig Kind.scVector Space.vmem Cert.Kernel.S32x2048 EltTy.f32)
local notation "s8" => (Memref.whole Cert.Kernel.cc0_scratch1 : Memref Cert.Kernel.sig Kind.scVector Space.vmem Cert.Kernel.S16x2048 EltTy.i32)
local notation "s9" => (Memref.whole Cert.Kernel.cc0_scratch2 : Memref Cert.Kernel.sig Kind.scVector Space.vmem Cert.Kernel.S32x16 EltTy.f32)
local notation "s10" => (Memref.whole Cert.Kernel.cc0_scratch3 : Memref Cert.Kernel.sig Kind.scVector Space.vmem Cert.Kernel.S2048 EltTy.f32)
local notation "s11" => (Memref.whole Cert.Kernel.cc0_scratch4 : Memref Cert.Kernel.sig Kind.scVector Space.vmem Cert.Kernel.S2048 EltTy.f32)

open Cert.Kernel.TileRes Cert.Kernel.TileSpec

variable [FloatOps F]
variable (d : Dev nD) (L : grid0.Coords)

/-- Two index vectors, a row number below 32 in every lane and a column number below 2048 in every lane, name an
    element of a [32, 2048] array in every lane. -/
theorem pair_inb {vd v : IVec S16 32} (hd : ∀ x, (vd x).toNat < 32) (hv : ∀ x, (v x).toNat < 2048) :
    ∀ a x, ((![vd, v] : Fin 2 → IVec S16 32) a x).toNat < S32x2048.size a := by
  intro a x
  match a with
  | ⟨0, _⟩ => exact hd x
  | ⟨1, _⟩ => exact hv x

/-- A splat of a word below 32 is below 32 in every lane. -/
theorem bcast_small (w : BitVec 32) (hw : w.toNat < 32) : ∀ x, ((broadcast S16 w : IVec S16 32) x).toNat < 32 := fun _ => hw

/-- A re-laid vector of words below 2048 holds words below 2048. -/
theorem small_cast {s : Shape} (g : s.Idx → BitVec 32) (hg : ∀ y, (g y).toNat < 2048) (h : s.ShapeCasts S16) :
    ∀ x, ((shapeCast S16 g h : S16.Idx → BitVec 32) x).toNat < 2048 := by
  intro x; unfold shapeCast; exact hg _

/-- A vector loaded through a view whose every element is a word below 2048 holds words below 2048. -/
theorem small_read {κ : Kind} {sp : Space} {s : Shape} (v : View sig κ sp s .i32) (r : LoadRect s) (f : v.ty.Contents (Elt F))
    (hf : ∀ j, ((v.read (Elt F) f j : BitVec 32)).toNat < 2048) : ∀ y, ((v.readAt (Elt F) r f y : BitVec 32)).toNat < 2048 :=
  fun _ => hf _

/-- Open whichever of the body's thirty-two index-range conditions the goal is. -/
macro "unfold_chk" : tactic => `(tactic| (first | unfold k0_chk1 | unfold k0_chk2 | unfold k0_chk3 | unfold k0_chk4 | unfold k0_chk5 | unfold k0_chk6 | unfold k0_chk7 | unfold k0_chk8 | unfold k0_chk9 | unfold k0_chk10 | unfold k0_chk11 | unfold k0_chk12 | unfold k0_chk13 | unfold k0_chk14 | unfold k0_chk15 | unfold k0_chk16 | unfold k0_chk17 | unfold k0_chk18 | unfold k0_chk19 | unfold k0_chk20 | unfold k0_chk21 | unfold k0_chk22 | unfold k0_chk23 | unfold k0_chk24 | unfold k0_chk25 | unfold k0_chk26 | unfold k0_chk27 | unfold k0_chk28 | unfold k0_chk29 | unfold k0_chk30 | unfold k0_chk31 | unfold k0_chk32))

set_option maxHeartbeats 0 in
set_option maxRecDepth 100000 in
/-- The trip's specification holds at every grid position. -/
theorem trip : TripSpec (F := F) d L := by
  intro k tbl idx qb hrd
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [SparseCore.vectorLoadIdx_bind (c := V d (cV L) (jV L))]
  unfold tripInv
  iintro ⟨H7, H8, H9, ⟨%f10, H10⟩, ⟨%f11, H11⟩⟩
  sl_exec (disch := (unfold_chk; refine ⟨?_, ?_, ?_, ?_, ?_, ?_, ?_, ?_, ?_, ?_, ?_, ?_, ?_, ?_, ?_, ?_⟩ <;> exact pair_inb (bcast_small _ (by decide)) (small_cast _ (small_read _ _ _ hrd) _)))
  sl_step
  isplitl [H7]; · iexact H7
  isplitl [H8]; · iexact H8
  isplitl [H9]; · iexact H9
  isplitl [H10]; · iexists _; iexact H10
  iexists _; iexact H11

end Cert.Kernel.TileTrip

end
-- ==== Proof.TileTripV.lean ====
/-
  One trip of the task's loop WITH its values: run as the trip without values is, and at the end the two stores' vectors
  — the printed chains of the context and the interference sums over what the trip loaded — are the trip's two
  vectors, so each result scratch, holding the first k trips' values, comes to hold the first k + 1 trips' values.
-/
import proofs.«209090_g87076166960129_cont_sun_c4_39_31_alg».proof.Proof.Setup
import proofs.«209090_g87076166960129_cont_sun_c4_39_31_alg».proof.Proof.TileSpec
import proofs.«209090_g87076166960129_cont_sun_c4_39_31_alg».proof.Proof.TileSpecV
import proofs.«209090_g87076166960129_cont_sun_c4_39_31_alg».proof.Proof.TripStore

noncomputable section

namespace Cert.KernelIdeal.TileTripV

open Cert.KernelIdeal Cert.KernelIdeal.Gen Cert.KernelIdeal.Setup
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2" => (Memref.whole Cert.KernelIdeal.main_v2_scv : Memref Cert.KernelIdeal.sig Kind.scVector Space.hbm Cert.KernelIdeal.S32x32x2048 EltTy.f32)
local notation "a3" => (Memref.whole Cert.KernelIdeal.main_v3_scv : Memref Cert.KernelIdeal.sig Kind.scVector Space.hbm Cert.KernelIdeal.S8x16x2048 EltTy.i32)
local notation "a4" => (Memref.whole Cert.KernelIdeal.main_v5_scv : Memref Cert.KernelIdeal.sig Kind.scVector Space.hbm Cert.KernelIdeal.S32x32x16 EltTy.f32)
local notation "a5" => (Memref.whole Cert.KernelIdeal.main_v6_0_scv : Memref Cert.KernelIdeal.sig Kind.scVector Space.hbm Cert.KernelIdeal.S32x2048 EltTy.f32)
local notation "a6" => (Memref.whole Cert.KernelIdeal.main_v6_1_scv : Memref Cert.KernelIdeal.sig Kind.scVector Space.hbm Cert.KernelIdeal.S32x2048 EltTy.f32)
local notation "s7" => (Memref.whole Cert.KernelIdeal.cc0_scratch0 : Memref Cert.KernelIdeal.sig Kind.scVector Space.vmem Cert.KernelIdeal.S32x2048 EltTy.f32)
local notation "s8" => (Memref.whole Cert.KernelIdeal.cc0_scratch1 : Memref Cert.KernelIdeal.sig Kind.scVector Space.vmem Cert.KernelIdeal.S16x2048 EltTy.i32)
local notation "s9" => (Memref.whole Cert.KernelIdeal.cc0_scratch2 : Memref Cert.KernelIdeal.sig Kind.scVector Space.vmem Cert.KernelIdeal.S32x16 EltTy.f32)
local notation "s10" => (Memref.whole Cert.KernelIdeal.cc0_scratch3 : Memref Cert.KernelIdeal.sig Kind.scVector Space.vmem Cert.KernelIdeal.S2048 EltTy.f32)
local notation "s11" => (Memref.whole Cert.KernelIdeal.cc0_scratch4 : Memref Cert.KernelIdeal.sig Kind.scVector Space.vmem Cert.KernelIdeal.S2048 EltTy.f32)

open Cert.KernelIdeal.TileRes Cert.KernelIdeal.TileSpec Cert.KernelIdeal.TileSpecV Cert.KernelIdeal.TripValue

variable [FloatOps F]
variable (d : Dev nD) (L : grid0.Coords)

/-- Two index vectors, a row number below 32 in every lane and a column number below 2048 in every lane, name an
    element of a [32, 2048] array in every lane. -/
theorem pair_inb {vd v : IVec S16 32} (hd : ∀ x, (vd x).toNat < 32) (hv : ∀ x, (v x).toNat < 2048) :
    ∀ a x, ((![vd, v] : Fin 2 → IVec S16 32) a x).toNat < S32x2048.size a := by
  intro a x
  match a with
  | ⟨0, _⟩ => exact hd x
  | ⟨1, _⟩ => exact hv x

/-- A splat of a word below 32 is below 32 in every lane. -/
theorem bcast_small (w : BitVec 32) (hw : w.toNat < 32) : ∀ x, ((broadcast S16 w : IVec S16 32) x).toNat < 32 := fun _ => hw

/-- A re-laid vector of words below 2048 holds words below 2048. -/
theorem small_cast {s : Shape} (g : s.Idx → BitVec 32) (hg : ∀ y, (g y).toNat < 2048) (h : s.ShapeCasts S16) :
    ∀ x, ((shapeCast S16 g h : S16.Idx → BitVec 32) x).toNat < 2048 := by
  intro x; unfold shapeCast; exact hg _

/-- A vector loaded through a view whose every element is a word below 2048 holds words below 2048. -/
theorem small_read {κ : Kind} {sp : Space} {s : Shape} (v : View sig κ sp s .i32) (r : LoadRect s) (f : v.ty.Contents (Elt F))
    (hf : ∀ j, ((v.read (Elt F) f j : BitVec 32)).toNat < 2048) : ∀ y, ((v.readAt (Elt F) r f y : BitVec 32)).toNat < 2048 :=
  fun _ => hf _

/-- Open whichever of the body's thirty-two index-range conditions the goal is. -/
macro "unfold_chkV" : tactic => `(tactic| (first | unfold k0_chk1 | unfold k0_chk2 | unfold k0_chk3 | unfold k0_chk4 | unfold k0_chk5 | unfold k0_chk6 | unfold k0_chk7 | unfold k0_chk8 | unfold k0_chk9 | unfold k0_chk10 | unfold k0_chk11 | unfold k0_chk12 | unfold k0_chk13 | unfold k0_chk14 | unfold k0_chk15 | unfold k0_chk16 | unfold k0_chk17 | unfold k0_chk18 | unfold k0_chk19 | unfold k0_chk20 | unfold k0_chk21 | unfold k0_chk22 | unfold k0_chk23 | unfold k0_chk24 | unfold k0_chk25 | unfold k0_chk26 | unfold k0_chk27 | unfold k0_chk28 | unfold k0_chk29 | unfold k0_chk30 | unfold k0_chk31 | unfold k0_chk32))

/-- A sequence's first program under an abstract post: what follows it is named, not carried. -/
theorem bind_abs {α β : Type} (p : Prog (TpuEff nD τ sig (Elt F) Λ₀ (V d (cV L) (jV L)).2) α)
    (f : α → Prog (TpuEff nD τ sig (Elt F) Λ₀ (V d (cV L) (jV L)).2) β) (Φ : β → sProp 𝕄) :
    iprop(∀ Q : α → sProp 𝕄, ⌜∀ x, Q x = wp frame (wpE (defs₀ (F := F)) 𝒱₀ (V d (cV L) (jV L)) none) Set.univ (f x) Φ⌝
        -∗ wp frame (wpE (defs₀ (F := F)) 𝒱₀ (V d (cV L) (jV L)) none) Set.univ p Q)
      ⊢ wp frame (wpE (defs₀ (F := F)) 𝒱₀ (V d (cV L) (jV L)) none) Set.univ (p >>= f) Φ := by
  rw [wp_bind]
  iintro H
  iapply H
  ipureintro; intro x; rfl

/-- An indexed load at the head of a program is the load of the whole scratch it gathers from. -/
theorem vli_bind {p : Proc τ} {α : Type} {s t : Shape} {e : EltTy} (base : Memref sig p.kind .vmem s e) (idxs : Fin s.rank → IVec t 32)
    (h : ∀ a x, (idxs a x).toNat < s.size a) (hl : base.view.Loads) (k : Vec F t e → Prog (TpuEff nD τ sig (Elt F) Λ₀ p) α) :
    SparseCore.vectorLoadIdx base idxs h hl >>= k
      = .op (.load base (.whole s) (View.loadsAt_whole hl)) fun f => k (Idealize.ShloMosaic.loadIdx f idxs h) := rfl

set_option hygiene false in
/-- One printed part of the trip: what follows it named; the part opened, each indexed load read as the load of the whole
    table scratch it is, its loads and range conditions run; what follows taken up again at the part's results. -/
macro "part_run " p:ident q:ident : tactic => `(tactic| (
  iapply (bind_abs d L)
  iintro %Q %hQ
  sl_unfold [$p]
  conv => { arg 2; pattern (Idealize.SL.Sem.wp _ _ _ _); arg 4; simp only [$q:ident, vli_bind] }
  sl_exec (disch := (unfold_chkV; refine ⟨?_, ?_, ?_, ?_, ?_, ?_, ?_, ?_, ?_, ?_, ?_, ?_, ?_, ?_, ?_, ?_⟩ <;> exact pair_inb (bcast_small _ (by decide)) (small_cast _ (small_read _ _ _ hrd) _)))
  sl_step
  rw [hQ]
  clear hQ Q))

set_option maxHeartbeats 0 in
set_option maxRecDepth 100000 in
/-- The trip's specification with values holds at every grid position. -/
theorem tripV : TripSpecV (F := F) d L := by
  intro k tbl idx qb hr g10 g11 hrd
  unfold k0_t1_body
  unfold tripInvV
  iintro ⟨H7, H8, H9, H10, H11⟩
  part_run k0_part1 k0_part1_skel
  part_run k0_part2 k0_part2_skel
  part_run k0_part3 k0_part3_skel
  part_run k0_part4 k0_part4_skel
  part_run k0_part5 k0_part5_skel
  part_run k0_part6 k0_part6_skel
  part_run k0_part7 k0_part7_skel
  part_run k0_part8 k0_part8_skel
  part_run k0_part9 k0_part9_skel
  part_run k0_part10 k0_part10_skel
  part_run k0_part11 k0_part11_skel
  part_run k0_part12 k0_part12_skel
  part_run k0_part13 k0_part13_skel
  part_run k0_part14 k0_part14_skel
  part_run k0_part15 k0_part15_skel
  part_run k0_part16 k0_part16_skel
  part_run k0_part17 k0_part17_skel
  part_run k0_part18 k0_part18_skel
  part_run k0_part19 k0_part19_skel
  part_run k0_part20 k0_part20_skel
  part_run k0_part21 k0_part21_skel
  part_run k0_part22 k0_part22_skel
  part_run k0_part23 k0_part23_skel
  part_run k0_part24 k0_part24_skel
  part_run k0_part25 k0_part25_skel
  part_run k0_part26 k0_part26_skel
  part_run k0_part27 k0_part27_skel
  sl_exec (disch := (unfold_chkV; refine ⟨?_, ?_, ?_, ?_, ?_, ?_, ?_, ?_, ?_, ?_, ?_, ?_, ?_, ?_, ?_, ?_⟩ <;> exact pair_inb (bcast_small _ (by decide)) (small_cast _ (small_read _ _ _ hrd) _)))
  sl_step
  isplitl [H7]; · iexact H7
  isplitl [H8]; · iexact H8
  isplitl [H9]; · iexact H9
  isplitl [H10]
  · have e10 := accAt_step10 (F := F) (fun k => cvSpec tbl qb k) g10 k _ (cv_chain (F := F) (ownLd tbl k) (qLd qb))
    rw [← e10]
    iexact H10
  · have e11 := accAt_step11 (F := F) (fun k => ivSpec tbl idx k (hr k)) g11 k _
      (iv_chain (F := F) (ownLd tbl k) (idxLd idx k) (tblR tbl) (hr k))
    rw [← e11]
    iexact H11

end Cert.KernelIdeal.TileTripV

end
-- ==== Proof.lean ====
/-
  The certificate's claim: the attention-score kernel — a SparseCore call in which each of 32 vector subcores computes, for
  one batch and one block of 32 feature columns, the context partial scores Σ_d ψ(b,n,d)·q(b,d) and the interference partial
  scores Σ_d ψ(b,n,d)·Σ_k ψ(b,knn(b,n,k),d) of all 2048 nodes, followed by a TensorCore call that sums the four blocks, adds the
  clipped-λ multiple of the interference, subtracts the clipped-μ multiple of the distance to the current coordinates, fills
  masked nodes with -1e9 and takes the log-softmax over the nodes — against its jnp reference.
  Frames: both kernel programs run to their end with their arguments unchanged by the launch theorem of a SparseCore program
  (one task proved at a symbolic subcore, the loop at an invariant, the trip run once), under the precondition's range
  0 ≤ knn ≤ 2047, which makes every gathered column a column of the table; the reference's frame is its run read back.
  preserves: the ideal pass rewrote nothing. algebraic: at the ideal instance the task's row of each partial-score array is the
  trip values' fold, which is the Σ-form; the kernel sums over the 4 × 32 split of the 128 features where the reference sums
  over 128 (associativity and commutativity), and multiplies ψ by the sum over the 16 neighbours where the reference sums the 16
  products (distributivity over real factors, which the precondition's finiteness gives); everything after the three score
  terms is the same chain of operations on both sides.
-/
import proofs.«209090_g87076166960129_cont_sun_c4_39_31_alg».proof.Defs
import proofs.«209090_g87076166960129_cont_sun_c4_39_31_alg».proof.Proof.Gen.Kernel
import proofs.«209090_g87076166960129_cont_sun_c4_39_31_alg».proof.Proof.Gen.KernelIdeal
import proofs.«209090_g87076166960129_cont_sun_c4_39_31_alg».proof.Proof.Gen.ReferenceIdeal
import proofs.«209090_g87076166960129_cont_sun_c4_39_31_alg».proof.Proof.Gen.Pre_input_domain
import proofs.«209090_g87076166960129_cont_sun_c4_39_31_alg».proof.Proof.Frames
import proofs.«209090_g87076166960129_cont_sun_c4_39_31_alg».proof.Proof.Algebraic
import proofs.«209090_g87076166960129_cont_sun_c4_39_31_alg».proof.Proof.TileTrip
import proofs.«209090_g87076166960129_cont_sun_c4_39_31_alg».proof.Proof.TileTripK
import proofs.«209090_g87076166960129_cont_sun_c4_39_31_alg».proof.Proof.TileTripV

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.Frames.frame_Kernel (fun d L => Cert.Kernel.TileTrip.trip d L),
    Cert.Proof.Frames.frame_KernelIdeal (fun d L => Cert.KernelIdeal.TileTrip.trip d L),
    Cert.Proof.Frames.frame_ReferenceIdeal,
    trivial,
    Cert.Proof.Algebraic.algebraic (fun d L => Cert.KernelIdeal.TileTripV.tripV d L)⟩

end Cert.Proof

end
